-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v477)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v477) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v510) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x2048 : Shape := ⟨3, ![8, 8192, 2048]⟩
abbrev S2048 : Shape := ⟨1, ![2048]⟩
abbrev S2048x4096 : Shape := ⟨2, ![2048, 4096]⟩
abbrev S_ : Shape := ⟨0, ![]⟩

class Facts : Prop where
  bcast_S_S8x8192x2048 : S_.BroadcastsInDim S8x8192x2048 (![] : Fin 0 → Fin S8x8192x2048.rank)
  reducesTo_S8x8192x2048_S_d0_1_2 : S8x8192x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S2048x4096 : S_.BroadcastsInDim S2048x4096 (![] : Fin 0 → Fin S2048x4096.rank)
  reducesTo_S2048x4096_S_d0_1 : S2048x4096.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S2048 .f32) (main_arg12 : FVec F S2048 .f32) (main_arg13 : FVec F S2048 .f32) (main_v48 : IVec S_ 1) (main_v49 : FVec F S2048x4096 .f32) (main_v50 : FVec F S2048x4096 .f32) : IVec S_ 1 :=
  let main_v51 : IVec S2048x4096 1 := cmpf .olt main_v49 main_v50
  let main_c_19 : IVec S_ 1 := constantI S_ 1 1#1
  let main_v52 : IVec S_ 1 := (fun x v => Host.reduce IntOp.andi x v reducesTo_S2048x4096_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_v63 main_v67

def fn_part2 {F : FTy → Type} [FloatOps F] (main_arg7 : FVec F S2048 .f32) (main_arg8 : FVec F S2048 .f32) (main_arg9 : FVec F S2048 .f32) (main_arg10 : FVec F S2048x4096 .f32) (main_arg11 : FVec F S2048 .f32) (main_arg12 : FVec F S2048 .f32) (main_arg13 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x4096 .f32 := Host.absf main_arg10
  let main_cst_18 : FVec F S_ .f32 := constant S_ .f32 0x7F800000#32
  let main_v50 : FVec F S2048x4096 .f32 := broadcastInDim S2048x4096 ![] bcast_S_S2048x4096 main_cst_18
  fn_part3 (F := F) main_arg11 main_arg12 main_arg13 main_v48 main_v49 main_v50

def fn_part1 {F : FTy → Type} [FloatOps F] (main_arg4 : FVec F S2048 .f32) (main_arg5 : FVec F S2048 .f32) (main_arg6 : FVec F S2048 .f32) (main_arg7 : FVec F S2048 .f32) (main_arg8 : FVec F S2048 .f32) (main_arg9 : FVec F S2048 .f32) (main_arg10 : FVec F S2048x4096 .f32) (main_arg11 : FVec F S2048 .f32) (main_arg12 : FVec F S2048 .f32) (main_arg13 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8x8192x2048 .f32) (main_arg1 : FVec F S2048 .f32) (main_arg2 : FVec F S2048 .f32) (main_arg3 : FVec F S2048 .f32) (main_arg4 : FVec F S2048 .f32) (main_arg5 : FVec F S2048 .f32) (main_arg6 : FVec F S2048 .f32) (main_arg7 : FVec F S2048 .f32) (main_arg8 : FVec F S2048 .f32) (main_arg9 : FVec F S2048 .f32) (main_arg10 : FVec F S2048x4096 .f32) (main_arg11 : FVec F S2048 .f32) (main_arg12 : FVec F S2048 .f32) (main_arg13 : FVec F S2048 .f32) : IVec S_ 1 :=
  let main_v0 : FVec F S8x8192x2048 .f32 := Host.absf main_arg0
  let main_cst : FVec F S_ .f32 := constant S_ .f32 0x7F800000#32
  let main_v1 : FVec F S8x8192x2048 .f32 := broadcastInDim S8x8192x2048 ![] bcast_S_S8x8192x2048 main_cst
  let main_v2 : IVec S8x8192x2048 1 := cmpf .olt main_v0 main_v1
  let main_c : IVec S_ 1 := constantI S_ 1 1#1
  let main_v3 : IVec S_ 1 := (fun x v => Host.reduce IntOp.andi x v reducesTo_S8x8192x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_v13 main_v16
-- ==== Kernel.lean ====
abbrev S8x8192x2048 : Shape := ⟨3, ![8, 8192, 2048]⟩
abbrev S2048 : Shape := ⟨1, ![2048]⟩
abbrev S2048x4096 : Shape := ⟨2, ![2048, 4096]⟩
abbrev S8x1x2048 : Shape := ⟨3, ![8, 1, 2048]⟩
abbrev S8x2048 : Shape := ⟨2, ![8, 2048]⟩
abbrev S4096x2048 : Shape := ⟨2, ![4096, 2048]⟩
abbrev S1x2048 : Shape := ⟨2, ![1, 2048]⟩
abbrev S8x4096 : Shape := ⟨2, ![8, 4096]⟩
abbrev S_ : Shape := ⟨0, ![]⟩
abbrev S8 : Shape := ⟨1, ![8]⟩
abbrev S8x1 : Shape := ⟨2, ![8, 1]⟩
abbrev S1x8x2048 : Shape := ⟨3, ![1, 8, 2048]⟩
abbrev S7x8x2048 : Shape := ⟨3, ![7, 8, 2048]⟩
abbrev S8x128x2048 : Shape := ⟨3, ![8, 128, 2048]⟩

abbrev nBuf : Space → Nat
  | .hbm => 695
  | .vmem => 5
  | .smem => 0
  | _ => 0

abbrev hbmTy0_0 (i : Nat) : BufTy := match i % 128 with
  | 0 => ⟨S8x8192x2048, .f32⟩
  | 1 => ⟨S2048, .f32⟩
  | 2 => ⟨S2048, .f32⟩
  | 3 => ⟨S2048, .f32⟩
  | 4 => ⟨S2048, .f32⟩
  | 5 => ⟨S2048, .f32⟩
  | 6 => ⟨S2048, .f32⟩
  | 7 => ⟨S2048, .f32⟩
  | 8 => ⟨S2048, .f32⟩
  | 9 => ⟨S2048, .f32⟩
  | 10 => ⟨S2048x4096, .f32⟩
  | 11 => ⟨S2048, .f32⟩
  | 12 => ⟨S2048, .f32⟩
  | 13 => ⟨S2048, .f32⟩
  | 14 => ⟨S8x1x2048, .f32⟩
  | 15 => ⟨S8x2048, .f32⟩
  | 16 => ⟨S8x1x2048, .f32⟩
  | 17 => ⟨S8x2048, .f32⟩
  | 18 => ⟨S8x1x2048, .f32⟩
  | 19 => ⟨S8x2048, .f32⟩
  | 20 => ⟨S8x1x2048, .f32⟩
  | 21 => ⟨S8x2048, .f32⟩
  | 22 => ⟨S8x1x2048, .f32⟩
  | 23 => ⟨S8x2048, .f32⟩
  | 24 => ⟨S8x1x2048, .f32⟩
  | 25 => ⟨S8x2048, .f32⟩
  | 26 => ⟨S8x1x2048, .f32⟩
  | 27 => ⟨S8x2048, .f32⟩
  | 28 => ⟨S8x1x2048, .f32⟩
  | 29 => ⟨S8x2048, .f32⟩
  | 30 => ⟨S8x1x2048, .f32⟩
  | 31 => ⟨S8x2048, .f32⟩
  | 32 => ⟨S8x1x2048, .f32⟩
  | 33 => ⟨S8x2048, .f32⟩
  | 34 => ⟨S4096x2048, .f32⟩
  | 35 => ⟨S1x2048, .f32⟩
  | 36 => ⟨S8x2048, .f32⟩
  | 37 => ⟨S8x2048, .f32⟩
  | 38 => ⟨S1x2048, .f32⟩
  | 39 => ⟨S8x2048, .f32⟩
  | 40 => ⟨S8x2048, .f32⟩
  | 41 => ⟨S8x2048, .f32⟩
  | 42 => ⟨S1x2048, .f32⟩
  | 43 => ⟨S8x2048, .f32⟩
  | 44 => ⟨S8x2048, .f32⟩
  | 45 => ⟨S1x2048, .f32⟩
  | 46 => ⟨S8x2048, .f32⟩
  | 47 => ⟨S8x2048, .f32⟩
  | 48 => ⟨S1x2048, .f32⟩
  | 49 => ⟨S8x2048, .f32⟩
  | 50 => ⟨S8x2048, .f32⟩
  | 51 => ⟨S8x2048, .f32⟩
  | 52 => ⟨S1x2048, .f32⟩
  | 53 => ⟨S8x2048, .f32⟩
  | 54 => ⟨S8x2048, .f32⟩
  | 55 => ⟨S1x2048, .f32⟩
  | 56 => ⟨S8x2048, .f32⟩
  | 57 => ⟨S8x2048, .f32⟩
  | 58 => ⟨S1x2048, .f32⟩
  | 59 => ⟨S8x2048, .f32⟩
  | 60 => ⟨S8x2048, .f32⟩
  | 61 => ⟨S8x2048, .f32⟩
  | 62 => ⟨S1x2048, .f32⟩
  | 63 => ⟨S8x2048, .f32⟩
  | 64 => ⟨S8x2048, .f32⟩
  | 65 => ⟨S8x4096, .f32⟩
  | 66 => ⟨S8x2048, .f32⟩
  | 67 => ⟨S1x2048, .f32⟩
  | 68 => ⟨S8x2048, .f32⟩
  | 69 => ⟨S8x2048, .f32⟩
  | 70 => ⟨S8x2048, .f32⟩
  | 71 => ⟨S8x2048, .f32⟩
  | 72 => ⟨S_, .f32⟩
  | 73 => ⟨S8x2048, .f32⟩
  | 74 => ⟨S8x2048, .f32⟩
  | 75 => ⟨S_, .f32⟩
  | 76 => ⟨S8x2048, .f32⟩
  | 77 => ⟨S8x2048, .f32⟩
  | 78 => ⟨S8x2048, .f32⟩
  | 79 => ⟨S_, .f32⟩
  | 80 => ⟨S8x2048, .f32⟩
  | 81 => ⟨S8x2048, .f32⟩
  | 82 => ⟨S8x2048, .f32⟩
  | 83 => ⟨S8x2048, .f32⟩
  | 84 => ⟨S_, .f32⟩
  | 85 => ⟨S8, .f32⟩
  | 86 => ⟨S8x1, .f32⟩
  | 87 => ⟨S_, .f32⟩
  | 88 => ⟨S8x1, .f32⟩
  | 89 => ⟨S8x1, .f32⟩
  | 90 => ⟨S_, .i32⟩
  | 91 => ⟨S_, .f32⟩
  | 92 => ⟨S8, .f32⟩
  | 93 => ⟨S8x1, .f32⟩
  | 94 => ⟨S_, .f32⟩
  | 95 => ⟨S8x1, .f32⟩
  | 96 => ⟨S8x1, .f32⟩
  | 97 => ⟨S8x2048, .f32⟩
  | 98 => ⟨S8x2048, .f32⟩
  | 99 => ⟨S8x2048, .f32⟩
  | 100 => ⟨S_, .f32⟩
  | 101 => ⟨S_, .f32⟩
  | 102 => ⟨S_, .f32⟩
  | 103 => ⟨S_, .f32⟩
  | 104 => ⟨S8, .f32⟩
  | 105 => ⟨S8x1, .f32⟩
  | 106 => ⟨S8x1, .f32⟩
  | 107 => ⟨S8x1, .f32⟩
  | 108 => ⟨S_, .f32⟩
  | 109 => ⟨S_, .i1⟩
  | 110 => ⟨S_, .f32⟩
  | 111 => ⟨S_, .f32⟩
  | 112 => ⟨S8x1, .f32⟩
  | 113 => ⟨S8x1, .f32⟩
  | 114 => ⟨S8x2048, .f32⟩
  | 115 => ⟨S8x2048, .f32⟩
  | 116 => ⟨S_, .f32⟩
  | 117 => ⟨S8x1, .f32⟩
  | 118 => ⟨S8x1, .f32⟩
  | 119 => ⟨S8x1, .f32⟩
  | 120 => ⟨S8x2048, .f32⟩
  | 121 => ⟨S8x2048, .f32⟩
  | 122 => ⟨S1x2048, .f32⟩
  | 123 => ⟨S8x2048, .f32⟩
  | 124 => ⟨S8x2048, .f32⟩
  | 125 => ⟨S1x2048, .f32⟩
  | 126 => ⟨S8x2048, .f32⟩
  | 127 => ⟨S8x2048, .f32⟩
  | _ => ⟨S8x8192x2048, .f32⟩

abbrev hbmTy0_1 (i : Nat) : BufTy := match i % 128 with
  | 0 => ⟨S1x2048, .f32⟩
  | 1 => ⟨S8x2048, .f32⟩
  | 2 => ⟨S8x2048, .f32⟩
  | 3 => ⟨S1x2048, .f32⟩
  | 4 => ⟨S8x2048, .f32⟩
  | 5 => ⟨S8x2048, .f32⟩
  | 6 => ⟨S8x2048, .f32⟩
  | 7 => ⟨S1x2048, .f32⟩
  | 8 => ⟨S8x2048, .f32⟩
  | 9 => ⟨S8x2048, .f32⟩
  | 10 => ⟨S1x2048, .f32⟩
  | 11 => ⟨S8x2048, .f32⟩
  | 12 => ⟨S8x2048, .f32⟩
  | 13 => ⟨S1x2048, .f32⟩
  | 14 => ⟨S8x2048, .f32⟩
  | 15 => ⟨S8x2048, .f32⟩
  | 16 => ⟨S8x2048, .f32⟩
  | 17 => ⟨S1x2048, .f32⟩
  | 18 => ⟨S8x2048, .f32⟩
  | 19 => ⟨S8x2048, .f32⟩
  | 20 => ⟨S1x2048, .f32⟩
  | 21 => ⟨S8x2048, .f32⟩
  | 22 => ⟨S8x2048, .f32⟩
  | 23 => ⟨S1x2048, .f32⟩
  | 24 => ⟨S8x2048, .f32⟩
  | 25 => ⟨S8x2048, .f32⟩
  | 26 => ⟨S8x2048, .f32⟩
  | 27 => ⟨S1x2048, .f32⟩
  | 28 => ⟨S8x2048, .f32⟩
  | 29 => ⟨S8x2048, .f32⟩
  | 30 => ⟨S8x4096, .f32⟩
  | 31 => ⟨S8x2048, .f32⟩
  | 32 => ⟨S1x2048, .f32⟩
  | 33 => ⟨S8x2048, .f32⟩
  | 34 => ⟨S8x2048, .f32⟩
  | 35 => ⟨S8x2048, .f32⟩
  | 36 => ⟨S8x2048, .f32⟩
  | 37 => ⟨S_, .f32⟩
  | 38 => ⟨S8x2048, .f32⟩
  | 39 => ⟨S8x2048, .f32⟩
  | 40 => ⟨S_, .f32⟩
  | 41 => ⟨S8x2048, .f32⟩
  | 42 => ⟨S8x2048, .f32⟩
  | 43 => ⟨S8x2048, .f32⟩
  | 44 => ⟨S_, .f32⟩
  | 45 => ⟨S8x2048, .f32⟩
  | 46 => ⟨S8x2048, .f32⟩
  | 47 => ⟨S8x2048, .f32⟩
  | 48 => ⟨S8x2048, .f32⟩
  | 49 => ⟨S_, .f32⟩
  | 50 => ⟨S8, .f32⟩
  | 51 => ⟨S8x1, .f32⟩
  | 52 => ⟨S_, .f32⟩
  | 53 => ⟨S8x1, .f32⟩
  | 54 => ⟨S8x1, .f32⟩
  | 55 => ⟨S_, .i32⟩
  | 56 => ⟨S_, .f32⟩
  | 57 => ⟨S8, .f32⟩
  | 58 => ⟨S8x1, .f32⟩
  | 59 => ⟨S_, .f32⟩
  | 60 => ⟨S8x1, .f32⟩
  | 61 => ⟨S8x1, .f32⟩
  | 62 => ⟨S8x2048, .f32⟩
  | 63 => ⟨S8x2048, .f32⟩
  | 64 => ⟨S8x2048, .f32⟩
  | 65 => ⟨S_, .f32⟩
  | 66 => ⟨S_, .f32⟩
  | 67 => ⟨S_, .f32⟩
  | 68 => ⟨S_, .f32⟩
  | 69 => ⟨S8, .f32⟩
  | 70 => ⟨S8x1, .f32⟩
  | 71 => ⟨S8x1, .f32⟩
  | 72 => ⟨S8x1, .f32⟩
  | 73 => ⟨S_, .f32⟩
  | 74 => ⟨S_, .i1⟩
  | 75 => ⟨S_, .f32⟩
  | 76 => ⟨S_, .f32⟩
  | 77 => ⟨S8x1, .f32⟩
  | 78 => ⟨S8x1, .f32⟩
  | 79 => ⟨S8x2048, .f32⟩
  | 80 => ⟨S8x2048, .f32⟩
  | 81 => ⟨S_, .f32⟩
  | 82 => ⟨S8x1, .f32⟩
  | 83 => ⟨S8x1, .f32⟩
  | 84 => ⟨S8x1, .f32⟩
  | 85 => ⟨S8x2048, .f32⟩
  | 86 => ⟨S8x2048, .f32⟩
  | 87 => ⟨S1x2048, .f32⟩
  | 88 => ⟨S8x2048, .f32⟩
  | 89 => ⟨S8x2048, .f32⟩
  | 90 => ⟨S1x2048, .f32⟩
  | 91 => ⟨S8x2048, .f32⟩
  | 92 => ⟨S8x2048, .f32⟩
  | 93 => ⟨S1x2048, .f32⟩
  | 94 => ⟨S8x2048, .f32⟩
  | 95 => ⟨S8x2048, .f32⟩
  | 96 => ⟨S1x2048, .f32⟩
  | 97 => ⟨S8x2048, .f32⟩
  | 98 => ⟨S8x2048, .f32⟩
  | 99 => ⟨S8x2048, .f32⟩
  | 100 => ⟨S1x2048, .f32⟩
  | 101 => ⟨S8x2048, .f32⟩
  | 102 => ⟨S8x2048, .f32⟩
  | 103 => ⟨S1x2048, .f32⟩
  | 104 => ⟨S8x2048, .f32⟩
  | 105 => ⟨S8x2048, .f32⟩
  | 106 => ⟨S1x2048, .f32⟩
  | 107 => ⟨S8x2048, .f32⟩
  | 108 => ⟨S8x2048, .f32⟩
  | 109 => ⟨S8x2048, .f32⟩
  | 110 => ⟨S1x2048, .f32⟩
  | 111 => ⟨S8x2048, .f32⟩
  | 112 => ⟨S8x2048, .f32⟩
  | 113 => ⟨S1x2048, .f32⟩
  | 114 => ⟨S8x2048, .f32⟩
  | 115 => ⟨S8x2048, .f32⟩
  | 116 => ⟨S1x2048, .f32⟩
  | 117 => ⟨S8x2048, .f32⟩
  | 118 => ⟨S8x2048, .f32⟩
  | 119 => ⟨S8x2048, .f32⟩
  | 120 => ⟨S1x2048, .f32⟩
  | 121 => ⟨S8x2048, .f32⟩
  | 122 => ⟨S8x2048, .f32⟩
  | 123 => ⟨S8x4096, .f32⟩
  | 124 => ⟨S8x2048, .f32⟩
  | 125 => ⟨S1x2048, .f32⟩
  | 126 => ⟨S8x2048, .f32⟩
  | 127 => ⟨S8x2048, .f32⟩
  | _ => ⟨S8x8192x2048, .f32⟩

abbrev hbmTy0_2 (i : Nat) : BufTy := match i % 128 with
  | 0 => ⟨S8x2048, .f32⟩
  | 1 => ⟨S8x2048, .f32⟩
  | 2 => ⟨S_, .f32⟩
  | 3 => ⟨S8x2048, .f32⟩
  | 4 => ⟨S8x2048, .f32⟩
  | 5 => ⟨S_, .f32⟩
  | 6 => ⟨S8x2048, .f32⟩
  | 7 => ⟨S8x2048, .f32⟩
  | 8 => ⟨S8x2048, .f32⟩
  | 9 => ⟨S_, .f32⟩
  | 10 => ⟨S8x2048, .f32⟩
  | 11 => ⟨S8x2048, .f32⟩
  | 12 => ⟨S8x2048, .f32⟩
  | 13 => ⟨S8x2048, .f32⟩
  | 14 => ⟨S_, .f32⟩
  | 15 => ⟨S8, .f32⟩
  | 16 => ⟨S8x1, .f32⟩
  | 17 => ⟨S_, .f32⟩
  | 18 => ⟨S8x1, .f32⟩
  | 19 => ⟨S8x1, .f32⟩
  | 20 => ⟨S_, .i32⟩
  | 21 => ⟨S_, .f32⟩
  | 22 => ⟨S8, .f32⟩
  | 23 => ⟨S8x1, .f32⟩
  | 24 => ⟨S_, .f32⟩
  | 25 => ⟨S8x1, .f32⟩
  | 26 => ⟨S8x1, .f32⟩
  | 27 => ⟨S8x2048, .f32⟩
  | 28 => ⟨S8x2048, .f32⟩
  | 29 => ⟨S8x2048, .f32⟩
  | 30 => ⟨S_, .f32⟩
  | 31 => ⟨S_, .f32⟩
  | 32 => ⟨S_, .f32⟩
  | 33 => ⟨S_, .f32⟩
  | 34 => ⟨S8, .f32⟩
  | 35 => ⟨S8x1, .f32⟩
  | 36 => ⟨S8x1, .f32⟩
  | 37 => ⟨S8x1, .f32⟩
  | 38 => ⟨S_, .f32⟩
  | 39 => ⟨S_, .i1⟩
  | 40 => ⟨S_, .f32⟩
  | 41 => ⟨S_, .f32⟩
  | 42 => ⟨S8x1, .f32⟩
  | 43 => ⟨S8x1, .f32⟩
  | 44 => ⟨S8x2048, .f32⟩
  | 45 => ⟨S8x2048, .f32⟩
  | 46 => ⟨S_, .f32⟩
  | 47 => ⟨S8x1, .f32⟩
  | 48 => ⟨S8x1, .f32⟩
  | 49 => ⟨S8x1, .f32⟩
  | 50 => ⟨S8x2048, .f32⟩
  | 51 => ⟨S8x2048, .f32⟩
  | 52 => ⟨S1x2048, .f32⟩
  | 53 => ⟨S8x2048, .f32⟩
  | 54 => ⟨S8x2048, .f32⟩
  | 55 => ⟨S1x2048, .f32⟩
  | 56 => ⟨S8x2048, .f32⟩
  | 57 => ⟨S8x2048, .f32⟩
  | 58 => ⟨S1x2048, .f32⟩
  | 59 => ⟨S8x2048, .f32⟩
  | 60 => ⟨S8x2048, .f32⟩
  | 61 => ⟨S1x2048, .f32⟩
  | 62 => ⟨S8x2048, .f32⟩
  | 63 => ⟨S8x2048, .f32⟩
  | 64 => ⟨S8x2048, .f32⟩
  | 65 => ⟨S1x2048, .f32⟩
  | 66 => ⟨S8x2048, .f32⟩
  | 67 => ⟨S8x2048, .f32⟩
  | 68 => ⟨S1x2048, .f32⟩
  | 69 => ⟨S8x2048, .f32⟩
  | 70 => ⟨S8x2048, .f32⟩
  | 71 => ⟨S1x2048, .f32⟩
  | 72 => ⟨S8x2048, .f32⟩
  | 73 => ⟨S8x2048, .f32⟩
  | 74 => ⟨S8x2048, .f32⟩
  | 75 => ⟨S1x2048, .f32⟩
  | 76 => ⟨S8x2048, .f32⟩
  | 77 => ⟨S8x2048, .f32⟩
  | 78 => ⟨S1x2048, .f32⟩
  | 79 => ⟨S8x2048, .f32⟩
  | 80 => ⟨S8x2048, .f32⟩
  | 81 => ⟨S1x2048, .f32⟩
  | 82 => ⟨S8x2048, .f32⟩
  | 83 => ⟨S8x2048, .f32⟩
  | 84 => ⟨S8x2048, .f32⟩
  | 85 => ⟨S1x2048, .f32⟩
  | 86 => ⟨S8x2048, .f32⟩
  | 87 => ⟨S8x2048, .f32⟩
  | 88 => ⟨S8x4096, .f32⟩
  | 89 => ⟨S8x2048, .f32⟩
  | 90 => ⟨S1x2048, .f32⟩
  | 91 => ⟨S8x2048, .f32⟩
  | 92 => ⟨S8x2048, .f32⟩
  | 93 => ⟨S8x2048, .f32⟩
  | 94 => ⟨S8x2048, .f32⟩
  | 95 => ⟨S_, .f32⟩
  | 96 => ⟨S8x2048, .f32⟩
  | 97 => ⟨S8x2048, .f32⟩
  | 98 => ⟨S_, .f32⟩
  | 99 => ⟨S8x2048, .f32⟩
  | 100 => ⟨S8x2048, .f32⟩
  | 101 => ⟨S8x2048, .f32⟩
  | 102 => ⟨S_, .f32⟩
  | 103 => ⟨S8x2048, .f32⟩
  | 104 => ⟨S8x2048, .f32⟩
  | 105 => ⟨S8x2048, .f32⟩
  | 106 => ⟨S8x2048, .f32⟩
  | 107 => ⟨S_, .f32⟩
  | 108 => ⟨S8, .f32⟩
  | 109 => ⟨S8x1, .f32⟩
  | 110 => ⟨S_, .f32⟩
  | 111 => ⟨S8x1, .f32⟩
  | 112 => ⟨S8x1, .f32⟩
  | 113 => ⟨S_, .i32⟩
  | 114 => ⟨S_, .f32⟩
  | 115 => ⟨S8, .f32⟩
  | 116 => ⟨S8x1, .f32⟩
  | 117 => ⟨S_, .f32⟩
  | 118 => ⟨S8x1, .f32⟩
  | 119 => ⟨S8x1, .f32⟩
  | 120 => ⟨S8x2048, .f32⟩
  | 121 => ⟨S8x2048, .f32⟩
  | 122 => ⟨S8x2048, .f32⟩
  | 123 => ⟨S_, .f32⟩
  | 124 => ⟨S_, .f32⟩
  | 125 => ⟨S_, .f32⟩
  | 126 => ⟨S_, .f32⟩
  | 127 => ⟨S8, .f32⟩
  | _ => ⟨S8x8192x2048, .f32⟩

abbrev hbmTy0_3 (i : Nat) : BufTy := match i % 128 with
  | 0 => ⟨S8x1, .f32⟩
  | 1 => ⟨S8x1, .f32⟩
  | 2 => ⟨S8x1, .f32⟩
  | 3 => ⟨S_, .f32⟩
  | 4 => ⟨S_, .i1⟩
  | 5 => ⟨S_, .f32⟩
  | 6 => ⟨S_, .f32⟩
  | 7 => ⟨S8x1, .f32⟩
  | 8 => ⟨S8x1, .f32⟩
  | 9 => ⟨S8x2048, .f32⟩
  | 10 => ⟨S8x2048, .f32⟩
  | 11 => ⟨S_, .f32⟩
  | 12 => ⟨S8x1, .f32⟩
  | 13 => ⟨S8x1, .f32⟩
  | 14 => ⟨S8x1, .f32⟩
  | 15 => ⟨S8x2048, .f32⟩
  | 16 => ⟨S8x2048, .f32⟩
  | 17 => ⟨S1x2048, .f32⟩
  | 18 => ⟨S8x2048, .f32⟩
  | 19 => ⟨S8x2048, .f32⟩
  | 20 => ⟨S1x2048, .f32⟩
  | 21 => ⟨S8x2048, .f32⟩
  | 22 => ⟨S8x2048, .f32⟩
  | 23 => ⟨S1x2048, .f32⟩
  | 24 => ⟨S8x2048, .f32⟩
  | 25 => ⟨S8x2048, .f32⟩
  | 26 => ⟨S1x2048, .f32⟩
  | 27 => ⟨S8x2048, .f32⟩
  | 28 => ⟨S8x2048, .f32⟩
  | 29 => ⟨S8x2048, .f32⟩
  | 30 => ⟨S1x2048, .f32⟩
  | 31 => ⟨S8x2048, .f32⟩
  | 32 => ⟨S8x2048, .f32⟩
  | 33 => ⟨S1x2048, .f32⟩
  | 34 => ⟨S8x2048, .f32⟩
  | 35 => ⟨S8x2048, .f32⟩
  | 36 => ⟨S1x2048, .f32⟩
  | 37 => ⟨S8x2048, .f32⟩
  | 38 => ⟨S8x2048, .f32⟩
  | 39 => ⟨S8x2048, .f32⟩
  | 40 => ⟨S1x2048, .f32⟩
  | 41 => ⟨S8x2048, .f32⟩
  | 42 => ⟨S8x2048, .f32⟩
  | 43 => ⟨S1x2048, .f32⟩
  | 44 => ⟨S8x2048, .f32⟩
  | 45 => ⟨S8x2048, .f32⟩
  | 46 => ⟨S1x2048, .f32⟩
  | 47 => ⟨S8x2048, .f32⟩
  | 48 => ⟨S8x2048, .f32⟩
  | 49 => ⟨S8x2048, .f32⟩
  | 50 => ⟨S1x2048, .f32⟩
  | 51 => ⟨S8x2048, .f32⟩
  | 52 => ⟨S8x2048, .f32⟩
  | 53 => ⟨S8x4096, .f32⟩
  | 54 => ⟨S8x2048, .f32⟩
  | 55 => ⟨S1x2048, .f32⟩
  | 56 => ⟨S8x2048, .f32⟩
  | 57 => ⟨S8x2048, .f32⟩
  | 58 => ⟨S8x2048, .f32⟩
  | 59 => ⟨S8x2048, .f32⟩
  | 60 => ⟨S_, .f32⟩
  | 61 => ⟨S8x2048, .f32⟩
  | 62 => ⟨S8x2048, .f32⟩
  | 63 => ⟨S_, .f32⟩
  | 64 => ⟨S8x2048, .f32⟩
  | 65 => ⟨S8x2048, .f32⟩
  | 66 => ⟨S8x2048, .f32⟩
  | 67 => ⟨S_, .f32⟩
  | 68 => ⟨S8x2048, .f32⟩
  | 69 => ⟨S8x2048, .f32⟩
  | 70 => ⟨S8x2048, .f32⟩
  | 71 => ⟨S8x2048, .f32⟩
  | 72 => ⟨S_, .f32⟩
  | 73 => ⟨S8, .f32⟩
  | 74 => ⟨S8x1, .f32⟩
  | 75 => ⟨S_, .f32⟩
  | 76 => ⟨S8x1, .f32⟩
  | 77 => ⟨S8x1, .f32⟩
  | 78 => ⟨S_, .i32⟩
  | 79 => ⟨S_, .f32⟩
  | 80 => ⟨S8, .f32⟩
  | 81 => ⟨S8x1, .f32⟩
  | 82 => ⟨S_, .f32⟩
  | 83 => ⟨S8x1, .f32⟩
  | 84 => ⟨S8x1, .f32⟩
  | 85 => ⟨S8x2048, .f32⟩
  | 86 => ⟨S8x2048, .f32⟩
  | 87 => ⟨S8x2048, .f32⟩
  | 88 => ⟨S_, .f32⟩
  | 89 => ⟨S_, .f32⟩
  | 90 => ⟨S_, .f32⟩
  | 91 => ⟨S_, .f32⟩
  | 92 => ⟨S8, .f32⟩
  | 93 => ⟨S8x1, .f32⟩
  | 94 => ⟨S8x1, .f32⟩
  | 95 => ⟨S8x1, .f32⟩
  | 96 => ⟨S_, .f32⟩
  | 97 => ⟨S_, .i1⟩
  | 98 => ⟨S_, .f32⟩
  | 99 => ⟨S_, .f32⟩
  | 100 => ⟨S8x1, .f32⟩
  | 101 => ⟨S8x1, .f32⟩
  | 102 => ⟨S8x2048, .f32⟩
  | 103 => ⟨S8x2048, .f32⟩
  | 104 => ⟨S_, .f32⟩
  | 105 => ⟨S8x1, .f32⟩
  | 106 => ⟨S8x1, .f32⟩
  | 107 => ⟨S8x1, .f32⟩
  | 108 => ⟨S8x2048, .f32⟩
  | 109 => ⟨S8x2048, .f32⟩
  | 110 => ⟨S1x2048, .f32⟩
  | 111 => ⟨S8x2048, .f32⟩
  | 112 => ⟨S8x2048, .f32⟩
  | 113 => ⟨S1x2048, .f32⟩
  | 114 => ⟨S8x2048, .f32⟩
  | 115 => ⟨S8x2048, .f32⟩
  | 116 => ⟨S1x2048, .f32⟩
  | 117 => ⟨S8x2048, .f32⟩
  | 118 => ⟨S8x2048, .f32⟩
  | 119 => ⟨S1x2048, .f32⟩
  | 120 => ⟨S8x2048, .f32⟩
  | 121 => ⟨S8x2048, .f32⟩
  | 122 => ⟨S8x2048, .f32⟩
  | 123 => ⟨S1x2048, .f32⟩
  | 124 => ⟨S8x2048, .f32⟩
  | 125 => ⟨S8x2048, .f32⟩
  | 126 => ⟨S1x2048, .f32⟩
  | 127 => ⟨S8x2048, .f32⟩
  | _ => ⟨S8x8192x2048, .f32⟩

abbrev hbmTy0_4 (i : Nat) : BufTy := match i % 128 with
  | 0 => ⟨S8x2048, .f32⟩
  | 1 => ⟨S1x2048, .f32⟩
  | 2 => ⟨S8x2048, .f32⟩
  | 3 => ⟨S8x2048, .f32⟩
  | 4 => ⟨S8x2048, .f32⟩
  | 5 => ⟨S1x2048, .f32⟩
  | 6 => ⟨S8x2048, .f32⟩
  | 7 => ⟨S8x2048, .f32⟩
  | 8 => ⟨S1x2048, .f32⟩
  | 9 => ⟨S8x2048, .f32⟩
  | 10 => ⟨S8x2048, .f32⟩
  | 11 => ⟨S1x2048, .f32⟩
  | 12 => ⟨S8x2048, .f32⟩
  | 13 => ⟨S8x2048, .f32⟩
  | 14 => ⟨S8x2048, .f32⟩
  | 15 => ⟨S1x2048, .f32⟩
  | 16 => ⟨S8x2048, .f32⟩
  | 17 => ⟨S8x2048, .f32⟩
  | 18 => ⟨S8x4096, .f32⟩
  | 19 => ⟨S8x2048, .f32⟩
  | 20 => ⟨S1x2048, .f32⟩
  | 21 => ⟨S8x2048, .f32⟩
  | 22 => ⟨S8x2048, .f32⟩
  | 23 => ⟨S8x2048, .f32⟩
  | 24 => ⟨S8x2048, .f32⟩
  | 25 => ⟨S_, .f32⟩
  | 26 => ⟨S8x2048, .f32⟩
  | 27 => ⟨S8x2048, .f32⟩
  | 28 => ⟨S_, .f32⟩
  | 29 => ⟨S8x2048, .f32⟩
  | 30 => ⟨S8x2048, .f32⟩
  | 31 => ⟨S8x2048, .f32⟩
  | 32 => ⟨S_, .f32⟩
  | 33 => ⟨S8x2048, .f32⟩
  | 34 => ⟨S8x2048, .f32⟩
  | 35 => ⟨S8x2048, .f32⟩
  | 36 => ⟨S8x2048, .f32⟩
  | 37 => ⟨S_, .f32⟩
  | 38 => ⟨S8, .f32⟩
  | 39 => ⟨S8x1, .f32⟩
  | 40 => ⟨S_, .f32⟩
  | 41 => ⟨S8x1, .f32⟩
  | 42 => ⟨S8x1, .f32⟩
  | 43 => ⟨S_, .i32⟩
  | 44 => ⟨S_, .f32⟩
  | 45 => ⟨S8, .f32⟩
  | 46 => ⟨S8x1, .f32⟩
  | 47 => ⟨S_, .f32⟩
  | 48 => ⟨S8x1, .f32⟩
  | 49 => ⟨S8x1, .f32⟩
  | 50 => ⟨S8x2048, .f32⟩
  | 51 => ⟨S8x2048, .f32⟩
  | 52 => ⟨S8x2048, .f32⟩
  | 53 => ⟨S_, .f32⟩
  | 54 => ⟨S_, .f32⟩
  | 55 => ⟨S_, .f32⟩
  | 56 => ⟨S_, .f32⟩
  | 57 => ⟨S8, .f32⟩
  | 58 => ⟨S8x1, .f32⟩
  | 59 => ⟨S8x1, .f32⟩
  | 60 => ⟨S8x1, .f32⟩
  | 61 => ⟨S_, .f32⟩
  | 62 => ⟨S_, .i1⟩
  | 63 => ⟨S_, .f32⟩
  | 64 => ⟨S_, .f32⟩
  | 65 => ⟨S8x1, .f32⟩
  | 66 => ⟨S8x1, .f32⟩
  | 67 => ⟨S8x2048, .f32⟩
  | 68 => ⟨S8x2048, .f32⟩
  | 69 => ⟨S_, .f32⟩
  | 70 => ⟨S8x1, .f32⟩
  | 71 => ⟨S8x1, .f32⟩
  | 72 => ⟨S8x1, .f32⟩
  | 73 => ⟨S8x2048, .f32⟩
  | 74 => ⟨S8x2048, .f32⟩
  | 75 => ⟨S1x2048, .f32⟩
  | 76 => ⟨S8x2048, .f32⟩
  | 77 => ⟨S8x2048, .f32⟩
  | 78 => ⟨S1x2048, .f32⟩
  | 79 => ⟨S8x2048, .f32⟩
  | 80 => ⟨S8x2048, .f32⟩
  | 81 => ⟨S1x2048, .f32⟩
  | 82 => ⟨S8x2048, .f32⟩
  | 83 => ⟨S8x2048, .f32⟩
  | 84 => ⟨S1x2048, .f32⟩
  | 85 => ⟨S8x2048, .f32⟩
  | 86 => ⟨S8x2048, .f32⟩
  | 87 => ⟨S8x2048, .f32⟩
  | 88 => ⟨S1x2048, .f32⟩
  | 89 => ⟨S8x2048, .f32⟩
  | 90 => ⟨S8x2048, .f32⟩
  | 91 => ⟨S1x2048, .f32⟩
  | 92 => ⟨S8x2048, .f32⟩
  | 93 => ⟨S8x2048, .f32⟩
  | 94 => ⟨S1x2048, .f32⟩
  | 95 => ⟨S8x2048, .f32⟩
  | 96 => ⟨S8x2048, .f32⟩
  | 97 => ⟨S8x2048, .f32⟩
  | 98 => ⟨S1x2048, .f32⟩
  | 99 => ⟨S8x2048, .f32⟩
  | 100 => ⟨S8x2048, .f32⟩
  | 101 => ⟨S1x2048, .f32⟩
  | 102 => ⟨S8x2048, .f32⟩
  | 103 => ⟨S8x2048, .f32⟩
  | 104 => ⟨S1x2048, .f32⟩
  | 105 => ⟨S8x2048, .f32⟩
  | 106 => ⟨S8x2048, .f32⟩
  | 107 => ⟨S8x2048, .f32⟩
  | 108 => ⟨S1x2048, .f32⟩
  | 109 => ⟨S8x2048, .f32⟩
  | 110 => ⟨S8x2048, .f32⟩
  | 111 => ⟨S8x4096, .f32⟩
  | 112 => ⟨S8x2048, .f32⟩
  | 113 => ⟨S1x2048, .f32⟩
  | 114 => ⟨S8x2048, .f32⟩
  | 115 => ⟨S8x2048, .f32⟩
  | 116 => ⟨S8x2048, .f32⟩
  | 117 => ⟨S8x2048, .f32⟩
  | 118 => ⟨S_, .f32⟩
  | 119 => ⟨S8x2048, .f32⟩
  | 120 => ⟨S8x2048, .f32⟩
  | 121 => ⟨S_, .f32⟩
  | 122 => ⟨S8x2048, .f32⟩
  | 123 => ⟨S8x2048, .f32⟩
  | 124 => ⟨S8x2048, .f32⟩
  | 125 => ⟨S_, .f32⟩
  | 126 => ⟨S8x2048, .f32⟩
  | 127 => ⟨S8x2048, .f32⟩
  | _ => ⟨S8x8192x2048, .f32⟩

abbrev hbmTy0_5 (i : Nat) : BufTy := match i % 128 with
  | 0 => ⟨S8x2048, .f32⟩
  | 1 => ⟨S8x2048, .f32⟩
  | 2 => ⟨S_, .f32⟩
  | 3 => ⟨S8, .f32⟩
  | 4 => ⟨S8x1, .f32⟩
  | 5 => ⟨S_, .f32⟩
  | 6 => ⟨S8x1, .f32⟩
  | 7 => ⟨S8x1, .f32⟩
  | 8 => ⟨S_, .i32⟩
  | 9 => ⟨S_, .f32⟩
  | 10 => ⟨S8, .f32⟩
  | 11 => ⟨S8x1, .f32⟩
  | 12 => ⟨S_, .f32⟩
  | 13 => ⟨S8x1, .f32⟩
  | 14 => ⟨S8x1, .f32⟩
  | 15 => ⟨S8x2048, .f32⟩
  | 16 => ⟨S8x2048, .f32⟩
  | 17 => ⟨S8x2048, .f32⟩
  | 18 => ⟨S_, .f32⟩
  | 19 => ⟨S_, .f32⟩
  | 20 => ⟨S_, .f32⟩
  | 21 => ⟨S_, .f32⟩
  | 22 => ⟨S8, .f32⟩
  | 23 => ⟨S8x1, .f32⟩
  | 24 => ⟨S8x1, .f32⟩
  | 25 => ⟨S8x1, .f32⟩
  | 26 => ⟨S_, .f32⟩
  | 27 => ⟨S_, .i1⟩
  | 28 => ⟨S_, .f32⟩
  | 29 => ⟨S_, .f32⟩
  | 30 => ⟨S8x1, .f32⟩
  | 31 => ⟨S8x1, .f32⟩
  | 32 => ⟨S8x2048, .f32⟩
  | 33 => ⟨S8x2048, .f32⟩
  | 34 => ⟨S_, .f32⟩
  | 35 => ⟨S8x1, .f32⟩
  | 36 => ⟨S8x1, .f32⟩
  | 37 => ⟨S8x1, .f32⟩
  | 38 => ⟨S8x2048, .f32⟩
  | 39 => ⟨S8x2048, .f32⟩
  | 40 => ⟨S1x2048, .f32⟩
  | 41 => ⟨S8x2048, .f32⟩
  | 42 => ⟨S8x2048, .f32⟩
  | 43 => ⟨S1x2048, .f32⟩
  | 44 => ⟨S8x2048, .f32⟩
  | 45 => ⟨S8x2048, .f32⟩
  | 46 => ⟨S1x8x2048, .f32⟩
  | 47 => ⟨S1x8x2048, .f32⟩
  | 48 => ⟨S1x8x2048, .f32⟩
  | 49 => ⟨S1x8x2048, .f32⟩
  | 50 => ⟨S1x8x2048, .f32⟩
  | 51 => ⟨S1x8x2048, .f32⟩
  | 52 => ⟨S1x8x2048, .f32⟩
  | 53 => ⟨S7x8x2048, .f32⟩
  | 54 => ⟨S8x8192x2048, .f32⟩
  | _ => ⟨S8x8192x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x8192x2048, .f32⟩

abbrev bufTy : (tb : Table) → Fin (tcTables nBuf tb) → BufTy
  | .hbm, ⟨i, _⟩ => hbmTy i
  | .local _ .vmem, ⟨0, _⟩ => ⟨S8x128x2048, .f32⟩
  | .local _ .vmem, ⟨1, _⟩ => ⟨S8x128x2048, .f32⟩
  | .local _ .vmem, ⟨2, _⟩ => ⟨S7x8x2048, .f32⟩
  | .local _ .vmem, ⟨3, _⟩ => ⟨S8x128x2048, .f32⟩
  | .local _ .vmem, ⟨4, _⟩ => ⟨S8x128x2048, .f32⟩
  | _, _ => ⟨S8x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst : Ref sig .tc := ⟨.hbm, 72, rfl⟩
abbrev main_v58 : Ref sig .tc := ⟨.hbm, 73, rfl⟩
abbrev main_v59 : Ref sig .tc := ⟨.hbm, 74, rfl⟩
abbrev main_cst_0 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_1 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_2 : Ref sig .tc := ⟨.hbm, 84, rfl⟩
abbrev main_v67 : Ref sig .tc := ⟨.hbm, 85, rfl⟩
abbrev main_v68 : Ref sig .tc := ⟨.hbm, 86, rfl⟩
abbrev main_cst_3 : Ref sig .tc := ⟨.hbm, 87, rfl⟩
abbrev main_v69 : Ref sig .tc := ⟨.hbm, 88, rfl⟩
abbrev main_v70 : Ref sig .tc := ⟨.hbm, 89, rfl⟩
abbrev main_c : Ref sig .tc := ⟨.hbm, 90, rfl⟩
abbrev main_call0_cst : Ref sig .tc := ⟨.hbm, 91, rfl⟩
abbrev main_call0_v0 : Ref sig .tc := ⟨.hbm, 92, rfl⟩
abbrev main_call0_v1 : Ref sig .tc := ⟨.hbm, 93, rfl⟩
abbrev main_call0_cst_0 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_call0_v5 : Ref sig .tc := ⟨.hbm, 98, rfl⟩
abbrev main_call0_v6 : Ref sig .tc := ⟨.hbm, 99, rfl⟩
abbrev main_call0_v7 : Ref sig .tc := ⟨.hbm, 100, rfl⟩
abbrev main_call0_cst_1 : Ref sig .tc := ⟨.hbm, 101, rfl⟩
abbrev main_call0_v8 : Ref sig .tc := ⟨.hbm, 102, rfl⟩
abbrev main_call0_cst_2 : Ref sig .tc := ⟨.hbm, 103, rfl⟩
abbrev main_call0_v9 : Ref sig .tc := ⟨.hbm, 104, rfl⟩
abbrev main_call0_v10 : Ref sig .tc := ⟨.hbm, 105, rfl⟩
abbrev main_call0_v11 : Ref sig .tc := ⟨.hbm, 106, rfl⟩
abbrev main_call0_v12 : Ref sig .tc := ⟨.hbm, 107, rfl⟩
abbrev main_call0_cst_3 : Ref sig .tc := ⟨.hbm, 108, rfl⟩
abbrev main_call0_v13 : Ref sig .tc := ⟨.hbm, 109, rfl⟩
abbrev main_call0_cst_4 : Ref sig .tc := ⟨.hbm, 110, rfl⟩
abbrev main_call0_call0_v0 : Ref sig .tc := ⟨.hbm, 111, rfl⟩
abbrev main_call0_call0_v1 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_4 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_5 : Ref sig .tc := ⟨.hbm, 165, rfl⟩
abbrev main_v122 : Ref sig .tc := ⟨.hbm, 166, rfl⟩
abbrev main_v123 : Ref sig .tc := ⟨.hbm, 167, rfl⟩
abbrev main_cst_6 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_7 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_cst_8 : Ref sig .tc := ⟨.hbm, 177, rfl⟩
abbrev main_v131 : Ref sig .tc := ⟨.hbm, 178, rfl⟩
abbrev main_v132 : Ref sig .tc := ⟨.hbm, 179, rfl⟩
abbrev main_cst_9 : Ref sig .tc := ⟨.hbm, 180, rfl⟩
abbrev main_v133 : Ref sig .tc := ⟨.hbm, 181, rfl⟩
abbrev main_v134 : Ref sig .tc := ⟨.hbm, 182, rfl⟩
abbrev main_c_10 : Ref sig .tc := ⟨.hbm, 183, rfl⟩
abbrev main_call1_cst : Ref sig .tc := ⟨.hbm, 184, rfl⟩
abbrev main_call1_v0 : Ref sig .tc := ⟨.hbm, 185, rfl⟩
abbrev main_call1_v1 : Ref sig .tc := ⟨.hbm, 186, rfl⟩
abbrev main_call1_cst_0 : Ref sig .tc := ⟨.hbm, 187, rfl⟩
abbrev main_call1_v2 : Ref sig .tc := ⟨.hbm, 188, rfl⟩
abbrev main_call1_v3 : Ref sig .tc := ⟨.hbm, 189, rfl⟩
abbrev main_call1_v4 : Ref sig .tc := ⟨.hbm, 190, rfl⟩
abbrev main_call1_v5 : Ref sig .tc := ⟨.hbm, 191, rfl⟩
abbrev main_call1_v6 : Ref sig .tc := ⟨.hbm, 192, rfl⟩
abbrev main_call1_v7 : Ref sig .tc := ⟨.hbm, 193, rfl⟩
abbrev main_call1_cst_1 : Ref sig .tc := ⟨.hbm, 194, rfl⟩
abbrev main_call1_v8 : Ref sig .tc := ⟨.hbm, 195, rfl⟩
abbrev main_call1_cst_2 : Ref sig .tc := ⟨.hbm, 196, rfl⟩
abbrev main_call1_v9 : Ref sig .tc := ⟨.hbm, 197, rfl⟩
abbrev main_call1_v10 : Ref sig .tc := ⟨.hbm, 198, rfl⟩
abbrev main_call1_v11 : Ref sig .tc := ⟨.hbm, 199, rfl⟩
abbrev main_call1_v12 : Ref sig .tc := ⟨.hbm, 200, rfl⟩
abbrev main_call1_cst_3 : Ref sig .tc := ⟨.hbm, 201, rfl⟩
abbrev main_call1_v13 : Ref sig .tc := ⟨.hbm, 202, rfl⟩
abbrev main_call1_cst_4 : Ref sig .tc := ⟨.hbm, 203, rfl⟩
abbrev main_call1_call0_v0 : Ref sig .tc := ⟨.hbm, 204, rfl⟩
abbrev main_call1_call0_v1 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_cst_11 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_cst_12 : Ref sig .tc := ⟨.hbm, 258, rfl⟩
abbrev main_v186 : Ref sig .tc := ⟨.hbm, 259, rfl⟩
abbrev main_v187 : Ref sig .tc := ⟨.hbm, 260, rfl⟩
abbrev main_cst_13 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_cst_14 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_cst_15 : Ref sig .tc := ⟨.hbm, 270, rfl⟩
abbrev main_v195 : Ref sig .tc := ⟨.hbm, 271, rfl⟩
abbrev main_v196 : Ref sig .tc := ⟨.hbm, 272, rfl⟩
abbrev main_cst_16 : Ref sig .tc := ⟨.hbm, 273, rfl⟩
abbrev main_v197 : Ref sig .tc := ⟨.hbm, 274, rfl⟩
abbrev main_v198 : Ref sig .tc := ⟨.hbm, 275, rfl⟩
abbrev main_c_17 : Ref sig .tc := ⟨.hbm, 276, rfl⟩
abbrev main_call2_cst : Ref sig .tc := ⟨.hbm, 277, rfl⟩
abbrev main_call2_v0 : Ref sig .tc := ⟨.hbm, 278, rfl⟩
abbrev main_call2_v1 : Ref sig .tc := ⟨.hbm, 279, rfl⟩
abbrev main_call2_cst_0 : Ref sig .tc := ⟨.hbm, 280, rfl⟩
abbrev main_call2_v2 : Ref sig .tc := ⟨.hbm, 281, rfl⟩
abbrev main_call2_v3 : Ref sig .tc := ⟨.hbm, 282, rfl⟩
abbrev main_call2_v4 : Ref sig .tc := ⟨.hbm, 283, rfl⟩
abbrev main_call2_v5 : Ref sig .tc := ⟨.hbm, 284, rfl⟩
abbrev main_call2_v6 : Ref sig .tc := ⟨.hbm, 285, rfl⟩
abbrev main_call2_v7 : Ref sig .tc := ⟨.hbm, 286, rfl⟩
abbrev main_call2_cst_1 : Ref sig .tc := ⟨.hbm, 287, rfl⟩
abbrev main_call2_v8 : Ref sig .tc := ⟨.hbm, 288, rfl⟩
abbrev main_call2_cst_2 : Ref sig .tc := ⟨.hbm, 289, rfl⟩
abbrev main_call2_v9 : Ref sig .tc := ⟨.hbm, 290, rfl⟩
abbrev main_call2_v10 : Ref sig .tc := ⟨.hbm, 291, rfl⟩
abbrev main_call2_v11 : Ref sig .tc := ⟨.hbm, 292, rfl⟩
abbrev main_call2_v12 : Ref sig .tc := ⟨.hbm, 293, rfl⟩
abbrev main_call2_cst_3 : Ref sig .tc := ⟨.hbm, 294, rfl⟩
abbrev main_call2_v13 : Ref sig .tc := ⟨.hbm, 295, rfl⟩
abbrev main_call2_cst_4 : Ref sig .tc := ⟨.hbm, 296, rfl⟩
abbrev main_call2_call0_v0 : Ref sig .tc := ⟨.hbm, 297, rfl⟩
abbrev main_call2_call0_v1 : Ref sig .tc := ⟨.hbm, 298, rfl⟩
abbrev main_v199 : Ref sig .tc := ⟨.hbm, 299, rfl⟩
abbrev main_v200 : Ref sig .tc := ⟨.hbm, 300, rfl⟩
abbrev main_v201 : Ref sig .tc := ⟨.hbm, 301, rfl⟩
abbrev main_cst_18 : Ref sig .tc := ⟨.hbm, 302, rfl⟩
abbrev main_v202 : Ref sig .tc := ⟨.hbm, 303, rfl⟩
abbrev main_v203 : Ref sig .tc := ⟨.hbm, 304, rfl⟩
abbrev main_v204 : Ref sig .tc := ⟨.hbm, 305, rfl⟩
abbrev main_v205 : Ref sig .tc := ⟨.hbm, 306, rfl⟩
abbrev main_v206 : Ref sig .tc := ⟨.hbm, 307, rfl⟩
abbrev main_v207 : Ref sig .tc := ⟨.hbm, 308, rfl⟩
abbrev main_v208 : Ref sig .tc := ⟨.hbm, 309, rfl⟩
abbrev main_v209 : Ref sig .tc := ⟨.hbm, 310, rfl⟩
abbrev main_v210 : Ref sig .tc := ⟨.hbm, 311, rfl⟩
abbrev main_v211 : Ref sig .tc := ⟨.hbm, 312, rfl⟩
abbrev main_v212 : Ref sig .tc := ⟨.hbm, 313, rfl⟩
abbrev main_v213 : Ref sig .tc := ⟨.hbm, 314, rfl⟩
abbrev main_v214 : Ref sig .tc := ⟨.hbm, 315, rfl⟩
abbrev main_v215 : Ref sig .tc := ⟨.hbm, 316, rfl⟩
abbrev main_v216 : Ref sig .tc := ⟨.hbm, 317, rfl⟩
abbrev main_v217 : Ref sig .tc := ⟨.hbm, 318, rfl⟩
abbrev main_v218 : Ref sig .tc := ⟨.hbm, 319, rfl⟩
abbrev main_v219 : Ref sig .tc := ⟨.hbm, 320, rfl⟩
abbrev main_v220 : Ref sig .tc := ⟨.hbm, 321, rfl⟩
abbrev main_v221 : Ref sig .tc := ⟨.hbm, 322, rfl⟩
abbrev main_v222 : Ref sig .tc := ⟨.hbm, 323, rfl⟩
abbrev main_v223 : Ref sig .tc := ⟨.hbm, 324, rfl⟩
abbrev main_v224 : Ref sig .tc := ⟨.hbm, 325, rfl⟩
abbrev main_v225 : Ref sig .tc := ⟨.hbm, 326, rfl⟩
abbrev main_v226 : Ref sig .tc := ⟨.hbm, 327, rfl⟩
abbrev main_v227 : Ref sig .tc := ⟨.hbm, 328, rfl⟩
abbrev main_v228 : Ref sig .tc := ⟨.hbm, 329, rfl⟩
abbrev main_v229 : Ref sig .tc := ⟨.hbm, 330, rfl⟩
abbrev main_v230 : Ref sig .tc := ⟨.hbm, 331, rfl⟩
abbrev main_v231 : Ref sig .tc := ⟨.hbm, 332, rfl⟩
abbrev main_v232 : Ref sig .tc := ⟨.hbm, 333, rfl⟩
abbrev main_v233 : Ref sig .tc := ⟨.hbm, 334, rfl⟩
abbrev main_v234 : Ref sig .tc := ⟨.hbm, 335, rfl⟩
abbrev main_v235 : Ref sig .tc := ⟨.hbm, 336, rfl⟩
abbrev main_v236 : Ref sig .tc := ⟨.hbm, 337, rfl⟩
abbrev main_v237 : Ref sig .tc := ⟨.hbm, 338, rfl⟩
abbrev main_v238 : Ref sig .tc := ⟨.hbm, 339, rfl⟩
abbrev main_v239 : Ref sig .tc := ⟨.hbm, 340, rfl⟩
abbrev main_v240 : Ref sig .tc := ⟨.hbm, 341, rfl⟩
abbrev main_v241 : Ref sig .tc := ⟨.hbm, 342, rfl⟩
abbrev main_v242 : Ref sig .tc := ⟨.hbm, 343, rfl⟩
abbrev main_v243 : Ref sig .tc := ⟨.hbm, 344, rfl⟩
abbrev main_v244 : Ref sig .tc := ⟨.hbm, 345, rfl⟩
abbrev main_v245 : Ref sig .tc := ⟨.hbm, 346, rfl⟩
abbrev main_v246 : Ref sig .tc := ⟨.hbm, 347, rfl⟩
abbrev main_v247 : Ref sig .tc := ⟨.hbm, 348, rfl⟩
abbrev main_v248 : Ref sig .tc := ⟨.hbm, 349, rfl⟩
abbrev main_v249 : Ref sig .tc := ⟨.hbm, 350, rfl⟩
abbrev main_cst_19 : Ref sig .tc := ⟨.hbm, 351, rfl⟩
abbrev main_v250 : Ref sig .tc := ⟨.hbm, 352, rfl⟩
abbrev main_v251 : Ref sig .tc := ⟨.hbm, 353, rfl⟩
abbrev main_cst_20 : Ref sig .tc := ⟨.hbm, 354, rfl⟩
abbrev main_v252 : Ref sig .tc := ⟨.hbm, 355, rfl⟩
abbrev main_v253 : Ref sig .tc := ⟨.hbm, 356, rfl⟩
abbrev main_v254 : Ref sig .tc := ⟨.hbm, 357, rfl⟩
abbrev main_cst_21 : Ref sig .tc := ⟨.hbm, 358, rfl⟩
abbrev main_v255 : Ref sig .tc := ⟨.hbm, 359, rfl⟩
abbrev main_v256 : Ref sig .tc := ⟨.hbm, 360, rfl⟩
abbrev main_v257 : Ref sig .tc := ⟨.hbm, 361, rfl⟩
abbrev main_v258 : Ref sig .tc := ⟨.hbm, 362, rfl⟩
abbrev main_cst_22 : Ref sig .tc := ⟨.hbm, 363, rfl⟩
abbrev main_v259 : Ref sig .tc := ⟨.hbm, 364, rfl⟩
abbrev main_v260 : Ref sig .tc := ⟨.hbm, 365, rfl⟩
abbrev main_cst_23 : Ref sig .tc := ⟨.hbm, 366, rfl⟩
abbrev main_v261 : Ref sig .tc := ⟨.hbm, 367, rfl⟩
abbrev main_v262 : Ref sig .tc := ⟨.hbm, 368, rfl⟩
abbrev main_c_24 : Ref sig .tc := ⟨.hbm, 369, rfl⟩
abbrev main_call3_cst : Ref sig .tc := ⟨.hbm, 370, rfl⟩
abbrev main_call3_v0 : Ref sig .tc := ⟨.hbm, 371, rfl⟩
abbrev main_call3_v1 : Ref sig .tc := ⟨.hbm, 372, rfl⟩
abbrev main_call3_cst_0 : Ref sig .tc := ⟨.hbm, 373, rfl⟩
abbrev main_call3_v2 : Ref sig .tc := ⟨.hbm, 374, rfl⟩
abbrev main_call3_v3 : Ref sig .tc := ⟨.hbm, 375, rfl⟩
abbrev main_call3_v4 : Ref sig .tc := ⟨.hbm, 376, rfl⟩
abbrev main_call3_v5 : Ref sig .tc := ⟨.hbm, 377, rfl⟩
abbrev main_call3_v6 : Ref sig .tc := ⟨.hbm, 378, rfl⟩
abbrev main_call3_v7 : Ref sig .tc := ⟨.hbm, 379, rfl⟩
abbrev main_call3_cst_1 : Ref sig .tc := ⟨.hbm, 380, rfl⟩
abbrev main_call3_v8 : Ref sig .tc := ⟨.hbm, 381, rfl⟩
abbrev main_call3_cst_2 : Ref sig .tc := ⟨.hbm, 382, rfl⟩
abbrev main_call3_v9 : Ref sig .tc := ⟨.hbm, 383, rfl⟩
abbrev main_call3_v10 : Ref sig .tc := ⟨.hbm, 384, rfl⟩
abbrev main_call3_v11 : Ref sig .tc := ⟨.hbm, 385, rfl⟩
abbrev main_call3_v12 : Ref sig .tc := ⟨.hbm, 386, rfl⟩
abbrev main_call3_cst_3 : Ref sig .tc := ⟨.hbm, 387, rfl⟩
abbrev main_call3_v13 : Ref sig .tc := ⟨.hbm, 388, rfl⟩
abbrev main_call3_cst_4 : Ref sig .tc := ⟨.hbm, 389, rfl⟩
abbrev main_call3_call0_v0 : Ref sig .tc := ⟨.hbm, 390, rfl⟩
abbrev main_call3_call0_v1 : Ref sig .tc := ⟨.hbm, 391, rfl⟩
abbrev main_v263 : Ref sig .tc := ⟨.hbm, 392, rfl⟩
abbrev main_v264 : Ref sig .tc := ⟨.hbm, 393, rfl⟩
abbrev main_v265 : Ref sig .tc := ⟨.hbm, 394, rfl⟩
abbrev main_cst_25 : Ref sig .tc := ⟨.hbm, 395, rfl⟩
abbrev main_v266 : Ref sig .tc := ⟨.hbm, 396, rfl⟩
abbrev main_v267 : Ref sig .tc := ⟨.hbm, 397, rfl⟩
abbrev main_v268 : Ref sig .tc := ⟨.hbm, 398, rfl⟩
abbrev main_v269 : Ref sig .tc := ⟨.hbm, 399, rfl⟩
abbrev main_v270 : Ref sig .tc := ⟨.hbm, 400, rfl⟩
abbrev main_v271 : Ref sig .tc := ⟨.hbm, 401, rfl⟩
abbrev main_v272 : Ref sig .tc := ⟨.hbm, 402, rfl⟩
abbrev main_v273 : Ref sig .tc := ⟨.hbm, 403, rfl⟩
abbrev main_v274 : Ref sig .tc := ⟨.hbm, 404, rfl⟩
abbrev main_v275 : Ref sig .tc := ⟨.hbm, 405, rfl⟩
abbrev main_v276 : Ref sig .tc := ⟨.hbm, 406, rfl⟩
abbrev main_v277 : Ref sig .tc := ⟨.hbm, 407, rfl⟩
abbrev main_v278 : Ref sig .tc := ⟨.hbm, 408, rfl⟩
abbrev main_v279 : Ref sig .tc := ⟨.hbm, 409, rfl⟩
abbrev main_v280 : Ref sig .tc := ⟨.hbm, 410, rfl⟩
abbrev main_v281 : Ref sig .tc := ⟨.hbm, 411, rfl⟩
abbrev main_v282 : Ref sig .tc := ⟨.hbm, 412, rfl⟩
abbrev main_v283 : Ref sig .tc := ⟨.hbm, 413, rfl⟩
abbrev main_v284 : Ref sig .tc := ⟨.hbm, 414, rfl⟩
abbrev main_v285 : Ref sig .tc := ⟨.hbm, 415, rfl⟩
abbrev main_v286 : Ref sig .tc := ⟨.hbm, 416, rfl⟩
abbrev main_v287 : Ref sig .tc := ⟨.hbm, 417, rfl⟩
abbrev main_v288 : Ref sig .tc := ⟨.hbm, 418, rfl⟩
abbrev main_v289 : Ref sig .tc := ⟨.hbm, 419, rfl⟩
abbrev main_v290 : Ref sig .tc := ⟨.hbm, 420, rfl⟩
abbrev main_v291 : Ref sig .tc := ⟨.hbm, 421, rfl⟩
abbrev main_v292 : Ref sig .tc := ⟨.hbm, 422, rfl⟩
abbrev main_v293 : Ref sig .tc := ⟨.hbm, 423, rfl⟩
abbrev main_v294 : Ref sig .tc := ⟨.hbm, 424, rfl⟩
abbrev main_v295 : Ref sig .tc := ⟨.hbm, 425, rfl⟩
abbrev main_v296 : Ref sig .tc := ⟨.hbm, 426, rfl⟩
abbrev main_v297 : Ref sig .tc := ⟨.hbm, 427, rfl⟩
abbrev main_v298 : Ref sig .tc := ⟨.hbm, 428, rfl⟩
abbrev main_v299 : Ref sig .tc := ⟨.hbm, 429, rfl⟩
abbrev main_v300 : Ref sig .tc := ⟨.hbm, 430, rfl⟩
abbrev main_v301 : Ref sig .tc := ⟨.hbm, 431, rfl⟩
abbrev main_v302 : Ref sig .tc := ⟨.hbm, 432, rfl⟩
abbrev main_v303 : Ref sig .tc := ⟨.hbm, 433, rfl⟩
abbrev main_v304 : Ref sig .tc := ⟨.hbm, 434, rfl⟩
abbrev main_v305 : Ref sig .tc := ⟨.hbm, 435, rfl⟩
abbrev main_v306 : Ref sig .tc := ⟨.hbm, 436, rfl⟩
abbrev main_v307 : Ref sig .tc := ⟨.hbm, 437, rfl⟩
abbrev main_v308 : Ref sig .tc := ⟨.hbm, 438, rfl⟩
abbrev main_v309 : Ref sig .tc := ⟨.hbm, 439, rfl⟩
abbrev main_v310 : Ref sig .tc := ⟨.hbm, 440, rfl⟩
abbrev main_v311 : Ref sig .tc := ⟨.hbm, 441, rfl⟩
abbrev main_v312 : Ref sig .tc := ⟨.hbm, 442, rfl⟩
abbrev main_v313 : Ref sig .tc := ⟨.hbm, 443, rfl⟩
abbrev main_cst_26 : Ref sig .tc := ⟨.hbm, 444, rfl⟩
abbrev main_v314 : Ref sig .tc := ⟨.hbm, 445, rfl⟩
abbrev main_v315 : Ref sig .tc := ⟨.hbm, 446, rfl⟩
abbrev main_cst_27 : Ref sig .tc := ⟨.hbm, 447, rfl⟩
abbrev main_v316 : Ref sig .tc := ⟨.hbm, 448, rfl⟩
abbrev main_v317 : Ref sig .tc := ⟨.hbm, 449, rfl⟩
abbrev main_v318 : Ref sig .tc := ⟨.hbm, 450, rfl⟩
abbrev main_cst_28 : Ref sig .tc := ⟨.hbm, 451, rfl⟩
abbrev main_v319 : Ref sig .tc := ⟨.hbm, 452, rfl⟩
abbrev main_v320 : Ref sig .tc := ⟨.hbm, 453, rfl⟩
abbrev main_v321 : Ref sig .tc := ⟨.hbm, 454, rfl⟩
abbrev main_v322 : Ref sig .tc := ⟨.hbm, 455, rfl⟩
abbrev main_cst_29 : Ref sig .tc := ⟨.hbm, 456, rfl⟩
abbrev main_v323 : Ref sig .tc := ⟨.hbm, 457, rfl⟩
abbrev main_v324 : Ref sig .tc := ⟨.hbm, 458, rfl⟩
abbrev main_cst_30 : Ref sig .tc := ⟨.hbm, 459, rfl⟩
abbrev main_v325 : Ref sig .tc := ⟨.hbm, 460, rfl⟩
abbrev main_v326 : Ref sig .tc := ⟨.hbm, 461, rfl⟩
abbrev main_c_31 : Ref sig .tc := ⟨.hbm, 462, rfl⟩
abbrev main_call4_cst : Ref sig .tc := ⟨.hbm, 463, rfl⟩
abbrev main_call4_v0 : Ref sig .tc := ⟨.hbm, 464, rfl⟩
abbrev main_call4_v1 : Ref sig .tc := ⟨.hbm, 465, rfl⟩
abbrev main_call4_cst_0 : Ref sig .tc := ⟨.hbm, 466, rfl⟩
abbrev main_call4_v2 : Ref sig .tc := ⟨.hbm, 467, rfl⟩
abbrev main_call4_v3 : Ref sig .tc := ⟨.hbm, 468, rfl⟩
abbrev main_call4_v4 : Ref sig .tc := ⟨.hbm, 469, rfl⟩
abbrev main_call4_v5 : Ref sig .tc := ⟨.hbm, 470, rfl⟩
abbrev main_call4_v6 : Ref sig .tc := ⟨.hbm, 471, rfl⟩
abbrev main_call4_v7 : Ref sig .tc := ⟨.hbm, 472, rfl⟩
abbrev main_call4_cst_1 : Ref sig .tc := ⟨.hbm, 473, rfl⟩
abbrev main_call4_v8 : Ref sig .tc := ⟨.hbm, 474, rfl⟩
abbrev main_call4_cst_2 : Ref sig .tc := ⟨.hbm, 475, rfl⟩
abbrev main_call4_v9 : Ref sig .tc := ⟨.hbm, 476, rfl⟩
abbrev main_call4_v10 : Ref sig .tc := ⟨.hbm, 477, rfl⟩
abbrev main_call4_v11 : Ref sig .tc := ⟨.hbm, 478, rfl⟩
abbrev main_call4_v12 : Ref sig .tc := ⟨.hbm, 479, rfl⟩
abbrev main_call4_cst_3 : Ref sig .tc := ⟨.hbm, 480, rfl⟩
abbrev main_call4_v13 : Ref sig .tc := ⟨.hbm, 481, rfl⟩
abbrev main_call4_cst_4 : Ref sig .tc := ⟨.hbm, 482, rfl⟩
abbrev main_call4_call0_v0 : Ref sig .tc := ⟨.hbm, 483, rfl⟩
abbrev main_call4_call0_v1 : Ref sig .tc := ⟨.hbm, 484, rfl⟩
abbrev main_v327 : Ref sig .tc := ⟨.hbm, 485, rfl⟩
abbrev main_v328 : Ref sig .tc := ⟨.hbm, 486, rfl⟩
abbrev main_v329 : Ref sig .tc := ⟨.hbm, 487, rfl⟩
abbrev main_cst_32 : Ref sig .tc := ⟨.hbm, 488, rfl⟩
abbrev main_v330 : Ref sig .tc := ⟨.hbm, 489, rfl⟩
abbrev main_v331 : Ref sig .tc := ⟨.hbm, 490, rfl⟩
abbrev main_v332 : Ref sig .tc := ⟨.hbm, 491, rfl⟩
abbrev main_v333 : Ref sig .tc := ⟨.hbm, 492, rfl⟩
abbrev main_v334 : Ref sig .tc := ⟨.hbm, 493, rfl⟩
abbrev main_v335 : Ref sig .tc := ⟨.hbm, 494, rfl⟩
abbrev main_v336 : Ref sig .tc := ⟨.hbm, 495, rfl⟩
abbrev main_v337 : Ref sig .tc := ⟨.hbm, 496, rfl⟩
abbrev main_v338 : Ref sig .tc := ⟨.hbm, 497, rfl⟩
abbrev main_v339 : Ref sig .tc := ⟨.hbm, 498, rfl⟩
abbrev main_v340 : Ref sig .tc := ⟨.hbm, 499, rfl⟩
abbrev main_v341 : Ref sig .tc := ⟨.hbm, 500, rfl⟩
abbrev main_v342 : Ref sig .tc := ⟨.hbm, 501, rfl⟩
abbrev main_v343 : Ref sig .tc := ⟨.hbm, 502, rfl⟩
abbrev main_v344 : Ref sig .tc := ⟨.hbm, 503, rfl⟩
abbrev main_v345 : Ref sig .tc := ⟨.hbm, 504, rfl⟩
abbrev main_v346 : Ref sig .tc := ⟨.hbm, 505, rfl⟩
abbrev main_v347 : Ref sig .tc := ⟨.hbm, 506, rfl⟩
abbrev main_v348 : Ref sig .tc := ⟨.hbm, 507, rfl⟩
abbrev main_v349 : Ref sig .tc := ⟨.hbm, 508, rfl⟩
abbrev main_v350 : Ref sig .tc := ⟨.hbm, 509, rfl⟩
abbrev main_v351 : Ref sig .tc := ⟨.hbm, 510, rfl⟩
abbrev main_v352 : Ref sig .tc := ⟨.hbm, 511, rfl⟩
abbrev main_v353 : Ref sig .tc := ⟨.hbm, 512, rfl⟩
abbrev main_v354 : Ref sig .tc := ⟨.hbm, 513, rfl⟩
abbrev main_v355 : Ref sig .tc := ⟨.hbm, 514, rfl⟩
abbrev main_v356 : Ref sig .tc := ⟨.hbm, 515, rfl⟩
abbrev main_v357 : Ref sig .tc := ⟨.hbm, 516, rfl⟩
abbrev main_v358 : Ref sig .tc := ⟨.hbm, 517, rfl⟩
abbrev main_v359 : Ref sig .tc := ⟨.hbm, 518, rfl⟩
abbrev main_v360 : Ref sig .tc := ⟨.hbm, 519, rfl⟩
abbrev main_v361 : Ref sig .tc := ⟨.hbm, 520, rfl⟩
abbrev main_v362 : Ref sig .tc := ⟨.hbm, 521, rfl⟩
abbrev main_v363 : Ref sig .tc := ⟨.hbm, 522, rfl⟩
abbrev main_v364 : Ref sig .tc := ⟨.hbm, 523, rfl⟩
abbrev main_v365 : Ref sig .tc := ⟨.hbm, 524, rfl⟩
abbrev main_v366 : Ref sig .tc := ⟨.hbm, 525, rfl⟩
abbrev main_v367 : Ref sig .tc := ⟨.hbm, 526, rfl⟩
abbrev main_v368 : Ref sig .tc := ⟨.hbm, 527, rfl⟩
abbrev main_v369 : Ref sig .tc := ⟨.hbm, 528, rfl⟩
abbrev main_v370 : Ref sig .tc := ⟨.hbm, 529, rfl⟩
abbrev main_v371 : Ref sig .tc := ⟨.hbm, 530, rfl⟩
abbrev main_v372 : Ref sig .tc := ⟨.hbm, 531, rfl⟩
abbrev main_v373 : Ref sig .tc := ⟨.hbm, 532, rfl⟩
abbrev main_v374 : Ref sig .tc := ⟨.hbm, 533, rfl⟩
abbrev main_v375 : Ref sig .tc := ⟨.hbm, 534, rfl⟩
abbrev main_v376 : Ref sig .tc := ⟨.hbm, 535, rfl⟩
abbrev main_v377 : Ref sig .tc := ⟨.hbm, 536, rfl⟩
abbrev main_cst_33 : Ref sig .tc := ⟨.hbm, 537, rfl⟩
abbrev main_v378 : Ref sig .tc := ⟨.hbm, 538, rfl⟩
abbrev main_v379 : Ref sig .tc := ⟨.hbm, 539, rfl⟩
abbrev main_cst_34 : Ref sig .tc := ⟨.hbm, 540, rfl⟩
abbrev main_v380 : Ref sig .tc := ⟨.hbm, 541, rfl⟩
abbrev main_v381 : Ref sig .tc := ⟨.hbm, 542, rfl⟩
abbrev main_v382 : Ref sig .tc := ⟨.hbm, 543, rfl⟩
abbrev main_cst_35 : Ref sig .tc := ⟨.hbm, 544, rfl⟩
abbrev main_v383 : Ref sig .tc := ⟨.hbm, 545, rfl⟩
abbrev main_v384 : Ref sig .tc := ⟨.hbm, 546, rfl⟩
abbrev main_v385 : Ref sig .tc := ⟨.hbm, 547, rfl⟩
abbrev main_v386 : Ref sig .tc := ⟨.hbm, 548, rfl⟩
abbrev main_cst_36 : Ref sig .tc := ⟨.hbm, 549, rfl⟩
abbrev main_v387 : Ref sig .tc := ⟨.hbm, 550, rfl⟩
abbrev main_v388 : Ref sig .tc := ⟨.hbm, 551, rfl⟩
abbrev main_cst_37 : Ref sig .tc := ⟨.hbm, 552, rfl⟩
abbrev main_v389 : Ref sig .tc := ⟨.hbm, 553, rfl⟩
abbrev main_v390 : Ref sig .tc := ⟨.hbm, 554, rfl⟩
abbrev main_c_38 : Ref sig .tc := ⟨.hbm, 555, rfl⟩
abbrev main_call5_cst : Ref sig .tc := ⟨.hbm, 556, rfl⟩
abbrev main_call5_v0 : Ref sig .tc := ⟨.hbm, 557, rfl⟩
abbrev main_call5_v1 : Ref sig .tc := ⟨.hbm, 558, rfl⟩
abbrev main_call5_cst_0 : Ref sig .tc := ⟨.hbm, 559, rfl⟩
abbrev main_call5_v2 : Ref sig .tc := ⟨.hbm, 560, rfl⟩
abbrev main_call5_v3 : Ref sig .tc := ⟨.hbm, 561, rfl⟩
abbrev main_call5_v4 : Ref sig .tc := ⟨.hbm, 562, rfl⟩
abbrev main_call5_v5 : Ref sig .tc := ⟨.hbm, 563, rfl⟩
abbrev main_call5_v6 : Ref sig .tc := ⟨.hbm, 564, rfl⟩
abbrev main_call5_v7 : Ref sig .tc := ⟨.hbm, 565, rfl⟩
abbrev main_call5_cst_1 : Ref sig .tc := ⟨.hbm, 566, rfl⟩
abbrev main_call5_v8 : Ref sig .tc := ⟨.hbm, 567, rfl⟩
abbrev main_call5_cst_2 : Ref sig .tc := ⟨.hbm, 568, rfl⟩
abbrev main_call5_v9 : Ref sig .tc := ⟨.hbm, 569, rfl⟩
abbrev main_call5_v10 : Ref sig .tc := ⟨.hbm, 570, rfl⟩
abbrev main_call5_v11 : Ref sig .tc := ⟨.hbm, 571, rfl⟩
abbrev main_call5_v12 : Ref sig .tc := ⟨.hbm, 572, rfl⟩
abbrev main_call5_cst_3 : Ref sig .tc := ⟨.hbm, 573, rfl⟩
abbrev main_call5_v13 : Ref sig .tc := ⟨.hbm, 574, rfl⟩
abbrev main_call5_cst_4 : Ref sig .tc := ⟨.hbm, 575, rfl⟩
abbrev main_call5_call0_v0 : Ref sig .tc := ⟨.hbm, 576, rfl⟩
abbrev main_call5_call0_v1 : Ref sig .tc := ⟨.hbm, 577, rfl⟩
abbrev main_v391 : Ref sig .tc := ⟨.hbm, 578, rfl⟩
abbrev main_v392 : Ref sig .tc := ⟨.hbm, 579, rfl⟩
abbrev main_v393 : Ref sig .tc := ⟨.hbm, 580, rfl⟩
abbrev main_cst_39 : Ref sig .tc := ⟨.hbm, 581, rfl⟩
abbrev main_v394 : Ref sig .tc := ⟨.hbm, 582, rfl⟩
abbrev main_v395 : Ref sig .tc := ⟨.hbm, 583, rfl⟩
abbrev main_v396 : Ref sig .tc := ⟨.hbm, 584, rfl⟩
abbrev main_v397 : Ref sig .tc := ⟨.hbm, 585, rfl⟩
abbrev main_v398 : Ref sig .tc := ⟨.hbm, 586, rfl⟩
abbrev main_v399 : Ref sig .tc := ⟨.hbm, 587, rfl⟩
abbrev main_v400 : Ref sig .tc := ⟨.hbm, 588, rfl⟩
abbrev main_v401 : Ref sig .tc := ⟨.hbm, 589, rfl⟩
abbrev main_v402 : Ref sig .tc := ⟨.hbm, 590, rfl⟩
abbrev main_v403 : Ref sig .tc := ⟨.hbm, 591, rfl⟩
abbrev main_v404 : Ref sig .tc := ⟨.hbm, 592, rfl⟩
abbrev main_v405 : Ref sig .tc := ⟨.hbm, 593, rfl⟩
abbrev main_v406 : Ref sig .tc := ⟨.hbm, 594, rfl⟩
abbrev main_v407 : Ref sig .tc := ⟨.hbm, 595, rfl⟩
abbrev main_v408 : Ref sig .tc := ⟨.hbm, 596, rfl⟩
abbrev main_v409 : Ref sig .tc := ⟨.hbm, 597, rfl⟩
abbrev main_v410 : Ref sig .tc := ⟨.hbm, 598, rfl⟩
abbrev main_v411 : Ref sig .tc := ⟨.hbm, 599, rfl⟩
abbrev main_v412 : Ref sig .tc := ⟨.hbm, 600, rfl⟩
abbrev main_v413 : Ref sig .tc := ⟨.hbm, 601, rfl⟩
abbrev main_v414 : Ref sig .tc := ⟨.hbm, 602, rfl⟩
abbrev main_v415 : Ref sig .tc := ⟨.hbm, 603, rfl⟩
abbrev main_v416 : Ref sig .tc := ⟨.hbm, 604, rfl⟩
abbrev main_v417 : Ref sig .tc := ⟨.hbm, 605, rfl⟩
abbrev main_v418 : Ref sig .tc := ⟨.hbm, 606, rfl⟩
abbrev main_v419 : Ref sig .tc := ⟨.hbm, 607, rfl⟩
abbrev main_v420 : Ref sig .tc := ⟨.hbm, 608, rfl⟩
abbrev main_v421 : Ref sig .tc := ⟨.hbm, 609, rfl⟩
abbrev main_v422 : Ref sig .tc := ⟨.hbm, 610, rfl⟩
abbrev main_v423 : Ref sig .tc := ⟨.hbm, 611, rfl⟩
abbrev main_v424 : Ref sig .tc := ⟨.hbm, 612, rfl⟩
abbrev main_v425 : Ref sig .tc := ⟨.hbm, 613, rfl⟩
abbrev main_v426 : Ref sig .tc := ⟨.hbm, 614, rfl⟩
abbrev main_v427 : Ref sig .tc := ⟨.hbm, 615, rfl⟩
abbrev main_v428 : Ref sig .tc := ⟨.hbm, 616, rfl⟩
abbrev main_v429 : Ref sig .tc := ⟨.hbm, 617, rfl⟩
abbrev main_v430 : Ref sig .tc := ⟨.hbm, 618, rfl⟩
abbrev main_v431 : Ref sig .tc := ⟨.hbm, 619, rfl⟩
abbrev main_v432 : Ref sig .tc := ⟨.hbm, 620, rfl⟩
abbrev main_v433 : Ref sig .tc := ⟨.hbm, 621, rfl⟩
abbrev main_v434 : Ref sig .tc := ⟨.hbm, 622, rfl⟩
abbrev main_v435 : Ref sig .tc := ⟨.hbm, 623, rfl⟩
abbrev main_v436 : Ref sig .tc := ⟨.hbm, 624, rfl⟩
abbrev main_v437 : Ref sig .tc := ⟨.hbm, 625, rfl⟩
abbrev main_v438 : Ref sig .tc := ⟨.hbm, 626, rfl⟩
abbrev main_v439 : Ref sig .tc := ⟨.hbm, 627, rfl⟩
abbrev main_v440 : Ref sig .tc := ⟨.hbm, 628, rfl⟩
abbrev main_v441 : Ref sig .tc := ⟨.hbm, 629, rfl⟩
abbrev main_cst_40 : Ref sig .tc := ⟨.hbm, 630, rfl⟩
abbrev main_v442 : Ref sig .tc := ⟨.hbm, 631, rfl⟩
abbrev main_v443 : Ref sig .tc := ⟨.hbm, 632, rfl⟩
abbrev main_cst_41 : Ref sig .tc := ⟨.hbm, 633, rfl⟩
abbrev main_v444 : Ref sig .tc := ⟨.hbm, 634, rfl⟩
abbrev main_v445 : Ref sig .tc := ⟨.hbm, 635, rfl⟩
abbrev main_v446 : Ref sig .tc := ⟨.hbm, 636, rfl⟩
abbrev main_cst_42 : Ref sig .tc := ⟨.hbm, 637, rfl⟩
abbrev main_v447 : Ref sig .tc := ⟨.hbm, 638, rfl⟩
abbrev main_v448 : Ref sig .tc := ⟨.hbm, 639, rfl⟩
abbrev main_v449 : Ref sig .tc := ⟨.hbm, 640, rfl⟩
abbrev main_v450 : Ref sig .tc := ⟨.hbm, 641, rfl⟩
abbrev main_cst_43 : Ref sig .tc := ⟨.hbm, 642, rfl⟩
abbrev main_v451 : Ref sig .tc := ⟨.hbm, 643, rfl⟩
abbrev main_v452 : Ref sig .tc := ⟨.hbm, 644, rfl⟩
abbrev main_cst_44 : Ref sig .tc := ⟨.hbm, 645, rfl⟩
abbrev main_v453 : Ref sig .tc := ⟨.hbm, 646, rfl⟩
abbrev main_v454 : Ref sig .tc := ⟨.hbm, 647, rfl⟩
abbrev main_c_45 : Ref sig .tc := ⟨.hbm, 648, rfl⟩
abbrev main_call6_cst : Ref sig .tc := ⟨.hbm, 649, rfl⟩
abbrev main_call6_v0 : Ref sig .tc := ⟨.hbm, 650, rfl⟩
abbrev main_call6_v1 : Ref sig .tc := ⟨.hbm, 651, rfl⟩
abbrev main_call6_cst_0 : Ref sig .tc := ⟨.hbm, 652, rfl⟩
abbrev main_call6_v2 : Ref sig .tc := ⟨.hbm, 653, rfl⟩
abbrev main_call6_v3 : Ref sig .tc := ⟨.hbm, 654, rfl⟩
abbrev main_call6_v4 : Ref sig .tc := ⟨.hbm, 655, rfl⟩
abbrev main_call6_v5 : Ref sig .tc := ⟨.hbm, 656, rfl⟩
abbrev main_call6_v6 : Ref sig .tc := ⟨.hbm, 657, rfl⟩
abbrev main_call6_v7 : Ref sig .tc := ⟨.hbm, 658, rfl⟩
abbrev main_call6_cst_1 : Ref sig .tc := ⟨.hbm, 659, rfl⟩
abbrev main_call6_v8 : Ref sig .tc := ⟨.hbm, 660, rfl⟩
abbrev main_call6_cst_2 : Ref sig .tc := ⟨.hbm, 661, rfl⟩
abbrev main_call6_v9 : Ref sig .tc := ⟨.hbm, 662, rfl⟩
abbrev main_call6_v10 : Ref sig .tc := ⟨.hbm, 663, rfl⟩
abbrev main_call6_v11 : Ref sig .tc := ⟨.hbm, 664, rfl⟩
abbrev main_call6_v12 : Ref sig .tc := ⟨.hbm, 665, rfl⟩
abbrev main_call6_cst_3 : Ref sig .tc := ⟨.hbm, 666, rfl⟩
abbrev main_call6_v13 : Ref sig .tc := ⟨.hbm, 667, rfl⟩
abbrev main_call6_cst_4 : Ref sig .tc := ⟨.hbm, 668, rfl⟩
abbrev main_call6_call0_v0 : Ref sig .tc := ⟨.hbm, 669, rfl⟩
abbrev main_call6_call0_v1 : Ref sig .tc := ⟨.hbm, 670, rfl⟩
abbrev main_v455 : Ref sig .tc := ⟨.hbm, 671, rfl⟩
abbrev main_v456 : Ref sig .tc := ⟨.hbm, 672, rfl⟩
abbrev main_v457 : Ref sig .tc := ⟨.hbm, 673, rfl⟩
abbrev main_cst_46 : Ref sig .tc := ⟨.hbm, 674, rfl⟩
abbrev main_v458 : Ref sig .tc := ⟨.hbm, 675, rfl⟩
abbrev main_v459 : Ref sig .tc := ⟨.hbm, 676, rfl⟩
abbrev main_v460 : Ref sig .tc := ⟨.hbm, 677, rfl⟩
abbrev main_v461 : Ref sig .tc := ⟨.hbm, 678, rfl⟩
abbrev main_v462 : Ref sig .tc := ⟨.hbm, 679, rfl⟩
abbrev main_v463 : Ref sig .tc := ⟨.hbm, 680, rfl⟩
abbrev main_v464 : Ref sig .tc := ⟨.hbm, 681, rfl⟩
abbrev main_v465 : Ref sig .tc := ⟨.hbm, 682, rfl⟩
abbrev main_v466 : Ref sig .tc := ⟨.hbm, 683, rfl⟩
abbrev main_v467 : Ref sig .tc := ⟨.hbm, 684, rfl⟩
abbrev main_v468 : Ref sig .tc := ⟨.hbm, 685, rfl⟩
abbrev main_v469 : Ref sig .tc := ⟨.hbm, 686, rfl⟩
abbrev main_v470 : Ref sig .tc := ⟨.hbm, 687, rfl⟩
abbrev main_v471 : Ref sig .tc := ⟨.hbm, 688, rfl⟩
abbrev main_v472 : Ref sig .tc := ⟨.hbm, 689, rfl⟩
abbrev main_v473 : Ref sig .tc := ⟨.hbm, 690, rfl⟩
abbrev main_v474 : Ref sig .tc := ⟨.hbm, 691, rfl⟩
abbrev main_v475 : Ref sig .tc := ⟨.hbm, 692, rfl⟩
abbrev main_v476 : Ref sig .tc := ⟨.hbm, 693, rfl⟩
abbrev main_v477 : Ref sig .tc := ⟨.hbm, 694, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S8x8192x2048_S8x1x2048_0_0_0 : S8x8192x2048.Slices ![0, 0, 0] S8x1x2048
  shapeCasts_S8x1x2048_S8x2048 : S8x1x2048.ShapeCasts S8x2048
  slices_S8x8192x2048_S8x1x2048_0_2_0 : S8x8192x2048.Slices ![0, 2, 0] S8x1x2048
  slices_S8x8192x2048_S8x1x2048_0_4_0 : S8x8192x2048.Slices ![0, 4, 0] S8x1x2048
  slices_S8x8192x2048_S8x1x2048_0_12_0 : S8x8192x2048.Slices ![0, 12, 0] S8x1x2048
  slices_S8x8192x2048_S8x1x2048_0_36_0 : S8x8192x2048.Slices ![0, 36, 0] S8x1x2048
  slices_S8x8192x2048_S8x1x2048_0_104_0 : S8x8192x2048.Slices ![0, 104, 0] S8x1x2048
  slices_S8x8192x2048_S8x1x2048_0_304_0 : S8x8192x2048.Slices ![0, 304, 0] S8x1x2048
  slices_S8x8192x2048_S8x1x2048_0_888_0 : S8x8192x2048.Slices ![0, 888, 0] S8x1x2048
  slices_S8x8192x2048_S8x1x2048_0_2592_0 : S8x8192x2048.Slices ![0, 2592, 0] S8x1x2048
  slices_S8x8192x2048_S8x1x2048_0_7568_0 : S8x8192x2048.Slices ![0, 7568, 0] S8x1x2048
  transposes_S2048x4096_S4096x2048_1_0 : S2048x4096.Transposes [1, 0] S4096x2048
  bcast_S2048_S1x2048_1 : S2048.BroadcastsInDim S1x2048 (![1] : Fin 1 → Fin S1x2048.rank)
  bcast_S1x2048_S8x2048_0_1 : S1x2048.BroadcastsInDim S8x2048 (![0, 1] : Fin 2 → Fin S8x2048.rank)
  concatenates_S8x2048_S8x2048_S8x4096_d1 : Shape.Concatenates [S8x2048, S8x2048] S8x4096 1
  bcast_S_S8x2048 : S_.BroadcastsInDim S8x2048 (![] : Fin 0 → Fin S8x2048.rank)
  reducesTo_S8x2048_S8_d1 : S8x2048.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x2048_0_1 : S8x1.BroadcastsInDim S8x2048 (![0, 1] : Fin 2 → Fin S8x2048.rank)
  bcast_S8x2048_S1x8x2048_1_2 : S8x2048.BroadcastsInDim S1x8x2048 (![1, 2] : Fin 2 → Fin S1x8x2048.rank)
  concatenates_S1x8x2048_S1x8x2048_S1x8x2048_S1x8x2048_S1x8x2048_S1x8x2048_S1x8x2048_S7x8x2048_d0 : Shape.Concatenates [S1x8x2048, S1x8x2048, S1x8x2048, S1x8x2048, S1x8x2048, S1x8x2048, S1x8x2048] S7x8x2048 0
  inb_S8x128x2048_S8x128x2048_0_0_0 : ∀ a, (![0, 0, 0] : Fin 3 → Nat) a + S8x128x2048.size a ≤ S8x128x2048.size a
  h_S8x128x2048 : 0 < S8x128x2048.numel
  inb_S7x8x2048_S1x8x2048_0_0_0 : ∀ a, (![0, 0, 0] : Fin 3 → Nat) a + S1x8x2048.size a ≤ S7x8x2048.size a
  h_S1x8x2048 : 0 < S1x8x2048.numel
  shapeCasts_S1x8x2048_S8x2048 : S1x8x2048.ShapeCasts S8x2048
  inb_S8x128x2048_S8x1x2048_0_12_0 : ∀ a, (![0, 12, 0] : Fin 3 → Nat) a + S8x1x2048.size a ≤ S8x128x2048.size a
  h_S8x1x2048 : 0 < S8x1x2048.numel
  shapeCasts_S8x2048_S8x1x2048 : S8x2048.ShapeCasts S8x1x2048
  inb_S7x8x2048_S1x8x2048_1_0_0 : ∀ a, (![1, 0, 0] : Fin 3 → Nat) a + S1x8x2048.size a ≤ S7x8x2048.size a
  inb_S8x128x2048_S8x1x2048_0_36_0 : ∀ a, (![0, 36, 0] : Fin 3 → Nat) a + S8x1x2048.size a ≤ S8x128x2048.size a
  inb_S7x8x2048_S1x8x2048_2_0_0 : ∀ a, (![2, 0, 0] : Fin 3 → Nat) a + S1x8x2048.size a ≤ S7x8x2048.size a
  inb_S8x128x2048_S8x1x2048_0_104_0 : ∀ a, (![0, 104, 0] : Fin 3 → Nat) a + S8x1x2048.size a ≤ S8x128x2048.size a
  inb_S7x8x2048_S1x8x2048_3_0_0 : ∀ a, (![3, 0, 0] : Fin 3 → Nat) a + S1x8x2048.size a ≤ S7x8x2048.size a
  inb_S8x128x2048_S8x1x2048_0_48_0 : ∀ a, (![0, 48, 0] : Fin 3 → Nat) a + S8x1x2048.size a ≤ S8x128x2048.size a
  inb_S7x8x2048_S1x8x2048_4_0_0 : ∀ a, (![4, 0, 0] : Fin 3 → Nat) a + S1x8x2048.size a ≤ S7x8x2048.size a
  inb_S8x128x2048_S8x1x2048_0_120_0 : ∀ a, (![0, 120, 0] : Fin 3 → Nat) a + S8x1x2048.size a ≤ S8x128x2048.size a
  inb_S7x8x2048_S1x8x2048_5_0_0 : ∀ a, (![5, 0, 0] : Fin 3 → Nat) a + S1x8x2048.size a ≤ S7x8x2048.size a
  inb_S8x128x2048_S8x1x2048_0_32_0 : ∀ a, (![0, 32, 0] : Fin 3 → Nat) a + S8x1x2048.size a ≤ S8x128x2048.size a
  inb_S7x8x2048_S1x8x2048_6_0_0 : ∀ a, (![6, 0, 0] : Fin 3 → Nat) a + S1x8x2048.size a ≤ S7x8x2048.size a
  inb_S8x128x2048_S8x1x2048_0_16_0 : ∀ a, (![0, 16, 0] : Fin 3 → Nat) a + S8x1x2048.size a ≤ S8x128x2048.size a
  dot_S8x4096_S4096x2048_S8x2048_1_0_0_1_n_n_wf : DotDims.WF S8x4096 S4096x2048 S8x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x2048.size a ≤ S8x8192x2048.size a
  hwx0_0 : ∀ i : grid0.Coords, EltTy.bits .f32 = 32 ∨ (Rect.block (s := S8x8192x2048) S8x128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x8x2048.size a ≤ S7x8x2048.size a
  hwx0_1 : ∀ i : grid0.Coords, EltTy.bits .f32 = 32 ∨ (Rect.block (s := S7x8x2048) S7x8x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x2048.size a ≤ S8x8192x2048.size a
  hwx0_2 : ∀ i : grid0.Coords, EltTy.bits .f32 = 32 ∨ (Rect.block (s := S8x8192x2048) S8x128x2048.size (cc0_transform_2 i) (hinb0_2 i)).WholeWords (EltTy.packing .f32)

variable [Facts₀]

def dot_S8x4096_S4096x2048_S8x2048_1_0_0_1_n_n : DotDims S8x4096 S4096x2048 S8x2048 where
  lhsContracting := [1]
  rhsContracting := [0]
  lhsNonContracting := [0]
  rhsNonContracting := [1]
  lhsBatch := []
  rhsBatch := []
  wf := dot_S8x4096_S4096x2048_S8x2048_1_0_0_1_n_n_wf

abbrev win0_0 : Pipeline.Window sig grid0 :=
  Pipeline.Window.ofSpec (Memref.whole main_arg0) S8x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v476) S7x8x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v477) S8x128x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x8192x2048 : Shape := ⟨3, ![8, 8192, 2048]⟩
abbrev S2048 : Shape := ⟨1, ![2048]⟩
abbrev S2048x4096 : Shape := ⟨2, ![2048, 4096]⟩
abbrev S8x1x2048 : Shape := ⟨3, ![8, 1, 2048]⟩
abbrev S8x2048 : Shape := ⟨2, ![8, 2048]⟩
abbrev S1x2048 : Shape := ⟨2, ![1, 2048]⟩
abbrev S8x4096 : Shape := ⟨2, ![8, 4096]⟩
abbrev S4096x2048 : Shape := ⟨2, ![4096, 2048]⟩
abbrev S_ : Shape := ⟨0, ![]⟩
abbrev S8 : Shape := ⟨1, ![8]⟩
abbrev S8x1 : Shape := ⟨2, ![8, 1]⟩
abbrev S1 : Shape := ⟨1, ![1]⟩

abbrev nBuf : Space → Nat
  | .hbm => 735
  | .vmem => 0
  | .smem => 0
  | _ => 0

abbrev hbmTy0_0 (i : Nat) : BufTy := match i % 128 with
  | 0 => ⟨S8x8192x2048, .f32⟩
  | 1 => ⟨S2048, .f32⟩
  | 2 => ⟨S2048, .f32⟩
  | 3 => ⟨S2048, .f32⟩
  | 4 => ⟨S2048, .f32⟩
  | 5 => ⟨S2048, .f32⟩
  | 6 => ⟨S2048, .f32⟩
  | 7 => ⟨S2048, .f32⟩
  | 8 => ⟨S2048, .f32⟩
  | 9 => ⟨S2048, .f32⟩
  | 10 => ⟨S2048x4096, .f32⟩
  | 11 => ⟨S2048, .f32⟩
  | 12 => ⟨S2048, .f32⟩
  | 13 => ⟨S2048, .f32⟩
  | 14 => ⟨S8x1x2048, .f32⟩
  | 15 => ⟨S8x2048, .f32⟩
  | 16 => ⟨S8x1x2048, .f32⟩
  | 17 => ⟨S8x2048, .f32⟩
  | 18 => ⟨S8x1x2048, .f32⟩
  | 19 => ⟨S8x2048, .f32⟩
  | 20 => ⟨S1x2048, .f32⟩
  | 21 => ⟨S8x2048, .f32⟩
  | 22 => ⟨S8x2048, .f32⟩
  | 23 => ⟨S1x2048, .f32⟩
  | 24 => ⟨S8x2048, .f32⟩
  | 25 => ⟨S8x2048, .f32⟩
  | 26 => ⟨S8x2048, .f32⟩
  | 27 => ⟨S1x2048, .f32⟩
  | 28 => ⟨S8x2048, .f32⟩
  | 29 => ⟨S8x2048, .f32⟩
  | 30 => ⟨S1x2048, .f32⟩
  | 31 => ⟨S8x2048, .f32⟩
  | 32 => ⟨S8x2048, .f32⟩
  | 33 => ⟨S1x2048, .f32⟩
  | 34 => ⟨S8x2048, .f32⟩
  | 35 => ⟨S8x2048, .f32⟩
  | 36 => ⟨S8x2048, .f32⟩
  | 37 => ⟨S1x2048, .f32⟩
  | 38 => ⟨S8x2048, .f32⟩
  | 39 => ⟨S8x2048, .f32⟩
  | 40 => ⟨S1x2048, .f32⟩
  | 41 => ⟨S8x2048, .f32⟩
  | 42 => ⟨S8x2048, .f32⟩
  | 43 => ⟨S1x2048, .f32⟩
  | 44 => ⟨S8x2048, .f32⟩
  | 45 => ⟨S8x2048, .f32⟩
  | 46 => ⟨S8x2048, .f32⟩
  | 47 => ⟨S1x2048, .f32⟩
  | 48 => ⟨S8x2048, .f32⟩
  | 49 => ⟨S8x2048, .f32⟩
  | 50 => ⟨S8x4096, .f32⟩
  | 51 => ⟨S4096x2048, .f32⟩
  | 52 => ⟨S8x2048, .f32⟩
  | 53 => ⟨S1x2048, .f32⟩
  | 54 => ⟨S8x2048, .f32⟩
  | 55 => ⟨S8x2048, .f32⟩
  | 56 => ⟨S8x2048, .f32⟩
  | 57 => ⟨S8x2048, .f32⟩
  | 58 => ⟨S_, .f32⟩
  | 59 => ⟨S8x2048, .f32⟩
  | 60 => ⟨S8x2048, .f32⟩
  | 61 => ⟨S_, .f32⟩
  | 62 => ⟨S8x2048, .f32⟩
  | 63 => ⟨S8x2048, .f32⟩
  | 64 => ⟨S8x2048, .f32⟩
  | 65 => ⟨S_, .f32⟩
  | 66 => ⟨S8x2048, .f32⟩
  | 67 => ⟨S8x2048, .f32⟩
  | 68 => ⟨S8x2048, .f32⟩
  | 69 => ⟨S8x2048, .f32⟩
  | 70 => ⟨S_, .f32⟩
  | 71 => ⟨S8, .f32⟩
  | 72 => ⟨S8x1, .f32⟩
  | 73 => ⟨S_, .f32⟩
  | 74 => ⟨S8x1, .f32⟩
  | 75 => ⟨S8x1, .f32⟩
  | 76 => ⟨S_, .i32⟩
  | 77 => ⟨S_, .f32⟩
  | 78 => ⟨S8, .f32⟩
  | 79 => ⟨S8x1, .f32⟩
  | 80 => ⟨S_, .f32⟩
  | 81 => ⟨S8x1, .f32⟩
  | 82 => ⟨S8x1, .f32⟩
  | 83 => ⟨S8x2048, .f32⟩
  | 84 => ⟨S8x2048, .f32⟩
  | 85 => ⟨S8x2048, .f32⟩
  | 86 => ⟨S_, .f32⟩
  | 87 => ⟨S_, .f32⟩
  | 88 => ⟨S_, .f32⟩
  | 89 => ⟨S_, .f32⟩
  | 90 => ⟨S8, .f32⟩
  | 91 => ⟨S8x1, .f32⟩
  | 92 => ⟨S8x1, .f32⟩
  | 93 => ⟨S8x1, .f32⟩
  | 94 => ⟨S_, .f32⟩
  | 95 => ⟨S_, .i1⟩
  | 96 => ⟨S_, .f32⟩
  | 97 => ⟨S_, .f32⟩
  | 98 => ⟨S8x1, .f32⟩
  | 99 => ⟨S8x1, .f32⟩
  | 100 => ⟨S8x2048, .f32⟩
  | 101 => ⟨S8x2048, .f32⟩
  | 102 => ⟨S_, .f32⟩
  | 103 => ⟨S8x1, .f32⟩
  | 104 => ⟨S8x1, .f32⟩
  | 105 => ⟨S8x1, .f32⟩
  | 106 => ⟨S8x2048, .f32⟩
  | 107 => ⟨S8x2048, .f32⟩
  | 108 => ⟨S1x2048, .f32⟩
  | 109 => ⟨S8x2048, .f32⟩
  | 110 => ⟨S8x2048, .f32⟩
  | 111 => ⟨S1x2048, .f32⟩
  | 112 => ⟨S8x2048, .f32⟩
  | 113 => ⟨S8x2048, .f32⟩
  | 114 => ⟨S_, .i32⟩
  | 115 => ⟨S1, .i32⟩
  | 116 => ⟨S8x8192x2048, .f32⟩
  | 117 => ⟨S8x1x2048, .f32⟩
  | 118 => ⟨S8x2048, .f32⟩
  | 119 => ⟨S8x1x2048, .f32⟩
  | 120 => ⟨S8x2048, .f32⟩
  | 121 => ⟨S8x1x2048, .f32⟩
  | 122 => ⟨S8x2048, .f32⟩
  | 123 => ⟨S1x2048, .f32⟩
  | 124 => ⟨S8x2048, .f32⟩
  | 125 => ⟨S8x2048, .f32⟩
  | 126 => ⟨S1x2048, .f32⟩
  | 127 => ⟨S8x2048, .f32⟩
  | _ => ⟨S8x8192x2048, .f32⟩

abbrev hbmTy0_1 (i : Nat) : BufTy := match i % 128 with
  | 0 => ⟨S8x2048, .f32⟩
  | 1 => ⟨S8x2048, .f32⟩
  | 2 => ⟨S1x2048, .f32⟩
  | 3 => ⟨S8x2048, .f32⟩
  | 4 => ⟨S8x2048, .f32⟩
  | 5 => ⟨S1x2048, .f32⟩
  | 6 => ⟨S8x2048, .f32⟩
  | 7 => ⟨S8x2048, .f32⟩
  | 8 => ⟨S1x2048, .f32⟩
  | 9 => ⟨S8x2048, .f32⟩
  | 10 => ⟨S8x2048, .f32⟩
  | 11 => ⟨S8x2048, .f32⟩
  | 12 => ⟨S1x2048, .f32⟩
  | 13 => ⟨S8x2048, .f32⟩
  | 14 => ⟨S8x2048, .f32⟩
  | 15 => ⟨S1x2048, .f32⟩
  | 16 => ⟨S8x2048, .f32⟩
  | 17 => ⟨S8x2048, .f32⟩
  | 18 => ⟨S1x2048, .f32⟩
  | 19 => ⟨S8x2048, .f32⟩
  | 20 => ⟨S8x2048, .f32⟩
  | 21 => ⟨S8x2048, .f32⟩
  | 22 => ⟨S1x2048, .f32⟩
  | 23 => ⟨S8x2048, .f32⟩
  | 24 => ⟨S8x2048, .f32⟩
  | 25 => ⟨S8x4096, .f32⟩
  | 26 => ⟨S4096x2048, .f32⟩
  | 27 => ⟨S8x2048, .f32⟩
  | 28 => ⟨S1x2048, .f32⟩
  | 29 => ⟨S8x2048, .f32⟩
  | 30 => ⟨S8x2048, .f32⟩
  | 31 => ⟨S8x2048, .f32⟩
  | 32 => ⟨S8x2048, .f32⟩
  | 33 => ⟨S_, .f32⟩
  | 34 => ⟨S8x2048, .f32⟩
  | 35 => ⟨S8x2048, .f32⟩
  | 36 => ⟨S_, .f32⟩
  | 37 => ⟨S8x2048, .f32⟩
  | 38 => ⟨S8x2048, .f32⟩
  | 39 => ⟨S8x2048, .f32⟩
  | 40 => ⟨S_, .f32⟩
  | 41 => ⟨S8x2048, .f32⟩
  | 42 => ⟨S8x2048, .f32⟩
  | 43 => ⟨S8x2048, .f32⟩
  | 44 => ⟨S8x2048, .f32⟩
  | 45 => ⟨S_, .f32⟩
  | 46 => ⟨S8, .f32⟩
  | 47 => ⟨S8x1, .f32⟩
  | 48 => ⟨S_, .f32⟩
  | 49 => ⟨S8x1, .f32⟩
  | 50 => ⟨S8x1, .f32⟩
  | 51 => ⟨S_, .i32⟩
  | 52 => ⟨S_, .f32⟩
  | 53 => ⟨S8, .f32⟩
  | 54 => ⟨S8x1, .f32⟩
  | 55 => ⟨S_, .f32⟩
  | 56 => ⟨S8x1, .f32⟩
  | 57 => ⟨S8x1, .f32⟩
  | 58 => ⟨S8x2048, .f32⟩
  | 59 => ⟨S8x2048, .f32⟩
  | 60 => ⟨S8x2048, .f32⟩
  | 61 => ⟨S_, .f32⟩
  | 62 => ⟨S_, .f32⟩
  | 63 => ⟨S_, .f32⟩
  | 64 => ⟨S_, .f32⟩
  | 65 => ⟨S8, .f32⟩
  | 66 => ⟨S8x1, .f32⟩
  | 67 => ⟨S8x1, .f32⟩
  | 68 => ⟨S8x1, .f32⟩
  | 69 => ⟨S_, .f32⟩
  | 70 => ⟨S_, .i1⟩
  | 71 => ⟨S_, .f32⟩
  | 72 => ⟨S_, .f32⟩
  | 73 => ⟨S8x1, .f32⟩
  | 74 => ⟨S8x1, .f32⟩
  | 75 => ⟨S8x2048, .f32⟩
  | 76 => ⟨S8x2048, .f32⟩
  | 77 => ⟨S_, .f32⟩
  | 78 => ⟨S8x1, .f32⟩
  | 79 => ⟨S8x1, .f32⟩
  | 80 => ⟨S8x1, .f32⟩
  | 81 => ⟨S8x2048, .f32⟩
  | 82 => ⟨S8x2048, .f32⟩
  | 83 => ⟨S1x2048, .f32⟩
  | 84 => ⟨S8x2048, .f32⟩
  | 85 => ⟨S8x2048, .f32⟩
  | 86 => ⟨S1x2048, .f32⟩
  | 87 => ⟨S8x2048, .f32⟩
  | 88 => ⟨S8x2048, .f32⟩
  | 89 => ⟨S_, .i32⟩
  | 90 => ⟨S1, .i32⟩
  | 91 => ⟨S8x8192x2048, .f32⟩
  | 92 => ⟨S8x1x2048, .f32⟩
  | 93 => ⟨S8x2048, .f32⟩
  | 94 => ⟨S8x1x2048, .f32⟩
  | 95 => ⟨S8x2048, .f32⟩
  | 96 => ⟨S8x1x2048, .f32⟩
  | 97 => ⟨S8x2048, .f32⟩
  | 98 => ⟨S1x2048, .f32⟩
  | 99 => ⟨S8x2048, .f32⟩
  | 100 => ⟨S8x2048, .f32⟩
  | 101 => ⟨S1x2048, .f32⟩
  | 102 => ⟨S8x2048, .f32⟩
  | 103 => ⟨S8x2048, .f32⟩
  | 104 => ⟨S8x2048, .f32⟩
  | 105 => ⟨S1x2048, .f32⟩
  | 106 => ⟨S8x2048, .f32⟩
  | 107 => ⟨S8x2048, .f32⟩
  | 108 => ⟨S1x2048, .f32⟩
  | 109 => ⟨S8x2048, .f32⟩
  | 110 => ⟨S8x2048, .f32⟩
  | 111 => ⟨S1x2048, .f32⟩
  | 112 => ⟨S8x2048, .f32⟩
  | 113 => ⟨S8x2048, .f32⟩
  | 114 => ⟨S8x2048, .f32⟩
  | 115 => ⟨S1x2048, .f32⟩
  | 116 => ⟨S8x2048, .f32⟩
  | 117 => ⟨S8x2048, .f32⟩
  | 118 => ⟨S1x2048, .f32⟩
  | 119 => ⟨S8x2048, .f32⟩
  | 120 => ⟨S8x2048, .f32⟩
  | 121 => ⟨S1x2048, .f32⟩
  | 122 => ⟨S8x2048, .f32⟩
  | 123 => ⟨S8x2048, .f32⟩
  | 124 => ⟨S8x2048, .f32⟩
  | 125 => ⟨S1x2048, .f32⟩
  | 126 => ⟨S8x2048, .f32⟩
  | 127 => ⟨S8x2048, .f32⟩
  | _ => ⟨S8x8192x2048, .f32⟩

abbrev hbmTy0_2 (i : Nat) : BufTy := match i % 128 with
  | 0 => ⟨S8x4096, .f32⟩
  | 1 => ⟨S4096x2048, .f32⟩
  | 2 => ⟨S8x2048, .f32⟩
  | 3 => ⟨S1x2048, .f32⟩
  | 4 => ⟨S8x2048, .f32⟩
  | 5 => ⟨S8x2048, .f32⟩
  | 6 => ⟨S8x2048, .f32⟩
  | 7 => ⟨S8x2048, .f32⟩
  | 8 => ⟨S_, .f32⟩
  | 9 => ⟨S8x2048, .f32⟩
  | 10 => ⟨S8x2048, .f32⟩
  | 11 => ⟨S_, .f32⟩
  | 12 => ⟨S8x2048, .f32⟩
  | 13 => ⟨S8x2048, .f32⟩
  | 14 => ⟨S8x2048, .f32⟩
  | 15 => ⟨S_, .f32⟩
  | 16 => ⟨S8x2048, .f32⟩
  | 17 => ⟨S8x2048, .f32⟩
  | 18 => ⟨S8x2048, .f32⟩
  | 19 => ⟨S8x2048, .f32⟩
  | 20 => ⟨S_, .f32⟩
  | 21 => ⟨S8, .f32⟩
  | 22 => ⟨S8x1, .f32⟩
  | 23 => ⟨S_, .f32⟩
  | 24 => ⟨S8x1, .f32⟩
  | 25 => ⟨S8x1, .f32⟩
  | 26 => ⟨S_, .i32⟩
  | 27 => ⟨S_, .f32⟩
  | 28 => ⟨S8, .f32⟩
  | 29 => ⟨S8x1, .f32⟩
  | 30 => ⟨S_, .f32⟩
  | 31 => ⟨S8x1, .f32⟩
  | 32 => ⟨S8x1, .f32⟩
  | 33 => ⟨S8x2048, .f32⟩
  | 34 => ⟨S8x2048, .f32⟩
  | 35 => ⟨S8x2048, .f32⟩
  | 36 => ⟨S_, .f32⟩
  | 37 => ⟨S_, .f32⟩
  | 38 => ⟨S_, .f32⟩
  | 39 => ⟨S_, .f32⟩
  | 40 => ⟨S8, .f32⟩
  | 41 => ⟨S8x1, .f32⟩
  | 42 => ⟨S8x1, .f32⟩
  | 43 => ⟨S8x1, .f32⟩
  | 44 => ⟨S_, .f32⟩
  | 45 => ⟨S_, .i1⟩
  | 46 => ⟨S_, .f32⟩
  | 47 => ⟨S_, .f32⟩
  | 48 => ⟨S8x1, .f32⟩
  | 49 => ⟨S8x1, .f32⟩
  | 50 => ⟨S8x2048, .f32⟩
  | 51 => ⟨S8x2048, .f32⟩
  | 52 => ⟨S_, .f32⟩
  | 53 => ⟨S8x1, .f32⟩
  | 54 => ⟨S8x1, .f32⟩
  | 55 => ⟨S8x1, .f32⟩
  | 56 => ⟨S8x2048, .f32⟩
  | 57 => ⟨S8x2048, .f32⟩
  | 58 => ⟨S1x2048, .f32⟩
  | 59 => ⟨S8x2048, .f32⟩
  | 60 => ⟨S8x2048, .f32⟩
  | 61 => ⟨S1x2048, .f32⟩
  | 62 => ⟨S8x2048, .f32⟩
  | 63 => ⟨S8x2048, .f32⟩
  | 64 => ⟨S_, .i32⟩
  | 65 => ⟨S1, .i32⟩
  | 66 => ⟨S8x8192x2048, .f32⟩
  | 67 => ⟨S8x1x2048, .f32⟩
  | 68 => ⟨S8x2048, .f32⟩
  | 69 => ⟨S8x1x2048, .f32⟩
  | 70 => ⟨S8x2048, .f32⟩
  | 71 => ⟨S8x1x2048, .f32⟩
  | 72 => ⟨S8x2048, .f32⟩
  | 73 => ⟨S1x2048, .f32⟩
  | 74 => ⟨S8x2048, .f32⟩
  | 75 => ⟨S8x2048, .f32⟩
  | 76 => ⟨S1x2048, .f32⟩
  | 77 => ⟨S8x2048, .f32⟩
  | 78 => ⟨S8x2048, .f32⟩
  | 79 => ⟨S8x2048, .f32⟩
  | 80 => ⟨S1x2048, .f32⟩
  | 81 => ⟨S8x2048, .f32⟩
  | 82 => ⟨S8x2048, .f32⟩
  | 83 => ⟨S1x2048, .f32⟩
  | 84 => ⟨S8x2048, .f32⟩
  | 85 => ⟨S8x2048, .f32⟩
  | 86 => ⟨S1x2048, .f32⟩
  | 87 => ⟨S8x2048, .f32⟩
  | 88 => ⟨S8x2048, .f32⟩
  | 89 => ⟨S8x2048, .f32⟩
  | 90 => ⟨S1x2048, .f32⟩
  | 91 => ⟨S8x2048, .f32⟩
  | 92 => ⟨S8x2048, .f32⟩
  | 93 => ⟨S1x2048, .f32⟩
  | 94 => ⟨S8x2048, .f32⟩
  | 95 => ⟨S8x2048, .f32⟩
  | 96 => ⟨S1x2048, .f32⟩
  | 97 => ⟨S8x2048, .f32⟩
  | 98 => ⟨S8x2048, .f32⟩
  | 99 => ⟨S8x2048, .f32⟩
  | 100 => ⟨S1x2048, .f32⟩
  | 101 => ⟨S8x2048, .f32⟩
  | 102 => ⟨S8x2048, .f32⟩
  | 103 => ⟨S8x4096, .f32⟩
  | 104 => ⟨S4096x2048, .f32⟩
  | 105 => ⟨S8x2048, .f32⟩
  | 106 => ⟨S1x2048, .f32⟩
  | 107 => ⟨S8x2048, .f32⟩
  | 108 => ⟨S8x2048, .f32⟩
  | 109 => ⟨S8x2048, .f32⟩
  | 110 => ⟨S8x2048, .f32⟩
  | 111 => ⟨S_, .f32⟩
  | 112 => ⟨S8x2048, .f32⟩
  | 113 => ⟨S8x2048, .f32⟩
  | 114 => ⟨S_, .f32⟩
  | 115 => ⟨S8x2048, .f32⟩
  | 116 => ⟨S8x2048, .f32⟩
  | 117 => ⟨S8x2048, .f32⟩
  | 118 => ⟨S_, .f32⟩
  | 119 => ⟨S8x2048, .f32⟩
  | 120 => ⟨S8x2048, .f32⟩
  | 121 => ⟨S8x2048, .f32⟩
  | 122 => ⟨S8x2048, .f32⟩
  | 123 => ⟨S_, .f32⟩
  | 124 => ⟨S8, .f32⟩
  | 125 => ⟨S8x1, .f32⟩
  | 126 => ⟨S_, .f32⟩
  | 127 => ⟨S8x1, .f32⟩
  | _ => ⟨S8x8192x2048, .f32⟩

abbrev hbmTy0_3 (i : Nat) : BufTy := match i % 128 with
  | 0 => ⟨S8x1, .f32⟩
  | 1 => ⟨S_, .i32⟩
  | 2 => ⟨S_, .f32⟩
  | 3 => ⟨S8, .f32⟩
  | 4 => ⟨S8x1, .f32⟩
  | 5 => ⟨S_, .f32⟩
  | 6 => ⟨S8x1, .f32⟩
  | 7 => ⟨S8x1, .f32⟩
  | 8 => ⟨S8x2048, .f32⟩
  | 9 => ⟨S8x2048, .f32⟩
  | 10 => ⟨S8x2048, .f32⟩
  | 11 => ⟨S_, .f32⟩
  | 12 => ⟨S_, .f32⟩
  | 13 => ⟨S_, .f32⟩
  | 14 => ⟨S_, .f32⟩
  | 15 => ⟨S8, .f32⟩
  | 16 => ⟨S8x1, .f32⟩
  | 17 => ⟨S8x1, .f32⟩
  | 18 => ⟨S8x1, .f32⟩
  | 19 => ⟨S_, .f32⟩
  | 20 => ⟨S_, .i1⟩
  | 21 => ⟨S_, .f32⟩
  | 22 => ⟨S_, .f32⟩
  | 23 => ⟨S8x1, .f32⟩
  | 24 => ⟨S8x1, .f32⟩
  | 25 => ⟨S8x2048, .f32⟩
  | 26 => ⟨S8x2048, .f32⟩
  | 27 => ⟨S_, .f32⟩
  | 28 => ⟨S8x1, .f32⟩
  | 29 => ⟨S8x1, .f32⟩
  | 30 => ⟨S8x1, .f32⟩
  | 31 => ⟨S8x2048, .f32⟩
  | 32 => ⟨S8x2048, .f32⟩
  | 33 => ⟨S1x2048, .f32⟩
  | 34 => ⟨S8x2048, .f32⟩
  | 35 => ⟨S8x2048, .f32⟩
  | 36 => ⟨S1x2048, .f32⟩
  | 37 => ⟨S8x2048, .f32⟩
  | 38 => ⟨S8x2048, .f32⟩
  | 39 => ⟨S_, .i32⟩
  | 40 => ⟨S1, .i32⟩
  | 41 => ⟨S8x8192x2048, .f32⟩
  | 42 => ⟨S8x1x2048, .f32⟩
  | 43 => ⟨S8x2048, .f32⟩
  | 44 => ⟨S8x1x2048, .f32⟩
  | 45 => ⟨S8x2048, .f32⟩
  | 46 => ⟨S8x1x2048, .f32⟩
  | 47 => ⟨S8x2048, .f32⟩
  | 48 => ⟨S1x2048, .f32⟩
  | 49 => ⟨S8x2048, .f32⟩
  | 50 => ⟨S8x2048, .f32⟩
  | 51 => ⟨S1x2048, .f32⟩
  | 52 => ⟨S8x2048, .f32⟩
  | 53 => ⟨S8x2048, .f32⟩
  | 54 => ⟨S8x2048, .f32⟩
  | 55 => ⟨S1x2048, .f32⟩
  | 56 => ⟨S8x2048, .f32⟩
  | 57 => ⟨S8x2048, .f32⟩
  | 58 => ⟨S1x2048, .f32⟩
  | 59 => ⟨S8x2048, .f32⟩
  | 60 => ⟨S8x2048, .f32⟩
  | 61 => ⟨S1x2048, .f32⟩
  | 62 => ⟨S8x2048, .f32⟩
  | 63 => ⟨S8x2048, .f32⟩
  | 64 => ⟨S8x2048, .f32⟩
  | 65 => ⟨S1x2048, .f32⟩
  | 66 => ⟨S8x2048, .f32⟩
  | 67 => ⟨S8x2048, .f32⟩
  | 68 => ⟨S1x2048, .f32⟩
  | 69 => ⟨S8x2048, .f32⟩
  | 70 => ⟨S8x2048, .f32⟩
  | 71 => ⟨S1x2048, .f32⟩
  | 72 => ⟨S8x2048, .f32⟩
  | 73 => ⟨S8x2048, .f32⟩
  | 74 => ⟨S8x2048, .f32⟩
  | 75 => ⟨S1x2048, .f32⟩
  | 76 => ⟨S8x2048, .f32⟩
  | 77 => ⟨S8x2048, .f32⟩
  | 78 => ⟨S8x4096, .f32⟩
  | 79 => ⟨S4096x2048, .f32⟩
  | 80 => ⟨S8x2048, .f32⟩
  | 81 => ⟨S1x2048, .f32⟩
  | 82 => ⟨S8x2048, .f32⟩
  | 83 => ⟨S8x2048, .f32⟩
  | 84 => ⟨S8x2048, .f32⟩
  | 85 => ⟨S8x2048, .f32⟩
  | 86 => ⟨S_, .f32⟩
  | 87 => ⟨S8x2048, .f32⟩
  | 88 => ⟨S8x2048, .f32⟩
  | 89 => ⟨S_, .f32⟩
  | 90 => ⟨S8x2048, .f32⟩
  | 91 => ⟨S8x2048, .f32⟩
  | 92 => ⟨S8x2048, .f32⟩
  | 93 => ⟨S_, .f32⟩
  | 94 => ⟨S8x2048, .f32⟩
  | 95 => ⟨S8x2048, .f32⟩
  | 96 => ⟨S8x2048, .f32⟩
  | 97 => ⟨S8x2048, .f32⟩
  | 98 => ⟨S_, .f32⟩
  | 99 => ⟨S8, .f32⟩
  | 100 => ⟨S8x1, .f32⟩
  | 101 => ⟨S_, .f32⟩
  | 102 => ⟨S8x1, .f32⟩
  | 103 => ⟨S8x1, .f32⟩
  | 104 => ⟨S_, .i32⟩
  | 105 => ⟨S_, .f32⟩
  | 106 => ⟨S8, .f32⟩
  | 107 => ⟨S8x1, .f32⟩
  | 108 => ⟨S_, .f32⟩
  | 109 => ⟨S8x1, .f32⟩
  | 110 => ⟨S8x1, .f32⟩
  | 111 => ⟨S8x2048, .f32⟩
  | 112 => ⟨S8x2048, .f32⟩
  | 113 => ⟨S8x2048, .f32⟩
  | 114 => ⟨S_, .f32⟩
  | 115 => ⟨S_, .f32⟩
  | 116 => ⟨S_, .f32⟩
  | 117 => ⟨S_, .f32⟩
  | 118 => ⟨S8, .f32⟩
  | 119 => ⟨S8x1, .f32⟩
  | 120 => ⟨S8x1, .f32⟩
  | 121 => ⟨S8x1, .f32⟩
  | 122 => ⟨S_, .f32⟩
  | 123 => ⟨S_, .i1⟩
  | 124 => ⟨S_, .f32⟩
  | 125 => ⟨S_, .f32⟩
  | 126 => ⟨S8x1, .f32⟩
  | 127 => ⟨S8x1, .f32⟩
  | _ => ⟨S8x8192x2048, .f32⟩

abbrev hbmTy0_4 (i : Nat) : BufTy := match i % 128 with
  | 0 => ⟨S8x2048, .f32⟩
  | 1 => ⟨S8x2048, .f32⟩
  | 2 => ⟨S_, .f32⟩
  | 3 => ⟨S8x1, .f32⟩
  | 4 => ⟨S8x1, .f32⟩
  | 5 => ⟨S8x1, .f32⟩
  | 6 => ⟨S8x2048, .f32⟩
  | 7 => ⟨S8x2048, .f32⟩
  | 8 => ⟨S1x2048, .f32⟩
  | 9 => ⟨S8x2048, .f32⟩
  | 10 => ⟨S8x2048, .f32⟩
  | 11 => ⟨S1x2048, .f32⟩
  | 12 => ⟨S8x2048, .f32⟩
  | 13 => ⟨S8x2048, .f32⟩
  | 14 => ⟨S_, .i32⟩
  | 15 => ⟨S1, .i32⟩
  | 16 => ⟨S8x8192x2048, .f32⟩
  | 17 => ⟨S8x1x2048, .f32⟩
  | 18 => ⟨S8x2048, .f32⟩
  | 19 => ⟨S8x1x2048, .f32⟩
  | 20 => ⟨S8x2048, .f32⟩
  | 21 => ⟨S8x1x2048, .f32⟩
  | 22 => ⟨S8x2048, .f32⟩
  | 23 => ⟨S1x2048, .f32⟩
  | 24 => ⟨S8x2048, .f32⟩
  | 25 => ⟨S8x2048, .f32⟩
  | 26 => ⟨S1x2048, .f32⟩
  | 27 => ⟨S8x2048, .f32⟩
  | 28 => ⟨S8x2048, .f32⟩
  | 29 => ⟨S8x2048, .f32⟩
  | 30 => ⟨S1x2048, .f32⟩
  | 31 => ⟨S8x2048, .f32⟩
  | 32 => ⟨S8x2048, .f32⟩
  | 33 => ⟨S1x2048, .f32⟩
  | 34 => ⟨S8x2048, .f32⟩
  | 35 => ⟨S8x2048, .f32⟩
  | 36 => ⟨S1x2048, .f32⟩
  | 37 => ⟨S8x2048, .f32⟩
  | 38 => ⟨S8x2048, .f32⟩
  | 39 => ⟨S8x2048, .f32⟩
  | 40 => ⟨S1x2048, .f32⟩
  | 41 => ⟨S8x2048, .f32⟩
  | 42 => ⟨S8x2048, .f32⟩
  | 43 => ⟨S1x2048, .f32⟩
  | 44 => ⟨S8x2048, .f32⟩
  | 45 => ⟨S8x2048, .f32⟩
  | 46 => ⟨S1x2048, .f32⟩
  | 47 => ⟨S8x2048, .f32⟩
  | 48 => ⟨S8x2048, .f32⟩
  | 49 => ⟨S8x2048, .f32⟩
  | 50 => ⟨S1x2048, .f32⟩
  | 51 => ⟨S8x2048, .f32⟩
  | 52 => ⟨S8x2048, .f32⟩
  | 53 => ⟨S8x4096, .f32⟩
  | 54 => ⟨S4096x2048, .f32⟩
  | 55 => ⟨S8x2048, .f32⟩
  | 56 => ⟨S1x2048, .f32⟩
  | 57 => ⟨S8x2048, .f32⟩
  | 58 => ⟨S8x2048, .f32⟩
  | 59 => ⟨S8x2048, .f32⟩
  | 60 => ⟨S8x2048, .f32⟩
  | 61 => ⟨S_, .f32⟩
  | 62 => ⟨S8x2048, .f32⟩
  | 63 => ⟨S8x2048, .f32⟩
  | 64 => ⟨S_, .f32⟩
  | 65 => ⟨S8x2048, .f32⟩
  | 66 => ⟨S8x2048, .f32⟩
  | 67 => ⟨S8x2048, .f32⟩
  | 68 => ⟨S_, .f32⟩
  | 69 => ⟨S8x2048, .f32⟩
  | 70 => ⟨S8x2048, .f32⟩
  | 71 => ⟨S8x2048, .f32⟩
  | 72 => ⟨S8x2048, .f32⟩
  | 73 => ⟨S_, .f32⟩
  | 74 => ⟨S8, .f32⟩
  | 75 => ⟨S8x1, .f32⟩
  | 76 => ⟨S_, .f32⟩
  | 77 => ⟨S8x1, .f32⟩
  | 78 => ⟨S8x1, .f32⟩
  | 79 => ⟨S_, .i32⟩
  | 80 => ⟨S_, .f32⟩
  | 81 => ⟨S8, .f32⟩
  | 82 => ⟨S8x1, .f32⟩
  | 83 => ⟨S_, .f32⟩
  | 84 => ⟨S8x1, .f32⟩
  | 85 => ⟨S8x1, .f32⟩
  | 86 => ⟨S8x2048, .f32⟩
  | 87 => ⟨S8x2048, .f32⟩
  | 88 => ⟨S8x2048, .f32⟩
  | 89 => ⟨S_, .f32⟩
  | 90 => ⟨S_, .f32⟩
  | 91 => ⟨S_, .f32⟩
  | 92 => ⟨S_, .f32⟩
  | 93 => ⟨S8, .f32⟩
  | 94 => ⟨S8x1, .f32⟩
  | 95 => ⟨S8x1, .f32⟩
  | 96 => ⟨S8x1, .f32⟩
  | 97 => ⟨S_, .f32⟩
  | 98 => ⟨S_, .i1⟩
  | 99 => ⟨S_, .f32⟩
  | 100 => ⟨S_, .f32⟩
  | 101 => ⟨S8x1, .f32⟩
  | 102 => ⟨S8x1, .f32⟩
  | 103 => ⟨S8x2048, .f32⟩
  | 104 => ⟨S8x2048, .f32⟩
  | 105 => ⟨S_, .f32⟩
  | 106 => ⟨S8x1, .f32⟩
  | 107 => ⟨S8x1, .f32⟩
  | 108 => ⟨S8x1, .f32⟩
  | 109 => ⟨S8x2048, .f32⟩
  | 110 => ⟨S8x2048, .f32⟩
  | 111 => ⟨S1x2048, .f32⟩
  | 112 => ⟨S8x2048, .f32⟩
  | 113 => ⟨S8x2048, .f32⟩
  | 114 => ⟨S1x2048, .f32⟩
  | 115 => ⟨S8x2048, .f32⟩
  | 116 => ⟨S8x2048, .f32⟩
  | 117 => ⟨S_, .i32⟩
  | 118 => ⟨S1, .i32⟩
  | 119 => ⟨S8x8192x2048, .f32⟩
  | 120 => ⟨S8x1x2048, .f32⟩
  | 121 => ⟨S8x2048, .f32⟩
  | 122 => ⟨S8x1x2048, .f32⟩
  | 123 => ⟨S8x2048, .f32⟩
  | 124 => ⟨S8x1x2048, .f32⟩
  | 125 => ⟨S8x2048, .f32⟩
  | 126 => ⟨S1x2048, .f32⟩
  | 127 => ⟨S8x2048, .f32⟩
  | _ => ⟨S8x8192x2048, .f32⟩

abbrev hbmTy0_5 (i : Nat) : BufTy := match i % 128 with
  | 0 => ⟨S8x2048, .f32⟩
  | 1 => ⟨S1x2048, .f32⟩
  | 2 => ⟨S8x2048, .f32⟩
  | 3 => ⟨S8x2048, .f32⟩
  | 4 => ⟨S8x2048, .f32⟩
  | 5 => ⟨S1x2048, .f32⟩
  | 6 => ⟨S8x2048, .f32⟩
  | 7 => ⟨S8x2048, .f32⟩
  | 8 => ⟨S1x2048, .f32⟩
  | 9 => ⟨S8x2048, .f32⟩
  | 10 => ⟨S8x2048, .f32⟩
  | 11 => ⟨S1x2048, .f32⟩
  | 12 => ⟨S8x2048, .f32⟩
  | 13 => ⟨S8x2048, .f32⟩
  | 14 => ⟨S8x2048, .f32⟩
  | 15 => ⟨S1x2048, .f32⟩
  | 16 => ⟨S8x2048, .f32⟩
  | 17 => ⟨S8x2048, .f32⟩
  | 18 => ⟨S1x2048, .f32⟩
  | 19 => ⟨S8x2048, .f32⟩
  | 20 => ⟨S8x2048, .f32⟩
  | 21 => ⟨S1x2048, .f32⟩
  | 22 => ⟨S8x2048, .f32⟩
  | 23 => ⟨S8x2048, .f32⟩
  | 24 => ⟨S8x2048, .f32⟩
  | 25 => ⟨S1x2048, .f32⟩
  | 26 => ⟨S8x2048, .f32⟩
  | 27 => ⟨S8x2048, .f32⟩
  | 28 => ⟨S8x4096, .f32⟩
  | 29 => ⟨S4096x2048, .f32⟩
  | 30 => ⟨S8x2048, .f32⟩
  | 31 => ⟨S1x2048, .f32⟩
  | 32 => ⟨S8x2048, .f32⟩
  | 33 => ⟨S8x2048, .f32⟩
  | 34 => ⟨S8x2048, .f32⟩
  | 35 => ⟨S8x2048, .f32⟩
  | 36 => ⟨S_, .f32⟩
  | 37 => ⟨S8x2048, .f32⟩
  | 38 => ⟨S8x2048, .f32⟩
  | 39 => ⟨S_, .f32⟩
  | 40 => ⟨S8x2048, .f32⟩
  | 41 => ⟨S8x2048, .f32⟩
  | 42 => ⟨S8x2048, .f32⟩
  | 43 => ⟨S_, .f32⟩
  | 44 => ⟨S8x2048, .f32⟩
  | 45 => ⟨S8x2048, .f32⟩
  | 46 => ⟨S8x2048, .f32⟩
  | 47 => ⟨S8x2048, .f32⟩
  | 48 => ⟨S_, .f32⟩
  | 49 => ⟨S8, .f32⟩
  | 50 => ⟨S8x1, .f32⟩
  | 51 => ⟨S_, .f32⟩
  | 52 => ⟨S8x1, .f32⟩
  | 53 => ⟨S8x1, .f32⟩
  | 54 => ⟨S_, .i32⟩
  | 55 => ⟨S_, .f32⟩
  | 56 => ⟨S8, .f32⟩
  | 57 => ⟨S8x1, .f32⟩
  | 58 => ⟨S_, .f32⟩
  | 59 => ⟨S8x1, .f32⟩
  | 60 => ⟨S8x1, .f32⟩
  | 61 => ⟨S8x2048, .f32⟩
  | 62 => ⟨S8x2048, .f32⟩
  | 63 => ⟨S8x2048, .f32⟩
  | 64 => ⟨S_, .f32⟩
  | 65 => ⟨S_, .f32⟩
  | 66 => ⟨S_, .f32⟩
  | 67 => ⟨S_, .f32⟩
  | 68 => ⟨S8, .f32⟩
  | 69 => ⟨S8x1, .f32⟩
  | 70 => ⟨S8x1, .f32⟩
  | 71 => ⟨S8x1, .f32⟩
  | 72 => ⟨S_, .f32⟩
  | 73 => ⟨S_, .i1⟩
  | 74 => ⟨S_, .f32⟩
  | 75 => ⟨S_, .f32⟩
  | 76 => ⟨S8x1, .f32⟩
  | 77 => ⟨S8x1, .f32⟩
  | 78 => ⟨S8x2048, .f32⟩
  | 79 => ⟨S8x2048, .f32⟩
  | 80 => ⟨S_, .f32⟩
  | 81 => ⟨S8x1, .f32⟩
  | 82 => ⟨S8x1, .f32⟩
  | 83 => ⟨S8x1, .f32⟩
  | 84 => ⟨S8x2048, .f32⟩
  | 85 => ⟨S8x2048, .f32⟩
  | 86 => ⟨S1x2048, .f32⟩
  | 87 => ⟨S8x2048, .f32⟩
  | 88 => ⟨S8x2048, .f32⟩
  | 89 => ⟨S1x2048, .f32⟩
  | 90 => ⟨S8x2048, .f32⟩
  | 91 => ⟨S8x2048, .f32⟩
  | 92 => ⟨S_, .i32⟩
  | 93 => ⟨S1, .i32⟩
  | 94 => ⟨S8x8192x2048, .f32⟩
  | _ => ⟨S8x8192x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x8192x2048, .f32⟩

abbrev bufTy : (tb : Table) → Fin (tcTables nBuf tb) → BufTy
  | .hbm, ⟨i, _⟩ => hbmTy i
  | _, _ => ⟨S8x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst : Ref sig .tc := ⟨.hbm, 58, rfl⟩
abbrev main_v44 : Ref sig .tc := ⟨.hbm, 59, rfl⟩
abbrev main_v45 : Ref sig .tc := ⟨.hbm, 60, rfl⟩
abbrev main_cst_0 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_1 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_2 : Ref sig .tc := ⟨.hbm, 70, rfl⟩
abbrev main_v53 : Ref sig .tc := ⟨.hbm, 71, rfl⟩
abbrev main_v54 : Ref sig .tc := ⟨.hbm, 72, rfl⟩
abbrev main_cst_3 : Ref sig .tc := ⟨.hbm, 73, rfl⟩
abbrev main_v55 : Ref sig .tc := ⟨.hbm, 74, rfl⟩
abbrev main_v56 : Ref sig .tc := ⟨.hbm, 75, rfl⟩
abbrev main_c : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_cst_0 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_cst_1 : Ref sig .tc := ⟨.hbm, 87, rfl⟩
abbrev main_call0_v8 : Ref sig .tc := ⟨.hbm, 88, rfl⟩
abbrev main_call0_cst_2 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_v12 : Ref sig .tc := ⟨.hbm, 93, rfl⟩
abbrev main_call0_cst_3 : Ref sig .tc := ⟨.hbm, 94, rfl⟩
abbrev main_call0_v13 : Ref sig .tc := ⟨.hbm, 95, rfl⟩
abbrev main_call0_cst_4 : Ref sig .tc := ⟨.hbm, 96, rfl⟩
abbrev main_call0_call0_v0 : Ref sig .tc := ⟨.hbm, 97, rfl⟩
abbrev main_call0_call0_v1 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_4 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_c_5 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_6 : Ref sig .tc := ⟨.hbm, 161, rfl⟩
abbrev main_v117 : Ref sig .tc := ⟨.hbm, 162, rfl⟩
abbrev main_v118 : Ref sig .tc := ⟨.hbm, 163, rfl⟩
abbrev main_cst_7 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_8 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_9 : Ref sig .tc := ⟨.hbm, 173, rfl⟩
abbrev main_v126 : Ref sig .tc := ⟨.hbm, 174, rfl⟩
abbrev main_v127 : Ref sig .tc := ⟨.hbm, 175, rfl⟩
abbrev main_cst_10 : Ref sig .tc := ⟨.hbm, 176, rfl⟩
abbrev main_v128 : Ref sig .tc := ⟨.hbm, 177, rfl⟩
abbrev main_v129 : Ref sig .tc := ⟨.hbm, 178, rfl⟩
abbrev main_c_11 : Ref sig .tc := ⟨.hbm, 179, rfl⟩
abbrev main_call1_cst : Ref sig .tc := ⟨.hbm, 180, rfl⟩
abbrev main_call1_v0 : Ref sig .tc := ⟨.hbm, 181, rfl⟩
abbrev main_call1_v1 : Ref sig .tc := ⟨.hbm, 182, rfl⟩
abbrev main_call1_cst_0 : Ref sig .tc := ⟨.hbm, 183, rfl⟩
abbrev main_call1_v2 : Ref sig .tc := ⟨.hbm, 184, rfl⟩
abbrev main_call1_v3 : Ref sig .tc := ⟨.hbm, 185, rfl⟩
abbrev main_call1_v4 : Ref sig .tc := ⟨.hbm, 186, rfl⟩
abbrev main_call1_v5 : Ref sig .tc := ⟨.hbm, 187, rfl⟩
abbrev main_call1_v6 : Ref sig .tc := ⟨.hbm, 188, rfl⟩
abbrev main_call1_v7 : Ref sig .tc := ⟨.hbm, 189, rfl⟩
abbrev main_call1_cst_1 : Ref sig .tc := ⟨.hbm, 190, rfl⟩
abbrev main_call1_v8 : Ref sig .tc := ⟨.hbm, 191, rfl⟩
abbrev main_call1_cst_2 : Ref sig .tc := ⟨.hbm, 192, rfl⟩
abbrev main_call1_v9 : Ref sig .tc := ⟨.hbm, 193, rfl⟩
abbrev main_call1_v10 : Ref sig .tc := ⟨.hbm, 194, rfl⟩
abbrev main_call1_v11 : Ref sig .tc := ⟨.hbm, 195, rfl⟩
abbrev main_call1_v12 : Ref sig .tc := ⟨.hbm, 196, rfl⟩
abbrev main_call1_cst_3 : Ref sig .tc := ⟨.hbm, 197, rfl⟩
abbrev main_call1_v13 : Ref sig .tc := ⟨.hbm, 198, rfl⟩
abbrev main_call1_cst_4 : Ref sig .tc := ⟨.hbm, 199, rfl⟩
abbrev main_call1_call0_v0 : Ref sig .tc := ⟨.hbm, 200, rfl⟩
abbrev main_call1_call0_v1 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_cst_12 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_c_13 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_cst_14 : Ref sig .tc := ⟨.hbm, 264, rfl⟩
abbrev main_v190 : Ref sig .tc := ⟨.hbm, 265, rfl⟩
abbrev main_v191 : Ref sig .tc := ⟨.hbm, 266, rfl⟩
abbrev main_cst_15 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_cst_16 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_cst_17 : Ref sig .tc := ⟨.hbm, 276, rfl⟩
abbrev main_v199 : Ref sig .tc := ⟨.hbm, 277, rfl⟩
abbrev main_v200 : Ref sig .tc := ⟨.hbm, 278, rfl⟩
abbrev main_cst_18 : Ref sig .tc := ⟨.hbm, 279, rfl⟩
abbrev main_v201 : Ref sig .tc := ⟨.hbm, 280, rfl⟩
abbrev main_v202 : Ref sig .tc := ⟨.hbm, 281, rfl⟩
abbrev main_c_19 : Ref sig .tc := ⟨.hbm, 282, rfl⟩
abbrev main_call2_cst : Ref sig .tc := ⟨.hbm, 283, rfl⟩
abbrev main_call2_v0 : Ref sig .tc := ⟨.hbm, 284, rfl⟩
abbrev main_call2_v1 : Ref sig .tc := ⟨.hbm, 285, rfl⟩
abbrev main_call2_cst_0 : Ref sig .tc := ⟨.hbm, 286, rfl⟩
abbrev main_call2_v2 : Ref sig .tc := ⟨.hbm, 287, rfl⟩
abbrev main_call2_v3 : Ref sig .tc := ⟨.hbm, 288, rfl⟩
abbrev main_call2_v4 : Ref sig .tc := ⟨.hbm, 289, rfl⟩
abbrev main_call2_v5 : Ref sig .tc := ⟨.hbm, 290, rfl⟩
abbrev main_call2_v6 : Ref sig .tc := ⟨.hbm, 291, rfl⟩
abbrev main_call2_v7 : Ref sig .tc := ⟨.hbm, 292, rfl⟩
abbrev main_call2_cst_1 : Ref sig .tc := ⟨.hbm, 293, rfl⟩
abbrev main_call2_v8 : Ref sig .tc := ⟨.hbm, 294, rfl⟩
abbrev main_call2_cst_2 : Ref sig .tc := ⟨.hbm, 295, rfl⟩
abbrev main_call2_v9 : Ref sig .tc := ⟨.hbm, 296, rfl⟩
abbrev main_call2_v10 : Ref sig .tc := ⟨.hbm, 297, rfl⟩
abbrev main_call2_v11 : Ref sig .tc := ⟨.hbm, 298, rfl⟩
abbrev main_call2_v12 : Ref sig .tc := ⟨.hbm, 299, rfl⟩
abbrev main_call2_cst_3 : Ref sig .tc := ⟨.hbm, 300, rfl⟩
abbrev main_call2_v13 : Ref sig .tc := ⟨.hbm, 301, rfl⟩
abbrev main_call2_cst_4 : Ref sig .tc := ⟨.hbm, 302, rfl⟩
abbrev main_call2_call0_v0 : Ref sig .tc := ⟨.hbm, 303, rfl⟩
abbrev main_call2_call0_v1 : Ref sig .tc := ⟨.hbm, 304, rfl⟩
abbrev main_v203 : Ref sig .tc := ⟨.hbm, 305, rfl⟩
abbrev main_v204 : Ref sig .tc := ⟨.hbm, 306, rfl⟩
abbrev main_v205 : Ref sig .tc := ⟨.hbm, 307, rfl⟩
abbrev main_cst_20 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_v209 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_v213 : Ref sig .tc := ⟨.hbm, 316, rfl⟩
abbrev main_v214 : Ref sig .tc := ⟨.hbm, 317, rfl⟩
abbrev main_v215 : Ref sig .tc := ⟨.hbm, 318, rfl⟩
abbrev main_v216 : Ref sig .tc := ⟨.hbm, 319, rfl⟩
abbrev main_c_21 : Ref sig .tc := ⟨.hbm, 320, rfl⟩
abbrev main_v217 : Ref sig .tc := ⟨.hbm, 321, rfl⟩
abbrev main_v218 : Ref sig .tc := ⟨.hbm, 322, rfl⟩
abbrev main_v219 : Ref sig .tc := ⟨.hbm, 323, rfl⟩
abbrev main_v220 : Ref sig .tc := ⟨.hbm, 324, rfl⟩
abbrev main_v221 : Ref sig .tc := ⟨.hbm, 325, rfl⟩
abbrev main_v222 : Ref sig .tc := ⟨.hbm, 326, rfl⟩
abbrev main_v223 : Ref sig .tc := ⟨.hbm, 327, rfl⟩
abbrev main_v224 : Ref sig .tc := ⟨.hbm, 328, rfl⟩
abbrev main_v225 : Ref sig .tc := ⟨.hbm, 329, rfl⟩
abbrev main_v226 : Ref sig .tc := ⟨.hbm, 330, rfl⟩
abbrev main_v227 : Ref sig .tc := ⟨.hbm, 331, rfl⟩
abbrev main_v228 : Ref sig .tc := ⟨.hbm, 332, rfl⟩
abbrev main_v229 : Ref sig .tc := ⟨.hbm, 333, rfl⟩
abbrev main_v230 : Ref sig .tc := ⟨.hbm, 334, rfl⟩
abbrev main_v231 : Ref sig .tc := ⟨.hbm, 335, rfl⟩
abbrev main_v232 : Ref sig .tc := ⟨.hbm, 336, rfl⟩
abbrev main_v233 : Ref sig .tc := ⟨.hbm, 337, rfl⟩
abbrev main_v234 : Ref sig .tc := ⟨.hbm, 338, rfl⟩
abbrev main_v235 : Ref sig .tc := ⟨.hbm, 339, rfl⟩
abbrev main_v236 : Ref sig .tc := ⟨.hbm, 340, rfl⟩
abbrev main_v237 : Ref sig .tc := ⟨.hbm, 341, rfl⟩
abbrev main_v238 : Ref sig .tc := ⟨.hbm, 342, rfl⟩
abbrev main_v239 : Ref sig .tc := ⟨.hbm, 343, rfl⟩
abbrev main_v240 : Ref sig .tc := ⟨.hbm, 344, rfl⟩
abbrev main_v241 : Ref sig .tc := ⟨.hbm, 345, rfl⟩
abbrev main_v242 : Ref sig .tc := ⟨.hbm, 346, rfl⟩
abbrev main_v243 : Ref sig .tc := ⟨.hbm, 347, rfl⟩
abbrev main_v244 : Ref sig .tc := ⟨.hbm, 348, rfl⟩
abbrev main_v245 : Ref sig .tc := ⟨.hbm, 349, rfl⟩
abbrev main_v246 : Ref sig .tc := ⟨.hbm, 350, rfl⟩
abbrev main_v247 : Ref sig .tc := ⟨.hbm, 351, rfl⟩
abbrev main_v248 : Ref sig .tc := ⟨.hbm, 352, rfl⟩
abbrev main_v249 : Ref sig .tc := ⟨.hbm, 353, rfl⟩
abbrev main_v250 : Ref sig .tc := ⟨.hbm, 354, rfl⟩
abbrev main_v251 : Ref sig .tc := ⟨.hbm, 355, rfl⟩
abbrev main_v252 : Ref sig .tc := ⟨.hbm, 356, rfl⟩
abbrev main_v253 : Ref sig .tc := ⟨.hbm, 357, rfl⟩
abbrev main_v254 : Ref sig .tc := ⟨.hbm, 358, rfl⟩
abbrev main_v255 : Ref sig .tc := ⟨.hbm, 359, rfl⟩
abbrev main_v256 : Ref sig .tc := ⟨.hbm, 360, rfl⟩
abbrev main_v257 : Ref sig .tc := ⟨.hbm, 361, rfl⟩
abbrev main_v258 : Ref sig .tc := ⟨.hbm, 362, rfl⟩
abbrev main_v259 : Ref sig .tc := ⟨.hbm, 363, rfl⟩
abbrev main_v260 : Ref sig .tc := ⟨.hbm, 364, rfl⟩
abbrev main_v261 : Ref sig .tc := ⟨.hbm, 365, rfl⟩
abbrev main_v262 : Ref sig .tc := ⟨.hbm, 366, rfl⟩
abbrev main_cst_22 : Ref sig .tc := ⟨.hbm, 367, rfl⟩
abbrev main_v263 : Ref sig .tc := ⟨.hbm, 368, rfl⟩
abbrev main_v264 : Ref sig .tc := ⟨.hbm, 369, rfl⟩
abbrev main_cst_23 : Ref sig .tc := ⟨.hbm, 370, rfl⟩
abbrev main_v265 : Ref sig .tc := ⟨.hbm, 371, rfl⟩
abbrev main_v266 : Ref sig .tc := ⟨.hbm, 372, rfl⟩
abbrev main_v267 : Ref sig .tc := ⟨.hbm, 373, rfl⟩
abbrev main_cst_24 : Ref sig .tc := ⟨.hbm, 374, rfl⟩
abbrev main_v268 : Ref sig .tc := ⟨.hbm, 375, rfl⟩
abbrev main_v269 : Ref sig .tc := ⟨.hbm, 376, rfl⟩
abbrev main_v270 : Ref sig .tc := ⟨.hbm, 377, rfl⟩
abbrev main_v271 : Ref sig .tc := ⟨.hbm, 378, rfl⟩
abbrev main_cst_25 : Ref sig .tc := ⟨.hbm, 379, rfl⟩
abbrev main_v272 : Ref sig .tc := ⟨.hbm, 380, rfl⟩
abbrev main_v273 : Ref sig .tc := ⟨.hbm, 381, rfl⟩
abbrev main_cst_26 : Ref sig .tc := ⟨.hbm, 382, rfl⟩
abbrev main_v274 : Ref sig .tc := ⟨.hbm, 383, rfl⟩
abbrev main_v275 : Ref sig .tc := ⟨.hbm, 384, rfl⟩
abbrev main_c_27 : Ref sig .tc := ⟨.hbm, 385, rfl⟩
abbrev main_call3_cst : Ref sig .tc := ⟨.hbm, 386, rfl⟩
abbrev main_call3_v0 : Ref sig .tc := ⟨.hbm, 387, rfl⟩
abbrev main_call3_v1 : Ref sig .tc := ⟨.hbm, 388, rfl⟩
abbrev main_call3_cst_0 : Ref sig .tc := ⟨.hbm, 389, rfl⟩
abbrev main_call3_v2 : Ref sig .tc := ⟨.hbm, 390, rfl⟩
abbrev main_call3_v3 : Ref sig .tc := ⟨.hbm, 391, rfl⟩
abbrev main_call3_v4 : Ref sig .tc := ⟨.hbm, 392, rfl⟩
abbrev main_call3_v5 : Ref sig .tc := ⟨.hbm, 393, rfl⟩
abbrev main_call3_v6 : Ref sig .tc := ⟨.hbm, 394, rfl⟩
abbrev main_call3_v7 : Ref sig .tc := ⟨.hbm, 395, rfl⟩
abbrev main_call3_cst_1 : Ref sig .tc := ⟨.hbm, 396, rfl⟩
abbrev main_call3_v8 : Ref sig .tc := ⟨.hbm, 397, rfl⟩
abbrev main_call3_cst_2 : Ref sig .tc := ⟨.hbm, 398, rfl⟩
abbrev main_call3_v9 : Ref sig .tc := ⟨.hbm, 399, rfl⟩
abbrev main_call3_v10 : Ref sig .tc := ⟨.hbm, 400, rfl⟩
abbrev main_call3_v11 : Ref sig .tc := ⟨.hbm, 401, rfl⟩
abbrev main_call3_v12 : Ref sig .tc := ⟨.hbm, 402, rfl⟩
abbrev main_call3_cst_3 : Ref sig .tc := ⟨.hbm, 403, rfl⟩
abbrev main_call3_v13 : Ref sig .tc := ⟨.hbm, 404, rfl⟩
abbrev main_call3_cst_4 : Ref sig .tc := ⟨.hbm, 405, rfl⟩
abbrev main_call3_call0_v0 : Ref sig .tc := ⟨.hbm, 406, rfl⟩
abbrev main_call3_call0_v1 : Ref sig .tc := ⟨.hbm, 407, rfl⟩
abbrev main_v276 : Ref sig .tc := ⟨.hbm, 408, rfl⟩
abbrev main_v277 : Ref sig .tc := ⟨.hbm, 409, rfl⟩
abbrev main_v278 : Ref sig .tc := ⟨.hbm, 410, rfl⟩
abbrev main_cst_28 : Ref sig .tc := ⟨.hbm, 411, rfl⟩
abbrev main_v279 : Ref sig .tc := ⟨.hbm, 412, rfl⟩
abbrev main_v280 : Ref sig .tc := ⟨.hbm, 413, rfl⟩
abbrev main_v281 : Ref sig .tc := ⟨.hbm, 414, rfl⟩
abbrev main_v282 : Ref sig .tc := ⟨.hbm, 415, rfl⟩
abbrev main_v283 : Ref sig .tc := ⟨.hbm, 416, rfl⟩
abbrev main_v284 : Ref sig .tc := ⟨.hbm, 417, rfl⟩
abbrev main_v285 : Ref sig .tc := ⟨.hbm, 418, rfl⟩
abbrev main_v286 : Ref sig .tc := ⟨.hbm, 419, rfl⟩
abbrev main_v287 : Ref sig .tc := ⟨.hbm, 420, rfl⟩
abbrev main_v288 : Ref sig .tc := ⟨.hbm, 421, rfl⟩
abbrev main_v289 : Ref sig .tc := ⟨.hbm, 422, rfl⟩
abbrev main_c_29 : Ref sig .tc := ⟨.hbm, 423, rfl⟩
abbrev main_v290 : Ref sig .tc := ⟨.hbm, 424, rfl⟩
abbrev main_v291 : Ref sig .tc := ⟨.hbm, 425, rfl⟩
abbrev main_v292 : Ref sig .tc := ⟨.hbm, 426, rfl⟩
abbrev main_v293 : Ref sig .tc := ⟨.hbm, 427, rfl⟩
abbrev main_v294 : Ref sig .tc := ⟨.hbm, 428, rfl⟩
abbrev main_v295 : Ref sig .tc := ⟨.hbm, 429, rfl⟩
abbrev main_v296 : Ref sig .tc := ⟨.hbm, 430, rfl⟩
abbrev main_v297 : Ref sig .tc := ⟨.hbm, 431, rfl⟩
abbrev main_v298 : Ref sig .tc := ⟨.hbm, 432, rfl⟩
abbrev main_v299 : Ref sig .tc := ⟨.hbm, 433, rfl⟩
abbrev main_v300 : Ref sig .tc := ⟨.hbm, 434, rfl⟩
abbrev main_v301 : Ref sig .tc := ⟨.hbm, 435, rfl⟩
abbrev main_v302 : Ref sig .tc := ⟨.hbm, 436, rfl⟩
abbrev main_v303 : Ref sig .tc := ⟨.hbm, 437, rfl⟩
abbrev main_v304 : Ref sig .tc := ⟨.hbm, 438, rfl⟩
abbrev main_v305 : Ref sig .tc := ⟨.hbm, 439, rfl⟩
abbrev main_v306 : Ref sig .tc := ⟨.hbm, 440, rfl⟩
abbrev main_v307 : Ref sig .tc := ⟨.hbm, 441, rfl⟩
abbrev main_v308 : Ref sig .tc := ⟨.hbm, 442, rfl⟩
abbrev main_v309 : Ref sig .tc := ⟨.hbm, 443, rfl⟩
abbrev main_v310 : Ref sig .tc := ⟨.hbm, 444, rfl⟩
abbrev main_v311 : Ref sig .tc := ⟨.hbm, 445, rfl⟩
abbrev main_v312 : Ref sig .tc := ⟨.hbm, 446, rfl⟩
abbrev main_v313 : Ref sig .tc := ⟨.hbm, 447, rfl⟩
abbrev main_v314 : Ref sig .tc := ⟨.hbm, 448, rfl⟩
abbrev main_v315 : Ref sig .tc := ⟨.hbm, 449, rfl⟩
abbrev main_v316 : Ref sig .tc := ⟨.hbm, 450, rfl⟩
abbrev main_v317 : Ref sig .tc := ⟨.hbm, 451, rfl⟩
abbrev main_v318 : Ref sig .tc := ⟨.hbm, 452, rfl⟩
abbrev main_v319 : Ref sig .tc := ⟨.hbm, 453, rfl⟩
abbrev main_v320 : Ref sig .tc := ⟨.hbm, 454, rfl⟩
abbrev main_v321 : Ref sig .tc := ⟨.hbm, 455, rfl⟩
abbrev main_v322 : Ref sig .tc := ⟨.hbm, 456, rfl⟩
abbrev main_v323 : Ref sig .tc := ⟨.hbm, 457, rfl⟩
abbrev main_v324 : Ref sig .tc := ⟨.hbm, 458, rfl⟩
abbrev main_v325 : Ref sig .tc := ⟨.hbm, 459, rfl⟩
abbrev main_v326 : Ref sig .tc := ⟨.hbm, 460, rfl⟩
abbrev main_v327 : Ref sig .tc := ⟨.hbm, 461, rfl⟩
abbrev main_v328 : Ref sig .tc := ⟨.hbm, 462, rfl⟩
abbrev main_v329 : Ref sig .tc := ⟨.hbm, 463, rfl⟩
abbrev main_v330 : Ref sig .tc := ⟨.hbm, 464, rfl⟩
abbrev main_v331 : Ref sig .tc := ⟨.hbm, 465, rfl⟩
abbrev main_v332 : Ref sig .tc := ⟨.hbm, 466, rfl⟩
abbrev main_v333 : Ref sig .tc := ⟨.hbm, 467, rfl⟩
abbrev main_v334 : Ref sig .tc := ⟨.hbm, 468, rfl⟩
abbrev main_v335 : Ref sig .tc := ⟨.hbm, 469, rfl⟩
abbrev main_cst_30 : Ref sig .tc := ⟨.hbm, 470, rfl⟩
abbrev main_v336 : Ref sig .tc := ⟨.hbm, 471, rfl⟩
abbrev main_v337 : Ref sig .tc := ⟨.hbm, 472, rfl⟩
abbrev main_cst_31 : Ref sig .tc := ⟨.hbm, 473, rfl⟩
abbrev main_v338 : Ref sig .tc := ⟨.hbm, 474, rfl⟩
abbrev main_v339 : Ref sig .tc := ⟨.hbm, 475, rfl⟩
abbrev main_v340 : Ref sig .tc := ⟨.hbm, 476, rfl⟩
abbrev main_cst_32 : Ref sig .tc := ⟨.hbm, 477, rfl⟩
abbrev main_v341 : Ref sig .tc := ⟨.hbm, 478, rfl⟩
abbrev main_v342 : Ref sig .tc := ⟨.hbm, 479, rfl⟩
abbrev main_v343 : Ref sig .tc := ⟨.hbm, 480, rfl⟩
abbrev main_v344 : Ref sig .tc := ⟨.hbm, 481, rfl⟩
abbrev main_cst_33 : Ref sig .tc := ⟨.hbm, 482, rfl⟩
abbrev main_v345 : Ref sig .tc := ⟨.hbm, 483, rfl⟩
abbrev main_v346 : Ref sig .tc := ⟨.hbm, 484, rfl⟩
abbrev main_cst_34 : Ref sig .tc := ⟨.hbm, 485, rfl⟩
abbrev main_v347 : Ref sig .tc := ⟨.hbm, 486, rfl⟩
abbrev main_v348 : Ref sig .tc := ⟨.hbm, 487, rfl⟩
abbrev main_c_35 : Ref sig .tc := ⟨.hbm, 488, rfl⟩
abbrev main_call4_cst : Ref sig .tc := ⟨.hbm, 489, rfl⟩
abbrev main_call4_v0 : Ref sig .tc := ⟨.hbm, 490, rfl⟩
abbrev main_call4_v1 : Ref sig .tc := ⟨.hbm, 491, rfl⟩
abbrev main_call4_cst_0 : Ref sig .tc := ⟨.hbm, 492, rfl⟩
abbrev main_call4_v2 : Ref sig .tc := ⟨.hbm, 493, rfl⟩
abbrev main_call4_v3 : Ref sig .tc := ⟨.hbm, 494, rfl⟩
abbrev main_call4_v4 : Ref sig .tc := ⟨.hbm, 495, rfl⟩
abbrev main_call4_v5 : Ref sig .tc := ⟨.hbm, 496, rfl⟩
abbrev main_call4_v6 : Ref sig .tc := ⟨.hbm, 497, rfl⟩
abbrev main_call4_v7 : Ref sig .tc := ⟨.hbm, 498, rfl⟩
abbrev main_call4_cst_1 : Ref sig .tc := ⟨.hbm, 499, rfl⟩
abbrev main_call4_v8 : Ref sig .tc := ⟨.hbm, 500, rfl⟩
abbrev main_call4_cst_2 : Ref sig .tc := ⟨.hbm, 501, rfl⟩
abbrev main_call4_v9 : Ref sig .tc := ⟨.hbm, 502, rfl⟩
abbrev main_call4_v10 : Ref sig .tc := ⟨.hbm, 503, rfl⟩
abbrev main_call4_v11 : Ref sig .tc := ⟨.hbm, 504, rfl⟩
abbrev main_call4_v12 : Ref sig .tc := ⟨.hbm, 505, rfl⟩
abbrev main_call4_cst_3 : Ref sig .tc := ⟨.hbm, 506, rfl⟩
abbrev main_call4_v13 : Ref sig .tc := ⟨.hbm, 507, rfl⟩
abbrev main_call4_cst_4 : Ref sig .tc := ⟨.hbm, 508, rfl⟩
abbrev main_call4_call0_v0 : Ref sig .tc := ⟨.hbm, 509, rfl⟩
abbrev main_call4_call0_v1 : Ref sig .tc := ⟨.hbm, 510, rfl⟩
abbrev main_v349 : Ref sig .tc := ⟨.hbm, 511, rfl⟩
abbrev main_v350 : Ref sig .tc := ⟨.hbm, 512, rfl⟩
abbrev main_v351 : Ref sig .tc := ⟨.hbm, 513, rfl⟩
abbrev main_cst_36 : Ref sig .tc := ⟨.hbm, 514, rfl⟩
abbrev main_v352 : Ref sig .tc := ⟨.hbm, 515, rfl⟩
abbrev main_v353 : Ref sig .tc := ⟨.hbm, 516, rfl⟩
abbrev main_v354 : Ref sig .tc := ⟨.hbm, 517, rfl⟩
abbrev main_v355 : Ref sig .tc := ⟨.hbm, 518, rfl⟩
abbrev main_v356 : Ref sig .tc := ⟨.hbm, 519, rfl⟩
abbrev main_v357 : Ref sig .tc := ⟨.hbm, 520, rfl⟩
abbrev main_v358 : Ref sig .tc := ⟨.hbm, 521, rfl⟩
abbrev main_v359 : Ref sig .tc := ⟨.hbm, 522, rfl⟩
abbrev main_v360 : Ref sig .tc := ⟨.hbm, 523, rfl⟩
abbrev main_v361 : Ref sig .tc := ⟨.hbm, 524, rfl⟩
abbrev main_v362 : Ref sig .tc := ⟨.hbm, 525, rfl⟩
abbrev main_c_37 : Ref sig .tc := ⟨.hbm, 526, rfl⟩
abbrev main_v363 : Ref sig .tc := ⟨.hbm, 527, rfl⟩
abbrev main_v364 : Ref sig .tc := ⟨.hbm, 528, rfl⟩
abbrev main_v365 : Ref sig .tc := ⟨.hbm, 529, rfl⟩
abbrev main_v366 : Ref sig .tc := ⟨.hbm, 530, rfl⟩
abbrev main_v367 : Ref sig .tc := ⟨.hbm, 531, rfl⟩
abbrev main_v368 : Ref sig .tc := ⟨.hbm, 532, rfl⟩
abbrev main_v369 : Ref sig .tc := ⟨.hbm, 533, rfl⟩
abbrev main_v370 : Ref sig .tc := ⟨.hbm, 534, rfl⟩
abbrev main_v371 : Ref sig .tc := ⟨.hbm, 535, rfl⟩
abbrev main_v372 : Ref sig .tc := ⟨.hbm, 536, rfl⟩
abbrev main_v373 : Ref sig .tc := ⟨.hbm, 537, rfl⟩
abbrev main_v374 : Ref sig .tc := ⟨.hbm, 538, rfl⟩
abbrev main_v375 : Ref sig .tc := ⟨.hbm, 539, rfl⟩
abbrev main_v376 : Ref sig .tc := ⟨.hbm, 540, rfl⟩
abbrev main_v377 : Ref sig .tc := ⟨.hbm, 541, rfl⟩
abbrev main_v378 : Ref sig .tc := ⟨.hbm, 542, rfl⟩
abbrev main_v379 : Ref sig .tc := ⟨.hbm, 543, rfl⟩
abbrev main_v380 : Ref sig .tc := ⟨.hbm, 544, rfl⟩
abbrev main_v381 : Ref sig .tc := ⟨.hbm, 545, rfl⟩
abbrev main_v382 : Ref sig .tc := ⟨.hbm, 546, rfl⟩
abbrev main_v383 : Ref sig .tc := ⟨.hbm, 547, rfl⟩
abbrev main_v384 : Ref sig .tc := ⟨.hbm, 548, rfl⟩
abbrev main_v385 : Ref sig .tc := ⟨.hbm, 549, rfl⟩
abbrev main_v386 : Ref sig .tc := ⟨.hbm, 550, rfl⟩
abbrev main_v387 : Ref sig .tc := ⟨.hbm, 551, rfl⟩
abbrev main_v388 : Ref sig .tc := ⟨.hbm, 552, rfl⟩
abbrev main_v389 : Ref sig .tc := ⟨.hbm, 553, rfl⟩
abbrev main_v390 : Ref sig .tc := ⟨.hbm, 554, rfl⟩
abbrev main_v391 : Ref sig .tc := ⟨.hbm, 555, rfl⟩
abbrev main_v392 : Ref sig .tc := ⟨.hbm, 556, rfl⟩
abbrev main_v393 : Ref sig .tc := ⟨.hbm, 557, rfl⟩
abbrev main_v394 : Ref sig .tc := ⟨.hbm, 558, rfl⟩
abbrev main_v395 : Ref sig .tc := ⟨.hbm, 559, rfl⟩
abbrev main_v396 : Ref sig .tc := ⟨.hbm, 560, rfl⟩
abbrev main_v397 : Ref sig .tc := ⟨.hbm, 561, rfl⟩
abbrev main_v398 : Ref sig .tc := ⟨.hbm, 562, rfl⟩
abbrev main_v399 : Ref sig .tc := ⟨.hbm, 563, rfl⟩
abbrev main_v400 : Ref sig .tc := ⟨.hbm, 564, rfl⟩
abbrev main_v401 : Ref sig .tc := ⟨.hbm, 565, rfl⟩
abbrev main_v402 : Ref sig .tc := ⟨.hbm, 566, rfl⟩
abbrev main_v403 : Ref sig .tc := ⟨.hbm, 567, rfl⟩
abbrev main_v404 : Ref sig .tc := ⟨.hbm, 568, rfl⟩
abbrev main_v405 : Ref sig .tc := ⟨.hbm, 569, rfl⟩
abbrev main_v406 : Ref sig .tc := ⟨.hbm, 570, rfl⟩
abbrev main_v407 : Ref sig .tc := ⟨.hbm, 571, rfl⟩
abbrev main_v408 : Ref sig .tc := ⟨.hbm, 572, rfl⟩
abbrev main_cst_38 : Ref sig .tc := ⟨.hbm, 573, rfl⟩
abbrev main_v409 : Ref sig .tc := ⟨.hbm, 574, rfl⟩
abbrev main_v410 : Ref sig .tc := ⟨.hbm, 575, rfl⟩
abbrev main_cst_39 : Ref sig .tc := ⟨.hbm, 576, rfl⟩
abbrev main_v411 : Ref sig .tc := ⟨.hbm, 577, rfl⟩
abbrev main_v412 : Ref sig .tc := ⟨.hbm, 578, rfl⟩
abbrev main_v413 : Ref sig .tc := ⟨.hbm, 579, rfl⟩
abbrev main_cst_40 : Ref sig .tc := ⟨.hbm, 580, rfl⟩
abbrev main_v414 : Ref sig .tc := ⟨.hbm, 581, rfl⟩
abbrev main_v415 : Ref sig .tc := ⟨.hbm, 582, rfl⟩
abbrev main_v416 : Ref sig .tc := ⟨.hbm, 583, rfl⟩
abbrev main_v417 : Ref sig .tc := ⟨.hbm, 584, rfl⟩
abbrev main_cst_41 : Ref sig .tc := ⟨.hbm, 585, rfl⟩
abbrev main_v418 : Ref sig .tc := ⟨.hbm, 586, rfl⟩
abbrev main_v419 : Ref sig .tc := ⟨.hbm, 587, rfl⟩
abbrev main_cst_42 : Ref sig .tc := ⟨.hbm, 588, rfl⟩
abbrev main_v420 : Ref sig .tc := ⟨.hbm, 589, rfl⟩
abbrev main_v421 : Ref sig .tc := ⟨.hbm, 590, rfl⟩
abbrev main_c_43 : Ref sig .tc := ⟨.hbm, 591, rfl⟩
abbrev main_call5_cst : Ref sig .tc := ⟨.hbm, 592, rfl⟩
abbrev main_call5_v0 : Ref sig .tc := ⟨.hbm, 593, rfl⟩
abbrev main_call5_v1 : Ref sig .tc := ⟨.hbm, 594, rfl⟩
abbrev main_call5_cst_0 : Ref sig .tc := ⟨.hbm, 595, rfl⟩
abbrev main_call5_v2 : Ref sig .tc := ⟨.hbm, 596, rfl⟩
abbrev main_call5_v3 : Ref sig .tc := ⟨.hbm, 597, rfl⟩
abbrev main_call5_v4 : Ref sig .tc := ⟨.hbm, 598, rfl⟩
abbrev main_call5_v5 : Ref sig .tc := ⟨.hbm, 599, rfl⟩
abbrev main_call5_v6 : Ref sig .tc := ⟨.hbm, 600, rfl⟩
abbrev main_call5_v7 : Ref sig .tc := ⟨.hbm, 601, rfl⟩
abbrev main_call5_cst_1 : Ref sig .tc := ⟨.hbm, 602, rfl⟩
abbrev main_call5_v8 : Ref sig .tc := ⟨.hbm, 603, rfl⟩
abbrev main_call5_cst_2 : Ref sig .tc := ⟨.hbm, 604, rfl⟩
abbrev main_call5_v9 : Ref sig .tc := ⟨.hbm, 605, rfl⟩
abbrev main_call5_v10 : Ref sig .tc := ⟨.hbm, 606, rfl⟩
abbrev main_call5_v11 : Ref sig .tc := ⟨.hbm, 607, rfl⟩
abbrev main_call5_v12 : Ref sig .tc := ⟨.hbm, 608, rfl⟩
abbrev main_call5_cst_3 : Ref sig .tc := ⟨.hbm, 609, rfl⟩
abbrev main_call5_v13 : Ref sig .tc := ⟨.hbm, 610, rfl⟩
abbrev main_call5_cst_4 : Ref sig .tc := ⟨.hbm, 611, rfl⟩
abbrev main_call5_call0_v0 : Ref sig .tc := ⟨.hbm, 612, rfl⟩
abbrev main_call5_call0_v1 : Ref sig .tc := ⟨.hbm, 613, rfl⟩
abbrev main_v422 : Ref sig .tc := ⟨.hbm, 614, rfl⟩
abbrev main_v423 : Ref sig .tc := ⟨.hbm, 615, rfl⟩
abbrev main_v424 : Ref sig .tc := ⟨.hbm, 616, rfl⟩
abbrev main_cst_44 : Ref sig .tc := ⟨.hbm, 617, rfl⟩
abbrev main_v425 : Ref sig .tc := ⟨.hbm, 618, rfl⟩
abbrev main_v426 : Ref sig .tc := ⟨.hbm, 619, rfl⟩
abbrev main_v427 : Ref sig .tc := ⟨.hbm, 620, rfl⟩
abbrev main_v428 : Ref sig .tc := ⟨.hbm, 621, rfl⟩
abbrev main_v429 : Ref sig .tc := ⟨.hbm, 622, rfl⟩
abbrev main_v430 : Ref sig .tc := ⟨.hbm, 623, rfl⟩
abbrev main_v431 : Ref sig .tc := ⟨.hbm, 624, rfl⟩
abbrev main_v432 : Ref sig .tc := ⟨.hbm, 625, rfl⟩
abbrev main_v433 : Ref sig .tc := ⟨.hbm, 626, rfl⟩
abbrev main_v434 : Ref sig .tc := ⟨.hbm, 627, rfl⟩
abbrev main_v435 : Ref sig .tc := ⟨.hbm, 628, rfl⟩
abbrev main_c_45 : Ref sig .tc := ⟨.hbm, 629, rfl⟩
abbrev main_v436 : Ref sig .tc := ⟨.hbm, 630, rfl⟩
abbrev main_v437 : Ref sig .tc := ⟨.hbm, 631, rfl⟩
abbrev main_v438 : Ref sig .tc := ⟨.hbm, 632, rfl⟩
abbrev main_v439 : Ref sig .tc := ⟨.hbm, 633, rfl⟩
abbrev main_v440 : Ref sig .tc := ⟨.hbm, 634, rfl⟩
abbrev main_v441 : Ref sig .tc := ⟨.hbm, 635, rfl⟩
abbrev main_v442 : Ref sig .tc := ⟨.hbm, 636, rfl⟩
abbrev main_v443 : Ref sig .tc := ⟨.hbm, 637, rfl⟩
abbrev main_v444 : Ref sig .tc := ⟨.hbm, 638, rfl⟩
abbrev main_v445 : Ref sig .tc := ⟨.hbm, 639, rfl⟩
abbrev main_v446 : Ref sig .tc := ⟨.hbm, 640, rfl⟩
abbrev main_v447 : Ref sig .tc := ⟨.hbm, 641, rfl⟩
abbrev main_v448 : Ref sig .tc := ⟨.hbm, 642, rfl⟩
abbrev main_v449 : Ref sig .tc := ⟨.hbm, 643, rfl⟩
abbrev main_v450 : Ref sig .tc := ⟨.hbm, 644, rfl⟩
abbrev main_v451 : Ref sig .tc := ⟨.hbm, 645, rfl⟩
abbrev main_v452 : Ref sig .tc := ⟨.hbm, 646, rfl⟩
abbrev main_v453 : Ref sig .tc := ⟨.hbm, 647, rfl⟩
abbrev main_v454 : Ref sig .tc := ⟨.hbm, 648, rfl⟩
abbrev main_v455 : Ref sig .tc := ⟨.hbm, 649, rfl⟩
abbrev main_v456 : Ref sig .tc := ⟨.hbm, 650, rfl⟩
abbrev main_v457 : Ref sig .tc := ⟨.hbm, 651, rfl⟩
abbrev main_v458 : Ref sig .tc := ⟨.hbm, 652, rfl⟩
abbrev main_v459 : Ref sig .tc := ⟨.hbm, 653, rfl⟩
abbrev main_v460 : Ref sig .tc := ⟨.hbm, 654, rfl⟩
abbrev main_v461 : Ref sig .tc := ⟨.hbm, 655, rfl⟩
abbrev main_v462 : Ref sig .tc := ⟨.hbm, 656, rfl⟩
abbrev main_v463 : Ref sig .tc := ⟨.hbm, 657, rfl⟩
abbrev main_v464 : Ref sig .tc := ⟨.hbm, 658, rfl⟩
abbrev main_v465 : Ref sig .tc := ⟨.hbm, 659, rfl⟩
abbrev main_v466 : Ref sig .tc := ⟨.hbm, 660, rfl⟩
abbrev main_v467 : Ref sig .tc := ⟨.hbm, 661, rfl⟩
abbrev main_v468 : Ref sig .tc := ⟨.hbm, 662, rfl⟩
abbrev main_v469 : Ref sig .tc := ⟨.hbm, 663, rfl⟩
abbrev main_v470 : Ref sig .tc := ⟨.hbm, 664, rfl⟩
abbrev main_v471 : Ref sig .tc := ⟨.hbm, 665, rfl⟩
abbrev main_v472 : Ref sig .tc := ⟨.hbm, 666, rfl⟩
abbrev main_v473 : Ref sig .tc := ⟨.hbm, 667, rfl⟩
abbrev main_v474 : Ref sig .tc := ⟨.hbm, 668, rfl⟩
abbrev main_v475 : Ref sig .tc := ⟨.hbm, 669, rfl⟩
abbrev main_v476 : Ref sig .tc := ⟨.hbm, 670, rfl⟩
abbrev main_v477 : Ref sig .tc := ⟨.hbm, 671, rfl⟩
abbrev main_v478 : Ref sig .tc := ⟨.hbm, 672, rfl⟩
abbrev main_v479 : Ref sig .tc := ⟨.hbm, 673, rfl⟩
abbrev main_v480 : Ref sig .tc := ⟨.hbm, 674, rfl⟩
abbrev main_v481 : Ref sig .tc := ⟨.hbm, 675, rfl⟩
abbrev main_cst_46 : Ref sig .tc := ⟨.hbm, 676, rfl⟩
abbrev main_v482 : Ref sig .tc := ⟨.hbm, 677, rfl⟩
abbrev main_v483 : Ref sig .tc := ⟨.hbm, 678, rfl⟩
abbrev main_cst_47 : Ref sig .tc := ⟨.hbm, 679, rfl⟩
abbrev main_v484 : Ref sig .tc := ⟨.hbm, 680, rfl⟩
abbrev main_v485 : Ref sig .tc := ⟨.hbm, 681, rfl⟩
abbrev main_v486 : Ref sig .tc := ⟨.hbm, 682, rfl⟩
abbrev main_cst_48 : Ref sig .tc := ⟨.hbm, 683, rfl⟩
abbrev main_v487 : Ref sig .tc := ⟨.hbm, 684, rfl⟩
abbrev main_v488 : Ref sig .tc := ⟨.hbm, 685, rfl⟩
abbrev main_v489 : Ref sig .tc := ⟨.hbm, 686, rfl⟩
abbrev main_v490 : Ref sig .tc := ⟨.hbm, 687, rfl⟩
abbrev main_cst_49 : Ref sig .tc := ⟨.hbm, 688, rfl⟩
abbrev main_v491 : Ref sig .tc := ⟨.hbm, 689, rfl⟩
abbrev main_v492 : Ref sig .tc := ⟨.hbm, 690, rfl⟩
abbrev main_cst_50 : Ref sig .tc := ⟨.hbm, 691, rfl⟩
abbrev main_v493 : Ref sig .tc := ⟨.hbm, 692, rfl⟩
abbrev main_v494 : Ref sig .tc := ⟨.hbm, 693, rfl⟩
abbrev main_c_51 : Ref sig .tc := ⟨.hbm, 694, rfl⟩
abbrev main_call6_cst : Ref sig .tc := ⟨.hbm, 695, rfl⟩
abbrev main_call6_v0 : Ref sig .tc := ⟨.hbm, 696, rfl⟩
abbrev main_call6_v1 : Ref sig .tc := ⟨.hbm, 697, rfl⟩
abbrev main_call6_cst_0 : Ref sig .tc := ⟨.hbm, 698, rfl⟩
abbrev main_call6_v2 : Ref sig .tc := ⟨.hbm, 699, rfl⟩
abbrev main_call6_v3 : Ref sig .tc := ⟨.hbm, 700, rfl⟩
abbrev main_call6_v4 : Ref sig .tc := ⟨.hbm, 701, rfl⟩
abbrev main_call6_v5 : Ref sig .tc := ⟨.hbm, 702, rfl⟩
abbrev main_call6_v6 : Ref sig .tc := ⟨.hbm, 703, rfl⟩
abbrev main_call6_v7 : Ref sig .tc := ⟨.hbm, 704, rfl⟩
abbrev main_call6_cst_1 : Ref sig .tc := ⟨.hbm, 705, rfl⟩
abbrev main_call6_v8 : Ref sig .tc := ⟨.hbm, 706, rfl⟩
abbrev main_call6_cst_2 : Ref sig .tc := ⟨.hbm, 707, rfl⟩
abbrev main_call6_v9 : Ref sig .tc := ⟨.hbm, 708, rfl⟩
abbrev main_call6_v10 : Ref sig .tc := ⟨.hbm, 709, rfl⟩
abbrev main_call6_v11 : Ref sig .tc := ⟨.hbm, 710, rfl⟩
abbrev main_call6_v12 : Ref sig .tc := ⟨.hbm, 711, rfl⟩
abbrev main_call6_cst_3 : Ref sig .tc := ⟨.hbm, 712, rfl⟩
abbrev main_call6_v13 : Ref sig .tc := ⟨.hbm, 713, rfl⟩
abbrev main_call6_cst_4 : Ref sig .tc := ⟨.hbm, 714, rfl⟩
abbrev main_call6_call0_v0 : Ref sig .tc := ⟨.hbm, 715, rfl⟩
abbrev main_call6_call0_v1 : Ref sig .tc := ⟨.hbm, 716, rfl⟩
abbrev main_v495 : Ref sig .tc := ⟨.hbm, 717, rfl⟩
abbrev main_v496 : Ref sig .tc := ⟨.hbm, 718, rfl⟩
abbrev main_v497 : Ref sig .tc := ⟨.hbm, 719, rfl⟩
abbrev main_cst_52 : Ref sig .tc := ⟨.hbm, 720, rfl⟩
abbrev main_v498 : Ref sig .tc := ⟨.hbm, 721, rfl⟩
abbrev main_v499 : Ref sig .tc := ⟨.hbm, 722, rfl⟩
abbrev main_v500 : Ref sig .tc := ⟨.hbm, 723, rfl⟩
abbrev main_v501 : Ref sig .tc := ⟨.hbm, 724, rfl⟩
abbrev main_v502 : Ref sig .tc := ⟨.hbm, 725, rfl⟩
abbrev main_v503 : Ref sig .tc := ⟨.hbm, 726, rfl⟩
abbrev main_v504 : Ref sig .tc := ⟨.hbm, 727, rfl⟩
abbrev main_v505 : Ref sig .tc := ⟨.hbm, 728, rfl⟩
abbrev main_v506 : Ref sig .tc := ⟨.hbm, 729, rfl⟩
abbrev main_v507 : Ref sig .tc := ⟨.hbm, 730, rfl⟩
abbrev main_v508 : Ref sig .tc := ⟨.hbm, 731, rfl⟩
abbrev main_c_53 : Ref sig .tc := ⟨.hbm, 732, rfl⟩
abbrev main_v509 : Ref sig .tc := ⟨.hbm, 733, rfl⟩
abbrev main_v510 : Ref sig .tc := ⟨.hbm, 734, rfl⟩

abbrev nD : Nat := 1
abbrev τ : Topo := Topo.v7x

variable {F : FTy → Type} [FloatOps F]

class Facts₀ : Prop where
  slices_S8x8192x2048_S8x1x2048_0_12_0 : S8x8192x2048.Slices ![0, 12, 0] S8x1x2048
  shapeCasts_S8x1x2048_S8x2048 : S8x1x2048.ShapeCasts S8x2048
  slices_S8x8192x2048_S8x1x2048_0_4_0 : S8x8192x2048.Slices ![0, 4, 0] S8x1x2048
  slices_S8x8192x2048_S8x1x2048_0_2_0 : S8x8192x2048.Slices ![0, 2, 0] S8x1x2048
  bcast_S2048_S1x2048_1 : S2048.BroadcastsInDim S1x2048 (![1] : Fin 1 → Fin S1x2048.rank)
  bcast_S1x2048_S8x2048_0_1 : S1x2048.BroadcastsInDim S8x2048 (![0, 1] : Fin 2 → Fin S8x2048.rank)
  concatenates_S8x2048_S8x2048_S8x4096_d1 : Shape.Concatenates [S8x2048, S8x2048] S8x4096 1
  transposes_S2048x4096_S4096x2048_1_0 : S2048x4096.Transposes [1, 0] S4096x2048
  bcast_S_S8x2048 : S_.BroadcastsInDim S8x2048 (![] : Fin 0 → Fin S8x2048.rank)
  reducesTo_S8x2048_S8_d1 : S8x2048.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x2048_0_1 : S8x1.BroadcastsInDim S8x2048 (![0, 1] : Fin 2 → Fin S8x2048.rank)
  bcast_S_S1 : S_.BroadcastsInDim S1 (![] : Fin 0 → Fin S1.rank)
  slices_S8x8192x2048_S8x1x2048_0_36_0 : S8x8192x2048.Slices ![0, 36, 0] S8x1x2048
  slices_S8x8192x2048_S8x1x2048_0_104_0 : S8x8192x2048.Slices ![0, 104, 0] S8x1x2048
  slices_S8x8192x2048_S8x1x2048_0_304_0 : S8x8192x2048.Slices ![0, 304, 0] S8x1x2048
  slices_S8x8192x2048_S8x1x2048_0_888_0 : S8x8192x2048.Slices ![0, 888, 0] S8x1x2048
  slices_S8x8192x2048_S8x1x2048_0_2592_0 : S8x8192x2048.Slices ![0, 2592, 0] S8x1x2048
  slices_S8x8192x2048_S8x1x2048_0_7568_0 : S8x8192x2048.Slices ![0, 7568, 0] S8x1x2048
  dot_S8x4096_S4096x2048_S8x2048_1_0_0_1_n_n_wf : DotDims.WF S8x4096 S4096x2048 S8x2048 [1] [0] [0] [1] [] []
  scatter_S8x8192x2048_S1_S8x2048_01_1_1_0_wf : ScatterDims.WF S8x8192x2048 S1 S8x2048 [0, 1] [1] [1] 0

variable [Facts₀]

def dot_S8x4096_S4096x2048_S8x2048_1_0_0_1_n_n : DotDims S8x4096 S4096x2048 S8x2048 where
  lhsContracting := [1]
  rhsContracting := [0]
  lhsNonContracting := [0]
  rhsNonContracting := [1]
  lhsBatch := []
  rhsBatch := []
  wf := dot_S8x4096_S4096x2048_S8x2048_1_0_0_1_n_n_wf
def scatter_S8x8192x2048_S1_S8x2048_01_1_1_0 : ScatterDims S8x8192x2048 S1 S8x2048 where
  updateWindowDims := [0, 1]
  insertedWindowDims := [1]
  scatterDimsToOperandDims := [1]
  indexVectorDim := 0
  wf := scatter_S8x8192x2048_S1_S8x2048_01_1_1_0_wf

class Facts : Prop extends Facts₀ where

variable [Facts]
-- ==== Proof.KBBody.lean ====
/-
  The body of the copy-and-overwrite kernel, run once for each way its seven row tests can come out.

  A grid point t stages block t of x (eight batches, rows 128·t … 128·t+127, all 2048 lanes) and the whole
  table of seven replacement rows.  The body first stores the block of x into the output block unchanged.
  Then, if t is one of the five blocks that hold an overwritten row (block 0 holds three of them: rows 12, 36
  and 104; blocks 2, 6, 20 and 59 hold one each, at offsets 48, 120, 32 and 16), it stores the matching
  replacement row over that row of the block.  What the output block holds afterwards is therefore the later
  stores laid over the first one; the first store covers the block, so nothing of the buffer's earlier
  contents survives.
-/
import proofs.«134958_j16810501996613_1_alg».proof.Proof.Gen.Kernel.Launch
import proofs.«134958_j16810501996613_1_alg».proof.Proof.Gen.Kernel.Skeleton
import proofs.«134958_j16810501996613_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The row tests -/

/-- The test "this is block K" as the body computes it from the grid coordinate. -/
abbrev isBlock (K : BitVec 32) (i : grid0.Coords) : Prop :=
  (Scalar.cmpi .ne (Scalar.extui (Scalar.cmpi .eq (BitVec.ofNat 32 (i 0).val) K)) 0#32) = 1#1

/-- It holds at point 0 and nowhere else on the grid. -/
theorem isBlock_0 : ∀ t : Fin cfg0.N, isBlock 0#32 (grid0.coords t) ↔ t.val = 0 :=
  (by decide +kernel : ∀ t : Fin grid0.N, isBlock 0#32 (grid0.coords t) ↔ t.val = 0)
/-- It holds at point 2 and nowhere else on the grid. -/
theorem isBlock_2 : ∀ t : Fin cfg0.N, isBlock 2#32 (grid0.coords t) ↔ t.val = 2 :=
  (by decide +kernel : ∀ t : Fin grid0.N, isBlock 2#32 (grid0.coords t) ↔ t.val = 2)
/-- It holds at point 6 and nowhere else on the grid. -/
theorem isBlock_6 : ∀ t : Fin cfg0.N, isBlock 6#32 (grid0.coords t) ↔ t.val = 6 :=
  (by decide +kernel : ∀ t : Fin grid0.N, isBlock 6#32 (grid0.coords t) ↔ t.val = 6)
/-- It holds at point 20 and nowhere else on the grid. -/
theorem isBlock_20 : ∀ t : Fin cfg0.N, isBlock 20#32 (grid0.coords t) ↔ t.val = 20 :=
  (by decide +kernel : ∀ t : Fin grid0.N, isBlock 20#32 (grid0.coords t) ↔ t.val = 20)
/-- It holds at point 59 and nowhere else on the grid. -/
theorem isBlock_59 : ∀ t : Fin cfg0.N, isBlock 59#32 (grid0.coords t) ↔ t.val = 59 :=
  (by decide +kernel : ∀ t : Fin grid0.N, isBlock 59#32 (grid0.coords t) ↔ t.val = 59)

/-! ## The rectangles the body reads and writes -/

/-- The whole block. -/
abbrev rW : Rect S8x128x2048 := Rect.unit (s := S8x128x2048) ![0, 0, 0] S8x128x2048.size inb_S8x128x2048_S8x128x2048_0_0_0
/-- Row 12 of the block, and replacement row 0 of the table. -/
abbrev rR12 : Rect S8x128x2048 := Rect.unit (s := S8x128x2048) ![0, 12, 0] S8x1x2048.size inb_S8x128x2048_S8x1x2048_0_12_0
abbrev rU0 : Rect S7x8x2048 := Rect.unit (s := S7x8x2048) ![0, 0, 0] S1x8x2048.size inb_S7x8x2048_S1x8x2048_0_0_0
/-- Row 36 of the block, and replacement row 1 of the table. -/
abbrev rR36 : Rect S8x128x2048 := Rect.unit (s := S8x128x2048) ![0, 36, 0] S8x1x2048.size inb_S8x128x2048_S8x1x2048_0_36_0
abbrev rU1 : Rect S7x8x2048 := Rect.unit (s := S7x8x2048) ![1, 0, 0] S1x8x2048.size inb_S7x8x2048_S1x8x2048_1_0_0
/-- Row 104 of the block, and replacement row 2 of the table. -/
abbrev rR104 : Rect S8x128x2048 := Rect.unit (s := S8x128x2048) ![0, 104, 0] S8x1x2048.size inb_S8x128x2048_S8x1x2048_0_104_0
abbrev rU2 : Rect S7x8x2048 := Rect.unit (s := S7x8x2048) ![2, 0, 0] S1x8x2048.size inb_S7x8x2048_S1x8x2048_2_0_0
/-- Row 48 of the block, and replacement row 3 of the table. -/
abbrev rR48 : Rect S8x128x2048 := Rect.unit (s := S8x128x2048) ![0, 48, 0] S8x1x2048.size inb_S8x128x2048_S8x1x2048_0_48_0
abbrev rU3 : Rect S7x8x2048 := Rect.unit (s := S7x8x2048) ![3, 0, 0] S1x8x2048.size inb_S7x8x2048_S1x8x2048_3_0_0
/-- Row 120 of the block, and replacement row 4 of the table. -/
abbrev rR120 : Rect S8x128x2048 := Rect.unit (s := S8x128x2048) ![0, 120, 0] S8x1x2048.size inb_S8x128x2048_S8x1x2048_0_120_0
abbrev rU4 : Rect S7x8x2048 := Rect.unit (s := S7x8x2048) ![4, 0, 0] S1x8x2048.size inb_S7x8x2048_S1x8x2048_4_0_0
/-- Row 32 of the block, and replacement row 5 of the table. -/
abbrev rR32 : Rect S8x128x2048 := Rect.unit (s := S8x128x2048) ![0, 32, 0] S8x1x2048.size inb_S8x128x2048_S8x1x2048_0_32_0
abbrev rU5 : Rect S7x8x2048 := Rect.unit (s := S7x8x2048) ![5, 0, 0] S1x8x2048.size inb_S7x8x2048_S1x8x2048_5_0_0
/-- Row 16 of the block, and replacement row 6 of the table. -/
abbrev rR16 : Rect S8x128x2048 := Rect.unit (s := S8x128x2048) ![0, 16, 0] S8x1x2048.size inb_S8x128x2048_S8x1x2048_0_16_0
abbrev rU6 : Rect S7x8x2048 := Rect.unit (s := S7x8x2048) ![6, 0, 0] S1x8x2048.size inb_S7x8x2048_S1x8x2048_6_0_0

/-! ## What the body leaves in the output block, case by case (the stores, last first) -/

def outA (x0 : Vec F S8x128x2048 .f32) (x1 : Vec F S7x8x2048 .f32) : Vec F S8x128x2048 .f32 :=
  View.canon [⟨rR104, k0_pay3 (View.ld x1 rU2)⟩, ⟨rR36, k0_pay2 (View.ld x1 rU1)⟩, ⟨rR12, k0_pay1 (View.ld x1 rU0)⟩, ⟨rW, View.ld x0 rW⟩]

/-- The first store alone covers the block. -/
theorem coverA (p104 p36 p12 pW : _) (y : S8x128x2048.Idx) :
    ∃ pc ∈ ([⟨rR104, p104⟩, ⟨rR36, p36⟩, ⟨rR12, p12⟩, ⟨rW, pW⟩] : List (View.Piece (Elt F) S8x128x2048 .f32)), y ∈ pc.1.set :=
  View.cover_of_tiled _ S8x128x2048.size (by rfl) y

def outB (x0 : Vec F S8x128x2048 .f32) (x1 : Vec F S7x8x2048 .f32) : Vec F S8x128x2048 .f32 :=
  View.canon [⟨rR48, k0_pay4 (View.ld x1 rU3)⟩, ⟨rW, View.ld x0 rW⟩]

/-- The first store alone covers the block. -/
theorem coverB (p48 pW : _) (y : S8x128x2048.Idx) :
    ∃ pc ∈ ([⟨rR48, p48⟩, ⟨rW, pW⟩] : List (View.Piece (Elt F) S8x128x2048 .f32)), y ∈ pc.1.set :=
  View.cover_of_tiled _ S8x128x2048.size (by rfl) y

def outC (x0 : Vec F S8x128x2048 .f32) (x1 : Vec F S7x8x2048 .f32) : Vec F S8x128x2048 .f32 :=
  View.canon [⟨rR120, k0_pay5 (View.ld x1 rU4)⟩, ⟨rW, View.ld x0 rW⟩]

/-- The first store alone covers the block. -/
theorem coverC (p120 pW : _) (y : S8x128x2048.Idx) :
    ∃ pc ∈ ([⟨rR120, p120⟩, ⟨rW, pW⟩] : List (View.Piece (Elt F) S8x128x2048 .f32)), y ∈ pc.1.set :=
  View.cover_of_tiled _ S8x128x2048.size (by rfl) y

def outD (x0 : Vec F S8x128x2048 .f32) (x1 : Vec F S7x8x2048 .f32) : Vec F S8x128x2048 .f32 :=
  View.canon [⟨rR32, k0_pay6 (View.ld x1 rU5)⟩, ⟨rW, View.ld x0 rW⟩]

/-- The first store alone covers the block. -/
theorem coverD (p32 pW : _) (y : S8x128x2048.Idx) :
    ∃ pc ∈ ([⟨rR32, p32⟩, ⟨rW, pW⟩] : List (View.Piece (Elt F) S8x128x2048 .f32)), y ∈ pc.1.set :=
  View.cover_of_tiled _ S8x128x2048.size (by rfl) y

def outE (x0 : Vec F S8x128x2048 .f32) (x1 : Vec F S7x8x2048 .f32) : Vec F S8x128x2048 .f32 :=
  View.canon [⟨rR16, k0_pay7 (View.ld x1 rU6)⟩, ⟨rW, View.ld x0 rW⟩]

/-- The first store alone covers the block. -/
theorem coverE (p16 pW : _) (y : S8x128x2048.Idx) :
    ∃ pc ∈ ([⟨rR16, p16⟩, ⟨rW, pW⟩] : List (View.Piece (Elt F) S8x128x2048 .f32)), y ∈ pc.1.set :=
  View.cover_of_tiled _ S8x128x2048.size (by rfl) y

def outZ (x0 : Vec F S8x128x2048 .f32) (x1 : Vec F S7x8x2048 .f32) : Vec F S8x128x2048 .f32 :=
  View.canon [⟨rW, View.ld x0 rW⟩]

/-- The first store alone covers the block. -/
theorem coverZ (pW : _) (y : S8x128x2048.Idx) :
    ∃ pc ∈ ([⟨rW, pW⟩] : List (View.Piece (Elt F) S8x128x2048 .f32)), y ∈ pc.1.set :=
  View.cover_of_tiled _ S8x128x2048.size (by rfl) y

/-! ## The body's triple, case by case -/

set_option maxHeartbeats 4000000 in
/-- The test for block 0 holds and no other: the block is copied and its three rows are overwritten. -/
theorem sound_A (c : Dev nD) (E : Set ℕ) (i : grid0.Coords)
    (arg1 : Memref sig .tc .vmem S8x128x2048 .f32) (harg1 : arg1.IsWhole) (arg2 : Memref sig .tc .vmem S7x8x2048 .f32) (harg2 : arg2.IsWhole)
    (arg3 : Memref sig .tc .vmem S8x128x2048 .f32) (harg3 : arg3.IsWhole)
    (h0 : isBlock 0#32 i) (h2 : ¬isBlock 2#32 i) (h6 : ¬isBlock 6#32 i) (h20 : ¬isBlock 20#32 i) (h59 : ¬isBlock 59#32 i)
    (x0 : Vec F S8x128x2048 .f32) (x1 : Vec F S7x8x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outA x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec (disch := first | exact h0 | exact h2 | exact h6 | exact h20 | exact h59)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverA _ _ _ _ )

set_option maxHeartbeats 4000000 in
/-- The test for block 2 holds and no other: the block is copied and its row is overwritten. -/
theorem sound_B (c : Dev nD) (E : Set ℕ) (i : grid0.Coords)
    (arg1 : Memref sig .tc .vmem S8x128x2048 .f32) (harg1 : arg1.IsWhole) (arg2 : Memref sig .tc .vmem S7x8x2048 .f32) (harg2 : arg2.IsWhole)
    (arg3 : Memref sig .tc .vmem S8x128x2048 .f32) (harg3 : arg3.IsWhole)
    (h0 : ¬isBlock 0#32 i) (h2 : isBlock 2#32 i) (h6 : ¬isBlock 6#32 i) (h20 : ¬isBlock 20#32 i) (h59 : ¬isBlock 59#32 i)
    (x0 : Vec F S8x128x2048 .f32) (x1 : Vec F S7x8x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outB x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec (disch := first | exact h0 | exact h2 | exact h6 | exact h20 | exact h59)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverB _ _ )

set_option maxHeartbeats 4000000 in
/-- The test for block 6 holds and no other: the block is copied and its row is overwritten. -/
theorem sound_C (c : Dev nD) (E : Set ℕ) (i : grid0.Coords)
    (arg1 : Memref sig .tc .vmem S8x128x2048 .f32) (harg1 : arg1.IsWhole) (arg2 : Memref sig .tc .vmem S7x8x2048 .f32) (harg2 : arg2.IsWhole)
    (arg3 : Memref sig .tc .vmem S8x128x2048 .f32) (harg3 : arg3.IsWhole)
    (h0 : ¬isBlock 0#32 i) (h2 : ¬isBlock 2#32 i) (h6 : isBlock 6#32 i) (h20 : ¬isBlock 20#32 i) (h59 : ¬isBlock 59#32 i)
    (x0 : Vec F S8x128x2048 .f32) (x1 : Vec F S7x8x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outC x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec (disch := first | exact h0 | exact h2 | exact h6 | exact h20 | exact h59)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverC _ _ )

set_option maxHeartbeats 4000000 in
/-- The test for block 20 holds and no other: the block is copied and its row is overwritten. -/
theorem sound_D (c : Dev nD) (E : Set ℕ) (i : grid0.Coords)
    (arg1 : Memref sig .tc .vmem S8x128x2048 .f32) (harg1 : arg1.IsWhole) (arg2 : Memref sig .tc .vmem S7x8x2048 .f32) (harg2 : arg2.IsWhole)
    (arg3 : Memref sig .tc .vmem S8x128x2048 .f32) (harg3 : arg3.IsWhole)
    (h0 : ¬isBlock 0#32 i) (h2 : ¬isBlock 2#32 i) (h6 : ¬isBlock 6#32 i) (h20 : isBlock 20#32 i) (h59 : ¬isBlock 59#32 i)
    (x0 : Vec F S8x128x2048 .f32) (x1 : Vec F S7x8x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outD x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec (disch := first | exact h0 | exact h2 | exact h6 | exact h20 | exact h59)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverD _ _ )

set_option maxHeartbeats 4000000 in
/-- The test for block 59 holds and no other: the block is copied and its row is overwritten. -/
theorem sound_E (c : Dev nD) (E : Set ℕ) (i : grid0.Coords)
    (arg1 : Memref sig .tc .vmem S8x128x2048 .f32) (harg1 : arg1.IsWhole) (arg2 : Memref sig .tc .vmem S7x8x2048 .f32) (harg2 : arg2.IsWhole)
    (arg3 : Memref sig .tc .vmem S8x128x2048 .f32) (harg3 : arg3.IsWhole)
    (h0 : ¬isBlock 0#32 i) (h2 : ¬isBlock 2#32 i) (h6 : ¬isBlock 6#32 i) (h20 : ¬isBlock 20#32 i) (h59 : isBlock 59#32 i)
    (x0 : Vec F S8x128x2048 .f32) (x1 : Vec F S7x8x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outE x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec (disch := first | exact h0 | exact h2 | exact h6 | exact h20 | exact h59)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverE _ _ )

set_option maxHeartbeats 4000000 in
/-- No test holds: the block is copied. -/
theorem sound_Z (c : Dev nD) (E : Set ℕ) (i : grid0.Coords)
    (arg1 : Memref sig .tc .vmem S8x128x2048 .f32) (harg1 : arg1.IsWhole) (arg2 : Memref sig .tc .vmem S7x8x2048 .f32) (harg2 : arg2.IsWhole)
    (arg3 : Memref sig .tc .vmem S8x128x2048 .f32) (harg3 : arg3.IsWhole)
    (h0 : ¬isBlock 0#32 i) (h2 : ¬isBlock 2#32 i) (h6 : ¬isBlock 6#32 i) (h20 : ¬isBlock 20#32 i) (h59 : ¬isBlock 59#32 i)
    (x0 : Vec F S8x128x2048 .f32) (x1 : Vec F S7x8x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outZ x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec (disch := first | exact h0 | exact h2 | exact h6 | exact h20 | exact h59)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverZ _ )

end Cert.Kernel.Gen

end
-- ==== Proof.LibHostKeep.lean ====
/-
  Which buffers a line of host operations writes, as a list.

  Each builder's operation writes exactly one buffer.  Walking a literal line once, operation by operation,
  gives the list of the buffers it writes; a buffer outside that list passes through the line unchanged
  (the library's `after_of_writes_sub`).  The two lemmas here build the list's correctness proof in one
  linear pass, with no search: `writes_nil` for the empty line, `writes_cons` for one more operation in front.
-/
import Idealize.ShloMosaic.Lib.StableHlo.Run

noncomputable section

namespace Cert.Lib.HostKeep

open Idealize.ShloMosaic Idealize.ShloMosaic.StableHlo

variable {τ : Topo} {sig : RefSig} {Val : EltTy → Type}

/-- The empty line writes nothing. -/
theorem writes_nil {W : List (Ref sig .tc)} :
    ([] : List (HloOp τ sig Val)).Forall fun o => o.writes ⊆ (W.map (Proc.devRef (τ := τ) .tc)).toFinset := by
  simp only [List.Forall]

/-- One more operation in front, writing the one buffer `y`: one more entry in front of the list. -/
theorem writes_cons {y : Ref sig .tc} {W : List (Ref sig .tc)} {op : HloOp τ sig Val} {ops : List (HloOp τ sig Val)}
    (h : op.writes = {Proc.devRef .tc y})
    (ih : ops.Forall fun o => o.writes ⊆ (W.map (Proc.devRef (τ := τ) .tc)).toFinset) :
    (op :: ops).Forall fun o => o.writes ⊆ ((y :: W).map (Proc.devRef (τ := τ) .tc)).toFinset := by
  rw [List.forall_iff_forall_mem] at ih ⊢
  intro o ho
  rcases List.mem_cons.mp ho with rfl | ho
  · rw [h]; intro b hb
    rw [Finset.mem_singleton] at hb; subst hb
    simp only [List.map_cons, List.toFinset_cons, Finset.mem_insert, true_or]
  · intro b hb
    have := ih o ho hb
    simp only [List.map_cons, List.toFinset_cons, Finset.mem_insert]
    exact Or.inr this

/-- A property of every operation of two lines holds of every operation of their concatenation. -/
theorem forall_append {α : Type*} {p : α → Prop} {l₁ l₂ : List α} (h₁ : l₁.Forall p) (h₂ : l₂.Forall p) : (l₁ ++ l₂).Forall p := by
  rw [List.forall_iff_forall_mem] at h₁ h₂ ⊢
  intro a ha
  rcases List.mem_append.mp ha with h | h
  · exact h₁ a h
  · exact h₂ a h

end Cert.Lib.HostKeep

end
-- ==== Proof.KBHost.lean ====
/-
  The host operations that run before the kernel is launched, read as one fold.

  The entry function first computes, in plain array operations, the seven replacement rows (a recurrence over
  ten rows of x) and stacks them into one table; only then does it launch the copy-and-overwrite kernel on x
  and that table.  The contents of every buffer at the launch are the fold of those operations over the
  contents at entry.  The operations come in fifteen consecutive stretches; each buffer is written by exactly
  one operation, so a buffer that a stretch does not write passes through it unchanged.  For every stretch the
  list of the buffers it writes is recorded here, which turns "this buffer is not touched by that stretch"
  into a finite membership check.  In particular no stretch writes an argument of the entry function.
-/
import proofs.«134958_j16810501996613_1_alg».proof.Proof.Gen.Kernel.Launch
import proofs.«134958_j16810501996613_1_alg».proof.Proof.LibHostKeep
import Idealize.ShloMosaic.Lib.Pipeline.Frame

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Cert.Lib.HostKeep

variable {F : FTy → Type} [FloatOps F]

local notation "𝕄" => MT nD τ sig Unit (Elt F) ℕ (UR sig nD τ) ℕ

variable (m : (ℓ : Loc nD τ sig) → Buf (Elt F) ℓ)

/-- Core `c`'s buffers when the kernel is launched: after all fifteen stretches. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor

/-- The entry function is those stretches and then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh⟩) main_chain

/-! ## What each stretch writes -/

/-- The buffers stretch 0 writes, in order. -/
abbrev wr0 : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_cst, main_v58, main_v59, main_cst_0, main_v60, main_v61, main_v62, main_cst_1, main_v63, main_v64, main_v65, main_v66, main_cst_2, main_v67, main_v68, main_cst_3, main_v69, main_v70, main_c]
theorem hwr0 : (hostOps0 : List (HloOp τ sig (Elt F))).Forall fun op => op.writes ⊆ ((wr0).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))))))))))))))))))))))))))))))))))))))))))))))))))))))))
/-- A buffer stretch 0 does not write passes through it. -/
theorem keep0 (W : Valuation τ sig (Elt F)) {r : Ref sig .tc} (hr : r ∉ wr0) :
    StableHlo.after (hostOps0 : List (HloOp τ sig (Elt F))) W (Proc.devRef .tc r) = W (Proc.devRef .tc r) :=
  StableHlo.after_of_writes_sub _ _ hwr0 hr

/-- The buffers stretch 1 writes, in order. -/
abbrev wr1 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v71]
theorem hwr1 : (hostOps0_1 : List (HloOp τ sig (Elt F))).Forall fun op => op.writes ⊆ ((wr1).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))
/-- A buffer stretch 1 does not write passes through it. -/
theorem keep1 (W : Valuation τ sig (Elt F)) {r : Ref sig .tc} (hr : r ∉ wr1) :
    StableHlo.after (hostOps0_1 : List (HloOp τ sig (Elt F))) W (Proc.devRef .tc r) = W (Proc.devRef .tc r) :=
  StableHlo.after_of_writes_sub _ _ hwr1 hr

/-- The buffers stretch 2 writes, in order. -/
abbrev wr2 : List (Ref sig .tc) := [main_v72, main_v73, main_cst_4, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_cst_5, main_v122, main_v123, main_cst_6, main_v124, main_v125, main_v126, main_cst_7, main_v127, main_v128, main_v129, main_v130, main_cst_8, main_v131, main_v132, main_cst_9, main_v133, main_v134, main_c_10]
theorem hwr2 : (hostOps0_2 : List (HloOp τ sig (Elt F))).Forall fun op => op.writes ⊆ ((wr2).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil))))))))))))))))))))))))))))))))))))))))))))))))))))))))))))))))))))))
/-- A buffer stretch 2 does not write passes through it. -/
theorem keep2 (W : Valuation τ sig (Elt F)) {r : Ref sig .tc} (hr : r ∉ wr2) :
    StableHlo.after (hostOps0_2 : List (HloOp τ sig (Elt F))) W (Proc.devRef .tc r) = W (Proc.devRef .tc r) :=
  StableHlo.after_of_writes_sub _ _ hwr2 hr

/-- The buffers stretch 3 writes, in order. -/
abbrev wr3 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v135]
theorem hwr3 : (hostOps0_3 : List (HloOp τ sig (Elt F))).Forall fun op => op.writes ⊆ ((wr3).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))
/-- A buffer stretch 3 does not write passes through it. -/
theorem keep3 (W : Valuation τ sig (Elt F)) {r : Ref sig .tc} (hr : r ∉ wr3) :
    StableHlo.after (hostOps0_3 : List (HloOp τ sig (Elt F))) W (Proc.devRef .tc r) = W (Proc.devRef .tc r) :=
  StableHlo.after_of_writes_sub _ _ hwr3 hr

/-- The buffers stretch 4 writes, in order. -/
abbrev wr4 : List (Ref sig .tc) := [main_v136, main_v137, main_cst_11, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_cst_12, main_v186, main_v187, main_cst_13, main_v188, main_v189, main_v190, main_cst_14, main_v191, main_v192, main_v193, main_v194, main_cst_15, main_v195, main_v196, main_cst_16, main_v197, main_v198, main_c_17]
theorem hwr4 : (hostOps0_4 : List (HloOp τ sig (Elt F))).Forall fun op => op.writes ⊆ ((wr4).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil))))))))))))))))))))))))))))))))))))))))))))))))))))))))))))))))))))))
/-- A buffer stretch 4 does not write passes through it. -/
theorem keep4 (W : Valuation τ sig (Elt F)) {r : Ref sig .tc} (hr : r ∉ wr4) :
    StableHlo.after (hostOps0_4 : List (HloOp τ sig (Elt F))) W (Proc.devRef .tc r) = W (Proc.devRef .tc r) :=
  StableHlo.after_of_writes_sub _ _ hwr4 hr

/-- The buffers stretch 5 writes, in order. -/
abbrev wr5 : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v199]
theorem hwr5 : (hostOps0_5 : List (HloOp τ sig (Elt F))).Forall fun op => op.writes ⊆ ((wr5).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))
/-- A buffer stretch 5 does not write passes through it. -/
theorem keep5 (W : Valuation τ sig (Elt F)) {r : Ref sig .tc} (hr : r ∉ wr5) :
    StableHlo.after (hostOps0_5 : List (HloOp τ sig (Elt F))) W (Proc.devRef .tc r) = W (Proc.devRef .tc r) :=
  StableHlo.after_of_writes_sub _ _ hwr5 hr

/-- The buffers stretch 6 writes, in order. -/
abbrev wr6 : List (Ref sig .tc) := [main_v200, main_v201, main_cst_18, main_v202, main_v203, main_v204, main_v205, main_v206, main_v207, main_v208, main_v209, main_v210, main_v211, main_v212, main_v213, main_v214, main_v215, main_v216, main_v217, main_v218, main_v219, main_v220, main_v221, main_v222, main_v223, main_v224, main_v225, main_v226, main_v227, main_v228, main_v229, main_v230, main_v231, main_v232, main_v233, main_v234, main_v235, main_v236, main_v237, main_v238, main_v239, main_v240, main_v241, main_v242, main_v243, main_v244, main_v245, main_v246, main_v247, main_v248, main_v249, main_cst_19, main_v250, main_v251, main_cst_20, main_v252, main_v253, main_v254, main_cst_21, main_v255, main_v256, main_v257, main_v258, main_cst_22, main_v259, main_v260, main_cst_23, main_v261, main_v262, main_c_24]
theorem hwr6 : (hostOps0_6 : List (HloOp τ sig (Elt F))).Forall fun op => op.writes ⊆ ((wr6).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil))))))))))))))))))))))))))))))))))))))))))))))))))))))))))))))))))))))
/-- A buffer stretch 6 does not write passes through it. -/
theorem keep6 (W : Valuation τ sig (Elt F)) {r : Ref sig .tc} (hr : r ∉ wr6) :
    StableHlo.after (hostOps0_6 : List (HloOp τ sig (Elt F))) W (Proc.devRef .tc r) = W (Proc.devRef .tc r) :=
  StableHlo.after_of_writes_sub _ _ hwr6 hr

/-- The buffers stretch 7 writes, in order. -/
abbrev wr7 : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v263]
theorem hwr7 : (hostOps0_7 : List (HloOp τ sig (Elt F))).Forall fun op => op.writes ⊆ ((wr7).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))
/-- A buffer stretch 7 does not write passes through it. -/
theorem keep7 (W : Valuation τ sig (Elt F)) {r : Ref sig .tc} (hr : r ∉ wr7) :
    StableHlo.after (hostOps0_7 : List (HloOp τ sig (Elt F))) W (Proc.devRef .tc r) = W (Proc.devRef .tc r) :=
  StableHlo.after_of_writes_sub _ _ hwr7 hr

/-- The buffers stretch 8 writes, in order. -/
abbrev wr8 : List (Ref sig .tc) := [main_v264, main_v265, main_cst_25, main_v266, main_v267, main_v268, main_v269, main_v270, main_v271, main_v272, main_v273, main_v274, main_v275, main_v276, main_v277, main_v278, main_v279, main_v280, main_v281, main_v282, main_v283, main_v284, main_v285, main_v286, main_v287, main_v288, main_v289, main_v290, main_v291, main_v292, main_v293, main_v294, main_v295, main_v296, main_v297, main_v298, main_v299, main_v300, main_v301, main_v302, main_v303, main_v304, main_v305, main_v306, main_v307, main_v308, main_v309, main_v310, main_v311, main_v312, main_v313, main_cst_26, main_v314, main_v315, main_cst_27, main_v316, main_v317, main_v318, main_cst_28, main_v319, main_v320, main_v321, main_v322, main_cst_29, main_v323, main_v324, main_cst_30, main_v325, main_v326, main_c_31]
theorem hwr8 : (hostOps0_8 : List (HloOp τ sig (Elt F))).Forall fun op => op.writes ⊆ ((wr8).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil))))))))))))))))))))))))))))))))))))))))))))))))))))))))))))))))))))))
/-- A buffer stretch 8 does not write passes through it. -/
theorem keep8 (W : Valuation τ sig (Elt F)) {r : Ref sig .tc} (hr : r ∉ wr8) :
    StableHlo.after (hostOps0_8 : List (HloOp τ sig (Elt F))) W (Proc.devRef .tc r) = W (Proc.devRef .tc r) :=
  StableHlo.after_of_writes_sub _ _ hwr8 hr

/-- The buffers stretch 9 writes, in order. -/
abbrev wr9 : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v327]
theorem hwr9 : (hostOps0_9 : List (HloOp τ sig (Elt F))).Forall fun op => op.writes ⊆ ((wr9).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))
/-- A buffer stretch 9 does not write passes through it. -/
theorem keep9 (W : Valuation τ sig (Elt F)) {r : Ref sig .tc} (hr : r ∉ wr9) :
    StableHlo.after (hostOps0_9 : List (HloOp τ sig (Elt F))) W (Proc.devRef .tc r) = W (Proc.devRef .tc r) :=
  StableHlo.after_of_writes_sub _ _ hwr9 hr

/-- The buffers stretch 10 writes, in order. -/
abbrev wr10 : List (Ref sig .tc) := [main_v328, main_v329, main_cst_32, main_v330, main_v331, main_v332, main_v333, main_v334, main_v335, main_v336, main_v337, main_v338, main_v339, main_v340, main_v341, main_v342, main_v343, main_v344, main_v345, main_v346, main_v347, main_v348, main_v349, main_v350, main_v351, main_v352, main_v353, main_v354, main_v355, main_v356, main_v357, main_v358, main_v359, main_v360, main_v361, main_v362, main_v363, main_v364, main_v365, main_v366, main_v367, main_v368, main_v369, main_v370, main_v371, main_v372, main_v373, main_v374, main_v375, main_v376, main_v377, main_cst_33, main_v378, main_v379, main_cst_34, main_v380, main_v381, main_v382, main_cst_35, main_v383, main_v384, main_v385, main_v386, main_cst_36, main_v387, main_v388, main_cst_37, main_v389, main_v390, main_c_38]
theorem hwr10 : (hostOps0_10 : List (HloOp τ sig (Elt F))).Forall fun op => op.writes ⊆ ((wr10).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil))))))))))))))))))))))))))))))))))))))))))))))))))))))))))))))))))))))
/-- A buffer stretch 10 does not write passes through it. -/
theorem keep10 (W : Valuation τ sig (Elt F)) {r : Ref sig .tc} (hr : r ∉ wr10) :
    StableHlo.after (hostOps0_10 : List (HloOp τ sig (Elt F))) W (Proc.devRef .tc r) = W (Proc.devRef .tc r) :=
  StableHlo.after_of_writes_sub _ _ hwr10 hr

/-- The buffers stretch 11 writes, in order. -/
abbrev wr11 : List (Ref sig .tc) := [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v391]
theorem hwr11 : (hostOps0_11 : List (HloOp τ sig (Elt F))).Forall fun op => op.writes ⊆ ((wr11).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))
/-- A buffer stretch 11 does not write passes through it. -/
theorem keep11 (W : Valuation τ sig (Elt F)) {r : Ref sig .tc} (hr : r ∉ wr11) :
    StableHlo.after (hostOps0_11 : List (HloOp τ sig (Elt F))) W (Proc.devRef .tc r) = W (Proc.devRef .tc r) :=
  StableHlo.after_of_writes_sub _ _ hwr11 hr

/-- The buffers stretch 12 writes, in order. -/
abbrev wr12 : List (Ref sig .tc) := [main_v392, main_v393, main_cst_39, main_v394, main_v395, main_v396, main_v397, main_v398, main_v399, main_v400, main_v401, main_v402, main_v403, main_v404, main_v405, main_v406, main_v407, main_v408, main_v409, main_v410, main_v411, main_v412, main_v413, main_v414, main_v415, main_v416, main_v417, main_v418, main_v419, main_v420, main_v421, main_v422, main_v423, main_v424, main_v425, main_v426, main_v427, main_v428, main_v429, main_v430, main_v431, main_v432, main_v433, main_v434, main_v435, main_v436, main_v437, main_v438, main_v439, main_v440, main_v441, main_cst_40, main_v442, main_v443, main_cst_41, main_v444, main_v445, main_v446, main_cst_42, main_v447, main_v448, main_v449, main_v450, main_cst_43, main_v451, main_v452, main_cst_44, main_v453, main_v454, main_c_45]
theorem hwr12 : (hostOps0_12 : List (HloOp τ sig (Elt F))).Forall fun op => op.writes ⊆ ((wr12).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil))))))))))))))))))))))))))))))))))))))))))))))))))))))))))))))))))))))
/-- A buffer stretch 12 does not write passes through it. -/
theorem keep12 (W : Valuation τ sig (Elt F)) {r : Ref sig .tc} (hr : r ∉ wr12) :
    StableHlo.after (hostOps0_12 : List (HloOp τ sig (Elt F))) W (Proc.devRef .tc r) = W (Proc.devRef .tc r) :=
  StableHlo.after_of_writes_sub _ _ hwr12 hr

/-- The buffers stretch 13 writes, in order. -/
abbrev wr13 : List (Ref sig .tc) := [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_v12, main_call6_cst_3, main_call6_v13, main_call6_cst_4, main_call6_call0_v0, main_call6_call0_v1, main_v455]
theorem hwr13 : (hostOps0_13 : List (HloOp τ sig (Elt F))).Forall fun op => op.writes ⊆ ((wr13).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))
/-- A buffer stretch 13 does not write passes through it. -/
theorem keep13 (W : Valuation τ sig (Elt F)) {r : Ref sig .tc} (hr : r ∉ wr13) :
    StableHlo.after (hostOps0_13 : List (HloOp τ sig (Elt F))) W (Proc.devRef .tc r) = W (Proc.devRef .tc r) :=
  StableHlo.after_of_writes_sub _ _ hwr13 hr

/-- The buffers stretch 14 writes, in order. -/
abbrev wr14 : List (Ref sig .tc) := [main_v456, main_v457, main_cst_46, main_v458, main_v459, main_v460, main_v461, main_v462, main_v463, main_v464, main_v465, main_v466, main_v467, main_v468, main_v469, main_v470, main_v471, main_v472, main_v473, main_v474, main_v475, main_v476]
theorem hwr14 : (hostOps0_14 : List (HloOp τ sig (Elt F))).Forall fun op => op.writes ⊆ ((wr14).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil))))))))))))))))))))))
/-- A buffer stretch 14 does not write passes through it. -/
theorem keep14 (W : Valuation τ sig (Elt F)) {r : Ref sig .tc} (hr : r ∉ wr14) :
    StableHlo.after (hostOps0_14 : List (HloOp τ sig (Elt F))) W (Proc.devRef .tc r) = W (Proc.devRef .tc r) :=
  StableHlo.after_of_writes_sub _ _ hwr14 hr

/-- The launch contents as the stretches applied one after the other. -/
theorem V_eq (c : Dev nD) (b : Ref sig .tc) : V m c b =
    StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 ((fun b => m (c, b))))))))))))))))) (Proc.devRef .tc b) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) (Proc.devRef .tc b) = _
  simp only [List.flatten_cons, List.flatten_nil, List.append_nil, StableHlo.after_append]

/-- A buffer no stretch writes is found at the launch as it was at entry. -/
theorem V_keep (c : Dev nD) (r : Ref sig .tc) (h0 : r ∉ wr0) (h1 : r ∉ wr1) (h2 : r ∉ wr2) (h3 : r ∉ wr3) (h4 : r ∉ wr4) (h5 : r ∉ wr5) (h6 : r ∉ wr6) (h7 : r ∉ wr7) (h8 : r ∉ wr8) (h9 : r ∉ wr9) (h10 : r ∉ wr10) (h11 : r ∉ wr11) (h12 : r ∉ wr12) (h13 : r ∉ wr13) (h14 : r ∉ wr14) :
    V m c r = m ((c : Thread nD τ).loc r) := by
  rw [V_eq, keep14 _ h14, keep13 _ h13, keep12 _ h12, keep11 _ h11, keep10 _ h10, keep9 _ h9, keep8 _ h8, keep7 _ h7, keep6 _ h6, keep5 _ h5, keep4 _ h4, keep3 _ h3, keep2 _ h2, keep1 _ h1, keep0 _ h0]

theorem V_main_arg0 (c : Dev nD) : V m c main_arg0 = m ((c : Thread nD τ).loc main_arg0) :=
  V_keep m c main_arg0 (by decide) (by decide) (by decide) (by decide) (by decide) (by decide) (by decide) (by decide) (by decide) (by decide) (by decide) (by decide) (by decide) (by decide) (by decide)
theorem V_main_arg1 (c : Dev nD) : V m c main_arg1 = m ((c : Thread nD τ).loc main_arg1) :=
  V_keep m c main_arg1 (by decide) (by decide) (by decide) (by decide) (by decide) (by decide) (by decide) (by decide) (by decide) (by decide) (by decide) (by decide) (by decide) (by decide) (by decide)
theorem V_main_arg2 (c : Dev nD) : V m c main_arg2 = m ((c : Thread nD τ).loc main_arg2) :=
  V_keep m c main_arg2 (by decide) (by decide) (by decide) (by decide) (by decide) (by decide) (by decide) (by decide) (by decide) (by decide) (by decide) (by decide) (by decide) (by decide) (by decide)
theorem V_main_arg3 (c : Dev nD) : V m c main_arg3 = m ((c : Thread nD τ).loc main_arg3) :=
  V_keep m c main_arg3 (by decide) (by decide) (by decide) (by decide) (by decide) (by decide) (by decide) (by decide) (by decide) (by decide) (by decide) (by decide) (by decide) (by decide) (by decide)
theorem V_main_arg4 (c : Dev nD) : V m c main_arg4 = m ((c : Thread nD τ).loc main_arg4) :=
  V_keep m c main_arg4 (by decide) (by decide) (by decide) (by decide) (by decide) (by decide) (by decide) (by decide) (by decide) (by decide) (by decide) (by decide) (by decide) (by decide) (by decide)
theorem V_main_arg5 (c : Dev nD) : V m c main_arg5 = m ((c : Thread nD τ).loc main_arg5) :=
  V_keep m c main_arg5 (by decide) (by decide) (by decide) (by decide) (by decide) (by decide) (by decide) (by decide) (by decide) (by decide) (by decide) (by decide) (by decide) (by decide) (by decide)
theorem V_main_arg6 (c : Dev nD) : V m c main_arg6 = m ((c : Thread nD τ).loc main_arg6) :=
  V_keep m c main_arg6 (by decide) (by decide) (by decide) (by decide) (by decide) (by decide) (by decide) (by decide) (by decide) (by decide) (by decide) (by decide) (by decide) (by decide) (by decide)
theorem V_main_arg7 (c : Dev nD) : V m c main_arg7 = m ((c : Thread nD τ).loc main_arg7) :=
  V_keep m c main_arg7 (by decide) (by decide) (by decide) (by decide) (by decide) (by decide) (by decide) (by decide) (by decide) (by decide) (by decide) (by decide) (by decide) (by decide) (by decide)
theorem V_main_arg8 (c : Dev nD) : V m c main_arg8 = m ((c : Thread nD τ).loc main_arg8) :=
  V_keep m c main_arg8 (by decide) (by decide) (by decide) (by decide) (by decide) (by decide) (by decide) (by decide) (by decide) (by decide) (by decide) (by decide) (by decide) (by decide) (by decide)
theorem V_main_arg9 (c : Dev nD) : V m c main_arg9 = m ((c : Thread nD τ).loc main_arg9) :=
  V_keep m c main_arg9 (by decide) (by decide) (by decide) (by decide) (by decide) (by decide) (by decide) (by decide) (by decide) (by decide) (by decide) (by decide) (by decide) (by decide) (by decide)
theorem V_main_arg10 (c : Dev nD) : V m c main_arg10 = m ((c : Thread nD τ).loc main_arg10) :=
  V_keep m c main_arg10 (by decide) (by decide) (by decide) (by decide) (by decide) (by decide) (by decide) (by decide) (by decide) (by decide) (by decide) (by decide) (by decide) (by decide) (by decide)
theorem V_main_arg11 (c : Dev nD) : V m c main_arg11 = m ((c : Thread nD τ).loc main_arg11) :=
  V_keep m c main_arg11 (by decide) (by decide) (by decide) (by decide) (by decide) (by decide) (by decide) (by decide) (by decide) (by decide) (by decide) (by decide) (by decide) (by decide) (by decide)
theorem V_main_arg12 (c : Dev nD) : V m c main_arg12 = m ((c : Thread nD τ).loc main_arg12) :=
  V_keep m c main_arg12 (by decide) (by decide) (by decide) (by decide) (by decide) (by decide) (by decide) (by decide) (by decide) (by decide) (by decide) (by decide) (by decide) (by decide) (by decide)
theorem V_main_arg13 (c : Dev nD) : V m c main_arg13 = m ((c : Thread nD τ).loc main_arg13) :=
  V_keep m c main_arg13 (by decide) (by decide) (by decide) (by decide) (by decide) (by decide) (by decide) (by decide) (by decide) (by decide) (by decide) (by decide) (by decide) (by decide) (by decide)

end Cert.Kernel.Gen

end
-- ==== Proof.KBFrame.lean ====
/-
  The launch run as a whole: every execution of the entry function terminates without fault, the arguments end
  as they began, and the output array ends block by block at what the body leaves.

  The proof data name, for each grid point, what each staged buffer holds after the body: the two inputs their
  blocks (the body only reads them), the output block the copy of x's block with the point's replacement rows
  laid over it.  The output's buffer is read by the body before it is overwritten, but nothing of what is read
  survives (the first store covers the block), so whatever it held before the body does not matter.  Which case
  a point is in is decided from its number: 0, 2, 6, 20, 59, or none of these.
-/
import proofs.«134958_j16810501996613_1_alg».proof.Proof.KBBody
import proofs.«134958_j16810501996613_1_alg».proof.Proof.KBHost

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point, fetched there or not, when the body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the output block holds after the body at a point -/

def outAt (c : Dev nD) (t : Fin cfg0.N) : Vec F S8x128x2048 .f32 :=
  if t.val = 0 then outA (iblk m c 0 t) (iblk m c 1 t)
  else if t.val = 2 then outB (iblk m c 0 t) (iblk m c 1 t)
  else if t.val = 6 then outC (iblk m c 0 t) (iblk m c 1 t)
  else if t.val = 20 then outD (iblk m c 0 t) (iblk m c 1 t)
  else if t.val = 59 then outE (iblk m c 0 t) (iblk m c 1 t)
  else outZ (iblk m c 0 t) (iblk m c 1 t)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 4000000 in
/-- The body at any point: the inputs' buffers hold their blocks; the point's number says which case it is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  by_cases e0 : t.val = 0
  ·
    have eo : outAt m c t = outA (iblk m c 0 t) (iblk m c 1 t) := by unfold outAt; rw [if_pos e0]
    rw [eo]
    iintro ⟨HΦ, Ho, ⟨%d0, H0⟩, ⟨%d1, H1⟩, ⟨%d2, H2⟩⟩
    iapply (sound_A c Set.univ (grid0.coords t) _ _ _ _ _ _ ((isBlock_0 t).mpr e0) (fun h => by have := (isBlock_2 t).mp h; omega) (fun h => by have := (isBlock_6 t).mp h; omega) (fun h => by have := (isBlock_20 t).mp h; omega) (fun h => by have := (isBlock_59 t).mp h; omega) (iblk m c 0 t) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  by_cases e2 : t.val = 2
  ·
    have eo : outAt m c t = outB (iblk m c 0 t) (iblk m c 1 t) := by unfold outAt; rw [if_neg e0, if_pos e2]
    rw [eo]
    iintro ⟨HΦ, Ho, ⟨%d0, H0⟩, ⟨%d1, H1⟩, ⟨%d2, H2⟩⟩
    iapply (sound_B c Set.univ (grid0.coords t) _ _ _ _ _ _ (fun h => by have := (isBlock_0 t).mp h; omega) ((isBlock_2 t).mpr e2) (fun h => by have := (isBlock_6 t).mp h; omega) (fun h => by have := (isBlock_20 t).mp h; omega) (fun h => by have := (isBlock_59 t).mp h; omega) (iblk m c 0 t) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  by_cases e6 : t.val = 6
  ·
    have eo : outAt m c t = outC (iblk m c 0 t) (iblk m c 1 t) := by unfold outAt; rw [if_neg e0, if_neg e2, if_pos e6]
    rw [eo]
    iintro ⟨HΦ, Ho, ⟨%d0, H0⟩, ⟨%d1, H1⟩, ⟨%d2, H2⟩⟩
    iapply (sound_C c Set.univ (grid0.coords t) _ _ _ _ _ _ (fun h => by have := (isBlock_0 t).mp h; omega) (fun h => by have := (isBlock_2 t).mp h; omega) ((isBlock_6 t).mpr e6) (fun h => by have := (isBlock_20 t).mp h; omega) (fun h => by have := (isBlock_59 t).mp h; omega) (iblk m c 0 t) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  by_cases e20 : t.val = 20
  ·
    have eo : outAt m c t = outD (iblk m c 0 t) (iblk m c 1 t) := by unfold outAt; rw [if_neg e0, if_neg e2, if_neg e6, if_pos e20]
    rw [eo]
    iintro ⟨HΦ, Ho, ⟨%d0, H0⟩, ⟨%d1, H1⟩, ⟨%d2, H2⟩⟩
    iapply (sound_D c Set.univ (grid0.coords t) _ _ _ _ _ _ (fun h => by have := (isBlock_0 t).mp h; omega) (fun h => by have := (isBlock_2 t).mp h; omega) (fun h => by have := (isBlock_6 t).mp h; omega) ((isBlock_20 t).mpr e20) (fun h => by have := (isBlock_59 t).mp h; omega) (iblk m c 0 t) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  by_cases e59 : t.val = 59
  ·
    have eo : outAt m c t = outE (iblk m c 0 t) (iblk m c 1 t) := by unfold outAt; rw [if_neg e0, if_neg e2, if_neg e6, if_neg e20, if_pos e59]
    rw [eo]
    iintro ⟨HΦ, Ho, ⟨%d0, H0⟩, ⟨%d1, H1⟩, ⟨%d2, H2⟩⟩
    iapply (sound_E c Set.univ (grid0.coords t) _ _ _ _ _ _ (fun h => by have := (isBlock_0 t).mp h; omega) (fun h => by have := (isBlock_2 t).mp h; omega) (fun h => by have := (isBlock_6 t).mp h; omega) (fun h => by have := (isBlock_20 t).mp h; omega) ((isBlock_59 t).mpr e59) (iblk m c 0 t) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  have eo : outAt m c t = outZ (iblk m c 0 t) (iblk m c 1 t) := by unfold outAt; rw [if_neg e0, if_neg e2, if_neg e6, if_neg e20, if_neg e59]
  rw [eo]
  iintro ⟨HΦ, Ho, ⟨%d0, H0⟩, ⟨%d1, H1⟩, ⟨%d2, H2⟩⟩
  iapply (sound_Z c Set.univ (grid0.coords t) _ _ _ _ _ _ (fun h => by have := (isBlock_0 t).mp h; omega) (fun h => by have := (isBlock_2 t).mp h; omega) (fun h => by have := (isBlock_6 t).mp h; omega) (fun h => by have := (isBlock_20 t).mp h; omega) (fun h => by have := (isBlock_59 t).mp h; omega) (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every execution of the entry function terminates, and every final state has each staged array at what the
    library computes from the proof data and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they began: x is a staged input the body only reads, the thirteen parameter arrays are staged
    by no window, and no host operation writes any of the fourteen. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) (run_main m ρ)

end Cert.Kernel.Gen

end
-- ==== Proof.KIBody.lean ====
/-
  The body of the copy-and-overwrite kernel, run once for each way its seven row tests can come out.

  A grid point t stages block t of x (eight batches, rows 128·t … 128·t+127, all 2048 lanes) and the whole
  table of seven replacement rows.  The body first stores the block of x into the output block unchanged.
  Then, if t is one of the five blocks that hold an overwritten row (block 0 holds three of them: rows 12, 36
  and 104; blocks 2, 6, 20 and 59 hold one each, at offsets 48, 120, 32 and 16), it stores the matching
  replacement row over that row of the block.  What the output block holds afterwards is therefore the later
  stores laid over the first one; the first store covers the block, so nothing of the buffer's earlier
  contents survives.
-/
import proofs.«134958_j16810501996613_1_alg».proof.Proof.Gen.KernelIdeal.Launch
import proofs.«134958_j16810501996613_1_alg».proof.Proof.Gen.KernelIdeal.Skeleton
import proofs.«134958_j16810501996613_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The row tests -/

/-- The test "this is block K" as the body computes it from the grid coordinate. -/
abbrev isBlock (K : BitVec 32) (i : grid0.Coords) : Prop :=
  (Scalar.cmpi .ne (Scalar.extui (Scalar.cmpi .eq (BitVec.ofNat 32 (i 0).val) K)) 0#32) = 1#1

/-- It holds at point 0 and nowhere else on the grid. -/
theorem isBlock_0 : ∀ t : Fin cfg0.N, isBlock 0#32 (grid0.coords t) ↔ t.val = 0 :=
  (by decide +kernel : ∀ t : Fin grid0.N, isBlock 0#32 (grid0.coords t) ↔ t.val = 0)
/-- It holds at point 2 and nowhere else on the grid. -/
theorem isBlock_2 : ∀ t : Fin cfg0.N, isBlock 2#32 (grid0.coords t) ↔ t.val = 2 :=
  (by decide +kernel : ∀ t : Fin grid0.N, isBlock 2#32 (grid0.coords t) ↔ t.val = 2)
/-- It holds at point 6 and nowhere else on the grid. -/
theorem isBlock_6 : ∀ t : Fin cfg0.N, isBlock 6#32 (grid0.coords t) ↔ t.val = 6 :=
  (by decide +kernel : ∀ t : Fin grid0.N, isBlock 6#32 (grid0.coords t) ↔ t.val = 6)
/-- It holds at point 20 and nowhere else on the grid. -/
theorem isBlock_20 : ∀ t : Fin cfg0.N, isBlock 20#32 (grid0.coords t) ↔ t.val = 20 :=
  (by decide +kernel : ∀ t : Fin grid0.N, isBlock 20#32 (grid0.coords t) ↔ t.val = 20)
/-- It holds at point 59 and nowhere else on the grid. -/
theorem isBlock_59 : ∀ t : Fin cfg0.N, isBlock 59#32 (grid0.coords t) ↔ t.val = 59 :=
  (by decide +kernel : ∀ t : Fin grid0.N, isBlock 59#32 (grid0.coords t) ↔ t.val = 59)

/-! ## The rectangles the body reads and writes -/

/-- The whole block. -/
abbrev rW : Rect S8x128x2048 := Rect.unit (s := S8x128x2048) ![0, 0, 0] S8x128x2048.size inb_S8x128x2048_S8x128x2048_0_0_0
/-- Row 12 of the block, and replacement row 0 of the table. -/
abbrev rR12 : Rect S8x128x2048 := Rect.unit (s := S8x128x2048) ![0, 12, 0] S8x1x2048.size inb_S8x128x2048_S8x1x2048_0_12_0
abbrev rU0 : Rect S7x8x2048 := Rect.unit (s := S7x8x2048) ![0, 0, 0] S1x8x2048.size inb_S7x8x2048_S1x8x2048_0_0_0
/-- Row 36 of the block, and replacement row 1 of the table. -/
abbrev rR36 : Rect S8x128x2048 := Rect.unit (s := S8x128x2048) ![0, 36, 0] S8x1x2048.size inb_S8x128x2048_S8x1x2048_0_36_0
abbrev rU1 : Rect S7x8x2048 := Rect.unit (s := S7x8x2048) ![1, 0, 0] S1x8x2048.size inb_S7x8x2048_S1x8x2048_1_0_0
/-- Row 104 of the block, and replacement row 2 of the table. -/
abbrev rR104 : Rect S8x128x2048 := Rect.unit (s := S8x128x2048) ![0, 104, 0] S8x1x2048.size inb_S8x128x2048_S8x1x2048_0_104_0
abbrev rU2 : Rect S7x8x2048 := Rect.unit (s := S7x8x2048) ![2, 0, 0] S1x8x2048.size inb_S7x8x2048_S1x8x2048_2_0_0
/-- Row 48 of the block, and replacement row 3 of the table. -/
abbrev rR48 : Rect S8x128x2048 := Rect.unit (s := S8x128x2048) ![0, 48, 0] S8x1x2048.size inb_S8x128x2048_S8x1x2048_0_48_0
abbrev rU3 : Rect S7x8x2048 := Rect.unit (s := S7x8x2048) ![3, 0, 0] S1x8x2048.size inb_S7x8x2048_S1x8x2048_3_0_0
/-- Row 120 of the block, and replacement row 4 of the table. -/
abbrev rR120 : Rect S8x128x2048 := Rect.unit (s := S8x128x2048) ![0, 120, 0] S8x1x2048.size inb_S8x128x2048_S8x1x2048_0_120_0
abbrev rU4 : Rect S7x8x2048 := Rect.unit (s := S7x8x2048) ![4, 0, 0] S1x8x2048.size inb_S7x8x2048_S1x8x2048_4_0_0
/-- Row 32 of the block, and replacement row 5 of the table. -/
abbrev rR32 : Rect S8x128x2048 := Rect.unit (s := S8x128x2048) ![0, 32, 0] S8x1x2048.size inb_S8x128x2048_S8x1x2048_0_32_0
abbrev rU5 : Rect S7x8x2048 := Rect.unit (s := S7x8x2048) ![5, 0, 0] S1x8x2048.size inb_S7x8x2048_S1x8x2048_5_0_0
/-- Row 16 of the block, and replacement row 6 of the table. -/
abbrev rR16 : Rect S8x128x2048 := Rect.unit (s := S8x128x2048) ![0, 16, 0] S8x1x2048.size inb_S8x128x2048_S8x1x2048_0_16_0
abbrev rU6 : Rect S7x8x2048 := Rect.unit (s := S7x8x2048) ![6, 0, 0] S1x8x2048.size inb_S7x8x2048_S1x8x2048_6_0_0

/-! ## What the body leaves in the output block, case by case (the stores, last first) -/

def outA (x0 : Vec F S8x128x2048 .f32) (x1 : Vec F S7x8x2048 .f32) : Vec F S8x128x2048 .f32 :=
  View.canon [⟨rR104, k0_pay3 (View.ld x1 rU2)⟩, ⟨rR36, k0_pay2 (View.ld x1 rU1)⟩, ⟨rR12, k0_pay1 (View.ld x1 rU0)⟩, ⟨rW, View.ld x0 rW⟩]

/-- The first store alone covers the block. -/
theorem coverA (p104 p36 p12 pW : _) (y : S8x128x2048.Idx) :
    ∃ pc ∈ ([⟨rR104, p104⟩, ⟨rR36, p36⟩, ⟨rR12, p12⟩, ⟨rW, pW⟩] : List (View.Piece (Elt F) S8x128x2048 .f32)), y ∈ pc.1.set :=
  View.cover_of_tiled _ S8x128x2048.size (by rfl) y

def outB (x0 : Vec F S8x128x2048 .f32) (x1 : Vec F S7x8x2048 .f32) : Vec F S8x128x2048 .f32 :=
  View.canon [⟨rR48, k0_pay4 (View.ld x1 rU3)⟩, ⟨rW, View.ld x0 rW⟩]

/-- The first store alone covers the block. -/
theorem coverB (p48 pW : _) (y : S8x128x2048.Idx) :
    ∃ pc ∈ ([⟨rR48, p48⟩, ⟨rW, pW⟩] : List (View.Piece (Elt F) S8x128x2048 .f32)), y ∈ pc.1.set :=
  View.cover_of_tiled _ S8x128x2048.size (by rfl) y

def outC (x0 : Vec F S8x128x2048 .f32) (x1 : Vec F S7x8x2048 .f32) : Vec F S8x128x2048 .f32 :=
  View.canon [⟨rR120, k0_pay5 (View.ld x1 rU4)⟩, ⟨rW, View.ld x0 rW⟩]

/-- The first store alone covers the block. -/
theorem coverC (p120 pW : _) (y : S8x128x2048.Idx) :
    ∃ pc ∈ ([⟨rR120, p120⟩, ⟨rW, pW⟩] : List (View.Piece (Elt F) S8x128x2048 .f32)), y ∈ pc.1.set :=
  View.cover_of_tiled _ S8x128x2048.size (by rfl) y

def outD (x0 : Vec F S8x128x2048 .f32) (x1 : Vec F S7x8x2048 .f32) : Vec F S8x128x2048 .f32 :=
  View.canon [⟨rR32, k0_pay6 (View.ld x1 rU5)⟩, ⟨rW, View.ld x0 rW⟩]

/-- The first store alone covers the block. -/
theorem coverD (p32 pW : _) (y : S8x128x2048.Idx) :
    ∃ pc ∈ ([⟨rR32, p32⟩, ⟨rW, pW⟩] : List (View.Piece (Elt F) S8x128x2048 .f32)), y ∈ pc.1.set :=
  View.cover_of_tiled _ S8x128x2048.size (by rfl) y

def outE (x0 : Vec F S8x128x2048 .f32) (x1 : Vec F S7x8x2048 .f32) : Vec F S8x128x2048 .f32 :=
  View.canon [⟨rR16, k0_pay7 (View.ld x1 rU6)⟩, ⟨rW, View.ld x0 rW⟩]

/-- The first store alone covers the block. -/
theorem coverE (p16 pW : _) (y : S8x128x2048.Idx) :
    ∃ pc ∈ ([⟨rR16, p16⟩, ⟨rW, pW⟩] : List (View.Piece (Elt F) S8x128x2048 .f32)), y ∈ pc.1.set :=
  View.cover_of_tiled _ S8x128x2048.size (by rfl) y

def outZ (x0 : Vec F S8x128x2048 .f32) (x1 : Vec F S7x8x2048 .f32) : Vec F S8x128x2048 .f32 :=
  View.canon [⟨rW, View.ld x0 rW⟩]

/-- The first store alone covers the block. -/
theorem coverZ (pW : _) (y : S8x128x2048.Idx) :
    ∃ pc ∈ ([⟨rW, pW⟩] : List (View.Piece (Elt F) S8x128x2048 .f32)), y ∈ pc.1.set :=
  View.cover_of_tiled _ S8x128x2048.size (by rfl) y

/-! ## The body's triple, case by case -/

set_option maxHeartbeats 4000000 in
/-- The test for block 0 holds and no other: the block is copied and its three rows are overwritten. -/
theorem sound_A (c : Dev nD) (E : Set ℕ) (i : grid0.Coords)
    (arg1 : Memref sig .tc .vmem S8x128x2048 .f32) (harg1 : arg1.IsWhole) (arg2 : Memref sig .tc .vmem S7x8x2048 .f32) (harg2 : arg2.IsWhole)
    (arg3 : Memref sig .tc .vmem S8x128x2048 .f32) (harg3 : arg3.IsWhole)
    (h0 : isBlock 0#32 i) (h2 : ¬isBlock 2#32 i) (h6 : ¬isBlock 6#32 i) (h20 : ¬isBlock 20#32 i) (h59 : ¬isBlock 59#32 i)
    (x0 : Vec F S8x128x2048 .f32) (x1 : Vec F S7x8x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outA x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec (disch := first | exact h0 | exact h2 | exact h6 | exact h20 | exact h59)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverA _ _ _ _ )

set_option maxHeartbeats 4000000 in
/-- The test for block 2 holds and no other: the block is copied and its row is overwritten. -/
theorem sound_B (c : Dev nD) (E : Set ℕ) (i : grid0.Coords)
    (arg1 : Memref sig .tc .vmem S8x128x2048 .f32) (harg1 : arg1.IsWhole) (arg2 : Memref sig .tc .vmem S7x8x2048 .f32) (harg2 : arg2.IsWhole)
    (arg3 : Memref sig .tc .vmem S8x128x2048 .f32) (harg3 : arg3.IsWhole)
    (h0 : ¬isBlock 0#32 i) (h2 : isBlock 2#32 i) (h6 : ¬isBlock 6#32 i) (h20 : ¬isBlock 20#32 i) (h59 : ¬isBlock 59#32 i)
    (x0 : Vec F S8x128x2048 .f32) (x1 : Vec F S7x8x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outB x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec (disch := first | exact h0 | exact h2 | exact h6 | exact h20 | exact h59)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverB _ _ )

set_option maxHeartbeats 4000000 in
/-- The test for block 6 holds and no other: the block is copied and its row is overwritten. -/
theorem sound_C (c : Dev nD) (E : Set ℕ) (i : grid0.Coords)
    (arg1 : Memref sig .tc .vmem S8x128x2048 .f32) (harg1 : arg1.IsWhole) (arg2 : Memref sig .tc .vmem S7x8x2048 .f32) (harg2 : arg2.IsWhole)
    (arg3 : Memref sig .tc .vmem S8x128x2048 .f32) (harg3 : arg3.IsWhole)
    (h0 : ¬isBlock 0#32 i) (h2 : ¬isBlock 2#32 i) (h6 : isBlock 6#32 i) (h20 : ¬isBlock 20#32 i) (h59 : ¬isBlock 59#32 i)
    (x0 : Vec F S8x128x2048 .f32) (x1 : Vec F S7x8x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outC x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec (disch := first | exact h0 | exact h2 | exact h6 | exact h20 | exact h59)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverC _ _ )

set_option maxHeartbeats 4000000 in
/-- The test for block 20 holds and no other: the block is copied and its row is overwritten. -/
theorem sound_D (c : Dev nD) (E : Set ℕ) (i : grid0.Coords)
    (arg1 : Memref sig .tc .vmem S8x128x2048 .f32) (harg1 : arg1.IsWhole) (arg2 : Memref sig .tc .vmem S7x8x2048 .f32) (harg2 : arg2.IsWhole)
    (arg3 : Memref sig .tc .vmem S8x128x2048 .f32) (harg3 : arg3.IsWhole)
    (h0 : ¬isBlock 0#32 i) (h2 : ¬isBlock 2#32 i) (h6 : ¬isBlock 6#32 i) (h20 : isBlock 20#32 i) (h59 : ¬isBlock 59#32 i)
    (x0 : Vec F S8x128x2048 .f32) (x1 : Vec F S7x8x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outD x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec (disch := first | exact h0 | exact h2 | exact h6 | exact h20 | exact h59)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverD _ _ )

set_option maxHeartbeats 4000000 in
/-- The test for block 59 holds and no other: the block is copied and its row is overwritten. -/
theorem sound_E (c : Dev nD) (E : Set ℕ) (i : grid0.Coords)
    (arg1 : Memref sig .tc .vmem S8x128x2048 .f32) (harg1 : arg1.IsWhole) (arg2 : Memref sig .tc .vmem S7x8x2048 .f32) (harg2 : arg2.IsWhole)
    (arg3 : Memref sig .tc .vmem S8x128x2048 .f32) (harg3 : arg3.IsWhole)
    (h0 : ¬isBlock 0#32 i) (h2 : ¬isBlock 2#32 i) (h6 : ¬isBlock 6#32 i) (h20 : ¬isBlock 20#32 i) (h59 : isBlock 59#32 i)
    (x0 : Vec F S8x128x2048 .f32) (x1 : Vec F S7x8x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outE x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec (disch := first | exact h0 | exact h2 | exact h6 | exact h20 | exact h59)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverE _ _ )

set_option maxHeartbeats 4000000 in
/-- No test holds: the block is copied. -/
theorem sound_Z (c : Dev nD) (E : Set ℕ) (i : grid0.Coords)
    (arg1 : Memref sig .tc .vmem S8x128x2048 .f32) (harg1 : arg1.IsWhole) (arg2 : Memref sig .tc .vmem S7x8x2048 .f32) (harg2 : arg2.IsWhole)
    (arg3 : Memref sig .tc .vmem S8x128x2048 .f32) (harg3 : arg3.IsWhole)
    (h0 : ¬isBlock 0#32 i) (h2 : ¬isBlock 2#32 i) (h6 : ¬isBlock 6#32 i) (h20 : ¬isBlock 20#32 i) (h59 : ¬isBlock 59#32 i)
    (x0 : Vec F S8x128x2048 .f32) (x1 : Vec F S7x8x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outZ x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec (disch := first | exact h0 | exact h2 | exact h6 | exact h20 | exact h59)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverZ _ )

end Cert.KernelIdeal.Gen

end
-- ==== Proof.KIHost.lean ====
/-
  The host operations that run before the kernel is launched, read as one fold.

  The entry function first computes, in plain array operations, the seven replacement rows (a recurrence over
  ten rows of x) and stacks them into one table; only then does it launch the copy-and-overwrite kernel on x
  and that table.  The contents of every buffer at the launch are the fold of those operations over the
  contents at entry.  The operations come in fifteen consecutive stretches; each buffer is written by exactly
  one operation, so a buffer that a stretch does not write passes through it unchanged.  For every stretch the
  list of the buffers it writes is recorded here, which turns "this buffer is not touched by that stretch"
  into a finite membership check.  In particular no stretch writes an argument of the entry function.
-/
import proofs.«134958_j16810501996613_1_alg».proof.Proof.Gen.KernelIdeal.Launch
import proofs.«134958_j16810501996613_1_alg».proof.Proof.LibHostKeep
import Idealize.ShloMosaic.Lib.Pipeline.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Cert.Lib.HostKeep

variable {F : FTy → Type} [FloatOps F]

local notation "𝕄" => MT nD τ sig Unit (Elt F) ℕ (UR sig nD τ) ℕ

variable (m : (ℓ : Loc nD τ sig) → Buf (Elt F) ℓ)

/-- Core `c`'s buffers when the kernel is launched: after all fifteen stretches. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor

/-- The entry function is those stretches and then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh⟩) main_chain

/-! ## What each stretch writes -/

/-- The buffers stretch 0 writes, in order. -/
abbrev wr0 : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_cst, main_v58, main_v59, main_cst_0, main_v60, main_v61, main_v62, main_cst_1, main_v63, main_v64, main_v65, main_v66, main_cst_2, main_v67, main_v68, main_cst_3, main_v69, main_v70, main_c]
theorem hwr0 : (hostOps0 : List (HloOp τ sig (Elt F))).Forall fun op => op.writes ⊆ ((wr0).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))))))))))))))))))))))))))))))))))))))))))))))))))))))))
/-- A buffer stretch 0 does not write passes through it. -/
theorem keep0 (W : Valuation τ sig (Elt F)) {r : Ref sig .tc} (hr : r ∉ wr0) :
    StableHlo.after (hostOps0 : List (HloOp τ sig (Elt F))) W (Proc.devRef .tc r) = W (Proc.devRef .tc r) :=
  StableHlo.after_of_writes_sub _ _ hwr0 hr

/-- The buffers stretch 1 writes, in order. -/
abbrev wr1 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v71]
theorem hwr1 : (hostOps0_1 : List (HloOp τ sig (Elt F))).Forall fun op => op.writes ⊆ ((wr1).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))
/-- A buffer stretch 1 does not write passes through it. -/
theorem keep1 (W : Valuation τ sig (Elt F)) {r : Ref sig .tc} (hr : r ∉ wr1) :
    StableHlo.after (hostOps0_1 : List (HloOp τ sig (Elt F))) W (Proc.devRef .tc r) = W (Proc.devRef .tc r) :=
  StableHlo.after_of_writes_sub _ _ hwr1 hr

/-- The buffers stretch 2 writes, in order. -/
abbrev wr2 : List (Ref sig .tc) := [main_v72, main_v73, main_cst_4, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_cst_5, main_v122, main_v123, main_cst_6, main_v124, main_v125, main_v126, main_cst_7, main_v127, main_v128, main_v129, main_v130, main_cst_8, main_v131, main_v132, main_cst_9, main_v133, main_v134, main_c_10]
theorem hwr2 : (hostOps0_2 : List (HloOp τ sig (Elt F))).Forall fun op => op.writes ⊆ ((wr2).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil))))))))))))))))))))))))))))))))))))))))))))))))))))))))))))))))))))))
/-- A buffer stretch 2 does not write passes through it. -/
theorem keep2 (W : Valuation τ sig (Elt F)) {r : Ref sig .tc} (hr : r ∉ wr2) :
    StableHlo.after (hostOps0_2 : List (HloOp τ sig (Elt F))) W (Proc.devRef .tc r) = W (Proc.devRef .tc r) :=
  StableHlo.after_of_writes_sub _ _ hwr2 hr

/-- The buffers stretch 3 writes, in order. -/
abbrev wr3 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v135]
theorem hwr3 : (hostOps0_3 : List (HloOp τ sig (Elt F))).Forall fun op => op.writes ⊆ ((wr3).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))
/-- A buffer stretch 3 does not write passes through it. -/
theorem keep3 (W : Valuation τ sig (Elt F)) {r : Ref sig .tc} (hr : r ∉ wr3) :
    StableHlo.after (hostOps0_3 : List (HloOp τ sig (Elt F))) W (Proc.devRef .tc r) = W (Proc.devRef .tc r) :=
  StableHlo.after_of_writes_sub _ _ hwr3 hr

/-- The buffers stretch 4 writes, in order. -/
abbrev wr4 : List (Ref sig .tc) := [main_v136, main_v137, main_cst_11, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_cst_12, main_v186, main_v187, main_cst_13, main_v188, main_v189, main_v190, main_cst_14, main_v191, main_v192, main_v193, main_v194, main_cst_15, main_v195, main_v196, main_cst_16, main_v197, main_v198, main_c_17]
theorem hwr4 : (hostOps0_4 : List (HloOp τ sig (Elt F))).Forall fun op => op.writes ⊆ ((wr4).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil))))))))))))))))))))))))))))))))))))))))))))))))))))))))))))))))))))))
/-- A buffer stretch 4 does not write passes through it. -/
theorem keep4 (W : Valuation τ sig (Elt F)) {r : Ref sig .tc} (hr : r ∉ wr4) :
    StableHlo.after (hostOps0_4 : List (HloOp τ sig (Elt F))) W (Proc.devRef .tc r) = W (Proc.devRef .tc r) :=
  StableHlo.after_of_writes_sub _ _ hwr4 hr

/-- The buffers stretch 5 writes, in order. -/
abbrev wr5 : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v199]
theorem hwr5 : (hostOps0_5 : List (HloOp τ sig (Elt F))).Forall fun op => op.writes ⊆ ((wr5).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))
/-- A buffer stretch 5 does not write passes through it. -/
theorem keep5 (W : Valuation τ sig (Elt F)) {r : Ref sig .tc} (hr : r ∉ wr5) :
    StableHlo.after (hostOps0_5 : List (HloOp τ sig (Elt F))) W (Proc.devRef .tc r) = W (Proc.devRef .tc r) :=
  StableHlo.after_of_writes_sub _ _ hwr5 hr

/-- The buffers stretch 6 writes, in order. -/
abbrev wr6 : List (Ref sig .tc) := [main_v200, main_v201, main_cst_18, main_v202, main_v203, main_v204, main_v205, main_v206, main_v207, main_v208, main_v209, main_v210, main_v211, main_v212, main_v213, main_v214, main_v215, main_v216, main_v217, main_v218, main_v219, main_v220, main_v221, main_v222, main_v223, main_v224, main_v225, main_v226, main_v227, main_v228, main_v229, main_v230, main_v231, main_v232, main_v233, main_v234, main_v235, main_v236, main_v237, main_v238, main_v239, main_v240, main_v241, main_v242, main_v243, main_v244, main_v245, main_v246, main_v247, main_v248, main_v249, main_cst_19, main_v250, main_v251, main_cst_20, main_v252, main_v253, main_v254, main_cst_21, main_v255, main_v256, main_v257, main_v258, main_cst_22, main_v259, main_v260, main_cst_23, main_v261, main_v262, main_c_24]
theorem hwr6 : (hostOps0_6 : List (HloOp τ sig (Elt F))).Forall fun op => op.writes ⊆ ((wr6).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil))))))))))))))))))))))))))))))))))))))))))))))))))))))))))))))))))))))
/-- A buffer stretch 6 does not write passes through it. -/
theorem keep6 (W : Valuation τ sig (Elt F)) {r : Ref sig .tc} (hr : r ∉ wr6) :
    StableHlo.after (hostOps0_6 : List (HloOp τ sig (Elt F))) W (Proc.devRef .tc r) = W (Proc.devRef .tc r) :=
  StableHlo.after_of_writes_sub _ _ hwr6 hr

/-- The buffers stretch 7 writes, in order. -/
abbrev wr7 : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v263]
theorem hwr7 : (hostOps0_7 : List (HloOp τ sig (Elt F))).Forall fun op => op.writes ⊆ ((wr7).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))
/-- A buffer stretch 7 does not write passes through it. -/
theorem keep7 (W : Valuation τ sig (Elt F)) {r : Ref sig .tc} (hr : r ∉ wr7) :
    StableHlo.after (hostOps0_7 : List (HloOp τ sig (Elt F))) W (Proc.devRef .tc r) = W (Proc.devRef .tc r) :=
  StableHlo.after_of_writes_sub _ _ hwr7 hr

/-- The buffers stretch 8 writes, in order. -/
abbrev wr8 : List (Ref sig .tc) := [main_v264, main_v265, main_cst_25, main_v266, main_v267, main_v268, main_v269, main_v270, main_v271, main_v272, main_v273, main_v274, main_v275, main_v276, main_v277, main_v278, main_v279, main_v280, main_v281, main_v282, main_v283, main_v284, main_v285, main_v286, main_v287, main_v288, main_v289, main_v290, main_v291, main_v292, main_v293, main_v294, main_v295, main_v296, main_v297, main_v298, main_v299, main_v300, main_v301, main_v302, main_v303, main_v304, main_v305, main_v306, main_v307, main_v308, main_v309, main_v310, main_v311, main_v312, main_v313, main_cst_26, main_v314, main_v315, main_cst_27, main_v316, main_v317, main_v318, main_cst_28, main_v319, main_v320, main_v321, main_v322, main_cst_29, main_v323, main_v324, main_cst_30, main_v325, main_v326, main_c_31]
theorem hwr8 : (hostOps0_8 : List (HloOp τ sig (Elt F))).Forall fun op => op.writes ⊆ ((wr8).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil))))))))))))))))))))))))))))))))))))))))))))))))))))))))))))))))))))))
/-- A buffer stretch 8 does not write passes through it. -/
theorem keep8 (W : Valuation τ sig (Elt F)) {r : Ref sig .tc} (hr : r ∉ wr8) :
    StableHlo.after (hostOps0_8 : List (HloOp τ sig (Elt F))) W (Proc.devRef .tc r) = W (Proc.devRef .tc r) :=
  StableHlo.after_of_writes_sub _ _ hwr8 hr

/-- The buffers stretch 9 writes, in order. -/
abbrev wr9 : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v327]
theorem hwr9 : (hostOps0_9 : List (HloOp τ sig (Elt F))).Forall fun op => op.writes ⊆ ((wr9).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))
/-- A buffer stretch 9 does not write passes through it. -/
theorem keep9 (W : Valuation τ sig (Elt F)) {r : Ref sig .tc} (hr : r ∉ wr9) :
    StableHlo.after (hostOps0_9 : List (HloOp τ sig (Elt F))) W (Proc.devRef .tc r) = W (Proc.devRef .tc r) :=
  StableHlo.after_of_writes_sub _ _ hwr9 hr

/-- The buffers stretch 10 writes, in order. -/
abbrev wr10 : List (Ref sig .tc) := [main_v328, main_v329, main_cst_32, main_v330, main_v331, main_v332, main_v333, main_v334, main_v335, main_v336, main_v337, main_v338, main_v339, main_v340, main_v341, main_v342, main_v343, main_v344, main_v345, main_v346, main_v347, main_v348, main_v349, main_v350, main_v351, main_v352, main_v353, main_v354, main_v355, main_v356, main_v357, main_v358, main_v359, main_v360, main_v361, main_v362, main_v363, main_v364, main_v365, main_v366, main_v367, main_v368, main_v369, main_v370, main_v371, main_v372, main_v373, main_v374, main_v375, main_v376, main_v377, main_cst_33, main_v378, main_v379, main_cst_34, main_v380, main_v381, main_v382, main_cst_35, main_v383, main_v384, main_v385, main_v386, main_cst_36, main_v387, main_v388, main_cst_37, main_v389, main_v390, main_c_38]
theorem hwr10 : (hostOps0_10 : List (HloOp τ sig (Elt F))).Forall fun op => op.writes ⊆ ((wr10).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil))))))))))))))))))))))))))))))))))))))))))))))))))))))))))))))))))))))
/-- A buffer stretch 10 does not write passes through it. -/
theorem keep10 (W : Valuation τ sig (Elt F)) {r : Ref sig .tc} (hr : r ∉ wr10) :
    StableHlo.after (hostOps0_10 : List (HloOp τ sig (Elt F))) W (Proc.devRef .tc r) = W (Proc.devRef .tc r) :=
  StableHlo.after_of_writes_sub _ _ hwr10 hr

/-- The buffers stretch 11 writes, in order. -/
abbrev wr11 : List (Ref sig .tc) := [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v391]
theorem hwr11 : (hostOps0_11 : List (HloOp τ sig (Elt F))).Forall fun op => op.writes ⊆ ((wr11).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))
/-- A buffer stretch 11 does not write passes through it. -/
theorem keep11 (W : Valuation τ sig (Elt F)) {r : Ref sig .tc} (hr : r ∉ wr11) :
    StableHlo.after (hostOps0_11 : List (HloOp τ sig (Elt F))) W (Proc.devRef .tc r) = W (Proc.devRef .tc r) :=
  StableHlo.after_of_writes_sub _ _ hwr11 hr

/-- The buffers stretch 12 writes, in order. -/
abbrev wr12 : List (Ref sig .tc) := [main_v392, main_v393, main_cst_39, main_v394, main_v395, main_v396, main_v397, main_v398, main_v399, main_v400, main_v401, main_v402, main_v403, main_v404, main_v405, main_v406, main_v407, main_v408, main_v409, main_v410, main_v411, main_v412, main_v413, main_v414, main_v415, main_v416, main_v417, main_v418, main_v419, main_v420, main_v421, main_v422, main_v423, main_v424, main_v425, main_v426, main_v427, main_v428, main_v429, main_v430, main_v431, main_v432, main_v433, main_v434, main_v435, main_v436, main_v437, main_v438, main_v439, main_v440, main_v441, main_cst_40, main_v442, main_v443, main_cst_41, main_v444, main_v445, main_v446, main_cst_42, main_v447, main_v448, main_v449, main_v450, main_cst_43, main_v451, main_v452, main_cst_44, main_v453, main_v454, main_c_45]
theorem hwr12 : (hostOps0_12 : List (HloOp τ sig (Elt F))).Forall fun op => op.writes ⊆ ((wr12).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil))))))))))))))))))))))))))))))))))))))))))))))))))))))))))))))))))))))
/-- A buffer stretch 12 does not write passes through it. -/
theorem keep12 (W : Valuation τ sig (Elt F)) {r : Ref sig .tc} (hr : r ∉ wr12) :
    StableHlo.after (hostOps0_12 : List (HloOp τ sig (Elt F))) W (Proc.devRef .tc r) = W (Proc.devRef .tc r) :=
  StableHlo.after_of_writes_sub _ _ hwr12 hr

/-- The buffers stretch 13 writes, in order. -/
abbrev wr13 : List (Ref sig .tc) := [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_v12, main_call6_cst_3, main_call6_v13, main_call6_cst_4, main_call6_call0_v0, main_call6_call0_v1, main_v455]
theorem hwr13 : (hostOps0_13 : List (HloOp τ sig (Elt F))).Forall fun op => op.writes ⊆ ((wr13).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))
/-- A buffer stretch 13 does not write passes through it. -/
theorem keep13 (W : Valuation τ sig (Elt F)) {r : Ref sig .tc} (hr : r ∉ wr13) :
    StableHlo.after (hostOps0_13 : List (HloOp τ sig (Elt F))) W (Proc.devRef .tc r) = W (Proc.devRef .tc r) :=
  StableHlo.after_of_writes_sub _ _ hwr13 hr

/-- The buffers stretch 14 writes, in order. -/
abbrev wr14 : List (Ref sig .tc) := [main_v456, main_v457, main_cst_46, main_v458, main_v459, main_v460, main_v461, main_v462, main_v463, main_v464, main_v465, main_v466, main_v467, main_v468, main_v469, main_v470, main_v471, main_v472, main_v473, main_v474, main_v475, main_v476]
theorem hwr14 : (hostOps0_14 : List (HloOp τ sig (Elt F))).Forall fun op => op.writes ⊆ ((wr14).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil))))))))))))))))))))))
/-- A buffer stretch 14 does not write passes through it. -/
theorem keep14 (W : Valuation τ sig (Elt F)) {r : Ref sig .tc} (hr : r ∉ wr14) :
    StableHlo.after (hostOps0_14 : List (HloOp τ sig (Elt F))) W (Proc.devRef .tc r) = W (Proc.devRef .tc r) :=
  StableHlo.after_of_writes_sub _ _ hwr14 hr

/-- The launch contents as the stretches applied one after the other. -/
theorem V_eq (c : Dev nD) (b : Ref sig .tc) : V m c b =
    StableHlo.after hostOps0_14 (StableHlo.after hostOps0_13 (StableHlo.after hostOps0_12 (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 ((fun b => m (c, b))))))))))))))))) (Proc.devRef .tc b) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) (Proc.devRef .tc b) = _
  simp only [List.flatten_cons, List.flatten_nil, List.append_nil, StableHlo.after_append]

/-- A buffer no stretch writes is found at the launch as it was at entry. -/
theorem V_keep (c : Dev nD) (r : Ref sig .tc) (h0 : r ∉ wr0) (h1 : r ∉ wr1) (h2 : r ∉ wr2) (h3 : r ∉ wr3) (h4 : r ∉ wr4) (h5 : r ∉ wr5) (h6 : r ∉ wr6) (h7 : r ∉ wr7) (h8 : r ∉ wr8) (h9 : r ∉ wr9) (h10 : r ∉ wr10) (h11 : r ∉ wr11) (h12 : r ∉ wr12) (h13 : r ∉ wr13) (h14 : r ∉ wr14) :
    V m c r = m ((c : Thread nD τ).loc r) := by
  rw [V_eq, keep14 _ h14, keep13 _ h13, keep12 _ h12, keep11 _ h11, keep10 _ h10, keep9 _ h9, keep8 _ h8, keep7 _ h7, keep6 _ h6, keep5 _ h5, keep4 _ h4, keep3 _ h3, keep2 _ h2, keep1 _ h1, keep0 _ h0]

theorem V_main_arg0 (c : Dev nD) : V m c main_arg0 = m ((c : Thread nD τ).loc main_arg0) :=
  V_keep m c main_arg0 (by decide) (by decide) (by decide) (by decide) (by decide) (by decide) (by decide) (by decide) (by decide) (by decide) (by decide) (by decide) (by decide) (by decide) (by decide)
theorem V_main_arg1 (c : Dev nD) : V m c main_arg1 = m ((c : Thread nD τ).loc main_arg1) :=
  V_keep m c main_arg1 (by decide) (by decide) (by decide) (by decide) (by decide) (by decide) (by decide) (by decide) (by decide) (by decide) (by decide) (by decide) (by decide) (by decide) (by decide)
theorem V_main_arg2 (c : Dev nD) : V m c main_arg2 = m ((c : Thread nD τ).loc main_arg2) :=
  V_keep m c main_arg2 (by decide) (by decide) (by decide) (by decide) (by decide) (by decide) (by decide) (by decide) (by decide) (by decide) (by decide) (by decide) (by decide) (by decide) (by decide)
theorem V_main_arg3 (c : Dev nD) : V m c main_arg3 = m ((c : Thread nD τ).loc main_arg3) :=
  V_keep m c main_arg3 (by decide) (by decide) (by decide) (by decide) (by decide) (by decide) (by decide) (by decide) (by decide) (by decide) (by decide) (by decide) (by decide) (by decide) (by decide)
theorem V_main_arg4 (c : Dev nD) : V m c main_arg4 = m ((c : Thread nD τ).loc main_arg4) :=
  V_keep m c main_arg4 (by decide) (by decide) (by decide) (by decide) (by decide) (by decide) (by decide) (by decide) (by decide) (by decide) (by decide) (by decide) (by decide) (by decide) (by decide)
theorem V_main_arg5 (c : Dev nD) : V m c main_arg5 = m ((c : Thread nD τ).loc main_arg5) :=
  V_keep m c main_arg5 (by decide) (by decide) (by decide) (by decide) (by decide) (by decide) (by decide) (by decide) (by decide) (by decide) (by decide) (by decide) (by decide) (by decide) (by decide)
theorem V_main_arg6 (c : Dev nD) : V m c main_arg6 = m ((c : Thread nD τ).loc main_arg6) :=
  V_keep m c main_arg6 (by decide) (by decide) (by decide) (by decide) (by decide) (by decide) (by decide) (by decide) (by decide) (by decide) (by decide) (by decide) (by decide) (by decide) (by decide)
theorem V_main_arg7 (c : Dev nD) : V m c main_arg7 = m ((c : Thread nD τ).loc main_arg7) :=
  V_keep m c main_arg7 (by decide) (by decide) (by decide) (by decide) (by decide) (by decide) (by decide) (by decide) (by decide) (by decide) (by decide) (by decide) (by decide) (by decide) (by decide)
theorem V_main_arg8 (c : Dev nD) : V m c main_arg8 = m ((c : Thread nD τ).loc main_arg8) :=
  V_keep m c main_arg8 (by decide) (by decide) (by decide) (by decide) (by decide) (by decide) (by decide) (by decide) (by decide) (by decide) (by decide) (by decide) (by decide) (by decide) (by decide)
theorem V_main_arg9 (c : Dev nD) : V m c main_arg9 = m ((c : Thread nD τ).loc main_arg9) :=
  V_keep m c main_arg9 (by decide) (by decide) (by decide) (by decide) (by decide) (by decide) (by decide) (by decide) (by decide) (by decide) (by decide) (by decide) (by decide) (by decide) (by decide)
theorem V_main_arg10 (c : Dev nD) : V m c main_arg10 = m ((c : Thread nD τ).loc main_arg10) :=
  V_keep m c main_arg10 (by decide) (by decide) (by decide) (by decide) (by decide) (by decide) (by decide) (by decide) (by decide) (by decide) (by decide) (by decide) (by decide) (by decide) (by decide)
theorem V_main_arg11 (c : Dev nD) : V m c main_arg11 = m ((c : Thread nD τ).loc main_arg11) :=
  V_keep m c main_arg11 (by decide) (by decide) (by decide) (by decide) (by decide) (by decide) (by decide) (by decide) (by decide) (by decide) (by decide) (by decide) (by decide) (by decide) (by decide)
theorem V_main_arg12 (c : Dev nD) : V m c main_arg12 = m ((c : Thread nD τ).loc main_arg12) :=
  V_keep m c main_arg12 (by decide) (by decide) (by decide) (by decide) (by decide) (by decide) (by decide) (by decide) (by decide) (by decide) (by decide) (by decide) (by decide) (by decide) (by decide)
theorem V_main_arg13 (c : Dev nD) : V m c main_arg13 = m ((c : Thread nD τ).loc main_arg13) :=
  V_keep m c main_arg13 (by decide) (by decide) (by decide) (by decide) (by decide) (by decide) (by decide) (by decide) (by decide) (by decide) (by decide) (by decide) (by decide) (by decide) (by decide)

end Cert.KernelIdeal.Gen

end
-- ==== Proof.KIFrame.lean ====
/-
  The launch run as a whole: every execution of the entry function terminates without fault, the arguments end
  as they began, and the output array ends block by block at what the body leaves.

  The proof data name, for each grid point, what each staged buffer holds after the body: the two inputs their
  blocks (the body only reads them), the output block the copy of x's block with the point's replacement rows
  laid over it.  The output's buffer is read by the body before it is overwritten, but nothing of what is read
  survives (the first store covers the block), so whatever it held before the body does not matter.  Which case
  a point is in is decided from its number: 0, 2, 6, 20, 59, or none of these.
-/
import proofs.«134958_j16810501996613_1_alg».proof.Proof.KIBody
import proofs.«134958_j16810501996613_1_alg».proof.Proof.KIHost

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point, fetched there or not, when the body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the output block holds after the body at a point -/

def outAt (c : Dev nD) (t : Fin cfg0.N) : Vec F S8x128x2048 .f32 :=
  if t.val = 0 then outA (iblk m c 0 t) (iblk m c 1 t)
  else if t.val = 2 then outB (iblk m c 0 t) (iblk m c 1 t)
  else if t.val = 6 then outC (iblk m c 0 t) (iblk m c 1 t)
  else if t.val = 20 then outD (iblk m c 0 t) (iblk m c 1 t)
  else if t.val = 59 then outE (iblk m c 0 t) (iblk m c 1 t)
  else outZ (iblk m c 0 t) (iblk m c 1 t)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 4000000 in
/-- The body at any point: the inputs' buffers hold their blocks; the point's number says which case it is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  by_cases e0 : t.val = 0
  ·
    have eo : outAt m c t = outA (iblk m c 0 t) (iblk m c 1 t) := by unfold outAt; rw [if_pos e0]
    rw [eo]
    iintro ⟨HΦ, Ho, ⟨%d0, H0⟩, ⟨%d1, H1⟩, ⟨%d2, H2⟩⟩
    iapply (sound_A c Set.univ (grid0.coords t) _ _ _ _ _ _ ((isBlock_0 t).mpr e0) (fun h => by have := (isBlock_2 t).mp h; omega) (fun h => by have := (isBlock_6 t).mp h; omega) (fun h => by have := (isBlock_20 t).mp h; omega) (fun h => by have := (isBlock_59 t).mp h; omega) (iblk m c 0 t) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  by_cases e2 : t.val = 2
  ·
    have eo : outAt m c t = outB (iblk m c 0 t) (iblk m c 1 t) := by unfold outAt; rw [if_neg e0, if_pos e2]
    rw [eo]
    iintro ⟨HΦ, Ho, ⟨%d0, H0⟩, ⟨%d1, H1⟩, ⟨%d2, H2⟩⟩
    iapply (sound_B c Set.univ (grid0.coords t) _ _ _ _ _ _ (fun h => by have := (isBlock_0 t).mp h; omega) ((isBlock_2 t).mpr e2) (fun h => by have := (isBlock_6 t).mp h; omega) (fun h => by have := (isBlock_20 t).mp h; omega) (fun h => by have := (isBlock_59 t).mp h; omega) (iblk m c 0 t) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  by_cases e6 : t.val = 6
  ·
    have eo : outAt m c t = outC (iblk m c 0 t) (iblk m c 1 t) := by unfold outAt; rw [if_neg e0, if_neg e2, if_pos e6]
    rw [eo]
    iintro ⟨HΦ, Ho, ⟨%d0, H0⟩, ⟨%d1, H1⟩, ⟨%d2, H2⟩⟩
    iapply (sound_C c Set.univ (grid0.coords t) _ _ _ _ _ _ (fun h => by have := (isBlock_0 t).mp h; omega) (fun h => by have := (isBlock_2 t).mp h; omega) ((isBlock_6 t).mpr e6) (fun h => by have := (isBlock_20 t).mp h; omega) (fun h => by have := (isBlock_59 t).mp h; omega) (iblk m c 0 t) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  by_cases e20 : t.val = 20
  ·
    have eo : outAt m c t = outD (iblk m c 0 t) (iblk m c 1 t) := by unfold outAt; rw [if_neg e0, if_neg e2, if_neg e6, if_pos e20]
    rw [eo]
    iintro ⟨HΦ, Ho, ⟨%d0, H0⟩, ⟨%d1, H1⟩, ⟨%d2, H2⟩⟩
    iapply (sound_D c Set.univ (grid0.coords t) _ _ _ _ _ _ (fun h => by have := (isBlock_0 t).mp h; omega) (fun h => by have := (isBlock_2 t).mp h; omega) (fun h => by have := (isBlock_6 t).mp h; omega) ((isBlock_20 t).mpr e20) (fun h => by have := (isBlock_59 t).mp h; omega) (iblk m c 0 t) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  by_cases e59 : t.val = 59
  ·
    have eo : outAt m c t = outE (iblk m c 0 t) (iblk m c 1 t) := by unfold outAt; rw [if_neg e0, if_neg e2, if_neg e6, if_neg e20, if_pos e59]
    rw [eo]
    iintro ⟨HΦ, Ho, ⟨%d0, H0⟩, ⟨%d1, H1⟩, ⟨%d2, H2⟩⟩
    iapply (sound_E c Set.univ (grid0.coords t) _ _ _ _ _ _ (fun h => by have := (isBlock_0 t).mp h; omega) (fun h => by have := (isBlock_2 t).mp h; omega) (fun h => by have := (isBlock_6 t).mp h; omega) (fun h => by have := (isBlock_20 t).mp h; omega) ((isBlock_59 t).mpr e59) (iblk m c 0 t) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  have eo : outAt m c t = outZ (iblk m c 0 t) (iblk m c 1 t) := by unfold outAt; rw [if_neg e0, if_neg e2, if_neg e6, if_neg e20, if_neg e59]
  rw [eo]
  iintro ⟨HΦ, Ho, ⟨%d0, H0⟩, ⟨%d1, H1⟩, ⟨%d2, H2⟩⟩
  iapply (sound_Z c Set.univ (grid0.coords t) _ _ _ _ _ _ (fun h => by have := (isBlock_0 t).mp h; omega) (fun h => by have := (isBlock_2 t).mp h; omega) (fun h => by have := (isBlock_6 t).mp h; omega) (fun h => by have := (isBlock_20 t).mp h; omega) (fun h => by have := (isBlock_59 t).mp h; omega) (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every execution of the entry function terminates, and every final state has each staged array at what the
    library computes from the proof data and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they began: x is a staged input the body only reads, the thirteen parameter arrays are staged
    by no window, and no host operation writes any of the fourteen. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) (run_main m ρ)

end Cert.KernelIdeal.Gen

end
-- ==== Proof.LibCanonUnit.lean ====
/-
  The canonical contents a list of stores leaves, read under and off the newest store, when that store goes
  through a unit-stride rectangle: inside the rectangle the store's payload at the index minus the offsets,
  outside it whatever the earlier stores left.
-/
import Idealize.ShloMosaic.Lib.Pipeline.FrameBody

noncomputable section

namespace Cert.Lib.CanonUnit

open Idealize.ShloMosaic

variable {Val : EltTy → Type} [∀ e, Nonempty (Val e)] {s : Shape} {e : EltTy}

/-- An index at position `x` of the newest store's rectangle reads that store's payload at `x`. -/
theorem canon_cons_unit_of_mem {off size : Fin s.rank → Nat} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]; exact View.canon_cons_emb _ w L x

/-- An index that misses the newest store's rectangle on axis `a` reads what the earlier stores left. -/
theorem canon_cons_unit_of_not_mem {off size : Fin s.rank → Nat} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y :=
  View.canon_cons_of_not_mem _ L (by
    show y ∉ (Rect.unit off size inb).set
    rw [Rect.mem_set_unit]; intro hall; have := hall a; omega)

end Cert.Lib.CanonUnit

end
-- ==== Proof.LibScatterSet.lean ====
/-
  Writing one row into a three-axis array by a scatter.

  The array update  h.at[:, p, :].set(v)  lowers to a scatter with ONE scatter index: the operand is
  [B, N, C], the scatter indices are the one number p, the update is [B, C]; update element (b, c) lands at
  (b, p, c).  The host's scatter is a left fold over the update's elements in row-major order, each step
  replacing one element of the result.  Distinct update elements land at distinct places, so the order does
  not matter and the fold reads at an index directly: at (b, p, c) it holds the update's (b, c), anywhere else
  the operand's element.
-/
import Idealize.ShloMosaic.PureOps.ShapeOps
import Idealize.ShloMosaic.Lib.ValueIdx
import Idealize.ShloMosaic.Lib.Pipeline.Value

noncomputable section

namespace Cert.Lib.ScatterSet

open Idealize.ShloMosaic Idealize.ShloMosaic.ValueIdx

/-! ## A scatter whose updates land at distinct places, read at an index -/

section Fold

variable {α : Type} {s si u : Shape} {w : Nat} (d : ScatterDims s si u) (idx : IVec si w) (upd : u.Idx → α)
  (g : u.Idx → s.Idx)

/-- One step of the fold when update `n` lands at `g n`. -/
def step (r : s.Idx → α) (n : Fin u.numel) : s.Idx → α :=
  fun i' => if i' = g (u.rowMajor.symm n) then upd (u.rowMajor.symm n) else r i'

theorem fold_miss (L : List (Fin u.numel)) (r0 : s.Idx → α) (i' : s.Idx)
    (h : ∀ n ∈ L, g (u.rowMajor.symm n) ≠ i') : (L.foldl (step upd g) r0) i' = r0 i' := by
  induction L generalizing r0 with
  | nil => rfl
  | cons n L ih =>
    rw [List.foldl_cons, ih _ (fun k hk => h k (List.mem_cons_of_mem _ hk))]
    unfold step
    rw [if_neg (fun e => h n List.mem_cons_self e.symm)]

theorem fold_hit (hg : Function.Injective g) (L : List (Fin u.numel)) (hL : L.Nodup) (r0 : s.Idx → α) (n : Fin u.numel)
    (hn : n ∈ L) : (L.foldl (step upd g) r0) (g (u.rowMajor.symm n)) = upd (u.rowMajor.symm n) := by
  induction L generalizing r0 with
  | nil => exact absurd hn List.not_mem_nil
  | cons k L ih =>
    rw [List.foldl_cons]
    rcases List.mem_cons.mp hn with rfl | hn'
    · rw [fold_miss upd g L _ _ (fun k hk e => by
        have hk' : k = n := u.rowMajor.symm.injective (hg e)
        subst hk'
        exact (List.nodup_cons.mp hL).1 hk)]
      unfold step
      rw [if_pos rfl]
    · exact ih (List.nodup_cons.mp hL).2 _ hn'

/-- The host's scatter with the body "take the update", when update `j` lands at `g j` for an injective `g`. -/
theorem scatter_eq_fold (x : s.Idx → α) (hres : ∀ j, d.resultIdx? j idx = some (g j)) :
    Host.scatter d (fun _ b => b) x idx upd = (List.finRange u.numel).foldl (step upd g) x := by
  unfold Host.scatter
  congr 1
  funext r n
  rw [hres]
  rfl

theorem scatter_hit (x : s.Idx → α) (hg : Function.Injective g) (hres : ∀ j, d.resultIdx? j idx = some (g j)) (j : u.Idx) :
    Host.scatter d (fun _ b => b) x idx upd (g j) = upd j := by
  rw [scatter_eq_fold d idx upd g x hres]
  have := fold_hit upd g hg (List.finRange u.numel) (List.nodup_finRange _) x (u.rowMajor j) (List.mem_finRange _)
  rwa [Equiv.symm_apply_apply] at this

theorem scatter_miss (x : s.Idx → α) (hres : ∀ j, d.resultIdx? j idx = some (g j)) (i' : s.Idx) (h : ∀ j, g j ≠ i') :
    Host.scatter d (fun _ b => b) x idx upd i' = x i' := by
  rw [scatter_eq_fold d idx upd g x hres]
  exact fold_miss upd g _ x i' (fun n _ => h _)

end Fold

/-! ## The dimension numbers of "set row p" -/

/-- Operand [B, N, C], one scatter index, update [B, C]: the update's two axes are window axes, the operand's
    middle axis is the inserted one the index addresses. -/
abbrev rowSetDims (B N C : Nat) (wf : ScatterDims.WF ⟨3, ![B, N, C]⟩ ⟨1, ![1]⟩ ⟨2, ![B, C]⟩ [0, 1] [1] [1] 0) :
    ScatterDims ⟨3, ![B, N, C]⟩ ⟨1, ![1]⟩ ⟨2, ![B, C]⟩ where
  updateWindowDims := [0, 1]
  insertedWindowDims := [1]
  scatterDimsToOperandDims := [1]
  indexVectorDim := 0
  wf := wf

section RowSet

variable {B N C w : Nat} (wf : ScatterDims.WF ⟨3, ![B, N, C]⟩ ⟨1, ![1]⟩ ⟨2, ![B, C]⟩ [0, 1] [1] [1] 0)
  (idx : IVec ⟨1, ![1]⟩ w) (b : Fin B) (c : Fin C)

theorem start0 : (rowSetDims B N C wf).start (ix2 b c) idx 0 = 0 := by
  unfold ScatterDims.start
  rw [dif_neg (show (0 : Fin 3) ∉ (rowSetDims B N C wf).scatterDimsToOperandDims from by
    show (0 : Fin 3) ∉ ([1] : List (Fin 3)); decide)]

theorem start2 : (rowSetDims B N C wf).start (ix2 b c) idx 2 = 0 := by
  unfold ScatterDims.start
  rw [dif_neg (show (2 : Fin 3) ∉ (rowSetDims B N C wf).scatterDimsToOperandDims from by
    show (2 : Fin 3) ∉ ([1] : List (Fin 3)); decide)]

theorem start1 : (rowSetDims B N C wf).start (ix2 b c) idx 1 = (idx (ix1 (0 : Fin 1))).toInt := by
  unfold ScatterDims.start
  rw [dif_pos (show (1 : Fin 3) ∈ (rowSetDims B N C wf).scatterDimsToOperandDims from List.mem_singleton.mpr rfl)]
  have hsi : (rowSetDims B N C wf).siIdx (ix2 b c) ⟨List.idxOf (1 : Fin 3) (rowSetDims B N C wf).scatterDimsToOperandDims,
      List.idxOf_lt_length_iff.2 (List.mem_singleton.mpr rfl)⟩ = ix1 (0 : Fin 1) := by
    funext a; refine Fin.ext ?_
    match a with
    | ⟨0, _⟩ => rfl
  rw [hsi]

theorem window0 : (rowSetDims B N C wf).window (ix2 b c) 0 = b.val := by
  unfold ScatterDims.window
  rw [dif_pos (show (0 : Fin 3) ∈ (rowSetDims B N C wf).sKept from by
    show (0 : Fin 3) ∈ (List.finRange 3).filter (· ∉ ([1] : List (Fin 3))); decide)]
  rfl

theorem window1 : (rowSetDims B N C wf).window (ix2 b c) 1 = 0 := by
  unfold ScatterDims.window
  rw [dif_neg (show (1 : Fin 3) ∉ (rowSetDims B N C wf).sKept from by
    show (1 : Fin 3) ∉ (List.finRange 3).filter (· ∉ ([1] : List (Fin 3))); decide)]

theorem window2 : (rowSetDims B N C wf).window (ix2 b c) 2 = c.val := by
  unfold ScatterDims.window
  rw [dif_pos (show (2 : Fin 3) ∈ (rowSetDims B N C wf).sKept from by
    show (2 : Fin 3) ∈ (List.finRange 3).filter (· ∉ ([1] : List (Fin 3))); decide)]
  rfl

/-- Update (b, c) lands at (b, p, c) when the scatter index reads p and p is a row of the operand. -/
theorem resultIdx_eq (p : Nat) (hp : p < N) (hq : (idx (ix1 (0 : Fin 1))).toInt = (p : ℤ)) :
    (rowSetDims B N C wf).resultIdx? (ix2 b c) idx = some (ix3 b (⟨p, hp⟩ : Fin N) c) := by
  have s0 := start0 wf idx b c
  have s1 := start1 wf idx b c
  have s2 := start2 wf idx b c
  have w0 := window0 wf (b := b) (c := c)
  have w1 := window1 wf (b := b) (c := c)
  have w2 := window2 wf (b := b) (c := c)
  unfold ScatterDims.resultIdx?
  have hall : ∀ a, 0 ≤ (rowSetDims B N C wf).start (ix2 b c) idx a + ((rowSetDims B N C wf).window (ix2 b c) a : ℤ)
      ∧ (rowSetDims B N C wf).start (ix2 b c) idx a + ((rowSetDims B N C wf).window (ix2 b c) a : ℤ) < ((⟨3, ![B, N, C]⟩ : Shape).size a : ℤ) := by
    intro a
    match a with
    | ⟨0, _⟩ =>
      show 0 ≤ (rowSetDims B N C wf).start (ix2 b c) idx 0 + ((rowSetDims B N C wf).window (ix2 b c) 0 : ℤ)
        ∧ (rowSetDims B N C wf).start (ix2 b c) idx 0 + ((rowSetDims B N C wf).window (ix2 b c) 0 : ℤ) < (B : ℤ)
      rw [s0, w0]; have := b.isLt; omega
    | ⟨1, _⟩ =>
      show 0 ≤ (rowSetDims B N C wf).start (ix2 b c) idx 1 + ((rowSetDims B N C wf).window (ix2 b c) 1 : ℤ)
        ∧ (rowSetDims B N C wf).start (ix2 b c) idx 1 + ((rowSetDims B N C wf).window (ix2 b c) 1 : ℤ) < (N : ℤ)
      rw [s1, w1, hq]; omega
    | ⟨2, _⟩ =>
      show 0 ≤ (rowSetDims B N C wf).start (ix2 b c) idx 2 + ((rowSetDims B N C wf).window (ix2 b c) 2 : ℤ)
        ∧ (rowSetDims B N C wf).start (ix2 b c) idx 2 + ((rowSetDims B N C wf).window (ix2 b c) 2 : ℤ) < (C : ℤ)
      rw [s2, w2]; have := c.isLt; omega
  rw [dif_pos hall]
  congr 1
  funext a
  refine Fin.ext ?_
  match a with
  | ⟨0, _⟩ =>
    show ((rowSetDims B N C wf).start (ix2 b c) idx 0 + ((rowSetDims B N C wf).window (ix2 b c) 0 : ℤ)).toNat = b.val
    rw [s0, w0]; omega
  | ⟨1, _⟩ =>
    show ((rowSetDims B N C wf).start (ix2 b c) idx 1 + ((rowSetDims B N C wf).window (ix2 b c) 1 : ℤ)).toNat = p
    rw [s1, w1, hq]; omega
  | ⟨2, _⟩ =>
    show ((rowSetDims B N C wf).start (ix2 b c) idx 2 + ((rowSetDims B N C wf).window (ix2 b c) 2 : ℤ)).toNat = c.val
    rw [s2, w2]; omega

end RowSet

/-- **Set row p, read at an index**: row p of the result is the update, every other row the operand's. -/
theorem rowSet_apply {α : Type} {B N C w : Nat} (wf : ScatterDims.WF ⟨3, ![B, N, C]⟩ ⟨1, ![1]⟩ ⟨2, ![B, C]⟩ [0, 1] [1] [1] 0)
    (x : (⟨3, ![B, N, C]⟩ : Shape).Idx → α) (idx : IVec ⟨1, ![1]⟩ w) (upd : (⟨2, ![B, C]⟩ : Shape).Idx → α)
    (p : Nat) (hp : p < N) (hq : (idx (ix1 (0 : Fin 1))).toInt = (p : ℤ)) (i : (⟨3, ![B, N, C]⟩ : Shape).Idx) :
    Host.scatter (rowSetDims B N C wf) (fun _ v => v) x idx upd i
      = if (i 1).val = p then upd (ix2 (i 0) (i 2)) else x i := by
  let g : (⟨2, ![B, C]⟩ : Shape).Idx → (⟨3, ![B, N, C]⟩ : Shape).Idx := fun j => ix3 (j 0) (⟨p, hp⟩ : Fin N) (j 1)
  have hres : ∀ j, (rowSetDims B N C wf).resultIdx? j idx = some (g j) := fun j => by
    rw [eq_ix2 j]; exact resultIdx_eq wf idx _ _ p hp hq
  have hg : Function.Injective g := fun j j' e => by
    rw [eq_ix2 j, eq_ix2 j']
    have e0 := congrFun e 0
    have e2 := congrFun e 2
    have e0' : j 0 = j' 0 := e0
    have e2' : j 1 = j' 1 := e2
    rw [e0', e2']
  by_cases h : (i 1).val = p
  · rw [if_pos h]
    have hi : i = g (ix2 (i 0) (i 2)) := by
      rw [eq_ix3 i]
      exact congrArg (fun z : Fin N => ix3 (i 0) z (i 2)) (Fin.ext h)
    rw [hi]
    exact scatter_hit _ idx upd g x hg hres _
  · rw [if_neg h]
    exact scatter_miss _ idx upd g x hres i (fun j e => h (by rw [← e]; rfl))

/-! ## Rows of a three-axis array: replacing one, cutting one out -/

section Rows

variable {α : Type} {B N C : Nat}

/-- The array with row `p` replaced by `o`. -/
def setRow (p : Nat) (o : (⟨2, ![B, C]⟩ : Shape).Idx → α) (h : (⟨3, ![B, N, C]⟩ : Shape).Idx → α) :
    (⟨3, ![B, N, C]⟩ : Shape).Idx → α :=
  fun i => if (i 1).val = p then o (ix2 (i 0) (i 2)) else h i

/-- Row `q` cut out of the array and reshaped to two axes. -/
def rowOf (q : Nat) (hs : (⟨3, ![B, N, C]⟩ : Shape).Slices ![0, q, 0] ⟨3, ![B, 1, C]⟩)
    (hc : (⟨3, ![B, 1, C]⟩ : Shape).ShapeCasts ⟨2, ![B, C]⟩) (x : (⟨3, ![B, N, C]⟩ : Shape).Idx → α) :
    (⟨2, ![B, C]⟩ : Shape).Idx → α :=
  shapeCast ⟨2, ![B, C]⟩ (extractStridedSlice ⟨3, ![B, 1, C]⟩ ![0, q, 0] x hs) hc

/-- It reads the array at (b, q, c). -/
theorem rowOf_apply (q : Nat) (hq : q < N) (hs : (⟨3, ![B, N, C]⟩ : Shape).Slices ![0, q, 0] ⟨3, ![B, 1, C]⟩)
    (hc : (⟨3, ![B, 1, C]⟩ : Shape).ShapeCasts ⟨2, ![B, C]⟩) (x : (⟨3, ![B, N, C]⟩ : Shape).Idx → α)
    (j : (⟨2, ![B, C]⟩ : Shape).Idx) : rowOf q hs hc x j = x (ix3 (j 0) (⟨q, hq⟩ : Fin N) (j 1)) := by
  unfold rowOf
  rw [shapeCast_apply _ hc j (ix3 (j 0) (0 : Fin 1) (j 1)) (by
    rw [Shape.rowMajor_val_three, Shape.rowMajor_val_two]
    show ((j 0).val * 1 + 0) * C + (j 1).val = (j 0).val * C + (j 1).val
    rw [Nat.mul_one, Nat.add_zero])]
  exact extractStridedSlice_apply _ x hs _ _ (fun a => by
    match a with
    | ⟨0, _⟩ => show (j 0).val = 0 + (j 0).val; omega
    | ⟨1, _⟩ => show q = q + 0; omega
    | ⟨2, _⟩ => show (j 1).val = 0 + (j 1).val; omega)

/-- Cutting out the row just replaced gives the replacement. -/
theorem rowOf_setRow_same (q : Nat) (hq : q < N) (hs : (⟨3, ![B, N, C]⟩ : Shape).Slices ![0, q, 0] ⟨3, ![B, 1, C]⟩)
    (hc : (⟨3, ![B, 1, C]⟩ : Shape).ShapeCasts ⟨2, ![B, C]⟩) (o : (⟨2, ![B, C]⟩ : Shape).Idx → α)
    (h : (⟨3, ![B, N, C]⟩ : Shape).Idx → α) : rowOf q hs hc (setRow q o h) = o := by
  funext j
  rw [rowOf_apply q hq]
  unfold setRow
  refine (if_pos ?_).trans ?_
  · rfl
  · exact congrArg o (eq_ix2 j).symm

/-- Cutting out any other row sees through the replacement. -/
theorem rowOf_setRow_ne (p q : Nat) (hpq : q ≠ p) (hq : q < N) (hs : (⟨3, ![B, N, C]⟩ : Shape).Slices ![0, q, 0] ⟨3, ![B, 1, C]⟩)
    (hc : (⟨3, ![B, 1, C]⟩ : Shape).ShapeCasts ⟨2, ![B, C]⟩) (o : (⟨2, ![B, C]⟩ : Shape).Idx → α)
    (h : (⟨3, ![B, N, C]⟩ : Shape).Idx → α) : rowOf q hs hc (setRow p o h) = rowOf q hs hc h := by
  funext j
  rw [rowOf_apply q hq, rowOf_apply q hq]
  unfold setRow
  exact if_neg hpq

/-- The scatter that writes row `p` is `setRow p`. -/
theorem scatter_eq_setRow {w : Nat} (wf : ScatterDims.WF ⟨3, ![B, N, C]⟩ ⟨1, ![1]⟩ ⟨2, ![B, C]⟩ [0, 1] [1] [1] 0)
    (x : (⟨3, ![B, N, C]⟩ : Shape).Idx → α) (idx : IVec ⟨1, ![1]⟩ w) (upd : (⟨2, ![B, C]⟩ : Shape).Idx → α)
    (p : Nat) (hp : p < N) (hq : (idx (ix1 (0 : Fin 1))).toInt = (p : ℤ)) :
    Host.scatter (rowSetDims B N C wf) (fun _ v => v) x idx upd = setRow p upd x :=
  funext fun i => rowSet_apply wf x idx upd p hp hq i

end Rows

end Cert.Lib.ScatterSet

end
-- ==== Proof.KIValue.lean ====
/-
  The output array after the launch, as one function of x and of the table of replacement rows.

  Block t of the output is block t of x with the replacement rows that fall in it laid over it; the blocks tile
  the array (rows 128·t … 128·t + 127).  Row r of the whole array is therefore the table's row k when r is the
  k-th of the seven positions 12, 36, 104, 304, 888, 2592, 7568, and x's row r otherwise.
-/
import proofs.«134958_j16810501996613_1_alg».proof.Proof.KIFrame
import proofs.«134958_j16810501996613_1_alg».proof.Proof.LibCanonUnit
import proofs.«134958_j16810501996613_1_alg».proof.Proof.LibScatterSet
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Lib.CanonUnit Cert.Lib.ScatterSet

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The specification -/

/-- Row `k` of the table. -/
def updRow (k : Fin 7) (U : (⟨S7x8x2048, .f32⟩ : BufTy).Contents (Elt F)) : (⟨S8x2048, .f32⟩ : BufTy).Contents (Elt F) := fun j => U (ix3 k (j 0) (j 1))

/-- x with the seven rows replaced. -/
def finalA (x : (⟨S8x8192x2048, .f32⟩ : BufTy).Contents (Elt F)) (U : (⟨S7x8x2048, .f32⟩ : BufTy).Contents (Elt F)) : (⟨S8x8192x2048, .f32⟩ : BufTy).Contents (Elt F) :=
  setRow (B := 8) (N := 8192) (C := 2048) 7568 (updRow 6 U) (setRow (B := 8) (N := 8192) (C := 2048) 2592 (updRow 5 U) (setRow (B := 8) (N := 8192) (C := 2048) 888 (updRow 4 U) (setRow (B := 8) (N := 8192) (C := 2048) 304 (updRow 3 U) (setRow (B := 8) (N := 8192) (C := 2048) 104 (updRow 2 U) (setRow (B := 8) (N := 8192) (C := 2048) 36 (updRow 1 U) (setRow (B := 8) (N := 8192) (C := 2048) 12 (updRow 0 U) (x)))))))

theorem finalA_hit0 (x : (⟨S8x8192x2048, .f32⟩ : BufTy).Contents (Elt F)) (U : (⟨S7x8x2048, .f32⟩ : BufTy).Contents (Elt F)) (b : Fin 8) (s : Fin 8192) (d : Fin 2048) (h : s.val = 12) :
    finalA x U (ix3 b s d) = U (ix3 (0 : Fin 7) b d) := by
  unfold finalA
  refine (if_neg (show ¬ s.val = 7568 from by omega)).trans ?_
  refine (if_neg (show ¬ s.val = 2592 from by omega)).trans ?_
  refine (if_neg (show ¬ s.val = 888 from by omega)).trans ?_
  refine (if_neg (show ¬ s.val = 304 from by omega)).trans ?_
  refine (if_neg (show ¬ s.val = 104 from by omega)).trans ?_
  refine (if_neg (show ¬ s.val = 36 from by omega)).trans ?_
  exact if_pos h
theorem finalA_hit1 (x : (⟨S8x8192x2048, .f32⟩ : BufTy).Contents (Elt F)) (U : (⟨S7x8x2048, .f32⟩ : BufTy).Contents (Elt F)) (b : Fin 8) (s : Fin 8192) (d : Fin 2048) (h : s.val = 36) :
    finalA x U (ix3 b s d) = U (ix3 (1 : Fin 7) b d) := by
  unfold finalA
  refine (if_neg (show ¬ s.val = 7568 from by omega)).trans ?_
  refine (if_neg (show ¬ s.val = 2592 from by omega)).trans ?_
  refine (if_neg (show ¬ s.val = 888 from by omega)).trans ?_
  refine (if_neg (show ¬ s.val = 304 from by omega)).trans ?_
  refine (if_neg (show ¬ s.val = 104 from by omega)).trans ?_
  exact if_pos h
theorem finalA_hit2 (x : (⟨S8x8192x2048, .f32⟩ : BufTy).Contents (Elt F)) (U : (⟨S7x8x2048, .f32⟩ : BufTy).Contents (Elt F)) (b : Fin 8) (s : Fin 8192) (d : Fin 2048) (h : s.val = 104) :
    finalA x U (ix3 b s d) = U (ix3 (2 : Fin 7) b d) := by
  unfold finalA
  refine (if_neg (show ¬ s.val = 7568 from by omega)).trans ?_
  refine (if_neg (show ¬ s.val = 2592 from by omega)).trans ?_
  refine (if_neg (show ¬ s.val = 888 from by omega)).trans ?_
  refine (if_neg (show ¬ s.val = 304 from by omega)).trans ?_
  exact if_pos h
theorem finalA_hit3 (x : (⟨S8x8192x2048, .f32⟩ : BufTy).Contents (Elt F)) (U : (⟨S7x8x2048, .f32⟩ : BufTy).Contents (Elt F)) (b : Fin 8) (s : Fin 8192) (d : Fin 2048) (h : s.val = 304) :
    finalA x U (ix3 b s d) = U (ix3 (3 : Fin 7) b d) := by
  unfold finalA
  refine (if_neg (show ¬ s.val = 7568 from by omega)).trans ?_
  refine (if_neg (show ¬ s.val = 2592 from by omega)).trans ?_
  refine (if_neg (show ¬ s.val = 888 from by omega)).trans ?_
  exact if_pos h
theorem finalA_hit4 (x : (⟨S8x8192x2048, .f32⟩ : BufTy).Contents (Elt F)) (U : (⟨S7x8x2048, .f32⟩ : BufTy).Contents (Elt F)) (b : Fin 8) (s : Fin 8192) (d : Fin 2048) (h : s.val = 888) :
    finalA x U (ix3 b s d) = U (ix3 (4 : Fin 7) b d) := by
  unfold finalA
  refine (if_neg (show ¬ s.val = 7568 from by omega)).trans ?_
  refine (if_neg (show ¬ s.val = 2592 from by omega)).trans ?_
  exact if_pos h
theorem finalA_hit5 (x : (⟨S8x8192x2048, .f32⟩ : BufTy).Contents (Elt F)) (U : (⟨S7x8x2048, .f32⟩ : BufTy).Contents (Elt F)) (b : Fin 8) (s : Fin 8192) (d : Fin 2048) (h : s.val = 2592) :
    finalA x U (ix3 b s d) = U (ix3 (5 : Fin 7) b d) := by
  unfold finalA
  refine (if_neg (show ¬ s.val = 7568 from by omega)).trans ?_
  exact if_pos h
theorem finalA_hit6 (x : (⟨S8x8192x2048, .f32⟩ : BufTy).Contents (Elt F)) (U : (⟨S7x8x2048, .f32⟩ : BufTy).Contents (Elt F)) (b : Fin 8) (s : Fin 8192) (d : Fin 2048) (h : s.val = 7568) :
    finalA x U (ix3 b s d) = U (ix3 (6 : Fin 7) b d) := by
  unfold finalA

  exact if_pos h
theorem finalA_miss (x : (⟨S8x8192x2048, .f32⟩ : BufTy).Contents (Elt F)) (U : (⟨S7x8x2048, .f32⟩ : BufTy).Contents (Elt F)) (b : Fin 8) (s : Fin 8192) (d : Fin 2048) (h12 : s.val ≠ 12) (h36 : s.val ≠ 36) (h104 : s.val ≠ 104) (h304 : s.val ≠ 304) (h888 : s.val ≠ 888) (h2592 : s.val ≠ 2592) (h7568 : s.val ≠ 7568) :
    finalA x U (ix3 b s d) = x (ix3 b s d) := by
  unfold finalA
  refine (if_neg h7568).trans ?_
  refine (if_neg h2592).trans ?_
  refine (if_neg h888).trans ?_
  refine (if_neg h304).trans ?_
  refine (if_neg h104).trans ?_
  refine (if_neg h36).trans ?_
  exact if_neg h12

/-! ## The body's payloads and blocks read at an index -/

theorem hzW : (![0, 0, 0] : Fin 3 → Nat) = fun _ => 0 := funext fun a => by fin_cases a <;> rfl

/-- The overwriting store's payload is the table's row 0, re-laid from [1, 8, 2048] to [8, 1, 2048]. -/
theorem pay1_apply (x1 : Vec F S7x8x2048 .f32) (b : Fin 8) (d : Fin 2048) :
    k0_pay1 (View.ld x1 rU0) (ix3 b (0 : Fin 1) d) = x1 (ix3 (0 : Fin 7) b d) := by
  unfold k0_pay1
  refine (shapeCast_apply _ _ (ix3 b (0 : Fin 1) d) (ix2 b d) ?_).trans ?_
  · rw [Shape.rowMajor_val_two, Shape.rowMajor_val_three]
    show b.val * 2048 + d.val = (b.val * 1 + 0) * 2048 + d.val
    omega
  refine (shapeCast_apply _ _ (ix2 b d) (ix3 (0 : Fin 1) b d) ?_).trans ?_
  · rw [Shape.rowMajor_val_two, Shape.rowMajor_val_three]
    show ((0 : Nat) * 8 + b.val) * 2048 + d.val = b.val * 2048 + d.val
    omega
  show x1 (rU0.emb (ix3 (0 : Fin 1) b d)) = _
  refine congrArg x1 (funext fun a => Fin.ext ?_)
  match a with
  | ⟨0, _⟩ => show 0 + 1 * 0 = 0; omega
  | ⟨1, _⟩ => show 0 + 1 * b.val = b.val; omega
  | ⟨2, _⟩ => show 0 + 1 * d.val = d.val; omega

/-- The overwriting store's payload is the table's row 1, re-laid from [1, 8, 2048] to [8, 1, 2048]. -/
theorem pay2_apply (x1 : Vec F S7x8x2048 .f32) (b : Fin 8) (d : Fin 2048) :
    k0_pay2 (View.ld x1 rU1) (ix3 b (0 : Fin 1) d) = x1 (ix3 (1 : Fin 7) b d) := by
  unfold k0_pay2
  refine (shapeCast_apply _ _ (ix3 b (0 : Fin 1) d) (ix2 b d) ?_).trans ?_
  · rw [Shape.rowMajor_val_two, Shape.rowMajor_val_three]
    show b.val * 2048 + d.val = (b.val * 1 + 0) * 2048 + d.val
    omega
  refine (shapeCast_apply _ _ (ix2 b d) (ix3 (0 : Fin 1) b d) ?_).trans ?_
  · rw [Shape.rowMajor_val_two, Shape.rowMajor_val_three]
    show ((0 : Nat) * 8 + b.val) * 2048 + d.val = b.val * 2048 + d.val
    omega
  show x1 (rU1.emb (ix3 (0 : Fin 1) b d)) = _
  refine congrArg x1 (funext fun a => Fin.ext ?_)
  match a with
  | ⟨0, _⟩ => show 1 + 1 * 0 = 1; omega
  | ⟨1, _⟩ => show 0 + 1 * b.val = b.val; omega
  | ⟨2, _⟩ => show 0 + 1 * d.val = d.val; omega

/-- The overwriting store's payload is the table's row 2, re-laid from [1, 8, 2048] to [8, 1, 2048]. -/
theorem pay3_apply (x1 : Vec F S7x8x2048 .f32) (b : Fin 8) (d : Fin 2048) :
    k0_pay3 (View.ld x1 rU2) (ix3 b (0 : Fin 1) d) = x1 (ix3 (2 : Fin 7) b d) := by
  unfold k0_pay3
  refine (shapeCast_apply _ _ (ix3 b (0 : Fin 1) d) (ix2 b d) ?_).trans ?_
  · rw [Shape.rowMajor_val_two, Shape.rowMajor_val_three]
    show b.val * 2048 + d.val = (b.val * 1 + 0) * 2048 + d.val
    omega
  refine (shapeCast_apply _ _ (ix2 b d) (ix3 (0 : Fin 1) b d) ?_).trans ?_
  · rw [Shape.rowMajor_val_two, Shape.rowMajor_val_three]
    show ((0 : Nat) * 8 + b.val) * 2048 + d.val = b.val * 2048 + d.val
    omega
  show x1 (rU2.emb (ix3 (0 : Fin 1) b d)) = _
  refine congrArg x1 (funext fun a => Fin.ext ?_)
  match a with
  | ⟨0, _⟩ => show 2 + 1 * 0 = 2; omega
  | ⟨1, _⟩ => show 0 + 1 * b.val = b.val; omega
  | ⟨2, _⟩ => show 0 + 1 * d.val = d.val; omega

/-- The overwriting store's payload is the table's row 3, re-laid from [1, 8, 2048] to [8, 1, 2048]. -/
theorem pay4_apply (x1 : Vec F S7x8x2048 .f32) (b : Fin 8) (d : Fin 2048) :
    k0_pay4 (View.ld x1 rU3) (ix3 b (0 : Fin 1) d) = x1 (ix3 (3 : Fin 7) b d) := by
  unfold k0_pay4
  refine (shapeCast_apply _ _ (ix3 b (0 : Fin 1) d) (ix2 b d) ?_).trans ?_
  · rw [Shape.rowMajor_val_two, Shape.rowMajor_val_three]
    show b.val * 2048 + d.val = (b.val * 1 + 0) * 2048 + d.val
    omega
  refine (shapeCast_apply _ _ (ix2 b d) (ix3 (0 : Fin 1) b d) ?_).trans ?_
  · rw [Shape.rowMajor_val_two, Shape.rowMajor_val_three]
    show ((0 : Nat) * 8 + b.val) * 2048 + d.val = b.val * 2048 + d.val
    omega
  show x1 (rU3.emb (ix3 (0 : Fin 1) b d)) = _
  refine congrArg x1 (funext fun a => Fin.ext ?_)
  match a with
  | ⟨0, _⟩ => show 3 + 1 * 0 = 3; omega
  | ⟨1, _⟩ => show 0 + 1 * b.val = b.val; omega
  | ⟨2, _⟩ => show 0 + 1 * d.val = d.val; omega

/-- The overwriting store's payload is the table's row 4, re-laid from [1, 8, 2048] to [8, 1, 2048]. -/
theorem pay5_apply (x1 : Vec F S7x8x2048 .f32) (b : Fin 8) (d : Fin 2048) :
    k0_pay5 (View.ld x1 rU4) (ix3 b (0 : Fin 1) d) = x1 (ix3 (4 : Fin 7) b d) := by
  unfold k0_pay5
  refine (shapeCast_apply _ _ (ix3 b (0 : Fin 1) d) (ix2 b d) ?_).trans ?_
  · rw [Shape.rowMajor_val_two, Shape.rowMajor_val_three]
    show b.val * 2048 + d.val = (b.val * 1 + 0) * 2048 + d.val
    omega
  refine (shapeCast_apply _ _ (ix2 b d) (ix3 (0 : Fin 1) b d) ?_).trans ?_
  · rw [Shape.rowMajor_val_two, Shape.rowMajor_val_three]
    show ((0 : Nat) * 8 + b.val) * 2048 + d.val = b.val * 2048 + d.val
    omega
  show x1 (rU4.emb (ix3 (0 : Fin 1) b d)) = _
  refine congrArg x1 (funext fun a => Fin.ext ?_)
  match a with
  | ⟨0, _⟩ => show 4 + 1 * 0 = 4; omega
  | ⟨1, _⟩ => show 0 + 1 * b.val = b.val; omega
  | ⟨2, _⟩ => show 0 + 1 * d.val = d.val; omega

/-- The overwriting store's payload is the table's row 5, re-laid from [1, 8, 2048] to [8, 1, 2048]. -/
theorem pay6_apply (x1 : Vec F S7x8x2048 .f32) (b : Fin 8) (d : Fin 2048) :
    k0_pay6 (View.ld x1 rU5) (ix3 b (0 : Fin 1) d) = x1 (ix3 (5 : Fin 7) b d) := by
  unfold k0_pay6
  refine (shapeCast_apply _ _ (ix3 b (0 : Fin 1) d) (ix2 b d) ?_).trans ?_
  · rw [Shape.rowMajor_val_two, Shape.rowMajor_val_three]
    show b.val * 2048 + d.val = (b.val * 1 + 0) * 2048 + d.val
    omega
  refine (shapeCast_apply _ _ (ix2 b d) (ix3 (0 : Fin 1) b d) ?_).trans ?_
  · rw [Shape.rowMajor_val_two, Shape.rowMajor_val_three]
    show ((0 : Nat) * 8 + b.val) * 2048 + d.val = b.val * 2048 + d.val
    omega
  show x1 (rU5.emb (ix3 (0 : Fin 1) b d)) = _
  refine congrArg x1 (funext fun a => Fin.ext ?_)
  match a with
  | ⟨0, _⟩ => show 5 + 1 * 0 = 5; omega
  | ⟨1, _⟩ => show 0 + 1 * b.val = b.val; omega
  | ⟨2, _⟩ => show 0 + 1 * d.val = d.val; omega

/-- The overwriting store's payload is the table's row 6, re-laid from [1, 8, 2048] to [8, 1, 2048]. -/
theorem pay7_apply (x1 : Vec F S7x8x2048 .f32) (b : Fin 8) (d : Fin 2048) :
    k0_pay7 (View.ld x1 rU6) (ix3 b (0 : Fin 1) d) = x1 (ix3 (6 : Fin 7) b d) := by
  unfold k0_pay7
  refine (shapeCast_apply _ _ (ix3 b (0 : Fin 1) d) (ix2 b d) ?_).trans ?_
  · rw [Shape.rowMajor_val_two, Shape.rowMajor_val_three]
    show b.val * 2048 + d.val = (b.val * 1 + 0) * 2048 + d.val
    omega
  refine (shapeCast_apply _ _ (ix2 b d) (ix3 (0 : Fin 1) b d) ?_).trans ?_
  · rw [Shape.rowMajor_val_two, Shape.rowMajor_val_three]
    show ((0 : Nat) * 8 + b.val) * 2048 + d.val = b.val * 2048 + d.val
    omega
  show x1 (rU6.emb (ix3 (0 : Fin 1) b d)) = _
  refine congrArg x1 (funext fun a => Fin.ext ?_)
  match a with
  | ⟨0, _⟩ => show 6 + 1 * 0 = 6; omega
  | ⟨1, _⟩ => show 0 + 1 * b.val = b.val; omega
  | ⟨2, _⟩ => show 0 + 1 * d.val = d.val; omega

/-- Case A: the block after the body, index by index. -/
theorem outA_apply (x0 : Vec F S8x128x2048 .f32) (x1 : Vec F S7x8x2048 .f32) (b : Fin 8) (r : Fin 128) (d : Fin 2048) :
    outA x0 x1 (ix3 b r d) = if r.val = 104 then x1 (ix3 (2 : Fin 7) b d) else if r.val = 36 then x1 (ix3 (1 : Fin 7) b d) else if r.val = 12 then x1 (ix3 (0 : Fin 7) b d) else x0 (ix3 b r d) := by
  unfold outA
  by_cases h104 : r.val = 104
  · rw [if_pos h104]
    refine (canon_cons_unit_of_mem _ _ _ (ix3 b r d) (ix3 b (0 : Fin 1) d) (fun a => by
      match a with
      | ⟨0, _⟩ => show b.val = 0 + b.val; omega
      | ⟨1, _⟩ => show r.val = 104 + 0; omega
      | ⟨2, _⟩ => show d.val = 0 + d.val; omega)).trans ?_
    exact pay3_apply x1 b d
  rw [if_neg h104]
  refine (canon_cons_unit_of_not_mem _ _ _ (ix3 b r d) 1 (by show r.val < 104 ∨ 104 + 1 ≤ r.val; omega)).trans ?_
  by_cases h36 : r.val = 36
  · rw [if_pos h36]
    refine (canon_cons_unit_of_mem _ _ _ (ix3 b r d) (ix3 b (0 : Fin 1) d) (fun a => by
      match a with
      | ⟨0, _⟩ => show b.val = 0 + b.val; omega
      | ⟨1, _⟩ => show r.val = 36 + 0; omega
      | ⟨2, _⟩ => show d.val = 0 + d.val; omega)).trans ?_
    exact pay2_apply x1 b d
  rw [if_neg h36]
  refine (canon_cons_unit_of_not_mem _ _ _ (ix3 b r d) 1 (by show r.val < 36 ∨ 36 + 1 ≤ r.val; omega)).trans ?_
  by_cases h12 : r.val = 12
  · rw [if_pos h12]
    refine (canon_cons_unit_of_mem _ _ _ (ix3 b r d) (ix3 b (0 : Fin 1) d) (fun a => by
      match a with
      | ⟨0, _⟩ => show b.val = 0 + b.val; omega
      | ⟨1, _⟩ => show r.val = 12 + 0; omega
      | ⟨2, _⟩ => show d.val = 0 + d.val; omega)).trans ?_
    exact pay1_apply x1 b d
  rw [if_neg h12]
  refine (canon_cons_unit_of_not_mem _ _ _ (ix3 b r d) 1 (by show r.val < 12 ∨ 12 + 1 ≤ r.val; omega)).trans ?_
  exact congrFun ((View.canon_unit_zero hzW _ _).trans (View.ld_unit_zero (S := S8x128x2048) hzW _ x0)) _

/-- Case B: the block after the body, index by index. -/
theorem outB_apply (x0 : Vec F S8x128x2048 .f32) (x1 : Vec F S7x8x2048 .f32) (b : Fin 8) (r : Fin 128) (d : Fin 2048) :
    outB x0 x1 (ix3 b r d) = if r.val = 48 then x1 (ix3 (3 : Fin 7) b d) else x0 (ix3 b r d) := by
  unfold outB
  by_cases h48 : r.val = 48
  · rw [if_pos h48]
    refine (canon_cons_unit_of_mem _ _ _ (ix3 b r d) (ix3 b (0 : Fin 1) d) (fun a => by
      match a with
      | ⟨0, _⟩ => show b.val = 0 + b.val; omega
      | ⟨1, _⟩ => show r.val = 48 + 0; omega
      | ⟨2, _⟩ => show d.val = 0 + d.val; omega)).trans ?_
    exact pay4_apply x1 b d
  rw [if_neg h48]
  refine (canon_cons_unit_of_not_mem _ _ _ (ix3 b r d) 1 (by show r.val < 48 ∨ 48 + 1 ≤ r.val; omega)).trans ?_
  exact congrFun ((View.canon_unit_zero hzW _ _).trans (View.ld_unit_zero (S := S8x128x2048) hzW _ x0)) _

/-- Case C: the block after the body, index by index. -/
theorem outC_apply (x0 : Vec F S8x128x2048 .f32) (x1 : Vec F S7x8x2048 .f32) (b : Fin 8) (r : Fin 128) (d : Fin 2048) :
    outC x0 x1 (ix3 b r d) = if r.val = 120 then x1 (ix3 (4 : Fin 7) b d) else x0 (ix3 b r d) := by
  unfold outC
  by_cases h120 : r.val = 120
  · rw [if_pos h120]
    refine (canon_cons_unit_of_mem _ _ _ (ix3 b r d) (ix3 b (0 : Fin 1) d) (fun a => by
      match a with
      | ⟨0, _⟩ => show b.val = 0 + b.val; omega
      | ⟨1, _⟩ => show r.val = 120 + 0; omega
      | ⟨2, _⟩ => show d.val = 0 + d.val; omega)).trans ?_
    exact pay5_apply x1 b d
  rw [if_neg h120]
  refine (canon_cons_unit_of_not_mem _ _ _ (ix3 b r d) 1 (by show r.val < 120 ∨ 120 + 1 ≤ r.val; omega)).trans ?_
  exact congrFun ((View.canon_unit_zero hzW _ _).trans (View.ld_unit_zero (S := S8x128x2048) hzW _ x0)) _

/-- Case D: the block after the body, index by index. -/
theorem outD_apply (x0 : Vec F S8x128x2048 .f32) (x1 : Vec F S7x8x2048 .f32) (b : Fin 8) (r : Fin 128) (d : Fin 2048) :
    outD x0 x1 (ix3 b r d) = if r.val = 32 then x1 (ix3 (5 : Fin 7) b d) else x0 (ix3 b r d) := by
  unfold outD
  by_cases h32 : r.val = 32
  · rw [if_pos h32]
    refine (canon_cons_unit_of_mem _ _ _ (ix3 b r d) (ix3 b (0 : Fin 1) d) (fun a => by
      match a with
      | ⟨0, _⟩ => show b.val = 0 + b.val; omega
      | ⟨1, _⟩ => show r.val = 32 + 0; omega
      | ⟨2, _⟩ => show d.val = 0 + d.val; omega)).trans ?_
    exact pay6_apply x1 b d
  rw [if_neg h32]
  refine (canon_cons_unit_of_not_mem _ _ _ (ix3 b r d) 1 (by show r.val < 32 ∨ 32 + 1 ≤ r.val; omega)).trans ?_
  exact congrFun ((View.canon_unit_zero hzW _ _).trans (View.ld_unit_zero (S := S8x128x2048) hzW _ x0)) _

/-- Case E: the block after the body, index by index. -/
theorem outE_apply (x0 : Vec F S8x128x2048 .f32) (x1 : Vec F S7x8x2048 .f32) (b : Fin 8) (r : Fin 128) (d : Fin 2048) :
    outE x0 x1 (ix3 b r d) = if r.val = 16 then x1 (ix3 (6 : Fin 7) b d) else x0 (ix3 b r d) := by
  unfold outE
  by_cases h16 : r.val = 16
  · rw [if_pos h16]
    refine (canon_cons_unit_of_mem _ _ _ (ix3 b r d) (ix3 b (0 : Fin 1) d) (fun a => by
      match a with
      | ⟨0, _⟩ => show b.val = 0 + b.val; omega
      | ⟨1, _⟩ => show r.val = 16 + 0; omega
      | ⟨2, _⟩ => show d.val = 0 + d.val; omega)).trans ?_
    exact pay7_apply x1 b d
  rw [if_neg h16]
  refine (canon_cons_unit_of_not_mem _ _ _ (ix3 b r d) 1 (by show r.val < 16 ∨ 16 + 1 ≤ r.val; omega)).trans ?_
  exact congrFun ((View.canon_unit_zero hzW _ _).trans (View.ld_unit_zero (S := S8x128x2048) hzW _ x0)) _

/-- Case Z: the block after the body, index by index. -/
theorem outZ_apply (x0 : Vec F S8x128x2048 .f32) (x1 : Vec F S7x8x2048 .f32) (b : Fin 8) (r : Fin 128) (d : Fin 2048) :
    outZ x0 x1 (ix3 b r d) = x0 (ix3 b r d) := by
  unfold outZ
  exact congrFun ((View.canon_unit_zero hzW _ _).trans (View.ld_unit_zero (S := S8x128x2048) hzW _ x0)) _

/-! ## Where a block sits in its array -/

theorem idx_facts : ∀ t : Fin cfg0.N, win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-- A block of x read at (b, r, d) is x at (b, 128·t + r, d). -/
theorem iblk0_apply (c : Dev nD) (t : Fin cfg0.N) (b : Fin 8) (r : Fin 128) (d : Fin 2048) (hs : t.val * 128 + r.val < 8192) :
    iblk m c 0 t (ix3 b r d) = V m c main_arg0 (ix3 b (⟨t.val * 128 + r.val, hs⟩ : Fin 8192) d) := by
  obtain ⟨a0, a1, a2, b0, b1, b2, c0, c1, c2⟩ := idx_facts t
  show V m c main_arg0 (((cfg0.win 0).blk t).view.emb (ix3 b r d)) = _
  refine congrArg (V m c main_arg0) (funext fun a => Fin.ext ?_)
  match a with
  | ⟨0, _⟩ => show win0_0.index t (0 : Fin 3) * 8 + 1 * b.val = b.val; omega
  | ⟨1, _⟩ => show win0_0.index t (1 : Fin 3) * 128 + 1 * r.val = t.val * 128 + r.val; omega
  | ⟨2, _⟩ => show win0_0.index t (2 : Fin 3) * 2048 + 1 * d.val = d.val; omega

/-- The table is staged whole: its block read at an index is the table there. -/
theorem iblk1_apply (c : Dev nD) (t : Fin cfg0.N) (k : Fin 7) (b : Fin 8) (d : Fin 2048) :
    iblk m c 1 t (ix3 k b d) = V m c main_v476 (ix3 k b d) := by
  obtain ⟨a0, a1, a2, b0, b1, b2, c0, c1, c2⟩ := idx_facts t
  show V m c main_v476 (((cfg0.win 1).blk t).view.emb (ix3 k b d)) = _
  refine congrArg (V m c main_v476) (funext fun a => Fin.ext ?_)
  match a with
  | ⟨0, _⟩ => show win0_1.index t (0 : Fin 3) * 7 + 1 * k.val = k.val; omega
  | ⟨1, _⟩ => show win0_1.index t (1 : Fin 3) * 8 + 1 * b.val = b.val; omega
  | ⟨2, _⟩ => show win0_1.index t (2 : Fin 3) * 2048 + 1 * d.val = d.val; omega

/-- A block's element (b, r, d) of the output sits at (b, 128·t + r, d) of the array. -/
theorem emb2_eq (t : Fin cfg0.N) (b : Fin 8) (r : Fin 128) (d : Fin 2048) (hs : t.val * 128 + r.val < 8192) :
    ((cfg0.win 2).blk t).view.emb (ix3 b r d) = ix3 b (⟨t.val * 128 + r.val, hs⟩ : Fin 8192) d := by
  obtain ⟨a0, a1, a2, b0, b1, b2, c0, c1, c2⟩ := idx_facts t
  refine funext fun a => Fin.ext ?_
  match a with
  | ⟨0, _⟩ => show win0_2.index t (0 : Fin 3) * 8 + 1 * b.val = b.val; omega
  | ⟨1, _⟩ => show win0_2.index t (1 : Fin 3) * 128 + 1 * r.val = t.val * 128 + r.val; omega
  | ⟨2, _⟩ => show win0_2.index t (2 : Fin 3) * 2048 + 1 * d.val = d.val; omega

/-! ## What each point writes back -/

set_option maxHeartbeats 4000000 in
/-- Point `t` writes back block `t` of the whole-array function. -/
theorem flushed_eq (c : Dev nD) (t : Fin cfg0.N) :
    (dats m 0 c).flushed 2 t = ((cfg0.win 2).blk t).view.read (Elt F) (finalA (V m c main_arg0) (V m c main_v476)) := by
  show (cfg0.win 2).cut (grid0.coords t) ((dats m 0 c).after 2 t) = _
  rw [after0_2]
  funext j
  obtain ⟨b, r, d, rfl⟩ : ∃ (b : Fin 8) (r : Fin 128) (d : Fin 2048), j = ix3 b r d := ⟨j 0, j 1, j 2, eq_ix3 j⟩
  have hN : t.val < 64 := lt_of_lt_of_eq t.isLt (show cfg0.N = 64 from N_0)
  have hr : r.val < 128 := r.isLt
  have hs : t.val * 128 + r.val < 8192 := by omega
  show outAt m c t (ix3 b r d) = finalA (V m c main_arg0) (V m c main_v476) (((cfg0.win 2).blk t).view.emb (ix3 b r d))
  rw [emb2_eq t b r d hs]
  by_cases e0 : t.val = 0
  ·
    have eo : outAt m c t = outA (iblk m c 0 t) (iblk m c 1 t) := by unfold outAt; rw [if_pos e0]
    rw [eo, outA_apply]
    by_cases h104 : r.val = 104
    · rw [if_pos h104, finalA_hit2 _ _ b _ d (by show t.val * 128 + r.val = 104; omega), iblk1_apply]
    rw [if_neg h104]
    by_cases h36 : r.val = 36
    · rw [if_pos h36, finalA_hit1 _ _ b _ d (by show t.val * 128 + r.val = 36; omega), iblk1_apply]
    rw [if_neg h36]
    by_cases h12 : r.val = 12
    · rw [if_pos h12, finalA_hit0 _ _ b _ d (by show t.val * 128 + r.val = 12; omega), iblk1_apply]
    rw [if_neg h12]
    rw [finalA_miss _ _ b _ d (by show t.val * 128 + r.val ≠ 12; omega) (by show t.val * 128 + r.val ≠ 36; omega) (by show t.val * 128 + r.val ≠ 104; omega) (by show t.val * 128 + r.val ≠ 304; omega) (by show t.val * 128 + r.val ≠ 888; omega) (by show t.val * 128 + r.val ≠ 2592; omega) (by show t.val * 128 + r.val ≠ 7568; omega), iblk0_apply m c t b r d hs]
  by_cases e2 : t.val = 2
  ·
    have eo : outAt m c t = outB (iblk m c 0 t) (iblk m c 1 t) := by unfold outAt; rw [if_neg e0, if_pos e2]
    rw [eo, outB_apply]
    by_cases h48 : r.val = 48
    · rw [if_pos h48, finalA_hit3 _ _ b _ d (by show t.val * 128 + r.val = 304; omega), iblk1_apply]
    rw [if_neg h48]
    rw [finalA_miss _ _ b _ d (by show t.val * 128 + r.val ≠ 12; omega) (by show t.val * 128 + r.val ≠ 36; omega) (by show t.val * 128 + r.val ≠ 104; omega) (by show t.val * 128 + r.val ≠ 304; omega) (by show t.val * 128 + r.val ≠ 888; omega) (by show t.val * 128 + r.val ≠ 2592; omega) (by show t.val * 128 + r.val ≠ 7568; omega), iblk0_apply m c t b r d hs]
  by_cases e6 : t.val = 6
  ·
    have eo : outAt m c t = outC (iblk m c 0 t) (iblk m c 1 t) := by unfold outAt; rw [if_neg e0, if_neg e2, if_pos e6]
    rw [eo, outC_apply]
    by_cases h120 : r.val = 120
    · rw [if_pos h120, finalA_hit4 _ _ b _ d (by show t.val * 128 + r.val = 888; omega), iblk1_apply]
    rw [if_neg h120]
    rw [finalA_miss _ _ b _ d (by show t.val * 128 + r.val ≠ 12; omega) (by show t.val * 128 + r.val ≠ 36; omega) (by show t.val * 128 + r.val ≠ 104; omega) (by show t.val * 128 + r.val ≠ 304; omega) (by show t.val * 128 + r.val ≠ 888; omega) (by show t.val * 128 + r.val ≠ 2592; omega) (by show t.val * 128 + r.val ≠ 7568; omega), iblk0_apply m c t b r d hs]
  by_cases e20 : t.val = 20
  ·
    have eo : outAt m c t = outD (iblk m c 0 t) (iblk m c 1 t) := by unfold outAt; rw [if_neg e0, if_neg e2, if_neg e6, if_pos e20]
    rw [eo, outD_apply]
    by_cases h32 : r.val = 32
    · rw [if_pos h32, finalA_hit5 _ _ b _ d (by show t.val * 128 + r.val = 2592; omega), iblk1_apply]
    rw [if_neg h32]
    rw [finalA_miss _ _ b _ d (by show t.val * 128 + r.val ≠ 12; omega) (by show t.val * 128 + r.val ≠ 36; omega) (by show t.val * 128 + r.val ≠ 104; omega) (by show t.val * 128 + r.val ≠ 304; omega) (by show t.val * 128 + r.val ≠ 888; omega) (by show t.val * 128 + r.val ≠ 2592; omega) (by show t.val * 128 + r.val ≠ 7568; omega), iblk0_apply m c t b r d hs]
  by_cases e59 : t.val = 59
  ·
    have eo : outAt m c t = outE (iblk m c 0 t) (iblk m c 1 t) := by unfold outAt; rw [if_neg e0, if_neg e2, if_neg e6, if_neg e20, if_pos e59]
    rw [eo, outE_apply]
    by_cases h16 : r.val = 16
    · rw [if_pos h16, finalA_hit6 _ _ b _ d (by show t.val * 128 + r.val = 7568; omega), iblk1_apply]
    rw [if_neg h16]
    rw [finalA_miss _ _ b _ d (by show t.val * 128 + r.val ≠ 12; omega) (by show t.val * 128 + r.val ≠ 36; omega) (by show t.val * 128 + r.val ≠ 104; omega) (by show t.val * 128 + r.val ≠ 304; omega) (by show t.val * 128 + r.val ≠ 888; omega) (by show t.val * 128 + r.val ≠ 2592; omega) (by show t.val * 128 + r.val ≠ 7568; omega), iblk0_apply m c t b r d hs]
  have eo : outAt m c t = outZ (iblk m c 0 t) (iblk m c 1 t) := by unfold outAt; rw [if_neg e0, if_neg e2, if_neg e6, if_neg e20, if_neg e59]
  rw [eo, outZ_apply]
  rw [finalA_miss _ _ b _ d (by show t.val * 128 + r.val ≠ 12; omega) (by show t.val * 128 + r.val ≠ 36; omega) (by show t.val * 128 + r.val ≠ 104; omega) (by show t.val * 128 + r.val ≠ 304; omega) (by show t.val * 128 + r.val ≠ 888; omega) (by show t.val * 128 + r.val ≠ 2592; omega) (by show t.val * 128 + r.val ≠ 7568; omega), iblk0_apply m c t b r d hs]

/-- The blocks tile the array: row s is in block s / 128. -/
theorem cover (i : S8x8192x2048.Idx) : ∃ t : Fin cfg0.N, (cfg0.win 2).flush t = true ∧ i ∈ ((cfg0.win 2).blk t).view.set := by
  have h1 : (i 1).val < 8192 := (i 1).isLt
  have h0 : (i 0).val < 8 := (i 0).isLt
  have h2 : (i 2).val < 2048 := (i 2).isLt
  have hN : cfg0.N = 64 := N_0
  have hlt : (i 1).val / 128 < cfg0.N := by rw [hN]; omega
  refine ⟨⟨(i 1).val / 128, hlt⟩, flush0_2 _, ?_⟩
  obtain ⟨a0, a1, a2, b0, b1, b2, c0, c1, c2⟩ := idx_facts ⟨(i 1).val / 128, hlt⟩
  have c1' : win0_2.index ⟨(i 1).val / 128, hlt⟩ (1 : Fin 3) = (i 1).val / 128 := c1
  show i ∈ ((View.whole main_v477).slice (win0_2.rect ⟨(i 1).val / 128, hlt⟩)).set
  rw [View.set_slice_whole, Rect.mem_set_unit]
  intro a
  match a with
  | ⟨0, _⟩ => show win0_2.index ⟨(i 1).val / 128, hlt⟩ (0 : Fin 3) * 8 ≤ (i 0).val ∧ (i 0).val < win0_2.index ⟨(i 1).val / 128, hlt⟩ (0 : Fin 3) * 8 + 8; omega
  | ⟨1, _⟩ => show win0_2.index ⟨(i 1).val / 128, hlt⟩ (1 : Fin 3) * 128 ≤ (i 1).val ∧ (i 1).val < win0_2.index ⟨(i 1).val / 128, hlt⟩ (1 : Fin 3) * 128 + 128; omega
  | ⟨2, _⟩ => show win0_2.index ⟨(i 1).val / 128, hlt⟩ (2 : Fin 3) * 2048 ≤ (i 2).val ∧ (i 2).val < win0_2.index ⟨(i 1).val / 128, hlt⟩ (2 : Fin 3) * 2048 + 2048; omega

/-- The output array after the launch. -/
theorem final (c : Dev nD) : (dats m 0 c).arrAt 2 cfg0.N = finalA (V m c main_arg0) (V m c main_v476) :=
  (dats m 0 c).arrAt_eq_of_cover 2 _ (fun t _ => flushed_eq m c t) cover

/-- The launch run, read: the result array is x with the seven table rows written in, and the arguments end as they began. -/
theorem run_value : θ_run defs (onTc (τ := τ) (main (F := F))) ⟨m, fun _ => 0, ρ⟩ (fun r => ∀ c : Dev nD,
      r.2.mem ((c.tc : Thread nD τ).loc main_v477) = finalA (m ((c.tc : Thread nD τ).loc main_arg0)) (V m c main_v476)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 2).trans ((final m c).trans (by rw [V_main_arg0])),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) (run_main m ρ)

end Cert.KernelIdeal.Gen

end
-- ==== Proof.KISpec.lean ====
/-
  One step of the row recurrence, as four functions of arrays.

  A step takes three rows z, y, x' (each eight batches by 2048 lanes) and the layer's parameters and produces a
  new row: three affine mixes x⁺ = α₁z + β₁y + γ₁, w = α₂y + β₂x' + γ₂, v = α₃x⁺ + β₃w + γ₃; a gate
  g = 1 / (1 + exp(−([v ‖ z]·Wᵀ + b))); the blend p = g·v + (1 − g)·z; and the layer normalisation of p over
  its lanes, (p − mean p)·rsqrt(var p + ε)·w_ln + b_ln.  The functions below are that computation cut where the
  entry function cuts it: the blend (`preF`), its lane mean (`meanF`), its lane variance (`varF`, an
  outlined function in the program), and the normalisation (`normF`).  Each is spelled operation for operation
  as the program spells it, so that a stretch of the program is read back as one of them by unfolding alone;
  `stepF` is their composition.
-/
import proofs.«134958_j16810501996613_1_alg».proof.Proof.Gen.KernelIdeal

set_option maxRecDepth 16384

noncomputable section

namespace Cert.KernelIdeal.Gen

open Idealize.ShloMosaic Idealize.ShloMosaic.TcCoe Idealize.SL.Sem

variable {F : FTy → Type} [FloatOps F]

/-- The gated blend p of a step, from the rows z, y, x', the nine mixing vectors, the transposed gate matrix and the gate bias. -/
def preF (a1 a2 a3 a4 a5 a6 a7 a8 a9 gb : (⟨S2048, .f32⟩ : BufTy).Contents (Elt F)) (gwT : (⟨S4096x2048, .f32⟩ : BufTy).Contents (Elt F)) (z y xp : (⟨S8x2048, .f32⟩ : BufTy).Contents (Elt F)) : (⟨S8x2048, .f32⟩ : BufTy).Contents (Elt F) :=
  let v21 : (⟨S1x2048, .f32⟩ : BufTy).Contents (Elt F) := (broadcastInDim S1x2048 ![1] bcast_S2048_S1x2048_1 : (⟨S2048, .f32⟩ : BufTy).Contents (Elt F) → (⟨S1x2048, .f32⟩ : BufTy).Contents (Elt F)) a1
  let v22 : (⟨S8x2048, .f32⟩ : BufTy).Contents (Elt F) := (broadcastInDim S8x2048 ![0, 1] bcast_S1x2048_S8x2048_0_1 : (⟨S1x2048, .f32⟩ : BufTy).Contents (Elt F) → (⟨S8x2048, .f32⟩ : BufTy).Contents (Elt F)) v21
  let v23 : (⟨S8x2048, .f32⟩ : BufTy).Contents (Elt F) := (mulf : (⟨S8x2048, .f32⟩ : BufTy).Contents (Elt F) → (⟨S8x2048, .f32⟩ : BufTy).Contents (Elt F) → (⟨S8x2048, .f32⟩ : BufTy).Contents (Elt F)) v22 z
  let v24 : (⟨S1x2048, .f32⟩ : BufTy).Contents (Elt F) := (broadcastInDim S1x2048 ![1] bcast_S2048_S1x2048_1 : (⟨S2048, .f32⟩ : BufTy).Contents (Elt F) → (⟨S1x2048, .f32⟩ : BufTy).Contents (Elt F)) a2
  let v25 : (⟨S8x2048, .f32⟩ : BufTy).Contents (Elt F) := (broadcastInDim S8x2048 ![0, 1] bcast_S1x2048_S8x2048_0_1 : (⟨S1x2048, .f32⟩ : BufTy).Contents (Elt F) → (⟨S8x2048, .f32⟩ : BufTy).Contents (Elt F)) v24
  let v26 : (⟨S8x2048, .f32⟩ : BufTy).Contents (Elt F) := (mulf : (⟨S8x2048, .f32⟩ : BufTy).Contents (Elt F) → (⟨S8x2048, .f32⟩ : BufTy).Contents (Elt F) → (⟨S8x2048, .f32⟩ : BufTy).Contents (Elt F)) v25 y
  let v27 : (⟨S8x2048, .f32⟩ : BufTy).Contents (Elt F) := (addf : (⟨S8x2048, .f32⟩ : BufTy).Contents (Elt F) → (⟨S8x2048, .f32⟩ : BufTy).Contents (Elt F) → (⟨S8x2048, .f32⟩ : BufTy).Contents (Elt F)) v23 v26
  let v28 : (⟨S1x2048, .f32⟩ : BufTy).Contents (Elt F) := (broadcastInDim S1x2048 ![1] bcast_S2048_S1x2048_1 : (⟨S2048, .f32⟩ : BufTy).Contents (Elt F) → (⟨S1x2048, .f32⟩ : BufTy).Contents (Elt F)) a3
  let v29 : (⟨S8x2048, .f32⟩ : BufTy).Contents (Elt F) := (broadcastInDim S8x2048 ![0, 1] bcast_S1x2048_S8x2048_0_1 : (⟨S1x2048, .f32⟩ : BufTy).Contents (Elt F) → (⟨S8x2048, .f32⟩ : BufTy).Contents (Elt F)) v28
  let v30 : (⟨S8x2048, .f32⟩ : BufTy).Contents (Elt F) := (addf : (⟨S8x2048, .f32⟩ : BufTy).Contents (Elt F) → (⟨S8x2048, .f32⟩ : BufTy).Contents (Elt F) → (⟨S8x2048, .f32⟩ : BufTy).Contents (Elt F)) v27 v29
  let v31 : (⟨S1x2048, .f32⟩ : BufTy).Contents (Elt F) := (broadcastInDim S1x2048 ![1] bcast_S2048_S1x2048_1 : (⟨S2048, .f32⟩ : BufTy).Contents (Elt F) → (⟨S1x2048, .f32⟩ : BufTy).Contents (Elt F)) a4
  let v32 : (⟨S8x2048, .f32⟩ : BufTy).Contents (Elt F) := (broadcastInDim S8x2048 ![0, 1] bcast_S1x2048_S8x2048_0_1 : (⟨S1x2048, .f32⟩ : BufTy).Contents (Elt F) → (⟨S8x2048, .f32⟩ : BufTy).Contents (Elt F)) v31
  let v33 : (⟨S8x2048, .f32⟩ : BufTy).Contents (Elt F) := (mulf : (⟨S8x2048, .f32⟩ : BufTy).Contents (Elt F) → (⟨S8x2048, .f32⟩ : BufTy).Contents (Elt F) → (⟨S8x2048, .f32⟩ : BufTy).Contents (Elt F)) v32 y
  let v34 : (⟨S1x2048, .f32⟩ : BufTy).Contents (Elt F) := (broadcastInDim S1x2048 ![1] bcast_S2048_S1x2048_1 : (⟨S2048, .f32⟩ : BufTy).Contents (Elt F) → (⟨S1x2048, .f32⟩ : BufTy).Contents (Elt F)) a5
  let v35 : (⟨S8x2048, .f32⟩ : BufTy).Contents (Elt F) := (broadcastInDim S8x2048 ![0, 1] bcast_S1x2048_S8x2048_0_1 : (⟨S1x2048, .f32⟩ : BufTy).Contents (Elt F) → (⟨S8x2048, .f32⟩ : BufTy).Contents (Elt F)) v34
  let v36 : (⟨S8x2048, .f32⟩ : BufTy).Contents (Elt F) := (mulf : (⟨S8x2048, .f32⟩ : BufTy).Contents (Elt F) → (⟨S8x2048, .f32⟩ : BufTy).Contents (Elt F) → (⟨S8x2048, .f32⟩ : BufTy).Contents (Elt F)) v35 xp
  let v37 : (⟨S8x2048, .f32⟩ : BufTy).Contents (Elt F) := (addf : (⟨S8x2048, .f32⟩ : BufTy).Contents (Elt F) → (⟨S8x2048, .f32⟩ : BufTy).Contents (Elt F) → (⟨S8x2048, .f32⟩ : BufTy).Contents (Elt F)) v33 v36
  let v38 : (⟨S1x2048, .f32⟩ : BufTy).Contents (Elt F) := (broadcastInDim S1x2048 ![1] bcast_S2048_S1x2048_1 : (⟨S2048, .f32⟩ : BufTy).Contents (Elt F) → (⟨S1x2048, .f32⟩ : BufTy).Contents (Elt F)) a6
  let v39 : (⟨S8x2048, .f32⟩ : BufTy).Contents (Elt F) := (broadcastInDim S8x2048 ![0, 1] bcast_S1x2048_S8x2048_0_1 : (⟨S1x2048, .f32⟩ : BufTy).Contents (Elt F) → (⟨S8x2048, .f32⟩ : BufTy).Contents (Elt F)) v38
  let v40 : (⟨S8x2048, .f32⟩ : BufTy).Contents (Elt F) := (addf : (⟨S8x2048, .f32⟩ : BufTy).Contents (Elt F) → (⟨S8x2048, .f32⟩ : BufTy).Contents (Elt F) → (⟨S8x2048, .f32⟩ : BufTy).Contents (Elt F)) v37 v39
  let v41 : (⟨S1x2048, .f32⟩ : BufTy).Contents (Elt F) := (broadcastInDim S1x2048 ![1] bcast_S2048_S1x2048_1 : (⟨S2048, .f32⟩ : BufTy).Contents (Elt F) → (⟨S1x2048, .f32⟩ : BufTy).Contents (Elt F)) a7
  let v42 : (⟨S8x2048, .f32⟩ : BufTy).Contents (Elt F) := (broadcastInDim S8x2048 ![0, 1] bcast_S1x2048_S8x2048_0_1 : (⟨S1x2048, .f32⟩ : BufTy).Contents (Elt F) → (⟨S8x2048, .f32⟩ : BufTy).Contents (Elt F)) v41
  let v43 : (⟨S8x2048, .f32⟩ : BufTy).Contents (Elt F) := (mulf : (⟨S8x2048, .f32⟩ : BufTy).Contents (Elt F) → (⟨S8x2048, .f32⟩ : BufTy).Contents (Elt F) → (⟨S8x2048, .f32⟩ : BufTy).Contents (Elt F)) v42 v30
  let v44 : (⟨S1x2048, .f32⟩ : BufTy).Contents (Elt F) := (broadcastInDim S1x2048 ![1] bcast_S2048_S1x2048_1 : (⟨S2048, .f32⟩ : BufTy).Contents (Elt F) → (⟨S1x2048, .f32⟩ : BufTy).Contents (Elt F)) a8
  let v45 : (⟨S8x2048, .f32⟩ : BufTy).Contents (Elt F) := (broadcastInDim S8x2048 ![0, 1] bcast_S1x2048_S8x2048_0_1 : (⟨S1x2048, .f32⟩ : BufTy).Contents (Elt F) → (⟨S8x2048, .f32⟩ : BufTy).Contents (Elt F)) v44
  let v46 : (⟨S8x2048, .f32⟩ : BufTy).Contents (Elt F) := (mulf : (⟨S8x2048, .f32⟩ : BufTy).Contents (Elt F) → (⟨S8x2048, .f32⟩ : BufTy).Contents (Elt F) → (⟨S8x2048, .f32⟩ : BufTy).Contents (Elt F)) v45 v40
  let v47 : (⟨S8x2048, .f32⟩ : BufTy).Contents (Elt F) := (addf : (⟨S8x2048, .f32⟩ : BufTy).Contents (Elt F) → (⟨S8x2048, .f32⟩ : BufTy).Contents (Elt F) → (⟨S8x2048, .f32⟩ : BufTy).Contents (Elt F)) v43 v46
  let v48 : (⟨S1x2048, .f32⟩ : BufTy).Contents (Elt F) := (broadcastInDim S1x2048 ![1] bcast_S2048_S1x2048_1 : (⟨S2048, .f32⟩ : BufTy).Contents (Elt F) → (⟨S1x2048, .f32⟩ : BufTy).Contents (Elt F)) a9
  let v49 : (⟨S8x2048, .f32⟩ : BufTy).Contents (Elt F) := (broadcastInDim S8x2048 ![0, 1] bcast_S1x2048_S8x2048_0_1 : (⟨S1x2048, .f32⟩ : BufTy).Contents (Elt F) → (⟨S8x2048, .f32⟩ : BufTy).Contents (Elt F)) v48
  let v50 : (⟨S8x2048, .f32⟩ : BufTy).Contents (Elt F) := (addf : (⟨S8x2048, .f32⟩ : BufTy).Contents (Elt F) → (⟨S8x2048, .f32⟩ : BufTy).Contents (Elt F) → (⟨S8x2048, .f32⟩ : BufTy).Contents (Elt F)) v47 v49
  let v51 : (⟨S8x4096, .f32⟩ : BufTy).Contents (Elt F) := ((fun a b => concatenate S8x4096 1 [⟨S8x2048, a⟩, ⟨S8x2048, b⟩] concatenates_S8x2048_S8x2048_S8x4096_d1) : (⟨S8x2048, .f32⟩ : BufTy).Contents (Elt F) → (⟨S8x2048, .f32⟩ : BufTy).Contents (Elt F) → (⟨S8x4096, .f32⟩ : BufTy).Contents (Elt F)) v50 z
  let v52 : (⟨S8x2048, .f32⟩ : BufTy).Contents (Elt F) := ((fun l r => Host.dotGeneral dot_S8x4096_S4096x2048_S8x2048_1_0_0_1_n_n none l r) : (⟨S8x4096, .f32⟩ : BufTy).Contents (Elt F) → (⟨S4096x2048, .f32⟩ : BufTy).Contents (Elt F) → (⟨S8x2048, .f32⟩ : BufTy).Contents (Elt F)) v51 gwT
  let v53 : (⟨S1x2048, .f32⟩ : BufTy).Contents (Elt F) := (broadcastInDim S1x2048 ![1] bcast_S2048_S1x2048_1 : (⟨S2048, .f32⟩ : BufTy).Contents (Elt F) → (⟨S1x2048, .f32⟩ : BufTy).Contents (Elt F)) gb
  let v54 : (⟨S8x2048, .f32⟩ : BufTy).Contents (Elt F) := (broadcastInDim S8x2048 ![0, 1] bcast_S1x2048_S8x2048_0_1 : (⟨S1x2048, .f32⟩ : BufTy).Contents (Elt F) → (⟨S8x2048, .f32⟩ : BufTy).Contents (Elt F)) v53
  let v55 : (⟨S8x2048, .f32⟩ : BufTy).Contents (Elt F) := (addf : (⟨S8x2048, .f32⟩ : BufTy).Contents (Elt F) → (⟨S8x2048, .f32⟩ : BufTy).Contents (Elt F) → (⟨S8x2048, .f32⟩ : BufTy).Contents (Elt F)) v52 v54
  let v56 : (⟨S8x2048, .f32⟩ : BufTy).Contents (Elt F) := (Host.negf : (⟨S8x2048, .f32⟩ : BufTy).Contents (Elt F) → (⟨S8x2048, .f32⟩ : BufTy).Contents (Elt F)) v55
  let v57 : (⟨S8x2048, .f32⟩ : BufTy).Contents (Elt F) := (Host.exp : (⟨S8x2048, .f32⟩ : BufTy).Contents (Elt F) → (⟨S8x2048, .f32⟩ : BufTy).Contents (Elt F)) v56
  let cst : (⟨S_, .f32⟩ : BufTy).Contents (Elt F) := (constant S_ .f32 0x3F800000#32)
  let v58 : (⟨S8x2048, .f32⟩ : BufTy).Contents (Elt F) := (broadcastInDim S8x2048 ![] bcast_S_S8x2048 : (⟨S_, .f32⟩ : BufTy).Contents (Elt F) → (⟨S8x2048, .f32⟩ : BufTy).Contents (Elt F)) cst
  let v59 : (⟨S8x2048, .f32⟩ : BufTy).Contents (Elt F) := (addf : (⟨S8x2048, .f32⟩ : BufTy).Contents (Elt F) → (⟨S8x2048, .f32⟩ : BufTy).Contents (Elt F) → (⟨S8x2048, .f32⟩ : BufTy).Contents (Elt F)) v58 v57
  let cst_0 : (⟨S_, .f32⟩ : BufTy).Contents (Elt F) := (constant S_ .f32 0x3F800000#32)
  let v60 : (⟨S8x2048, .f32⟩ : BufTy).Contents (Elt F) := (broadcastInDim S8x2048 ![] bcast_S_S8x2048 : (⟨S_, .f32⟩ : BufTy).Contents (Elt F) → (⟨S8x2048, .f32⟩ : BufTy).Contents (Elt F)) cst_0
  let v61 : (⟨S8x2048, .f32⟩ : BufTy).Contents (Elt F) := (Host.divf : (⟨S8x2048, .f32⟩ : BufTy).Contents (Elt F) → (⟨S8x2048, .f32⟩ : BufTy).Contents (Elt F) → (⟨S8x2048, .f32⟩ : BufTy).Contents (Elt F)) v60 v59
  let v62 : (⟨S8x2048, .f32⟩ : BufTy).Contents (Elt F) := (mulf : (⟨S8x2048, .f32⟩ : BufTy).Contents (Elt F) → (⟨S8x2048, .f32⟩ : BufTy).Contents (Elt F) → (⟨S8x2048, .f32⟩ : BufTy).Contents (Elt F)) v61 v50
  let cst_1 : (⟨S_, .f32⟩ : BufTy).Contents (Elt F) := (constant S_ .f32 0x3F800000#32)
  let v63 : (⟨S8x2048, .f32⟩ : BufTy).Contents (Elt F) := (broadcastInDim S8x2048 ![] bcast_S_S8x2048 : (⟨S_, .f32⟩ : BufTy).Contents (Elt F) → (⟨S8x2048, .f32⟩ : BufTy).Contents (Elt F)) cst_1
  let v64 : (⟨S8x2048, .f32⟩ : BufTy).Contents (Elt F) := (subf : (⟨S8x2048, .f32⟩ : BufTy).Contents (Elt F) → (⟨S8x2048, .f32⟩ : BufTy).Contents (Elt F) → (⟨S8x2048, .f32⟩ : BufTy).Contents (Elt F)) v63 v61
  let v65 : (⟨S8x2048, .f32⟩ : BufTy).Contents (Elt F) := (mulf : (⟨S8x2048, .f32⟩ : BufTy).Contents (Elt F) → (⟨S8x2048, .f32⟩ : BufTy).Contents (Elt F) → (⟨S8x2048, .f32⟩ : BufTy).Contents (Elt F)) v64 z
  let v66 : (⟨S8x2048, .f32⟩ : BufTy).Contents (Elt F) := (addf : (⟨S8x2048, .f32⟩ : BufTy).Contents (Elt F) → (⟨S8x2048, .f32⟩ : BufTy).Contents (Elt F) → (⟨S8x2048, .f32⟩ : BufTy).Contents (Elt F)) v62 v65
  v66

/-- The lane mean of the blend, as a column. -/
def meanF (pre : (⟨S8x2048, .f32⟩ : BufTy).Contents (Elt F)) : (⟨S8x1, .f32⟩ : BufTy).Contents (Elt F) :=
  let cst_2 : (⟨S_, .f32⟩ : BufTy).Contents (Elt F) := (constant S_ .f32 0x00000000#32)
  let v67 : (⟨S8, .f32⟩ : BufTy).Contents (Elt F) := ((fun x v => Host.reduceAdd x v reducesTo_S8x2048_S8_d1 h_S_) : (⟨S8x2048, .f32⟩ : BufTy).Contents (Elt F) → (⟨S_, .f32⟩ : BufTy).Contents (Elt F) → (⟨S8, .f32⟩ : BufTy).Contents (Elt F)) pre cst_2
  let v68 : (⟨S8x1, .f32⟩ : BufTy).Contents (Elt F) := (broadcastInDim S8x1 ![0] bcast_S8_S8x1_0 : (⟨S8, .f32⟩ : BufTy).Contents (Elt F) → (⟨S8x1, .f32⟩ : BufTy).Contents (Elt F)) v67
  let cst_3 : (⟨S_, .f32⟩ : BufTy).Contents (Elt F) := (constant S_ .f32 0x45000000#32)
  let v69 : (⟨S8x1, .f32⟩ : BufTy).Contents (Elt F) := (broadcastInDim S8x1 ![] bcast_S_S8x1 : (⟨S_, .f32⟩ : BufTy).Contents (Elt F) → (⟨S8x1, .f32⟩ : BufTy).Contents (Elt F)) cst_3
  let v70 : (⟨S8x1, .f32⟩ : BufTy).Contents (Elt F) := (Host.divf : (⟨S8x1, .f32⟩ : BufTy).Contents (Elt F) → (⟨S8x1, .f32⟩ : BufTy).Contents (Elt F) → (⟨S8x1, .f32⟩ : BufTy).Contents (Elt F)) v68 v69
  v70

/-- The lane variance of the blend, as a column (`c0` is the degrees-of-freedom correction the program passes: zero). -/
def varF (pre : (⟨S8x2048, .f32⟩ : BufTy).Contents (Elt F)) (c0 : (⟨S_, .i32⟩ : BufTy).Contents (Elt F)) : (⟨S8x1, .f32⟩ : BufTy).Contents (Elt F) :=
  let call0_cst : (⟨S_, .f32⟩ : BufTy).Contents (Elt F) := (constant S_ .f32 0x00000000#32)
  let call0_v0 : (⟨S8, .f32⟩ : BufTy).Contents (Elt F) := (fun x v => Host.reduceAdd x v reducesTo_S8x2048_S8_d1 h_S_) pre call0_cst
  let call0_v1 : (⟨S8x1, .f32⟩ : BufTy).Contents (Elt F) := (broadcastInDim S8x1 ![0] bcast_S8_S8x1_0) call0_v0
  let call0_cst_0 : (⟨S_, .f32⟩ : BufTy).Contents (Elt F) := (constant S_ .f32 0x45000000#32)
  let call0_v2 : (⟨S8x1, .f32⟩ : BufTy).Contents (Elt F) := (broadcastInDim S8x1 ![] bcast_S_S8x1) call0_cst_0
  let call0_v3 : (⟨S8x1, .f32⟩ : BufTy).Contents (Elt F) := Host.divf call0_v1 call0_v2
  let call0_v4 : (⟨S8x2048, .f32⟩ : BufTy).Contents (Elt F) := (broadcastInDim S8x2048 ![0, 1] bcast_S8x1_S8x2048_0_1) call0_v3
  let call0_v5 : (⟨S8x2048, .f32⟩ : BufTy).Contents (Elt F) := subf pre call0_v4
  let call0_v6 : (⟨S8x2048, .f32⟩ : BufTy).Contents (Elt F) := mulf call0_v5 call0_v5
  let call0_v7 : (⟨S_, .f32⟩ : BufTy).Contents (Elt F) := (sitofp .f32) c0
  let call0_cst_1 : (⟨S_, .f32⟩ : BufTy).Contents (Elt F) := (constant S_ .f32 0x45000000#32)
  let call0_v8 : (⟨S_, .f32⟩ : BufTy).Contents (Elt F) := subf call0_cst_1 call0_v7
  let call0_cst_2 : (⟨S_, .f32⟩ : BufTy).Contents (Elt F) := (constant S_ .f32 0x00000000#32)
  let call0_v9 : (⟨S8, .f32⟩ : BufTy).Contents (Elt F) := (fun x v => Host.reduceAdd x v reducesTo_S8x2048_S8_d1 h_S_) call0_v6 call0_cst_2
  let call0_v10 : (⟨S8x1, .f32⟩ : BufTy).Contents (Elt F) := (broadcastInDim S8x1 ![0] bcast_S8_S8x1_0) call0_v9
  let call0_v11 : (⟨S8x1, .f32⟩ : BufTy).Contents (Elt F) := (broadcastInDim S8x1 ![] bcast_S_S8x1) call0_v8
  let call0_v12 : (⟨S8x1, .f32⟩ : BufTy).Contents (Elt F) := Host.divf call0_v10 call0_v11
  let call0_cst_3 : (⟨S_, .f32⟩ : BufTy).Contents (Elt F) := (constant S_ .f32 0x00000000#32)
  let call0_v13 : (⟨S_, .i1⟩ : BufTy).Contents (Elt F) := (cmpf .ogt) call0_v8 call0_cst_3
  let call0_cst_4 : (⟨S_, .f32⟩ : BufTy).Contents (Elt F) := (constant S_ .f32 0x7FC00000#32)
  let call0_call0_v0 : (⟨S_, .f32⟩ : BufTy).Contents (Elt F) := id call0_cst_4
  let call0_call0_v1 : (⟨S8x1, .f32⟩ : BufTy).Contents (Elt F) := (broadcastInDim S8x1 ![] bcast_S_S8x1) call0_call0_v0
  let v71 : (⟨S8x1, .f32⟩ : BufTy).Contents (Elt F) := (fun p a b => select (broadcastInDim S8x1 ![] bcast_S_S8x1 p) a b) call0_v13 call0_v12 call0_call0_v1
  v71

/-- The normalised row from the blend, its mean, its variance, and the normalisation's weight and bias. -/
def normF (pre : (⟨S8x2048, .f32⟩ : BufTy).Contents (Elt F)) (mean var : (⟨S8x1, .f32⟩ : BufTy).Contents (Elt F)) (lw lb : (⟨S2048, .f32⟩ : BufTy).Contents (Elt F)) : (⟨S8x2048, .f32⟩ : BufTy).Contents (Elt F) :=
  let v72 : (⟨S8x2048, .f32⟩ : BufTy).Contents (Elt F) := (broadcastInDim S8x2048 ![0, 1] bcast_S8x1_S8x2048_0_1 : (⟨S8x1, .f32⟩ : BufTy).Contents (Elt F) → (⟨S8x2048, .f32⟩ : BufTy).Contents (Elt F)) mean
  let v73 : (⟨S8x2048, .f32⟩ : BufTy).Contents (Elt F) := (subf : (⟨S8x2048, .f32⟩ : BufTy).Contents (Elt F) → (⟨S8x2048, .f32⟩ : BufTy).Contents (Elt F) → (⟨S8x2048, .f32⟩ : BufTy).Contents (Elt F)) pre v72
  let cst_4 : (⟨S_, .f32⟩ : BufTy).Contents (Elt F) := (constant S_ .f32 0x3727C5AC#32)
  let v74 : (⟨S8x1, .f32⟩ : BufTy).Contents (Elt F) := (broadcastInDim S8x1 ![] bcast_S_S8x1 : (⟨S_, .f32⟩ : BufTy).Contents (Elt F) → (⟨S8x1, .f32⟩ : BufTy).Contents (Elt F)) cst_4
  let v75 : (⟨S8x1, .f32⟩ : BufTy).Contents (Elt F) := (addf : (⟨S8x1, .f32⟩ : BufTy).Contents (Elt F) → (⟨S8x1, .f32⟩ : BufTy).Contents (Elt F) → (⟨S8x1, .f32⟩ : BufTy).Contents (Elt F)) var v74
  let v76 : (⟨S8x1, .f32⟩ : BufTy).Contents (Elt F) := (Host.rsqrt : (⟨S8x1, .f32⟩ : BufTy).Contents (Elt F) → (⟨S8x1, .f32⟩ : BufTy).Contents (Elt F)) v75
  let v77 : (⟨S8x2048, .f32⟩ : BufTy).Contents (Elt F) := (broadcastInDim S8x2048 ![0, 1] bcast_S8x1_S8x2048_0_1 : (⟨S8x1, .f32⟩ : BufTy).Contents (Elt F) → (⟨S8x2048, .f32⟩ : BufTy).Contents (Elt F)) v76
  let v78 : (⟨S8x2048, .f32⟩ : BufTy).Contents (Elt F) := (mulf : (⟨S8x2048, .f32⟩ : BufTy).Contents (Elt F) → (⟨S8x2048, .f32⟩ : BufTy).Contents (Elt F) → (⟨S8x2048, .f32⟩ : BufTy).Contents (Elt F)) v73 v77
  let v79 : (⟨S1x2048, .f32⟩ : BufTy).Contents (Elt F) := (broadcastInDim S1x2048 ![1] bcast_S2048_S1x2048_1 : (⟨S2048, .f32⟩ : BufTy).Contents (Elt F) → (⟨S1x2048, .f32⟩ : BufTy).Contents (Elt F)) lw
  let v80 : (⟨S8x2048, .f32⟩ : BufTy).Contents (Elt F) := (broadcastInDim S8x2048 ![0, 1] bcast_S1x2048_S8x2048_0_1 : (⟨S1x2048, .f32⟩ : BufTy).Contents (Elt F) → (⟨S8x2048, .f32⟩ : BufTy).Contents (Elt F)) v79
  let v81 : (⟨S8x2048, .f32⟩ : BufTy).Contents (Elt F) := (mulf : (⟨S8x2048, .f32⟩ : BufTy).Contents (Elt F) → (⟨S8x2048, .f32⟩ : BufTy).Contents (Elt F) → (⟨S8x2048, .f32⟩ : BufTy).Contents (Elt F)) v78 v80
  let v82 : (⟨S1x2048, .f32⟩ : BufTy).Contents (Elt F) := (broadcastInDim S1x2048 ![1] bcast_S2048_S1x2048_1 : (⟨S2048, .f32⟩ : BufTy).Contents (Elt F) → (⟨S1x2048, .f32⟩ : BufTy).Contents (Elt F)) lb
  let v83 : (⟨S8x2048, .f32⟩ : BufTy).Contents (Elt F) := (broadcastInDim S8x2048 ![0, 1] bcast_S1x2048_S8x2048_0_1 : (⟨S1x2048, .f32⟩ : BufTy).Contents (Elt F) → (⟨S8x2048, .f32⟩ : BufTy).Contents (Elt F)) v82
  let v84 : (⟨S8x2048, .f32⟩ : BufTy).Contents (Elt F) := (addf : (⟨S8x2048, .f32⟩ : BufTy).Contents (Elt F) → (⟨S8x2048, .f32⟩ : BufTy).Contents (Elt F) → (⟨S8x2048, .f32⟩ : BufTy).Contents (Elt F)) v81 v83
  v84

/-- One whole step. -/
def stepF (a1 a2 a3 a4 a5 a6 a7 a8 a9 gb lw lb : (⟨S2048, .f32⟩ : BufTy).Contents (Elt F)) (gwT : (⟨S4096x2048, .f32⟩ : BufTy).Contents (Elt F)) (z y xp : (⟨S8x2048, .f32⟩ : BufTy).Contents (Elt F)) : (⟨S8x2048, .f32⟩ : BufTy).Contents (Elt F) :=
  normF (preF a1 a2 a3 a4 a5 a6 a7 a8 a9 gb gwT z y xp) (meanF (preF a1 a2 a3 a4 a5 a6 a7 a8 a9 gb gwT z y xp))
    (varF (preF a1 a2 a3 a4 a5 a6 a7 a8 a9 gb gwT z y xp) (constantI S_ 32 0#32)) lw lb

end Cert.KernelIdeal.Gen

end
-- ==== Proof.KIRecurDefs.lean ====
/-
  The launch contents stretch by stretch, and three more pieces of the specification.

  The contents at the launch are a fold over fifteen stretches of operations.  Every buffer is written once, so
  its launch contents are what its own stretch left in it: a later stretch that does not write it passes it
  through.  `V_at j` says exactly that for a buffer no stretch after stretch j writes.
-/
import proofs.«134958_j16810501996613_1_alg».proof.Proof.KIHost
import proofs.«134958_j16810501996613_1_alg».proof.Proof.KISpec

set_option maxRecDepth 16384

noncomputable section

namespace Cert.KernelIdeal.Gen

open Idealize.ShloMosaic Idealize.ShloMosaic.TcCoe Idealize.SL.Sem
open Idealize.ShloMosaic.StableHlo

variable {F : FTy → Type} [FloatOps F]

variable (m : (ℓ : Loc nD τ sig) → Buf (Elt F) ℓ)

/-- Row `q` of x: all eight batches, all lanes. -/
def rowAt (q : ℕ) (h : S8x8192x2048.Slices ![0, q, 0] S8x1x2048) (x : (⟨S8x8192x2048, .f32⟩ : BufTy).Contents (Elt F)) : (⟨S8x2048, .f32⟩ : BufTy).Contents (Elt F) :=
  fun i => shapeCast S8x2048 (extractStridedSlice S8x1x2048 ![0, q, 0] x h) shapeCasts_S8x1x2048_S8x2048 i

/-- The gate matrix transposed. -/
def gwTF (gw : (⟨S2048x4096, .f32⟩ : BufTy).Contents (Elt F)) : (⟨S4096x2048, .f32⟩ : BufTy).Contents (Elt F) := transpose S4096x2048 [1, 0] gw transposes_S2048x4096_S4096x2048_1_0

/-- Seven rows stacked along a new leading axis. -/
def stackF (o1 o2 o3 o4 o5 o6 o7 : (⟨S8x2048, .f32⟩ : BufTy).Contents (Elt F)) : (⟨S7x8x2048, .f32⟩ : BufTy).Contents (Elt F) :=
  concatenate S7x8x2048 0 [⟨S1x8x2048, broadcastInDim S1x8x2048 ![1, 2] bcast_S8x2048_S1x8x2048_1_2 o1⟩, ⟨S1x8x2048, broadcastInDim S1x8x2048 ![1, 2] bcast_S8x2048_S1x8x2048_1_2 o2⟩, ⟨S1x8x2048, broadcastInDim S1x8x2048 ![1, 2] bcast_S8x2048_S1x8x2048_1_2 o3⟩, ⟨S1x8x2048, broadcastInDim S1x8x2048 ![1, 2] bcast_S8x2048_S1x8x2048_1_2 o4⟩, ⟨S1x8x2048, broadcastInDim S1x8x2048 ![1, 2] bcast_S8x2048_S1x8x2048_1_2 o5⟩, ⟨S1x8x2048, broadcastInDim S1x8x2048 ![1, 2] bcast_S8x2048_S1x8x2048_1_2 o6⟩, ⟨S1x8x2048, broadcastInDim S1x8x2048 ![1, 2] bcast_S8x2048_S1x8x2048_1_2 o7⟩]
    concatenates_S1x8x2048_S1x8x2048_S1x8x2048_S1x8x2048_S1x8x2048_S1x8x2048_S1x8x2048_S7x8x2048_d0

/-! ## The contents after each stretch -/

/-- At entry. -/
def Wl (c : Dev nD) : Valuation τ sig (Elt F) := fun b => m (c, b)
def W0 (c : Dev nD) : Valuation τ sig (Elt F) := StableHlo.after hostOps0 (Wl m c)
def W1 (c : Dev nD) : Valuation τ sig (Elt F) := StableHlo.after hostOps0_1 (W0 m c)
def W2 (c : Dev nD) : Valuation τ sig (Elt F) := StableHlo.after hostOps0_2 (W1 m c)
def W3 (c : Dev nD) : Valuation τ sig (Elt F) := StableHlo.after hostOps0_3 (W2 m c)
def W4 (c : Dev nD) : Valuation τ sig (Elt F) := StableHlo.after hostOps0_4 (W3 m c)
def W5 (c : Dev nD) : Valuation τ sig (Elt F) := StableHlo.after hostOps0_5 (W4 m c)
def W6 (c : Dev nD) : Valuation τ sig (Elt F) := StableHlo.after hostOps0_6 (W5 m c)
def W7 (c : Dev nD) : Valuation τ sig (Elt F) := StableHlo.after hostOps0_7 (W6 m c)
def W8 (c : Dev nD) : Valuation τ sig (Elt F) := StableHlo.after hostOps0_8 (W7 m c)
def W9 (c : Dev nD) : Valuation τ sig (Elt F) := StableHlo.after hostOps0_9 (W8 m c)
def W10 (c : Dev nD) : Valuation τ sig (Elt F) := StableHlo.after hostOps0_10 (W9 m c)
def W11 (c : Dev nD) : Valuation τ sig (Elt F) := StableHlo.after hostOps0_11 (W10 m c)
def W12 (c : Dev nD) : Valuation τ sig (Elt F) := StableHlo.after hostOps0_12 (W11 m c)
def W13 (c : Dev nD) : Valuation τ sig (Elt F) := StableHlo.after hostOps0_13 (W12 m c)
def W14 (c : Dev nD) : Valuation τ sig (Elt F) := StableHlo.after hostOps0_14 (W13 m c)

abbrev wrFrom15 : List (Ref sig .tc) := []
abbrev wrFrom14 : List (Ref sig .tc) := wr14 ++ wrFrom15
abbrev wrFrom13 : List (Ref sig .tc) := wr13 ++ wrFrom14
abbrev wrFrom12 : List (Ref sig .tc) := wr12 ++ wrFrom13
abbrev wrFrom11 : List (Ref sig .tc) := wr11 ++ wrFrom12
abbrev wrFrom10 : List (Ref sig .tc) := wr10 ++ wrFrom11
abbrev wrFrom9 : List (Ref sig .tc) := wr9 ++ wrFrom10
abbrev wrFrom8 : List (Ref sig .tc) := wr8 ++ wrFrom9
abbrev wrFrom7 : List (Ref sig .tc) := wr7 ++ wrFrom8
abbrev wrFrom6 : List (Ref sig .tc) := wr6 ++ wrFrom7
abbrev wrFrom5 : List (Ref sig .tc) := wr5 ++ wrFrom6
abbrev wrFrom4 : List (Ref sig .tc) := wr4 ++ wrFrom5
abbrev wrFrom3 : List (Ref sig .tc) := wr3 ++ wrFrom4
abbrev wrFrom2 : List (Ref sig .tc) := wr2 ++ wrFrom3
abbrev wrFrom1 : List (Ref sig .tc) := wr1 ++ wrFrom2
abbrev wrFrom0 : List (Ref sig .tc) := wr0 ++ wrFrom1

theorem V_at14 (c : Dev nD) (b : Ref sig .tc) : V m c b = W14 m c (Proc.devRef .tc b) := V_eq m c b
theorem V_at13 (c : Dev nD) (b : Ref sig .tc) (h : b ∉ wrFrom14) : V m c b = W13 m c (Proc.devRef .tc b) :=
  (V_at14 m c b).trans (keep14 (W13 m c) (fun hb => h (List.mem_append_left _ hb)))
theorem V_at12 (c : Dev nD) (b : Ref sig .tc) (h : b ∉ wrFrom13) : V m c b = W12 m c (Proc.devRef .tc b) :=
  (V_at13 m c b (fun hb => h (List.mem_append_right _ hb))).trans (keep13 (W12 m c) (fun hb => h (List.mem_append_left _ hb)))
theorem V_at11 (c : Dev nD) (b : Ref sig .tc) (h : b ∉ wrFrom12) : V m c b = W11 m c (Proc.devRef .tc b) :=
  (V_at12 m c b (fun hb => h (List.mem_append_right _ hb))).trans (keep12 (W11 m c) (fun hb => h (List.mem_append_left _ hb)))
theorem V_at10 (c : Dev nD) (b : Ref sig .tc) (h : b ∉ wrFrom11) : V m c b = W10 m c (Proc.devRef .tc b) :=
  (V_at11 m c b (fun hb => h (List.mem_append_right _ hb))).trans (keep11 (W10 m c) (fun hb => h (List.mem_append_left _ hb)))
theorem V_at9 (c : Dev nD) (b : Ref sig .tc) (h : b ∉ wrFrom10) : V m c b = W9 m c (Proc.devRef .tc b) :=
  (V_at10 m c b (fun hb => h (List.mem_append_right _ hb))).trans (keep10 (W9 m c) (fun hb => h (List.mem_append_left _ hb)))
theorem V_at8 (c : Dev nD) (b : Ref sig .tc) (h : b ∉ wrFrom9) : V m c b = W8 m c (Proc.devRef .tc b) :=
  (V_at9 m c b (fun hb => h (List.mem_append_right _ hb))).trans (keep9 (W8 m c) (fun hb => h (List.mem_append_left _ hb)))
theorem V_at7 (c : Dev nD) (b : Ref sig .tc) (h : b ∉ wrFrom8) : V m c b = W7 m c (Proc.devRef .tc b) :=
  (V_at8 m c b (fun hb => h (List.mem_append_right _ hb))).trans (keep8 (W7 m c) (fun hb => h (List.mem_append_left _ hb)))
theorem V_at6 (c : Dev nD) (b : Ref sig .tc) (h : b ∉ wrFrom7) : V m c b = W6 m c (Proc.devRef .tc b) :=
  (V_at7 m c b (fun hb => h (List.mem_append_right _ hb))).trans (keep7 (W6 m c) (fun hb => h (List.mem_append_left _ hb)))
theorem V_at5 (c : Dev nD) (b : Ref sig .tc) (h : b ∉ wrFrom6) : V m c b = W5 m c (Proc.devRef .tc b) :=
  (V_at6 m c b (fun hb => h (List.mem_append_right _ hb))).trans (keep6 (W5 m c) (fun hb => h (List.mem_append_left _ hb)))
theorem V_at4 (c : Dev nD) (b : Ref sig .tc) (h : b ∉ wrFrom5) : V m c b = W4 m c (Proc.devRef .tc b) :=
  (V_at5 m c b (fun hb => h (List.mem_append_right _ hb))).trans (keep5 (W4 m c) (fun hb => h (List.mem_append_left _ hb)))
theorem V_at3 (c : Dev nD) (b : Ref sig .tc) (h : b ∉ wrFrom4) : V m c b = W3 m c (Proc.devRef .tc b) :=
  (V_at4 m c b (fun hb => h (List.mem_append_right _ hb))).trans (keep4 (W3 m c) (fun hb => h (List.mem_append_left _ hb)))
theorem V_at2 (c : Dev nD) (b : Ref sig .tc) (h : b ∉ wrFrom3) : V m c b = W2 m c (Proc.devRef .tc b) :=
  (V_at3 m c b (fun hb => h (List.mem_append_right _ hb))).trans (keep3 (W2 m c) (fun hb => h (List.mem_append_left _ hb)))
theorem V_at1 (c : Dev nD) (b : Ref sig .tc) (h : b ∉ wrFrom2) : V m c b = W1 m c (Proc.devRef .tc b) :=
  (V_at2 m c b (fun hb => h (List.mem_append_right _ hb))).trans (keep2 (W1 m c) (fun hb => h (List.mem_append_left _ hb)))
theorem V_at0 (c : Dev nD) (b : Ref sig .tc) (h : b ∉ wrFrom1) : V m c b = W0 m c (Proc.devRef .tc b) :=
  (V_at1 m c b (fun hb => h (List.mem_append_right _ hb))).trans (keep1 (W0 m c) (fun hb => h (List.mem_append_left _ hb)))
theorem V_atL (c : Dev nD) (b : Ref sig .tc) (h : b ∉ wrFrom0) : V m c b = Wl m c (Proc.devRef .tc b) :=
  (V_at0 m c b (fun hb => h (List.mem_append_right _ hb))).trans (keep0 (Wl m c) (fun hb => h (List.mem_append_left _ hb)))

end Cert.KernelIdeal.Gen

end
-- ==== Proof.KIStretch1.lean ====
/-
  Step 1 of the recurrence, stretch by stretch: each of the stretches that make it up is read back, over any
  contents before it, as the matching piece of the specification applied to the buffers it reads.
-/
import proofs.«134958_j16810501996613_1_alg».proof.Proof.KIRecurDefs

set_option maxRecDepth 16384

noncomputable section

namespace Cert.KernelIdeal.Gen

open Idealize.ShloMosaic Idealize.ShloMosaic.TcCoe Idealize.SL.Sem
open Idealize.ShloMosaic.StableHlo

variable {F : FTy → Type} [FloatOps F]

set_option maxHeartbeats 40000000 in
theorem S0_row2 (W : Valuation τ sig (Elt F)) : StableHlo.after hostOps0 W (Proc.devRef .tc main_v3) = rowAt 2 slices_S8x8192x2048_S8x1x2048_0_2_0 (W (Proc.devRef .tc main_arg0)) := by
  (simp (disch := decide) only [hostOps0, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S0_row4 (W : Valuation τ sig (Elt F)) : StableHlo.after hostOps0 W (Proc.devRef .tc main_v5) = rowAt 4 slices_S8x8192x2048_S8x1x2048_0_4_0 (W (Proc.devRef .tc main_arg0)) := by
  (simp (disch := decide) only [hostOps0, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S0_row12 (W : Valuation τ sig (Elt F)) : StableHlo.after hostOps0 W (Proc.devRef .tc main_v7) = rowAt 12 slices_S8x8192x2048_S8x1x2048_0_12_0 (W (Proc.devRef .tc main_arg0)) := by
  (simp (disch := decide) only [hostOps0, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S0_row36 (W : Valuation τ sig (Elt F)) : StableHlo.after hostOps0 W (Proc.devRef .tc main_v9) = rowAt 36 slices_S8x8192x2048_S8x1x2048_0_36_0 (W (Proc.devRef .tc main_arg0)) := by
  (simp (disch := decide) only [hostOps0, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S0_row104 (W : Valuation τ sig (Elt F)) : StableHlo.after hostOps0 W (Proc.devRef .tc main_v11) = rowAt 104 slices_S8x8192x2048_S8x1x2048_0_104_0 (W (Proc.devRef .tc main_arg0)) := by
  (simp (disch := decide) only [hostOps0, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S0_row304 (W : Valuation τ sig (Elt F)) : StableHlo.after hostOps0 W (Proc.devRef .tc main_v13) = rowAt 304 slices_S8x8192x2048_S8x1x2048_0_304_0 (W (Proc.devRef .tc main_arg0)) := by
  (simp (disch := decide) only [hostOps0, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S0_row888 (W : Valuation τ sig (Elt F)) : StableHlo.after hostOps0 W (Proc.devRef .tc main_v15) = rowAt 888 slices_S8x8192x2048_S8x1x2048_0_888_0 (W (Proc.devRef .tc main_arg0)) := by
  (simp (disch := decide) only [hostOps0, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S0_row2592 (W : Valuation τ sig (Elt F)) : StableHlo.after hostOps0 W (Proc.devRef .tc main_v17) = rowAt 2592 slices_S8x8192x2048_S8x1x2048_0_2592_0 (W (Proc.devRef .tc main_arg0)) := by
  (simp (disch := decide) only [hostOps0, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S0_row7568 (W : Valuation τ sig (Elt F)) : StableHlo.after hostOps0 W (Proc.devRef .tc main_v19) = rowAt 7568 slices_S8x8192x2048_S8x1x2048_0_7568_0 (W (Proc.devRef .tc main_arg0)) := by
  (simp (disch := decide) only [hostOps0, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S0_gwT (W : Valuation τ sig (Elt F)) : StableHlo.after hostOps0 W (Proc.devRef .tc main_v20) = gwTF (W (Proc.devRef .tc main_arg10)) := by
  (simp (disch := decide) only [hostOps0, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S0_pre (W : Valuation τ sig (Elt F)) : StableHlo.after hostOps0 W (Proc.devRef .tc main_v66) =
    preF (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg11)) (StableHlo.after hostOps0 W (Proc.devRef .tc main_v20)) (StableHlo.after hostOps0 W (Proc.devRef .tc main_v7)) (StableHlo.after hostOps0 W (Proc.devRef .tc main_v5)) (StableHlo.after hostOps0 W (Proc.devRef .tc main_v3)) := by
  (simp (disch := decide) only [hostOps0, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S0_mean (W : Valuation τ sig (Elt F)) : StableHlo.after hostOps0 W (Proc.devRef .tc main_v70) = meanF (StableHlo.after hostOps0 W (Proc.devRef .tc main_v66)) := by
  (simp (disch := decide) only [hostOps0, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S0_c (W : Valuation τ sig (Elt F)) : StableHlo.after hostOps0 W (Proc.devRef .tc main_c) = constantI S_ 32 0#32 := by
  (simp (disch := decide) only [hostOps0, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S1_var (W : Valuation τ sig (Elt F)) : StableHlo.after hostOps0_1 W (Proc.devRef .tc main_v71) = varF (W (Proc.devRef .tc main_v66)) (W (Proc.devRef .tc main_c)) := by
  (simp (disch := decide) only [hostOps0_1, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S2_out (W : Valuation τ sig (Elt F)) : StableHlo.after hostOps0_2 W (Proc.devRef .tc main_v84) = normF (W (Proc.devRef .tc main_v66)) (W (Proc.devRef .tc main_v70)) (W (Proc.devRef .tc main_v71)) (W (Proc.devRef .tc main_arg12)) (W (Proc.devRef .tc main_arg13)) := by
  (simp (disch := decide) only [hostOps0_2, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl

end Cert.KernelIdeal.Gen

end
-- ==== Proof.KIStretch2.lean ====
/-
  Step 2 of the recurrence, stretch by stretch: each of the stretches that make it up is read back, over any
  contents before it, as the matching piece of the specification applied to the buffers it reads.
-/
import proofs.«134958_j16810501996613_1_alg».proof.Proof.KIRecurDefs

set_option maxRecDepth 16384

noncomputable section

namespace Cert.KernelIdeal.Gen

open Idealize.ShloMosaic Idealize.ShloMosaic.TcCoe Idealize.SL.Sem
open Idealize.ShloMosaic.StableHlo

variable {F : FTy → Type} [FloatOps F]

set_option maxHeartbeats 40000000 in
theorem S2_pre (W : Valuation τ sig (Elt F)) : StableHlo.after hostOps0_2 W (Proc.devRef .tc main_v130) =
    preF (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg11)) (W (Proc.devRef .tc main_v20)) (W (Proc.devRef .tc main_v9)) (StableHlo.after hostOps0_2 W (Proc.devRef .tc main_v84)) (W (Proc.devRef .tc main_v5)) := by
  (simp (disch := decide) only [hostOps0_2, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S2_mean (W : Valuation τ sig (Elt F)) : StableHlo.after hostOps0_2 W (Proc.devRef .tc main_v134) = meanF (StableHlo.after hostOps0_2 W (Proc.devRef .tc main_v130)) := by
  (simp (disch := decide) only [hostOps0_2, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S2_c (W : Valuation τ sig (Elt F)) : StableHlo.after hostOps0_2 W (Proc.devRef .tc main_c_10) = constantI S_ 32 0#32 := by
  (simp (disch := decide) only [hostOps0_2, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S3_var (W : Valuation τ sig (Elt F)) : StableHlo.after hostOps0_3 W (Proc.devRef .tc main_v135) = varF (W (Proc.devRef .tc main_v130)) (W (Proc.devRef .tc main_c_10)) := by
  (simp (disch := decide) only [hostOps0_3, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S4_out (W : Valuation τ sig (Elt F)) : StableHlo.after hostOps0_4 W (Proc.devRef .tc main_v148) = normF (W (Proc.devRef .tc main_v130)) (W (Proc.devRef .tc main_v134)) (W (Proc.devRef .tc main_v135)) (W (Proc.devRef .tc main_arg12)) (W (Proc.devRef .tc main_arg13)) := by
  (simp (disch := decide) only [hostOps0_4, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl

end Cert.KernelIdeal.Gen

end
-- ==== Proof.KIStretch3.lean ====
/-
  Step 3 of the recurrence, stretch by stretch: each of the stretches that make it up is read back, over any
  contents before it, as the matching piece of the specification applied to the buffers it reads.
-/
import proofs.«134958_j16810501996613_1_alg».proof.Proof.KIRecurDefs

set_option maxRecDepth 16384

noncomputable section

namespace Cert.KernelIdeal.Gen

open Idealize.ShloMosaic Idealize.ShloMosaic.TcCoe Idealize.SL.Sem
open Idealize.ShloMosaic.StableHlo

variable {F : FTy → Type} [FloatOps F]

set_option maxHeartbeats 40000000 in
theorem S4_pre (W : Valuation τ sig (Elt F)) : StableHlo.after hostOps0_4 W (Proc.devRef .tc main_v194) =
    preF (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg11)) (W (Proc.devRef .tc main_v20)) (W (Proc.devRef .tc main_v11)) (StableHlo.after hostOps0_4 W (Proc.devRef .tc main_v148)) (W (Proc.devRef .tc main_v84)) := by
  (simp (disch := decide) only [hostOps0_4, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S4_mean (W : Valuation τ sig (Elt F)) : StableHlo.after hostOps0_4 W (Proc.devRef .tc main_v198) = meanF (StableHlo.after hostOps0_4 W (Proc.devRef .tc main_v194)) := by
  (simp (disch := decide) only [hostOps0_4, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S4_c (W : Valuation τ sig (Elt F)) : StableHlo.after hostOps0_4 W (Proc.devRef .tc main_c_17) = constantI S_ 32 0#32 := by
  (simp (disch := decide) only [hostOps0_4, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S5_var (W : Valuation τ sig (Elt F)) : StableHlo.after hostOps0_5 W (Proc.devRef .tc main_v199) = varF (W (Proc.devRef .tc main_v194)) (W (Proc.devRef .tc main_c_17)) := by
  (simp (disch := decide) only [hostOps0_5, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S6_out (W : Valuation τ sig (Elt F)) : StableHlo.after hostOps0_6 W (Proc.devRef .tc main_v212) = normF (W (Proc.devRef .tc main_v194)) (W (Proc.devRef .tc main_v198)) (W (Proc.devRef .tc main_v199)) (W (Proc.devRef .tc main_arg12)) (W (Proc.devRef .tc main_arg13)) := by
  (simp (disch := decide) only [hostOps0_6, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl

end Cert.KernelIdeal.Gen

end
-- ==== Proof.KIStretch4.lean ====
/-
  Step 4 of the recurrence, stretch by stretch: each of the stretches that make it up is read back, over any
  contents before it, as the matching piece of the specification applied to the buffers it reads.
-/
import proofs.«134958_j16810501996613_1_alg».proof.Proof.KIRecurDefs

set_option maxRecDepth 16384

noncomputable section

namespace Cert.KernelIdeal.Gen

open Idealize.ShloMosaic Idealize.ShloMosaic.TcCoe Idealize.SL.Sem
open Idealize.ShloMosaic.StableHlo

variable {F : FTy → Type} [FloatOps F]

set_option maxHeartbeats 40000000 in
theorem S6_pre (W : Valuation τ sig (Elt F)) : StableHlo.after hostOps0_6 W (Proc.devRef .tc main_v258) =
    preF (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg11)) (W (Proc.devRef .tc main_v20)) (W (Proc.devRef .tc main_v13)) (StableHlo.after hostOps0_6 W (Proc.devRef .tc main_v212)) (W (Proc.devRef .tc main_v148)) := by
  (simp (disch := decide) only [hostOps0_6, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S6_mean (W : Valuation τ sig (Elt F)) : StableHlo.after hostOps0_6 W (Proc.devRef .tc main_v262) = meanF (StableHlo.after hostOps0_6 W (Proc.devRef .tc main_v258)) := by
  (simp (disch := decide) only [hostOps0_6, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S6_c (W : Valuation τ sig (Elt F)) : StableHlo.after hostOps0_6 W (Proc.devRef .tc main_c_24) = constantI S_ 32 0#32 := by
  (simp (disch := decide) only [hostOps0_6, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S7_var (W : Valuation τ sig (Elt F)) : StableHlo.after hostOps0_7 W (Proc.devRef .tc main_v263) = varF (W (Proc.devRef .tc main_v258)) (W (Proc.devRef .tc main_c_24)) := by
  (simp (disch := decide) only [hostOps0_7, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S8_out (W : Valuation τ sig (Elt F)) : StableHlo.after hostOps0_8 W (Proc.devRef .tc main_v276) = normF (W (Proc.devRef .tc main_v258)) (W (Proc.devRef .tc main_v262)) (W (Proc.devRef .tc main_v263)) (W (Proc.devRef .tc main_arg12)) (W (Proc.devRef .tc main_arg13)) := by
  (simp (disch := decide) only [hostOps0_8, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl

end Cert.KernelIdeal.Gen

end
-- ==== Proof.KIStretch5.lean ====
/-
  Step 5 of the recurrence, stretch by stretch: each of the stretches that make it up is read back, over any
  contents before it, as the matching piece of the specification applied to the buffers it reads.
-/
import proofs.«134958_j16810501996613_1_alg».proof.Proof.KIRecurDefs

set_option maxRecDepth 16384

noncomputable section

namespace Cert.KernelIdeal.Gen

open Idealize.ShloMosaic Idealize.ShloMosaic.TcCoe Idealize.SL.Sem
open Idealize.ShloMosaic.StableHlo

variable {F : FTy → Type} [FloatOps F]

set_option maxHeartbeats 40000000 in
theorem S8_pre (W : Valuation τ sig (Elt F)) : StableHlo.after hostOps0_8 W (Proc.devRef .tc main_v322) =
    preF (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg11)) (W (Proc.devRef .tc main_v20)) (W (Proc.devRef .tc main_v15)) (StableHlo.after hostOps0_8 W (Proc.devRef .tc main_v276)) (W (Proc.devRef .tc main_v212)) := by
  (simp (disch := decide) only [hostOps0_8, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S8_mean (W : Valuation τ sig (Elt F)) : StableHlo.after hostOps0_8 W (Proc.devRef .tc main_v326) = meanF (StableHlo.after hostOps0_8 W (Proc.devRef .tc main_v322)) := by
  (simp (disch := decide) only [hostOps0_8, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S8_c (W : Valuation τ sig (Elt F)) : StableHlo.after hostOps0_8 W (Proc.devRef .tc main_c_31) = constantI S_ 32 0#32 := by
  (simp (disch := decide) only [hostOps0_8, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S9_var (W : Valuation τ sig (Elt F)) : StableHlo.after hostOps0_9 W (Proc.devRef .tc main_v327) = varF (W (Proc.devRef .tc main_v322)) (W (Proc.devRef .tc main_c_31)) := by
  (simp (disch := decide) only [hostOps0_9, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S10_out (W : Valuation τ sig (Elt F)) : StableHlo.after hostOps0_10 W (Proc.devRef .tc main_v340) = normF (W (Proc.devRef .tc main_v322)) (W (Proc.devRef .tc main_v326)) (W (Proc.devRef .tc main_v327)) (W (Proc.devRef .tc main_arg12)) (W (Proc.devRef .tc main_arg13)) := by
  (simp (disch := decide) only [hostOps0_10, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl

end Cert.KernelIdeal.Gen

end
-- ==== Proof.KIStretch6.lean ====
/-
  Step 6 of the recurrence, stretch by stretch: each of the stretches that make it up is read back, over any
  contents before it, as the matching piece of the specification applied to the buffers it reads.
-/
import proofs.«134958_j16810501996613_1_alg».proof.Proof.KIRecurDefs

set_option maxRecDepth 16384

noncomputable section

namespace Cert.KernelIdeal.Gen

open Idealize.ShloMosaic Idealize.ShloMosaic.TcCoe Idealize.SL.Sem
open Idealize.ShloMosaic.StableHlo

variable {F : FTy → Type} [FloatOps F]

set_option maxHeartbeats 40000000 in
theorem S10_pre (W : Valuation τ sig (Elt F)) : StableHlo.after hostOps0_10 W (Proc.devRef .tc main_v386) =
    preF (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg11)) (W (Proc.devRef .tc main_v20)) (W (Proc.devRef .tc main_v17)) (StableHlo.after hostOps0_10 W (Proc.devRef .tc main_v340)) (W (Proc.devRef .tc main_v276)) := by
  (simp (disch := decide) only [hostOps0_10, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S10_mean (W : Valuation τ sig (Elt F)) : StableHlo.after hostOps0_10 W (Proc.devRef .tc main_v390) = meanF (StableHlo.after hostOps0_10 W (Proc.devRef .tc main_v386)) := by
  (simp (disch := decide) only [hostOps0_10, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S10_c (W : Valuation τ sig (Elt F)) : StableHlo.after hostOps0_10 W (Proc.devRef .tc main_c_38) = constantI S_ 32 0#32 := by
  (simp (disch := decide) only [hostOps0_10, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S11_var (W : Valuation τ sig (Elt F)) : StableHlo.after hostOps0_11 W (Proc.devRef .tc main_v391) = varF (W (Proc.devRef .tc main_v386)) (W (Proc.devRef .tc main_c_38)) := by
  (simp (disch := decide) only [hostOps0_11, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S12_out (W : Valuation τ sig (Elt F)) : StableHlo.after hostOps0_12 W (Proc.devRef .tc main_v404) = normF (W (Proc.devRef .tc main_v386)) (W (Proc.devRef .tc main_v390)) (W (Proc.devRef .tc main_v391)) (W (Proc.devRef .tc main_arg12)) (W (Proc.devRef .tc main_arg13)) := by
  (simp (disch := decide) only [hostOps0_12, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl

end Cert.KernelIdeal.Gen

end
-- ==== Proof.KIStretch7.lean ====
/-
  Step 7 of the recurrence, stretch by stretch: each of the stretches that make it up is read back, over any
  contents before it, as the matching piece of the specification applied to the buffers it reads.
-/
import proofs.«134958_j16810501996613_1_alg».proof.Proof.KIRecurDefs

set_option maxRecDepth 16384

noncomputable section

namespace Cert.KernelIdeal.Gen

open Idealize.ShloMosaic Idealize.ShloMosaic.TcCoe Idealize.SL.Sem
open Idealize.ShloMosaic.StableHlo

variable {F : FTy → Type} [FloatOps F]

set_option maxHeartbeats 40000000 in
theorem S12_pre (W : Valuation τ sig (Elt F)) : StableHlo.after hostOps0_12 W (Proc.devRef .tc main_v450) =
    preF (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg11)) (W (Proc.devRef .tc main_v20)) (W (Proc.devRef .tc main_v19)) (StableHlo.after hostOps0_12 W (Proc.devRef .tc main_v404)) (W (Proc.devRef .tc main_v340)) := by
  (simp (disch := decide) only [hostOps0_12, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S12_mean (W : Valuation τ sig (Elt F)) : StableHlo.after hostOps0_12 W (Proc.devRef .tc main_v454) = meanF (StableHlo.after hostOps0_12 W (Proc.devRef .tc main_v450)) := by
  (simp (disch := decide) only [hostOps0_12, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S12_c (W : Valuation τ sig (Elt F)) : StableHlo.after hostOps0_12 W (Proc.devRef .tc main_c_45) = constantI S_ 32 0#32 := by
  (simp (disch := decide) only [hostOps0_12, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S13_var (W : Valuation τ sig (Elt F)) : StableHlo.after hostOps0_13 W (Proc.devRef .tc main_v455) = varF (W (Proc.devRef .tc main_v450)) (W (Proc.devRef .tc main_c_45)) := by
  (simp (disch := decide) only [hostOps0_13, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S14_out (W : Valuation τ sig (Elt F)) : StableHlo.after hostOps0_14 W (Proc.devRef .tc main_v468) = normF (W (Proc.devRef .tc main_v450)) (W (Proc.devRef .tc main_v454)) (W (Proc.devRef .tc main_v455)) (W (Proc.devRef .tc main_arg12)) (W (Proc.devRef .tc main_arg13)) := by
  (simp (disch := decide) only [hostOps0_14, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S14_upd (W : Valuation τ sig (Elt F)) : StableHlo.after hostOps0_14 W (Proc.devRef .tc main_v476) =
    stackF (W (Proc.devRef .tc main_v84)) (W (Proc.devRef .tc main_v148)) (W (Proc.devRef .tc main_v212)) (W (Proc.devRef .tc main_v276)) (W (Proc.devRef .tc main_v340)) (W (Proc.devRef .tc main_v404)) (StableHlo.after hostOps0_14 W (Proc.devRef .tc main_v468)) := by
  (simp (disch := decide) only [hostOps0_14, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl

end Cert.KernelIdeal.Gen

end
-- ==== Proof.KIRecur.lean ====
/-
  The host recurrence read back: at the launch, each replacement row is one step of the recurrence applied to rows
  of x and to earlier replacement rows, and the table handed to the kernel is the seven of them stacked.
-/
import proofs.«134958_j16810501996613_1_alg».proof.Proof.KIStretch1
import proofs.«134958_j16810501996613_1_alg».proof.Proof.KIStretch2
import proofs.«134958_j16810501996613_1_alg».proof.Proof.KIStretch3
import proofs.«134958_j16810501996613_1_alg».proof.Proof.KIStretch4
import proofs.«134958_j16810501996613_1_alg».proof.Proof.KIStretch5
import proofs.«134958_j16810501996613_1_alg».proof.Proof.KIStretch6
import proofs.«134958_j16810501996613_1_alg».proof.Proof.KIStretch7

set_option maxRecDepth 16384

noncomputable section

namespace Cert.KernelIdeal.Gen

open Idealize.ShloMosaic Idealize.ShloMosaic.TcCoe Idealize.SL.Sem
open Idealize.ShloMosaic.StableHlo

variable {F : FTy → Type} [FloatOps F]

variable (m : (ℓ : Loc nD τ sig) → Buf (Elt F) ℓ)

theorem E_row2 (c : Dev nD) : V m c main_v3 = rowAt 2 slices_S8x8192x2048_S8x1x2048_0_2_0 (V m c main_arg0) := by
  rw [V_at0 m c main_v3 (by decide), V_atL m c main_arg0 (by decide)]
  exact S0_row2 (Wl m c)
theorem E_row4 (c : Dev nD) : V m c main_v5 = rowAt 4 slices_S8x8192x2048_S8x1x2048_0_4_0 (V m c main_arg0) := by
  rw [V_at0 m c main_v5 (by decide), V_atL m c main_arg0 (by decide)]
  exact S0_row4 (Wl m c)
theorem E_row12 (c : Dev nD) : V m c main_v7 = rowAt 12 slices_S8x8192x2048_S8x1x2048_0_12_0 (V m c main_arg0) := by
  rw [V_at0 m c main_v7 (by decide), V_atL m c main_arg0 (by decide)]
  exact S0_row12 (Wl m c)
theorem E_row36 (c : Dev nD) : V m c main_v9 = rowAt 36 slices_S8x8192x2048_S8x1x2048_0_36_0 (V m c main_arg0) := by
  rw [V_at0 m c main_v9 (by decide), V_atL m c main_arg0 (by decide)]
  exact S0_row36 (Wl m c)
theorem E_row104 (c : Dev nD) : V m c main_v11 = rowAt 104 slices_S8x8192x2048_S8x1x2048_0_104_0 (V m c main_arg0) := by
  rw [V_at0 m c main_v11 (by decide), V_atL m c main_arg0 (by decide)]
  exact S0_row104 (Wl m c)
theorem E_row304 (c : Dev nD) : V m c main_v13 = rowAt 304 slices_S8x8192x2048_S8x1x2048_0_304_0 (V m c main_arg0) := by
  rw [V_at0 m c main_v13 (by decide), V_atL m c main_arg0 (by decide)]
  exact S0_row304 (Wl m c)
theorem E_row888 (c : Dev nD) : V m c main_v15 = rowAt 888 slices_S8x8192x2048_S8x1x2048_0_888_0 (V m c main_arg0) := by
  rw [V_at0 m c main_v15 (by decide), V_atL m c main_arg0 (by decide)]
  exact S0_row888 (Wl m c)
theorem E_row2592 (c : Dev nD) : V m c main_v17 = rowAt 2592 slices_S8x8192x2048_S8x1x2048_0_2592_0 (V m c main_arg0) := by
  rw [V_at0 m c main_v17 (by decide), V_atL m c main_arg0 (by decide)]
  exact S0_row2592 (Wl m c)
theorem E_row7568 (c : Dev nD) : V m c main_v19 = rowAt 7568 slices_S8x8192x2048_S8x1x2048_0_7568_0 (V m c main_arg0) := by
  rw [V_at0 m c main_v19 (by decide), V_atL m c main_arg0 (by decide)]
  exact S0_row7568 (Wl m c)
theorem E_gwT (c : Dev nD) : V m c main_v20 = gwTF (V m c main_arg10) := by
  rw [V_at0 m c main_v20 (by decide), V_atL m c main_arg10 (by decide)]
  exact S0_gwT (Wl m c)
theorem E_pre1 (c : Dev nD) : V m c main_v66 = preF (V m c main_arg1) (V m c main_arg2) (V m c main_arg3) (V m c main_arg4) (V m c main_arg5) (V m c main_arg6) (V m c main_arg7) (V m c main_arg8) (V m c main_arg9) (V m c main_arg11) (V m c main_v20) (V m c main_v7) (V m c main_v5) (V m c main_v3) := by
  rw [V_at0 m c main_v66 (by decide), V_atL m c main_arg1 (by decide), V_atL m c main_arg2 (by decide), V_atL m c main_arg3 (by decide), V_atL m c main_arg4 (by decide), V_atL m c main_arg5 (by decide), V_atL m c main_arg6 (by decide), V_atL m c main_arg7 (by decide), V_atL m c main_arg8 (by decide), V_atL m c main_arg9 (by decide), V_atL m c main_arg11 (by decide), V_at0 m c main_v20 (by decide), V_at0 m c main_v7 (by decide), V_at0 m c main_v5 (by decide), V_at0 m c main_v3 (by decide)]
  exact S0_pre (Wl m c)
theorem E_mean1 (c : Dev nD) : V m c main_v70 = meanF (V m c main_v66) := by
  rw [V_at0 m c main_v70 (by decide), V_at0 m c main_v66 (by decide)]
  exact S0_mean (Wl m c)
theorem E_c1 (c : Dev nD) : V m c main_c = constantI S_ 32 0#32 := by
  rw [V_at0 m c main_c (by decide)]
  exact S0_c (Wl m c)
theorem E_var1 (c : Dev nD) : V m c main_v71 = varF (V m c main_v66) (V m c main_c) := by
  rw [V_at1 m c main_v71 (by decide), V_at0 m c main_v66 (by decide), V_at0 m c main_c (by decide)]
  exact S1_var (W0 m c)
theorem E_out1 (c : Dev nD) : V m c main_v84 = normF (V m c main_v66) (V m c main_v70) (V m c main_v71) (V m c main_arg12) (V m c main_arg13) := by
  rw [V_at2 m c main_v84 (by decide), V_at1 m c main_v66 (by decide), V_at1 m c main_v70 (by decide), V_at1 m c main_v71 (by decide), V_at1 m c main_arg12 (by decide), V_at1 m c main_arg13 (by decide)]
  exact S2_out (W1 m c)
/-- Replacement row 1 is one step of the recurrence. -/
theorem step1 (c : Dev nD) : V m c main_v84 =
    stepF (V m c main_arg1) (V m c main_arg2) (V m c main_arg3) (V m c main_arg4) (V m c main_arg5) (V m c main_arg6) (V m c main_arg7) (V m c main_arg8) (V m c main_arg9) (V m c main_arg11) (V m c main_arg12) (V m c main_arg13) (V m c main_v20) (V m c main_v7) (V m c main_v5) (V m c main_v3) := by
  rw [E_out1, E_mean1, E_var1, E_c1, E_pre1]
  rfl
theorem E_pre2 (c : Dev nD) : V m c main_v130 = preF (V m c main_arg1) (V m c main_arg2) (V m c main_arg3) (V m c main_arg4) (V m c main_arg5) (V m c main_arg6) (V m c main_arg7) (V m c main_arg8) (V m c main_arg9) (V m c main_arg11) (V m c main_v20) (V m c main_v9) (V m c main_v84) (V m c main_v5) := by
  rw [V_at2 m c main_v130 (by decide), V_at1 m c main_arg1 (by decide), V_at1 m c main_arg2 (by decide), V_at1 m c main_arg3 (by decide), V_at1 m c main_arg4 (by decide), V_at1 m c main_arg5 (by decide), V_at1 m c main_arg6 (by decide), V_at1 m c main_arg7 (by decide), V_at1 m c main_arg8 (by decide), V_at1 m c main_arg9 (by decide), V_at1 m c main_arg11 (by decide), V_at1 m c main_v20 (by decide), V_at1 m c main_v9 (by decide), V_at2 m c main_v84 (by decide), V_at1 m c main_v5 (by decide)]
  exact S2_pre (W1 m c)
theorem E_mean2 (c : Dev nD) : V m c main_v134 = meanF (V m c main_v130) := by
  rw [V_at2 m c main_v134 (by decide), V_at2 m c main_v130 (by decide)]
  exact S2_mean (W1 m c)
theorem E_c2 (c : Dev nD) : V m c main_c_10 = constantI S_ 32 0#32 := by
  rw [V_at2 m c main_c_10 (by decide)]
  exact S2_c (W1 m c)
theorem E_var2 (c : Dev nD) : V m c main_v135 = varF (V m c main_v130) (V m c main_c_10) := by
  rw [V_at3 m c main_v135 (by decide), V_at2 m c main_v130 (by decide), V_at2 m c main_c_10 (by decide)]
  exact S3_var (W2 m c)
theorem E_out2 (c : Dev nD) : V m c main_v148 = normF (V m c main_v130) (V m c main_v134) (V m c main_v135) (V m c main_arg12) (V m c main_arg13) := by
  rw [V_at4 m c main_v148 (by decide), V_at3 m c main_v130 (by decide), V_at3 m c main_v134 (by decide), V_at3 m c main_v135 (by decide), V_at3 m c main_arg12 (by decide), V_at3 m c main_arg13 (by decide)]
  exact S4_out (W3 m c)
/-- Replacement row 2 is one step of the recurrence. -/
theorem step2 (c : Dev nD) : V m c main_v148 =
    stepF (V m c main_arg1) (V m c main_arg2) (V m c main_arg3) (V m c main_arg4) (V m c main_arg5) (V m c main_arg6) (V m c main_arg7) (V m c main_arg8) (V m c main_arg9) (V m c main_arg11) (V m c main_arg12) (V m c main_arg13) (V m c main_v20) (V m c main_v9) (V m c main_v84) (V m c main_v5) := by
  rw [E_out2, E_mean2, E_var2, E_c2, E_pre2]
  rfl
theorem E_pre3 (c : Dev nD) : V m c main_v194 = preF (V m c main_arg1) (V m c main_arg2) (V m c main_arg3) (V m c main_arg4) (V m c main_arg5) (V m c main_arg6) (V m c main_arg7) (V m c main_arg8) (V m c main_arg9) (V m c main_arg11) (V m c main_v20) (V m c main_v11) (V m c main_v148) (V m c main_v84) := by
  rw [V_at4 m c main_v194 (by decide), V_at3 m c main_arg1 (by decide), V_at3 m c main_arg2 (by decide), V_at3 m c main_arg3 (by decide), V_at3 m c main_arg4 (by decide), V_at3 m c main_arg5 (by decide), V_at3 m c main_arg6 (by decide), V_at3 m c main_arg7 (by decide), V_at3 m c main_arg8 (by decide), V_at3 m c main_arg9 (by decide), V_at3 m c main_arg11 (by decide), V_at3 m c main_v20 (by decide), V_at3 m c main_v11 (by decide), V_at4 m c main_v148 (by decide), V_at3 m c main_v84 (by decide)]
  exact S4_pre (W3 m c)
theorem E_mean3 (c : Dev nD) : V m c main_v198 = meanF (V m c main_v194) := by
  rw [V_at4 m c main_v198 (by decide), V_at4 m c main_v194 (by decide)]
  exact S4_mean (W3 m c)
theorem E_c3 (c : Dev nD) : V m c main_c_17 = constantI S_ 32 0#32 := by
  rw [V_at4 m c main_c_17 (by decide)]
  exact S4_c (W3 m c)
theorem E_var3 (c : Dev nD) : V m c main_v199 = varF (V m c main_v194) (V m c main_c_17) := by
  rw [V_at5 m c main_v199 (by decide), V_at4 m c main_v194 (by decide), V_at4 m c main_c_17 (by decide)]
  exact S5_var (W4 m c)
theorem E_out3 (c : Dev nD) : V m c main_v212 = normF (V m c main_v194) (V m c main_v198) (V m c main_v199) (V m c main_arg12) (V m c main_arg13) := by
  rw [V_at6 m c main_v212 (by decide), V_at5 m c main_v194 (by decide), V_at5 m c main_v198 (by decide), V_at5 m c main_v199 (by decide), V_at5 m c main_arg12 (by decide), V_at5 m c main_arg13 (by decide)]
  exact S6_out (W5 m c)
/-- Replacement row 3 is one step of the recurrence. -/
theorem step3 (c : Dev nD) : V m c main_v212 =
    stepF (V m c main_arg1) (V m c main_arg2) (V m c main_arg3) (V m c main_arg4) (V m c main_arg5) (V m c main_arg6) (V m c main_arg7) (V m c main_arg8) (V m c main_arg9) (V m c main_arg11) (V m c main_arg12) (V m c main_arg13) (V m c main_v20) (V m c main_v11) (V m c main_v148) (V m c main_v84) := by
  rw [E_out3, E_mean3, E_var3, E_c3, E_pre3]
  rfl
theorem E_pre4 (c : Dev nD) : V m c main_v258 = preF (V m c main_arg1) (V m c main_arg2) (V m c main_arg3) (V m c main_arg4) (V m c main_arg5) (V m c main_arg6) (V m c main_arg7) (V m c main_arg8) (V m c main_arg9) (V m c main_arg11) (V m c main_v20) (V m c main_v13) (V m c main_v212) (V m c main_v148) := by
  rw [V_at6 m c main_v258 (by decide), V_at5 m c main_arg1 (by decide), V_at5 m c main_arg2 (by decide), V_at5 m c main_arg3 (by decide), V_at5 m c main_arg4 (by decide), V_at5 m c main_arg5 (by decide), V_at5 m c main_arg6 (by decide), V_at5 m c main_arg7 (by decide), V_at5 m c main_arg8 (by decide), V_at5 m c main_arg9 (by decide), V_at5 m c main_arg11 (by decide), V_at5 m c main_v20 (by decide), V_at5 m c main_v13 (by decide), V_at6 m c main_v212 (by decide), V_at5 m c main_v148 (by decide)]
  exact S6_pre (W5 m c)
theorem E_mean4 (c : Dev nD) : V m c main_v262 = meanF (V m c main_v258) := by
  rw [V_at6 m c main_v262 (by decide), V_at6 m c main_v258 (by decide)]
  exact S6_mean (W5 m c)
theorem E_c4 (c : Dev nD) : V m c main_c_24 = constantI S_ 32 0#32 := by
  rw [V_at6 m c main_c_24 (by decide)]
  exact S6_c (W5 m c)
theorem E_var4 (c : Dev nD) : V m c main_v263 = varF (V m c main_v258) (V m c main_c_24) := by
  rw [V_at7 m c main_v263 (by decide), V_at6 m c main_v258 (by decide), V_at6 m c main_c_24 (by decide)]
  exact S7_var (W6 m c)
theorem E_out4 (c : Dev nD) : V m c main_v276 = normF (V m c main_v258) (V m c main_v262) (V m c main_v263) (V m c main_arg12) (V m c main_arg13) := by
  rw [V_at8 m c main_v276 (by decide), V_at7 m c main_v258 (by decide), V_at7 m c main_v262 (by decide), V_at7 m c main_v263 (by decide), V_at7 m c main_arg12 (by decide), V_at7 m c main_arg13 (by decide)]
  exact S8_out (W7 m c)
/-- Replacement row 4 is one step of the recurrence. -/
theorem step4 (c : Dev nD) : V m c main_v276 =
    stepF (V m c main_arg1) (V m c main_arg2) (V m c main_arg3) (V m c main_arg4) (V m c main_arg5) (V m c main_arg6) (V m c main_arg7) (V m c main_arg8) (V m c main_arg9) (V m c main_arg11) (V m c main_arg12) (V m c main_arg13) (V m c main_v20) (V m c main_v13) (V m c main_v212) (V m c main_v148) := by
  rw [E_out4, E_mean4, E_var4, E_c4, E_pre4]
  rfl
theorem E_pre5 (c : Dev nD) : V m c main_v322 = preF (V m c main_arg1) (V m c main_arg2) (V m c main_arg3) (V m c main_arg4) (V m c main_arg5) (V m c main_arg6) (V m c main_arg7) (V m c main_arg8) (V m c main_arg9) (V m c main_arg11) (V m c main_v20) (V m c main_v15) (V m c main_v276) (V m c main_v212) := by
  rw [V_at8 m c main_v322 (by decide), V_at7 m c main_arg1 (by decide), V_at7 m c main_arg2 (by decide), V_at7 m c main_arg3 (by decide), V_at7 m c main_arg4 (by decide), V_at7 m c main_arg5 (by decide), V_at7 m c main_arg6 (by decide), V_at7 m c main_arg7 (by decide), V_at7 m c main_arg8 (by decide), V_at7 m c main_arg9 (by decide), V_at7 m c main_arg11 (by decide), V_at7 m c main_v20 (by decide), V_at7 m c main_v15 (by decide), V_at8 m c main_v276 (by decide), V_at7 m c main_v212 (by decide)]
  exact S8_pre (W7 m c)
theorem E_mean5 (c : Dev nD) : V m c main_v326 = meanF (V m c main_v322) := by
  rw [V_at8 m c main_v326 (by decide), V_at8 m c main_v322 (by decide)]
  exact S8_mean (W7 m c)
theorem E_c5 (c : Dev nD) : V m c main_c_31 = constantI S_ 32 0#32 := by
  rw [V_at8 m c main_c_31 (by decide)]
  exact S8_c (W7 m c)
theorem E_var5 (c : Dev nD) : V m c main_v327 = varF (V m c main_v322) (V m c main_c_31) := by
  rw [V_at9 m c main_v327 (by decide), V_at8 m c main_v322 (by decide), V_at8 m c main_c_31 (by decide)]
  exact S9_var (W8 m c)
theorem E_out5 (c : Dev nD) : V m c main_v340 = normF (V m c main_v322) (V m c main_v326) (V m c main_v327) (V m c main_arg12) (V m c main_arg13) := by
  rw [V_at10 m c main_v340 (by decide), V_at9 m c main_v322 (by decide), V_at9 m c main_v326 (by decide), V_at9 m c main_v327 (by decide), V_at9 m c main_arg12 (by decide), V_at9 m c main_arg13 (by decide)]
  exact S10_out (W9 m c)
/-- Replacement row 5 is one step of the recurrence. -/
theorem step5 (c : Dev nD) : V m c main_v340 =
    stepF (V m c main_arg1) (V m c main_arg2) (V m c main_arg3) (V m c main_arg4) (V m c main_arg5) (V m c main_arg6) (V m c main_arg7) (V m c main_arg8) (V m c main_arg9) (V m c main_arg11) (V m c main_arg12) (V m c main_arg13) (V m c main_v20) (V m c main_v15) (V m c main_v276) (V m c main_v212) := by
  rw [E_out5, E_mean5, E_var5, E_c5, E_pre5]
  rfl
theorem E_pre6 (c : Dev nD) : V m c main_v386 = preF (V m c main_arg1) (V m c main_arg2) (V m c main_arg3) (V m c main_arg4) (V m c main_arg5) (V m c main_arg6) (V m c main_arg7) (V m c main_arg8) (V m c main_arg9) (V m c main_arg11) (V m c main_v20) (V m c main_v17) (V m c main_v340) (V m c main_v276) := by
  rw [V_at10 m c main_v386 (by decide), V_at9 m c main_arg1 (by decide), V_at9 m c main_arg2 (by decide), V_at9 m c main_arg3 (by decide), V_at9 m c main_arg4 (by decide), V_at9 m c main_arg5 (by decide), V_at9 m c main_arg6 (by decide), V_at9 m c main_arg7 (by decide), V_at9 m c main_arg8 (by decide), V_at9 m c main_arg9 (by decide), V_at9 m c main_arg11 (by decide), V_at9 m c main_v20 (by decide), V_at9 m c main_v17 (by decide), V_at10 m c main_v340 (by decide), V_at9 m c main_v276 (by decide)]
  exact S10_pre (W9 m c)
theorem E_mean6 (c : Dev nD) : V m c main_v390 = meanF (V m c main_v386) := by
  rw [V_at10 m c main_v390 (by decide), V_at10 m c main_v386 (by decide)]
  exact S10_mean (W9 m c)
theorem E_c6 (c : Dev nD) : V m c main_c_38 = constantI S_ 32 0#32 := by
  rw [V_at10 m c main_c_38 (by decide)]
  exact S10_c (W9 m c)
theorem E_var6 (c : Dev nD) : V m c main_v391 = varF (V m c main_v386) (V m c main_c_38) := by
  rw [V_at11 m c main_v391 (by decide), V_at10 m c main_v386 (by decide), V_at10 m c main_c_38 (by decide)]
  exact S11_var (W10 m c)
theorem E_out6 (c : Dev nD) : V m c main_v404 = normF (V m c main_v386) (V m c main_v390) (V m c main_v391) (V m c main_arg12) (V m c main_arg13) := by
  rw [V_at12 m c main_v404 (by decide), V_at11 m c main_v386 (by decide), V_at11 m c main_v390 (by decide), V_at11 m c main_v391 (by decide), V_at11 m c main_arg12 (by decide), V_at11 m c main_arg13 (by decide)]
  exact S12_out (W11 m c)
/-- Replacement row 6 is one step of the recurrence. -/
theorem step6 (c : Dev nD) : V m c main_v404 =
    stepF (V m c main_arg1) (V m c main_arg2) (V m c main_arg3) (V m c main_arg4) (V m c main_arg5) (V m c main_arg6) (V m c main_arg7) (V m c main_arg8) (V m c main_arg9) (V m c main_arg11) (V m c main_arg12) (V m c main_arg13) (V m c main_v20) (V m c main_v17) (V m c main_v340) (V m c main_v276) := by
  rw [E_out6, E_mean6, E_var6, E_c6, E_pre6]
  rfl
theorem E_pre7 (c : Dev nD) : V m c main_v450 = preF (V m c main_arg1) (V m c main_arg2) (V m c main_arg3) (V m c main_arg4) (V m c main_arg5) (V m c main_arg6) (V m c main_arg7) (V m c main_arg8) (V m c main_arg9) (V m c main_arg11) (V m c main_v20) (V m c main_v19) (V m c main_v404) (V m c main_v340) := by
  rw [V_at12 m c main_v450 (by decide), V_at11 m c main_arg1 (by decide), V_at11 m c main_arg2 (by decide), V_at11 m c main_arg3 (by decide), V_at11 m c main_arg4 (by decide), V_at11 m c main_arg5 (by decide), V_at11 m c main_arg6 (by decide), V_at11 m c main_arg7 (by decide), V_at11 m c main_arg8 (by decide), V_at11 m c main_arg9 (by decide), V_at11 m c main_arg11 (by decide), V_at11 m c main_v20 (by decide), V_at11 m c main_v19 (by decide), V_at12 m c main_v404 (by decide), V_at11 m c main_v340 (by decide)]
  exact S12_pre (W11 m c)
theorem E_mean7 (c : Dev nD) : V m c main_v454 = meanF (V m c main_v450) := by
  rw [V_at12 m c main_v454 (by decide), V_at12 m c main_v450 (by decide)]
  exact S12_mean (W11 m c)
theorem E_c7 (c : Dev nD) : V m c main_c_45 = constantI S_ 32 0#32 := by
  rw [V_at12 m c main_c_45 (by decide)]
  exact S12_c (W11 m c)
theorem E_var7 (c : Dev nD) : V m c main_v455 = varF (V m c main_v450) (V m c main_c_45) := by
  rw [V_at13 m c main_v455 (by decide), V_at12 m c main_v450 (by decide), V_at12 m c main_c_45 (by decide)]
  exact S13_var (W12 m c)
theorem E_out7 (c : Dev nD) : V m c main_v468 = normF (V m c main_v450) (V m c main_v454) (V m c main_v455) (V m c main_arg12) (V m c main_arg13) := by
  rw [V_at14 m c main_v468, V_at13 m c main_v450 (by decide), V_at13 m c main_v454 (by decide), V_at13 m c main_v455 (by decide), V_at13 m c main_arg12 (by decide), V_at13 m c main_arg13 (by decide)]
  exact S14_out (W13 m c)
/-- Replacement row 7 is one step of the recurrence. -/
theorem step7 (c : Dev nD) : V m c main_v468 =
    stepF (V m c main_arg1) (V m c main_arg2) (V m c main_arg3) (V m c main_arg4) (V m c main_arg5) (V m c main_arg6) (V m c main_arg7) (V m c main_arg8) (V m c main_arg9) (V m c main_arg11) (V m c main_arg12) (V m c main_arg13) (V m c main_v20) (V m c main_v19) (V m c main_v404) (V m c main_v340) := by
  rw [E_out7, E_mean7, E_var7, E_c7, E_pre7]
  rfl
theorem E_upd (c : Dev nD) : V m c main_v476 = stackF (V m c main_v84) (V m c main_v148) (V m c main_v212) (V m c main_v276) (V m c main_v340) (V m c main_v404) (V m c main_v468) := by
  rw [V_at14 m c main_v476, V_at13 m c main_v84 (by decide), V_at13 m c main_v148 (by decide), V_at13 m c main_v212 (by decide), V_at13 m c main_v276 (by decide), V_at13 m c main_v340 (by decide), V_at13 m c main_v404 (by decide), V_at14 m c main_v468]
  exact S14_upd (W13 m c)

end Cert.KernelIdeal.Gen

end
-- ==== Proof.RefOps.lean ====
/-
  The reference's entry function as a list of its host operations, and its run.

  The reference has no kernel: its entry function is 721 array operations in a row, seven times the same 103 —
  cut three rows out of the current array, one step of the recurrence on them (with the lane variance as an
  outlined function whose operations stand in the call's place), and write the new row back into the array at
  its position.  The list is given in thirty consecutive pieces, cut wherever the printed program starts a new
  window of statements or a new part of a step begins, so that both the printed windows and the parts of a step
  are concatenations of whole pieces.  Every execution terminates with every buffer at the fold of the operations
  over the contents at entry.
-/
import proofs.«134958_j16810501996613_1_alg».proof.Proof.Gen.ReferenceIdeal
import proofs.«134958_j16810501996613_1_alg».proof.Proof.LibHostKeep
import Idealize.ShloMosaic.Lib.StableHlo.Run
import Idealize.ShloMosaic.Lib.Pipeline.Regions

set_option maxRecDepth 16384

noncomputable section

namespace Cert.ReferenceIdeal.Gen

open Idealize.ShloMosaic Idealize.ShloMosaic.TcCoe Idealize.SL.Sem
open Idealize.ShloMosaic.StableHlo Cert.Lib.HostKeep Cert.ReferenceIdeal

variable {F : FTy → Type} [FloatOps F]

set_option maxHeartbeats 40000000 in
/-- Operations 0 … 59. -/
abbrev pc0 : List (HloOp τ sig (Elt F)) :=
  [ StableHlo.unary main_arg0 main_v0 ((extractStridedSlice S8x1x2048 ![0, 12, 0] · slices_S8x8192x2048_S8x1x2048_0_12_0) : (⟨S8x8192x2048, .f32⟩ : BufTy).Contents (Elt F) → (⟨S8x1x2048, .f32⟩ : BufTy).Contents (Elt F)),
    StableHlo.reshape main_v0 main_v1 rfl shapeCasts_S8x1x2048_S8x2048,
    StableHlo.unary main_arg0 main_v2 ((extractStridedSlice S8x1x2048 ![0, 4, 0] · slices_S8x8192x2048_S8x1x2048_0_4_0) : (⟨S8x8192x2048, .f32⟩ : BufTy).Contents (Elt F) → (⟨S8x1x2048, .f32⟩ : BufTy).Contents (Elt F)),
    StableHlo.reshape main_v2 main_v3 rfl shapeCasts_S8x1x2048_S8x2048,
    StableHlo.unary main_arg0 main_v4 ((extractStridedSlice S8x1x2048 ![0, 2, 0] · slices_S8x8192x2048_S8x1x2048_0_2_0) : (⟨S8x8192x2048, .f32⟩ : BufTy).Contents (Elt F) → (⟨S8x1x2048, .f32⟩ : BufTy).Contents (Elt F)),
    StableHlo.reshape main_v4 main_v5 rfl shapeCasts_S8x1x2048_S8x2048,
    StableHlo.unary main_arg1 main_v6 (broadcastInDim S1x2048 ![1] bcast_S2048_S1x2048_1 : (⟨S2048, .f32⟩ : BufTy).Contents (Elt F) → (⟨S1x2048, .f32⟩ : BufTy).Contents (Elt F)),
    StableHlo.unary main_v6 main_v7 (broadcastInDim S8x2048 ![0, 1] bcast_S1x2048_S8x2048_0_1 : (⟨S1x2048, .f32⟩ : BufTy).Contents (Elt F) → (⟨S8x2048, .f32⟩ : BufTy).Contents (Elt F)),
    StableHlo.binary main_v7 main_v1 main_v8 (mulf : (⟨S8x2048, .f32⟩ : BufTy).Contents (Elt F) → (⟨S8x2048, .f32⟩ : BufTy).Contents (Elt F) → (⟨S8x2048, .f32⟩ : BufTy).Contents (Elt F)),
    StableHlo.unary main_arg2 main_v9 (broadcastInDim S1x2048 ![1] bcast_S2048_S1x2048_1 : (⟨S2048, .f32⟩ : BufTy).Contents (Elt F) → (⟨S1x2048, .f32⟩ : BufTy).Contents (Elt F)),
    StableHlo.unary main_v9 main_v10 (broadcastInDim S8x2048 ![0, 1] bcast_S1x2048_S8x2048_0_1 : (⟨S1x2048, .f32⟩ : BufTy).Contents (Elt F) → (⟨S8x2048, .f32⟩ : BufTy).Contents (Elt F)),
    StableHlo.binary main_v10 main_v3 main_v11 (mulf : (⟨S8x2048, .f32⟩ : BufTy).Contents (Elt F) → (⟨S8x2048, .f32⟩ : BufTy).Contents (Elt F) → (⟨S8x2048, .f32⟩ : BufTy).Contents (Elt F)),
    StableHlo.binary main_v8 main_v11 main_v12 (addf : (⟨S8x2048, .f32⟩ : BufTy).Contents (Elt F) → (⟨S8x2048, .f32⟩ : BufTy).Contents (Elt F) → (⟨S8x2048, .f32⟩ : BufTy).Contents (Elt F)),
    StableHlo.unary main_arg3 main_v13 (broadcastInDim S1x2048 ![1] bcast_S2048_S1x2048_1 : (⟨S2048, .f32⟩ : BufTy).Contents (Elt F) → (⟨S1x2048, .f32⟩ : BufTy).Contents (Elt F)),
    StableHlo.unary main_v13 main_v14 (broadcastInDim S8x2048 ![0, 1] bcast_S1x2048_S8x2048_0_1 : (⟨S1x2048, .f32⟩ : BufTy).Contents (Elt F) → (⟨S8x2048, .f32⟩ : BufTy).Contents (Elt F)),
    StableHlo.binary main_v12 main_v14 main_v15 (addf : (⟨S8x2048, .f32⟩ : BufTy).Contents (Elt F) → (⟨S8x2048, .f32⟩ : BufTy).Contents (Elt F) → (⟨S8x2048, .f32⟩ : BufTy).Contents (Elt F)),
    StableHlo.unary main_arg4 main_v16 (broadcastInDim S1x2048 ![1] bcast_S2048_S1x2048_1 : (⟨S2048, .f32⟩ : BufTy).Contents (Elt F) → (⟨S1x2048, .f32⟩ : BufTy).Contents (Elt F)),
    StableHlo.unary main_v16 main_v17 (broadcastInDim S8x2048 ![0, 1] bcast_S1x2048_S8x2048_0_1 : (⟨S1x2048, .f32⟩ : BufTy).Contents (Elt F) → (⟨S8x2048, .f32⟩ : BufTy).Contents (Elt F)),
    StableHlo.binary main_v17 main_v3 main_v18 (mulf : (⟨S8x2048, .f32⟩ : BufTy).Contents (Elt F) → (⟨S8x2048, .f32⟩ : BufTy).Contents (Elt F) → (⟨S8x2048, .f32⟩ : BufTy).Contents (Elt F)),
    StableHlo.unary main_arg5 main_v19 (broadcastInDim S1x2048 ![1] bcast_S2048_S1x2048_1 : (⟨S2048, .f32⟩ : BufTy).Contents (Elt F) → (⟨S1x2048, .f32⟩ : BufTy).Contents (Elt F)),
    StableHlo.unary main_v19 main_v20 (broadcastInDim S8x2048 ![0, 1] bcast_S1x2048_S8x2048_0_1 : (⟨S1x2048, .f32⟩ : BufTy).Contents (Elt F) → (⟨S8x2048, .f32⟩ : BufTy).Contents (Elt F)),
    StableHlo.binary main_v20 main_v5 main_v21 (mulf : (⟨S8x2048, .f32⟩ : BufTy).Contents (Elt F) → (⟨S8x2048, .f32⟩ : BufTy).Contents (Elt F) → (⟨S8x2048, .f32⟩ : BufTy).Contents (Elt F)),
    StableHlo.binary main_v18 main_v21 main_v22 (addf : (⟨S8x2048, .f32⟩ : BufTy).Contents (Elt F) → (⟨S8x2048, .f32⟩ : BufTy).Contents (Elt F) → (⟨S8x2048, .f32⟩ : BufTy).Contents (Elt F)),
    StableHlo.unary main_arg6 main_v23 (broadcastInDim S1x2048 ![1] bcast_S2048_S1x2048_1 : (⟨S2048, .f32⟩ : BufTy).Contents (Elt F) → (⟨S1x2048, .f32⟩ : BufTy).Contents (Elt F)),
    StableHlo.unary main_v23 main_v24 (broadcastInDim S8x2048 ![0, 1] bcast_S1x2048_S8x2048_0_1 : (⟨S1x2048, .f32⟩ : BufTy).Contents (Elt F) → (⟨S8x2048, .f32⟩ : BufTy).Contents (Elt F)),
    StableHlo.binary main_v22 main_v24 main_v25 (addf : (⟨S8x2048, .f32⟩ : BufTy).Contents (Elt F) → (⟨S8x2048, .f32⟩ : BufTy).Contents (Elt F) → (⟨S8x2048, .f32⟩ : BufTy).Contents (Elt F)),
    StableHlo.unary main_arg7 main_v26 (broadcastInDim S1x2048 ![1] bcast_S2048_S1x2048_1 : (⟨S2048, .f32⟩ : BufTy).Contents (Elt F) → (⟨S1x2048, .f32⟩ : BufTy).Contents (Elt F)),
    StableHlo.unary main_v26 main_v27 (broadcastInDim S8x2048 ![0, 1] bcast_S1x2048_S8x2048_0_1 : (⟨S1x2048, .f32⟩ : BufTy).Contents (Elt F) → (⟨S8x2048, .f32⟩ : BufTy).Contents (Elt F)),
    StableHlo.binary main_v27 main_v15 main_v28 (mulf : (⟨S8x2048, .f32⟩ : BufTy).Contents (Elt F) → (⟨S8x2048, .f32⟩ : BufTy).Contents (Elt F) → (⟨S8x2048, .f32⟩ : BufTy).Contents (Elt F)),
    StableHlo.unary main_arg8 main_v29 (broadcastInDim S1x2048 ![1] bcast_S2048_S1x2048_1 : (⟨S2048, .f32⟩ : BufTy).Contents (Elt F) → (⟨S1x2048, .f32⟩ : BufTy).Contents (Elt F)),
    StableHlo.unary main_v29 main_v30 (broadcastInDim S8x2048 ![0, 1] bcast_S1x2048_S8x2048_0_1 : (⟨S1x2048, .f32⟩ : BufTy).Contents (Elt F) → (⟨S8x2048, .f32⟩ : BufTy).Contents (Elt F)),
    StableHlo.binary main_v30 main_v25 main_v31 (mulf : (⟨S8x2048, .f32⟩ : BufTy).Contents (Elt F) → (⟨S8x2048, .f32⟩ : BufTy).Contents (Elt F) → (⟨S8x2048, .f32⟩ : BufTy).Contents (Elt F)),
    StableHlo.binary main_v28 main_v31 main_v32 (addf : (⟨S8x2048, .f32⟩ : BufTy).Contents (Elt F) → (⟨S8x2048, .f32⟩ : BufTy).Contents (Elt F) → (⟨S8x2048, .f32⟩ : BufTy).Contents (Elt F)),
    StableHlo.unary main_arg9 main_v33 (broadcastInDim S1x2048 ![1] bcast_S2048_S1x2048_1 : (⟨S2048, .f32⟩ : BufTy).Contents (Elt F) → (⟨S1x2048, .f32⟩ : BufTy).Contents (Elt F)),
    StableHlo.unary main_v33 main_v34 (broadcastInDim S8x2048 ![0, 1] bcast_S1x2048_S8x2048_0_1 : (⟨S1x2048, .f32⟩ : BufTy).Contents (Elt F) → (⟨S8x2048, .f32⟩ : BufTy).Contents (Elt F)),
    StableHlo.binary main_v32 main_v34 main_v35 (addf : (⟨S8x2048, .f32⟩ : BufTy).Contents (Elt F) → (⟨S8x2048, .f32⟩ : BufTy).Contents (Elt F) → (⟨S8x2048, .f32⟩ : BufTy).Contents (Elt F)),
    StableHlo.binary main_v35 main_v1 main_v36 ((fun a b => concatenate S8x4096 1 [⟨S8x2048, a⟩, ⟨S8x2048, b⟩] concatenates_S8x2048_S8x2048_S8x4096_d1) : (⟨S8x2048, .f32⟩ : BufTy).Contents (Elt F) → (⟨S8x2048, .f32⟩ : BufTy).Contents (Elt F) → (⟨S8x4096, .f32⟩ : BufTy).Contents (Elt F)),
    StableHlo.unary main_arg10 main_v37 ((transpose S4096x2048 [1, 0] · transposes_S2048x4096_S4096x2048_1_0) : (⟨S2048x4096, .f32⟩ : BufTy).Contents (Elt F) → (⟨S4096x2048, .f32⟩ : BufTy).Contents (Elt F)),
    StableHlo.binary main_v36 main_v37 main_v38 ((fun l r => Host.dotGeneral dot_S8x4096_S4096x2048_S8x2048_1_0_0_1_n_n none l r) : (⟨S8x4096, .f32⟩ : BufTy).Contents (Elt F) → (⟨S4096x2048, .f32⟩ : BufTy).Contents (Elt F) → (⟨S8x2048, .f32⟩ : BufTy).Contents (Elt F)),
    StableHlo.unary main_arg11 main_v39 (broadcastInDim S1x2048 ![1] bcast_S2048_S1x2048_1 : (⟨S2048, .f32⟩ : BufTy).Contents (Elt F) → (⟨S1x2048, .f32⟩ : BufTy).Contents (Elt F)),
    StableHlo.unary main_v39 main_v40 (broadcastInDim S8x2048 ![0, 1] bcast_S1x2048_S8x2048_0_1 : (⟨S1x2048, .f32⟩ : BufTy).Contents (Elt F) → (⟨S8x2048, .f32⟩ : BufTy).Contents (Elt F)),
    StableHlo.binary main_v38 main_v40 main_v41 (addf : (⟨S8x2048, .f32⟩ : BufTy).Contents (Elt F) → (⟨S8x2048, .f32⟩ : BufTy).Contents (Elt F) → (⟨S8x2048, .f32⟩ : BufTy).Contents (Elt F)),
    StableHlo.unary main_v41 main_v42 (Host.negf : (⟨S8x2048, .f32⟩ : BufTy).Contents (Elt F) → (⟨S8x2048, .f32⟩ : BufTy).Contents (Elt F)),
    StableHlo.unary main_v42 main_v43 (Host.exp : (⟨S8x2048, .f32⟩ : BufTy).Contents (Elt F) → (⟨S8x2048, .f32⟩ : BufTy).Contents (Elt F)),
    StableHlo.nullary main_cst (constant S_ .f32 0x3F800000#32),
    StableHlo.unary main_cst main_v44 (broadcastInDim S8x2048 ![] bcast_S_S8x2048 : (⟨S_, .f32⟩ : BufTy).Contents (Elt F) → (⟨S8x2048, .f32⟩ : BufTy).Contents (Elt F)),
    StableHlo.binary main_v44 main_v43 main_v45 (addf : (⟨S8x2048, .f32⟩ : BufTy).Contents (Elt F) → (⟨S8x2048, .f32⟩ : BufTy).Contents (Elt F) → (⟨S8x2048, .f32⟩ : BufTy).Contents (Elt F)),
    StableHlo.nullary main_cst_0 (constant S_ .f32 0x3F800000#32),
    StableHlo.unary main_cst_0 main_v46 (broadcastInDim S8x2048 ![] bcast_S_S8x2048 : (⟨S_, .f32⟩ : BufTy).Contents (Elt F) → (⟨S8x2048, .f32⟩ : BufTy).Contents (Elt F)),
    StableHlo.binary main_v46 main_v45 main_v47 (Host.divf : (⟨S8x2048, .f32⟩ : BufTy).Contents (Elt F) → (⟨S8x2048, .f32⟩ : BufTy).Contents (Elt F) → (⟨S8x2048, .f32⟩ : BufTy).Contents (Elt F)),
    StableHlo.binary main_v47 main_v35 main_v48 (mulf : (⟨S8x2048, .f32⟩ : BufTy).Contents (Elt F) → (⟨S8x2048, .f32⟩ : BufTy).Contents (Elt F) → (⟨S8x2048, .f32⟩ : BufTy).Contents (Elt F)),
    StableHlo.nullary main_cst_1 (constant S_ .f32 0x3F800000#32),
    StableHlo.unary main_cst_1 main_v49 (broadcastInDim S8x2048 ![] bcast_S_S8x2048 : (⟨S_, .f32⟩ : BufTy).Contents (Elt F) → (⟨S8x2048, .f32⟩ : BufTy).Contents (Elt F)),
    StableHlo.binary main_v49 main_v47 main_v50 (subf : (⟨S8x2048, .f32⟩ : BufTy).Contents (Elt F) → (⟨S8x2048, .f32⟩ : BufTy).Contents (Elt F) → (⟨S8x2048, .f32⟩ : BufTy).Contents (Elt F)),
    StableHlo.binary main_v50 main_v1 main_v51 (mulf : (⟨S8x2048, .f32⟩ : BufTy).Contents (Elt F) → (⟨S8x2048, .f32⟩ : BufTy).Contents (Elt F) → (⟨S8x2048, .f32⟩ : BufTy).Contents (Elt F)),
    StableHlo.binary main_v48 main_v51 main_v52 (addf : (⟨S8x2048, .f32⟩ : BufTy).Contents (Elt F) → (⟨S8x2048, .f32⟩ : BufTy).Contents (Elt F) → (⟨S8x2048, .f32⟩ : BufTy).Contents (Elt F)),
    StableHlo.nullary main_cst_2 (constant S_ .f32 0x00000000#32),
    StableHlo.binary main_v52 main_cst_2 main_v53 ((fun x v => Host.reduceAdd x v reducesTo_S8x2048_S8_d1 h_S_) : (⟨S8x2048, .f32⟩ : BufTy).Contents (Elt F) → (⟨S_, .f32⟩ : BufTy).Contents (Elt F) → (⟨S8, .f32⟩ : BufTy).Contents (Elt F)),
    StableHlo.unary main_v53 main_v54 (broadcastInDim S8x1 ![0] bcast_S8_S8x1_0 : (⟨S8, .f32⟩ : BufTy).Contents (Elt F) → (⟨S8x1, .f32⟩ : BufTy).Contents (Elt F)),
    StableHlo.nullary main_cst_3 (constant S_ .f32 0x45000000#32) ]
theorem pc0_sub : (pc0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.binary_bufs_sub .., StableHlo.unary_bufs_sub .., StableHlo.nullary_bufs_sub ..⟩
theorem pc0_fresh : (pc0 : List (HloOp τ sig (Elt F))).Forall fun op => op.fresh = ∅ := by
  simp only [List.Forall]; repeat' constructor
/-- The buffers it writes, in order. -/
abbrev pwr0 : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_cst, main_v44, main_v45, main_cst_0, main_v46, main_v47, main_v48, main_cst_1, main_v49, main_v50, main_v51, main_v52, main_cst_2, main_v53, main_v54, main_cst_3]
theorem hpwr0 : (pc0 : List (HloOp τ sig (Elt F))).Forall fun op => op.writes ⊆ ((pwr0).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil))))))))))))))))))))))))))))))))))))))))))))))))))))))))))))
theorem keepP0 (W : Valuation τ sig (Elt F)) {r : Ref sig .tc} (hr : r ∉ pwr0) :
    StableHlo.after (pc0 : List (HloOp τ sig (Elt F))) W (Proc.devRef .tc r) = W (Proc.devRef .tc r) :=
  StableHlo.after_of_writes_sub _ _ hpwr0 hr

set_option maxHeartbeats 40000000 in
/-- Operations 60 … 62. -/
abbrev pc1 : List (HloOp τ sig (Elt F)) :=
  [ StableHlo.unary main_cst_3 main_v55 (broadcastInDim S8x1 ![] bcast_S_S8x1 : (⟨S_, .f32⟩ : BufTy).Contents (Elt F) → (⟨S8x1, .f32⟩ : BufTy).Contents (Elt F)),
    StableHlo.binary main_v54 main_v55 main_v56 (Host.divf : (⟨S8x1, .f32⟩ : BufTy).Contents (Elt F) → (⟨S8x1, .f32⟩ : BufTy).Contents (Elt F) → (⟨S8x1, .f32⟩ : BufTy).Contents (Elt F)),
    StableHlo.nullary main_c (constantI S_ 32 0#32) ]
theorem pc1_sub : (pc1 : List (HloOp τ sig (Elt F))).Forall fun op => op.bufs ⊆ StableHlo.tcRefs τ sig :=
  ⟨StableHlo.unary_bufs_sub .., StableHlo.binary_bufs_sub .., StableHlo.nullary_bufs_sub ..⟩
theorem pc1_fresh : (pc1 : List (HloOp τ sig (Elt F))).Forall fun op => op.fresh = ∅ := by
  simp only [List.Forall]; repeat' constructor
/-- The buffers it writes, in order. -/
abbrev pwr1 : List (Ref sig .tc) := [main_v55, main_v56, main_c]
theorem hpwr1 : (pc1 : List (HloOp τ sig (Elt F))).Forall fun op => op.writes ⊆ ((pwr1).map (Proc.devRef (τ := τ) .tc)).toFinset :=
  writes_cons rfl (writes_cons rfl (writes_cons rfl (writes_nil)))
theorem keepP1 (W : Valuation τ sig (Elt F)) {r : Ref sig .tc} (hr : r ∉ pwr1) :
    StableHlo.after (pc1 : List (HloOp τ sig (Elt F))) W (Proc.devRef .tc r) = W (Proc.devRef .tc r) :=
  StableHlo.after_of_writes_sub _ _ hpwr1 hr

set_option maxHeartbeats 40000000 in
/-- Operations 63 … 85. -/
abbrev pc2 : List (HloOp τ sig (Elt F)) :=
  [ StableHlo.TRef.nullary (.of main_call0_cst : StableHlo.TRef sig ⟨S_, .f32⟩) (constant S_ .f32 0x00000000#32),
    StableHlo.TRef.binary (.of main_v52 : StableHlo.TRef sig ⟨S8x2048, .f32⟩) (.of main_call0_cst : StableHlo.TRef sig ⟨S_, .f32⟩) (.of main_call0_v0 : StableHlo.TRef sig ⟨S8, .f32⟩) (fun x v => Host.reduceAdd x v reducesTo_S8x2048_S8_d1 h_S_),
    StableHlo.TRef.unary (.of main_call0_v0 : StableHlo.TRef sig ⟨S8, .f32⟩) (.of main_call0_v1 : StableHlo.TRef sig ⟨S8x1, .f32⟩) (broadcastInDim S8x1 ![0] bcast_S8_S8x1_0),
    StableHlo.TRef.nullary (.of main_call0_cst_0 : StableHlo.TRef sig ⟨S_, .f32⟩) (constant S_ .f32 0x45000000#32),
    StableHlo.TRef.unary (.of main_call0_cst_0 : StableHlo.TRef sig ⟨S_, .f32⟩) (.of main_call0_v2 : StableHlo.TRef sig ⟨S8x1, .f32⟩) (broadcastInDim S8x1 ![] bcast_S_S8x1),
    StableHlo.TRef.binary (.of main_call0_v1 : StableHlo.TRef sig ⟨S8x1, .f32⟩) (.of main_call0_v2 : StableHlo.TRef sig ⟨S8x1, .f32⟩) (.of main_call0_v3 : StableHlo.TRef sig ⟨S8x1, .f32⟩) Host.divf,
    StableHlo.TRef.unary (.of main_call0_v3 : StableHlo.TRef sig ⟨S8x1, .f32⟩) (.of main_call0_v4 : StableHlo.TRef sig ⟨S8x2048, .f32⟩) (broadcastInDim S8x2048 ![0, 1] bcast_S8x1_S8x2048_0_1),
    StableHlo.TRef.binary (.of main_v52 : StableHlo.TRef sig ⟨S8x2048, .f32⟩) (.of main_call0_v4 : StableHlo.TRef sig ⟨S8x2048, .f32⟩) (.of main_call0_v5 : StableHlo.TRef sig ⟨S8x2048, .f32⟩) subf,
    StableHlo.TRef.binary (.of main_call0_v5 : StableHlo.TRef sig ⟨S8x2048, .f32⟩) (.of main_call0_v5 : StableHlo.TRef sig ⟨S8x2048, .f32⟩) (.of main_call0_v6 : StableHlo.TRef sig ⟨S8x2048, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x45000000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S8x2048, .f32⟩) (.of main_call0_cst_2 : StableHlo.TRef sig ⟨S_, .f32⟩) (.of main_call0_v9 : StableHlo.TRef sig ⟨S8, .f32⟩) (fun x v => Host.reduceAdd x v reducesTo_S8x2048_S8_d1 h_S_),
    StableHlo.TRef.unary (.of main_call0_v9 : StableHlo.TRef sig ⟨S8, .f32⟩) (.of main_call0_v10 : StableHlo.TRef sig ⟨S8x1, .f32⟩) (broadcastInDim S8x1 ![0] bcast_S8_S8x1_0),
    StableHlo.TRef.unary (.of main_call0_v8 : StableHlo.TRef sig ⟨S_, .f32⟩) (.of main_call0_v11 : StableHlo.TRef sig ⟨S8x1, .f32⟩) (broadcastInDim S8x1 ![] bcast_S_S8x1),
    StableHlo.TRef.binary (.of main_call0_v10 : StableHlo.TRef sig ⟨S8x1, .f32⟩) (.of main_call0_v11 : StableHlo.TRef sig ⟨S8x1, .f32⟩) (.of main_call0_v12 : StableHlo.TRef sig ⟨S8x1, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v13 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S8x1, .f32⟩) (broadcastInDim S8x1 ![] bcast_S_S8x1),
    StableHlo.TRef.ternary (.of main_call0_v13 : StableHlo.TRef sig ⟨S_, .i1⟩) (.of main_call0_v12 : StableHlo.TRef sig ⟨S8x1, .f32⟩) (.of main_call0_call0_v1 : StableHlo.TRef sig ⟨S8x1, .f32⟩) (.of main_v57 : StableHlo.TRef sig ⟨S8x1, .f32⟩) (fun p a b => select (broadcastInDim S8x1 ![] bcast_S_S8x1 p) a b) ]
theorem pc2_sub : (pc2 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem pc2_fresh : (pc2 : List (HloOp τ sig (Elt F))).Forall fun op => op.fresh = ∅ := by
  simp only [List.Forall]; repeat' constructor
/-- The buffers it writes, in order. -/
abbrev pwr2 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v57]
theorem hpwr2 : (pc2 : List (HloOp τ sig (Elt F))).Forall fun op => op.writes ⊆ ((pwr2).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))
theorem keepP2 (W : Valuation τ sig (Elt F)) {r : Ref sig .tc} (hr : r ∉ pwr2) :
    StableHlo.after (pc2 : List (HloOp τ sig (Elt F))) W (Proc.devRef .tc r) = W (Proc.devRef .tc r) :=
  StableHlo.after_of_writes_sub _ _ hpwr2 hr

set_option maxHeartbeats 40000000 in
/-- Operations 86 … 102. -/
abbrev pc3 : List (HloOp τ sig (Elt F)) :=
  [ StableHlo.unary main_v56 main_v58 (broadcastInDim S8x2048 ![0, 1] bcast_S8x1_S8x2048_0_1 : (⟨S8x1, .f32⟩ : BufTy).Contents (Elt F) → (⟨S8x2048, .f32⟩ : BufTy).Contents (Elt F)),
    StableHlo.binary main_v52 main_v58 main_v59 (subf : (⟨S8x2048, .f32⟩ : BufTy).Contents (Elt F) → (⟨S8x2048, .f32⟩ : BufTy).Contents (Elt F) → (⟨S8x2048, .f32⟩ : BufTy).Contents (Elt F)),
    StableHlo.nullary main_cst_4 (constant S_ .f32 0x3727C5AC#32),
    StableHlo.unary main_cst_4 main_v60 (broadcastInDim S8x1 ![] bcast_S_S8x1 : (⟨S_, .f32⟩ : BufTy).Contents (Elt F) → (⟨S8x1, .f32⟩ : BufTy).Contents (Elt F)),
    StableHlo.binary main_v57 main_v60 main_v61 (addf : (⟨S8x1, .f32⟩ : BufTy).Contents (Elt F) → (⟨S8x1, .f32⟩ : BufTy).Contents (Elt F) → (⟨S8x1, .f32⟩ : BufTy).Contents (Elt F)),
    StableHlo.unary main_v61 main_v62 (Host.rsqrt : (⟨S8x1, .f32⟩ : BufTy).Contents (Elt F) → (⟨S8x1, .f32⟩ : BufTy).Contents (Elt F)),
    StableHlo.unary main_v62 main_v63 (broadcastInDim S8x2048 ![0, 1] bcast_S8x1_S8x2048_0_1 : (⟨S8x1, .f32⟩ : BufTy).Contents (Elt F) → (⟨S8x2048, .f32⟩ : BufTy).Contents (Elt F)),
    StableHlo.binary main_v59 main_v63 main_v64 (mulf : (⟨S8x2048, .f32⟩ : BufTy).Contents (Elt F) → (⟨S8x2048, .f32⟩ : BufTy).Contents (Elt F) → (⟨S8x2048, .f32⟩ : BufTy).Contents (Elt F)),
    StableHlo.unary main_arg12 main_v65 (broadcastInDim S1x2048 ![1] bcast_S2048_S1x2048_1 : (⟨S2048, .f32⟩ : BufTy).Contents (Elt F) → (⟨S1x2048, .f32⟩ : BufTy).Contents (Elt F)),
    StableHlo.unary main_v65 main_v66 (broadcastInDim S8x2048 ![0, 1] bcast_S1x2048_S8x2048_0_1 : (⟨S1x2048, .f32⟩ : BufTy).Contents (Elt F) → (⟨S8x2048, .f32⟩ : BufTy).Contents (Elt F)),
    StableHlo.binary main_v64 main_v66 main_v67 (mulf : (⟨S8x2048, .f32⟩ : BufTy).Contents (Elt F) → (⟨S8x2048, .f32⟩ : BufTy).Contents (Elt F) → (⟨S8x2048, .f32⟩ : BufTy).Contents (Elt F)),
    StableHlo.unary main_arg13 main_v68 (broadcastInDim S1x2048 ![1] bcast_S2048_S1x2048_1 : (⟨S2048, .f32⟩ : BufTy).Contents (Elt F) → (⟨S1x2048, .f32⟩ : BufTy).Contents (Elt F)),
    StableHlo.unary main_v68 main_v69 (broadcastInDim S8x2048 ![0, 1] bcast_S1x2048_S8x2048_0_1 : (⟨S1x2048, .f32⟩ : BufTy).Contents (Elt F) → (⟨S8x2048, .f32⟩ : BufTy).Contents (Elt F)),
    StableHlo.binary main_v67 main_v69 main_v70 (addf : (⟨S8x2048, .f32⟩ : BufTy).Contents (Elt F) → (⟨S8x2048, .f32⟩ : BufTy).Contents (Elt F) → (⟨S8x2048, .f32⟩ : BufTy).Contents (Elt F)),
    StableHlo.nullary main_c_5 (constantI S_ 32 12#32),
    StableHlo.unary main_c_5 main_v71 (broadcastInDim S1 ![] bcast_S_S1 : (⟨S_, .i32⟩ : BufTy).Contents (Elt F) → (⟨S1, .i32⟩ : BufTy).Contents (Elt F)),
    StableHlo.ternary main_arg0 main_v71 main_v70 main_v72 ((fun x i u => Host.scatter scatter_S8x8192x2048_S1_S8x2048_01_1_1_0 (fun _ b => b) x i u) : (⟨S8x8192x2048, .f32⟩ : BufTy).Contents (Elt F) → (⟨S1, .i32⟩ : BufTy).Contents (Elt F) → (⟨S8x2048, .f32⟩ : BufTy).Contents (Elt F) → (⟨S8x8192x2048, .f32⟩ : BufTy).Contents (Elt F)) ]
theorem pc3_sub : (pc3 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.ternary_bufs_sub ..⟩
theorem pc3_fresh : (pc3 : List (HloOp τ sig (Elt F))).Forall fun op => op.fresh = ∅ := by
  simp only [List.Forall]; repeat' constructor
/-- The buffers it writes, in order. -/
abbrev pwr3 : List (Ref sig .tc) := [main_v58, main_v59, main_cst_4, main_v60, main_v61, main_v62, main_v63, main_v64, main_v65, main_v66, main_v67, main_v68, main_v69, main_v70, main_c_5, main_v71, main_v72]
theorem hpwr3 : (pc3 : List (HloOp τ sig (Elt F))).Forall fun op => op.writes ⊆ ((pwr3).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))
theorem keepP3 (W : Valuation τ sig (Elt F)) {r : Ref sig .tc} (hr : r ∉ pwr3) :
    StableHlo.after (pc3 : List (HloOp τ sig (Elt F))) W (Proc.devRef .tc r) = W (Proc.devRef .tc r) :=
  StableHlo.after_of_writes_sub _ _ hpwr3 hr

set_option maxHeartbeats 40000000 in
/-- Operations 103 … 141. -/
abbrev pc4 : List (HloOp τ sig (Elt F)) :=
  [ StableHlo.unary main_v72 main_v73 ((extractStridedSlice S8x1x2048 ![0, 36, 0] · slices_S8x8192x2048_S8x1x2048_0_36_0) : (⟨S8x8192x2048, .f32⟩ : BufTy).Contents (Elt F) → (⟨S8x1x2048, .f32⟩ : BufTy).Contents (Elt F)),
    StableHlo.reshape main_v73 main_v74 rfl shapeCasts_S8x1x2048_S8x2048,
    StableHlo.unary main_v72 main_v75 ((extractStridedSlice S8x1x2048 ![0, 12, 0] · slices_S8x8192x2048_S8x1x2048_0_12_0) : (⟨S8x8192x2048, .f32⟩ : BufTy).Contents (Elt F) → (⟨S8x1x2048, .f32⟩ : BufTy).Contents (Elt F)),
    StableHlo.reshape main_v75 main_v76 rfl shapeCasts_S8x1x2048_S8x2048,
    StableHlo.unary main_v72 main_v77 ((extractStridedSlice S8x1x2048 ![0, 4, 0] · slices_S8x8192x2048_S8x1x2048_0_4_0) : (⟨S8x8192x2048, .f32⟩ : BufTy).Contents (Elt F) → (⟨S8x1x2048, .f32⟩ : BufTy).Contents (Elt F)),
    StableHlo.reshape main_v77 main_v78 rfl shapeCasts_S8x1x2048_S8x2048,
    StableHlo.unary main_arg1 main_v79 (broadcastInDim S1x2048 ![1] bcast_S2048_S1x2048_1 : (⟨S2048, .f32⟩ : BufTy).Contents (Elt F) → (⟨S1x2048, .f32⟩ : BufTy).Contents (Elt F)),
    StableHlo.unary main_v79 main_v80 (broadcastInDim S8x2048 ![0, 1] bcast_S1x2048_S8x2048_0_1 : (⟨S1x2048, .f32⟩ : BufTy).Contents (Elt F) → (⟨S8x2048, .f32⟩ : BufTy).Contents (Elt F)),
    StableHlo.binary main_v80 main_v74 main_v81 (mulf : (⟨S8x2048, .f32⟩ : BufTy).Contents (Elt F) → (⟨S8x2048, .f32⟩ : BufTy).Contents (Elt F) → (⟨S8x2048, .f32⟩ : BufTy).Contents (Elt F)),
    StableHlo.unary main_arg2 main_v82 (broadcastInDim S1x2048 ![1] bcast_S2048_S1x2048_1 : (⟨S2048, .f32⟩ : BufTy).Contents (Elt F) → (⟨S1x2048, .f32⟩ : BufTy).Contents (Elt F)),
    StableHlo.unary main_v82 main_v83 (broadcastInDim S8x2048 ![0, 1] bcast_S1x2048_S8x2048_0_1 : (⟨S1x2048, .f32⟩ : BufTy).Contents (Elt F) → (⟨S8x2048, .f32⟩ : BufTy).Contents (Elt F)),
    StableHlo.binary main_v83 main_v76 main_v84 (mulf : (⟨S8x2048, .f32⟩ : BufTy).Contents (Elt F) → (⟨S8x2048, .f32⟩ : BufTy).Contents (Elt F) → (⟨S8x2048, .f32⟩ : BufTy).Contents (Elt F)),
    StableHlo.binary main_v81 main_v84 main_v85 (addf : (⟨S8x2048, .f32⟩ : BufTy).Contents (Elt F) → (⟨S8x2048, .f32⟩ : BufTy).Contents (Elt F) → (⟨S8x2048, .f32⟩ : BufTy).Contents (Elt F)),
    StableHlo.unary main_arg3 main_v86 (broadcastInDim S1x2048 ![1] bcast_S2048_S1x2048_1 : (⟨S2048, .f32⟩ : BufTy).Contents (Elt F) → (⟨S1x2048, .f32⟩ : BufTy).Contents (Elt F)),
    StableHlo.unary main_v86 main_v87 (broadcastInDim S8x2048 ![0, 1] bcast_S1x2048_S8x2048_0_1 : (⟨S1x2048, .f32⟩ : BufTy).Contents (Elt F) → (⟨S8x2048, .f32⟩ : BufTy).Contents (Elt F)),
    StableHlo.binary main_v85 main_v87 main_v88 (addf : (⟨S8x2048, .f32⟩ : BufTy).Contents (Elt F) → (⟨S8x2048, .f32⟩ : BufTy).Contents (Elt F) → (⟨S8x2048, .f32⟩ : BufTy).Contents (Elt F)),
    StableHlo.unary main_arg4 main_v89 (broadcastInDim S1x2048 ![1] bcast_S2048_S1x2048_1 : (⟨S2048, .f32⟩ : BufTy).Contents (Elt F) → (⟨S1x2048, .f32⟩ : BufTy).Contents (Elt F)),
    StableHlo.unary main_v89 main_v90 (broadcastInDim S8x2048 ![0, 1] bcast_S1x2048_S8x2048_0_1 : (⟨S1x2048, .f32⟩ : BufTy).Contents (Elt F) → (⟨S8x2048, .f32⟩ : BufTy).Contents (Elt F)),
    StableHlo.binary main_v90 main_v76 main_v91 (mulf : (⟨S8x2048, .f32⟩ : BufTy).Contents (Elt F) → (⟨S8x2048, .f32⟩ : BufTy).Contents (Elt F) → (⟨S8x2048, .f32⟩ : BufTy).Contents (Elt F)),
    StableHlo.unary main_arg5 main_v92 (broadcastInDim S1x2048 ![1] bcast_S2048_S1x2048_1 : (⟨S2048, .f32⟩ : BufTy).Contents (Elt F) → (⟨S1x2048, .f32⟩ : BufTy).Contents (Elt F)),
    StableHlo.unary main_v92 main_v93 (broadcastInDim S8x2048 ![0, 1] bcast_S1x2048_S8x2048_0_1 : (⟨S1x2048, .f32⟩ : BufTy).Contents (Elt F) → (⟨S8x2048, .f32⟩ : BufTy).Contents (Elt F)),
    StableHlo.binary main_v93 main_v78 main_v94 (mulf : (⟨S8x2048, .f32⟩ : BufTy).Contents (Elt F) → (⟨S8x2048, .f32⟩ : BufTy).Contents (Elt F) → (⟨S8x2048, .f32⟩ : BufTy).Contents (Elt F)),
    StableHlo.binary main_v91 main_v94 main_v95 (addf : (⟨S8x2048, .f32⟩ : BufTy).Contents (Elt F) → (⟨S8x2048, .f32⟩ : BufTy).Contents (Elt F) → (⟨S8x2048, .f32⟩ : BufTy).Contents (Elt F)),
    StableHlo.unary main_arg6 main_v96 (broadcastInDim S1x2048 ![1] bcast_S2048_S1x2048_1 : (⟨S2048, .f32⟩ : BufTy).Contents (Elt F) → (⟨S1x2048, .f32⟩ : BufTy).Contents (Elt F)),
    StableHlo.unary main_v96 main_v97 (broadcastInDim S8x2048 ![0, 1] bcast_S1x2048_S8x2048_0_1 : (⟨S1x2048, .f32⟩ : BufTy).Contents (Elt F) → (⟨S8x2048, .f32⟩ : BufTy).Contents (Elt F)),
    StableHlo.binary main_v95 main_v97 main_v98 (addf : (⟨S8x2048, .f32⟩ : BufTy).Contents (Elt F) → (⟨S8x2048, .f32⟩ : BufTy).Contents (Elt F) → (⟨S8x2048, .f32⟩ : BufTy).Contents (Elt F)),
    StableHlo.unary main_arg7 main_v99 (broadcastInDim S1x2048 ![1] bcast_S2048_S1x2048_1 : (⟨S2048, .f32⟩ : BufTy).Contents (Elt F) → (⟨S1x2048, .f32⟩ : BufTy).Contents (Elt F)),
    StableHlo.unary main_v99 main_v100 (broadcastInDim S8x2048 ![0, 1] bcast_S1x2048_S8x2048_0_1 : (⟨S1x2048, .f32⟩ : BufTy).Contents (Elt F) → (⟨S8x2048, .f32⟩ : BufTy).Contents (Elt F)),
    StableHlo.binary main_v100 main_v88 main_v101 (mulf : (⟨S8x2048, .f32⟩ : BufTy).Contents (Elt F) → (⟨S8x2048, .f32⟩ : BufTy).Contents (Elt F) → (⟨S8x2048, .f32⟩ : BufTy).Contents (Elt F)),
    StableHlo.unary main_arg8 main_v102 (broadcastInDim S1x2048 ![1] bcast_S2048_S1x2048_1 : (⟨S2048, .f32⟩ : BufTy).Contents (Elt F) → (⟨S1x2048, .f32⟩ : BufTy).Contents (Elt F)),
    StableHlo.unary main_v102 main_v103 (broadcastInDim S8x2048 ![0, 1] bcast_S1x2048_S8x2048_0_1 : (⟨S1x2048, .f32⟩ : BufTy).Contents (Elt F) → (⟨S8x2048, .f32⟩ : BufTy).Contents (Elt F)),
    StableHlo.binary main_v103 main_v98 main_v104 (mulf : (⟨S8x2048, .f32⟩ : BufTy).Contents (Elt F) → (⟨S8x2048, .f32⟩ : BufTy).Contents (Elt F) → (⟨S8x2048, .f32⟩ : BufTy).Contents (Elt F)),
    StableHlo.binary main_v101 main_v104 main_v105 (addf : (⟨S8x2048, .f32⟩ : BufTy).Contents (Elt F) → (⟨S8x2048, .f32⟩ : BufTy).Contents (Elt F) → (⟨S8x2048, .f32⟩ : BufTy).Contents (Elt F)),
    StableHlo.unary main_arg9 main_v106 (broadcastInDim S1x2048 ![1] bcast_S2048_S1x2048_1 : (⟨S2048, .f32⟩ : BufTy).Contents (Elt F) → (⟨S1x2048, .f32⟩ : BufTy).Contents (Elt F)),
    StableHlo.unary main_v106 main_v107 (broadcastInDim S8x2048 ![0, 1] bcast_S1x2048_S8x2048_0_1 : (⟨S1x2048, .f32⟩ : BufTy).Contents (Elt F) → (⟨S8x2048, .f32⟩ : BufTy).Contents (Elt F)),
    StableHlo.binary main_v105 main_v107 main_v108 (addf : (⟨S8x2048, .f32⟩ : BufTy).Contents (Elt F) → (⟨S8x2048, .f32⟩ : BufTy).Contents (Elt F) → (⟨S8x2048, .f32⟩ : BufTy).Contents (Elt F)),
    StableHlo.binary main_v108 main_v74 main_v109 ((fun a b => concatenate S8x4096 1 [⟨S8x2048, a⟩, ⟨S8x2048, b⟩] concatenates_S8x2048_S8x2048_S8x4096_d1) : (⟨S8x2048, .f32⟩ : BufTy).Contents (Elt F) → (⟨S8x2048, .f32⟩ : BufTy).Contents (Elt F) → (⟨S8x4096, .f32⟩ : BufTy).Contents (Elt F)),
    StableHlo.unary main_arg10 main_v110 ((transpose S4096x2048 [1, 0] · transposes_S2048x4096_S4096x2048_1_0) : (⟨S2048x4096, .f32⟩ : BufTy).Contents (Elt F) → (⟨S4096x2048, .f32⟩ : BufTy).Contents (Elt F)),
    StableHlo.binary main_v109 main_v110 main_v111 ((fun l r => Host.dotGeneral dot_S8x4096_S4096x2048_S8x2048_1_0_0_1_n_n none l r) : (⟨S8x4096, .f32⟩ : BufTy).Contents (Elt F) → (⟨S4096x2048, .f32⟩ : BufTy).Contents (Elt F) → (⟨S8x2048, .f32⟩ : BufTy).Contents (Elt F)) ]
theorem pc4_sub : (pc4 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub ..⟩
theorem pc4_fresh : (pc4 : List (HloOp τ sig (Elt F))).Forall fun op => op.fresh = ∅ := by
  simp only [List.Forall]; repeat' constructor
/-- The buffers it writes, in order. -/
abbrev pwr4 : List (Ref sig .tc) := [main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111]
theorem hpwr4 : (pc4 : List (HloOp τ sig (Elt F))).Forall fun op => op.writes ⊆ ((pwr4).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))))))))))))))))))
theorem keepP4 (W : Valuation τ sig (Elt F)) {r : Ref sig .tc} (hr : r ∉ pwr4) :
    StableHlo.after (pc4 : List (HloOp τ sig (Elt F))) W (Proc.devRef .tc r) = W (Proc.devRef .tc r) :=
  StableHlo.after_of_writes_sub _ _ hpwr4 hr

set_option maxHeartbeats 40000000 in
/-- Operations 142 … 165. -/
abbrev pc5 : List (HloOp τ sig (Elt F)) :=
  [ StableHlo.unary main_arg11 main_v112 (broadcastInDim S1x2048 ![1] bcast_S2048_S1x2048_1 : (⟨S2048, .f32⟩ : BufTy).Contents (Elt F) → (⟨S1x2048, .f32⟩ : BufTy).Contents (Elt F)),
    StableHlo.unary main_v112 main_v113 (broadcastInDim S8x2048 ![0, 1] bcast_S1x2048_S8x2048_0_1 : (⟨S1x2048, .f32⟩ : BufTy).Contents (Elt F) → (⟨S8x2048, .f32⟩ : BufTy).Contents (Elt F)),
    StableHlo.binary main_v111 main_v113 main_v114 (addf : (⟨S8x2048, .f32⟩ : BufTy).Contents (Elt F) → (⟨S8x2048, .f32⟩ : BufTy).Contents (Elt F) → (⟨S8x2048, .f32⟩ : BufTy).Contents (Elt F)),
    StableHlo.unary main_v114 main_v115 (Host.negf : (⟨S8x2048, .f32⟩ : BufTy).Contents (Elt F) → (⟨S8x2048, .f32⟩ : BufTy).Contents (Elt F)),
    StableHlo.unary main_v115 main_v116 (Host.exp : (⟨S8x2048, .f32⟩ : BufTy).Contents (Elt F) → (⟨S8x2048, .f32⟩ : BufTy).Contents (Elt F)),
    StableHlo.nullary main_cst_6 (constant S_ .f32 0x3F800000#32),
    StableHlo.unary main_cst_6 main_v117 (broadcastInDim S8x2048 ![] bcast_S_S8x2048 : (⟨S_, .f32⟩ : BufTy).Contents (Elt F) → (⟨S8x2048, .f32⟩ : BufTy).Contents (Elt F)),
    StableHlo.binary main_v117 main_v116 main_v118 (addf : (⟨S8x2048, .f32⟩ : BufTy).Contents (Elt F) → (⟨S8x2048, .f32⟩ : BufTy).Contents (Elt F) → (⟨S8x2048, .f32⟩ : BufTy).Contents (Elt F)),
    StableHlo.nullary main_cst_7 (constant S_ .f32 0x3F800000#32),
    StableHlo.unary main_cst_7 main_v119 (broadcastInDim S8x2048 ![] bcast_S_S8x2048 : (⟨S_, .f32⟩ : BufTy).Contents (Elt F) → (⟨S8x2048, .f32⟩ : BufTy).Contents (Elt F)),
    StableHlo.binary main_v119 main_v118 main_v120 (Host.divf : (⟨S8x2048, .f32⟩ : BufTy).Contents (Elt F) → (⟨S8x2048, .f32⟩ : BufTy).Contents (Elt F) → (⟨S8x2048, .f32⟩ : BufTy).Contents (Elt F)),
    StableHlo.binary main_v120 main_v108 main_v121 (mulf : (⟨S8x2048, .f32⟩ : BufTy).Contents (Elt F) → (⟨S8x2048, .f32⟩ : BufTy).Contents (Elt F) → (⟨S8x2048, .f32⟩ : BufTy).Contents (Elt F)),
    StableHlo.nullary main_cst_8 (constant S_ .f32 0x3F800000#32),
    StableHlo.unary main_cst_8 main_v122 (broadcastInDim S8x2048 ![] bcast_S_S8x2048 : (⟨S_, .f32⟩ : BufTy).Contents (Elt F) → (⟨S8x2048, .f32⟩ : BufTy).Contents (Elt F)),
    StableHlo.binary main_v122 main_v120 main_v123 (subf : (⟨S8x2048, .f32⟩ : BufTy).Contents (Elt F) → (⟨S8x2048, .f32⟩ : BufTy).Contents (Elt F) → (⟨S8x2048, .f32⟩ : BufTy).Contents (Elt F)),
    StableHlo.binary main_v123 main_v74 main_v124 (mulf : (⟨S8x2048, .f32⟩ : BufTy).Contents (Elt F) → (⟨S8x2048, .f32⟩ : BufTy).Contents (Elt F) → (⟨S8x2048, .f32⟩ : BufTy).Contents (Elt F)),
    StableHlo.binary main_v121 main_v124 main_v125 (addf : (⟨S8x2048, .f32⟩ : BufTy).Contents (Elt F) → (⟨S8x2048, .f32⟩ : BufTy).Contents (Elt F) → (⟨S8x2048, .f32⟩ : BufTy).Contents (Elt F)),
    StableHlo.nullary main_cst_9 (constant S_ .f32 0x00000000#32),
    StableHlo.binary main_v125 main_cst_9 main_v126 ((fun x v => Host.reduceAdd x v reducesTo_S8x2048_S8_d1 h_S_) : (⟨S8x2048, .f32⟩ : BufTy).Contents (Elt F) → (⟨S_, .f32⟩ : BufTy).Contents (Elt F) → (⟨S8, .f32⟩ : BufTy).Contents (Elt F)),
    StableHlo.unary main_v126 main_v127 (broadcastInDim S8x1 ![0] bcast_S8_S8x1_0 : (⟨S8, .f32⟩ : BufTy).Contents (Elt F) → (⟨S8x1, .f32⟩ : BufTy).Contents (Elt F)),
    StableHlo.nullary main_cst_10 (constant S_ .f32 0x45000000#32),
    StableHlo.unary main_cst_10 main_v128 (broadcastInDim S8x1 ![] bcast_S_S8x1 : (⟨S_, .f32⟩ : BufTy).Contents (Elt F) → (⟨S8x1, .f32⟩ : BufTy).Contents (Elt F)),
    StableHlo.binary main_v127 main_v128 main_v129 (Host.divf : (⟨S8x1, .f32⟩ : BufTy).Contents (Elt F) → (⟨S8x1, .f32⟩ : BufTy).Contents (Elt F) → (⟨S8x1, .f32⟩ : BufTy).Contents (Elt F)),
    StableHlo.nullary main_c_11 (constantI S_ 32 0#32) ]
theorem pc5_sub : (pc5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
theorem pc5_fresh : (pc5 : List (HloOp τ sig (Elt F))).Forall fun op => op.fresh = ∅ := by
  simp only [List.Forall]; repeat' constructor
/-- The buffers it writes, in order. -/
abbrev pwr5 : List (Ref sig .tc) := [main_v112, main_v113, main_v114, main_v115, main_v116, main_cst_6, main_v117, main_v118, main_cst_7, main_v119, main_v120, main_v121, main_cst_8, main_v122, main_v123, main_v124, main_v125, main_cst_9, main_v126, main_v127, main_cst_10, main_v128, main_v129, main_c_11]
theorem hpwr5 : (pc5 : List (HloOp τ sig (Elt F))).Forall fun op => op.writes ⊆ ((pwr5).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil))))))))))))))))))))))))
theorem keepP5 (W : Valuation τ sig (Elt F)) {r : Ref sig .tc} (hr : r ∉ pwr5) :
    StableHlo.after (pc5 : List (HloOp τ sig (Elt F))) W (Proc.devRef .tc r) = W (Proc.devRef .tc r) :=
  StableHlo.after_of_writes_sub _ _ hpwr5 hr

set_option maxHeartbeats 40000000 in
/-- Operations 166 … 188. -/
abbrev pc6 : List (HloOp τ sig (Elt F)) :=
  [ StableHlo.TRef.nullary (.of main_call1_cst : StableHlo.TRef sig ⟨S_, .f32⟩) (constant S_ .f32 0x00000000#32),
    StableHlo.TRef.binary (.of main_v125 : StableHlo.TRef sig ⟨S8x2048, .f32⟩) (.of main_call1_cst : StableHlo.TRef sig ⟨S_, .f32⟩) (.of main_call1_v0 : StableHlo.TRef sig ⟨S8, .f32⟩) (fun x v => Host.reduceAdd x v reducesTo_S8x2048_S8_d1 h_S_),
    StableHlo.TRef.unary (.of main_call1_v0 : StableHlo.TRef sig ⟨S8, .f32⟩) (.of main_call1_v1 : StableHlo.TRef sig ⟨S8x1, .f32⟩) (broadcastInDim S8x1 ![0] bcast_S8_S8x1_0),
    StableHlo.TRef.nullary (.of main_call1_cst_0 : StableHlo.TRef sig ⟨S_, .f32⟩) (constant S_ .f32 0x45000000#32),
    StableHlo.TRef.unary (.of main_call1_cst_0 : StableHlo.TRef sig ⟨S_, .f32⟩) (.of main_call1_v2 : StableHlo.TRef sig ⟨S8x1, .f32⟩) (broadcastInDim S8x1 ![] bcast_S_S8x1),
    StableHlo.TRef.binary (.of main_call1_v1 : StableHlo.TRef sig ⟨S8x1, .f32⟩) (.of main_call1_v2 : StableHlo.TRef sig ⟨S8x1, .f32⟩) (.of main_call1_v3 : StableHlo.TRef sig ⟨S8x1, .f32⟩) Host.divf,
    StableHlo.TRef.unary (.of main_call1_v3 : StableHlo.TRef sig ⟨S8x1, .f32⟩) (.of main_call1_v4 : StableHlo.TRef sig ⟨S8x2048, .f32⟩) (broadcastInDim S8x2048 ![0, 1] bcast_S8x1_S8x2048_0_1),
    StableHlo.TRef.binary (.of main_v125 : StableHlo.TRef sig ⟨S8x2048, .f32⟩) (.of main_call1_v4 : StableHlo.TRef sig ⟨S8x2048, .f32⟩) (.of main_call1_v5 : StableHlo.TRef sig ⟨S8x2048, .f32⟩) subf,
    StableHlo.TRef.binary (.of main_call1_v5 : StableHlo.TRef sig ⟨S8x2048, .f32⟩) (.of main_call1_v5 : StableHlo.TRef sig ⟨S8x2048, .f32⟩) (.of main_call1_v6 : StableHlo.TRef sig ⟨S8x2048, .f32⟩) mulf,
    StableHlo.TRef.unary (.of main_c_11 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x45000000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S8x2048, .f32⟩) (.of main_call1_cst_2 : StableHlo.TRef sig ⟨S_, .f32⟩) (.of main_call1_v9 : StableHlo.TRef sig ⟨S8, .f32⟩) (fun x v => Host.reduceAdd x v reducesTo_S8x2048_S8_d1 h_S_),
    StableHlo.TRef.unary (.of main_call1_v9 : StableHlo.TRef sig ⟨S8, .f32⟩) (.of main_call1_v10 : StableHlo.TRef sig ⟨S8x1, .f32⟩) (broadcastInDim S8x1 ![0] bcast_S8_S8x1_0),
    StableHlo.TRef.unary (.of main_call1_v8 : StableHlo.TRef sig ⟨S_, .f32⟩) (.of main_call1_v11 : StableHlo.TRef sig ⟨S8x1, .f32⟩) (broadcastInDim S8x1 ![] bcast_S_S8x1),
    StableHlo.TRef.binary (.of main_call1_v10 : StableHlo.TRef sig ⟨S8x1, .f32⟩) (.of main_call1_v11 : StableHlo.TRef sig ⟨S8x1, .f32⟩) (.of main_call1_v12 : StableHlo.TRef sig ⟨S8x1, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v13 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S8x1, .f32⟩) (broadcastInDim S8x1 ![] bcast_S_S8x1),
    StableHlo.TRef.ternary (.of main_call1_v13 : StableHlo.TRef sig ⟨S_, .i1⟩) (.of main_call1_v12 : StableHlo.TRef sig ⟨S8x1, .f32⟩) (.of main_call1_call0_v1 : StableHlo.TRef sig ⟨S8x1, .f32⟩) (.of main_v130 : StableHlo.TRef sig ⟨S8x1, .f32⟩) (fun p a b => select (broadcastInDim S8x1 ![] bcast_S_S8x1 p) a b) ]
theorem pc6_sub : (pc6 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem pc6_fresh : (pc6 : List (HloOp τ sig (Elt F))).Forall fun op => op.fresh = ∅ := by
  simp only [List.Forall]; repeat' constructor
/-- The buffers it writes, in order. -/
abbrev pwr6 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v130]
theorem hpwr6 : (pc6 : List (HloOp τ sig (Elt F))).Forall fun op => op.writes ⊆ ((pwr6).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))
theorem keepP6 (W : Valuation τ sig (Elt F)) {r : Ref sig .tc} (hr : r ∉ pwr6) :
    StableHlo.after (pc6 : List (HloOp τ sig (Elt F))) W (Proc.devRef .tc r) = W (Proc.devRef .tc r) :=
  StableHlo.after_of_writes_sub _ _ hpwr6 hr

set_option maxHeartbeats 40000000 in
/-- Operations 189 … 205. -/
abbrev pc7 : List (HloOp τ sig (Elt F)) :=
  [ StableHlo.unary main_v129 main_v131 (broadcastInDim S8x2048 ![0, 1] bcast_S8x1_S8x2048_0_1 : (⟨S8x1, .f32⟩ : BufTy).Contents (Elt F) → (⟨S8x2048, .f32⟩ : BufTy).Contents (Elt F)),
    StableHlo.binary main_v125 main_v131 main_v132 (subf : (⟨S8x2048, .f32⟩ : BufTy).Contents (Elt F) → (⟨S8x2048, .f32⟩ : BufTy).Contents (Elt F) → (⟨S8x2048, .f32⟩ : BufTy).Contents (Elt F)),
    StableHlo.nullary main_cst_12 (constant S_ .f32 0x3727C5AC#32),
    StableHlo.unary main_cst_12 main_v133 (broadcastInDim S8x1 ![] bcast_S_S8x1 : (⟨S_, .f32⟩ : BufTy).Contents (Elt F) → (⟨S8x1, .f32⟩ : BufTy).Contents (Elt F)),
    StableHlo.binary main_v130 main_v133 main_v134 (addf : (⟨S8x1, .f32⟩ : BufTy).Contents (Elt F) → (⟨S8x1, .f32⟩ : BufTy).Contents (Elt F) → (⟨S8x1, .f32⟩ : BufTy).Contents (Elt F)),
    StableHlo.unary main_v134 main_v135 (Host.rsqrt : (⟨S8x1, .f32⟩ : BufTy).Contents (Elt F) → (⟨S8x1, .f32⟩ : BufTy).Contents (Elt F)),
    StableHlo.unary main_v135 main_v136 (broadcastInDim S8x2048 ![0, 1] bcast_S8x1_S8x2048_0_1 : (⟨S8x1, .f32⟩ : BufTy).Contents (Elt F) → (⟨S8x2048, .f32⟩ : BufTy).Contents (Elt F)),
    StableHlo.binary main_v132 main_v136 main_v137 (mulf : (⟨S8x2048, .f32⟩ : BufTy).Contents (Elt F) → (⟨S8x2048, .f32⟩ : BufTy).Contents (Elt F) → (⟨S8x2048, .f32⟩ : BufTy).Contents (Elt F)),
    StableHlo.unary main_arg12 main_v138 (broadcastInDim S1x2048 ![1] bcast_S2048_S1x2048_1 : (⟨S2048, .f32⟩ : BufTy).Contents (Elt F) → (⟨S1x2048, .f32⟩ : BufTy).Contents (Elt F)),
    StableHlo.unary main_v138 main_v139 (broadcastInDim S8x2048 ![0, 1] bcast_S1x2048_S8x2048_0_1 : (⟨S1x2048, .f32⟩ : BufTy).Contents (Elt F) → (⟨S8x2048, .f32⟩ : BufTy).Contents (Elt F)),
    StableHlo.binary main_v137 main_v139 main_v140 (mulf : (⟨S8x2048, .f32⟩ : BufTy).Contents (Elt F) → (⟨S8x2048, .f32⟩ : BufTy).Contents (Elt F) → (⟨S8x2048, .f32⟩ : BufTy).Contents (Elt F)),
    StableHlo.unary main_arg13 main_v141 (broadcastInDim S1x2048 ![1] bcast_S2048_S1x2048_1 : (⟨S2048, .f32⟩ : BufTy).Contents (Elt F) → (⟨S1x2048, .f32⟩ : BufTy).Contents (Elt F)),
    StableHlo.unary main_v141 main_v142 (broadcastInDim S8x2048 ![0, 1] bcast_S1x2048_S8x2048_0_1 : (⟨S1x2048, .f32⟩ : BufTy).Contents (Elt F) → (⟨S8x2048, .f32⟩ : BufTy).Contents (Elt F)),
    StableHlo.binary main_v140 main_v142 main_v143 (addf : (⟨S8x2048, .f32⟩ : BufTy).Contents (Elt F) → (⟨S8x2048, .f32⟩ : BufTy).Contents (Elt F) → (⟨S8x2048, .f32⟩ : BufTy).Contents (Elt F)),
    StableHlo.nullary main_c_13 (constantI S_ 32 36#32),
    StableHlo.unary main_c_13 main_v144 (broadcastInDim S1 ![] bcast_S_S1 : (⟨S_, .i32⟩ : BufTy).Contents (Elt F) → (⟨S1, .i32⟩ : BufTy).Contents (Elt F)),
    StableHlo.ternary main_v72 main_v144 main_v143 main_v145 ((fun x i u => Host.scatter scatter_S8x8192x2048_S1_S8x2048_01_1_1_0 (fun _ b => b) x i u) : (⟨S8x8192x2048, .f32⟩ : BufTy).Contents (Elt F) → (⟨S1, .i32⟩ : BufTy).Contents (Elt F) → (⟨S8x2048, .f32⟩ : BufTy).Contents (Elt F) → (⟨S8x8192x2048, .f32⟩ : BufTy).Contents (Elt F)) ]
theorem pc7_sub : (pc7 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.ternary_bufs_sub ..⟩
theorem pc7_fresh : (pc7 : List (HloOp τ sig (Elt F))).Forall fun op => op.fresh = ∅ := by
  simp only [List.Forall]; repeat' constructor
/-- The buffers it writes, in order. -/
abbrev pwr7 : List (Ref sig .tc) := [main_v131, main_v132, main_cst_12, main_v133, main_v134, main_v135, main_v136, main_v137, main_v138, main_v139, main_v140, main_v141, main_v142, main_v143, main_c_13, main_v144, main_v145]
theorem hpwr7 : (pc7 : List (HloOp τ sig (Elt F))).Forall fun op => op.writes ⊆ ((pwr7).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))
theorem keepP7 (W : Valuation τ sig (Elt F)) {r : Ref sig .tc} (hr : r ∉ pwr7) :
    StableHlo.after (pc7 : List (HloOp τ sig (Elt F))) W (Proc.devRef .tc r) = W (Proc.devRef .tc r) :=
  StableHlo.after_of_writes_sub _ _ hpwr7 hr

set_option maxHeartbeats 40000000 in
/-- Operations 206 … 223. -/
abbrev pc8 : List (HloOp τ sig (Elt F)) :=
  [ StableHlo.unary main_v145 main_v146 ((extractStridedSlice S8x1x2048 ![0, 104, 0] · slices_S8x8192x2048_S8x1x2048_0_104_0) : (⟨S8x8192x2048, .f32⟩ : BufTy).Contents (Elt F) → (⟨S8x1x2048, .f32⟩ : BufTy).Contents (Elt F)),
    StableHlo.reshape main_v146 main_v147 rfl shapeCasts_S8x1x2048_S8x2048,
    StableHlo.unary main_v145 main_v148 ((extractStridedSlice S8x1x2048 ![0, 36, 0] · slices_S8x8192x2048_S8x1x2048_0_36_0) : (⟨S8x8192x2048, .f32⟩ : BufTy).Contents (Elt F) → (⟨S8x1x2048, .f32⟩ : BufTy).Contents (Elt F)),
    StableHlo.reshape main_v148 main_v149 rfl shapeCasts_S8x1x2048_S8x2048,
    StableHlo.unary main_v145 main_v150 ((extractStridedSlice S8x1x2048 ![0, 12, 0] · slices_S8x8192x2048_S8x1x2048_0_12_0) : (⟨S8x8192x2048, .f32⟩ : BufTy).Contents (Elt F) → (⟨S8x1x2048, .f32⟩ : BufTy).Contents (Elt F)),
    StableHlo.reshape main_v150 main_v151 rfl shapeCasts_S8x1x2048_S8x2048,
    StableHlo.unary main_arg1 main_v152 (broadcastInDim S1x2048 ![1] bcast_S2048_S1x2048_1 : (⟨S2048, .f32⟩ : BufTy).Contents (Elt F) → (⟨S1x2048, .f32⟩ : BufTy).Contents (Elt F)),
    StableHlo.unary main_v152 main_v153 (broadcastInDim S8x2048 ![0, 1] bcast_S1x2048_S8x2048_0_1 : (⟨S1x2048, .f32⟩ : BufTy).Contents (Elt F) → (⟨S8x2048, .f32⟩ : BufTy).Contents (Elt F)),
    StableHlo.binary main_v153 main_v147 main_v154 (mulf : (⟨S8x2048, .f32⟩ : BufTy).Contents (Elt F) → (⟨S8x2048, .f32⟩ : BufTy).Contents (Elt F) → (⟨S8x2048, .f32⟩ : BufTy).Contents (Elt F)),
    StableHlo.unary main_arg2 main_v155 (broadcastInDim S1x2048 ![1] bcast_S2048_S1x2048_1 : (⟨S2048, .f32⟩ : BufTy).Contents (Elt F) → (⟨S1x2048, .f32⟩ : BufTy).Contents (Elt F)),
    StableHlo.unary main_v155 main_v156 (broadcastInDim S8x2048 ![0, 1] bcast_S1x2048_S8x2048_0_1 : (⟨S1x2048, .f32⟩ : BufTy).Contents (Elt F) → (⟨S8x2048, .f32⟩ : BufTy).Contents (Elt F)),
    StableHlo.binary main_v156 main_v149 main_v157 (mulf : (⟨S8x2048, .f32⟩ : BufTy).Contents (Elt F) → (⟨S8x2048, .f32⟩ : BufTy).Contents (Elt F) → (⟨S8x2048, .f32⟩ : BufTy).Contents (Elt F)),
    StableHlo.binary main_v154 main_v157 main_v158 (addf : (⟨S8x2048, .f32⟩ : BufTy).Contents (Elt F) → (⟨S8x2048, .f32⟩ : BufTy).Contents (Elt F) → (⟨S8x2048, .f32⟩ : BufTy).Contents (Elt F)),
    StableHlo.unary main_arg3 main_v159 (broadcastInDim S1x2048 ![1] bcast_S2048_S1x2048_1 : (⟨S2048, .f32⟩ : BufTy).Contents (Elt F) → (⟨S1x2048, .f32⟩ : BufTy).Contents (Elt F)),
    StableHlo.unary main_v159 main_v160 (broadcastInDim S8x2048 ![0, 1] bcast_S1x2048_S8x2048_0_1 : (⟨S1x2048, .f32⟩ : BufTy).Contents (Elt F) → (⟨S8x2048, .f32⟩ : BufTy).Contents (Elt F)),
    StableHlo.binary main_v158 main_v160 main_v161 (addf : (⟨S8x2048, .f32⟩ : BufTy).Contents (Elt F) → (⟨S8x2048, .f32⟩ : BufTy).Contents (Elt F) → (⟨S8x2048, .f32⟩ : BufTy).Contents (Elt F)),
    StableHlo.unary main_arg4 main_v162 (broadcastInDim S1x2048 ![1] bcast_S2048_S1x2048_1 : (⟨S2048, .f32⟩ : BufTy).Contents (Elt F) → (⟨S1x2048, .f32⟩ : BufTy).Contents (Elt F)),
    StableHlo.unary main_v162 main_v163 (broadcastInDim S8x2048 ![0, 1] bcast_S1x2048_S8x2048_0_1 : (⟨S1x2048, .f32⟩ : BufTy).Contents (Elt F) → (⟨S8x2048, .f32⟩ : BufTy).Contents (Elt F)) ]
theorem pc8_sub : (pc8 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub ..⟩
theorem pc8_fresh : (pc8 : List (HloOp τ sig (Elt F))).Forall fun op => op.fresh = ∅ := by
  simp only [List.Forall]; repeat' constructor
/-- The buffers it writes, in order. -/
abbrev pwr8 : List (Ref sig .tc) := [main_v146, main_v147, main_v148, main_v149, main_v150, main_v151, main_v152, main_v153, main_v154, main_v155, main_v156, main_v157, main_v158, main_v159, main_v160, main_v161, main_v162, main_v163]
theorem hpwr8 : (pc8 : List (HloOp τ sig (Elt F))).Forall fun op => op.writes ⊆ ((pwr8).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil))))))))))))))))))
theorem keepP8 (W : Valuation τ sig (Elt F)) {r : Ref sig .tc} (hr : r ∉ pwr8) :
    StableHlo.after (pc8 : List (HloOp τ sig (Elt F))) W (Proc.devRef .tc r) = W (Proc.devRef .tc r) :=
  StableHlo.after_of_writes_sub _ _ hpwr8 hr

set_option maxHeartbeats 40000000 in
/-- Operations 224 … 268. -/
abbrev pc9 : List (HloOp τ sig (Elt F)) :=
  [ StableHlo.binary main_v163 main_v149 main_v164 (mulf : (⟨S8x2048, .f32⟩ : BufTy).Contents (Elt F) → (⟨S8x2048, .f32⟩ : BufTy).Contents (Elt F) → (⟨S8x2048, .f32⟩ : BufTy).Contents (Elt F)),
    StableHlo.unary main_arg5 main_v165 (broadcastInDim S1x2048 ![1] bcast_S2048_S1x2048_1 : (⟨S2048, .f32⟩ : BufTy).Contents (Elt F) → (⟨S1x2048, .f32⟩ : BufTy).Contents (Elt F)),
    StableHlo.unary main_v165 main_v166 (broadcastInDim S8x2048 ![0, 1] bcast_S1x2048_S8x2048_0_1 : (⟨S1x2048, .f32⟩ : BufTy).Contents (Elt F) → (⟨S8x2048, .f32⟩ : BufTy).Contents (Elt F)),
    StableHlo.binary main_v166 main_v151 main_v167 (mulf : (⟨S8x2048, .f32⟩ : BufTy).Contents (Elt F) → (⟨S8x2048, .f32⟩ : BufTy).Contents (Elt F) → (⟨S8x2048, .f32⟩ : BufTy).Contents (Elt F)),
    StableHlo.binary main_v164 main_v167 main_v168 (addf : (⟨S8x2048, .f32⟩ : BufTy).Contents (Elt F) → (⟨S8x2048, .f32⟩ : BufTy).Contents (Elt F) → (⟨S8x2048, .f32⟩ : BufTy).Contents (Elt F)),
    StableHlo.unary main_arg6 main_v169 (broadcastInDim S1x2048 ![1] bcast_S2048_S1x2048_1 : (⟨S2048, .f32⟩ : BufTy).Contents (Elt F) → (⟨S1x2048, .f32⟩ : BufTy).Contents (Elt F)),
    StableHlo.unary main_v169 main_v170 (broadcastInDim S8x2048 ![0, 1] bcast_S1x2048_S8x2048_0_1 : (⟨S1x2048, .f32⟩ : BufTy).Contents (Elt F) → (⟨S8x2048, .f32⟩ : BufTy).Contents (Elt F)),
    StableHlo.binary main_v168 main_v170 main_v171 (addf : (⟨S8x2048, .f32⟩ : BufTy).Contents (Elt F) → (⟨S8x2048, .f32⟩ : BufTy).Contents (Elt F) → (⟨S8x2048, .f32⟩ : BufTy).Contents (Elt F)),
    StableHlo.unary main_arg7 main_v172 (broadcastInDim S1x2048 ![1] bcast_S2048_S1x2048_1 : (⟨S2048, .f32⟩ : BufTy).Contents (Elt F) → (⟨S1x2048, .f32⟩ : BufTy).Contents (Elt F)),
    StableHlo.unary main_v172 main_v173 (broadcastInDim S8x2048 ![0, 1] bcast_S1x2048_S8x2048_0_1 : (⟨S1x2048, .f32⟩ : BufTy).Contents (Elt F) → (⟨S8x2048, .f32⟩ : BufTy).Contents (Elt F)),
    StableHlo.binary main_v173 main_v161 main_v174 (mulf : (⟨S8x2048, .f32⟩ : BufTy).Contents (Elt F) → (⟨S8x2048, .f32⟩ : BufTy).Contents (Elt F) → (⟨S8x2048, .f32⟩ : BufTy).Contents (Elt F)),
    StableHlo.unary main_arg8 main_v175 (broadcastInDim S1x2048 ![1] bcast_S2048_S1x2048_1 : (⟨S2048, .f32⟩ : BufTy).Contents (Elt F) → (⟨S1x2048, .f32⟩ : BufTy).Contents (Elt F)),
    StableHlo.unary main_v175 main_v176 (broadcastInDim S8x2048 ![0, 1] bcast_S1x2048_S8x2048_0_1 : (⟨S1x2048, .f32⟩ : BufTy).Contents (Elt F) → (⟨S8x2048, .f32⟩ : BufTy).Contents (Elt F)),
    StableHlo.binary main_v176 main_v171 main_v177 (mulf : (⟨S8x2048, .f32⟩ : BufTy).Contents (Elt F) → (⟨S8x2048, .f32⟩ : BufTy).Contents (Elt F) → (⟨S8x2048, .f32⟩ : BufTy).Contents (Elt F)),
    StableHlo.binary main_v174 main_v177 main_v178 (addf : (⟨S8x2048, .f32⟩ : BufTy).Contents (Elt F) → (⟨S8x2048, .f32⟩ : BufTy).Contents (Elt F) → (⟨S8x2048, .f32⟩ : BufTy).Contents (Elt F)),
    StableHlo.unary main_arg9 main_v179 (broadcastInDim S1x2048 ![1] bcast_S2048_S1x2048_1 : (⟨S2048, .f32⟩ : BufTy).Contents (Elt F) → (⟨S1x2048, .f32⟩ : BufTy).Contents (Elt F)),
    StableHlo.unary main_v179 main_v180 (broadcastInDim S8x2048 ![0, 1] bcast_S1x2048_S8x2048_0_1 : (⟨S1x2048, .f32⟩ : BufTy).Contents (Elt F) → (⟨S8x2048, .f32⟩ : BufTy).Contents (Elt F)),
    StableHlo.binary main_v178 main_v180 main_v181 (addf : (⟨S8x2048, .f32⟩ : BufTy).Contents (Elt F) → (⟨S8x2048, .f32⟩ : BufTy).Contents (Elt F) → (⟨S8x2048, .f32⟩ : BufTy).Contents (Elt F)),
    StableHlo.binary main_v181 main_v147 main_v182 ((fun a b => concatenate S8x4096 1 [⟨S8x2048, a⟩, ⟨S8x2048, b⟩] concatenates_S8x2048_S8x2048_S8x4096_d1) : (⟨S8x2048, .f32⟩ : BufTy).Contents (Elt F) → (⟨S8x2048, .f32⟩ : BufTy).Contents (Elt F) → (⟨S8x4096, .f32⟩ : BufTy).Contents (Elt F)),
    StableHlo.unary main_arg10 main_v183 ((transpose S4096x2048 [1, 0] · transposes_S2048x4096_S4096x2048_1_0) : (⟨S2048x4096, .f32⟩ : BufTy).Contents (Elt F) → (⟨S4096x2048, .f32⟩ : BufTy).Contents (Elt F)),
    StableHlo.binary main_v182 main_v183 main_v184 ((fun l r => Host.dotGeneral dot_S8x4096_S4096x2048_S8x2048_1_0_0_1_n_n none l r) : (⟨S8x4096, .f32⟩ : BufTy).Contents (Elt F) → (⟨S4096x2048, .f32⟩ : BufTy).Contents (Elt F) → (⟨S8x2048, .f32⟩ : BufTy).Contents (Elt F)),
    StableHlo.unary main_arg11 main_v185 (broadcastInDim S1x2048 ![1] bcast_S2048_S1x2048_1 : (⟨S2048, .f32⟩ : BufTy).Contents (Elt F) → (⟨S1x2048, .f32⟩ : BufTy).Contents (Elt F)),
    StableHlo.unary main_v185 main_v186 (broadcastInDim S8x2048 ![0, 1] bcast_S1x2048_S8x2048_0_1 : (⟨S1x2048, .f32⟩ : BufTy).Contents (Elt F) → (⟨S8x2048, .f32⟩ : BufTy).Contents (Elt F)),
    StableHlo.binary main_v184 main_v186 main_v187 (addf : (⟨S8x2048, .f32⟩ : BufTy).Contents (Elt F) → (⟨S8x2048, .f32⟩ : BufTy).Contents (Elt F) → (⟨S8x2048, .f32⟩ : BufTy).Contents (Elt F)),
    StableHlo.unary main_v187 main_v188 (Host.negf : (⟨S8x2048, .f32⟩ : BufTy).Contents (Elt F) → (⟨S8x2048, .f32⟩ : BufTy).Contents (Elt F)),
    StableHlo.unary main_v188 main_v189 (Host.exp : (⟨S8x2048, .f32⟩ : BufTy).Contents (Elt F) → (⟨S8x2048, .f32⟩ : BufTy).Contents (Elt F)),
    StableHlo.nullary main_cst_14 (constant S_ .f32 0x3F800000#32),
    StableHlo.unary main_cst_14 main_v190 (broadcastInDim S8x2048 ![] bcast_S_S8x2048 : (⟨S_, .f32⟩ : BufTy).Contents (Elt F) → (⟨S8x2048, .f32⟩ : BufTy).Contents (Elt F)),
    StableHlo.binary main_v190 main_v189 main_v191 (addf : (⟨S8x2048, .f32⟩ : BufTy).Contents (Elt F) → (⟨S8x2048, .f32⟩ : BufTy).Contents (Elt F) → (⟨S8x2048, .f32⟩ : BufTy).Contents (Elt F)),
    StableHlo.nullary main_cst_15 (constant S_ .f32 0x3F800000#32),
    StableHlo.unary main_cst_15 main_v192 (broadcastInDim S8x2048 ![] bcast_S_S8x2048 : (⟨S_, .f32⟩ : BufTy).Contents (Elt F) → (⟨S8x2048, .f32⟩ : BufTy).Contents (Elt F)),
    StableHlo.binary main_v192 main_v191 main_v193 (Host.divf : (⟨S8x2048, .f32⟩ : BufTy).Contents (Elt F) → (⟨S8x2048, .f32⟩ : BufTy).Contents (Elt F) → (⟨S8x2048, .f32⟩ : BufTy).Contents (Elt F)),
    StableHlo.binary main_v193 main_v181 main_v194 (mulf : (⟨S8x2048, .f32⟩ : BufTy).Contents (Elt F) → (⟨S8x2048, .f32⟩ : BufTy).Contents (Elt F) → (⟨S8x2048, .f32⟩ : BufTy).Contents (Elt F)),
    StableHlo.nullary main_cst_16 (constant S_ .f32 0x3F800000#32),
    StableHlo.unary main_cst_16 main_v195 (broadcastInDim S8x2048 ![] bcast_S_S8x2048 : (⟨S_, .f32⟩ : BufTy).Contents (Elt F) → (⟨S8x2048, .f32⟩ : BufTy).Contents (Elt F)),
    StableHlo.binary main_v195 main_v193 main_v196 (subf : (⟨S8x2048, .f32⟩ : BufTy).Contents (Elt F) → (⟨S8x2048, .f32⟩ : BufTy).Contents (Elt F) → (⟨S8x2048, .f32⟩ : BufTy).Contents (Elt F)),
    StableHlo.binary main_v196 main_v147 main_v197 (mulf : (⟨S8x2048, .f32⟩ : BufTy).Contents (Elt F) → (⟨S8x2048, .f32⟩ : BufTy).Contents (Elt F) → (⟨S8x2048, .f32⟩ : BufTy).Contents (Elt F)),
    StableHlo.binary main_v194 main_v197 main_v198 (addf : (⟨S8x2048, .f32⟩ : BufTy).Contents (Elt F) → (⟨S8x2048, .f32⟩ : BufTy).Contents (Elt F) → (⟨S8x2048, .f32⟩ : BufTy).Contents (Elt F)),
    StableHlo.nullary main_cst_17 (constant S_ .f32 0x00000000#32),
    StableHlo.binary main_v198 main_cst_17 main_v199 ((fun x v => Host.reduceAdd x v reducesTo_S8x2048_S8_d1 h_S_) : (⟨S8x2048, .f32⟩ : BufTy).Contents (Elt F) → (⟨S_, .f32⟩ : BufTy).Contents (Elt F) → (⟨S8, .f32⟩ : BufTy).Contents (Elt F)),
    StableHlo.unary main_v199 main_v200 (broadcastInDim S8x1 ![0] bcast_S8_S8x1_0 : (⟨S8, .f32⟩ : BufTy).Contents (Elt F) → (⟨S8x1, .f32⟩ : BufTy).Contents (Elt F)),
    StableHlo.nullary main_cst_18 (constant S_ .f32 0x45000000#32),
    StableHlo.unary main_cst_18 main_v201 (broadcastInDim S8x1 ![] bcast_S_S8x1 : (⟨S_, .f32⟩ : BufTy).Contents (Elt F) → (⟨S8x1, .f32⟩ : BufTy).Contents (Elt F)),
    StableHlo.binary main_v200 main_v201 main_v202 (Host.divf : (⟨S8x1, .f32⟩ : BufTy).Contents (Elt F) → (⟨S8x1, .f32⟩ : BufTy).Contents (Elt F) → (⟨S8x1, .f32⟩ : BufTy).Contents (Elt F)),
    StableHlo.nullary main_c_19 (constantI S_ 32 0#32) ]
theorem pc9_sub : (pc9 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
theorem pc9_fresh : (pc9 : List (HloOp τ sig (Elt F))).Forall fun op => op.fresh = ∅ := by
  simp only [List.Forall]; repeat' constructor
/-- The buffers it writes, in order. -/
abbrev pwr9 : List (Ref sig .tc) := [main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_cst_14, main_v190, main_v191, main_cst_15, main_v192, main_v193, main_v194, main_cst_16, main_v195, main_v196, main_v197, main_v198, main_cst_17, main_v199, main_v200, main_cst_18, main_v201, main_v202, main_c_19]
theorem hpwr9 : (pc9 : List (HloOp τ sig (Elt F))).Forall fun op => op.writes ⊆ ((pwr9).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))))))))))))))))))))))))
theorem keepP9 (W : Valuation τ sig (Elt F)) {r : Ref sig .tc} (hr : r ∉ pwr9) :
    StableHlo.after (pc9 : List (HloOp τ sig (Elt F))) W (Proc.devRef .tc r) = W (Proc.devRef .tc r) :=
  StableHlo.after_of_writes_sub _ _ hpwr9 hr

set_option maxHeartbeats 40000000 in
/-- Operations 269 … 291. -/
abbrev pc10 : List (HloOp τ sig (Elt F)) :=
  [ StableHlo.TRef.nullary (.of main_call2_cst : StableHlo.TRef sig ⟨S_, .f32⟩) (constant S_ .f32 0x00000000#32),
    StableHlo.TRef.binary (.of main_v198 : StableHlo.TRef sig ⟨S8x2048, .f32⟩) (.of main_call2_cst : StableHlo.TRef sig ⟨S_, .f32⟩) (.of main_call2_v0 : StableHlo.TRef sig ⟨S8, .f32⟩) (fun x v => Host.reduceAdd x v reducesTo_S8x2048_S8_d1 h_S_),
    StableHlo.TRef.unary (.of main_call2_v0 : StableHlo.TRef sig ⟨S8, .f32⟩) (.of main_call2_v1 : StableHlo.TRef sig ⟨S8x1, .f32⟩) (broadcastInDim S8x1 ![0] bcast_S8_S8x1_0),
    StableHlo.TRef.nullary (.of main_call2_cst_0 : StableHlo.TRef sig ⟨S_, .f32⟩) (constant S_ .f32 0x45000000#32),
    StableHlo.TRef.unary (.of main_call2_cst_0 : StableHlo.TRef sig ⟨S_, .f32⟩) (.of main_call2_v2 : StableHlo.TRef sig ⟨S8x1, .f32⟩) (broadcastInDim S8x1 ![] bcast_S_S8x1),
    StableHlo.TRef.binary (.of main_call2_v1 : StableHlo.TRef sig ⟨S8x1, .f32⟩) (.of main_call2_v2 : StableHlo.TRef sig ⟨S8x1, .f32⟩) (.of main_call2_v3 : StableHlo.TRef sig ⟨S8x1, .f32⟩) Host.divf,
    StableHlo.TRef.unary (.of main_call2_v3 : StableHlo.TRef sig ⟨S8x1, .f32⟩) (.of main_call2_v4 : StableHlo.TRef sig ⟨S8x2048, .f32⟩) (broadcastInDim S8x2048 ![0, 1] bcast_S8x1_S8x2048_0_1),
    StableHlo.TRef.binary (.of main_v198 : StableHlo.TRef sig ⟨S8x2048, .f32⟩) (.of main_call2_v4 : StableHlo.TRef sig ⟨S8x2048, .f32⟩) (.of main_call2_v5 : StableHlo.TRef sig ⟨S8x2048, .f32⟩) subf,
    StableHlo.TRef.binary (.of main_call2_v5 : StableHlo.TRef sig ⟨S8x2048, .f32⟩) (.of main_call2_v5 : StableHlo.TRef sig ⟨S8x2048, .f32⟩) (.of main_call2_v6 : StableHlo.TRef sig ⟨S8x2048, .f32⟩) mulf,
    StableHlo.TRef.unary (.of main_c_19 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x45000000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S8x2048, .f32⟩) (.of main_call2_cst_2 : StableHlo.TRef sig ⟨S_, .f32⟩) (.of main_call2_v9 : StableHlo.TRef sig ⟨S8, .f32⟩) (fun x v => Host.reduceAdd x v reducesTo_S8x2048_S8_d1 h_S_),
    StableHlo.TRef.unary (.of main_call2_v9 : StableHlo.TRef sig ⟨S8, .f32⟩) (.of main_call2_v10 : StableHlo.TRef sig ⟨S8x1, .f32⟩) (broadcastInDim S8x1 ![0] bcast_S8_S8x1_0),
    StableHlo.TRef.unary (.of main_call2_v8 : StableHlo.TRef sig ⟨S_, .f32⟩) (.of main_call2_v11 : StableHlo.TRef sig ⟨S8x1, .f32⟩) (broadcastInDim S8x1 ![] bcast_S_S8x1),
    StableHlo.TRef.binary (.of main_call2_v10 : StableHlo.TRef sig ⟨S8x1, .f32⟩) (.of main_call2_v11 : StableHlo.TRef sig ⟨S8x1, .f32⟩) (.of main_call2_v12 : StableHlo.TRef sig ⟨S8x1, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v13 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S8x1, .f32⟩) (broadcastInDim S8x1 ![] bcast_S_S8x1),
    StableHlo.TRef.ternary (.of main_call2_v13 : StableHlo.TRef sig ⟨S_, .i1⟩) (.of main_call2_v12 : StableHlo.TRef sig ⟨S8x1, .f32⟩) (.of main_call2_call0_v1 : StableHlo.TRef sig ⟨S8x1, .f32⟩) (.of main_v203 : StableHlo.TRef sig ⟨S8x1, .f32⟩) (fun p a b => select (broadcastInDim S8x1 ![] bcast_S_S8x1 p) a b) ]
theorem pc10_sub : (pc10 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem pc10_fresh : (pc10 : List (HloOp τ sig (Elt F))).Forall fun op => op.fresh = ∅ := by
  simp only [List.Forall]; repeat' constructor
/-- The buffers it writes, in order. -/
abbrev pwr10 : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v203]
theorem hpwr10 : (pc10 : List (HloOp τ sig (Elt F))).Forall fun op => op.writes ⊆ ((pwr10).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))
theorem keepP10 (W : Valuation τ sig (Elt F)) {r : Ref sig .tc} (hr : r ∉ pwr10) :
    StableHlo.after (pc10 : List (HloOp τ sig (Elt F))) W (Proc.devRef .tc r) = W (Proc.devRef .tc r) :=
  StableHlo.after_of_writes_sub _ _ hpwr10 hr

set_option maxHeartbeats 40000000 in
/-- Operations 292 … 305. -/
abbrev pc11 : List (HloOp τ sig (Elt F)) :=
  [ StableHlo.unary main_v202 main_v204 (broadcastInDim S8x2048 ![0, 1] bcast_S8x1_S8x2048_0_1 : (⟨S8x1, .f32⟩ : BufTy).Contents (Elt F) → (⟨S8x2048, .f32⟩ : BufTy).Contents (Elt F)),
    StableHlo.binary main_v198 main_v204 main_v205 (subf : (⟨S8x2048, .f32⟩ : BufTy).Contents (Elt F) → (⟨S8x2048, .f32⟩ : BufTy).Contents (Elt F) → (⟨S8x2048, .f32⟩ : BufTy).Contents (Elt F)),
    StableHlo.nullary main_cst_20 (constant S_ .f32 0x3727C5AC#32),
    StableHlo.unary main_cst_20 main_v206 (broadcastInDim S8x1 ![] bcast_S_S8x1 : (⟨S_, .f32⟩ : BufTy).Contents (Elt F) → (⟨S8x1, .f32⟩ : BufTy).Contents (Elt F)),
    StableHlo.binary main_v203 main_v206 main_v207 (addf : (⟨S8x1, .f32⟩ : BufTy).Contents (Elt F) → (⟨S8x1, .f32⟩ : BufTy).Contents (Elt F) → (⟨S8x1, .f32⟩ : BufTy).Contents (Elt F)),
    StableHlo.unary main_v207 main_v208 (Host.rsqrt : (⟨S8x1, .f32⟩ : BufTy).Contents (Elt F) → (⟨S8x1, .f32⟩ : BufTy).Contents (Elt F)),
    StableHlo.unary main_v208 main_v209 (broadcastInDim S8x2048 ![0, 1] bcast_S8x1_S8x2048_0_1 : (⟨S8x1, .f32⟩ : BufTy).Contents (Elt F) → (⟨S8x2048, .f32⟩ : BufTy).Contents (Elt F)),
    StableHlo.binary main_v205 main_v209 main_v210 (mulf : (⟨S8x2048, .f32⟩ : BufTy).Contents (Elt F) → (⟨S8x2048, .f32⟩ : BufTy).Contents (Elt F) → (⟨S8x2048, .f32⟩ : BufTy).Contents (Elt F)),
    StableHlo.unary main_arg12 main_v211 (broadcastInDim S1x2048 ![1] bcast_S2048_S1x2048_1 : (⟨S2048, .f32⟩ : BufTy).Contents (Elt F) → (⟨S1x2048, .f32⟩ : BufTy).Contents (Elt F)),
    StableHlo.unary main_v211 main_v212 (broadcastInDim S8x2048 ![0, 1] bcast_S1x2048_S8x2048_0_1 : (⟨S1x2048, .f32⟩ : BufTy).Contents (Elt F) → (⟨S8x2048, .f32⟩ : BufTy).Contents (Elt F)),
    StableHlo.binary main_v210 main_v212 main_v213 (mulf : (⟨S8x2048, .f32⟩ : BufTy).Contents (Elt F) → (⟨S8x2048, .f32⟩ : BufTy).Contents (Elt F) → (⟨S8x2048, .f32⟩ : BufTy).Contents (Elt F)),
    StableHlo.unary main_arg13 main_v214 (broadcastInDim S1x2048 ![1] bcast_S2048_S1x2048_1 : (⟨S2048, .f32⟩ : BufTy).Contents (Elt F) → (⟨S1x2048, .f32⟩ : BufTy).Contents (Elt F)),
    StableHlo.unary main_v214 main_v215 (broadcastInDim S8x2048 ![0, 1] bcast_S1x2048_S8x2048_0_1 : (⟨S1x2048, .f32⟩ : BufTy).Contents (Elt F) → (⟨S8x2048, .f32⟩ : BufTy).Contents (Elt F)),
    StableHlo.binary main_v213 main_v215 main_v216 (addf : (⟨S8x2048, .f32⟩ : BufTy).Contents (Elt F) → (⟨S8x2048, .f32⟩ : BufTy).Contents (Elt F) → (⟨S8x2048, .f32⟩ : BufTy).Contents (Elt F)) ]
theorem pc11_sub : (pc11 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem pc11_fresh : (pc11 : List (HloOp τ sig (Elt F))).Forall fun op => op.fresh = ∅ := by
  simp only [List.Forall]; repeat' constructor
/-- The buffers it writes, in order. -/
abbrev pwr11 : List (Ref sig .tc) := [main_v204, main_v205, main_cst_20, main_v206, main_v207, main_v208, main_v209, main_v210, main_v211, main_v212, main_v213, main_v214, main_v215, main_v216]
theorem hpwr11 : (pc11 : List (HloOp τ sig (Elt F))).Forall fun op => op.writes ⊆ ((pwr11).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil))))))))))))))
theorem keepP11 (W : Valuation τ sig (Elt F)) {r : Ref sig .tc} (hr : r ∉ pwr11) :
    StableHlo.after (pc11 : List (HloOp τ sig (Elt F))) W (Proc.devRef .tc r) = W (Proc.devRef .tc r) :=
  StableHlo.after_of_writes_sub _ _ hpwr11 hr

set_option maxHeartbeats 40000000 in
/-- Operations 306 … 308. -/
abbrev pc12 : List (HloOp τ sig (Elt F)) :=
  [ StableHlo.nullary main_c_21 (constantI S_ 32 104#32),
    StableHlo.unary main_c_21 main_v217 (broadcastInDim S1 ![] bcast_S_S1 : (⟨S_, .i32⟩ : BufTy).Contents (Elt F) → (⟨S1, .i32⟩ : BufTy).Contents (Elt F)),
    StableHlo.ternary main_v145 main_v217 main_v216 main_v218 ((fun x i u => Host.scatter scatter_S8x8192x2048_S1_S8x2048_01_1_1_0 (fun _ b => b) x i u) : (⟨S8x8192x2048, .f32⟩ : BufTy).Contents (Elt F) → (⟨S1, .i32⟩ : BufTy).Contents (Elt F) → (⟨S8x2048, .f32⟩ : BufTy).Contents (Elt F) → (⟨S8x8192x2048, .f32⟩ : BufTy).Contents (Elt F)) ]
theorem pc12_sub : (pc12 : List (HloOp τ sig (Elt F))).Forall fun op => op.bufs ⊆ StableHlo.tcRefs τ sig :=
  ⟨StableHlo.nullary_bufs_sub .., StableHlo.unary_bufs_sub .., StableHlo.ternary_bufs_sub ..⟩
theorem pc12_fresh : (pc12 : List (HloOp τ sig (Elt F))).Forall fun op => op.fresh = ∅ := by
  simp only [List.Forall]; repeat' constructor
/-- The buffers it writes, in order. -/
abbrev pwr12 : List (Ref sig .tc) := [main_c_21, main_v217, main_v218]
theorem hpwr12 : (pc12 : List (HloOp τ sig (Elt F))).Forall fun op => op.writes ⊆ ((pwr12).map (Proc.devRef (τ := τ) .tc)).toFinset :=
  writes_cons rfl (writes_cons rfl (writes_cons rfl (writes_nil)))
theorem keepP12 (W : Valuation τ sig (Elt F)) {r : Ref sig .tc} (hr : r ∉ pwr12) :
    StableHlo.after (pc12 : List (HloOp τ sig (Elt F))) W (Proc.devRef .tc r) = W (Proc.devRef .tc r) :=
  StableHlo.after_of_writes_sub _ _ hpwr12 hr

set_option maxHeartbeats 40000000 in
/-- Operations 309 … 365. -/
abbrev pc13 : List (HloOp τ sig (Elt F)) :=
  [ StableHlo.unary main_v218 main_v219 ((extractStridedSlice S8x1x2048 ![0, 304, 0] · slices_S8x8192x2048_S8x1x2048_0_304_0) : (⟨S8x8192x2048, .f32⟩ : BufTy).Contents (Elt F) → (⟨S8x1x2048, .f32⟩ : BufTy).Contents (Elt F)),
    StableHlo.reshape main_v219 main_v220 rfl shapeCasts_S8x1x2048_S8x2048,
    StableHlo.unary main_v218 main_v221 ((extractStridedSlice S8x1x2048 ![0, 104, 0] · slices_S8x8192x2048_S8x1x2048_0_104_0) : (⟨S8x8192x2048, .f32⟩ : BufTy).Contents (Elt F) → (⟨S8x1x2048, .f32⟩ : BufTy).Contents (Elt F)),
    StableHlo.reshape main_v221 main_v222 rfl shapeCasts_S8x1x2048_S8x2048,
    StableHlo.unary main_v218 main_v223 ((extractStridedSlice S8x1x2048 ![0, 36, 0] · slices_S8x8192x2048_S8x1x2048_0_36_0) : (⟨S8x8192x2048, .f32⟩ : BufTy).Contents (Elt F) → (⟨S8x1x2048, .f32⟩ : BufTy).Contents (Elt F)),
    StableHlo.reshape main_v223 main_v224 rfl shapeCasts_S8x1x2048_S8x2048,
    StableHlo.unary main_arg1 main_v225 (broadcastInDim S1x2048 ![1] bcast_S2048_S1x2048_1 : (⟨S2048, .f32⟩ : BufTy).Contents (Elt F) → (⟨S1x2048, .f32⟩ : BufTy).Contents (Elt F)),
    StableHlo.unary main_v225 main_v226 (broadcastInDim S8x2048 ![0, 1] bcast_S1x2048_S8x2048_0_1 : (⟨S1x2048, .f32⟩ : BufTy).Contents (Elt F) → (⟨S8x2048, .f32⟩ : BufTy).Contents (Elt F)),
    StableHlo.binary main_v226 main_v220 main_v227 (mulf : (⟨S8x2048, .f32⟩ : BufTy).Contents (Elt F) → (⟨S8x2048, .f32⟩ : BufTy).Contents (Elt F) → (⟨S8x2048, .f32⟩ : BufTy).Contents (Elt F)),
    StableHlo.unary main_arg2 main_v228 (broadcastInDim S1x2048 ![1] bcast_S2048_S1x2048_1 : (⟨S2048, .f32⟩ : BufTy).Contents (Elt F) → (⟨S1x2048, .f32⟩ : BufTy).Contents (Elt F)),
    StableHlo.unary main_v228 main_v229 (broadcastInDim S8x2048 ![0, 1] bcast_S1x2048_S8x2048_0_1 : (⟨S1x2048, .f32⟩ : BufTy).Contents (Elt F) → (⟨S8x2048, .f32⟩ : BufTy).Contents (Elt F)),
    StableHlo.binary main_v229 main_v222 main_v230 (mulf : (⟨S8x2048, .f32⟩ : BufTy).Contents (Elt F) → (⟨S8x2048, .f32⟩ : BufTy).Contents (Elt F) → (⟨S8x2048, .f32⟩ : BufTy).Contents (Elt F)),
    StableHlo.binary main_v227 main_v230 main_v231 (addf : (⟨S8x2048, .f32⟩ : BufTy).Contents (Elt F) → (⟨S8x2048, .f32⟩ : BufTy).Contents (Elt F) → (⟨S8x2048, .f32⟩ : BufTy).Contents (Elt F)),
    StableHlo.unary main_arg3 main_v232 (broadcastInDim S1x2048 ![1] bcast_S2048_S1x2048_1 : (⟨S2048, .f32⟩ : BufTy).Contents (Elt F) → (⟨S1x2048, .f32⟩ : BufTy).Contents (Elt F)),
    StableHlo.unary main_v232 main_v233 (broadcastInDim S8x2048 ![0, 1] bcast_S1x2048_S8x2048_0_1 : (⟨S1x2048, .f32⟩ : BufTy).Contents (Elt F) → (⟨S8x2048, .f32⟩ : BufTy).Contents (Elt F)),
    StableHlo.binary main_v231 main_v233 main_v234 (addf : (⟨S8x2048, .f32⟩ : BufTy).Contents (Elt F) → (⟨S8x2048, .f32⟩ : BufTy).Contents (Elt F) → (⟨S8x2048, .f32⟩ : BufTy).Contents (Elt F)),
    StableHlo.unary main_arg4 main_v235 (broadcastInDim S1x2048 ![1] bcast_S2048_S1x2048_1 : (⟨S2048, .f32⟩ : BufTy).Contents (Elt F) → (⟨S1x2048, .f32⟩ : BufTy).Contents (Elt F)),
    StableHlo.unary main_v235 main_v236 (broadcastInDim S8x2048 ![0, 1] bcast_S1x2048_S8x2048_0_1 : (⟨S1x2048, .f32⟩ : BufTy).Contents (Elt F) → (⟨S8x2048, .f32⟩ : BufTy).Contents (Elt F)),
    StableHlo.binary main_v236 main_v222 main_v237 (mulf : (⟨S8x2048, .f32⟩ : BufTy).Contents (Elt F) → (⟨S8x2048, .f32⟩ : BufTy).Contents (Elt F) → (⟨S8x2048, .f32⟩ : BufTy).Contents (Elt F)),
    StableHlo.unary main_arg5 main_v238 (broadcastInDim S1x2048 ![1] bcast_S2048_S1x2048_1 : (⟨S2048, .f32⟩ : BufTy).Contents (Elt F) → (⟨S1x2048, .f32⟩ : BufTy).Contents (Elt F)),
    StableHlo.unary main_v238 main_v239 (broadcastInDim S8x2048 ![0, 1] bcast_S1x2048_S8x2048_0_1 : (⟨S1x2048, .f32⟩ : BufTy).Contents (Elt F) → (⟨S8x2048, .f32⟩ : BufTy).Contents (Elt F)),
    StableHlo.binary main_v239 main_v224 main_v240 (mulf : (⟨S8x2048, .f32⟩ : BufTy).Contents (Elt F) → (⟨S8x2048, .f32⟩ : BufTy).Contents (Elt F) → (⟨S8x2048, .f32⟩ : BufTy).Contents (Elt F)),
    StableHlo.binary main_v237 main_v240 main_v241 (addf : (⟨S8x2048, .f32⟩ : BufTy).Contents (Elt F) → (⟨S8x2048, .f32⟩ : BufTy).Contents (Elt F) → (⟨S8x2048, .f32⟩ : BufTy).Contents (Elt F)),
    StableHlo.unary main_arg6 main_v242 (broadcastInDim S1x2048 ![1] bcast_S2048_S1x2048_1 : (⟨S2048, .f32⟩ : BufTy).Contents (Elt F) → (⟨S1x2048, .f32⟩ : BufTy).Contents (Elt F)),
    StableHlo.unary main_v242 main_v243 (broadcastInDim S8x2048 ![0, 1] bcast_S1x2048_S8x2048_0_1 : (⟨S1x2048, .f32⟩ : BufTy).Contents (Elt F) → (⟨S8x2048, .f32⟩ : BufTy).Contents (Elt F)),
    StableHlo.binary main_v241 main_v243 main_v244 (addf : (⟨S8x2048, .f32⟩ : BufTy).Contents (Elt F) → (⟨S8x2048, .f32⟩ : BufTy).Contents (Elt F) → (⟨S8x2048, .f32⟩ : BufTy).Contents (Elt F)),
    StableHlo.unary main_arg7 main_v245 (broadcastInDim S1x2048 ![1] bcast_S2048_S1x2048_1 : (⟨S2048, .f32⟩ : BufTy).Contents (Elt F) → (⟨S1x2048, .f32⟩ : BufTy).Contents (Elt F)),
    StableHlo.unary main_v245 main_v246 (broadcastInDim S8x2048 ![0, 1] bcast_S1x2048_S8x2048_0_1 : (⟨S1x2048, .f32⟩ : BufTy).Contents (Elt F) → (⟨S8x2048, .f32⟩ : BufTy).Contents (Elt F)),
    StableHlo.binary main_v246 main_v234 main_v247 (mulf : (⟨S8x2048, .f32⟩ : BufTy).Contents (Elt F) → (⟨S8x2048, .f32⟩ : BufTy).Contents (Elt F) → (⟨S8x2048, .f32⟩ : BufTy).Contents (Elt F)),
    StableHlo.unary main_arg8 main_v248 (broadcastInDim S1x2048 ![1] bcast_S2048_S1x2048_1 : (⟨S2048, .f32⟩ : BufTy).Contents (Elt F) → (⟨S1x2048, .f32⟩ : BufTy).Contents (Elt F)),
    StableHlo.unary main_v248 main_v249 (broadcastInDim S8x2048 ![0, 1] bcast_S1x2048_S8x2048_0_1 : (⟨S1x2048, .f32⟩ : BufTy).Contents (Elt F) → (⟨S8x2048, .f32⟩ : BufTy).Contents (Elt F)),
    StableHlo.binary main_v249 main_v244 main_v250 (mulf : (⟨S8x2048, .f32⟩ : BufTy).Contents (Elt F) → (⟨S8x2048, .f32⟩ : BufTy).Contents (Elt F) → (⟨S8x2048, .f32⟩ : BufTy).Contents (Elt F)),
    StableHlo.binary main_v247 main_v250 main_v251 (addf : (⟨S8x2048, .f32⟩ : BufTy).Contents (Elt F) → (⟨S8x2048, .f32⟩ : BufTy).Contents (Elt F) → (⟨S8x2048, .f32⟩ : BufTy).Contents (Elt F)),
    StableHlo.unary main_arg9 main_v252 (broadcastInDim S1x2048 ![1] bcast_S2048_S1x2048_1 : (⟨S2048, .f32⟩ : BufTy).Contents (Elt F) → (⟨S1x2048, .f32⟩ : BufTy).Contents (Elt F)),
    StableHlo.unary main_v252 main_v253 (broadcastInDim S8x2048 ![0, 1] bcast_S1x2048_S8x2048_0_1 : (⟨S1x2048, .f32⟩ : BufTy).Contents (Elt F) → (⟨S8x2048, .f32⟩ : BufTy).Contents (Elt F)),
    StableHlo.binary main_v251 main_v253 main_v254 (addf : (⟨S8x2048, .f32⟩ : BufTy).Contents (Elt F) → (⟨S8x2048, .f32⟩ : BufTy).Contents (Elt F) → (⟨S8x2048, .f32⟩ : BufTy).Contents (Elt F)),
    StableHlo.binary main_v254 main_v220 main_v255 ((fun a b => concatenate S8x4096 1 [⟨S8x2048, a⟩, ⟨S8x2048, b⟩] concatenates_S8x2048_S8x2048_S8x4096_d1) : (⟨S8x2048, .f32⟩ : BufTy).Contents (Elt F) → (⟨S8x2048, .f32⟩ : BufTy).Contents (Elt F) → (⟨S8x4096, .f32⟩ : BufTy).Contents (Elt F)),
    StableHlo.unary main_arg10 main_v256 ((transpose S4096x2048 [1, 0] · transposes_S2048x4096_S4096x2048_1_0) : (⟨S2048x4096, .f32⟩ : BufTy).Contents (Elt F) → (⟨S4096x2048, .f32⟩ : BufTy).Contents (Elt F)),
    StableHlo.binary main_v255 main_v256 main_v257 ((fun l r => Host.dotGeneral dot_S8x4096_S4096x2048_S8x2048_1_0_0_1_n_n none l r) : (⟨S8x4096, .f32⟩ : BufTy).Contents (Elt F) → (⟨S4096x2048, .f32⟩ : BufTy).Contents (Elt F) → (⟨S8x2048, .f32⟩ : BufTy).Contents (Elt F)),
    StableHlo.unary main_arg11 main_v258 (broadcastInDim S1x2048 ![1] bcast_S2048_S1x2048_1 : (⟨S2048, .f32⟩ : BufTy).Contents (Elt F) → (⟨S1x2048, .f32⟩ : BufTy).Contents (Elt F)),
    StableHlo.unary main_v258 main_v259 (broadcastInDim S8x2048 ![0, 1] bcast_S1x2048_S8x2048_0_1 : (⟨S1x2048, .f32⟩ : BufTy).Contents (Elt F) → (⟨S8x2048, .f32⟩ : BufTy).Contents (Elt F)),
    StableHlo.binary main_v257 main_v259 main_v260 (addf : (⟨S8x2048, .f32⟩ : BufTy).Contents (Elt F) → (⟨S8x2048, .f32⟩ : BufTy).Contents (Elt F) → (⟨S8x2048, .f32⟩ : BufTy).Contents (Elt F)),
    StableHlo.unary main_v260 main_v261 (Host.negf : (⟨S8x2048, .f32⟩ : BufTy).Contents (Elt F) → (⟨S8x2048, .f32⟩ : BufTy).Contents (Elt F)),
    StableHlo.unary main_v261 main_v262 (Host.exp : (⟨S8x2048, .f32⟩ : BufTy).Contents (Elt F) → (⟨S8x2048, .f32⟩ : BufTy).Contents (Elt F)),
    StableHlo.nullary main_cst_22 (constant S_ .f32 0x3F800000#32),
    StableHlo.unary main_cst_22 main_v263 (broadcastInDim S8x2048 ![] bcast_S_S8x2048 : (⟨S_, .f32⟩ : BufTy).Contents (Elt F) → (⟨S8x2048, .f32⟩ : BufTy).Contents (Elt F)),
    StableHlo.binary main_v263 main_v262 main_v264 (addf : (⟨S8x2048, .f32⟩ : BufTy).Contents (Elt F) → (⟨S8x2048, .f32⟩ : BufTy).Contents (Elt F) → (⟨S8x2048, .f32⟩ : BufTy).Contents (Elt F)),
    StableHlo.nullary main_cst_23 (constant S_ .f32 0x3F800000#32),
    StableHlo.unary main_cst_23 main_v265 (broadcastInDim S8x2048 ![] bcast_S_S8x2048 : (⟨S_, .f32⟩ : BufTy).Contents (Elt F) → (⟨S8x2048, .f32⟩ : BufTy).Contents (Elt F)),
    StableHlo.binary main_v265 main_v264 main_v266 (Host.divf : (⟨S8x2048, .f32⟩ : BufTy).Contents (Elt F) → (⟨S8x2048, .f32⟩ : BufTy).Contents (Elt F) → (⟨S8x2048, .f32⟩ : BufTy).Contents (Elt F)),
    StableHlo.binary main_v266 main_v254 main_v267 (mulf : (⟨S8x2048, .f32⟩ : BufTy).Contents (Elt F) → (⟨S8x2048, .f32⟩ : BufTy).Contents (Elt F) → (⟨S8x2048, .f32⟩ : BufTy).Contents (Elt F)),
    StableHlo.nullary main_cst_24 (constant S_ .f32 0x3F800000#32),
    StableHlo.unary main_cst_24 main_v268 (broadcastInDim S8x2048 ![] bcast_S_S8x2048 : (⟨S_, .f32⟩ : BufTy).Contents (Elt F) → (⟨S8x2048, .f32⟩ : BufTy).Contents (Elt F)),
    StableHlo.binary main_v268 main_v266 main_v269 (subf : (⟨S8x2048, .f32⟩ : BufTy).Contents (Elt F) → (⟨S8x2048, .f32⟩ : BufTy).Contents (Elt F) → (⟨S8x2048, .f32⟩ : BufTy).Contents (Elt F)),
    StableHlo.binary main_v269 main_v220 main_v270 (mulf : (⟨S8x2048, .f32⟩ : BufTy).Contents (Elt F) → (⟨S8x2048, .f32⟩ : BufTy).Contents (Elt F) → (⟨S8x2048, .f32⟩ : BufTy).Contents (Elt F)),
    StableHlo.binary main_v267 main_v270 main_v271 (addf : (⟨S8x2048, .f32⟩ : BufTy).Contents (Elt F) → (⟨S8x2048, .f32⟩ : BufTy).Contents (Elt F) → (⟨S8x2048, .f32⟩ : BufTy).Contents (Elt F)),
    StableHlo.nullary main_cst_25 (constant S_ .f32 0x00000000#32) ]
theorem pc13_sub : (pc13 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub ..⟩
theorem pc13_fresh : (pc13 : List (HloOp τ sig (Elt F))).Forall fun op => op.fresh = ∅ := by
  simp only [List.Forall]; repeat' constructor
/-- The buffers it writes, in order. -/
abbrev pwr13 : List (Ref sig .tc) := [main_v219, main_v220, main_v221, main_v222, main_v223, main_v224, main_v225, main_v226, main_v227, main_v228, main_v229, main_v230, main_v231, main_v232, main_v233, main_v234, main_v235, main_v236, main_v237, main_v238, main_v239, main_v240, main_v241, main_v242, main_v243, main_v244, main_v245, main_v246, main_v247, main_v248, main_v249, main_v250, main_v251, main_v252, main_v253, main_v254, main_v255, main_v256, main_v257, main_v258, main_v259, main_v260, main_v261, main_v262, main_cst_22, main_v263, main_v264, main_cst_23, main_v265, main_v266, main_v267, main_cst_24, main_v268, main_v269, main_v270, main_v271, main_cst_25]
theorem hpwr13 : (pc13 : List (HloOp τ sig (Elt F))).Forall fun op => op.writes ⊆ ((pwr13).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))))))))))))))))))))))))))))))))))))
theorem keepP13 (W : Valuation τ sig (Elt F)) {r : Ref sig .tc} (hr : r ∉ pwr13) :
    StableHlo.after (pc13 : List (HloOp τ sig (Elt F))) W (Proc.devRef .tc r) = W (Proc.devRef .tc r) :=
  StableHlo.after_of_writes_sub _ _ hpwr13 hr

set_option maxHeartbeats 40000000 in
/-- Operations 366 … 371. -/
abbrev pc14 : List (HloOp τ sig (Elt F)) :=
  [ StableHlo.binary main_v271 main_cst_25 main_v272 ((fun x v => Host.reduceAdd x v reducesTo_S8x2048_S8_d1 h_S_) : (⟨S8x2048, .f32⟩ : BufTy).Contents (Elt F) → (⟨S_, .f32⟩ : BufTy).Contents (Elt F) → (⟨S8, .f32⟩ : BufTy).Contents (Elt F)),
    StableHlo.unary main_v272 main_v273 (broadcastInDim S8x1 ![0] bcast_S8_S8x1_0 : (⟨S8, .f32⟩ : BufTy).Contents (Elt F) → (⟨S8x1, .f32⟩ : BufTy).Contents (Elt F)),
    StableHlo.nullary main_cst_26 (constant S_ .f32 0x45000000#32),
    StableHlo.unary main_cst_26 main_v274 (broadcastInDim S8x1 ![] bcast_S_S8x1 : (⟨S_, .f32⟩ : BufTy).Contents (Elt F) → (⟨S8x1, .f32⟩ : BufTy).Contents (Elt F)),
    StableHlo.binary main_v273 main_v274 main_v275 (Host.divf : (⟨S8x1, .f32⟩ : BufTy).Contents (Elt F) → (⟨S8x1, .f32⟩ : BufTy).Contents (Elt F) → (⟨S8x1, .f32⟩ : BufTy).Contents (Elt F)),
    StableHlo.nullary main_c_27 (constantI S_ 32 0#32) ]
theorem pc14_sub : (pc14 : List (HloOp τ sig (Elt F))).Forall fun op => op.bufs ⊆ StableHlo.tcRefs τ sig :=
  ⟨StableHlo.binary_bufs_sub .., StableHlo.unary_bufs_sub .., StableHlo.nullary_bufs_sub .., StableHlo.unary_bufs_sub .., StableHlo.binary_bufs_sub .., StableHlo.nullary_bufs_sub ..⟩
theorem pc14_fresh : (pc14 : List (HloOp τ sig (Elt F))).Forall fun op => op.fresh = ∅ := by
  simp only [List.Forall]; repeat' constructor
/-- The buffers it writes, in order. -/
abbrev pwr14 : List (Ref sig .tc) := [main_v272, main_v273, main_cst_26, main_v274, main_v275, main_c_27]
theorem hpwr14 : (pc14 : List (HloOp τ sig (Elt F))).Forall fun op => op.writes ⊆ ((pwr14).map (Proc.devRef (τ := τ) .tc)).toFinset :=
  writes_cons rfl (writes_cons rfl (writes_cons rfl (writes_cons rfl (writes_cons rfl (writes_cons rfl (writes_nil))))))
theorem keepP14 (W : Valuation τ sig (Elt F)) {r : Ref sig .tc} (hr : r ∉ pwr14) :
    StableHlo.after (pc14 : List (HloOp τ sig (Elt F))) W (Proc.devRef .tc r) = W (Proc.devRef .tc r) :=
  StableHlo.after_of_writes_sub _ _ hpwr14 hr

set_option maxHeartbeats 40000000 in
/-- Operations 372 … 394. -/
abbrev pc15 : List (HloOp τ sig (Elt F)) :=
  [ StableHlo.TRef.nullary (.of main_call3_cst : StableHlo.TRef sig ⟨S_, .f32⟩) (constant S_ .f32 0x00000000#32),
    StableHlo.TRef.binary (.of main_v271 : StableHlo.TRef sig ⟨S8x2048, .f32⟩) (.of main_call3_cst : StableHlo.TRef sig ⟨S_, .f32⟩) (.of main_call3_v0 : StableHlo.TRef sig ⟨S8, .f32⟩) (fun x v => Host.reduceAdd x v reducesTo_S8x2048_S8_d1 h_S_),
    StableHlo.TRef.unary (.of main_call3_v0 : StableHlo.TRef sig ⟨S8, .f32⟩) (.of main_call3_v1 : StableHlo.TRef sig ⟨S8x1, .f32⟩) (broadcastInDim S8x1 ![0] bcast_S8_S8x1_0),
    StableHlo.TRef.nullary (.of main_call3_cst_0 : StableHlo.TRef sig ⟨S_, .f32⟩) (constant S_ .f32 0x45000000#32),
    StableHlo.TRef.unary (.of main_call3_cst_0 : StableHlo.TRef sig ⟨S_, .f32⟩) (.of main_call3_v2 : StableHlo.TRef sig ⟨S8x1, .f32⟩) (broadcastInDim S8x1 ![] bcast_S_S8x1),
    StableHlo.TRef.binary (.of main_call3_v1 : StableHlo.TRef sig ⟨S8x1, .f32⟩) (.of main_call3_v2 : StableHlo.TRef sig ⟨S8x1, .f32⟩) (.of main_call3_v3 : StableHlo.TRef sig ⟨S8x1, .f32⟩) Host.divf,
    StableHlo.TRef.unary (.of main_call3_v3 : StableHlo.TRef sig ⟨S8x1, .f32⟩) (.of main_call3_v4 : StableHlo.TRef sig ⟨S8x2048, .f32⟩) (broadcastInDim S8x2048 ![0, 1] bcast_S8x1_S8x2048_0_1),
    StableHlo.TRef.binary (.of main_v271 : StableHlo.TRef sig ⟨S8x2048, .f32⟩) (.of main_call3_v4 : StableHlo.TRef sig ⟨S8x2048, .f32⟩) (.of main_call3_v5 : StableHlo.TRef sig ⟨S8x2048, .f32⟩) subf,
    StableHlo.TRef.binary (.of main_call3_v5 : StableHlo.TRef sig ⟨S8x2048, .f32⟩) (.of main_call3_v5 : StableHlo.TRef sig ⟨S8x2048, .f32⟩) (.of main_call3_v6 : StableHlo.TRef sig ⟨S8x2048, .f32⟩) mulf,
    StableHlo.TRef.unary (.of main_c_27 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x45000000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S8x2048, .f32⟩) (.of main_call3_cst_2 : StableHlo.TRef sig ⟨S_, .f32⟩) (.of main_call3_v9 : StableHlo.TRef sig ⟨S8, .f32⟩) (fun x v => Host.reduceAdd x v reducesTo_S8x2048_S8_d1 h_S_),
    StableHlo.TRef.unary (.of main_call3_v9 : StableHlo.TRef sig ⟨S8, .f32⟩) (.of main_call3_v10 : StableHlo.TRef sig ⟨S8x1, .f32⟩) (broadcastInDim S8x1 ![0] bcast_S8_S8x1_0),
    StableHlo.TRef.unary (.of main_call3_v8 : StableHlo.TRef sig ⟨S_, .f32⟩) (.of main_call3_v11 : StableHlo.TRef sig ⟨S8x1, .f32⟩) (broadcastInDim S8x1 ![] bcast_S_S8x1),
    StableHlo.TRef.binary (.of main_call3_v10 : StableHlo.TRef sig ⟨S8x1, .f32⟩) (.of main_call3_v11 : StableHlo.TRef sig ⟨S8x1, .f32⟩) (.of main_call3_v12 : StableHlo.TRef sig ⟨S8x1, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v13 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S8x1, .f32⟩) (broadcastInDim S8x1 ![] bcast_S_S8x1),
    StableHlo.TRef.ternary (.of main_call3_v13 : StableHlo.TRef sig ⟨S_, .i1⟩) (.of main_call3_v12 : StableHlo.TRef sig ⟨S8x1, .f32⟩) (.of main_call3_call0_v1 : StableHlo.TRef sig ⟨S8x1, .f32⟩) (.of main_v276 : StableHlo.TRef sig ⟨S8x1, .f32⟩) (fun p a b => select (broadcastInDim S8x1 ![] bcast_S_S8x1 p) a b) ]
theorem pc15_sub : (pc15 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem pc15_fresh : (pc15 : List (HloOp τ sig (Elt F))).Forall fun op => op.fresh = ∅ := by
  simp only [List.Forall]; repeat' constructor
/-- The buffers it writes, in order. -/
abbrev pwr15 : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v276]
theorem hpwr15 : (pc15 : List (HloOp τ sig (Elt F))).Forall fun op => op.writes ⊆ ((pwr15).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))
theorem keepP15 (W : Valuation τ sig (Elt F)) {r : Ref sig .tc} (hr : r ∉ pwr15) :
    StableHlo.after (pc15 : List (HloOp τ sig (Elt F))) W (Proc.devRef .tc r) = W (Proc.devRef .tc r) :=
  StableHlo.after_of_writes_sub _ _ hpwr15 hr

set_option maxHeartbeats 40000000 in
/-- Operations 395 … 411. -/
abbrev pc16 : List (HloOp τ sig (Elt F)) :=
  [ StableHlo.unary main_v275 main_v277 (broadcastInDim S8x2048 ![0, 1] bcast_S8x1_S8x2048_0_1 : (⟨S8x1, .f32⟩ : BufTy).Contents (Elt F) → (⟨S8x2048, .f32⟩ : BufTy).Contents (Elt F)),
    StableHlo.binary main_v271 main_v277 main_v278 (subf : (⟨S8x2048, .f32⟩ : BufTy).Contents (Elt F) → (⟨S8x2048, .f32⟩ : BufTy).Contents (Elt F) → (⟨S8x2048, .f32⟩ : BufTy).Contents (Elt F)),
    StableHlo.nullary main_cst_28 (constant S_ .f32 0x3727C5AC#32),
    StableHlo.unary main_cst_28 main_v279 (broadcastInDim S8x1 ![] bcast_S_S8x1 : (⟨S_, .f32⟩ : BufTy).Contents (Elt F) → (⟨S8x1, .f32⟩ : BufTy).Contents (Elt F)),
    StableHlo.binary main_v276 main_v279 main_v280 (addf : (⟨S8x1, .f32⟩ : BufTy).Contents (Elt F) → (⟨S8x1, .f32⟩ : BufTy).Contents (Elt F) → (⟨S8x1, .f32⟩ : BufTy).Contents (Elt F)),
    StableHlo.unary main_v280 main_v281 (Host.rsqrt : (⟨S8x1, .f32⟩ : BufTy).Contents (Elt F) → (⟨S8x1, .f32⟩ : BufTy).Contents (Elt F)),
    StableHlo.unary main_v281 main_v282 (broadcastInDim S8x2048 ![0, 1] bcast_S8x1_S8x2048_0_1 : (⟨S8x1, .f32⟩ : BufTy).Contents (Elt F) → (⟨S8x2048, .f32⟩ : BufTy).Contents (Elt F)),
    StableHlo.binary main_v278 main_v282 main_v283 (mulf : (⟨S8x2048, .f32⟩ : BufTy).Contents (Elt F) → (⟨S8x2048, .f32⟩ : BufTy).Contents (Elt F) → (⟨S8x2048, .f32⟩ : BufTy).Contents (Elt F)),
    StableHlo.unary main_arg12 main_v284 (broadcastInDim S1x2048 ![1] bcast_S2048_S1x2048_1 : (⟨S2048, .f32⟩ : BufTy).Contents (Elt F) → (⟨S1x2048, .f32⟩ : BufTy).Contents (Elt F)),
    StableHlo.unary main_v284 main_v285 (broadcastInDim S8x2048 ![0, 1] bcast_S1x2048_S8x2048_0_1 : (⟨S1x2048, .f32⟩ : BufTy).Contents (Elt F) → (⟨S8x2048, .f32⟩ : BufTy).Contents (Elt F)),
    StableHlo.binary main_v283 main_v285 main_v286 (mulf : (⟨S8x2048, .f32⟩ : BufTy).Contents (Elt F) → (⟨S8x2048, .f32⟩ : BufTy).Contents (Elt F) → (⟨S8x2048, .f32⟩ : BufTy).Contents (Elt F)),
    StableHlo.unary main_arg13 main_v287 (broadcastInDim S1x2048 ![1] bcast_S2048_S1x2048_1 : (⟨S2048, .f32⟩ : BufTy).Contents (Elt F) → (⟨S1x2048, .f32⟩ : BufTy).Contents (Elt F)),
    StableHlo.unary main_v287 main_v288 (broadcastInDim S8x2048 ![0, 1] bcast_S1x2048_S8x2048_0_1 : (⟨S1x2048, .f32⟩ : BufTy).Contents (Elt F) → (⟨S8x2048, .f32⟩ : BufTy).Contents (Elt F)),
    StableHlo.binary main_v286 main_v288 main_v289 (addf : (⟨S8x2048, .f32⟩ : BufTy).Contents (Elt F) → (⟨S8x2048, .f32⟩ : BufTy).Contents (Elt F) → (⟨S8x2048, .f32⟩ : BufTy).Contents (Elt F)),
    StableHlo.nullary main_c_29 (constantI S_ 32 304#32),
    StableHlo.unary main_c_29 main_v290 (broadcastInDim S1 ![] bcast_S_S1 : (⟨S_, .i32⟩ : BufTy).Contents (Elt F) → (⟨S1, .i32⟩ : BufTy).Contents (Elt F)),
    StableHlo.ternary main_v218 main_v290 main_v289 main_v291 ((fun x i u => Host.scatter scatter_S8x8192x2048_S1_S8x2048_01_1_1_0 (fun _ b => b) x i u) : (⟨S8x8192x2048, .f32⟩ : BufTy).Contents (Elt F) → (⟨S1, .i32⟩ : BufTy).Contents (Elt F) → (⟨S8x2048, .f32⟩ : BufTy).Contents (Elt F) → (⟨S8x8192x2048, .f32⟩ : BufTy).Contents (Elt F)) ]
theorem pc16_sub : (pc16 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.ternary_bufs_sub ..⟩
theorem pc16_fresh : (pc16 : List (HloOp τ sig (Elt F))).Forall fun op => op.fresh = ∅ := by
  simp only [List.Forall]; repeat' constructor
/-- The buffers it writes, in order. -/
abbrev pwr16 : List (Ref sig .tc) := [main_v277, main_v278, main_cst_28, main_v279, main_v280, main_v281, main_v282, main_v283, main_v284, main_v285, main_v286, main_v287, main_v288, main_v289, main_c_29, main_v290, main_v291]
theorem hpwr16 : (pc16 : List (HloOp τ sig (Elt F))).Forall fun op => op.writes ⊆ ((pwr16).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))
theorem keepP16 (W : Valuation τ sig (Elt F)) {r : Ref sig .tc} (hr : r ∉ pwr16) :
    StableHlo.after (pc16 : List (HloOp τ sig (Elt F))) W (Proc.devRef .tc r) = W (Proc.devRef .tc r) :=
  StableHlo.after_of_writes_sub _ _ hpwr16 hr

set_option maxHeartbeats 40000000 in
/-- Operations 412 … 447. -/
abbrev pc17 : List (HloOp τ sig (Elt F)) :=
  [ StableHlo.unary main_v291 main_v292 ((extractStridedSlice S8x1x2048 ![0, 888, 0] · slices_S8x8192x2048_S8x1x2048_0_888_0) : (⟨S8x8192x2048, .f32⟩ : BufTy).Contents (Elt F) → (⟨S8x1x2048, .f32⟩ : BufTy).Contents (Elt F)),
    StableHlo.reshape main_v292 main_v293 rfl shapeCasts_S8x1x2048_S8x2048,
    StableHlo.unary main_v291 main_v294 ((extractStridedSlice S8x1x2048 ![0, 304, 0] · slices_S8x8192x2048_S8x1x2048_0_304_0) : (⟨S8x8192x2048, .f32⟩ : BufTy).Contents (Elt F) → (⟨S8x1x2048, .f32⟩ : BufTy).Contents (Elt F)),
    StableHlo.reshape main_v294 main_v295 rfl shapeCasts_S8x1x2048_S8x2048,
    StableHlo.unary main_v291 main_v296 ((extractStridedSlice S8x1x2048 ![0, 104, 0] · slices_S8x8192x2048_S8x1x2048_0_104_0) : (⟨S8x8192x2048, .f32⟩ : BufTy).Contents (Elt F) → (⟨S8x1x2048, .f32⟩ : BufTy).Contents (Elt F)),
    StableHlo.reshape main_v296 main_v297 rfl shapeCasts_S8x1x2048_S8x2048,
    StableHlo.unary main_arg1 main_v298 (broadcastInDim S1x2048 ![1] bcast_S2048_S1x2048_1 : (⟨S2048, .f32⟩ : BufTy).Contents (Elt F) → (⟨S1x2048, .f32⟩ : BufTy).Contents (Elt F)),
    StableHlo.unary main_v298 main_v299 (broadcastInDim S8x2048 ![0, 1] bcast_S1x2048_S8x2048_0_1 : (⟨S1x2048, .f32⟩ : BufTy).Contents (Elt F) → (⟨S8x2048, .f32⟩ : BufTy).Contents (Elt F)),
    StableHlo.binary main_v299 main_v293 main_v300 (mulf : (⟨S8x2048, .f32⟩ : BufTy).Contents (Elt F) → (⟨S8x2048, .f32⟩ : BufTy).Contents (Elt F) → (⟨S8x2048, .f32⟩ : BufTy).Contents (Elt F)),
    StableHlo.unary main_arg2 main_v301 (broadcastInDim S1x2048 ![1] bcast_S2048_S1x2048_1 : (⟨S2048, .f32⟩ : BufTy).Contents (Elt F) → (⟨S1x2048, .f32⟩ : BufTy).Contents (Elt F)),
    StableHlo.unary main_v301 main_v302 (broadcastInDim S8x2048 ![0, 1] bcast_S1x2048_S8x2048_0_1 : (⟨S1x2048, .f32⟩ : BufTy).Contents (Elt F) → (⟨S8x2048, .f32⟩ : BufTy).Contents (Elt F)),
    StableHlo.binary main_v302 main_v295 main_v303 (mulf : (⟨S8x2048, .f32⟩ : BufTy).Contents (Elt F) → (⟨S8x2048, .f32⟩ : BufTy).Contents (Elt F) → (⟨S8x2048, .f32⟩ : BufTy).Contents (Elt F)),
    StableHlo.binary main_v300 main_v303 main_v304 (addf : (⟨S8x2048, .f32⟩ : BufTy).Contents (Elt F) → (⟨S8x2048, .f32⟩ : BufTy).Contents (Elt F) → (⟨S8x2048, .f32⟩ : BufTy).Contents (Elt F)),
    StableHlo.unary main_arg3 main_v305 (broadcastInDim S1x2048 ![1] bcast_S2048_S1x2048_1 : (⟨S2048, .f32⟩ : BufTy).Contents (Elt F) → (⟨S1x2048, .f32⟩ : BufTy).Contents (Elt F)),
    StableHlo.unary main_v305 main_v306 (broadcastInDim S8x2048 ![0, 1] bcast_S1x2048_S8x2048_0_1 : (⟨S1x2048, .f32⟩ : BufTy).Contents (Elt F) → (⟨S8x2048, .f32⟩ : BufTy).Contents (Elt F)),
    StableHlo.binary main_v304 main_v306 main_v307 (addf : (⟨S8x2048, .f32⟩ : BufTy).Contents (Elt F) → (⟨S8x2048, .f32⟩ : BufTy).Contents (Elt F) → (⟨S8x2048, .f32⟩ : BufTy).Contents (Elt F)),
    StableHlo.unary main_arg4 main_v308 (broadcastInDim S1x2048 ![1] bcast_S2048_S1x2048_1 : (⟨S2048, .f32⟩ : BufTy).Contents (Elt F) → (⟨S1x2048, .f32⟩ : BufTy).Contents (Elt F)),
    StableHlo.unary main_v308 main_v309 (broadcastInDim S8x2048 ![0, 1] bcast_S1x2048_S8x2048_0_1 : (⟨S1x2048, .f32⟩ : BufTy).Contents (Elt F) → (⟨S8x2048, .f32⟩ : BufTy).Contents (Elt F)),
    StableHlo.binary main_v309 main_v295 main_v310 (mulf : (⟨S8x2048, .f32⟩ : BufTy).Contents (Elt F) → (⟨S8x2048, .f32⟩ : BufTy).Contents (Elt F) → (⟨S8x2048, .f32⟩ : BufTy).Contents (Elt F)),
    StableHlo.unary main_arg5 main_v311 (broadcastInDim S1x2048 ![1] bcast_S2048_S1x2048_1 : (⟨S2048, .f32⟩ : BufTy).Contents (Elt F) → (⟨S1x2048, .f32⟩ : BufTy).Contents (Elt F)),
    StableHlo.unary main_v311 main_v312 (broadcastInDim S8x2048 ![0, 1] bcast_S1x2048_S8x2048_0_1 : (⟨S1x2048, .f32⟩ : BufTy).Contents (Elt F) → (⟨S8x2048, .f32⟩ : BufTy).Contents (Elt F)),
    StableHlo.binary main_v312 main_v297 main_v313 (mulf : (⟨S8x2048, .f32⟩ : BufTy).Contents (Elt F) → (⟨S8x2048, .f32⟩ : BufTy).Contents (Elt F) → (⟨S8x2048, .f32⟩ : BufTy).Contents (Elt F)),
    StableHlo.binary main_v310 main_v313 main_v314 (addf : (⟨S8x2048, .f32⟩ : BufTy).Contents (Elt F) → (⟨S8x2048, .f32⟩ : BufTy).Contents (Elt F) → (⟨S8x2048, .f32⟩ : BufTy).Contents (Elt F)),
    StableHlo.unary main_arg6 main_v315 (broadcastInDim S1x2048 ![1] bcast_S2048_S1x2048_1 : (⟨S2048, .f32⟩ : BufTy).Contents (Elt F) → (⟨S1x2048, .f32⟩ : BufTy).Contents (Elt F)),
    StableHlo.unary main_v315 main_v316 (broadcastInDim S8x2048 ![0, 1] bcast_S1x2048_S8x2048_0_1 : (⟨S1x2048, .f32⟩ : BufTy).Contents (Elt F) → (⟨S8x2048, .f32⟩ : BufTy).Contents (Elt F)),
    StableHlo.binary main_v314 main_v316 main_v317 (addf : (⟨S8x2048, .f32⟩ : BufTy).Contents (Elt F) → (⟨S8x2048, .f32⟩ : BufTy).Contents (Elt F) → (⟨S8x2048, .f32⟩ : BufTy).Contents (Elt F)),
    StableHlo.unary main_arg7 main_v318 (broadcastInDim S1x2048 ![1] bcast_S2048_S1x2048_1 : (⟨S2048, .f32⟩ : BufTy).Contents (Elt F) → (⟨S1x2048, .f32⟩ : BufTy).Contents (Elt F)),
    StableHlo.unary main_v318 main_v319 (broadcastInDim S8x2048 ![0, 1] bcast_S1x2048_S8x2048_0_1 : (⟨S1x2048, .f32⟩ : BufTy).Contents (Elt F) → (⟨S8x2048, .f32⟩ : BufTy).Contents (Elt F)),
    StableHlo.binary main_v319 main_v307 main_v320 (mulf : (⟨S8x2048, .f32⟩ : BufTy).Contents (Elt F) → (⟨S8x2048, .f32⟩ : BufTy).Contents (Elt F) → (⟨S8x2048, .f32⟩ : BufTy).Contents (Elt F)),
    StableHlo.unary main_arg8 main_v321 (broadcastInDim S1x2048 ![1] bcast_S2048_S1x2048_1 : (⟨S2048, .f32⟩ : BufTy).Contents (Elt F) → (⟨S1x2048, .f32⟩ : BufTy).Contents (Elt F)),
    StableHlo.unary main_v321 main_v322 (broadcastInDim S8x2048 ![0, 1] bcast_S1x2048_S8x2048_0_1 : (⟨S1x2048, .f32⟩ : BufTy).Contents (Elt F) → (⟨S8x2048, .f32⟩ : BufTy).Contents (Elt F)),
    StableHlo.binary main_v322 main_v317 main_v323 (mulf : (⟨S8x2048, .f32⟩ : BufTy).Contents (Elt F) → (⟨S8x2048, .f32⟩ : BufTy).Contents (Elt F) → (⟨S8x2048, .f32⟩ : BufTy).Contents (Elt F)),
    StableHlo.binary main_v320 main_v323 main_v324 (addf : (⟨S8x2048, .f32⟩ : BufTy).Contents (Elt F) → (⟨S8x2048, .f32⟩ : BufTy).Contents (Elt F) → (⟨S8x2048, .f32⟩ : BufTy).Contents (Elt F)),
    StableHlo.unary main_arg9 main_v325 (broadcastInDim S1x2048 ![1] bcast_S2048_S1x2048_1 : (⟨S2048, .f32⟩ : BufTy).Contents (Elt F) → (⟨S1x2048, .f32⟩ : BufTy).Contents (Elt F)),
    StableHlo.unary main_v325 main_v326 (broadcastInDim S8x2048 ![0, 1] bcast_S1x2048_S8x2048_0_1 : (⟨S1x2048, .f32⟩ : BufTy).Contents (Elt F) → (⟨S8x2048, .f32⟩ : BufTy).Contents (Elt F)),
    StableHlo.binary main_v324 main_v326 main_v327 (addf : (⟨S8x2048, .f32⟩ : BufTy).Contents (Elt F) → (⟨S8x2048, .f32⟩ : BufTy).Contents (Elt F) → (⟨S8x2048, .f32⟩ : BufTy).Contents (Elt F)) ]
theorem pc17_sub : (pc17 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩
theorem pc17_fresh : (pc17 : List (HloOp τ sig (Elt F))).Forall fun op => op.fresh = ∅ := by
  simp only [List.Forall]; repeat' constructor
/-- The buffers it writes, in order. -/
abbrev pwr17 : List (Ref sig .tc) := [main_v292, main_v293, main_v294, main_v295, main_v296, main_v297, main_v298, main_v299, main_v300, main_v301, main_v302, main_v303, main_v304, main_v305, main_v306, main_v307, main_v308, main_v309, main_v310, main_v311, main_v312, main_v313, main_v314, main_v315, main_v316, main_v317, main_v318, main_v319, main_v320, main_v321, main_v322, main_v323, main_v324, main_v325, main_v326, main_v327]
theorem hpwr17 : (pc17 : List (HloOp τ sig (Elt F))).Forall fun op => op.writes ⊆ ((pwr17).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil))))))))))))))))))))))))))))))))))))
theorem keepP17 (W : Valuation τ sig (Elt F)) {r : Ref sig .tc} (hr : r ∉ pwr17) :
    StableHlo.after (pc17 : List (HloOp τ sig (Elt F))) W (Proc.devRef .tc r) = W (Proc.devRef .tc r) :=
  StableHlo.after_of_writes_sub _ _ hpwr17 hr

set_option maxHeartbeats 40000000 in
/-- Operations 448 … 474. -/
abbrev pc18 : List (HloOp τ sig (Elt F)) :=
  [ StableHlo.binary main_v327 main_v293 main_v328 ((fun a b => concatenate S8x4096 1 [⟨S8x2048, a⟩, ⟨S8x2048, b⟩] concatenates_S8x2048_S8x2048_S8x4096_d1) : (⟨S8x2048, .f32⟩ : BufTy).Contents (Elt F) → (⟨S8x2048, .f32⟩ : BufTy).Contents (Elt F) → (⟨S8x4096, .f32⟩ : BufTy).Contents (Elt F)),
    StableHlo.unary main_arg10 main_v329 ((transpose S4096x2048 [1, 0] · transposes_S2048x4096_S4096x2048_1_0) : (⟨S2048x4096, .f32⟩ : BufTy).Contents (Elt F) → (⟨S4096x2048, .f32⟩ : BufTy).Contents (Elt F)),
    StableHlo.binary main_v328 main_v329 main_v330 ((fun l r => Host.dotGeneral dot_S8x4096_S4096x2048_S8x2048_1_0_0_1_n_n none l r) : (⟨S8x4096, .f32⟩ : BufTy).Contents (Elt F) → (⟨S4096x2048, .f32⟩ : BufTy).Contents (Elt F) → (⟨S8x2048, .f32⟩ : BufTy).Contents (Elt F)),
    StableHlo.unary main_arg11 main_v331 (broadcastInDim S1x2048 ![1] bcast_S2048_S1x2048_1 : (⟨S2048, .f32⟩ : BufTy).Contents (Elt F) → (⟨S1x2048, .f32⟩ : BufTy).Contents (Elt F)),
    StableHlo.unary main_v331 main_v332 (broadcastInDim S8x2048 ![0, 1] bcast_S1x2048_S8x2048_0_1 : (⟨S1x2048, .f32⟩ : BufTy).Contents (Elt F) → (⟨S8x2048, .f32⟩ : BufTy).Contents (Elt F)),
    StableHlo.binary main_v330 main_v332 main_v333 (addf : (⟨S8x2048, .f32⟩ : BufTy).Contents (Elt F) → (⟨S8x2048, .f32⟩ : BufTy).Contents (Elt F) → (⟨S8x2048, .f32⟩ : BufTy).Contents (Elt F)),
    StableHlo.unary main_v333 main_v334 (Host.negf : (⟨S8x2048, .f32⟩ : BufTy).Contents (Elt F) → (⟨S8x2048, .f32⟩ : BufTy).Contents (Elt F)),
    StableHlo.unary main_v334 main_v335 (Host.exp : (⟨S8x2048, .f32⟩ : BufTy).Contents (Elt F) → (⟨S8x2048, .f32⟩ : BufTy).Contents (Elt F)),
    StableHlo.nullary main_cst_30 (constant S_ .f32 0x3F800000#32),
    StableHlo.unary main_cst_30 main_v336 (broadcastInDim S8x2048 ![] bcast_S_S8x2048 : (⟨S_, .f32⟩ : BufTy).Contents (Elt F) → (⟨S8x2048, .f32⟩ : BufTy).Contents (Elt F)),
    StableHlo.binary main_v336 main_v335 main_v337 (addf : (⟨S8x2048, .f32⟩ : BufTy).Contents (Elt F) → (⟨S8x2048, .f32⟩ : BufTy).Contents (Elt F) → (⟨S8x2048, .f32⟩ : BufTy).Contents (Elt F)),
    StableHlo.nullary main_cst_31 (constant S_ .f32 0x3F800000#32),
    StableHlo.unary main_cst_31 main_v338 (broadcastInDim S8x2048 ![] bcast_S_S8x2048 : (⟨S_, .f32⟩ : BufTy).Contents (Elt F) → (⟨S8x2048, .f32⟩ : BufTy).Contents (Elt F)),
    StableHlo.binary main_v338 main_v337 main_v339 (Host.divf : (⟨S8x2048, .f32⟩ : BufTy).Contents (Elt F) → (⟨S8x2048, .f32⟩ : BufTy).Contents (Elt F) → (⟨S8x2048, .f32⟩ : BufTy).Contents (Elt F)),
    StableHlo.binary main_v339 main_v327 main_v340 (mulf : (⟨S8x2048, .f32⟩ : BufTy).Contents (Elt F) → (⟨S8x2048, .f32⟩ : BufTy).Contents (Elt F) → (⟨S8x2048, .f32⟩ : BufTy).Contents (Elt F)),
    StableHlo.nullary main_cst_32 (constant S_ .f32 0x3F800000#32),
    StableHlo.unary main_cst_32 main_v341 (broadcastInDim S8x2048 ![] bcast_S_S8x2048 : (⟨S_, .f32⟩ : BufTy).Contents (Elt F) → (⟨S8x2048, .f32⟩ : BufTy).Contents (Elt F)),
    StableHlo.binary main_v341 main_v339 main_v342 (subf : (⟨S8x2048, .f32⟩ : BufTy).Contents (Elt F) → (⟨S8x2048, .f32⟩ : BufTy).Contents (Elt F) → (⟨S8x2048, .f32⟩ : BufTy).Contents (Elt F)),
    StableHlo.binary main_v342 main_v293 main_v343 (mulf : (⟨S8x2048, .f32⟩ : BufTy).Contents (Elt F) → (⟨S8x2048, .f32⟩ : BufTy).Contents (Elt F) → (⟨S8x2048, .f32⟩ : BufTy).Contents (Elt F)),
    StableHlo.binary main_v340 main_v343 main_v344 (addf : (⟨S8x2048, .f32⟩ : BufTy).Contents (Elt F) → (⟨S8x2048, .f32⟩ : BufTy).Contents (Elt F) → (⟨S8x2048, .f32⟩ : BufTy).Contents (Elt F)),
    StableHlo.nullary main_cst_33 (constant S_ .f32 0x00000000#32),
    StableHlo.binary main_v344 main_cst_33 main_v345 ((fun x v => Host.reduceAdd x v reducesTo_S8x2048_S8_d1 h_S_) : (⟨S8x2048, .f32⟩ : BufTy).Contents (Elt F) → (⟨S_, .f32⟩ : BufTy).Contents (Elt F) → (⟨S8, .f32⟩ : BufTy).Contents (Elt F)),
    StableHlo.unary main_v345 main_v346 (broadcastInDim S8x1 ![0] bcast_S8_S8x1_0 : (⟨S8, .f32⟩ : BufTy).Contents (Elt F) → (⟨S8x1, .f32⟩ : BufTy).Contents (Elt F)),
    StableHlo.nullary main_cst_34 (constant S_ .f32 0x45000000#32),
    StableHlo.unary main_cst_34 main_v347 (broadcastInDim S8x1 ![] bcast_S_S8x1 : (⟨S_, .f32⟩ : BufTy).Contents (Elt F) → (⟨S8x1, .f32⟩ : BufTy).Contents (Elt F)),
    StableHlo.binary main_v346 main_v347 main_v348 (Host.divf : (⟨S8x1, .f32⟩ : BufTy).Contents (Elt F) → (⟨S8x1, .f32⟩ : BufTy).Contents (Elt F) → (⟨S8x1, .f32⟩ : BufTy).Contents (Elt F)),
    StableHlo.nullary main_c_35 (constantI S_ 32 0#32) ]
theorem pc18_sub : (pc18 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
theorem pc18_fresh : (pc18 : List (HloOp τ sig (Elt F))).Forall fun op => op.fresh = ∅ := by
  simp only [List.Forall]; repeat' constructor
/-- The buffers it writes, in order. -/
abbrev pwr18 : List (Ref sig .tc) := [main_v328, main_v329, main_v330, main_v331, main_v332, main_v333, main_v334, main_v335, main_cst_30, main_v336, main_v337, main_cst_31, main_v338, main_v339, main_v340, main_cst_32, main_v341, main_v342, main_v343, main_v344, main_cst_33, main_v345, main_v346, main_cst_34, main_v347, main_v348, main_c_35]
theorem hpwr18 : (pc18 : List (HloOp τ sig (Elt F))).Forall fun op => op.writes ⊆ ((pwr18).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))))))
theorem keepP18 (W : Valuation τ sig (Elt F)) {r : Ref sig .tc} (hr : r ∉ pwr18) :
    StableHlo.after (pc18 : List (HloOp τ sig (Elt F))) W (Proc.devRef .tc r) = W (Proc.devRef .tc r) :=
  StableHlo.after_of_writes_sub _ _ hpwr18 hr

set_option maxHeartbeats 40000000 in
/-- Operations 475 … 497. -/
abbrev pc19 : List (HloOp τ sig (Elt F)) :=
  [ StableHlo.TRef.nullary (.of main_call4_cst : StableHlo.TRef sig ⟨S_, .f32⟩) (constant S_ .f32 0x00000000#32),
    StableHlo.TRef.binary (.of main_v344 : StableHlo.TRef sig ⟨S8x2048, .f32⟩) (.of main_call4_cst : StableHlo.TRef sig ⟨S_, .f32⟩) (.of main_call4_v0 : StableHlo.TRef sig ⟨S8, .f32⟩) (fun x v => Host.reduceAdd x v reducesTo_S8x2048_S8_d1 h_S_),
    StableHlo.TRef.unary (.of main_call4_v0 : StableHlo.TRef sig ⟨S8, .f32⟩) (.of main_call4_v1 : StableHlo.TRef sig ⟨S8x1, .f32⟩) (broadcastInDim S8x1 ![0] bcast_S8_S8x1_0),
    StableHlo.TRef.nullary (.of main_call4_cst_0 : StableHlo.TRef sig ⟨S_, .f32⟩) (constant S_ .f32 0x45000000#32),
    StableHlo.TRef.unary (.of main_call4_cst_0 : StableHlo.TRef sig ⟨S_, .f32⟩) (.of main_call4_v2 : StableHlo.TRef sig ⟨S8x1, .f32⟩) (broadcastInDim S8x1 ![] bcast_S_S8x1),
    StableHlo.TRef.binary (.of main_call4_v1 : StableHlo.TRef sig ⟨S8x1, .f32⟩) (.of main_call4_v2 : StableHlo.TRef sig ⟨S8x1, .f32⟩) (.of main_call4_v3 : StableHlo.TRef sig ⟨S8x1, .f32⟩) Host.divf,
    StableHlo.TRef.unary (.of main_call4_v3 : StableHlo.TRef sig ⟨S8x1, .f32⟩) (.of main_call4_v4 : StableHlo.TRef sig ⟨S8x2048, .f32⟩) (broadcastInDim S8x2048 ![0, 1] bcast_S8x1_S8x2048_0_1),
    StableHlo.TRef.binary (.of main_v344 : StableHlo.TRef sig ⟨S8x2048, .f32⟩) (.of main_call4_v4 : StableHlo.TRef sig ⟨S8x2048, .f32⟩) (.of main_call4_v5 : StableHlo.TRef sig ⟨S8x2048, .f32⟩) subf,
    StableHlo.TRef.binary (.of main_call4_v5 : StableHlo.TRef sig ⟨S8x2048, .f32⟩) (.of main_call4_v5 : StableHlo.TRef sig ⟨S8x2048, .f32⟩) (.of main_call4_v6 : StableHlo.TRef sig ⟨S8x2048, .f32⟩) mulf,
    StableHlo.TRef.unary (.of main_c_35 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x45000000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S8x2048, .f32⟩) (.of main_call4_cst_2 : StableHlo.TRef sig ⟨S_, .f32⟩) (.of main_call4_v9 : StableHlo.TRef sig ⟨S8, .f32⟩) (fun x v => Host.reduceAdd x v reducesTo_S8x2048_S8_d1 h_S_),
    StableHlo.TRef.unary (.of main_call4_v9 : StableHlo.TRef sig ⟨S8, .f32⟩) (.of main_call4_v10 : StableHlo.TRef sig ⟨S8x1, .f32⟩) (broadcastInDim S8x1 ![0] bcast_S8_S8x1_0),
    StableHlo.TRef.unary (.of main_call4_v8 : StableHlo.TRef sig ⟨S_, .f32⟩) (.of main_call4_v11 : StableHlo.TRef sig ⟨S8x1, .f32⟩) (broadcastInDim S8x1 ![] bcast_S_S8x1),
    StableHlo.TRef.binary (.of main_call4_v10 : StableHlo.TRef sig ⟨S8x1, .f32⟩) (.of main_call4_v11 : StableHlo.TRef sig ⟨S8x1, .f32⟩) (.of main_call4_v12 : StableHlo.TRef sig ⟨S8x1, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v13 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S8x1, .f32⟩) (broadcastInDim S8x1 ![] bcast_S_S8x1),
    StableHlo.TRef.ternary (.of main_call4_v13 : StableHlo.TRef sig ⟨S_, .i1⟩) (.of main_call4_v12 : StableHlo.TRef sig ⟨S8x1, .f32⟩) (.of main_call4_call0_v1 : StableHlo.TRef sig ⟨S8x1, .f32⟩) (.of main_v349 : StableHlo.TRef sig ⟨S8x1, .f32⟩) (fun p a b => select (broadcastInDim S8x1 ![] bcast_S_S8x1 p) a b) ]
theorem pc19_sub : (pc19 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem pc19_fresh : (pc19 : List (HloOp τ sig (Elt F))).Forall fun op => op.fresh = ∅ := by
  simp only [List.Forall]; repeat' constructor
/-- The buffers it writes, in order. -/
abbrev pwr19 : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v349]
theorem hpwr19 : (pc19 : List (HloOp τ sig (Elt F))).Forall fun op => op.writes ⊆ ((pwr19).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))
theorem keepP19 (W : Valuation τ sig (Elt F)) {r : Ref sig .tc} (hr : r ∉ pwr19) :
    StableHlo.after (pc19 : List (HloOp τ sig (Elt F))) W (Proc.devRef .tc r) = W (Proc.devRef .tc r) :=
  StableHlo.after_of_writes_sub _ _ hpwr19 hr

set_option maxHeartbeats 40000000 in
/-- Operations 498 … 514. -/
abbrev pc20 : List (HloOp τ sig (Elt F)) :=
  [ StableHlo.unary main_v348 main_v350 (broadcastInDim S8x2048 ![0, 1] bcast_S8x1_S8x2048_0_1 : (⟨S8x1, .f32⟩ : BufTy).Contents (Elt F) → (⟨S8x2048, .f32⟩ : BufTy).Contents (Elt F)),
    StableHlo.binary main_v344 main_v350 main_v351 (subf : (⟨S8x2048, .f32⟩ : BufTy).Contents (Elt F) → (⟨S8x2048, .f32⟩ : BufTy).Contents (Elt F) → (⟨S8x2048, .f32⟩ : BufTy).Contents (Elt F)),
    StableHlo.nullary main_cst_36 (constant S_ .f32 0x3727C5AC#32),
    StableHlo.unary main_cst_36 main_v352 (broadcastInDim S8x1 ![] bcast_S_S8x1 : (⟨S_, .f32⟩ : BufTy).Contents (Elt F) → (⟨S8x1, .f32⟩ : BufTy).Contents (Elt F)),
    StableHlo.binary main_v349 main_v352 main_v353 (addf : (⟨S8x1, .f32⟩ : BufTy).Contents (Elt F) → (⟨S8x1, .f32⟩ : BufTy).Contents (Elt F) → (⟨S8x1, .f32⟩ : BufTy).Contents (Elt F)),
    StableHlo.unary main_v353 main_v354 (Host.rsqrt : (⟨S8x1, .f32⟩ : BufTy).Contents (Elt F) → (⟨S8x1, .f32⟩ : BufTy).Contents (Elt F)),
    StableHlo.unary main_v354 main_v355 (broadcastInDim S8x2048 ![0, 1] bcast_S8x1_S8x2048_0_1 : (⟨S8x1, .f32⟩ : BufTy).Contents (Elt F) → (⟨S8x2048, .f32⟩ : BufTy).Contents (Elt F)),
    StableHlo.binary main_v351 main_v355 main_v356 (mulf : (⟨S8x2048, .f32⟩ : BufTy).Contents (Elt F) → (⟨S8x2048, .f32⟩ : BufTy).Contents (Elt F) → (⟨S8x2048, .f32⟩ : BufTy).Contents (Elt F)),
    StableHlo.unary main_arg12 main_v357 (broadcastInDim S1x2048 ![1] bcast_S2048_S1x2048_1 : (⟨S2048, .f32⟩ : BufTy).Contents (Elt F) → (⟨S1x2048, .f32⟩ : BufTy).Contents (Elt F)),
    StableHlo.unary main_v357 main_v358 (broadcastInDim S8x2048 ![0, 1] bcast_S1x2048_S8x2048_0_1 : (⟨S1x2048, .f32⟩ : BufTy).Contents (Elt F) → (⟨S8x2048, .f32⟩ : BufTy).Contents (Elt F)),
    StableHlo.binary main_v356 main_v358 main_v359 (mulf : (⟨S8x2048, .f32⟩ : BufTy).Contents (Elt F) → (⟨S8x2048, .f32⟩ : BufTy).Contents (Elt F) → (⟨S8x2048, .f32⟩ : BufTy).Contents (Elt F)),
    StableHlo.unary main_arg13 main_v360 (broadcastInDim S1x2048 ![1] bcast_S2048_S1x2048_1 : (⟨S2048, .f32⟩ : BufTy).Contents (Elt F) → (⟨S1x2048, .f32⟩ : BufTy).Contents (Elt F)),
    StableHlo.unary main_v360 main_v361 (broadcastInDim S8x2048 ![0, 1] bcast_S1x2048_S8x2048_0_1 : (⟨S1x2048, .f32⟩ : BufTy).Contents (Elt F) → (⟨S8x2048, .f32⟩ : BufTy).Contents (Elt F)),
    StableHlo.binary main_v359 main_v361 main_v362 (addf : (⟨S8x2048, .f32⟩ : BufTy).Contents (Elt F) → (⟨S8x2048, .f32⟩ : BufTy).Contents (Elt F) → (⟨S8x2048, .f32⟩ : BufTy).Contents (Elt F)),
    StableHlo.nullary main_c_37 (constantI S_ 32 888#32),
    StableHlo.unary main_c_37 main_v363 (broadcastInDim S1 ![] bcast_S_S1 : (⟨S_, .i32⟩ : BufTy).Contents (Elt F) → (⟨S1, .i32⟩ : BufTy).Contents (Elt F)),
    StableHlo.ternary main_v291 main_v363 main_v362 main_v364 ((fun x i u => Host.scatter scatter_S8x8192x2048_S1_S8x2048_01_1_1_0 (fun _ b => b) x i u) : (⟨S8x8192x2048, .f32⟩ : BufTy).Contents (Elt F) → (⟨S1, .i32⟩ : BufTy).Contents (Elt F) → (⟨S8x2048, .f32⟩ : BufTy).Contents (Elt F) → (⟨S8x8192x2048, .f32⟩ : BufTy).Contents (Elt F)) ]
theorem pc20_sub : (pc20 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.ternary_bufs_sub ..⟩
theorem pc20_fresh : (pc20 : List (HloOp τ sig (Elt F))).Forall fun op => op.fresh = ∅ := by
  simp only [List.Forall]; repeat' constructor
/-- The buffers it writes, in order. -/
abbrev pwr20 : List (Ref sig .tc) := [main_v350, main_v351, main_cst_36, main_v352, main_v353, main_v354, main_v355, main_v356, main_v357, main_v358, main_v359, main_v360, main_v361, main_v362, main_c_37, main_v363, main_v364]
theorem hpwr20 : (pc20 : List (HloOp τ sig (Elt F))).Forall fun op => op.writes ⊆ ((pwr20).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))
theorem keepP20 (W : Valuation τ sig (Elt F)) {r : Ref sig .tc} (hr : r ∉ pwr20) :
    StableHlo.after (pc20 : List (HloOp τ sig (Elt F))) W (Proc.devRef .tc r) = W (Proc.devRef .tc r) :=
  StableHlo.after_of_writes_sub _ _ hpwr20 hr

set_option maxHeartbeats 40000000 in
/-- Operations 515 … 529. -/
abbrev pc21 : List (HloOp τ sig (Elt F)) :=
  [ StableHlo.unary main_v364 main_v365 ((extractStridedSlice S8x1x2048 ![0, 2592, 0] · slices_S8x8192x2048_S8x1x2048_0_2592_0) : (⟨S8x8192x2048, .f32⟩ : BufTy).Contents (Elt F) → (⟨S8x1x2048, .f32⟩ : BufTy).Contents (Elt F)),
    StableHlo.reshape main_v365 main_v366 rfl shapeCasts_S8x1x2048_S8x2048,
    StableHlo.unary main_v364 main_v367 ((extractStridedSlice S8x1x2048 ![0, 888, 0] · slices_S8x8192x2048_S8x1x2048_0_888_0) : (⟨S8x8192x2048, .f32⟩ : BufTy).Contents (Elt F) → (⟨S8x1x2048, .f32⟩ : BufTy).Contents (Elt F)),
    StableHlo.reshape main_v367 main_v368 rfl shapeCasts_S8x1x2048_S8x2048,
    StableHlo.unary main_v364 main_v369 ((extractStridedSlice S8x1x2048 ![0, 304, 0] · slices_S8x8192x2048_S8x1x2048_0_304_0) : (⟨S8x8192x2048, .f32⟩ : BufTy).Contents (Elt F) → (⟨S8x1x2048, .f32⟩ : BufTy).Contents (Elt F)),
    StableHlo.reshape main_v369 main_v370 rfl shapeCasts_S8x1x2048_S8x2048,
    StableHlo.unary main_arg1 main_v371 (broadcastInDim S1x2048 ![1] bcast_S2048_S1x2048_1 : (⟨S2048, .f32⟩ : BufTy).Contents (Elt F) → (⟨S1x2048, .f32⟩ : BufTy).Contents (Elt F)),
    StableHlo.unary main_v371 main_v372 (broadcastInDim S8x2048 ![0, 1] bcast_S1x2048_S8x2048_0_1 : (⟨S1x2048, .f32⟩ : BufTy).Contents (Elt F) → (⟨S8x2048, .f32⟩ : BufTy).Contents (Elt F)),
    StableHlo.binary main_v372 main_v366 main_v373 (mulf : (⟨S8x2048, .f32⟩ : BufTy).Contents (Elt F) → (⟨S8x2048, .f32⟩ : BufTy).Contents (Elt F) → (⟨S8x2048, .f32⟩ : BufTy).Contents (Elt F)),
    StableHlo.unary main_arg2 main_v374 (broadcastInDim S1x2048 ![1] bcast_S2048_S1x2048_1 : (⟨S2048, .f32⟩ : BufTy).Contents (Elt F) → (⟨S1x2048, .f32⟩ : BufTy).Contents (Elt F)),
    StableHlo.unary main_v374 main_v375 (broadcastInDim S8x2048 ![0, 1] bcast_S1x2048_S8x2048_0_1 : (⟨S1x2048, .f32⟩ : BufTy).Contents (Elt F) → (⟨S8x2048, .f32⟩ : BufTy).Contents (Elt F)),
    StableHlo.binary main_v375 main_v368 main_v376 (mulf : (⟨S8x2048, .f32⟩ : BufTy).Contents (Elt F) → (⟨S8x2048, .f32⟩ : BufTy).Contents (Elt F) → (⟨S8x2048, .f32⟩ : BufTy).Contents (Elt F)),
    StableHlo.binary main_v373 main_v376 main_v377 (addf : (⟨S8x2048, .f32⟩ : BufTy).Contents (Elt F) → (⟨S8x2048, .f32⟩ : BufTy).Contents (Elt F) → (⟨S8x2048, .f32⟩ : BufTy).Contents (Elt F)),
    StableHlo.unary main_arg3 main_v378 (broadcastInDim S1x2048 ![1] bcast_S2048_S1x2048_1 : (⟨S2048, .f32⟩ : BufTy).Contents (Elt F) → (⟨S1x2048, .f32⟩ : BufTy).Contents (Elt F)),
    StableHlo.unary main_v378 main_v379 (broadcastInDim S8x2048 ![0, 1] bcast_S1x2048_S8x2048_0_1 : (⟨S1x2048, .f32⟩ : BufTy).Contents (Elt F) → (⟨S8x2048, .f32⟩ : BufTy).Contents (Elt F)) ]
theorem pc21_sub : (pc21 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub ..⟩
theorem pc21_fresh : (pc21 : List (HloOp τ sig (Elt F))).Forall fun op => op.fresh = ∅ := by
  simp only [List.Forall]; repeat' constructor
/-- The buffers it writes, in order. -/
abbrev pwr21 : List (Ref sig .tc) := [main_v365, main_v366, main_v367, main_v368, main_v369, main_v370, main_v371, main_v372, main_v373, main_v374, main_v375, main_v376, main_v377, main_v378, main_v379]
theorem hpwr21 : (pc21 : List (HloOp τ sig (Elt F))).Forall fun op => op.writes ⊆ ((pwr21).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))
theorem keepP21 (W : Valuation τ sig (Elt F)) {r : Ref sig .tc} (hr : r ∉ pwr21) :
    StableHlo.after (pc21 : List (HloOp τ sig (Elt F))) W (Proc.devRef .tc r) = W (Proc.devRef .tc r) :=
  StableHlo.after_of_writes_sub _ _ hpwr21 hr

set_option maxHeartbeats 40000000 in
/-- Operations 530 … 577. -/
abbrev pc22 : List (HloOp τ sig (Elt F)) :=
  [ StableHlo.binary main_v377 main_v379 main_v380 (addf : (⟨S8x2048, .f32⟩ : BufTy).Contents (Elt F) → (⟨S8x2048, .f32⟩ : BufTy).Contents (Elt F) → (⟨S8x2048, .f32⟩ : BufTy).Contents (Elt F)),
    StableHlo.unary main_arg4 main_v381 (broadcastInDim S1x2048 ![1] bcast_S2048_S1x2048_1 : (⟨S2048, .f32⟩ : BufTy).Contents (Elt F) → (⟨S1x2048, .f32⟩ : BufTy).Contents (Elt F)),
    StableHlo.unary main_v381 main_v382 (broadcastInDim S8x2048 ![0, 1] bcast_S1x2048_S8x2048_0_1 : (⟨S1x2048, .f32⟩ : BufTy).Contents (Elt F) → (⟨S8x2048, .f32⟩ : BufTy).Contents (Elt F)),
    StableHlo.binary main_v382 main_v368 main_v383 (mulf : (⟨S8x2048, .f32⟩ : BufTy).Contents (Elt F) → (⟨S8x2048, .f32⟩ : BufTy).Contents (Elt F) → (⟨S8x2048, .f32⟩ : BufTy).Contents (Elt F)),
    StableHlo.unary main_arg5 main_v384 (broadcastInDim S1x2048 ![1] bcast_S2048_S1x2048_1 : (⟨S2048, .f32⟩ : BufTy).Contents (Elt F) → (⟨S1x2048, .f32⟩ : BufTy).Contents (Elt F)),
    StableHlo.unary main_v384 main_v385 (broadcastInDim S8x2048 ![0, 1] bcast_S1x2048_S8x2048_0_1 : (⟨S1x2048, .f32⟩ : BufTy).Contents (Elt F) → (⟨S8x2048, .f32⟩ : BufTy).Contents (Elt F)),
    StableHlo.binary main_v385 main_v370 main_v386 (mulf : (⟨S8x2048, .f32⟩ : BufTy).Contents (Elt F) → (⟨S8x2048, .f32⟩ : BufTy).Contents (Elt F) → (⟨S8x2048, .f32⟩ : BufTy).Contents (Elt F)),
    StableHlo.binary main_v383 main_v386 main_v387 (addf : (⟨S8x2048, .f32⟩ : BufTy).Contents (Elt F) → (⟨S8x2048, .f32⟩ : BufTy).Contents (Elt F) → (⟨S8x2048, .f32⟩ : BufTy).Contents (Elt F)),
    StableHlo.unary main_arg6 main_v388 (broadcastInDim S1x2048 ![1] bcast_S2048_S1x2048_1 : (⟨S2048, .f32⟩ : BufTy).Contents (Elt F) → (⟨S1x2048, .f32⟩ : BufTy).Contents (Elt F)),
    StableHlo.unary main_v388 main_v389 (broadcastInDim S8x2048 ![0, 1] bcast_S1x2048_S8x2048_0_1 : (⟨S1x2048, .f32⟩ : BufTy).Contents (Elt F) → (⟨S8x2048, .f32⟩ : BufTy).Contents (Elt F)),
    StableHlo.binary main_v387 main_v389 main_v390 (addf : (⟨S8x2048, .f32⟩ : BufTy).Contents (Elt F) → (⟨S8x2048, .f32⟩ : BufTy).Contents (Elt F) → (⟨S8x2048, .f32⟩ : BufTy).Contents (Elt F)),
    StableHlo.unary main_arg7 main_v391 (broadcastInDim S1x2048 ![1] bcast_S2048_S1x2048_1 : (⟨S2048, .f32⟩ : BufTy).Contents (Elt F) → (⟨S1x2048, .f32⟩ : BufTy).Contents (Elt F)),
    StableHlo.unary main_v391 main_v392 (broadcastInDim S8x2048 ![0, 1] bcast_S1x2048_S8x2048_0_1 : (⟨S1x2048, .f32⟩ : BufTy).Contents (Elt F) → (⟨S8x2048, .f32⟩ : BufTy).Contents (Elt F)),
    StableHlo.binary main_v392 main_v380 main_v393 (mulf : (⟨S8x2048, .f32⟩ : BufTy).Contents (Elt F) → (⟨S8x2048, .f32⟩ : BufTy).Contents (Elt F) → (⟨S8x2048, .f32⟩ : BufTy).Contents (Elt F)),
    StableHlo.unary main_arg8 main_v394 (broadcastInDim S1x2048 ![1] bcast_S2048_S1x2048_1 : (⟨S2048, .f32⟩ : BufTy).Contents (Elt F) → (⟨S1x2048, .f32⟩ : BufTy).Contents (Elt F)),
    StableHlo.unary main_v394 main_v395 (broadcastInDim S8x2048 ![0, 1] bcast_S1x2048_S8x2048_0_1 : (⟨S1x2048, .f32⟩ : BufTy).Contents (Elt F) → (⟨S8x2048, .f32⟩ : BufTy).Contents (Elt F)),
    StableHlo.binary main_v395 main_v390 main_v396 (mulf : (⟨S8x2048, .f32⟩ : BufTy).Contents (Elt F) → (⟨S8x2048, .f32⟩ : BufTy).Contents (Elt F) → (⟨S8x2048, .f32⟩ : BufTy).Contents (Elt F)),
    StableHlo.binary main_v393 main_v396 main_v397 (addf : (⟨S8x2048, .f32⟩ : BufTy).Contents (Elt F) → (⟨S8x2048, .f32⟩ : BufTy).Contents (Elt F) → (⟨S8x2048, .f32⟩ : BufTy).Contents (Elt F)),
    StableHlo.unary main_arg9 main_v398 (broadcastInDim S1x2048 ![1] bcast_S2048_S1x2048_1 : (⟨S2048, .f32⟩ : BufTy).Contents (Elt F) → (⟨S1x2048, .f32⟩ : BufTy).Contents (Elt F)),
    StableHlo.unary main_v398 main_v399 (broadcastInDim S8x2048 ![0, 1] bcast_S1x2048_S8x2048_0_1 : (⟨S1x2048, .f32⟩ : BufTy).Contents (Elt F) → (⟨S8x2048, .f32⟩ : BufTy).Contents (Elt F)),
    StableHlo.binary main_v397 main_v399 main_v400 (addf : (⟨S8x2048, .f32⟩ : BufTy).Contents (Elt F) → (⟨S8x2048, .f32⟩ : BufTy).Contents (Elt F) → (⟨S8x2048, .f32⟩ : BufTy).Contents (Elt F)),
    StableHlo.binary main_v400 main_v366 main_v401 ((fun a b => concatenate S8x4096 1 [⟨S8x2048, a⟩, ⟨S8x2048, b⟩] concatenates_S8x2048_S8x2048_S8x4096_d1) : (⟨S8x2048, .f32⟩ : BufTy).Contents (Elt F) → (⟨S8x2048, .f32⟩ : BufTy).Contents (Elt F) → (⟨S8x4096, .f32⟩ : BufTy).Contents (Elt F)),
    StableHlo.unary main_arg10 main_v402 ((transpose S4096x2048 [1, 0] · transposes_S2048x4096_S4096x2048_1_0) : (⟨S2048x4096, .f32⟩ : BufTy).Contents (Elt F) → (⟨S4096x2048, .f32⟩ : BufTy).Contents (Elt F)),
    StableHlo.binary main_v401 main_v402 main_v403 ((fun l r => Host.dotGeneral dot_S8x4096_S4096x2048_S8x2048_1_0_0_1_n_n none l r) : (⟨S8x4096, .f32⟩ : BufTy).Contents (Elt F) → (⟨S4096x2048, .f32⟩ : BufTy).Contents (Elt F) → (⟨S8x2048, .f32⟩ : BufTy).Contents (Elt F)),
    StableHlo.unary main_arg11 main_v404 (broadcastInDim S1x2048 ![1] bcast_S2048_S1x2048_1 : (⟨S2048, .f32⟩ : BufTy).Contents (Elt F) → (⟨S1x2048, .f32⟩ : BufTy).Contents (Elt F)),
    StableHlo.unary main_v404 main_v405 (broadcastInDim S8x2048 ![0, 1] bcast_S1x2048_S8x2048_0_1 : (⟨S1x2048, .f32⟩ : BufTy).Contents (Elt F) → (⟨S8x2048, .f32⟩ : BufTy).Contents (Elt F)),
    StableHlo.binary main_v403 main_v405 main_v406 (addf : (⟨S8x2048, .f32⟩ : BufTy).Contents (Elt F) → (⟨S8x2048, .f32⟩ : BufTy).Contents (Elt F) → (⟨S8x2048, .f32⟩ : BufTy).Contents (Elt F)),
    StableHlo.unary main_v406 main_v407 (Host.negf : (⟨S8x2048, .f32⟩ : BufTy).Contents (Elt F) → (⟨S8x2048, .f32⟩ : BufTy).Contents (Elt F)),
    StableHlo.unary main_v407 main_v408 (Host.exp : (⟨S8x2048, .f32⟩ : BufTy).Contents (Elt F) → (⟨S8x2048, .f32⟩ : BufTy).Contents (Elt F)),
    StableHlo.nullary main_cst_38 (constant S_ .f32 0x3F800000#32),
    StableHlo.unary main_cst_38 main_v409 (broadcastInDim S8x2048 ![] bcast_S_S8x2048 : (⟨S_, .f32⟩ : BufTy).Contents (Elt F) → (⟨S8x2048, .f32⟩ : BufTy).Contents (Elt F)),
    StableHlo.binary main_v409 main_v408 main_v410 (addf : (⟨S8x2048, .f32⟩ : BufTy).Contents (Elt F) → (⟨S8x2048, .f32⟩ : BufTy).Contents (Elt F) → (⟨S8x2048, .f32⟩ : BufTy).Contents (Elt F)),
    StableHlo.nullary main_cst_39 (constant S_ .f32 0x3F800000#32),
    StableHlo.unary main_cst_39 main_v411 (broadcastInDim S8x2048 ![] bcast_S_S8x2048 : (⟨S_, .f32⟩ : BufTy).Contents (Elt F) → (⟨S8x2048, .f32⟩ : BufTy).Contents (Elt F)),
    StableHlo.binary main_v411 main_v410 main_v412 (Host.divf : (⟨S8x2048, .f32⟩ : BufTy).Contents (Elt F) → (⟨S8x2048, .f32⟩ : BufTy).Contents (Elt F) → (⟨S8x2048, .f32⟩ : BufTy).Contents (Elt F)),
    StableHlo.binary main_v412 main_v400 main_v413 (mulf : (⟨S8x2048, .f32⟩ : BufTy).Contents (Elt F) → (⟨S8x2048, .f32⟩ : BufTy).Contents (Elt F) → (⟨S8x2048, .f32⟩ : BufTy).Contents (Elt F)),
    StableHlo.nullary main_cst_40 (constant S_ .f32 0x3F800000#32),
    StableHlo.unary main_cst_40 main_v414 (broadcastInDim S8x2048 ![] bcast_S_S8x2048 : (⟨S_, .f32⟩ : BufTy).Contents (Elt F) → (⟨S8x2048, .f32⟩ : BufTy).Contents (Elt F)),
    StableHlo.binary main_v414 main_v412 main_v415 (subf : (⟨S8x2048, .f32⟩ : BufTy).Contents (Elt F) → (⟨S8x2048, .f32⟩ : BufTy).Contents (Elt F) → (⟨S8x2048, .f32⟩ : BufTy).Contents (Elt F)),
    StableHlo.binary main_v415 main_v366 main_v416 (mulf : (⟨S8x2048, .f32⟩ : BufTy).Contents (Elt F) → (⟨S8x2048, .f32⟩ : BufTy).Contents (Elt F) → (⟨S8x2048, .f32⟩ : BufTy).Contents (Elt F)),
    StableHlo.binary main_v413 main_v416 main_v417 (addf : (⟨S8x2048, .f32⟩ : BufTy).Contents (Elt F) → (⟨S8x2048, .f32⟩ : BufTy).Contents (Elt F) → (⟨S8x2048, .f32⟩ : BufTy).Contents (Elt F)),
    StableHlo.nullary main_cst_41 (constant S_ .f32 0x00000000#32),
    StableHlo.binary main_v417 main_cst_41 main_v418 ((fun x v => Host.reduceAdd x v reducesTo_S8x2048_S8_d1 h_S_) : (⟨S8x2048, .f32⟩ : BufTy).Contents (Elt F) → (⟨S_, .f32⟩ : BufTy).Contents (Elt F) → (⟨S8, .f32⟩ : BufTy).Contents (Elt F)),
    StableHlo.unary main_v418 main_v419 (broadcastInDim S8x1 ![0] bcast_S8_S8x1_0 : (⟨S8, .f32⟩ : BufTy).Contents (Elt F) → (⟨S8x1, .f32⟩ : BufTy).Contents (Elt F)),
    StableHlo.nullary main_cst_42 (constant S_ .f32 0x45000000#32),
    StableHlo.unary main_cst_42 main_v420 (broadcastInDim S8x1 ![] bcast_S_S8x1 : (⟨S_, .f32⟩ : BufTy).Contents (Elt F) → (⟨S8x1, .f32⟩ : BufTy).Contents (Elt F)),
    StableHlo.binary main_v419 main_v420 main_v421 (Host.divf : (⟨S8x1, .f32⟩ : BufTy).Contents (Elt F) → (⟨S8x1, .f32⟩ : BufTy).Contents (Elt F) → (⟨S8x1, .f32⟩ : BufTy).Contents (Elt F)),
    StableHlo.nullary main_c_43 (constantI S_ 32 0#32) ]
theorem pc22_sub : (pc22 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
theorem pc22_fresh : (pc22 : List (HloOp τ sig (Elt F))).Forall fun op => op.fresh = ∅ := by
  simp only [List.Forall]; repeat' constructor
/-- The buffers it writes, in order. -/
abbrev pwr22 : List (Ref sig .tc) := [main_v380, main_v381, main_v382, main_v383, main_v384, main_v385, main_v386, main_v387, main_v388, main_v389, main_v390, main_v391, main_v392, main_v393, main_v394, main_v395, main_v396, main_v397, main_v398, main_v399, main_v400, main_v401, main_v402, main_v403, main_v404, main_v405, main_v406, main_v407, main_v408, main_cst_38, main_v409, main_v410, main_cst_39, main_v411, main_v412, main_v413, main_cst_40, main_v414, main_v415, main_v416, main_v417, main_cst_41, main_v418, main_v419, main_cst_42, main_v420, main_v421, main_c_43]
theorem hpwr22 : (pc22 : List (HloOp τ sig (Elt F))).Forall fun op => op.writes ⊆ ((pwr22).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil))))))))))))))))))))))))))))))))))))))))))))))))
theorem keepP22 (W : Valuation τ sig (Elt F)) {r : Ref sig .tc} (hr : r ∉ pwr22) :
    StableHlo.after (pc22 : List (HloOp τ sig (Elt F))) W (Proc.devRef .tc r) = W (Proc.devRef .tc r) :=
  StableHlo.after_of_writes_sub _ _ hpwr22 hr

set_option maxHeartbeats 40000000 in
/-- Operations 578 … 600. -/
abbrev pc23 : List (HloOp τ sig (Elt F)) :=
  [ StableHlo.TRef.nullary (.of main_call5_cst : StableHlo.TRef sig ⟨S_, .f32⟩) (constant S_ .f32 0x00000000#32),
    StableHlo.TRef.binary (.of main_v417 : StableHlo.TRef sig ⟨S8x2048, .f32⟩) (.of main_call5_cst : StableHlo.TRef sig ⟨S_, .f32⟩) (.of main_call5_v0 : StableHlo.TRef sig ⟨S8, .f32⟩) (fun x v => Host.reduceAdd x v reducesTo_S8x2048_S8_d1 h_S_),
    StableHlo.TRef.unary (.of main_call5_v0 : StableHlo.TRef sig ⟨S8, .f32⟩) (.of main_call5_v1 : StableHlo.TRef sig ⟨S8x1, .f32⟩) (broadcastInDim S8x1 ![0] bcast_S8_S8x1_0),
    StableHlo.TRef.nullary (.of main_call5_cst_0 : StableHlo.TRef sig ⟨S_, .f32⟩) (constant S_ .f32 0x45000000#32),
    StableHlo.TRef.unary (.of main_call5_cst_0 : StableHlo.TRef sig ⟨S_, .f32⟩) (.of main_call5_v2 : StableHlo.TRef sig ⟨S8x1, .f32⟩) (broadcastInDim S8x1 ![] bcast_S_S8x1),
    StableHlo.TRef.binary (.of main_call5_v1 : StableHlo.TRef sig ⟨S8x1, .f32⟩) (.of main_call5_v2 : StableHlo.TRef sig ⟨S8x1, .f32⟩) (.of main_call5_v3 : StableHlo.TRef sig ⟨S8x1, .f32⟩) Host.divf,
    StableHlo.TRef.unary (.of main_call5_v3 : StableHlo.TRef sig ⟨S8x1, .f32⟩) (.of main_call5_v4 : StableHlo.TRef sig ⟨S8x2048, .f32⟩) (broadcastInDim S8x2048 ![0, 1] bcast_S8x1_S8x2048_0_1),
    StableHlo.TRef.binary (.of main_v417 : StableHlo.TRef sig ⟨S8x2048, .f32⟩) (.of main_call5_v4 : StableHlo.TRef sig ⟨S8x2048, .f32⟩) (.of main_call5_v5 : StableHlo.TRef sig ⟨S8x2048, .f32⟩) subf,
    StableHlo.TRef.binary (.of main_call5_v5 : StableHlo.TRef sig ⟨S8x2048, .f32⟩) (.of main_call5_v5 : StableHlo.TRef sig ⟨S8x2048, .f32⟩) (.of main_call5_v6 : StableHlo.TRef sig ⟨S8x2048, .f32⟩) mulf,
    StableHlo.TRef.unary (.of main_c_43 : StableHlo.TRef sig ⟨S_, .i32⟩) (.of main_call5_v7 : StableHlo.TRef sig ⟨S_, .f32⟩) (sitofp .f32),
    StableHlo.TRef.nullary (.of main_call5_cst_1 : StableHlo.TRef sig ⟨S_, .f32⟩) (constant S_ .f32 0x45000000#32),
    StableHlo.TRef.binary (.of main_call5_cst_1 : StableHlo.TRef sig ⟨S_, .f32⟩) (.of main_call5_v7 : StableHlo.TRef sig ⟨S_, .f32⟩) (.of main_call5_v8 : StableHlo.TRef sig ⟨S_, .f32⟩) subf,
    StableHlo.TRef.nullary (.of main_call5_cst_2 : StableHlo.TRef sig ⟨S_, .f32⟩) (constant S_ .f32 0x00000000#32),
    StableHlo.TRef.binary (.of main_call5_v6 : StableHlo.TRef sig ⟨S8x2048, .f32⟩) (.of main_call5_cst_2 : StableHlo.TRef sig ⟨S_, .f32⟩) (.of main_call5_v9 : StableHlo.TRef sig ⟨S8, .f32⟩) (fun x v => Host.reduceAdd x v reducesTo_S8x2048_S8_d1 h_S_),
    StableHlo.TRef.unary (.of main_call5_v9 : StableHlo.TRef sig ⟨S8, .f32⟩) (.of main_call5_v10 : StableHlo.TRef sig ⟨S8x1, .f32⟩) (broadcastInDim S8x1 ![0] bcast_S8_S8x1_0),
    StableHlo.TRef.unary (.of main_call5_v8 : StableHlo.TRef sig ⟨S_, .f32⟩) (.of main_call5_v11 : StableHlo.TRef sig ⟨S8x1, .f32⟩) (broadcastInDim S8x1 ![] bcast_S_S8x1),
    StableHlo.TRef.binary (.of main_call5_v10 : StableHlo.TRef sig ⟨S8x1, .f32⟩) (.of main_call5_v11 : StableHlo.TRef sig ⟨S8x1, .f32⟩) (.of main_call5_v12 : StableHlo.TRef sig ⟨S8x1, .f32⟩) Host.divf,
    StableHlo.TRef.nullary (.of main_call5_cst_3 : StableHlo.TRef sig ⟨S_, .f32⟩) (constant S_ .f32 0x00000000#32),
    StableHlo.TRef.binary (.of main_call5_v8 : StableHlo.TRef sig ⟨S_, .f32⟩) (.of main_call5_cst_3 : StableHlo.TRef sig ⟨S_, .f32⟩) (.of main_call5_v13 : StableHlo.TRef sig ⟨S_, .i1⟩) (cmpf .ogt),
    StableHlo.TRef.nullary (.of main_call5_cst_4 : StableHlo.TRef sig ⟨S_, .f32⟩) (constant S_ .f32 0x7FC00000#32),
    StableHlo.TRef.unary (.of main_call5_cst_4 : StableHlo.TRef sig ⟨S_, .f32⟩) (.of main_call5_call0_v0 : StableHlo.TRef sig ⟨S_, .f32⟩) id,
    StableHlo.TRef.unary (.of main_call5_call0_v0 : StableHlo.TRef sig ⟨S_, .f32⟩) (.of main_call5_call0_v1 : StableHlo.TRef sig ⟨S8x1, .f32⟩) (broadcastInDim S8x1 ![] bcast_S_S8x1),
    StableHlo.TRef.ternary (.of main_call5_v13 : StableHlo.TRef sig ⟨S_, .i1⟩) (.of main_call5_v12 : StableHlo.TRef sig ⟨S8x1, .f32⟩) (.of main_call5_call0_v1 : StableHlo.TRef sig ⟨S8x1, .f32⟩) (.of main_v422 : StableHlo.TRef sig ⟨S8x1, .f32⟩) (fun p a b => select (broadcastInDim S8x1 ![] bcast_S_S8x1 p) a b) ]
theorem pc23_sub : (pc23 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem pc23_fresh : (pc23 : List (HloOp τ sig (Elt F))).Forall fun op => op.fresh = ∅ := by
  simp only [List.Forall]; repeat' constructor
/-- The buffers it writes, in order. -/
abbrev pwr23 : List (Ref sig .tc) := [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v422]
theorem hpwr23 : (pc23 : List (HloOp τ sig (Elt F))).Forall fun op => op.writes ⊆ ((pwr23).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))
theorem keepP23 (W : Valuation τ sig (Elt F)) {r : Ref sig .tc} (hr : r ∉ pwr23) :
    StableHlo.after (pc23 : List (HloOp τ sig (Elt F))) W (Proc.devRef .tc r) = W (Proc.devRef .tc r) :=
  StableHlo.after_of_writes_sub _ _ hpwr23 hr

set_option maxHeartbeats 40000000 in
/-- Operations 601 … 611. -/
abbrev pc24 : List (HloOp τ sig (Elt F)) :=
  [ StableHlo.unary main_v421 main_v423 (broadcastInDim S8x2048 ![0, 1] bcast_S8x1_S8x2048_0_1 : (⟨S8x1, .f32⟩ : BufTy).Contents (Elt F) → (⟨S8x2048, .f32⟩ : BufTy).Contents (Elt F)),
    StableHlo.binary main_v417 main_v423 main_v424 (subf : (⟨S8x2048, .f32⟩ : BufTy).Contents (Elt F) → (⟨S8x2048, .f32⟩ : BufTy).Contents (Elt F) → (⟨S8x2048, .f32⟩ : BufTy).Contents (Elt F)),
    StableHlo.nullary main_cst_44 (constant S_ .f32 0x3727C5AC#32),
    StableHlo.unary main_cst_44 main_v425 (broadcastInDim S8x1 ![] bcast_S_S8x1 : (⟨S_, .f32⟩ : BufTy).Contents (Elt F) → (⟨S8x1, .f32⟩ : BufTy).Contents (Elt F)),
    StableHlo.binary main_v422 main_v425 main_v426 (addf : (⟨S8x1, .f32⟩ : BufTy).Contents (Elt F) → (⟨S8x1, .f32⟩ : BufTy).Contents (Elt F) → (⟨S8x1, .f32⟩ : BufTy).Contents (Elt F)),
    StableHlo.unary main_v426 main_v427 (Host.rsqrt : (⟨S8x1, .f32⟩ : BufTy).Contents (Elt F) → (⟨S8x1, .f32⟩ : BufTy).Contents (Elt F)),
    StableHlo.unary main_v427 main_v428 (broadcastInDim S8x2048 ![0, 1] bcast_S8x1_S8x2048_0_1 : (⟨S8x1, .f32⟩ : BufTy).Contents (Elt F) → (⟨S8x2048, .f32⟩ : BufTy).Contents (Elt F)),
    StableHlo.binary main_v424 main_v428 main_v429 (mulf : (⟨S8x2048, .f32⟩ : BufTy).Contents (Elt F) → (⟨S8x2048, .f32⟩ : BufTy).Contents (Elt F) → (⟨S8x2048, .f32⟩ : BufTy).Contents (Elt F)),
    StableHlo.unary main_arg12 main_v430 (broadcastInDim S1x2048 ![1] bcast_S2048_S1x2048_1 : (⟨S2048, .f32⟩ : BufTy).Contents (Elt F) → (⟨S1x2048, .f32⟩ : BufTy).Contents (Elt F)),
    StableHlo.unary main_v430 main_v431 (broadcastInDim S8x2048 ![0, 1] bcast_S1x2048_S8x2048_0_1 : (⟨S1x2048, .f32⟩ : BufTy).Contents (Elt F) → (⟨S8x2048, .f32⟩ : BufTy).Contents (Elt F)),
    StableHlo.binary main_v429 main_v431 main_v432 (mulf : (⟨S8x2048, .f32⟩ : BufTy).Contents (Elt F) → (⟨S8x2048, .f32⟩ : BufTy).Contents (Elt F) → (⟨S8x2048, .f32⟩ : BufTy).Contents (Elt F)) ]
theorem pc24_sub : (pc24 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem pc24_fresh : (pc24 : List (HloOp τ sig (Elt F))).Forall fun op => op.fresh = ∅ := by
  simp only [List.Forall]; repeat' constructor
/-- The buffers it writes, in order. -/
abbrev pwr24 : List (Ref sig .tc) := [main_v423, main_v424, main_cst_44, main_v425, main_v426, main_v427, main_v428, main_v429, main_v430, main_v431, main_v432]
theorem hpwr24 : (pc24 : List (HloOp τ sig (Elt F))).Forall fun op => op.writes ⊆ ((pwr24).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_nil)))))))))))
theorem keepP24 (W : Valuation τ sig (Elt F)) {r : Ref sig .tc} (hr : r ∉ pwr24) :
    StableHlo.after (pc24 : List (HloOp τ sig (Elt F))) W (Proc.devRef .tc r) = W (Proc.devRef .tc r) :=
  StableHlo.after_of_writes_sub _ _ hpwr24 hr

set_option maxHeartbeats 40000000 in
/-- Operations 612 … 617. -/
abbrev pc25 : List (HloOp τ sig (Elt F)) :=
  [ StableHlo.unary main_arg13 main_v433 (broadcastInDim S1x2048 ![1] bcast_S2048_S1x2048_1 : (⟨S2048, .f32⟩ : BufTy).Contents (Elt F) → (⟨S1x2048, .f32⟩ : BufTy).Contents (Elt F)),
    StableHlo.unary main_v433 main_v434 (broadcastInDim S8x2048 ![0, 1] bcast_S1x2048_S8x2048_0_1 : (⟨S1x2048, .f32⟩ : BufTy).Contents (Elt F) → (⟨S8x2048, .f32⟩ : BufTy).Contents (Elt F)),
    StableHlo.binary main_v432 main_v434 main_v435 (addf : (⟨S8x2048, .f32⟩ : BufTy).Contents (Elt F) → (⟨S8x2048, .f32⟩ : BufTy).Contents (Elt F) → (⟨S8x2048, .f32⟩ : BufTy).Contents (Elt F)),
    StableHlo.nullary main_c_45 (constantI S_ 32 2592#32),
    StableHlo.unary main_c_45 main_v436 (broadcastInDim S1 ![] bcast_S_S1 : (⟨S_, .i32⟩ : BufTy).Contents (Elt F) → (⟨S1, .i32⟩ : BufTy).Contents (Elt F)),
    StableHlo.ternary main_v364 main_v436 main_v435 main_v437 ((fun x i u => Host.scatter scatter_S8x8192x2048_S1_S8x2048_01_1_1_0 (fun _ b => b) x i u) : (⟨S8x8192x2048, .f32⟩ : BufTy).Contents (Elt F) → (⟨S1, .i32⟩ : BufTy).Contents (Elt F) → (⟨S8x2048, .f32⟩ : BufTy).Contents (Elt F) → (⟨S8x8192x2048, .f32⟩ : BufTy).Contents (Elt F)) ]
theorem pc25_sub : (pc25 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.ternary_bufs_sub ..⟩
theorem pc25_fresh : (pc25 : List (HloOp τ sig (Elt F))).Forall fun op => op.fresh = ∅ := by
  simp only [List.Forall]; repeat' constructor
/-- The buffers it writes, in order. -/
abbrev pwr25 : List (Ref sig .tc) := [main_v433, main_v434, main_v435, main_c_45, main_v436, main_v437]
theorem hpwr25 : (pc25 : List (HloOp τ sig (Elt F))).Forall fun op => op.writes ⊆ ((pwr25).map (Proc.devRef (τ := τ) .tc)).toFinset :=
  writes_cons rfl (writes_cons rfl (writes_cons rfl (writes_cons rfl (writes_cons rfl (writes_cons rfl (writes_nil))))))
theorem keepP25 (W : Valuation τ sig (Elt F)) {r : Ref sig .tc} (hr : r ∉ pwr25) :
    StableHlo.after (pc25 : List (HloOp τ sig (Elt F))) W (Proc.devRef .tc r) = W (Proc.devRef .tc r) :=
  StableHlo.after_of_writes_sub _ _ hpwr25 hr

set_option maxHeartbeats 40000000 in
/-- Operations 618 … 671. -/
abbrev pc26 : List (HloOp τ sig (Elt F)) :=
  [ StableHlo.unary main_v437 main_v438 ((extractStridedSlice S8x1x2048 ![0, 7568, 0] · slices_S8x8192x2048_S8x1x2048_0_7568_0) : (⟨S8x8192x2048, .f32⟩ : BufTy).Contents (Elt F) → (⟨S8x1x2048, .f32⟩ : BufTy).Contents (Elt F)),
    StableHlo.reshape main_v438 main_v439 rfl shapeCasts_S8x1x2048_S8x2048,
    StableHlo.unary main_v437 main_v440 ((extractStridedSlice S8x1x2048 ![0, 2592, 0] · slices_S8x8192x2048_S8x1x2048_0_2592_0) : (⟨S8x8192x2048, .f32⟩ : BufTy).Contents (Elt F) → (⟨S8x1x2048, .f32⟩ : BufTy).Contents (Elt F)),
    StableHlo.reshape main_v440 main_v441 rfl shapeCasts_S8x1x2048_S8x2048,
    StableHlo.unary main_v437 main_v442 ((extractStridedSlice S8x1x2048 ![0, 888, 0] · slices_S8x8192x2048_S8x1x2048_0_888_0) : (⟨S8x8192x2048, .f32⟩ : BufTy).Contents (Elt F) → (⟨S8x1x2048, .f32⟩ : BufTy).Contents (Elt F)),
    StableHlo.reshape main_v442 main_v443 rfl shapeCasts_S8x1x2048_S8x2048,
    StableHlo.unary main_arg1 main_v444 (broadcastInDim S1x2048 ![1] bcast_S2048_S1x2048_1 : (⟨S2048, .f32⟩ : BufTy).Contents (Elt F) → (⟨S1x2048, .f32⟩ : BufTy).Contents (Elt F)),
    StableHlo.unary main_v444 main_v445 (broadcastInDim S8x2048 ![0, 1] bcast_S1x2048_S8x2048_0_1 : (⟨S1x2048, .f32⟩ : BufTy).Contents (Elt F) → (⟨S8x2048, .f32⟩ : BufTy).Contents (Elt F)),
    StableHlo.binary main_v445 main_v439 main_v446 (mulf : (⟨S8x2048, .f32⟩ : BufTy).Contents (Elt F) → (⟨S8x2048, .f32⟩ : BufTy).Contents (Elt F) → (⟨S8x2048, .f32⟩ : BufTy).Contents (Elt F)),
    StableHlo.unary main_arg2 main_v447 (broadcastInDim S1x2048 ![1] bcast_S2048_S1x2048_1 : (⟨S2048, .f32⟩ : BufTy).Contents (Elt F) → (⟨S1x2048, .f32⟩ : BufTy).Contents (Elt F)),
    StableHlo.unary main_v447 main_v448 (broadcastInDim S8x2048 ![0, 1] bcast_S1x2048_S8x2048_0_1 : (⟨S1x2048, .f32⟩ : BufTy).Contents (Elt F) → (⟨S8x2048, .f32⟩ : BufTy).Contents (Elt F)),
    StableHlo.binary main_v448 main_v441 main_v449 (mulf : (⟨S8x2048, .f32⟩ : BufTy).Contents (Elt F) → (⟨S8x2048, .f32⟩ : BufTy).Contents (Elt F) → (⟨S8x2048, .f32⟩ : BufTy).Contents (Elt F)),
    StableHlo.binary main_v446 main_v449 main_v450 (addf : (⟨S8x2048, .f32⟩ : BufTy).Contents (Elt F) → (⟨S8x2048, .f32⟩ : BufTy).Contents (Elt F) → (⟨S8x2048, .f32⟩ : BufTy).Contents (Elt F)),
    StableHlo.unary main_arg3 main_v451 (broadcastInDim S1x2048 ![1] bcast_S2048_S1x2048_1 : (⟨S2048, .f32⟩ : BufTy).Contents (Elt F) → (⟨S1x2048, .f32⟩ : BufTy).Contents (Elt F)),
    StableHlo.unary main_v451 main_v452 (broadcastInDim S8x2048 ![0, 1] bcast_S1x2048_S8x2048_0_1 : (⟨S1x2048, .f32⟩ : BufTy).Contents (Elt F) → (⟨S8x2048, .f32⟩ : BufTy).Contents (Elt F)),
    StableHlo.binary main_v450 main_v452 main_v453 (addf : (⟨S8x2048, .f32⟩ : BufTy).Contents (Elt F) → (⟨S8x2048, .f32⟩ : BufTy).Contents (Elt F) → (⟨S8x2048, .f32⟩ : BufTy).Contents (Elt F)),
    StableHlo.unary main_arg4 main_v454 (broadcastInDim S1x2048 ![1] bcast_S2048_S1x2048_1 : (⟨S2048, .f32⟩ : BufTy).Contents (Elt F) → (⟨S1x2048, .f32⟩ : BufTy).Contents (Elt F)),
    StableHlo.unary main_v454 main_v455 (broadcastInDim S8x2048 ![0, 1] bcast_S1x2048_S8x2048_0_1 : (⟨S1x2048, .f32⟩ : BufTy).Contents (Elt F) → (⟨S8x2048, .f32⟩ : BufTy).Contents (Elt F)),
    StableHlo.binary main_v455 main_v441 main_v456 (mulf : (⟨S8x2048, .f32⟩ : BufTy).Contents (Elt F) → (⟨S8x2048, .f32⟩ : BufTy).Contents (Elt F) → (⟨S8x2048, .f32⟩ : BufTy).Contents (Elt F)),
    StableHlo.unary main_arg5 main_v457 (broadcastInDim S1x2048 ![1] bcast_S2048_S1x2048_1 : (⟨S2048, .f32⟩ : BufTy).Contents (Elt F) → (⟨S1x2048, .f32⟩ : BufTy).Contents (Elt F)),
    StableHlo.unary main_v457 main_v458 (broadcastInDim S8x2048 ![0, 1] bcast_S1x2048_S8x2048_0_1 : (⟨S1x2048, .f32⟩ : BufTy).Contents (Elt F) → (⟨S8x2048, .f32⟩ : BufTy).Contents (Elt F)),
    StableHlo.binary main_v458 main_v443 main_v459 (mulf : (⟨S8x2048, .f32⟩ : BufTy).Contents (Elt F) → (⟨S8x2048, .f32⟩ : BufTy).Contents (Elt F) → (⟨S8x2048, .f32⟩ : BufTy).Contents (Elt F)),
    StableHlo.binary main_v456 main_v459 main_v460 (addf : (⟨S8x2048, .f32⟩ : BufTy).Contents (Elt F) → (⟨S8x2048, .f32⟩ : BufTy).Contents (Elt F) → (⟨S8x2048, .f32⟩ : BufTy).Contents (Elt F)),
    StableHlo.unary main_arg6 main_v461 (broadcastInDim S1x2048 ![1] bcast_S2048_S1x2048_1 : (⟨S2048, .f32⟩ : BufTy).Contents (Elt F) → (⟨S1x2048, .f32⟩ : BufTy).Contents (Elt F)),
    StableHlo.unary main_v461 main_v462 (broadcastInDim S8x2048 ![0, 1] bcast_S1x2048_S8x2048_0_1 : (⟨S1x2048, .f32⟩ : BufTy).Contents (Elt F) → (⟨S8x2048, .f32⟩ : BufTy).Contents (Elt F)),
    StableHlo.binary main_v460 main_v462 main_v463 (addf : (⟨S8x2048, .f32⟩ : BufTy).Contents (Elt F) → (⟨S8x2048, .f32⟩ : BufTy).Contents (Elt F) → (⟨S8x2048, .f32⟩ : BufTy).Contents (Elt F)),
    StableHlo.unary main_arg7 main_v464 (broadcastInDim S1x2048 ![1] bcast_S2048_S1x2048_1 : (⟨S2048, .f32⟩ : BufTy).Contents (Elt F) → (⟨S1x2048, .f32⟩ : BufTy).Contents (Elt F)),
    StableHlo.unary main_v464 main_v465 (broadcastInDim S8x2048 ![0, 1] bcast_S1x2048_S8x2048_0_1 : (⟨S1x2048, .f32⟩ : BufTy).Contents (Elt F) → (⟨S8x2048, .f32⟩ : BufTy).Contents (Elt F)),
    StableHlo.binary main_v465 main_v453 main_v466 (mulf : (⟨S8x2048, .f32⟩ : BufTy).Contents (Elt F) → (⟨S8x2048, .f32⟩ : BufTy).Contents (Elt F) → (⟨S8x2048, .f32⟩ : BufTy).Contents (Elt F)),
    StableHlo.unary main_arg8 main_v467 (broadcastInDim S1x2048 ![1] bcast_S2048_S1x2048_1 : (⟨S2048, .f32⟩ : BufTy).Contents (Elt F) → (⟨S1x2048, .f32⟩ : BufTy).Contents (Elt F)),
    StableHlo.unary main_v467 main_v468 (broadcastInDim S8x2048 ![0, 1] bcast_S1x2048_S8x2048_0_1 : (⟨S1x2048, .f32⟩ : BufTy).Contents (Elt F) → (⟨S8x2048, .f32⟩ : BufTy).Contents (Elt F)),
    StableHlo.binary main_v468 main_v463 main_v469 (mulf : (⟨S8x2048, .f32⟩ : BufTy).Contents (Elt F) → (⟨S8x2048, .f32⟩ : BufTy).Contents (Elt F) → (⟨S8x2048, .f32⟩ : BufTy).Contents (Elt F)),
    StableHlo.binary main_v466 main_v469 main_v470 (addf : (⟨S8x2048, .f32⟩ : BufTy).Contents (Elt F) → (⟨S8x2048, .f32⟩ : BufTy).Contents (Elt F) → (⟨S8x2048, .f32⟩ : BufTy).Contents (Elt F)),
    StableHlo.unary main_arg9 main_v471 (broadcastInDim S1x2048 ![1] bcast_S2048_S1x2048_1 : (⟨S2048, .f32⟩ : BufTy).Contents (Elt F) → (⟨S1x2048, .f32⟩ : BufTy).Contents (Elt F)),
    StableHlo.unary main_v471 main_v472 (broadcastInDim S8x2048 ![0, 1] bcast_S1x2048_S8x2048_0_1 : (⟨S1x2048, .f32⟩ : BufTy).Contents (Elt F) → (⟨S8x2048, .f32⟩ : BufTy).Contents (Elt F)),
    StableHlo.binary main_v470 main_v472 main_v473 (addf : (⟨S8x2048, .f32⟩ : BufTy).Contents (Elt F) → (⟨S8x2048, .f32⟩ : BufTy).Contents (Elt F) → (⟨S8x2048, .f32⟩ : BufTy).Contents (Elt F)),
    StableHlo.binary main_v473 main_v439 main_v474 ((fun a b => concatenate S8x4096 1 [⟨S8x2048, a⟩, ⟨S8x2048, b⟩] concatenates_S8x2048_S8x2048_S8x4096_d1) : (⟨S8x2048, .f32⟩ : BufTy).Contents (Elt F) → (⟨S8x2048, .f32⟩ : BufTy).Contents (Elt F) → (⟨S8x4096, .f32⟩ : BufTy).Contents (Elt F)),
    StableHlo.unary main_arg10 main_v475 ((transpose S4096x2048 [1, 0] · transposes_S2048x4096_S4096x2048_1_0) : (⟨S2048x4096, .f32⟩ : BufTy).Contents (Elt F) → (⟨S4096x2048, .f32⟩ : BufTy).Contents (Elt F)),
    StableHlo.binary main_v474 main_v475 main_v476 ((fun l r => Host.dotGeneral dot_S8x4096_S4096x2048_S8x2048_1_0_0_1_n_n none l r) : (⟨S8x4096, .f32⟩ : BufTy).Contents (Elt F) → (⟨S4096x2048, .f32⟩ : BufTy).Contents (Elt F) → (⟨S8x2048, .f32⟩ : BufTy).Contents (Elt F)),
    StableHlo.unary main_arg11 main_v477 (broadcastInDim S1x2048 ![1] bcast_S2048_S1x2048_1 : (⟨S2048, .f32⟩ : BufTy).Contents (Elt F) → (⟨S1x2048, .f32⟩ : BufTy).Contents (Elt F)),
    StableHlo.unary main_v477 main_v478 (broadcastInDim S8x2048 ![0, 1] bcast_S1x2048_S8x2048_0_1 : (⟨S1x2048, .f32⟩ : BufTy).Contents (Elt F) → (⟨S8x2048, .f32⟩ : BufTy).Contents (Elt F)),
    StableHlo.binary main_v476 main_v478 main_v479 (addf : (⟨S8x2048, .f32⟩ : BufTy).Contents (Elt F) → (⟨S8x2048, .f32⟩ : BufTy).Contents (Elt F) → (⟨S8x2048, .f32⟩ : BufTy).Contents (Elt F)),
    StableHlo.unary main_v479 main_v480 (Host.negf : (⟨S8x2048, .f32⟩ : BufTy).Contents (Elt F) → (⟨S8x2048, .f32⟩ : BufTy).Contents (Elt F)),
    StableHlo.unary main_v480 main_v481 (Host.exp : (⟨S8x2048, .f32⟩ : BufTy).Contents (Elt F) → (⟨S8x2048, .f32⟩ : BufTy).Contents (Elt F)),
    StableHlo.nullary main_cst_46 (constant S_ .f32 0x3F800000#32),
    StableHlo.unary main_cst_46 main_v482 (broadcastInDim S8x2048 ![] bcast_S_S8x2048 : (⟨S_, .f32⟩ : BufTy).Contents (Elt F) → (⟨S8x2048, .f32⟩ : BufTy).Contents (Elt F)),
    StableHlo.binary main_v482 main_v481 main_v483 (addf : (⟨S8x2048, .f32⟩ : BufTy).Contents (Elt F) → (⟨S8x2048, .f32⟩ : BufTy).Contents (Elt F) → (⟨S8x2048, .f32⟩ : BufTy).Contents (Elt F)),
    StableHlo.nullary main_cst_47 (constant S_ .f32 0x3F800000#32),
    StableHlo.unary main_cst_47 main_v484 (broadcastInDim S8x2048 ![] bcast_S_S8x2048 : (⟨S_, .f32⟩ : BufTy).Contents (Elt F) → (⟨S8x2048, .f32⟩ : BufTy).Contents (Elt F)),
    StableHlo.binary main_v484 main_v483 main_v485 (Host.divf : (⟨S8x2048, .f32⟩ : BufTy).Contents (Elt F) → (⟨S8x2048, .f32⟩ : BufTy).Contents (Elt F) → (⟨S8x2048, .f32⟩ : BufTy).Contents (Elt F)),
    StableHlo.binary main_v485 main_v473 main_v486 (mulf : (⟨S8x2048, .f32⟩ : BufTy).Contents (Elt F) → (⟨S8x2048, .f32⟩ : BufTy).Contents (Elt F) → (⟨S8x2048, .f32⟩ : BufTy).Contents (Elt F)),
    StableHlo.nullary main_cst_48 (constant S_ .f32 0x3F800000#32),
    StableHlo.unary main_cst_48 main_v487 (broadcastInDim S8x2048 ![] bcast_S_S8x2048 : (⟨S_, .f32⟩ : BufTy).Contents (Elt F) → (⟨S8x2048, .f32⟩ : BufTy).Contents (Elt F)),
    StableHlo.binary main_v487 main_v485 main_v488 (subf : (⟨S8x2048, .f32⟩ : BufTy).Contents (Elt F) → (⟨S8x2048, .f32⟩ : BufTy).Contents (Elt F) → (⟨S8x2048, .f32⟩ : BufTy).Contents (Elt F)) ]
theorem pc26_sub : (pc26 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub ..⟩
theorem pc26_fresh : (pc26 : List (HloOp τ sig (Elt F))).Forall fun op => op.fresh = ∅ := by
  simp only [List.Forall]; repeat' constructor
/-- The buffers it writes, in order. -/
abbrev pwr26 : List (Ref sig .tc) := [main_v438, main_v439, main_v440, main_v441, main_v442, main_v443, main_v444, main_v445, main_v446, main_v447, main_v448, main_v449, main_v450, main_v451, main_v452, main_v453, main_v454, main_v455, main_v456, main_v457, main_v458, main_v459, main_v460, main_v461, main_v462, main_v463, main_v464, main_v465, main_v466, main_v467, main_v468, main_v469, main_v470, main_v471, main_v472, main_v473, main_v474, main_v475, main_v476, main_v477, main_v478, main_v479, main_v480, main_v481, main_cst_46, main_v482, main_v483, main_cst_47, main_v484, main_v485, main_v486, main_cst_48, main_v487, main_v488]
theorem hpwr26 : (pc26 : List (HloOp τ sig (Elt F))).Forall fun op => op.writes ⊆ ((pwr26).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil))))))))))))))))))))))))))))))))))))))))))))))))))))))
theorem keepP26 (W : Valuation τ sig (Elt F)) {r : Ref sig .tc} (hr : r ∉ pwr26) :
    StableHlo.after (pc26 : List (HloOp τ sig (Elt F))) W (Proc.devRef .tc r) = W (Proc.devRef .tc r) :=
  StableHlo.after_of_writes_sub _ _ hpwr26 hr

set_option maxHeartbeats 40000000 in
/-- Operations 672 … 680. -/
abbrev pc27 : List (HloOp τ sig (Elt F)) :=
  [ StableHlo.binary main_v488 main_v439 main_v489 (mulf : (⟨S8x2048, .f32⟩ : BufTy).Contents (Elt F) → (⟨S8x2048, .f32⟩ : BufTy).Contents (Elt F) → (⟨S8x2048, .f32⟩ : BufTy).Contents (Elt F)),
    StableHlo.binary main_v486 main_v489 main_v490 (addf : (⟨S8x2048, .f32⟩ : BufTy).Contents (Elt F) → (⟨S8x2048, .f32⟩ : BufTy).Contents (Elt F) → (⟨S8x2048, .f32⟩ : BufTy).Contents (Elt F)),
    StableHlo.nullary main_cst_49 (constant S_ .f32 0x00000000#32),
    StableHlo.binary main_v490 main_cst_49 main_v491 ((fun x v => Host.reduceAdd x v reducesTo_S8x2048_S8_d1 h_S_) : (⟨S8x2048, .f32⟩ : BufTy).Contents (Elt F) → (⟨S_, .f32⟩ : BufTy).Contents (Elt F) → (⟨S8, .f32⟩ : BufTy).Contents (Elt F)),
    StableHlo.unary main_v491 main_v492 (broadcastInDim S8x1 ![0] bcast_S8_S8x1_0 : (⟨S8, .f32⟩ : BufTy).Contents (Elt F) → (⟨S8x1, .f32⟩ : BufTy).Contents (Elt F)),
    StableHlo.nullary main_cst_50 (constant S_ .f32 0x45000000#32),
    StableHlo.unary main_cst_50 main_v493 (broadcastInDim S8x1 ![] bcast_S_S8x1 : (⟨S_, .f32⟩ : BufTy).Contents (Elt F) → (⟨S8x1, .f32⟩ : BufTy).Contents (Elt F)),
    StableHlo.binary main_v492 main_v493 main_v494 (Host.divf : (⟨S8x1, .f32⟩ : BufTy).Contents (Elt F) → (⟨S8x1, .f32⟩ : BufTy).Contents (Elt F) → (⟨S8x1, .f32⟩ : BufTy).Contents (Elt F)),
    StableHlo.nullary main_c_51 (constantI S_ 32 0#32) ]
theorem pc27_sub : (pc27 : List (HloOp τ sig (Elt F))).Forall fun op => op.bufs ⊆ StableHlo.tcRefs τ sig :=
  ⟨StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
theorem pc27_fresh : (pc27 : List (HloOp τ sig (Elt F))).Forall fun op => op.fresh = ∅ := by
  simp only [List.Forall]; repeat' constructor
/-- The buffers it writes, in order. -/
abbrev pwr27 : List (Ref sig .tc) := [main_v489, main_v490, main_cst_49, main_v491, main_v492, main_cst_50, main_v493, main_v494, main_c_51]
theorem hpwr27 : (pc27 : List (HloOp τ sig (Elt F))).Forall fun op => op.writes ⊆ ((pwr27).map (Proc.devRef (τ := τ) .tc)).toFinset :=
  writes_cons rfl (writes_cons rfl (writes_cons rfl (writes_cons rfl (writes_cons rfl (writes_cons rfl (writes_cons rfl (writes_cons rfl (writes_cons rfl (writes_nil)))))))))
theorem keepP27 (W : Valuation τ sig (Elt F)) {r : Ref sig .tc} (hr : r ∉ pwr27) :
    StableHlo.after (pc27 : List (HloOp τ sig (Elt F))) W (Proc.devRef .tc r) = W (Proc.devRef .tc r) :=
  StableHlo.after_of_writes_sub _ _ hpwr27 hr

set_option maxHeartbeats 40000000 in
/-- Operations 681 … 703. -/
abbrev pc28 : List (HloOp τ sig (Elt F)) :=
  [ StableHlo.TRef.nullary (.of main_call6_cst : StableHlo.TRef sig ⟨S_, .f32⟩) (constant S_ .f32 0x00000000#32),
    StableHlo.TRef.binary (.of main_v490 : StableHlo.TRef sig ⟨S8x2048, .f32⟩) (.of main_call6_cst : StableHlo.TRef sig ⟨S_, .f32⟩) (.of main_call6_v0 : StableHlo.TRef sig ⟨S8, .f32⟩) (fun x v => Host.reduceAdd x v reducesTo_S8x2048_S8_d1 h_S_),
    StableHlo.TRef.unary (.of main_call6_v0 : StableHlo.TRef sig ⟨S8, .f32⟩) (.of main_call6_v1 : StableHlo.TRef sig ⟨S8x1, .f32⟩) (broadcastInDim S8x1 ![0] bcast_S8_S8x1_0),
    StableHlo.TRef.nullary (.of main_call6_cst_0 : StableHlo.TRef sig ⟨S_, .f32⟩) (constant S_ .f32 0x45000000#32),
    StableHlo.TRef.unary (.of main_call6_cst_0 : StableHlo.TRef sig ⟨S_, .f32⟩) (.of main_call6_v2 : StableHlo.TRef sig ⟨S8x1, .f32⟩) (broadcastInDim S8x1 ![] bcast_S_S8x1),
    StableHlo.TRef.binary (.of main_call6_v1 : StableHlo.TRef sig ⟨S8x1, .f32⟩) (.of main_call6_v2 : StableHlo.TRef sig ⟨S8x1, .f32⟩) (.of main_call6_v3 : StableHlo.TRef sig ⟨S8x1, .f32⟩) Host.divf,
    StableHlo.TRef.unary (.of main_call6_v3 : StableHlo.TRef sig ⟨S8x1, .f32⟩) (.of main_call6_v4 : StableHlo.TRef sig ⟨S8x2048, .f32⟩) (broadcastInDim S8x2048 ![0, 1] bcast_S8x1_S8x2048_0_1),
    StableHlo.TRef.binary (.of main_v490 : StableHlo.TRef sig ⟨S8x2048, .f32⟩) (.of main_call6_v4 : StableHlo.TRef sig ⟨S8x2048, .f32⟩) (.of main_call6_v5 : StableHlo.TRef sig ⟨S8x2048, .f32⟩) subf,
    StableHlo.TRef.binary (.of main_call6_v5 : StableHlo.TRef sig ⟨S8x2048, .f32⟩) (.of main_call6_v5 : StableHlo.TRef sig ⟨S8x2048, .f32⟩) (.of main_call6_v6 : StableHlo.TRef sig ⟨S8x2048, .f32⟩) mulf,
    StableHlo.TRef.unary (.of main_c_51 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x45000000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S8x2048, .f32⟩) (.of main_call6_cst_2 : StableHlo.TRef sig ⟨S_, .f32⟩) (.of main_call6_v9 : StableHlo.TRef sig ⟨S8, .f32⟩) (fun x v => Host.reduceAdd x v reducesTo_S8x2048_S8_d1 h_S_),
    StableHlo.TRef.unary (.of main_call6_v9 : StableHlo.TRef sig ⟨S8, .f32⟩) (.of main_call6_v10 : StableHlo.TRef sig ⟨S8x1, .f32⟩) (broadcastInDim S8x1 ![0] bcast_S8_S8x1_0),
    StableHlo.TRef.unary (.of main_call6_v8 : StableHlo.TRef sig ⟨S_, .f32⟩) (.of main_call6_v11 : StableHlo.TRef sig ⟨S8x1, .f32⟩) (broadcastInDim S8x1 ![] bcast_S_S8x1),
    StableHlo.TRef.binary (.of main_call6_v10 : StableHlo.TRef sig ⟨S8x1, .f32⟩) (.of main_call6_v11 : StableHlo.TRef sig ⟨S8x1, .f32⟩) (.of main_call6_v12 : StableHlo.TRef sig ⟨S8x1, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v13 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S8x1, .f32⟩) (broadcastInDim S8x1 ![] bcast_S_S8x1),
    StableHlo.TRef.ternary (.of main_call6_v13 : StableHlo.TRef sig ⟨S_, .i1⟩) (.of main_call6_v12 : StableHlo.TRef sig ⟨S8x1, .f32⟩) (.of main_call6_call0_v1 : StableHlo.TRef sig ⟨S8x1, .f32⟩) (.of main_v495 : StableHlo.TRef sig ⟨S8x1, .f32⟩) (fun p a b => select (broadcastInDim S8x1 ![] bcast_S_S8x1 p) a b) ]
theorem pc28_sub : (pc28 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem pc28_fresh : (pc28 : List (HloOp τ sig (Elt F))).Forall fun op => op.fresh = ∅ := by
  simp only [List.Forall]; repeat' constructor
/-- The buffers it writes, in order. -/
abbrev pwr28 : List (Ref sig .tc) := [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_v12, main_call6_cst_3, main_call6_v13, main_call6_cst_4, main_call6_call0_v0, main_call6_call0_v1, main_v495]
theorem hpwr28 : (pc28 : List (HloOp τ sig (Elt F))).Forall fun op => op.writes ⊆ ((pwr28).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))))))))
theorem keepP28 (W : Valuation τ sig (Elt F)) {r : Ref sig .tc} (hr : r ∉ pwr28) :
    StableHlo.after (pc28 : List (HloOp τ sig (Elt F))) W (Proc.devRef .tc r) = W (Proc.devRef .tc r) :=
  StableHlo.after_of_writes_sub _ _ hpwr28 hr

set_option maxHeartbeats 40000000 in
/-- Operations 704 … 720. -/
abbrev pc29 : List (HloOp τ sig (Elt F)) :=
  [ StableHlo.unary main_v494 main_v496 (broadcastInDim S8x2048 ![0, 1] bcast_S8x1_S8x2048_0_1 : (⟨S8x1, .f32⟩ : BufTy).Contents (Elt F) → (⟨S8x2048, .f32⟩ : BufTy).Contents (Elt F)),
    StableHlo.binary main_v490 main_v496 main_v497 (subf : (⟨S8x2048, .f32⟩ : BufTy).Contents (Elt F) → (⟨S8x2048, .f32⟩ : BufTy).Contents (Elt F) → (⟨S8x2048, .f32⟩ : BufTy).Contents (Elt F)),
    StableHlo.nullary main_cst_52 (constant S_ .f32 0x3727C5AC#32),
    StableHlo.unary main_cst_52 main_v498 (broadcastInDim S8x1 ![] bcast_S_S8x1 : (⟨S_, .f32⟩ : BufTy).Contents (Elt F) → (⟨S8x1, .f32⟩ : BufTy).Contents (Elt F)),
    StableHlo.binary main_v495 main_v498 main_v499 (addf : (⟨S8x1, .f32⟩ : BufTy).Contents (Elt F) → (⟨S8x1, .f32⟩ : BufTy).Contents (Elt F) → (⟨S8x1, .f32⟩ : BufTy).Contents (Elt F)),
    StableHlo.unary main_v499 main_v500 (Host.rsqrt : (⟨S8x1, .f32⟩ : BufTy).Contents (Elt F) → (⟨S8x1, .f32⟩ : BufTy).Contents (Elt F)),
    StableHlo.unary main_v500 main_v501 (broadcastInDim S8x2048 ![0, 1] bcast_S8x1_S8x2048_0_1 : (⟨S8x1, .f32⟩ : BufTy).Contents (Elt F) → (⟨S8x2048, .f32⟩ : BufTy).Contents (Elt F)),
    StableHlo.binary main_v497 main_v501 main_v502 (mulf : (⟨S8x2048, .f32⟩ : BufTy).Contents (Elt F) → (⟨S8x2048, .f32⟩ : BufTy).Contents (Elt F) → (⟨S8x2048, .f32⟩ : BufTy).Contents (Elt F)),
    StableHlo.unary main_arg12 main_v503 (broadcastInDim S1x2048 ![1] bcast_S2048_S1x2048_1 : (⟨S2048, .f32⟩ : BufTy).Contents (Elt F) → (⟨S1x2048, .f32⟩ : BufTy).Contents (Elt F)),
    StableHlo.unary main_v503 main_v504 (broadcastInDim S8x2048 ![0, 1] bcast_S1x2048_S8x2048_0_1 : (⟨S1x2048, .f32⟩ : BufTy).Contents (Elt F) → (⟨S8x2048, .f32⟩ : BufTy).Contents (Elt F)),
    StableHlo.binary main_v502 main_v504 main_v505 (mulf : (⟨S8x2048, .f32⟩ : BufTy).Contents (Elt F) → (⟨S8x2048, .f32⟩ : BufTy).Contents (Elt F) → (⟨S8x2048, .f32⟩ : BufTy).Contents (Elt F)),
    StableHlo.unary main_arg13 main_v506 (broadcastInDim S1x2048 ![1] bcast_S2048_S1x2048_1 : (⟨S2048, .f32⟩ : BufTy).Contents (Elt F) → (⟨S1x2048, .f32⟩ : BufTy).Contents (Elt F)),
    StableHlo.unary main_v506 main_v507 (broadcastInDim S8x2048 ![0, 1] bcast_S1x2048_S8x2048_0_1 : (⟨S1x2048, .f32⟩ : BufTy).Contents (Elt F) → (⟨S8x2048, .f32⟩ : BufTy).Contents (Elt F)),
    StableHlo.binary main_v505 main_v507 main_v508 (addf : (⟨S8x2048, .f32⟩ : BufTy).Contents (Elt F) → (⟨S8x2048, .f32⟩ : BufTy).Contents (Elt F) → (⟨S8x2048, .f32⟩ : BufTy).Contents (Elt F)),
    StableHlo.nullary main_c_53 (constantI S_ 32 7568#32),
    StableHlo.unary main_c_53 main_v509 (broadcastInDim S1 ![] bcast_S_S1 : (⟨S_, .i32⟩ : BufTy).Contents (Elt F) → (⟨S1, .i32⟩ : BufTy).Contents (Elt F)),
    StableHlo.ternary main_v437 main_v509 main_v508 main_v510 ((fun x i u => Host.scatter scatter_S8x8192x2048_S1_S8x2048_01_1_1_0 (fun _ b => b) x i u) : (⟨S8x8192x2048, .f32⟩ : BufTy).Contents (Elt F) → (⟨S1, .i32⟩ : BufTy).Contents (Elt F) → (⟨S8x2048, .f32⟩ : BufTy).Contents (Elt F) → (⟨S8x8192x2048, .f32⟩ : BufTy).Contents (Elt F)) ]
theorem pc29_sub : (pc29 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.ternary_bufs_sub ..⟩
theorem pc29_fresh : (pc29 : List (HloOp τ sig (Elt F))).Forall fun op => op.fresh = ∅ := by
  simp only [List.Forall]; repeat' constructor
/-- The buffers it writes, in order. -/
abbrev pwr29 : List (Ref sig .tc) := [main_v496, main_v497, main_cst_52, main_v498, main_v499, main_v500, main_v501, main_v502, main_v503, main_v504, main_v505, main_v506, main_v507, main_v508, main_c_53, main_v509, main_v510]
theorem hpwr29 : (pc29 : List (HloOp τ sig (Elt F))).Forall fun op => op.writes ⊆ ((pwr29).map (Proc.devRef (τ := τ) .tc)).toFinset :=
  writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_cons rfl (writes_nil)))))))))))))))))
theorem keepP29 (W : Valuation τ sig (Elt F)) {r : Ref sig .tc} (hr : r ∉ pwr29) :
    StableHlo.after (pc29 : List (HloOp τ sig (Elt F))) W (Proc.devRef .tc r) = W (Proc.devRef .tc r) :=
  StableHlo.after_of_writes_sub _ _ hpwr29 hr

/-! ## The printed windows are concatenations of pieces -/
theorem main_part0_eq (c : Dev nD) : main_part0 (F := F) c = (StableHlo.seq (pc0) : Prog (TpuEff nD τ sig (Elt F) (Pipeline.Sig Λ₀ (Fin 0) fun p => (pcfgs (F := F) p).Adm) .tc) PUnit) := by
  chain_rfl
theorem main_part1_eq (c : Dev nD) : main_part1 (F := F) c = (StableHlo.seq (pc1 ++ (pc2 ++ (pc3 ++ (pc4)))) : Prog (TpuEff nD τ sig (Elt F) (Pipeline.Sig Λ₀ (Fin 0) fun p => (pcfgs (F := F) p).Adm) .tc) PUnit) := by
  chain_rfl
theorem main_part2_eq (c : Dev nD) : main_part2 (F := F) c = (StableHlo.seq (pc5 ++ (pc6 ++ (pc7 ++ (pc8)))) : Prog (TpuEff nD τ sig (Elt F) (Pipeline.Sig Λ₀ (Fin 0) fun p => (pcfgs (F := F) p).Adm) .tc) PUnit) := by
  chain_rfl
theorem main_part3_eq (c : Dev nD) : main_part3 (F := F) c = (StableHlo.seq (pc9 ++ (pc10 ++ (pc11))) : Prog (TpuEff nD τ sig (Elt F) (Pipeline.Sig Λ₀ (Fin 0) fun p => (pcfgs (F := F) p).Adm) .tc) PUnit) := by
  chain_rfl
theorem main_part4_eq (c : Dev nD) : main_part4 (F := F) c = (StableHlo.seq (pc12 ++ (pc13)) : Prog (TpuEff nD τ sig (Elt F) (Pipeline.Sig Λ₀ (Fin 0) fun p => (pcfgs (F := F) p).Adm) .tc) PUnit) := by
  chain_rfl
theorem main_part5_eq (c : Dev nD) : main_part5 (F := F) c = (StableHlo.seq (pc14 ++ (pc15 ++ (pc16 ++ (pc17)))) : Prog (TpuEff nD τ sig (Elt F) (Pipeline.Sig Λ₀ (Fin 0) fun p => (pcfgs (F := F) p).Adm) .tc) PUnit) := by
  chain_rfl
theorem main_part6_eq (c : Dev nD) : main_part6 (F := F) c = (StableHlo.seq (pc18 ++ (pc19 ++ (pc20 ++ (pc21)))) : Prog (TpuEff nD τ sig (Elt F) (Pipeline.Sig Λ₀ (Fin 0) fun p => (pcfgs (F := F) p).Adm) .tc) PUnit) := by
  chain_rfl
theorem main_part7_eq (c : Dev nD) : main_part7 (F := F) c = (StableHlo.seq (pc22 ++ (pc23 ++ (pc24))) : Prog (TpuEff nD τ sig (Elt F) (Pipeline.Sig Λ₀ (Fin 0) fun p => (pcfgs (F := F) p).Adm) .tc) PUnit) := by
  chain_rfl
theorem main_part8_eq (c : Dev nD) : main_part8 (F := F) c = (StableHlo.seq (pc25 ++ (pc26)) : Prog (TpuEff nD τ sig (Elt F) (Pipeline.Sig Λ₀ (Fin 0) fun p => (pcfgs (F := F) p).Adm) .tc) PUnit) := by
  chain_rfl
theorem main_part9_eq (c : Dev nD) : main_part9 (F := F) c = (StableHlo.seq (pc27 ++ (pc28 ++ (pc29))) : Prog (TpuEff nD τ sig (Elt F) (Pipeline.Sig Λ₀ (Fin 0) fun p => (pcfgs (F := F) p).Adm) .tc) PUnit) := by
  chain_rfl

/-- All 721 operations, in order. -/
abbrev ops : List (HloOp τ sig (Elt F)) := pc0 ++ (pc1 ++ (pc2 ++ (pc3 ++ (pc4 ++ (pc5 ++ (pc6 ++ (pc7 ++ (pc8 ++ (pc9 ++ (pc10 ++ (pc11 ++ (pc12 ++ (pc13 ++ (pc14 ++ (pc15 ++ (pc16 ++ (pc17 ++ (pc18 ++ (pc19 ++ (pc20 ++ (pc21 ++ (pc22 ++ (pc23 ++ (pc24 ++ (pc25 ++ (pc26 ++ (pc27 ++ (pc28 ++ (pc29)))))))))))))))))))))))))))))

theorem main_eq (c : Dev nD) : main (F := F) c = StableHlo.seq ops := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c >>= fun _ => main_part9 (F := F) c) = _
  rw [main_part0_eq, main_part1_eq, main_part2_eq, main_part3_eq, main_part4_eq, main_part5_eq, main_part6_eq, main_part7_eq, main_part8_eq, main_part9_eq]
  simp only [StableHlo.seq_append, bind_assoc]

theorem ops_sub : (ops : List (HloOp τ sig (Elt F))).Forall fun op => op.bufs ⊆ StableHlo.tcRefs τ sig :=
  forall_append pc0_sub (forall_append pc1_sub (forall_append pc2_sub (forall_append pc3_sub (forall_append pc4_sub (forall_append pc5_sub (forall_append pc6_sub (forall_append pc7_sub (forall_append pc8_sub (forall_append pc9_sub (forall_append pc10_sub (forall_append pc11_sub (forall_append pc12_sub (forall_append pc13_sub (forall_append pc14_sub (forall_append pc15_sub (forall_append pc16_sub (forall_append pc17_sub (forall_append pc18_sub (forall_append pc19_sub (forall_append pc20_sub (forall_append pc21_sub (forall_append pc22_sub (forall_append pc23_sub (forall_append pc24_sub (forall_append pc25_sub (forall_append pc26_sub (forall_append pc27_sub (forall_append pc28_sub (pc29_sub)))))))))))))))))))))))))))))
theorem ops_fresh : (ops : List (HloOp τ sig (Elt F))).Forall fun op => op.fresh = ∅ :=
  forall_append pc0_fresh (forall_append pc1_fresh (forall_append pc2_fresh (forall_append pc3_fresh (forall_append pc4_fresh (forall_append pc5_fresh (forall_append pc6_fresh (forall_append pc7_fresh (forall_append pc8_fresh (forall_append pc9_fresh (forall_append pc10_fresh (forall_append pc11_fresh (forall_append pc12_fresh (forall_append pc13_fresh (forall_append pc14_fresh (forall_append pc15_fresh (forall_append pc16_fresh (forall_append pc17_fresh (forall_append pc18_fresh (forall_append pc19_fresh (forall_append pc20_fresh (forall_append pc21_fresh (forall_append pc22_fresh (forall_append pc23_fresh (forall_append pc24_fresh (forall_append pc25_fresh (forall_append pc26_fresh (forall_append pc27_fresh (forall_append pc28_fresh (pc29_fresh)))))))))))))))))))))))))))))

theorem scopedRefs_eq : (Finset.univ.filter fun b : Ref sig .tc => b.isScoped) = ∅ := by decide
theorem scopedSems_eq : (Finset.univ.filter fun sm : SemLoc sig => sm.isScoped .tc) = ∅ := by decide

/-- Every execution of the reference terminates, and ends with every buffer at the fold of the 721 operations. -/
theorem run_ops (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  StableHlo.run_seq scopedRefs_eq scopedSems_eq defs main (fun _ => ops) main_eq (fun _ => ops_sub) m ρ
    (fun _ => List.forall_iff_forall_mem.mp ops_fresh)

end Cert.ReferenceIdeal.Gen

end
-- ==== Proof.RefHost.lean ====
/-
  The reference's operations grouped by the parts of a step, and its contents part by part.

  Each of the seven steps is three consecutive parts: cut the three rows, compute the blend, its mean; the lane
  variance; normalise and write the new row into the array.  Every buffer is written once, so at the end it holds
  what its own part left in it.
-/
import proofs.«134958_j16810501996613_1_alg».proof.Proof.RefOps
import proofs.«134958_j16810501996613_1_alg».proof.Proof.KIRecurDefs

set_option maxRecDepth 16384

noncomputable section

namespace Cert.ReferenceIdeal.Gen

open Idealize.ShloMosaic Idealize.ShloMosaic.TcCoe Idealize.SL.Sem
open Idealize.ShloMosaic.StableHlo Cert.Lib.HostKeep Cert.ReferenceIdeal

variable {F : FTy → Type} [FloatOps F]

variable (m : (ℓ : Loc nD τ sig) → Buf (Elt F) ℓ)

/-- The array update of a step as the program spells it: a scatter of the row `o` into `h` at the one index `q`. -/
def setRowF (q : BitVec 32) (h : (⟨S8x8192x2048, .f32⟩ : BufTy).Contents (Elt F)) (o : (⟨S8x2048, .f32⟩ : BufTy).Contents (Elt F)) :
    (⟨S8x8192x2048, .f32⟩ : BufTy).Contents (Elt F) :=
  Host.scatter scatter_S8x8192x2048_S1_S8x2048_01_1_1_0 (fun _ b => b) h (broadcastInDim S1 ![] bcast_S_S1 (constantI S_ 32 q)) o

/-- Part 0 (rows, blend, mean of step 1). -/
abbrev sg0 : List (HloOp τ sig (Elt F)) := pc0 ++ (pc1)
abbrev wr0 : List (Ref sig .tc) := pwr0 ++ (pwr1)
theorem keep0 (W : Valuation τ sig (Elt F)) {r : Ref sig .tc} (hr : r ∉ wr0) :
    StableHlo.after (sg0 : List (HloOp τ sig (Elt F))) W (Proc.devRef .tc r) = W (Proc.devRef .tc r) := by
  show StableHlo.after (pc0 ++ (pc1)) W _ = _
  rw [StableHlo.after_append, keepP1 _ (fun h => hr (List.mem_append_right _ h)), keepP0 _ (fun h => hr (List.mem_append_left _ h))]
/-- Part 1 (variance of step 1). -/
abbrev sg1 : List (HloOp τ sig (Elt F)) := pc2
abbrev wr1 : List (Ref sig .tc) := pwr2
theorem keep1 (W : Valuation τ sig (Elt F)) {r : Ref sig .tc} (hr : r ∉ wr1) :
    StableHlo.after (sg1 : List (HloOp τ sig (Elt F))) W (Proc.devRef .tc r) = W (Proc.devRef .tc r) := keepP2 W hr
/-- Part 2 (normalise and write back of step 1). -/
abbrev sg2 : List (HloOp τ sig (Elt F)) := pc3
abbrev wr2 : List (Ref sig .tc) := pwr3
theorem keep2 (W : Valuation τ sig (Elt F)) {r : Ref sig .tc} (hr : r ∉ wr2) :
    StableHlo.after (sg2 : List (HloOp τ sig (Elt F))) W (Proc.devRef .tc r) = W (Proc.devRef .tc r) := keepP3 W hr
/-- Part 3 (rows, blend, mean of step 2). -/
abbrev sg3 : List (HloOp τ sig (Elt F)) := pc4 ++ (pc5)
abbrev wr3 : List (Ref sig .tc) := pwr4 ++ (pwr5)
theorem keep3 (W : Valuation τ sig (Elt F)) {r : Ref sig .tc} (hr : r ∉ wr3) :
    StableHlo.after (sg3 : List (HloOp τ sig (Elt F))) W (Proc.devRef .tc r) = W (Proc.devRef .tc r) := by
  show StableHlo.after (pc4 ++ (pc5)) W _ = _
  rw [StableHlo.after_append, keepP5 _ (fun h => hr (List.mem_append_right _ h)), keepP4 _ (fun h => hr (List.mem_append_left _ h))]
/-- Part 4 (variance of step 2). -/
abbrev sg4 : List (HloOp τ sig (Elt F)) := pc6
abbrev wr4 : List (Ref sig .tc) := pwr6
theorem keep4 (W : Valuation τ sig (Elt F)) {r : Ref sig .tc} (hr : r ∉ wr4) :
    StableHlo.after (sg4 : List (HloOp τ sig (Elt F))) W (Proc.devRef .tc r) = W (Proc.devRef .tc r) := keepP6 W hr
/-- Part 5 (normalise and write back of step 2). -/
abbrev sg5 : List (HloOp τ sig (Elt F)) := pc7
abbrev wr5 : List (Ref sig .tc) := pwr7
theorem keep5 (W : Valuation τ sig (Elt F)) {r : Ref sig .tc} (hr : r ∉ wr5) :
    StableHlo.after (sg5 : List (HloOp τ sig (Elt F))) W (Proc.devRef .tc r) = W (Proc.devRef .tc r) := keepP7 W hr
/-- Part 6 (rows, blend, mean of step 3). -/
abbrev sg6 : List (HloOp τ sig (Elt F)) := pc8 ++ (pc9)
abbrev wr6 : List (Ref sig .tc) := pwr8 ++ (pwr9)
theorem keep6 (W : Valuation τ sig (Elt F)) {r : Ref sig .tc} (hr : r ∉ wr6) :
    StableHlo.after (sg6 : List (HloOp τ sig (Elt F))) W (Proc.devRef .tc r) = W (Proc.devRef .tc r) := by
  show StableHlo.after (pc8 ++ (pc9)) W _ = _
  rw [StableHlo.after_append, keepP9 _ (fun h => hr (List.mem_append_right _ h)), keepP8 _ (fun h => hr (List.mem_append_left _ h))]
/-- Part 7 (variance of step 3). -/
abbrev sg7 : List (HloOp τ sig (Elt F)) := pc10
abbrev wr7 : List (Ref sig .tc) := pwr10
theorem keep7 (W : Valuation τ sig (Elt F)) {r : Ref sig .tc} (hr : r ∉ wr7) :
    StableHlo.after (sg7 : List (HloOp τ sig (Elt F))) W (Proc.devRef .tc r) = W (Proc.devRef .tc r) := keepP10 W hr
/-- Part 8 (normalise and write back of step 3). -/
abbrev sg8 : List (HloOp τ sig (Elt F)) := pc11 ++ (pc12)
abbrev wr8 : List (Ref sig .tc) := pwr11 ++ (pwr12)
theorem keep8 (W : Valuation τ sig (Elt F)) {r : Ref sig .tc} (hr : r ∉ wr8) :
    StableHlo.after (sg8 : List (HloOp τ sig (Elt F))) W (Proc.devRef .tc r) = W (Proc.devRef .tc r) := by
  show StableHlo.after (pc11 ++ (pc12)) W _ = _
  rw [StableHlo.after_append, keepP12 _ (fun h => hr (List.mem_append_right _ h)), keepP11 _ (fun h => hr (List.mem_append_left _ h))]
/-- Part 9 (rows, blend, mean of step 4). -/
abbrev sg9 : List (HloOp τ sig (Elt F)) := pc13 ++ (pc14)
abbrev wr9 : List (Ref sig .tc) := pwr13 ++ (pwr14)
theorem keep9 (W : Valuation τ sig (Elt F)) {r : Ref sig .tc} (hr : r ∉ wr9) :
    StableHlo.after (sg9 : List (HloOp τ sig (Elt F))) W (Proc.devRef .tc r) = W (Proc.devRef .tc r) := by
  show StableHlo.after (pc13 ++ (pc14)) W _ = _
  rw [StableHlo.after_append, keepP14 _ (fun h => hr (List.mem_append_right _ h)), keepP13 _ (fun h => hr (List.mem_append_left _ h))]
/-- Part 10 (variance of step 4). -/
abbrev sg10 : List (HloOp τ sig (Elt F)) := pc15
abbrev wr10 : List (Ref sig .tc) := pwr15
theorem keep10 (W : Valuation τ sig (Elt F)) {r : Ref sig .tc} (hr : r ∉ wr10) :
    StableHlo.after (sg10 : List (HloOp τ sig (Elt F))) W (Proc.devRef .tc r) = W (Proc.devRef .tc r) := keepP15 W hr
/-- Part 11 (normalise and write back of step 4). -/
abbrev sg11 : List (HloOp τ sig (Elt F)) := pc16
abbrev wr11 : List (Ref sig .tc) := pwr16
theorem keep11 (W : Valuation τ sig (Elt F)) {r : Ref sig .tc} (hr : r ∉ wr11) :
    StableHlo.after (sg11 : List (HloOp τ sig (Elt F))) W (Proc.devRef .tc r) = W (Proc.devRef .tc r) := keepP16 W hr
/-- Part 12 (rows, blend, mean of step 5). -/
abbrev sg12 : List (HloOp τ sig (Elt F)) := pc17 ++ (pc18)
abbrev wr12 : List (Ref sig .tc) := pwr17 ++ (pwr18)
theorem keep12 (W : Valuation τ sig (Elt F)) {r : Ref sig .tc} (hr : r ∉ wr12) :
    StableHlo.after (sg12 : List (HloOp τ sig (Elt F))) W (Proc.devRef .tc r) = W (Proc.devRef .tc r) := by
  show StableHlo.after (pc17 ++ (pc18)) W _ = _
  rw [StableHlo.after_append, keepP18 _ (fun h => hr (List.mem_append_right _ h)), keepP17 _ (fun h => hr (List.mem_append_left _ h))]
/-- Part 13 (variance of step 5). -/
abbrev sg13 : List (HloOp τ sig (Elt F)) := pc19
abbrev wr13 : List (Ref sig .tc) := pwr19
theorem keep13 (W : Valuation τ sig (Elt F)) {r : Ref sig .tc} (hr : r ∉ wr13) :
    StableHlo.after (sg13 : List (HloOp τ sig (Elt F))) W (Proc.devRef .tc r) = W (Proc.devRef .tc r) := keepP19 W hr
/-- Part 14 (normalise and write back of step 5). -/
abbrev sg14 : List (HloOp τ sig (Elt F)) := pc20
abbrev wr14 : List (Ref sig .tc) := pwr20
theorem keep14 (W : Valuation τ sig (Elt F)) {r : Ref sig .tc} (hr : r ∉ wr14) :
    StableHlo.after (sg14 : List (HloOp τ sig (Elt F))) W (Proc.devRef .tc r) = W (Proc.devRef .tc r) := keepP20 W hr
/-- Part 15 (rows, blend, mean of step 6). -/
abbrev sg15 : List (HloOp τ sig (Elt F)) := pc21 ++ (pc22)
abbrev wr15 : List (Ref sig .tc) := pwr21 ++ (pwr22)
theorem keep15 (W : Valuation τ sig (Elt F)) {r : Ref sig .tc} (hr : r ∉ wr15) :
    StableHlo.after (sg15 : List (HloOp τ sig (Elt F))) W (Proc.devRef .tc r) = W (Proc.devRef .tc r) := by
  show StableHlo.after (pc21 ++ (pc22)) W _ = _
  rw [StableHlo.after_append, keepP22 _ (fun h => hr (List.mem_append_right _ h)), keepP21 _ (fun h => hr (List.mem_append_left _ h))]
/-- Part 16 (variance of step 6). -/
abbrev sg16 : List (HloOp τ sig (Elt F)) := pc23
abbrev wr16 : List (Ref sig .tc) := pwr23
theorem keep16 (W : Valuation τ sig (Elt F)) {r : Ref sig .tc} (hr : r ∉ wr16) :
    StableHlo.after (sg16 : List (HloOp τ sig (Elt F))) W (Proc.devRef .tc r) = W (Proc.devRef .tc r) := keepP23 W hr
/-- Part 17 (normalise and write back of step 6). -/
abbrev sg17 : List (HloOp τ sig (Elt F)) := pc24 ++ (pc25)
abbrev wr17 : List (Ref sig .tc) := pwr24 ++ (pwr25)
theorem keep17 (W : Valuation τ sig (Elt F)) {r : Ref sig .tc} (hr : r ∉ wr17) :
    StableHlo.after (sg17 : List (HloOp τ sig (Elt F))) W (Proc.devRef .tc r) = W (Proc.devRef .tc r) := by
  show StableHlo.after (pc24 ++ (pc25)) W _ = _
  rw [StableHlo.after_append, keepP25 _ (fun h => hr (List.mem_append_right _ h)), keepP24 _ (fun h => hr (List.mem_append_left _ h))]
/-- Part 18 (rows, blend, mean of step 7). -/
abbrev sg18 : List (HloOp τ sig (Elt F)) := pc26 ++ (pc27)
abbrev wr18 : List (Ref sig .tc) := pwr26 ++ (pwr27)
theorem keep18 (W : Valuation τ sig (Elt F)) {r : Ref sig .tc} (hr : r ∉ wr18) :
    StableHlo.after (sg18 : List (HloOp τ sig (Elt F))) W (Proc.devRef .tc r) = W (Proc.devRef .tc r) := by
  show StableHlo.after (pc26 ++ (pc27)) W _ = _
  rw [StableHlo.after_append, keepP27 _ (fun h => hr (List.mem_append_right _ h)), keepP26 _ (fun h => hr (List.mem_append_left _ h))]
/-- Part 19 (variance of step 7). -/
abbrev sg19 : List (HloOp τ sig (Elt F)) := pc28
abbrev wr19 : List (Ref sig .tc) := pwr28
theorem keep19 (W : Valuation τ sig (Elt F)) {r : Ref sig .tc} (hr : r ∉ wr19) :
    StableHlo.after (sg19 : List (HloOp τ sig (Elt F))) W (Proc.devRef .tc r) = W (Proc.devRef .tc r) := keepP28 W hr
/-- Part 20 (normalise and write back of step 7). -/
abbrev sg20 : List (HloOp τ sig (Elt F)) := pc29
abbrev wr20 : List (Ref sig .tc) := pwr29
theorem keep20 (W : Valuation τ sig (Elt F)) {r : Ref sig .tc} (hr : r ∉ wr20) :
    StableHlo.after (sg20 : List (HloOp τ sig (Elt F))) W (Proc.devRef .tc r) = W (Proc.devRef .tc r) := keepP29 W hr

/-- The contents at the end of the reference. -/
def Rv (c : Dev nD) (b : Ref sig .tc) : (Proc.devRef (τ := τ) .tc b).ty.Contents (Elt F) :=
  StableHlo.after (ops : List (HloOp τ sig (Elt F))) (StableHlo.launchContents m c) (Proc.devRef .tc b)

def Wl (c : Dev nD) : Valuation τ sig (Elt F) := StableHlo.launchContents m c
def W0 (c : Dev nD) : Valuation τ sig (Elt F) := StableHlo.after sg0 (Wl m c)
def W1 (c : Dev nD) : Valuation τ sig (Elt F) := StableHlo.after sg1 (W0 m c)
def W2 (c : Dev nD) : Valuation τ sig (Elt F) := StableHlo.after sg2 (W1 m c)
def W3 (c : Dev nD) : Valuation τ sig (Elt F) := StableHlo.after sg3 (W2 m c)
def W4 (c : Dev nD) : Valuation τ sig (Elt F) := StableHlo.after sg4 (W3 m c)
def W5 (c : Dev nD) : Valuation τ sig (Elt F) := StableHlo.after sg5 (W4 m c)
def W6 (c : Dev nD) : Valuation τ sig (Elt F) := StableHlo.after sg6 (W5 m c)
def W7 (c : Dev nD) : Valuation τ sig (Elt F) := StableHlo.after sg7 (W6 m c)
def W8 (c : Dev nD) : Valuation τ sig (Elt F) := StableHlo.after sg8 (W7 m c)
def W9 (c : Dev nD) : Valuation τ sig (Elt F) := StableHlo.after sg9 (W8 m c)
def W10 (c : Dev nD) : Valuation τ sig (Elt F) := StableHlo.after sg10 (W9 m c)
def W11 (c : Dev nD) : Valuation τ sig (Elt F) := StableHlo.after sg11 (W10 m c)
def W12 (c : Dev nD) : Valuation τ sig (Elt F) := StableHlo.after sg12 (W11 m c)
def W13 (c : Dev nD) : Valuation τ sig (Elt F) := StableHlo.after sg13 (W12 m c)
def W14 (c : Dev nD) : Valuation τ sig (Elt F) := StableHlo.after sg14 (W13 m c)
def W15 (c : Dev nD) : Valuation τ sig (Elt F) := StableHlo.after sg15 (W14 m c)
def W16 (c : Dev nD) : Valuation τ sig (Elt F) := StableHlo.after sg16 (W15 m c)
def W17 (c : Dev nD) : Valuation τ sig (Elt F) := StableHlo.after sg17 (W16 m c)
def W18 (c : Dev nD) : Valuation τ sig (Elt F) := StableHlo.after sg18 (W17 m c)
def W19 (c : Dev nD) : Valuation τ sig (Elt F) := StableHlo.after sg19 (W18 m c)
def W20 (c : Dev nD) : Valuation τ sig (Elt F) := StableHlo.after sg20 (W19 m c)

theorem ops_eq_parts : (ops : List (HloOp τ sig (Elt F))) = sg0 ++ (sg1 ++ (sg2 ++ (sg3 ++ (sg4 ++ (sg5 ++ (sg6 ++ (sg7 ++ (sg8 ++ (sg9 ++ (sg10 ++ (sg11 ++ (sg12 ++ (sg13 ++ (sg14 ++ (sg15 ++ (sg16 ++ (sg17 ++ (sg18 ++ (sg19 ++ (sg20)))))))))))))))))))) := by
  show pc0 ++ (pc1 ++ (pc2 ++ (pc3 ++ (pc4 ++ (pc5 ++ (pc6 ++ (pc7 ++ (pc8 ++ (pc9 ++ (pc10 ++ (pc11 ++ (pc12 ++ (pc13 ++ (pc14 ++ (pc15 ++ (pc16 ++ (pc17 ++ (pc18 ++ (pc19 ++ (pc20 ++ (pc21 ++ (pc22 ++ (pc23 ++ (pc24 ++ (pc25 ++ (pc26 ++ (pc27 ++ (pc28 ++ (pc29))))))))))))))))))))))))))))) = (pc0 ++ (pc1)) ++ ((pc2) ++ ((pc3) ++ ((pc4 ++ (pc5)) ++ ((pc6) ++ ((pc7) ++ ((pc8 ++ (pc9)) ++ ((pc10) ++ ((pc11 ++ (pc12)) ++ ((pc13 ++ (pc14)) ++ ((pc15) ++ ((pc16) ++ ((pc17 ++ (pc18)) ++ ((pc19) ++ ((pc20) ++ ((pc21 ++ (pc22)) ++ ((pc23) ++ ((pc24 ++ (pc25)) ++ ((pc26 ++ (pc27)) ++ ((pc28) ++ ((pc29)))))))))))))))))))))
  simp only [List.append_assoc]

abbrev wrFrom21 : List (Ref sig .tc) := []
abbrev wrFrom20 : List (Ref sig .tc) := wr20 ++ wrFrom21
abbrev wrFrom19 : List (Ref sig .tc) := wr19 ++ wrFrom20
abbrev wrFrom18 : List (Ref sig .tc) := wr18 ++ wrFrom19
abbrev wrFrom17 : List (Ref sig .tc) := wr17 ++ wrFrom18
abbrev wrFrom16 : List (Ref sig .tc) := wr16 ++ wrFrom17
abbrev wrFrom15 : List (Ref sig .tc) := wr15 ++ wrFrom16
abbrev wrFrom14 : List (Ref sig .tc) := wr14 ++ wrFrom15
abbrev wrFrom13 : List (Ref sig .tc) := wr13 ++ wrFrom14
abbrev wrFrom12 : List (Ref sig .tc) := wr12 ++ wrFrom13
abbrev wrFrom11 : List (Ref sig .tc) := wr11 ++ wrFrom12
abbrev wrFrom10 : List (Ref sig .tc) := wr10 ++ wrFrom11
abbrev wrFrom9 : List (Ref sig .tc) := wr9 ++ wrFrom10
abbrev wrFrom8 : List (Ref sig .tc) := wr8 ++ wrFrom9
abbrev wrFrom7 : List (Ref sig .tc) := wr7 ++ wrFrom8
abbrev wrFrom6 : List (Ref sig .tc) := wr6 ++ wrFrom7
abbrev wrFrom5 : List (Ref sig .tc) := wr5 ++ wrFrom6
abbrev wrFrom4 : List (Ref sig .tc) := wr4 ++ wrFrom5
abbrev wrFrom3 : List (Ref sig .tc) := wr3 ++ wrFrom4
abbrev wrFrom2 : List (Ref sig .tc) := wr2 ++ wrFrom3
abbrev wrFrom1 : List (Ref sig .tc) := wr1 ++ wrFrom2
abbrev wrFrom0 : List (Ref sig .tc) := wr0 ++ wrFrom1

theorem R_at20 (c : Dev nD) (b : Ref sig .tc) : Rv m c b = W20 m c (Proc.devRef .tc b) := by
  unfold Rv
  rw [ops_eq_parts]
  simp only [StableHlo.after_append]
  rfl
theorem R_at19 (c : Dev nD) (b : Ref sig .tc) (h : b ∉ wrFrom20) : Rv m c b = W19 m c (Proc.devRef .tc b) :=
  (R_at20 m c b).trans (keep20 (W19 m c) (fun hb => h (List.mem_append_left _ hb)))
theorem R_at18 (c : Dev nD) (b : Ref sig .tc) (h : b ∉ wrFrom19) : Rv m c b = W18 m c (Proc.devRef .tc b) :=
  (R_at19 m c b (fun hb => h (List.mem_append_right _ hb))).trans (keep19 (W18 m c) (fun hb => h (List.mem_append_left _ hb)))
theorem R_at17 (c : Dev nD) (b : Ref sig .tc) (h : b ∉ wrFrom18) : Rv m c b = W17 m c (Proc.devRef .tc b) :=
  (R_at18 m c b (fun hb => h (List.mem_append_right _ hb))).trans (keep18 (W17 m c) (fun hb => h (List.mem_append_left _ hb)))
theorem R_at16 (c : Dev nD) (b : Ref sig .tc) (h : b ∉ wrFrom17) : Rv m c b = W16 m c (Proc.devRef .tc b) :=
  (R_at17 m c b (fun hb => h (List.mem_append_right _ hb))).trans (keep17 (W16 m c) (fun hb => h (List.mem_append_left _ hb)))
theorem R_at15 (c : Dev nD) (b : Ref sig .tc) (h : b ∉ wrFrom16) : Rv m c b = W15 m c (Proc.devRef .tc b) :=
  (R_at16 m c b (fun hb => h (List.mem_append_right _ hb))).trans (keep16 (W15 m c) (fun hb => h (List.mem_append_left _ hb)))
theorem R_at14 (c : Dev nD) (b : Ref sig .tc) (h : b ∉ wrFrom15) : Rv m c b = W14 m c (Proc.devRef .tc b) :=
  (R_at15 m c b (fun hb => h (List.mem_append_right _ hb))).trans (keep15 (W14 m c) (fun hb => h (List.mem_append_left _ hb)))
theorem R_at13 (c : Dev nD) (b : Ref sig .tc) (h : b ∉ wrFrom14) : Rv m c b = W13 m c (Proc.devRef .tc b) :=
  (R_at14 m c b (fun hb => h (List.mem_append_right _ hb))).trans (keep14 (W13 m c) (fun hb => h (List.mem_append_left _ hb)))
theorem R_at12 (c : Dev nD) (b : Ref sig .tc) (h : b ∉ wrFrom13) : Rv m c b = W12 m c (Proc.devRef .tc b) :=
  (R_at13 m c b (fun hb => h (List.mem_append_right _ hb))).trans (keep13 (W12 m c) (fun hb => h (List.mem_append_left _ hb)))
theorem R_at11 (c : Dev nD) (b : Ref sig .tc) (h : b ∉ wrFrom12) : Rv m c b = W11 m c (Proc.devRef .tc b) :=
  (R_at12 m c b (fun hb => h (List.mem_append_right _ hb))).trans (keep12 (W11 m c) (fun hb => h (List.mem_append_left _ hb)))
theorem R_at10 (c : Dev nD) (b : Ref sig .tc) (h : b ∉ wrFrom11) : Rv m c b = W10 m c (Proc.devRef .tc b) :=
  (R_at11 m c b (fun hb => h (List.mem_append_right _ hb))).trans (keep11 (W10 m c) (fun hb => h (List.mem_append_left _ hb)))
theorem R_at9 (c : Dev nD) (b : Ref sig .tc) (h : b ∉ wrFrom10) : Rv m c b = W9 m c (Proc.devRef .tc b) :=
  (R_at10 m c b (fun hb => h (List.mem_append_right _ hb))).trans (keep10 (W9 m c) (fun hb => h (List.mem_append_left _ hb)))
theorem R_at8 (c : Dev nD) (b : Ref sig .tc) (h : b ∉ wrFrom9) : Rv m c b = W8 m c (Proc.devRef .tc b) :=
  (R_at9 m c b (fun hb => h (List.mem_append_right _ hb))).trans (keep9 (W8 m c) (fun hb => h (List.mem_append_left _ hb)))
theorem R_at7 (c : Dev nD) (b : Ref sig .tc) (h : b ∉ wrFrom8) : Rv m c b = W7 m c (Proc.devRef .tc b) :=
  (R_at8 m c b (fun hb => h (List.mem_append_right _ hb))).trans (keep8 (W7 m c) (fun hb => h (List.mem_append_left _ hb)))
theorem R_at6 (c : Dev nD) (b : Ref sig .tc) (h : b ∉ wrFrom7) : Rv m c b = W6 m c (Proc.devRef .tc b) :=
  (R_at7 m c b (fun hb => h (List.mem_append_right _ hb))).trans (keep7 (W6 m c) (fun hb => h (List.mem_append_left _ hb)))
theorem R_at5 (c : Dev nD) (b : Ref sig .tc) (h : b ∉ wrFrom6) : Rv m c b = W5 m c (Proc.devRef .tc b) :=
  (R_at6 m c b (fun hb => h (List.mem_append_right _ hb))).trans (keep6 (W5 m c) (fun hb => h (List.mem_append_left _ hb)))
theorem R_at4 (c : Dev nD) (b : Ref sig .tc) (h : b ∉ wrFrom5) : Rv m c b = W4 m c (Proc.devRef .tc b) :=
  (R_at5 m c b (fun hb => h (List.mem_append_right _ hb))).trans (keep5 (W4 m c) (fun hb => h (List.mem_append_left _ hb)))
theorem R_at3 (c : Dev nD) (b : Ref sig .tc) (h : b ∉ wrFrom4) : Rv m c b = W3 m c (Proc.devRef .tc b) :=
  (R_at4 m c b (fun hb => h (List.mem_append_right _ hb))).trans (keep4 (W3 m c) (fun hb => h (List.mem_append_left _ hb)))
theorem R_at2 (c : Dev nD) (b : Ref sig .tc) (h : b ∉ wrFrom3) : Rv m c b = W2 m c (Proc.devRef .tc b) :=
  (R_at3 m c b (fun hb => h (List.mem_append_right _ hb))).trans (keep3 (W2 m c) (fun hb => h (List.mem_append_left _ hb)))
theorem R_at1 (c : Dev nD) (b : Ref sig .tc) (h : b ∉ wrFrom2) : Rv m c b = W1 m c (Proc.devRef .tc b) :=
  (R_at2 m c b (fun hb => h (List.mem_append_right _ hb))).trans (keep2 (W1 m c) (fun hb => h (List.mem_append_left _ hb)))
theorem R_at0 (c : Dev nD) (b : Ref sig .tc) (h : b ∉ wrFrom1) : Rv m c b = W0 m c (Proc.devRef .tc b) :=
  (R_at1 m c b (fun hb => h (List.mem_append_right _ hb))).trans (keep1 (W0 m c) (fun hb => h (List.mem_append_left _ hb)))
theorem R_atL (c : Dev nD) (b : Ref sig .tc) (h : b ∉ wrFrom0) : Rv m c b = Wl m c (Proc.devRef .tc b) :=
  (R_at0 m c b (fun hb => h (List.mem_append_right _ hb))).trans (keep0 (Wl m c) (fun hb => h (List.mem_append_left _ hb)))

/-- A buffer no operation writes ends as it began. -/
theorem Rv_arg (c : Dev nD) (b : Ref sig .tc) (h : b ∉ wrFrom0) : Rv m c b = m ((c.tc : Thread nD τ).loc b) := R_atL m c b h

end Cert.ReferenceIdeal.Gen

end
-- ==== Proof.RefStretch1.lean ====
/-
  Step 1 of the reference, part by part: each part is read back, over any contents before it, as the matching
  piece of the specification — the same functions the kernel's host recurrence is read back as.
-/
import proofs.«134958_j16810501996613_1_alg».proof.Proof.RefHost

set_option maxRecDepth 16384

noncomputable section

namespace Cert.ReferenceIdeal.Gen

open Idealize.ShloMosaic Idealize.ShloMosaic.TcCoe Idealize.SL.Sem
open Idealize.ShloMosaic.StableHlo Cert.ReferenceIdeal

variable {F : FTy → Type} [FloatOps F]

set_option maxHeartbeats 40000000 in
theorem S0_pre (W : Valuation τ sig (Elt F)) : StableHlo.after sg0 W (Proc.devRef .tc main_v52) =
    Cert.KernelIdeal.Gen.preF (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg11)) (Cert.KernelIdeal.Gen.gwTF (W (Proc.devRef .tc main_arg10))) (Cert.KernelIdeal.Gen.rowAt 12 Cert.KernelIdeal.Gen.slices_S8x8192x2048_S8x1x2048_0_12_0 (W (Proc.devRef .tc main_arg0))) (Cert.KernelIdeal.Gen.rowAt 4 Cert.KernelIdeal.Gen.slices_S8x8192x2048_S8x1x2048_0_4_0 (W (Proc.devRef .tc main_arg0))) (Cert.KernelIdeal.Gen.rowAt 2 Cert.KernelIdeal.Gen.slices_S8x8192x2048_S8x1x2048_0_2_0 (W (Proc.devRef .tc main_arg0))) := by
  (simp (disch := decide) only [sg0, pc0, pc1, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S0_mean (W : Valuation τ sig (Elt F)) : StableHlo.after sg0 W (Proc.devRef .tc main_v56) = Cert.KernelIdeal.Gen.meanF (StableHlo.after sg0 W (Proc.devRef .tc main_v52)) := by
  (simp (disch := decide) only [sg0, pc0, pc1, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S0_c (W : Valuation τ sig (Elt F)) : StableHlo.after sg0 W (Proc.devRef .tc main_c) = constantI S_ 32 0#32 := by
  (simp (disch := decide) only [sg0, pc0, pc1, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S1_var (W : Valuation τ sig (Elt F)) : StableHlo.after sg1 W (Proc.devRef .tc main_v57) = Cert.KernelIdeal.Gen.varF (W (Proc.devRef .tc main_v52)) (W (Proc.devRef .tc main_c)) := by
  (simp (disch := decide) only [sg1, pc2, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S2_out (W : Valuation τ sig (Elt F)) : StableHlo.after sg2 W (Proc.devRef .tc main_v70) = Cert.KernelIdeal.Gen.normF (W (Proc.devRef .tc main_v52)) (W (Proc.devRef .tc main_v56)) (W (Proc.devRef .tc main_v57)) (W (Proc.devRef .tc main_arg12)) (W (Proc.devRef .tc main_arg13)) := by
  (simp (disch := decide) only [sg2, pc3, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S2_h (W : Valuation τ sig (Elt F)) : StableHlo.after sg2 W (Proc.devRef .tc main_v72) = setRowF 12#32 (W (Proc.devRef .tc main_arg0)) (StableHlo.after sg2 W (Proc.devRef .tc main_v70)) := by
  (simp (disch := decide) only [sg2, pc3, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl

end Cert.ReferenceIdeal.Gen

end
-- ==== Proof.RefStretch2.lean ====
/-
  Step 2 of the reference, part by part: each part is read back, over any contents before it, as the matching
  piece of the specification — the same functions the kernel's host recurrence is read back as.
-/
import proofs.«134958_j16810501996613_1_alg».proof.Proof.RefHost

set_option maxRecDepth 16384

noncomputable section

namespace Cert.ReferenceIdeal.Gen

open Idealize.ShloMosaic Idealize.ShloMosaic.TcCoe Idealize.SL.Sem
open Idealize.ShloMosaic.StableHlo Cert.ReferenceIdeal

variable {F : FTy → Type} [FloatOps F]

set_option maxHeartbeats 40000000 in
theorem S3_pre (W : Valuation τ sig (Elt F)) : StableHlo.after sg3 W (Proc.devRef .tc main_v125) =
    Cert.KernelIdeal.Gen.preF (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg11)) (Cert.KernelIdeal.Gen.gwTF (W (Proc.devRef .tc main_arg10))) (Cert.KernelIdeal.Gen.rowAt 36 Cert.KernelIdeal.Gen.slices_S8x8192x2048_S8x1x2048_0_36_0 (W (Proc.devRef .tc main_v72))) (Cert.KernelIdeal.Gen.rowAt 12 Cert.KernelIdeal.Gen.slices_S8x8192x2048_S8x1x2048_0_12_0 (W (Proc.devRef .tc main_v72))) (Cert.KernelIdeal.Gen.rowAt 4 Cert.KernelIdeal.Gen.slices_S8x8192x2048_S8x1x2048_0_4_0 (W (Proc.devRef .tc main_v72))) := by
  (simp (disch := decide) only [sg3, pc4, pc5, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S3_mean (W : Valuation τ sig (Elt F)) : StableHlo.after sg3 W (Proc.devRef .tc main_v129) = Cert.KernelIdeal.Gen.meanF (StableHlo.after sg3 W (Proc.devRef .tc main_v125)) := by
  (simp (disch := decide) only [sg3, pc4, pc5, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S3_c (W : Valuation τ sig (Elt F)) : StableHlo.after sg3 W (Proc.devRef .tc main_c_11) = constantI S_ 32 0#32 := by
  (simp (disch := decide) only [sg3, pc4, pc5, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S4_var (W : Valuation τ sig (Elt F)) : StableHlo.after sg4 W (Proc.devRef .tc main_v130) = Cert.KernelIdeal.Gen.varF (W (Proc.devRef .tc main_v125)) (W (Proc.devRef .tc main_c_11)) := by
  (simp (disch := decide) only [sg4, pc6, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S5_out (W : Valuation τ sig (Elt F)) : StableHlo.after sg5 W (Proc.devRef .tc main_v143) = Cert.KernelIdeal.Gen.normF (W (Proc.devRef .tc main_v125)) (W (Proc.devRef .tc main_v129)) (W (Proc.devRef .tc main_v130)) (W (Proc.devRef .tc main_arg12)) (W (Proc.devRef .tc main_arg13)) := by
  (simp (disch := decide) only [sg5, pc7, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S5_h (W : Valuation τ sig (Elt F)) : StableHlo.after sg5 W (Proc.devRef .tc main_v145) = setRowF 36#32 (W (Proc.devRef .tc main_v72)) (StableHlo.after sg5 W (Proc.devRef .tc main_v143)) := by
  (simp (disch := decide) only [sg5, pc7, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl

end Cert.ReferenceIdeal.Gen

end
-- ==== Proof.RefStretch3.lean ====
/-
  Step 3 of the reference, part by part: each part is read back, over any contents before it, as the matching
  piece of the specification — the same functions the kernel's host recurrence is read back as.
-/
import proofs.«134958_j16810501996613_1_alg».proof.Proof.RefHost

set_option maxRecDepth 16384

noncomputable section

namespace Cert.ReferenceIdeal.Gen

open Idealize.ShloMosaic Idealize.ShloMosaic.TcCoe Idealize.SL.Sem
open Idealize.ShloMosaic.StableHlo Cert.ReferenceIdeal

variable {F : FTy → Type} [FloatOps F]

set_option maxHeartbeats 40000000 in
theorem S6_pre (W : Valuation τ sig (Elt F)) : StableHlo.after sg6 W (Proc.devRef .tc main_v198) =
    Cert.KernelIdeal.Gen.preF (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg11)) (Cert.KernelIdeal.Gen.gwTF (W (Proc.devRef .tc main_arg10))) (Cert.KernelIdeal.Gen.rowAt 104 Cert.KernelIdeal.Gen.slices_S8x8192x2048_S8x1x2048_0_104_0 (W (Proc.devRef .tc main_v145))) (Cert.KernelIdeal.Gen.rowAt 36 Cert.KernelIdeal.Gen.slices_S8x8192x2048_S8x1x2048_0_36_0 (W (Proc.devRef .tc main_v145))) (Cert.KernelIdeal.Gen.rowAt 12 Cert.KernelIdeal.Gen.slices_S8x8192x2048_S8x1x2048_0_12_0 (W (Proc.devRef .tc main_v145))) := by
  (simp (disch := decide) only [sg6, pc8, pc9, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S6_mean (W : Valuation τ sig (Elt F)) : StableHlo.after sg6 W (Proc.devRef .tc main_v202) = Cert.KernelIdeal.Gen.meanF (StableHlo.after sg6 W (Proc.devRef .tc main_v198)) := by
  (simp (disch := decide) only [sg6, pc8, pc9, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S6_c (W : Valuation τ sig (Elt F)) : StableHlo.after sg6 W (Proc.devRef .tc main_c_19) = constantI S_ 32 0#32 := by
  (simp (disch := decide) only [sg6, pc8, pc9, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S7_var (W : Valuation τ sig (Elt F)) : StableHlo.after sg7 W (Proc.devRef .tc main_v203) = Cert.KernelIdeal.Gen.varF (W (Proc.devRef .tc main_v198)) (W (Proc.devRef .tc main_c_19)) := by
  (simp (disch := decide) only [sg7, pc10, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S8_out (W : Valuation τ sig (Elt F)) : StableHlo.after sg8 W (Proc.devRef .tc main_v216) = Cert.KernelIdeal.Gen.normF (W (Proc.devRef .tc main_v198)) (W (Proc.devRef .tc main_v202)) (W (Proc.devRef .tc main_v203)) (W (Proc.devRef .tc main_arg12)) (W (Proc.devRef .tc main_arg13)) := by
  (simp (disch := decide) only [sg8, pc11, pc12, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S8_h (W : Valuation τ sig (Elt F)) : StableHlo.after sg8 W (Proc.devRef .tc main_v218) = setRowF 104#32 (W (Proc.devRef .tc main_v145)) (StableHlo.after sg8 W (Proc.devRef .tc main_v216)) := by
  (simp (disch := decide) only [sg8, pc11, pc12, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl

end Cert.ReferenceIdeal.Gen

end
-- ==== Proof.RefStretch4.lean ====
/-
  Step 4 of the reference, part by part: each part is read back, over any contents before it, as the matching
  piece of the specification — the same functions the kernel's host recurrence is read back as.
-/
import proofs.«134958_j16810501996613_1_alg».proof.Proof.RefHost

set_option maxRecDepth 16384

noncomputable section

namespace Cert.ReferenceIdeal.Gen

open Idealize.ShloMosaic Idealize.ShloMosaic.TcCoe Idealize.SL.Sem
open Idealize.ShloMosaic.StableHlo Cert.ReferenceIdeal

variable {F : FTy → Type} [FloatOps F]

set_option maxHeartbeats 40000000 in
theorem S9_pre (W : Valuation τ sig (Elt F)) : StableHlo.after sg9 W (Proc.devRef .tc main_v271) =
    Cert.KernelIdeal.Gen.preF (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg11)) (Cert.KernelIdeal.Gen.gwTF (W (Proc.devRef .tc main_arg10))) (Cert.KernelIdeal.Gen.rowAt 304 Cert.KernelIdeal.Gen.slices_S8x8192x2048_S8x1x2048_0_304_0 (W (Proc.devRef .tc main_v218))) (Cert.KernelIdeal.Gen.rowAt 104 Cert.KernelIdeal.Gen.slices_S8x8192x2048_S8x1x2048_0_104_0 (W (Proc.devRef .tc main_v218))) (Cert.KernelIdeal.Gen.rowAt 36 Cert.KernelIdeal.Gen.slices_S8x8192x2048_S8x1x2048_0_36_0 (W (Proc.devRef .tc main_v218))) := by
  (simp (disch := decide) only [sg9, pc13, pc14, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S9_mean (W : Valuation τ sig (Elt F)) : StableHlo.after sg9 W (Proc.devRef .tc main_v275) = Cert.KernelIdeal.Gen.meanF (StableHlo.after sg9 W (Proc.devRef .tc main_v271)) := by
  (simp (disch := decide) only [sg9, pc13, pc14, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S9_c (W : Valuation τ sig (Elt F)) : StableHlo.after sg9 W (Proc.devRef .tc main_c_27) = constantI S_ 32 0#32 := by
  (simp (disch := decide) only [sg9, pc13, pc14, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S10_var (W : Valuation τ sig (Elt F)) : StableHlo.after sg10 W (Proc.devRef .tc main_v276) = Cert.KernelIdeal.Gen.varF (W (Proc.devRef .tc main_v271)) (W (Proc.devRef .tc main_c_27)) := by
  (simp (disch := decide) only [sg10, pc15, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S11_out (W : Valuation τ sig (Elt F)) : StableHlo.after sg11 W (Proc.devRef .tc main_v289) = Cert.KernelIdeal.Gen.normF (W (Proc.devRef .tc main_v271)) (W (Proc.devRef .tc main_v275)) (W (Proc.devRef .tc main_v276)) (W (Proc.devRef .tc main_arg12)) (W (Proc.devRef .tc main_arg13)) := by
  (simp (disch := decide) only [sg11, pc16, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S11_h (W : Valuation τ sig (Elt F)) : StableHlo.after sg11 W (Proc.devRef .tc main_v291) = setRowF 304#32 (W (Proc.devRef .tc main_v218)) (StableHlo.after sg11 W (Proc.devRef .tc main_v289)) := by
  (simp (disch := decide) only [sg11, pc16, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl

end Cert.ReferenceIdeal.Gen

end
-- ==== Proof.RefStretch5.lean ====
/-
  Step 5 of the reference, part by part: each part is read back, over any contents before it, as the matching
  piece of the specification — the same functions the kernel's host recurrence is read back as.
-/
import proofs.«134958_j16810501996613_1_alg».proof.Proof.RefHost

set_option maxRecDepth 16384

noncomputable section

namespace Cert.ReferenceIdeal.Gen

open Idealize.ShloMosaic Idealize.ShloMosaic.TcCoe Idealize.SL.Sem
open Idealize.ShloMosaic.StableHlo Cert.ReferenceIdeal

variable {F : FTy → Type} [FloatOps F]

set_option maxHeartbeats 40000000 in
theorem S12_pre (W : Valuation τ sig (Elt F)) : StableHlo.after sg12 W (Proc.devRef .tc main_v344) =
    Cert.KernelIdeal.Gen.preF (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg11)) (Cert.KernelIdeal.Gen.gwTF (W (Proc.devRef .tc main_arg10))) (Cert.KernelIdeal.Gen.rowAt 888 Cert.KernelIdeal.Gen.slices_S8x8192x2048_S8x1x2048_0_888_0 (W (Proc.devRef .tc main_v291))) (Cert.KernelIdeal.Gen.rowAt 304 Cert.KernelIdeal.Gen.slices_S8x8192x2048_S8x1x2048_0_304_0 (W (Proc.devRef .tc main_v291))) (Cert.KernelIdeal.Gen.rowAt 104 Cert.KernelIdeal.Gen.slices_S8x8192x2048_S8x1x2048_0_104_0 (W (Proc.devRef .tc main_v291))) := by
  (simp (disch := decide) only [sg12, pc17, pc18, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S12_mean (W : Valuation τ sig (Elt F)) : StableHlo.after sg12 W (Proc.devRef .tc main_v348) = Cert.KernelIdeal.Gen.meanF (StableHlo.after sg12 W (Proc.devRef .tc main_v344)) := by
  (simp (disch := decide) only [sg12, pc17, pc18, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S12_c (W : Valuation τ sig (Elt F)) : StableHlo.after sg12 W (Proc.devRef .tc main_c_35) = constantI S_ 32 0#32 := by
  (simp (disch := decide) only [sg12, pc17, pc18, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S13_var (W : Valuation τ sig (Elt F)) : StableHlo.after sg13 W (Proc.devRef .tc main_v349) = Cert.KernelIdeal.Gen.varF (W (Proc.devRef .tc main_v344)) (W (Proc.devRef .tc main_c_35)) := by
  (simp (disch := decide) only [sg13, pc19, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S14_out (W : Valuation τ sig (Elt F)) : StableHlo.after sg14 W (Proc.devRef .tc main_v362) = Cert.KernelIdeal.Gen.normF (W (Proc.devRef .tc main_v344)) (W (Proc.devRef .tc main_v348)) (W (Proc.devRef .tc main_v349)) (W (Proc.devRef .tc main_arg12)) (W (Proc.devRef .tc main_arg13)) := by
  (simp (disch := decide) only [sg14, pc20, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S14_h (W : Valuation τ sig (Elt F)) : StableHlo.after sg14 W (Proc.devRef .tc main_v364) = setRowF 888#32 (W (Proc.devRef .tc main_v291)) (StableHlo.after sg14 W (Proc.devRef .tc main_v362)) := by
  (simp (disch := decide) only [sg14, pc20, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl

end Cert.ReferenceIdeal.Gen

end
-- ==== Proof.RefStretch6.lean ====
/-
  Step 6 of the reference, part by part: each part is read back, over any contents before it, as the matching
  piece of the specification — the same functions the kernel's host recurrence is read back as.
-/
import proofs.«134958_j16810501996613_1_alg».proof.Proof.RefHost

set_option maxRecDepth 16384

noncomputable section

namespace Cert.ReferenceIdeal.Gen

open Idealize.ShloMosaic Idealize.ShloMosaic.TcCoe Idealize.SL.Sem
open Idealize.ShloMosaic.StableHlo Cert.ReferenceIdeal

variable {F : FTy → Type} [FloatOps F]

set_option maxHeartbeats 40000000 in
theorem S15_pre (W : Valuation τ sig (Elt F)) : StableHlo.after sg15 W (Proc.devRef .tc main_v417) =
    Cert.KernelIdeal.Gen.preF (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg11)) (Cert.KernelIdeal.Gen.gwTF (W (Proc.devRef .tc main_arg10))) (Cert.KernelIdeal.Gen.rowAt 2592 Cert.KernelIdeal.Gen.slices_S8x8192x2048_S8x1x2048_0_2592_0 (W (Proc.devRef .tc main_v364))) (Cert.KernelIdeal.Gen.rowAt 888 Cert.KernelIdeal.Gen.slices_S8x8192x2048_S8x1x2048_0_888_0 (W (Proc.devRef .tc main_v364))) (Cert.KernelIdeal.Gen.rowAt 304 Cert.KernelIdeal.Gen.slices_S8x8192x2048_S8x1x2048_0_304_0 (W (Proc.devRef .tc main_v364))) := by
  (simp (disch := decide) only [sg15, pc21, pc22, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S15_mean (W : Valuation τ sig (Elt F)) : StableHlo.after sg15 W (Proc.devRef .tc main_v421) = Cert.KernelIdeal.Gen.meanF (StableHlo.after sg15 W (Proc.devRef .tc main_v417)) := by
  (simp (disch := decide) only [sg15, pc21, pc22, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S15_c (W : Valuation τ sig (Elt F)) : StableHlo.after sg15 W (Proc.devRef .tc main_c_43) = constantI S_ 32 0#32 := by
  (simp (disch := decide) only [sg15, pc21, pc22, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S16_var (W : Valuation τ sig (Elt F)) : StableHlo.after sg16 W (Proc.devRef .tc main_v422) = Cert.KernelIdeal.Gen.varF (W (Proc.devRef .tc main_v417)) (W (Proc.devRef .tc main_c_43)) := by
  (simp (disch := decide) only [sg16, pc23, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S17_out (W : Valuation τ sig (Elt F)) : StableHlo.after sg17 W (Proc.devRef .tc main_v435) = Cert.KernelIdeal.Gen.normF (W (Proc.devRef .tc main_v417)) (W (Proc.devRef .tc main_v421)) (W (Proc.devRef .tc main_v422)) (W (Proc.devRef .tc main_arg12)) (W (Proc.devRef .tc main_arg13)) := by
  (simp (disch := decide) only [sg17, pc24, pc25, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S17_h (W : Valuation τ sig (Elt F)) : StableHlo.after sg17 W (Proc.devRef .tc main_v437) = setRowF 2592#32 (W (Proc.devRef .tc main_v364)) (StableHlo.after sg17 W (Proc.devRef .tc main_v435)) := by
  (simp (disch := decide) only [sg17, pc24, pc25, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl

end Cert.ReferenceIdeal.Gen

end
-- ==== Proof.RefStretch7.lean ====
/-
  Step 7 of the reference, part by part: each part is read back, over any contents before it, as the matching
  piece of the specification — the same functions the kernel's host recurrence is read back as.
-/
import proofs.«134958_j16810501996613_1_alg».proof.Proof.RefHost

set_option maxRecDepth 16384

noncomputable section

namespace Cert.ReferenceIdeal.Gen

open Idealize.ShloMosaic Idealize.ShloMosaic.TcCoe Idealize.SL.Sem
open Idealize.ShloMosaic.StableHlo Cert.ReferenceIdeal

variable {F : FTy → Type} [FloatOps F]

set_option maxHeartbeats 40000000 in
theorem S18_pre (W : Valuation τ sig (Elt F)) : StableHlo.after sg18 W (Proc.devRef .tc main_v490) =
    Cert.KernelIdeal.Gen.preF (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg11)) (Cert.KernelIdeal.Gen.gwTF (W (Proc.devRef .tc main_arg10))) (Cert.KernelIdeal.Gen.rowAt 7568 Cert.KernelIdeal.Gen.slices_S8x8192x2048_S8x1x2048_0_7568_0 (W (Proc.devRef .tc main_v437))) (Cert.KernelIdeal.Gen.rowAt 2592 Cert.KernelIdeal.Gen.slices_S8x8192x2048_S8x1x2048_0_2592_0 (W (Proc.devRef .tc main_v437))) (Cert.KernelIdeal.Gen.rowAt 888 Cert.KernelIdeal.Gen.slices_S8x8192x2048_S8x1x2048_0_888_0 (W (Proc.devRef .tc main_v437))) := by
  (simp (disch := decide) only [sg18, pc26, pc27, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S18_mean (W : Valuation τ sig (Elt F)) : StableHlo.after sg18 W (Proc.devRef .tc main_v494) = Cert.KernelIdeal.Gen.meanF (StableHlo.after sg18 W (Proc.devRef .tc main_v490)) := by
  (simp (disch := decide) only [sg18, pc26, pc27, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S18_c (W : Valuation τ sig (Elt F)) : StableHlo.after sg18 W (Proc.devRef .tc main_c_51) = constantI S_ 32 0#32 := by
  (simp (disch := decide) only [sg18, pc26, pc27, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S19_var (W : Valuation τ sig (Elt F)) : StableHlo.after sg19 W (Proc.devRef .tc main_v495) = Cert.KernelIdeal.Gen.varF (W (Proc.devRef .tc main_v490)) (W (Proc.devRef .tc main_c_51)) := by
  (simp (disch := decide) only [sg19, pc28, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S20_out (W : Valuation τ sig (Elt F)) : StableHlo.after sg20 W (Proc.devRef .tc main_v508) = Cert.KernelIdeal.Gen.normF (W (Proc.devRef .tc main_v490)) (W (Proc.devRef .tc main_v494)) (W (Proc.devRef .tc main_v495)) (W (Proc.devRef .tc main_arg12)) (W (Proc.devRef .tc main_arg13)) := by
  (simp (disch := decide) only [sg20, pc29, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl
set_option maxHeartbeats 40000000 in
theorem S20_h (W : Valuation τ sig (Elt F)) : StableHlo.after sg20 W (Proc.devRef .tc main_v510) = setRowF 7568#32 (W (Proc.devRef .tc main_v437)) (StableHlo.after sg20 W (Proc.devRef .tc main_v508)) := by
  (simp (disch := decide) only [sg20, pc29, StableHlo.after_append, StableHlo.after_cons, StableHlo.after_nil,
    StableHlo.nullary_result', StableHlo.unary_result', StableHlo.binary_result', StableHlo.ternary_result', StableHlo.reshape_result', StableHlo.nary_result',
    StableHlo.nullary_result_ne', StableHlo.unary_result_ne', StableHlo.binary_result_ne', StableHlo.ternary_result_ne', StableHlo.reshape_result_ne', StableHlo.nary_result_ne',
    cast_eq, Matrix.cons_val]) <;> rfl

end Cert.ReferenceIdeal.Gen

end
-- ==== Proof.RefRecur.lean ====
/-
  The reference read back: each step's new row is one step of the recurrence applied to three rows of the array as
  it then stands, and the array after the step is the array before it with that row written in.
-/
import proofs.«134958_j16810501996613_1_alg».proof.Proof.RefStretch1
import proofs.«134958_j16810501996613_1_alg».proof.Proof.RefStretch2
import proofs.«134958_j16810501996613_1_alg».proof.Proof.RefStretch3
import proofs.«134958_j16810501996613_1_alg».proof.Proof.RefStretch4
import proofs.«134958_j16810501996613_1_alg».proof.Proof.RefStretch5
import proofs.«134958_j16810501996613_1_alg».proof.Proof.RefStretch6
import proofs.«134958_j16810501996613_1_alg».proof.Proof.RefStretch7

set_option maxRecDepth 16384

noncomputable section

namespace Cert.ReferenceIdeal.Gen

open Idealize.ShloMosaic Idealize.ShloMosaic.TcCoe Idealize.SL.Sem
open Idealize.ShloMosaic.StableHlo Cert.ReferenceIdeal

variable {F : FTy → Type} [FloatOps F]

variable (m : (ℓ : Loc nD τ sig) → Buf (Elt F) ℓ)

theorem E_pre1 (c : Dev nD) : Rv m c main_v52 = Cert.KernelIdeal.Gen.preF (Rv m c main_arg1) (Rv m c main_arg2) (Rv m c main_arg3) (Rv m c main_arg4) (Rv m c main_arg5) (Rv m c main_arg6) (Rv m c main_arg7) (Rv m c main_arg8) (Rv m c main_arg9) (Rv m c main_arg11) (Cert.KernelIdeal.Gen.gwTF (Rv m c main_arg10)) (Cert.KernelIdeal.Gen.rowAt 12 Cert.KernelIdeal.Gen.slices_S8x8192x2048_S8x1x2048_0_12_0 (Rv m c main_arg0)) (Cert.KernelIdeal.Gen.rowAt 4 Cert.KernelIdeal.Gen.slices_S8x8192x2048_S8x1x2048_0_4_0 (Rv m c main_arg0)) (Cert.KernelIdeal.Gen.rowAt 2 Cert.KernelIdeal.Gen.slices_S8x8192x2048_S8x1x2048_0_2_0 (Rv m c main_arg0)) := by
  rw [R_at0 m c main_v52 (by decide), R_atL m c main_arg1 (by decide), R_atL m c main_arg2 (by decide), R_atL m c main_arg3 (by decide), R_atL m c main_arg4 (by decide), R_atL m c main_arg5 (by decide), R_atL m c main_arg6 (by decide), R_atL m c main_arg7 (by decide), R_atL m c main_arg8 (by decide), R_atL m c main_arg9 (by decide), R_atL m c main_arg11 (by decide), R_atL m c main_arg10 (by decide), R_atL m c main_arg0 (by decide)]
  exact S0_pre (Wl m c)
theorem E_mean1 (c : Dev nD) : Rv m c main_v56 = Cert.KernelIdeal.Gen.meanF (Rv m c main_v52) := by
  rw [R_at0 m c main_v56 (by decide), R_at0 m c main_v52 (by decide)]
  exact S0_mean (Wl m c)
theorem E_c1 (c : Dev nD) : Rv m c main_c = constantI S_ 32 0#32 := by
  rw [R_at0 m c main_c (by decide)]
  exact S0_c (Wl m c)
theorem E_var1 (c : Dev nD) : Rv m c main_v57 = Cert.KernelIdeal.Gen.varF (Rv m c main_v52) (Rv m c main_c) := by
  rw [R_at1 m c main_v57 (by decide), R_at0 m c main_v52 (by decide), R_at0 m c main_c (by decide)]
  exact S1_var (W0 m c)
theorem E_out1 (c : Dev nD) : Rv m c main_v70 = Cert.KernelIdeal.Gen.normF (Rv m c main_v52) (Rv m c main_v56) (Rv m c main_v57) (Rv m c main_arg12) (Rv m c main_arg13) := by
  rw [R_at2 m c main_v70 (by decide), R_at1 m c main_v52 (by decide), R_at1 m c main_v56 (by decide), R_at1 m c main_v57 (by decide), R_at1 m c main_arg12 (by decide), R_at1 m c main_arg13 (by decide)]
  exact S2_out (W1 m c)
theorem E_h1 (c : Dev nD) : Rv m c main_v72 = setRowF 12#32 (Rv m c main_arg0) (Rv m c main_v70) := by
  rw [R_at2 m c main_v72 (by decide), R_at1 m c main_arg0 (by decide), R_at2 m c main_v70 (by decide)]
  exact S2_h (W1 m c)
/-- The new row of step 1. -/
theorem step1 (c : Dev nD) : Rv m c main_v70 =
    Cert.KernelIdeal.Gen.stepF (Rv m c main_arg1) (Rv m c main_arg2) (Rv m c main_arg3) (Rv m c main_arg4) (Rv m c main_arg5) (Rv m c main_arg6) (Rv m c main_arg7) (Rv m c main_arg8) (Rv m c main_arg9) (Rv m c main_arg11) (Rv m c main_arg12) (Rv m c main_arg13) (Cert.KernelIdeal.Gen.gwTF (Rv m c main_arg10)) (Cert.KernelIdeal.Gen.rowAt 12 Cert.KernelIdeal.Gen.slices_S8x8192x2048_S8x1x2048_0_12_0 (Rv m c main_arg0)) (Cert.KernelIdeal.Gen.rowAt 4 Cert.KernelIdeal.Gen.slices_S8x8192x2048_S8x1x2048_0_4_0 (Rv m c main_arg0)) (Cert.KernelIdeal.Gen.rowAt 2 Cert.KernelIdeal.Gen.slices_S8x8192x2048_S8x1x2048_0_2_0 (Rv m c main_arg0)) := by
  rw [E_out1, E_mean1, E_var1, E_c1, E_pre1]
  rfl
theorem E_pre2 (c : Dev nD) : Rv m c main_v125 = Cert.KernelIdeal.Gen.preF (Rv m c main_arg1) (Rv m c main_arg2) (Rv m c main_arg3) (Rv m c main_arg4) (Rv m c main_arg5) (Rv m c main_arg6) (Rv m c main_arg7) (Rv m c main_arg8) (Rv m c main_arg9) (Rv m c main_arg11) (Cert.KernelIdeal.Gen.gwTF (Rv m c main_arg10)) (Cert.KernelIdeal.Gen.rowAt 36 Cert.KernelIdeal.Gen.slices_S8x8192x2048_S8x1x2048_0_36_0 (Rv m c main_v72)) (Cert.KernelIdeal.Gen.rowAt 12 Cert.KernelIdeal.Gen.slices_S8x8192x2048_S8x1x2048_0_12_0 (Rv m c main_v72)) (Cert.KernelIdeal.Gen.rowAt 4 Cert.KernelIdeal.Gen.slices_S8x8192x2048_S8x1x2048_0_4_0 (Rv m c main_v72)) := by
  rw [R_at3 m c main_v125 (by decide), R_at2 m c main_arg1 (by decide), R_at2 m c main_arg2 (by decide), R_at2 m c main_arg3 (by decide), R_at2 m c main_arg4 (by decide), R_at2 m c main_arg5 (by decide), R_at2 m c main_arg6 (by decide), R_at2 m c main_arg7 (by decide), R_at2 m c main_arg8 (by decide), R_at2 m c main_arg9 (by decide), R_at2 m c main_arg11 (by decide), R_at2 m c main_arg10 (by decide), R_at2 m c main_v72 (by decide)]
  exact S3_pre (W2 m c)
theorem E_mean2 (c : Dev nD) : Rv m c main_v129 = Cert.KernelIdeal.Gen.meanF (Rv m c main_v125) := by
  rw [R_at3 m c main_v129 (by decide), R_at3 m c main_v125 (by decide)]
  exact S3_mean (W2 m c)
theorem E_c2 (c : Dev nD) : Rv m c main_c_11 = constantI S_ 32 0#32 := by
  rw [R_at3 m c main_c_11 (by decide)]
  exact S3_c (W2 m c)
theorem E_var2 (c : Dev nD) : Rv m c main_v130 = Cert.KernelIdeal.Gen.varF (Rv m c main_v125) (Rv m c main_c_11) := by
  rw [R_at4 m c main_v130 (by decide), R_at3 m c main_v125 (by decide), R_at3 m c main_c_11 (by decide)]
  exact S4_var (W3 m c)
theorem E_out2 (c : Dev nD) : Rv m c main_v143 = Cert.KernelIdeal.Gen.normF (Rv m c main_v125) (Rv m c main_v129) (Rv m c main_v130) (Rv m c main_arg12) (Rv m c main_arg13) := by
  rw [R_at5 m c main_v143 (by decide), R_at4 m c main_v125 (by decide), R_at4 m c main_v129 (by decide), R_at4 m c main_v130 (by decide), R_at4 m c main_arg12 (by decide), R_at4 m c main_arg13 (by decide)]
  exact S5_out (W4 m c)
theorem E_h2 (c : Dev nD) : Rv m c main_v145 = setRowF 36#32 (Rv m c main_v72) (Rv m c main_v143) := by
  rw [R_at5 m c main_v145 (by decide), R_at4 m c main_v72 (by decide), R_at5 m c main_v143 (by decide)]
  exact S5_h (W4 m c)
/-- The new row of step 2. -/
theorem step2 (c : Dev nD) : Rv m c main_v143 =
    Cert.KernelIdeal.Gen.stepF (Rv m c main_arg1) (Rv m c main_arg2) (Rv m c main_arg3) (Rv m c main_arg4) (Rv m c main_arg5) (Rv m c main_arg6) (Rv m c main_arg7) (Rv m c main_arg8) (Rv m c main_arg9) (Rv m c main_arg11) (Rv m c main_arg12) (Rv m c main_arg13) (Cert.KernelIdeal.Gen.gwTF (Rv m c main_arg10)) (Cert.KernelIdeal.Gen.rowAt 36 Cert.KernelIdeal.Gen.slices_S8x8192x2048_S8x1x2048_0_36_0 (Rv m c main_v72)) (Cert.KernelIdeal.Gen.rowAt 12 Cert.KernelIdeal.Gen.slices_S8x8192x2048_S8x1x2048_0_12_0 (Rv m c main_v72)) (Cert.KernelIdeal.Gen.rowAt 4 Cert.KernelIdeal.Gen.slices_S8x8192x2048_S8x1x2048_0_4_0 (Rv m c main_v72)) := by
  rw [E_out2, E_mean2, E_var2, E_c2, E_pre2]
  rfl
theorem E_pre3 (c : Dev nD) : Rv m c main_v198 = Cert.KernelIdeal.Gen.preF (Rv m c main_arg1) (Rv m c main_arg2) (Rv m c main_arg3) (Rv m c main_arg4) (Rv m c main_arg5) (Rv m c main_arg6) (Rv m c main_arg7) (Rv m c main_arg8) (Rv m c main_arg9) (Rv m c main_arg11) (Cert.KernelIdeal.Gen.gwTF (Rv m c main_arg10)) (Cert.KernelIdeal.Gen.rowAt 104 Cert.KernelIdeal.Gen.slices_S8x8192x2048_S8x1x2048_0_104_0 (Rv m c main_v145)) (Cert.KernelIdeal.Gen.rowAt 36 Cert.KernelIdeal.Gen.slices_S8x8192x2048_S8x1x2048_0_36_0 (Rv m c main_v145)) (Cert.KernelIdeal.Gen.rowAt 12 Cert.KernelIdeal.Gen.slices_S8x8192x2048_S8x1x2048_0_12_0 (Rv m c main_v145)) := by
  rw [R_at6 m c main_v198 (by decide), R_at5 m c main_arg1 (by decide), R_at5 m c main_arg2 (by decide), R_at5 m c main_arg3 (by decide), R_at5 m c main_arg4 (by decide), R_at5 m c main_arg5 (by decide), R_at5 m c main_arg6 (by decide), R_at5 m c main_arg7 (by decide), R_at5 m c main_arg8 (by decide), R_at5 m c main_arg9 (by decide), R_at5 m c main_arg11 (by decide), R_at5 m c main_arg10 (by decide), R_at5 m c main_v145 (by decide)]
  exact S6_pre (W5 m c)
theorem E_mean3 (c : Dev nD) : Rv m c main_v202 = Cert.KernelIdeal.Gen.meanF (Rv m c main_v198) := by
  rw [R_at6 m c main_v202 (by decide), R_at6 m c main_v198 (by decide)]
  exact S6_mean (W5 m c)
theorem E_c3 (c : Dev nD) : Rv m c main_c_19 = constantI S_ 32 0#32 := by
  rw [R_at6 m c main_c_19 (by decide)]
  exact S6_c (W5 m c)
theorem E_var3 (c : Dev nD) : Rv m c main_v203 = Cert.KernelIdeal.Gen.varF (Rv m c main_v198) (Rv m c main_c_19) := by
  rw [R_at7 m c main_v203 (by decide), R_at6 m c main_v198 (by decide), R_at6 m c main_c_19 (by decide)]
  exact S7_var (W6 m c)
theorem E_out3 (c : Dev nD) : Rv m c main_v216 = Cert.KernelIdeal.Gen.normF (Rv m c main_v198) (Rv m c main_v202) (Rv m c main_v203) (Rv m c main_arg12) (Rv m c main_arg13) := by
  rw [R_at8 m c main_v216 (by decide), R_at7 m c main_v198 (by decide), R_at7 m c main_v202 (by decide), R_at7 m c main_v203 (by decide), R_at7 m c main_arg12 (by decide), R_at7 m c main_arg13 (by decide)]
  exact S8_out (W7 m c)
theorem E_h3 (c : Dev nD) : Rv m c main_v218 = setRowF 104#32 (Rv m c main_v145) (Rv m c main_v216) := by
  rw [R_at8 m c main_v218 (by decide), R_at7 m c main_v145 (by decide), R_at8 m c main_v216 (by decide)]
  exact S8_h (W7 m c)
/-- The new row of step 3. -/
theorem step3 (c : Dev nD) : Rv m c main_v216 =
    Cert.KernelIdeal.Gen.stepF (Rv m c main_arg1) (Rv m c main_arg2) (Rv m c main_arg3) (Rv m c main_arg4) (Rv m c main_arg5) (Rv m c main_arg6) (Rv m c main_arg7) (Rv m c main_arg8) (Rv m c main_arg9) (Rv m c main_arg11) (Rv m c main_arg12) (Rv m c main_arg13) (Cert.KernelIdeal.Gen.gwTF (Rv m c main_arg10)) (Cert.KernelIdeal.Gen.rowAt 104 Cert.KernelIdeal.Gen.slices_S8x8192x2048_S8x1x2048_0_104_0 (Rv m c main_v145)) (Cert.KernelIdeal.Gen.rowAt 36 Cert.KernelIdeal.Gen.slices_S8x8192x2048_S8x1x2048_0_36_0 (Rv m c main_v145)) (Cert.KernelIdeal.Gen.rowAt 12 Cert.KernelIdeal.Gen.slices_S8x8192x2048_S8x1x2048_0_12_0 (Rv m c main_v145)) := by
  rw [E_out3, E_mean3, E_var3, E_c3, E_pre3]
  rfl
theorem E_pre4 (c : Dev nD) : Rv m c main_v271 = Cert.KernelIdeal.Gen.preF (Rv m c main_arg1) (Rv m c main_arg2) (Rv m c main_arg3) (Rv m c main_arg4) (Rv m c main_arg5) (Rv m c main_arg6) (Rv m c main_arg7) (Rv m c main_arg8) (Rv m c main_arg9) (Rv m c main_arg11) (Cert.KernelIdeal.Gen.gwTF (Rv m c main_arg10)) (Cert.KernelIdeal.Gen.rowAt 304 Cert.KernelIdeal.Gen.slices_S8x8192x2048_S8x1x2048_0_304_0 (Rv m c main_v218)) (Cert.KernelIdeal.Gen.rowAt 104 Cert.KernelIdeal.Gen.slices_S8x8192x2048_S8x1x2048_0_104_0 (Rv m c main_v218)) (Cert.KernelIdeal.Gen.rowAt 36 Cert.KernelIdeal.Gen.slices_S8x8192x2048_S8x1x2048_0_36_0 (Rv m c main_v218)) := by
  rw [R_at9 m c main_v271 (by decide), R_at8 m c main_arg1 (by decide), R_at8 m c main_arg2 (by decide), R_at8 m c main_arg3 (by decide), R_at8 m c main_arg4 (by decide), R_at8 m c main_arg5 (by decide), R_at8 m c main_arg6 (by decide), R_at8 m c main_arg7 (by decide), R_at8 m c main_arg8 (by decide), R_at8 m c main_arg9 (by decide), R_at8 m c main_arg11 (by decide), R_at8 m c main_arg10 (by decide), R_at8 m c main_v218 (by decide)]
  exact S9_pre (W8 m c)
theorem E_mean4 (c : Dev nD) : Rv m c main_v275 = Cert.KernelIdeal.Gen.meanF (Rv m c main_v271) := by
  rw [R_at9 m c main_v275 (by decide), R_at9 m c main_v271 (by decide)]
  exact S9_mean (W8 m c)
theorem E_c4 (c : Dev nD) : Rv m c main_c_27 = constantI S_ 32 0#32 := by
  rw [R_at9 m c main_c_27 (by decide)]
  exact S9_c (W8 m c)
theorem E_var4 (c : Dev nD) : Rv m c main_v276 = Cert.KernelIdeal.Gen.varF (Rv m c main_v271) (Rv m c main_c_27) := by
  rw [R_at10 m c main_v276 (by decide), R_at9 m c main_v271 (by decide), R_at9 m c main_c_27 (by decide)]
  exact S10_var (W9 m c)
theorem E_out4 (c : Dev nD) : Rv m c main_v289 = Cert.KernelIdeal.Gen.normF (Rv m c main_v271) (Rv m c main_v275) (Rv m c main_v276) (Rv m c main_arg12) (Rv m c main_arg13) := by
  rw [R_at11 m c main_v289 (by decide), R_at10 m c main_v271 (by decide), R_at10 m c main_v275 (by decide), R_at10 m c main_v276 (by decide), R_at10 m c main_arg12 (by decide), R_at10 m c main_arg13 (by decide)]
  exact S11_out (W10 m c)
theorem E_h4 (c : Dev nD) : Rv m c main_v291 = setRowF 304#32 (Rv m c main_v218) (Rv m c main_v289) := by
  rw [R_at11 m c main_v291 (by decide), R_at10 m c main_v218 (by decide), R_at11 m c main_v289 (by decide)]
  exact S11_h (W10 m c)
/-- The new row of step 4. -/
theorem step4 (c : Dev nD) : Rv m c main_v289 =
    Cert.KernelIdeal.Gen.stepF (Rv m c main_arg1) (Rv m c main_arg2) (Rv m c main_arg3) (Rv m c main_arg4) (Rv m c main_arg5) (Rv m c main_arg6) (Rv m c main_arg7) (Rv m c main_arg8) (Rv m c main_arg9) (Rv m c main_arg11) (Rv m c main_arg12) (Rv m c main_arg13) (Cert.KernelIdeal.Gen.gwTF (Rv m c main_arg10)) (Cert.KernelIdeal.Gen.rowAt 304 Cert.KernelIdeal.Gen.slices_S8x8192x2048_S8x1x2048_0_304_0 (Rv m c main_v218)) (Cert.KernelIdeal.Gen.rowAt 104 Cert.KernelIdeal.Gen.slices_S8x8192x2048_S8x1x2048_0_104_0 (Rv m c main_v218)) (Cert.KernelIdeal.Gen.rowAt 36 Cert.KernelIdeal.Gen.slices_S8x8192x2048_S8x1x2048_0_36_0 (Rv m c main_v218)) := by
  rw [E_out4, E_mean4, E_var4, E_c4, E_pre4]
  rfl
theorem E_pre5 (c : Dev nD) : Rv m c main_v344 = Cert.KernelIdeal.Gen.preF (Rv m c main_arg1) (Rv m c main_arg2) (Rv m c main_arg3) (Rv m c main_arg4) (Rv m c main_arg5) (Rv m c main_arg6) (Rv m c main_arg7) (Rv m c main_arg8) (Rv m c main_arg9) (Rv m c main_arg11) (Cert.KernelIdeal.Gen.gwTF (Rv m c main_arg10)) (Cert.KernelIdeal.Gen.rowAt 888 Cert.KernelIdeal.Gen.slices_S8x8192x2048_S8x1x2048_0_888_0 (Rv m c main_v291)) (Cert.KernelIdeal.Gen.rowAt 304 Cert.KernelIdeal.Gen.slices_S8x8192x2048_S8x1x2048_0_304_0 (Rv m c main_v291)) (Cert.KernelIdeal.Gen.rowAt 104 Cert.KernelIdeal.Gen.slices_S8x8192x2048_S8x1x2048_0_104_0 (Rv m c main_v291)) := by
  rw [R_at12 m c main_v344 (by decide), R_at11 m c main_arg1 (by decide), R_at11 m c main_arg2 (by decide), R_at11 m c main_arg3 (by decide), R_at11 m c main_arg4 (by decide), R_at11 m c main_arg5 (by decide), R_at11 m c main_arg6 (by decide), R_at11 m c main_arg7 (by decide), R_at11 m c main_arg8 (by decide), R_at11 m c main_arg9 (by decide), R_at11 m c main_arg11 (by decide), R_at11 m c main_arg10 (by decide), R_at11 m c main_v291 (by decide)]
  exact S12_pre (W11 m c)
theorem E_mean5 (c : Dev nD) : Rv m c main_v348 = Cert.KernelIdeal.Gen.meanF (Rv m c main_v344) := by
  rw [R_at12 m c main_v348 (by decide), R_at12 m c main_v344 (by decide)]
  exact S12_mean (W11 m c)
theorem E_c5 (c : Dev nD) : Rv m c main_c_35 = constantI S_ 32 0#32 := by
  rw [R_at12 m c main_c_35 (by decide)]
  exact S12_c (W11 m c)
theorem E_var5 (c : Dev nD) : Rv m c main_v349 = Cert.KernelIdeal.Gen.varF (Rv m c main_v344) (Rv m c main_c_35) := by
  rw [R_at13 m c main_v349 (by decide), R_at12 m c main_v344 (by decide), R_at12 m c main_c_35 (by decide)]
  exact S13_var (W12 m c)
theorem E_out5 (c : Dev nD) : Rv m c main_v362 = Cert.KernelIdeal.Gen.normF (Rv m c main_v344) (Rv m c main_v348) (Rv m c main_v349) (Rv m c main_arg12) (Rv m c main_arg13) := by
  rw [R_at14 m c main_v362 (by decide), R_at13 m c main_v344 (by decide), R_at13 m c main_v348 (by decide), R_at13 m c main_v349 (by decide), R_at13 m c main_arg12 (by decide), R_at13 m c main_arg13 (by decide)]
  exact S14_out (W13 m c)
theorem E_h5 (c : Dev nD) : Rv m c main_v364 = setRowF 888#32 (Rv m c main_v291) (Rv m c main_v362) := by
  rw [R_at14 m c main_v364 (by decide), R_at13 m c main_v291 (by decide), R_at14 m c main_v362 (by decide)]
  exact S14_h (W13 m c)
/-- The new row of step 5. -/
theorem step5 (c : Dev nD) : Rv m c main_v362 =
    Cert.KernelIdeal.Gen.stepF (Rv m c main_arg1) (Rv m c main_arg2) (Rv m c main_arg3) (Rv m c main_arg4) (Rv m c main_arg5) (Rv m c main_arg6) (Rv m c main_arg7) (Rv m c main_arg8) (Rv m c main_arg9) (Rv m c main_arg11) (Rv m c main_arg12) (Rv m c main_arg13) (Cert.KernelIdeal.Gen.gwTF (Rv m c main_arg10)) (Cert.KernelIdeal.Gen.rowAt 888 Cert.KernelIdeal.Gen.slices_S8x8192x2048_S8x1x2048_0_888_0 (Rv m c main_v291)) (Cert.KernelIdeal.Gen.rowAt 304 Cert.KernelIdeal.Gen.slices_S8x8192x2048_S8x1x2048_0_304_0 (Rv m c main_v291)) (Cert.KernelIdeal.Gen.rowAt 104 Cert.KernelIdeal.Gen.slices_S8x8192x2048_S8x1x2048_0_104_0 (Rv m c main_v291)) := by
  rw [E_out5, E_mean5, E_var5, E_c5, E_pre5]
  rfl
theorem E_pre6 (c : Dev nD) : Rv m c main_v417 = Cert.KernelIdeal.Gen.preF (Rv m c main_arg1) (Rv m c main_arg2) (Rv m c main_arg3) (Rv m c main_arg4) (Rv m c main_arg5) (Rv m c main_arg6) (Rv m c main_arg7) (Rv m c main_arg8) (Rv m c main_arg9) (Rv m c main_arg11) (Cert.KernelIdeal.Gen.gwTF (Rv m c main_arg10)) (Cert.KernelIdeal.Gen.rowAt 2592 Cert.KernelIdeal.Gen.slices_S8x8192x2048_S8x1x2048_0_2592_0 (Rv m c main_v364)) (Cert.KernelIdeal.Gen.rowAt 888 Cert.KernelIdeal.Gen.slices_S8x8192x2048_S8x1x2048_0_888_0 (Rv m c main_v364)) (Cert.KernelIdeal.Gen.rowAt 304 Cert.KernelIdeal.Gen.slices_S8x8192x2048_S8x1x2048_0_304_0 (Rv m c main_v364)) := by
  rw [R_at15 m c main_v417 (by decide), R_at14 m c main_arg1 (by decide), R_at14 m c main_arg2 (by decide), R_at14 m c main_arg3 (by decide), R_at14 m c main_arg4 (by decide), R_at14 m c main_arg5 (by decide), R_at14 m c main_arg6 (by decide), R_at14 m c main_arg7 (by decide), R_at14 m c main_arg8 (by decide), R_at14 m c main_arg9 (by decide), R_at14 m c main_arg11 (by decide), R_at14 m c main_arg10 (by decide), R_at14 m c main_v364 (by decide)]
  exact S15_pre (W14 m c)
theorem E_mean6 (c : Dev nD) : Rv m c main_v421 = Cert.KernelIdeal.Gen.meanF (Rv m c main_v417) := by
  rw [R_at15 m c main_v421 (by decide), R_at15 m c main_v417 (by decide)]
  exact S15_mean (W14 m c)
theorem E_c6 (c : Dev nD) : Rv m c main_c_43 = constantI S_ 32 0#32 := by
  rw [R_at15 m c main_c_43 (by decide)]
  exact S15_c (W14 m c)
theorem E_var6 (c : Dev nD) : Rv m c main_v422 = Cert.KernelIdeal.Gen.varF (Rv m c main_v417) (Rv m c main_c_43) := by
  rw [R_at16 m c main_v422 (by decide), R_at15 m c main_v417 (by decide), R_at15 m c main_c_43 (by decide)]
  exact S16_var (W15 m c)
theorem E_out6 (c : Dev nD) : Rv m c main_v435 = Cert.KernelIdeal.Gen.normF (Rv m c main_v417) (Rv m c main_v421) (Rv m c main_v422) (Rv m c main_arg12) (Rv m c main_arg13) := by
  rw [R_at17 m c main_v435 (by decide), R_at16 m c main_v417 (by decide), R_at16 m c main_v421 (by decide), R_at16 m c main_v422 (by decide), R_at16 m c main_arg12 (by decide), R_at16 m c main_arg13 (by decide)]
  exact S17_out (W16 m c)
theorem E_h6 (c : Dev nD) : Rv m c main_v437 = setRowF 2592#32 (Rv m c main_v364) (Rv m c main_v435) := by
  rw [R_at17 m c main_v437 (by decide), R_at16 m c main_v364 (by decide), R_at17 m c main_v435 (by decide)]
  exact S17_h (W16 m c)
/-- The new row of step 6. -/
theorem step6 (c : Dev nD) : Rv m c main_v435 =
    Cert.KernelIdeal.Gen.stepF (Rv m c main_arg1) (Rv m c main_arg2) (Rv m c main_arg3) (Rv m c main_arg4) (Rv m c main_arg5) (Rv m c main_arg6) (Rv m c main_arg7) (Rv m c main_arg8) (Rv m c main_arg9) (Rv m c main_arg11) (Rv m c main_arg12) (Rv m c main_arg13) (Cert.KernelIdeal.Gen.gwTF (Rv m c main_arg10)) (Cert.KernelIdeal.Gen.rowAt 2592 Cert.KernelIdeal.Gen.slices_S8x8192x2048_S8x1x2048_0_2592_0 (Rv m c main_v364)) (Cert.KernelIdeal.Gen.rowAt 888 Cert.KernelIdeal.Gen.slices_S8x8192x2048_S8x1x2048_0_888_0 (Rv m c main_v364)) (Cert.KernelIdeal.Gen.rowAt 304 Cert.KernelIdeal.Gen.slices_S8x8192x2048_S8x1x2048_0_304_0 (Rv m c main_v364)) := by
  rw [E_out6, E_mean6, E_var6, E_c6, E_pre6]
  rfl
theorem E_pre7 (c : Dev nD) : Rv m c main_v490 = Cert.KernelIdeal.Gen.preF (Rv m c main_arg1) (Rv m c main_arg2) (Rv m c main_arg3) (Rv m c main_arg4) (Rv m c main_arg5) (Rv m c main_arg6) (Rv m c main_arg7) (Rv m c main_arg8) (Rv m c main_arg9) (Rv m c main_arg11) (Cert.KernelIdeal.Gen.gwTF (Rv m c main_arg10)) (Cert.KernelIdeal.Gen.rowAt 7568 Cert.KernelIdeal.Gen.slices_S8x8192x2048_S8x1x2048_0_7568_0 (Rv m c main_v437)) (Cert.KernelIdeal.Gen.rowAt 2592 Cert.KernelIdeal.Gen.slices_S8x8192x2048_S8x1x2048_0_2592_0 (Rv m c main_v437)) (Cert.KernelIdeal.Gen.rowAt 888 Cert.KernelIdeal.Gen.slices_S8x8192x2048_S8x1x2048_0_888_0 (Rv m c main_v437)) := by
  rw [R_at18 m c main_v490 (by decide), R_at17 m c main_arg1 (by decide), R_at17 m c main_arg2 (by decide), R_at17 m c main_arg3 (by decide), R_at17 m c main_arg4 (by decide), R_at17 m c main_arg5 (by decide), R_at17 m c main_arg6 (by decide), R_at17 m c main_arg7 (by decide), R_at17 m c main_arg8 (by decide), R_at17 m c main_arg9 (by decide), R_at17 m c main_arg11 (by decide), R_at17 m c main_arg10 (by decide), R_at17 m c main_v437 (by decide)]
  exact S18_pre (W17 m c)
theorem E_mean7 (c : Dev nD) : Rv m c main_v494 = Cert.KernelIdeal.Gen.meanF (Rv m c main_v490) := by
  rw [R_at18 m c main_v494 (by decide), R_at18 m c main_v490 (by decide)]
  exact S18_mean (W17 m c)
theorem E_c7 (c : Dev nD) : Rv m c main_c_51 = constantI S_ 32 0#32 := by
  rw [R_at18 m c main_c_51 (by decide)]
  exact S18_c (W17 m c)
theorem E_var7 (c : Dev nD) : Rv m c main_v495 = Cert.KernelIdeal.Gen.varF (Rv m c main_v490) (Rv m c main_c_51) := by
  rw [R_at19 m c main_v495 (by decide), R_at18 m c main_v490 (by decide), R_at18 m c main_c_51 (by decide)]
  exact S19_var (W18 m c)
theorem E_out7 (c : Dev nD) : Rv m c main_v508 = Cert.KernelIdeal.Gen.normF (Rv m c main_v490) (Rv m c main_v494) (Rv m c main_v495) (Rv m c main_arg12) (Rv m c main_arg13) := by
  rw [R_at20 m c main_v508, R_at19 m c main_v490 (by decide), R_at19 m c main_v494 (by decide), R_at19 m c main_v495 (by decide), R_at19 m c main_arg12 (by decide), R_at19 m c main_arg13 (by decide)]
  exact S20_out (W19 m c)
theorem E_h7 (c : Dev nD) : Rv m c main_v510 = setRowF 7568#32 (Rv m c main_v437) (Rv m c main_v508) := by
  rw [R_at20 m c main_v510, R_at19 m c main_v437 (by decide), R_at20 m c main_v508]
  exact S20_h (W19 m c)
/-- The new row of step 7. -/
theorem step7 (c : Dev nD) : Rv m c main_v508 =
    Cert.KernelIdeal.Gen.stepF (Rv m c main_arg1) (Rv m c main_arg2) (Rv m c main_arg3) (Rv m c main_arg4) (Rv m c main_arg5) (Rv m c main_arg6) (Rv m c main_arg7) (Rv m c main_arg8) (Rv m c main_arg9) (Rv m c main_arg11) (Rv m c main_arg12) (Rv m c main_arg13) (Cert.KernelIdeal.Gen.gwTF (Rv m c main_arg10)) (Cert.KernelIdeal.Gen.rowAt 7568 Cert.KernelIdeal.Gen.slices_S8x8192x2048_S8x1x2048_0_7568_0 (Rv m c main_v437)) (Cert.KernelIdeal.Gen.rowAt 2592 Cert.KernelIdeal.Gen.slices_S8x8192x2048_S8x1x2048_0_2592_0 (Rv m c main_v437)) (Cert.KernelIdeal.Gen.rowAt 888 Cert.KernelIdeal.Gen.slices_S8x8192x2048_S8x1x2048_0_888_0 (Rv m c main_v437)) := by
  rw [E_out7, E_mean7, E_var7, E_c7, E_pre7]
  rfl

end Cert.ReferenceIdeal.Gen

end
-- ==== Proof.Bridge.lean ====
/-
  The kernel and the reference compute the same array.

  Both compute seven new rows by the same recurrence: new row k is one step applied to x's row r_k, the new row
  before it and the one before that (for the first two steps, rows 4 and 2 of x stand in).  The kernel computes
  them from x alone, keeping the new rows aside, stacks them into a table, and its launch writes table row k
  over row r_k of a copy of x.  The reference writes each new row into the array at once and cuts its three
  rows out of the array as it then stands: but a row cut out of an array in which OTHER rows were replaced is the
  row as it was, and the row just replaced is the replacement — so it reads the same three rows.  The positions
  0, 2, 4, 12, 36, 104, 304, 888, 2592, 7568 are distinct, which is all the argument uses.
-/
import proofs.«134958_j16810501996613_1_alg».proof.Proof.KIValue
import proofs.«134958_j16810501996613_1_alg».proof.Proof.KIRecur
import proofs.«134958_j16810501996613_1_alg».proof.Proof.RefRecur
import proofs.«134958_j16810501996613_1_alg».proof.Proof.LibScatterSet

set_option maxRecDepth 16384

noncomputable section

namespace Cert.Bridge

open Idealize.ShloMosaic Idealize.ShloMosaic.TcCoe Idealize.SL.Sem Idealize.ShloMosaic.ValueIdx Cert.Lib.ScatterSet

variable {F : FTy → Type} [FloatOps F]

/-! ## The recurrence, once -/

section Rec

variable (a1 a2 a3 a4 a5 a6 a7 a8 a9 gb lw lb : (⟨Cert.KernelIdeal.S2048, .f32⟩ : BufTy).Contents (Elt F)) (gw : (⟨Cert.KernelIdeal.S2048x4096, .f32⟩ : BufTy).Contents (Elt F)) (x : (⟨Cert.KernelIdeal.S8x8192x2048, .f32⟩ : BufTy).Contents (Elt F))

def o1 : (⟨Cert.KernelIdeal.S8x2048, .f32⟩ : BufTy).Contents (Elt F) := Cert.KernelIdeal.Gen.stepF a1 a2 a3 a4 a5 a6 a7 a8 a9 gb lw lb (Cert.KernelIdeal.Gen.gwTF gw) (Cert.KernelIdeal.Gen.rowAt 12 Cert.KernelIdeal.Gen.slices_S8x8192x2048_S8x1x2048_0_12_0 x) (Cert.KernelIdeal.Gen.rowAt 4 Cert.KernelIdeal.Gen.slices_S8x8192x2048_S8x1x2048_0_4_0 x) (Cert.KernelIdeal.Gen.rowAt 2 Cert.KernelIdeal.Gen.slices_S8x8192x2048_S8x1x2048_0_2_0 x)
def o2 : (⟨Cert.KernelIdeal.S8x2048, .f32⟩ : BufTy).Contents (Elt F) := Cert.KernelIdeal.Gen.stepF a1 a2 a3 a4 a5 a6 a7 a8 a9 gb lw lb (Cert.KernelIdeal.Gen.gwTF gw) (Cert.KernelIdeal.Gen.rowAt 36 Cert.KernelIdeal.Gen.slices_S8x8192x2048_S8x1x2048_0_36_0 x) (o1 a1 a2 a3 a4 a5 a6 a7 a8 a9 gb lw lb gw x) (Cert.KernelIdeal.Gen.rowAt 4 Cert.KernelIdeal.Gen.slices_S8x8192x2048_S8x1x2048_0_4_0 x)
def o3 : (⟨Cert.KernelIdeal.S8x2048, .f32⟩ : BufTy).Contents (Elt F) := Cert.KernelIdeal.Gen.stepF a1 a2 a3 a4 a5 a6 a7 a8 a9 gb lw lb (Cert.KernelIdeal.Gen.gwTF gw) (Cert.KernelIdeal.Gen.rowAt 104 Cert.KernelIdeal.Gen.slices_S8x8192x2048_S8x1x2048_0_104_0 x) (o2 a1 a2 a3 a4 a5 a6 a7 a8 a9 gb lw lb gw x) (o1 a1 a2 a3 a4 a5 a6 a7 a8 a9 gb lw lb gw x)
def o4 : (⟨Cert.KernelIdeal.S8x2048, .f32⟩ : BufTy).Contents (Elt F) := Cert.KernelIdeal.Gen.stepF a1 a2 a3 a4 a5 a6 a7 a8 a9 gb lw lb (Cert.KernelIdeal.Gen.gwTF gw) (Cert.KernelIdeal.Gen.rowAt 304 Cert.KernelIdeal.Gen.slices_S8x8192x2048_S8x1x2048_0_304_0 x) (o3 a1 a2 a3 a4 a5 a6 a7 a8 a9 gb lw lb gw x) (o2 a1 a2 a3 a4 a5 a6 a7 a8 a9 gb lw lb gw x)
def o5 : (⟨Cert.KernelIdeal.S8x2048, .f32⟩ : BufTy).Contents (Elt F) := Cert.KernelIdeal.Gen.stepF a1 a2 a3 a4 a5 a6 a7 a8 a9 gb lw lb (Cert.KernelIdeal.Gen.gwTF gw) (Cert.KernelIdeal.Gen.rowAt 888 Cert.KernelIdeal.Gen.slices_S8x8192x2048_S8x1x2048_0_888_0 x) (o4 a1 a2 a3 a4 a5 a6 a7 a8 a9 gb lw lb gw x) (o3 a1 a2 a3 a4 a5 a6 a7 a8 a9 gb lw lb gw x)
def o6 : (⟨Cert.KernelIdeal.S8x2048, .f32⟩ : BufTy).Contents (Elt F) := Cert.KernelIdeal.Gen.stepF a1 a2 a3 a4 a5 a6 a7 a8 a9 gb lw lb (Cert.KernelIdeal.Gen.gwTF gw) (Cert.KernelIdeal.Gen.rowAt 2592 Cert.KernelIdeal.Gen.slices_S8x8192x2048_S8x1x2048_0_2592_0 x) (o5 a1 a2 a3 a4 a5 a6 a7 a8 a9 gb lw lb gw x) (o4 a1 a2 a3 a4 a5 a6 a7 a8 a9 gb lw lb gw x)
def o7 : (⟨Cert.KernelIdeal.S8x2048, .f32⟩ : BufTy).Contents (Elt F) := Cert.KernelIdeal.Gen.stepF a1 a2 a3 a4 a5 a6 a7 a8 a9 gb lw lb (Cert.KernelIdeal.Gen.gwTF gw) (Cert.KernelIdeal.Gen.rowAt 7568 Cert.KernelIdeal.Gen.slices_S8x8192x2048_S8x1x2048_0_7568_0 x) (o6 a1 a2 a3 a4 a5 a6 a7 a8 a9 gb lw lb gw x) (o5 a1 a2 a3 a4 a5 a6 a7 a8 a9 gb lw lb gw x)

/-- x with the seven new rows written in. -/
def result : (⟨Cert.KernelIdeal.S8x8192x2048, .f32⟩ : BufTy).Contents (Elt F) :=
  setRow (B := 8) (N := 8192) (C := 2048) 7568 (o7 a1 a2 a3 a4 a5 a6 a7 a8 a9 gb lw lb gw x) (setRow (B := 8) (N := 8192) (C := 2048) 2592 (o6 a1 a2 a3 a4 a5 a6 a7 a8 a9 gb lw lb gw x) (setRow (B := 8) (N := 8192) (C := 2048) 888 (o5 a1 a2 a3 a4 a5 a6 a7 a8 a9 gb lw lb gw x) (setRow (B := 8) (N := 8192) (C := 2048) 304 (o4 a1 a2 a3 a4 a5 a6 a7 a8 a9 gb lw lb gw x) (setRow (B := 8) (N := 8192) (C := 2048) 104 (o3 a1 a2 a3 a4 a5 a6 a7 a8 a9 gb lw lb gw x) (setRow (B := 8) (N := 8192) (C := 2048) 36 (o2 a1 a2 a3 a4 a5 a6 a7 a8 a9 gb lw lb gw x) (setRow (B := 8) (N := 8192) (C := 2048) 12 (o1 a1 a2 a3 a4 a5 a6 a7 a8 a9 gb lw lb gw x) (x)))))))

end Rec

/-! ## Rows of an array in which rows were replaced -/

theorem rowAt_eq (q : Nat) (hs : Cert.KernelIdeal.S8x8192x2048.Slices ![0, q, 0] Cert.KernelIdeal.S8x1x2048) (x : (⟨Cert.KernelIdeal.S8x8192x2048, .f32⟩ : BufTy).Contents (Elt F)) :
    Cert.KernelIdeal.Gen.rowAt q hs x = rowOf (B := 8) (N := 8192) (C := 2048) q hs Cert.KernelIdeal.Gen.shapeCasts_S8x1x2048_S8x2048 x := rfl

theorem rowAt_same (q : Nat) (hq : q < 8192) (hs : Cert.KernelIdeal.S8x8192x2048.Slices ![0, q, 0] Cert.KernelIdeal.S8x1x2048)
    (o : (⟨Cert.KernelIdeal.S8x2048, .f32⟩ : BufTy).Contents (Elt F)) (h : (⟨Cert.KernelIdeal.S8x8192x2048, .f32⟩ : BufTy).Contents (Elt F)) : Cert.KernelIdeal.Gen.rowAt q hs (setRow (B := 8) (N := 8192) (C := 2048) q o h) = o := by
  rw [rowAt_eq]; exact rowOf_setRow_same q hq hs _ o h

theorem rowAt_ne (p q : Nat) (hpq : q ≠ p) (hq : q < 8192) (hs : Cert.KernelIdeal.S8x8192x2048.Slices ![0, q, 0] Cert.KernelIdeal.S8x1x2048)
    (o : (⟨Cert.KernelIdeal.S8x2048, .f32⟩ : BufTy).Contents (Elt F)) (h : (⟨Cert.KernelIdeal.S8x8192x2048, .f32⟩ : BufTy).Contents (Elt F)) : Cert.KernelIdeal.Gen.rowAt q hs (setRow (B := 8) (N := 8192) (C := 2048) p o h) = Cert.KernelIdeal.Gen.rowAt q hs h := by
  rw [rowAt_eq, rowAt_eq]; exact rowOf_setRow_ne p q hpq hq hs _ o h

/-- The reference's array update is "replace row q". -/
theorem setRowF_eq (q : BitVec 32) (p : Nat) (hp : p < 8192) (hq : q.toInt = (p : ℤ)) (h : (⟨Cert.KernelIdeal.S8x8192x2048, .f32⟩ : BufTy).Contents (Elt F)) (o : (⟨Cert.KernelIdeal.S8x2048, .f32⟩ : BufTy).Contents (Elt F)) :
    Cert.ReferenceIdeal.Gen.setRowF q h o = setRow (B := 8) (N := 8192) (C := 2048) p o h :=
  scatter_eq_setRow (B := 8) (N := 8192) (C := 2048) (w := 32) Cert.ReferenceIdeal.Gen.scatter_S8x8192x2048_S1_S8x2048_01_1_1_0_wf h _ o p hp hq

/-! ## The kernel's table is the seven new rows -/

section Kernel

variable (m : (ℓ : Loc Cert.KernelIdeal.nD Cert.KernelIdeal.τ Cert.KernelIdeal.sig) → Buf (Elt F) ℓ) (c : Dev Cert.KernelIdeal.nD)

theorem kout1 : Cert.KernelIdeal.Gen.V m c Cert.KernelIdeal.main_v84 = o1 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg10)) (m ((c.tc : Thread Cert.KernelIdeal.nD Cert.KernelIdeal.τ).loc Cert.KernelIdeal.main_arg0)) := by
  rw [Cert.KernelIdeal.Gen.step1, Cert.KernelIdeal.Gen.E_gwT, Cert.KernelIdeal.Gen.E_row12, Cert.KernelIdeal.Gen.E_row4, Cert.KernelIdeal.Gen.E_row2]
  rw [Cert.KernelIdeal.Gen.V_main_arg1 m c, Cert.KernelIdeal.Gen.V_main_arg2 m c, Cert.KernelIdeal.Gen.V_main_arg3 m c, Cert.KernelIdeal.Gen.V_main_arg4 m c, Cert.KernelIdeal.Gen.V_main_arg5 m c, Cert.KernelIdeal.Gen.V_main_arg6 m c, Cert.KernelIdeal.Gen.V_main_arg7 m c, Cert.KernelIdeal.Gen.V_main_arg8 m c, Cert.KernelIdeal.Gen.V_main_arg9 m c, Cert.KernelIdeal.Gen.V_main_arg10 m c, Cert.KernelIdeal.Gen.V_main_arg11 m c, Cert.KernelIdeal.Gen.V_main_arg12 m c, Cert.KernelIdeal.Gen.V_main_arg13 m c, Cert.KernelIdeal.Gen.V_main_arg0 m c]
  rfl
theorem kout2 : Cert.KernelIdeal.Gen.V m c Cert.KernelIdeal.main_v148 = o2 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg10)) (m ((c.tc : Thread Cert.KernelIdeal.nD Cert.KernelIdeal.τ).loc Cert.KernelIdeal.main_arg0)) := by
  rw [Cert.KernelIdeal.Gen.step2, Cert.KernelIdeal.Gen.E_gwT, Cert.KernelIdeal.Gen.E_row36, Cert.KernelIdeal.Gen.E_row4, kout1]
  rw [Cert.KernelIdeal.Gen.V_main_arg1 m c, Cert.KernelIdeal.Gen.V_main_arg2 m c, Cert.KernelIdeal.Gen.V_main_arg3 m c, Cert.KernelIdeal.Gen.V_main_arg4 m c, Cert.KernelIdeal.Gen.V_main_arg5 m c, Cert.KernelIdeal.Gen.V_main_arg6 m c, Cert.KernelIdeal.Gen.V_main_arg7 m c, Cert.KernelIdeal.Gen.V_main_arg8 m c, Cert.KernelIdeal.Gen.V_main_arg9 m c, Cert.KernelIdeal.Gen.V_main_arg10 m c, Cert.KernelIdeal.Gen.V_main_arg11 m c, Cert.KernelIdeal.Gen.V_main_arg12 m c, Cert.KernelIdeal.Gen.V_main_arg13 m c, Cert.KernelIdeal.Gen.V_main_arg0 m c]
  rfl
theorem kout3 : Cert.KernelIdeal.Gen.V m c Cert.KernelIdeal.main_v212 = o3 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg10)) (m ((c.tc : Thread Cert.KernelIdeal.nD Cert.KernelIdeal.τ).loc Cert.KernelIdeal.main_arg0)) := by
  rw [Cert.KernelIdeal.Gen.step3, Cert.KernelIdeal.Gen.E_gwT, Cert.KernelIdeal.Gen.E_row104, kout2, kout1]
  rw [Cert.KernelIdeal.Gen.V_main_arg1 m c, Cert.KernelIdeal.Gen.V_main_arg2 m c, Cert.KernelIdeal.Gen.V_main_arg3 m c, Cert.KernelIdeal.Gen.V_main_arg4 m c, Cert.KernelIdeal.Gen.V_main_arg5 m c, Cert.KernelIdeal.Gen.V_main_arg6 m c, Cert.KernelIdeal.Gen.V_main_arg7 m c, Cert.KernelIdeal.Gen.V_main_arg8 m c, Cert.KernelIdeal.Gen.V_main_arg9 m c, Cert.KernelIdeal.Gen.V_main_arg10 m c, Cert.KernelIdeal.Gen.V_main_arg11 m c, Cert.KernelIdeal.Gen.V_main_arg12 m c, Cert.KernelIdeal.Gen.V_main_arg13 m c, Cert.KernelIdeal.Gen.V_main_arg0 m c]
  rfl
theorem kout4 : Cert.KernelIdeal.Gen.V m c Cert.KernelIdeal.main_v276 = o4 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg10)) (m ((c.tc : Thread Cert.KernelIdeal.nD Cert.KernelIdeal.τ).loc Cert.KernelIdeal.main_arg0)) := by
  rw [Cert.KernelIdeal.Gen.step4, Cert.KernelIdeal.Gen.E_gwT, Cert.KernelIdeal.Gen.E_row304, kout3, kout2]
  rw [Cert.KernelIdeal.Gen.V_main_arg1 m c, Cert.KernelIdeal.Gen.V_main_arg2 m c, Cert.KernelIdeal.Gen.V_main_arg3 m c, Cert.KernelIdeal.Gen.V_main_arg4 m c, Cert.KernelIdeal.Gen.V_main_arg5 m c, Cert.KernelIdeal.Gen.V_main_arg6 m c, Cert.KernelIdeal.Gen.V_main_arg7 m c, Cert.KernelIdeal.Gen.V_main_arg8 m c, Cert.KernelIdeal.Gen.V_main_arg9 m c, Cert.KernelIdeal.Gen.V_main_arg10 m c, Cert.KernelIdeal.Gen.V_main_arg11 m c, Cert.KernelIdeal.Gen.V_main_arg12 m c, Cert.KernelIdeal.Gen.V_main_arg13 m c, Cert.KernelIdeal.Gen.V_main_arg0 m c]
  rfl
theorem kout5 : Cert.KernelIdeal.Gen.V m c Cert.KernelIdeal.main_v340 = o5 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg10)) (m ((c.tc : Thread Cert.KernelIdeal.nD Cert.KernelIdeal.τ).loc Cert.KernelIdeal.main_arg0)) := by
  rw [Cert.KernelIdeal.Gen.step5, Cert.KernelIdeal.Gen.E_gwT, Cert.KernelIdeal.Gen.E_row888, kout4, kout3]
  rw [Cert.KernelIdeal.Gen.V_main_arg1 m c, Cert.KernelIdeal.Gen.V_main_arg2 m c, Cert.KernelIdeal.Gen.V_main_arg3 m c, Cert.KernelIdeal.Gen.V_main_arg4 m c, Cert.KernelIdeal.Gen.V_main_arg5 m c, Cert.KernelIdeal.Gen.V_main_arg6 m c, Cert.KernelIdeal.Gen.V_main_arg7 m c, Cert.KernelIdeal.Gen.V_main_arg8 m c, Cert.KernelIdeal.Gen.V_main_arg9 m c, Cert.KernelIdeal.Gen.V_main_arg10 m c, Cert.KernelIdeal.Gen.V_main_arg11 m c, Cert.KernelIdeal.Gen.V_main_arg12 m c, Cert.KernelIdeal.Gen.V_main_arg13 m c, Cert.KernelIdeal.Gen.V_main_arg0 m c]
  rfl
theorem kout6 : Cert.KernelIdeal.Gen.V m c Cert.KernelIdeal.main_v404 = o6 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg10)) (m ((c.tc : Thread Cert.KernelIdeal.nD Cert.KernelIdeal.τ).loc Cert.KernelIdeal.main_arg0)) := by
  rw [Cert.KernelIdeal.Gen.step6, Cert.KernelIdeal.Gen.E_gwT, Cert.KernelIdeal.Gen.E_row2592, kout5, kout4]
  rw [Cert.KernelIdeal.Gen.V_main_arg1 m c, Cert.KernelIdeal.Gen.V_main_arg2 m c, Cert.KernelIdeal.Gen.V_main_arg3 m c, Cert.KernelIdeal.Gen.V_main_arg4 m c, Cert.KernelIdeal.Gen.V_main_arg5 m c, Cert.KernelIdeal.Gen.V_main_arg6 m c, Cert.KernelIdeal.Gen.V_main_arg7 m c, Cert.KernelIdeal.Gen.V_main_arg8 m c, Cert.KernelIdeal.Gen.V_main_arg9 m c, Cert.KernelIdeal.Gen.V_main_arg10 m c, Cert.KernelIdeal.Gen.V_main_arg11 m c, Cert.KernelIdeal.Gen.V_main_arg12 m c, Cert.KernelIdeal.Gen.V_main_arg13 m c, Cert.KernelIdeal.Gen.V_main_arg0 m c]
  rfl
theorem kout7 : Cert.KernelIdeal.Gen.V m c Cert.KernelIdeal.main_v468 = o7 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg10)) (m ((c.tc : Thread Cert.KernelIdeal.nD Cert.KernelIdeal.τ).loc Cert.KernelIdeal.main_arg0)) := by
  rw [Cert.KernelIdeal.Gen.step7, Cert.KernelIdeal.Gen.E_gwT, Cert.KernelIdeal.Gen.E_row7568, kout6, kout5]
  rw [Cert.KernelIdeal.Gen.V_main_arg1 m c, Cert.KernelIdeal.Gen.V_main_arg2 m c, Cert.KernelIdeal.Gen.V_main_arg3 m c, Cert.KernelIdeal.Gen.V_main_arg4 m c, Cert.KernelIdeal.Gen.V_main_arg5 m c, Cert.KernelIdeal.Gen.V_main_arg6 m c, Cert.KernelIdeal.Gen.V_main_arg7 m c, Cert.KernelIdeal.Gen.V_main_arg8 m c, Cert.KernelIdeal.Gen.V_main_arg9 m c, Cert.KernelIdeal.Gen.V_main_arg10 m c, Cert.KernelIdeal.Gen.V_main_arg11 m c, Cert.KernelIdeal.Gen.V_main_arg12 m c, Cert.KernelIdeal.Gen.V_main_arg13 m c, Cert.KernelIdeal.Gen.V_main_arg0 m c]
  rfl

end Kernel

/-- The stacked table at (0, b, d) is row 1 at (b, d). -/
theorem stack_apply0 (o1 o2 o3 o4 o5 o6 o7 : (⟨Cert.KernelIdeal.S8x2048, .f32⟩ : BufTy).Contents (Elt F)) (b : Fin 8) (d : Fin 2048) :
    Cert.KernelIdeal.Gen.stackF o1 o2 o3 o4 o5 o6 o7 (ix3 (0 : Fin 7) b d) = o1 (ix2 b d) := by
  unfold Cert.KernelIdeal.Gen.stackF
  refine Eq.trans (concatenate_apply_piece (0 : Fin 3) _ _ (ix3 (0 : Fin 7) b d) 0 ?_ Cert.KernelIdeal.S1x8x2048 _ rfl rfl 0 ?_
    (ix3 (0 : Fin 1) b d) ?_ ?_) ?_
  · show 0 < 7; decide
  · rfl
  · intro a ha
    match a with
    | ⟨0, _⟩ => exact absurd rfl ha
    | ⟨1, _⟩ => rfl
    | ⟨2, _⟩ => rfl
  · show 0 + 0 = 0; rfl
  exact broadcastInDim_apply _ _ o1 (ix3 (0 : Fin 1) b d) (ix2 b d) (fun a => by
    match a with
    | ⟨0, _⟩ => rfl
    | ⟨1, _⟩ => rfl)
theorem updRow_stack0 (o1 o2 o3 o4 o5 o6 o7 : (⟨Cert.KernelIdeal.S8x2048, .f32⟩ : BufTy).Contents (Elt F)) : Cert.KernelIdeal.Gen.updRow 0 (Cert.KernelIdeal.Gen.stackF o1 o2 o3 o4 o5 o6 o7) = o1 := by
  funext j
  obtain ⟨b, d, rfl⟩ : ∃ (b : Fin 8) (d : Fin 2048), j = ix2 b d := ⟨j 0, j 1, eq_ix2 j⟩
  exact stack_apply0 o1 o2 o3 o4 o5 o6 o7 b d
/-- The stacked table at (1, b, d) is row 2 at (b, d). -/
theorem stack_apply1 (o1 o2 o3 o4 o5 o6 o7 : (⟨Cert.KernelIdeal.S8x2048, .f32⟩ : BufTy).Contents (Elt F)) (b : Fin 8) (d : Fin 2048) :
    Cert.KernelIdeal.Gen.stackF o1 o2 o3 o4 o5 o6 o7 (ix3 (1 : Fin 7) b d) = o2 (ix2 b d) := by
  unfold Cert.KernelIdeal.Gen.stackF
  refine Eq.trans (concatenate_apply_piece (0 : Fin 3) _ _ (ix3 (1 : Fin 7) b d) 1 ?_ Cert.KernelIdeal.S1x8x2048 _ rfl rfl 1 ?_
    (ix3 (0 : Fin 1) b d) ?_ ?_) ?_
  · show 1 < 7; decide
  · rfl
  · intro a ha
    match a with
    | ⟨0, _⟩ => exact absurd rfl ha
    | ⟨1, _⟩ => rfl
    | ⟨2, _⟩ => rfl
  · show 1 + 0 = 1; rfl
  exact broadcastInDim_apply _ _ o2 (ix3 (0 : Fin 1) b d) (ix2 b d) (fun a => by
    match a with
    | ⟨0, _⟩ => rfl
    | ⟨1, _⟩ => rfl)
theorem updRow_stack1 (o1 o2 o3 o4 o5 o6 o7 : (⟨Cert.KernelIdeal.S8x2048, .f32⟩ : BufTy).Contents (Elt F)) : Cert.KernelIdeal.Gen.updRow 1 (Cert.KernelIdeal.Gen.stackF o1 o2 o3 o4 o5 o6 o7) = o2 := by
  funext j
  obtain ⟨b, d, rfl⟩ : ∃ (b : Fin 8) (d : Fin 2048), j = ix2 b d := ⟨j 0, j 1, eq_ix2 j⟩
  exact stack_apply1 o1 o2 o3 o4 o5 o6 o7 b d
/-- The stacked table at (2, b, d) is row 3 at (b, d). -/
theorem stack_apply2 (o1 o2 o3 o4 o5 o6 o7 : (⟨Cert.KernelIdeal.S8x2048, .f32⟩ : BufTy).Contents (Elt F)) (b : Fin 8) (d : Fin 2048) :
    Cert.KernelIdeal.Gen.stackF o1 o2 o3 o4 o5 o6 o7 (ix3 (2 : Fin 7) b d) = o3 (ix2 b d) := by
  unfold Cert.KernelIdeal.Gen.stackF
  refine Eq.trans (concatenate_apply_piece (0 : Fin 3) _ _ (ix3 (2 : Fin 7) b d) 2 ?_ Cert.KernelIdeal.S1x8x2048 _ rfl rfl 2 ?_
    (ix3 (0 : Fin 1) b d) ?_ ?_) ?_
  · show 2 < 7; decide
  · rfl
  · intro a ha
    match a with
    | ⟨0, _⟩ => exact absurd rfl ha
    | ⟨1, _⟩ => rfl
    | ⟨2, _⟩ => rfl
  · show 2 + 0 = 2; rfl
  exact broadcastInDim_apply _ _ o3 (ix3 (0 : Fin 1) b d) (ix2 b d) (fun a => by
    match a with
    | ⟨0, _⟩ => rfl
    | ⟨1, _⟩ => rfl)
theorem updRow_stack2 (o1 o2 o3 o4 o5 o6 o7 : (⟨Cert.KernelIdeal.S8x2048, .f32⟩ : BufTy).Contents (Elt F)) : Cert.KernelIdeal.Gen.updRow 2 (Cert.KernelIdeal.Gen.stackF o1 o2 o3 o4 o5 o6 o7) = o3 := by
  funext j
  obtain ⟨b, d, rfl⟩ : ∃ (b : Fin 8) (d : Fin 2048), j = ix2 b d := ⟨j 0, j 1, eq_ix2 j⟩
  exact stack_apply2 o1 o2 o3 o4 o5 o6 o7 b d
/-- The stacked table at (3, b, d) is row 4 at (b, d). -/
theorem stack_apply3 (o1 o2 o3 o4 o5 o6 o7 : (⟨Cert.KernelIdeal.S8x2048, .f32⟩ : BufTy).Contents (Elt F)) (b : Fin 8) (d : Fin 2048) :
    Cert.KernelIdeal.Gen.stackF o1 o2 o3 o4 o5 o6 o7 (ix3 (3 : Fin 7) b d) = o4 (ix2 b d) := by
  unfold Cert.KernelIdeal.Gen.stackF
  refine Eq.trans (concatenate_apply_piece (0 : Fin 3) _ _ (ix3 (3 : Fin 7) b d) 3 ?_ Cert.KernelIdeal.S1x8x2048 _ rfl rfl 3 ?_
    (ix3 (0 : Fin 1) b d) ?_ ?_) ?_
  · show 3 < 7; decide
  · rfl
  · intro a ha
    match a with
    | ⟨0, _⟩ => exact absurd rfl ha
    | ⟨1, _⟩ => rfl
    | ⟨2, _⟩ => rfl
  · show 3 + 0 = 3; rfl
  exact broadcastInDim_apply _ _ o4 (ix3 (0 : Fin 1) b d) (ix2 b d) (fun a => by
    match a with
    | ⟨0, _⟩ => rfl
    | ⟨1, _⟩ => rfl)
theorem updRow_stack3 (o1 o2 o3 o4 o5 o6 o7 : (⟨Cert.KernelIdeal.S8x2048, .f32⟩ : BufTy).Contents (Elt F)) : Cert.KernelIdeal.Gen.updRow 3 (Cert.KernelIdeal.Gen.stackF o1 o2 o3 o4 o5 o6 o7) = o4 := by
  funext j
  obtain ⟨b, d, rfl⟩ : ∃ (b : Fin 8) (d : Fin 2048), j = ix2 b d := ⟨j 0, j 1, eq_ix2 j⟩
  exact stack_apply3 o1 o2 o3 o4 o5 o6 o7 b d
/-- The stacked table at (4, b, d) is row 5 at (b, d). -/
theorem stack_apply4 (o1 o2 o3 o4 o5 o6 o7 : (⟨Cert.KernelIdeal.S8x2048, .f32⟩ : BufTy).Contents (Elt F)) (b : Fin 8) (d : Fin 2048) :
    Cert.KernelIdeal.Gen.stackF o1 o2 o3 o4 o5 o6 o7 (ix3 (4 : Fin 7) b d) = o5 (ix2 b d) := by
  unfold Cert.KernelIdeal.Gen.stackF
  refine Eq.trans (concatenate_apply_piece (0 : Fin 3) _ _ (ix3 (4 : Fin 7) b d) 4 ?_ Cert.KernelIdeal.S1x8x2048 _ rfl rfl 4 ?_
    (ix3 (0 : Fin 1) b d) ?_ ?_) ?_
  · show 4 < 7; decide
  · rfl
  · intro a ha
    match a with
    | ⟨0, _⟩ => exact absurd rfl ha
    | ⟨1, _⟩ => rfl
    | ⟨2, _⟩ => rfl
  · show 4 + 0 = 4; rfl
  exact broadcastInDim_apply _ _ o5 (ix3 (0 : Fin 1) b d) (ix2 b d) (fun a => by
    match a with
    | ⟨0, _⟩ => rfl
    | ⟨1, _⟩ => rfl)
theorem updRow_stack4 (o1 o2 o3 o4 o5 o6 o7 : (⟨Cert.KernelIdeal.S8x2048, .f32⟩ : BufTy).Contents (Elt F)) : Cert.KernelIdeal.Gen.updRow 4 (Cert.KernelIdeal.Gen.stackF o1 o2 o3 o4 o5 o6 o7) = o5 := by
  funext j
  obtain ⟨b, d, rfl⟩ : ∃ (b : Fin 8) (d : Fin 2048), j = ix2 b d := ⟨j 0, j 1, eq_ix2 j⟩
  exact stack_apply4 o1 o2 o3 o4 o5 o6 o7 b d
/-- The stacked table at (5, b, d) is row 6 at (b, d). -/
theorem stack_apply5 (o1 o2 o3 o4 o5 o6 o7 : (⟨Cert.KernelIdeal.S8x2048, .f32⟩ : BufTy).Contents (Elt F)) (b : Fin 8) (d : Fin 2048) :
    Cert.KernelIdeal.Gen.stackF o1 o2 o3 o4 o5 o6 o7 (ix3 (5 : Fin 7) b d) = o6 (ix2 b d) := by
  unfold Cert.KernelIdeal.Gen.stackF
  refine Eq.trans (concatenate_apply_piece (0 : Fin 3) _ _ (ix3 (5 : Fin 7) b d) 5 ?_ Cert.KernelIdeal.S1x8x2048 _ rfl rfl 5 ?_
    (ix3 (0 : Fin 1) b d) ?_ ?_) ?_
  · show 5 < 7; decide
  · rfl
  · intro a ha
    match a with
    | ⟨0, _⟩ => exact absurd rfl ha
    | ⟨1, _⟩ => rfl
    | ⟨2, _⟩ => rfl
  · show 5 + 0 = 5; rfl
  exact broadcastInDim_apply _ _ o6 (ix3 (0 : Fin 1) b d) (ix2 b d) (fun a => by
    match a with
    | ⟨0, _⟩ => rfl
    | ⟨1, _⟩ => rfl)
theorem updRow_stack5 (o1 o2 o3 o4 o5 o6 o7 : (⟨Cert.KernelIdeal.S8x2048, .f32⟩ : BufTy).Contents (Elt F)) : Cert.KernelIdeal.Gen.updRow 5 (Cert.KernelIdeal.Gen.stackF o1 o2 o3 o4 o5 o6 o7) = o6 := by
  funext j
  obtain ⟨b, d, rfl⟩ : ∃ (b : Fin 8) (d : Fin 2048), j = ix2 b d := ⟨j 0, j 1, eq_ix2 j⟩
  exact stack_apply5 o1 o2 o3 o4 o5 o6 o7 b d
/-- The stacked table at (6, b, d) is row 7 at (b, d). -/
theorem stack_apply6 (o1 o2 o3 o4 o5 o6 o7 : (⟨Cert.KernelIdeal.S8x2048, .f32⟩ : BufTy).Contents (Elt F)) (b : Fin 8) (d : Fin 2048) :
    Cert.KernelIdeal.Gen.stackF o1 o2 o3 o4 o5 o6 o7 (ix3 (6 : Fin 7) b d) = o7 (ix2 b d) := by
  unfold Cert.KernelIdeal.Gen.stackF
  refine Eq.trans (concatenate_apply_piece (0 : Fin 3) _ _ (ix3 (6 : Fin 7) b d) 6 ?_ Cert.KernelIdeal.S1x8x2048 _ rfl rfl 6 ?_
    (ix3 (0 : Fin 1) b d) ?_ ?_) ?_
  · show 6 < 7; decide
  · rfl
  · intro a ha
    match a with
    | ⟨0, _⟩ => exact absurd rfl ha
    | ⟨1, _⟩ => rfl
    | ⟨2, _⟩ => rfl
  · show 6 + 0 = 6; rfl
  exact broadcastInDim_apply _ _ o7 (ix3 (0 : Fin 1) b d) (ix2 b d) (fun a => by
    match a with
    | ⟨0, _⟩ => rfl
    | ⟨1, _⟩ => rfl)
theorem updRow_stack6 (o1 o2 o3 o4 o5 o6 o7 : (⟨Cert.KernelIdeal.S8x2048, .f32⟩ : BufTy).Contents (Elt F)) : Cert.KernelIdeal.Gen.updRow 6 (Cert.KernelIdeal.Gen.stackF o1 o2 o3 o4 o5 o6 o7) = o7 := by
  funext j
  obtain ⟨b, d, rfl⟩ : ∃ (b : Fin 8) (d : Fin 2048), j = ix2 b d := ⟨j 0, j 1, eq_ix2 j⟩
  exact stack_apply6 o1 o2 o3 o4 o5 o6 o7 b d

section Kernel2

variable (m : (ℓ : Loc Cert.KernelIdeal.nD Cert.KernelIdeal.τ Cert.KernelIdeal.sig) → Buf (Elt F) ℓ) (c : Dev Cert.KernelIdeal.nD)

/-- The kernel's result array is the specification's. -/
theorem kernel_result : Cert.KernelIdeal.Gen.finalA (m ((c.tc : Thread Cert.KernelIdeal.nD Cert.KernelIdeal.τ).loc Cert.KernelIdeal.main_arg0)) (Cert.KernelIdeal.Gen.V m c Cert.KernelIdeal.main_v476) = result (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg10)) (m ((c.tc : Thread Cert.KernelIdeal.nD Cert.KernelIdeal.τ).loc Cert.KernelIdeal.main_arg0)) := by
  rw [Cert.KernelIdeal.Gen.E_upd, kout1, kout2, kout3, kout4, kout5, kout6, kout7]
  unfold Cert.KernelIdeal.Gen.finalA result
  rw [updRow_stack0, updRow_stack1, updRow_stack2, updRow_stack3, updRow_stack4, updRow_stack5, updRow_stack6]

end Kernel2

/-! ## The reference's array is the same -/

section Reference

variable (m' : (ℓ : Loc Cert.ReferenceIdeal.nD Cert.ReferenceIdeal.τ Cert.ReferenceIdeal.sig) → Buf (Elt F) ℓ) (c : Dev Cert.ReferenceIdeal.nD)

theorem rarg (b : Ref Cert.ReferenceIdeal.sig .tc) (h : b ∉ Cert.ReferenceIdeal.Gen.wrFrom0) : Cert.ReferenceIdeal.Gen.Rv m' c b = m' ((c.tc : Thread Cert.ReferenceIdeal.nD Cert.ReferenceIdeal.τ).loc b) :=
  Cert.ReferenceIdeal.Gen.Rv_arg m' c b h
theorem rout1 : Cert.ReferenceIdeal.Gen.Rv m' c Cert.ReferenceIdeal.main_v70 = o1 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0)) := by
  rw [Cert.ReferenceIdeal.Gen.step1, rarg m' c Cert.ReferenceIdeal.main_arg0 (by decide)]
  simp only [rarg m' c Cert.ReferenceIdeal.main_arg1 (by decide), rarg m' c Cert.ReferenceIdeal.main_arg2 (by decide), rarg m' c Cert.ReferenceIdeal.main_arg3 (by decide), rarg m' c Cert.ReferenceIdeal.main_arg4 (by decide), rarg m' c Cert.ReferenceIdeal.main_arg5 (by decide), rarg m' c Cert.ReferenceIdeal.main_arg6 (by decide), rarg m' c Cert.ReferenceIdeal.main_arg7 (by decide), rarg m' c Cert.ReferenceIdeal.main_arg8 (by decide), rarg m' c Cert.ReferenceIdeal.main_arg9 (by decide), rarg m' c Cert.ReferenceIdeal.main_arg10 (by decide), rarg m' c Cert.ReferenceIdeal.main_arg11 (by decide), rarg m' c Cert.ReferenceIdeal.main_arg12 (by decide), rarg m' c Cert.ReferenceIdeal.main_arg13 (by decide)]
  rfl
theorem rh1 : Cert.ReferenceIdeal.Gen.Rv m' c Cert.ReferenceIdeal.main_v72 = (setRow (B := 8) (N := 8192) (C := 2048) 12 (o1 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) ((m' ((c.tc : Thread Cert.ReferenceIdeal.nD Cert.ReferenceIdeal.τ).loc Cert.ReferenceIdeal.main_arg0)))) := by
  rw [Cert.ReferenceIdeal.Gen.E_h1, rarg m' c Cert.ReferenceIdeal.main_arg0 (by decide), rout1, setRowF_eq 12#32 12 (by decide) (by decide)]
theorem rout2 : Cert.ReferenceIdeal.Gen.Rv m' c Cert.ReferenceIdeal.main_v143 = o2 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0)) := by
  rw [Cert.ReferenceIdeal.Gen.step2, rh1, rowAt_ne 12 36 (by decide) (by decide), rowAt_same 12 (by decide), rowAt_ne 12 4 (by decide) (by decide)]
  simp only [rarg m' c Cert.ReferenceIdeal.main_arg1 (by decide), rarg m' c Cert.ReferenceIdeal.main_arg2 (by decide), rarg m' c Cert.ReferenceIdeal.main_arg3 (by decide), rarg m' c Cert.ReferenceIdeal.main_arg4 (by decide), rarg m' c Cert.ReferenceIdeal.main_arg5 (by decide), rarg m' c Cert.ReferenceIdeal.main_arg6 (by decide), rarg m' c Cert.ReferenceIdeal.main_arg7 (by decide), rarg m' c Cert.ReferenceIdeal.main_arg8 (by decide), rarg m' c Cert.ReferenceIdeal.main_arg9 (by decide), rarg m' c Cert.ReferenceIdeal.main_arg10 (by decide), rarg m' c Cert.ReferenceIdeal.main_arg11 (by decide), rarg m' c Cert.ReferenceIdeal.main_arg12 (by decide), rarg m' c Cert.ReferenceIdeal.main_arg13 (by decide)]
  rfl
theorem rh2 : Cert.ReferenceIdeal.Gen.Rv m' c Cert.ReferenceIdeal.main_v145 = (setRow (B := 8) (N := 8192) (C := 2048) 36 (o2 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) (setRow (B := 8) (N := 8192) (C := 2048) 12 (o1 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) ((m' ((c.tc : Thread Cert.ReferenceIdeal.nD Cert.ReferenceIdeal.τ).loc Cert.ReferenceIdeal.main_arg0))))) := by
  rw [Cert.ReferenceIdeal.Gen.E_h2, rh1, rout2, setRowF_eq 36#32 36 (by decide) (by decide)]
theorem rout3 : Cert.ReferenceIdeal.Gen.Rv m' c Cert.ReferenceIdeal.main_v216 = o3 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0)) := by
  rw [Cert.ReferenceIdeal.Gen.step3, rh2, rowAt_ne 36 104 (by decide) (by decide), rowAt_ne 12 104 (by decide) (by decide), rowAt_same 36 (by decide), rowAt_ne 36 12 (by decide) (by decide), rowAt_same 12 (by decide)]
  simp only [rarg m' c Cert.ReferenceIdeal.main_arg1 (by decide), rarg m' c Cert.ReferenceIdeal.main_arg2 (by decide), rarg m' c Cert.ReferenceIdeal.main_arg3 (by decide), rarg m' c Cert.ReferenceIdeal.main_arg4 (by decide), rarg m' c Cert.ReferenceIdeal.main_arg5 (by decide), rarg m' c Cert.ReferenceIdeal.main_arg6 (by decide), rarg m' c Cert.ReferenceIdeal.main_arg7 (by decide), rarg m' c Cert.ReferenceIdeal.main_arg8 (by decide), rarg m' c Cert.ReferenceIdeal.main_arg9 (by decide), rarg m' c Cert.ReferenceIdeal.main_arg10 (by decide), rarg m' c Cert.ReferenceIdeal.main_arg11 (by decide), rarg m' c Cert.ReferenceIdeal.main_arg12 (by decide), rarg m' c Cert.ReferenceIdeal.main_arg13 (by decide)]
  rfl
theorem rh3 : Cert.ReferenceIdeal.Gen.Rv m' c Cert.ReferenceIdeal.main_v218 = (setRow (B := 8) (N := 8192) (C := 2048) 104 (o3 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) (setRow (B := 8) (N := 8192) (C := 2048) 36 (o2 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) (setRow (B := 8) (N := 8192) (C := 2048) 12 (o1 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) ((m' ((c.tc : Thread Cert.ReferenceIdeal.nD Cert.ReferenceIdeal.τ).loc Cert.ReferenceIdeal.main_arg0)))))) := by
  rw [Cert.ReferenceIdeal.Gen.E_h3, rh2, rout3, setRowF_eq 104#32 104 (by decide) (by decide)]
theorem rout4 : Cert.ReferenceIdeal.Gen.Rv m' c Cert.ReferenceIdeal.main_v289 = o4 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0)) := by
  rw [Cert.ReferenceIdeal.Gen.step4, rh3, rowAt_ne 104 304 (by decide) (by decide), rowAt_ne 36 304 (by decide) (by decide), rowAt_ne 12 304 (by decide) (by decide), rowAt_same 104 (by decide), rowAt_ne 104 36 (by decide) (by decide), rowAt_same 36 (by decide)]
  simp only [rarg m' c Cert.ReferenceIdeal.main_arg1 (by decide), rarg m' c Cert.ReferenceIdeal.main_arg2 (by decide), rarg m' c Cert.ReferenceIdeal.main_arg3 (by decide), rarg m' c Cert.ReferenceIdeal.main_arg4 (by decide), rarg m' c Cert.ReferenceIdeal.main_arg5 (by decide), rarg m' c Cert.ReferenceIdeal.main_arg6 (by decide), rarg m' c Cert.ReferenceIdeal.main_arg7 (by decide), rarg m' c Cert.ReferenceIdeal.main_arg8 (by decide), rarg m' c Cert.ReferenceIdeal.main_arg9 (by decide), rarg m' c Cert.ReferenceIdeal.main_arg10 (by decide), rarg m' c Cert.ReferenceIdeal.main_arg11 (by decide), rarg m' c Cert.ReferenceIdeal.main_arg12 (by decide), rarg m' c Cert.ReferenceIdeal.main_arg13 (by decide)]
  rfl
theorem rh4 : Cert.ReferenceIdeal.Gen.Rv m' c Cert.ReferenceIdeal.main_v291 = (setRow (B := 8) (N := 8192) (C := 2048) 304 (o4 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) (setRow (B := 8) (N := 8192) (C := 2048) 104 (o3 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) (setRow (B := 8) (N := 8192) (C := 2048) 36 (o2 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) (setRow (B := 8) (N := 8192) (C := 2048) 12 (o1 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) ((m' ((c.tc : Thread Cert.ReferenceIdeal.nD Cert.ReferenceIdeal.τ).loc Cert.ReferenceIdeal.main_arg0))))))) := by
  rw [Cert.ReferenceIdeal.Gen.E_h4, rh3, rout4, setRowF_eq 304#32 304 (by decide) (by decide)]
theorem rout5 : Cert.ReferenceIdeal.Gen.Rv m' c Cert.ReferenceIdeal.main_v362 = o5 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0)) := by
  rw [Cert.ReferenceIdeal.Gen.step5, rh4, rowAt_ne 304 888 (by decide) (by decide), rowAt_ne 104 888 (by decide) (by decide), rowAt_ne 36 888 (by decide) (by decide), rowAt_ne 12 888 (by decide) (by decide), rowAt_same 304 (by decide), rowAt_ne 304 104 (by decide) (by decide), rowAt_same 104 (by decide)]
  simp only [rarg m' c Cert.ReferenceIdeal.main_arg1 (by decide), rarg m' c Cert.ReferenceIdeal.main_arg2 (by decide), rarg m' c Cert.ReferenceIdeal.main_arg3 (by decide), rarg m' c Cert.ReferenceIdeal.main_arg4 (by decide), rarg m' c Cert.ReferenceIdeal.main_arg5 (by decide), rarg m' c Cert.ReferenceIdeal.main_arg6 (by decide), rarg m' c Cert.ReferenceIdeal.main_arg7 (by decide), rarg m' c Cert.ReferenceIdeal.main_arg8 (by decide), rarg m' c Cert.ReferenceIdeal.main_arg9 (by decide), rarg m' c Cert.ReferenceIdeal.main_arg10 (by decide), rarg m' c Cert.ReferenceIdeal.main_arg11 (by decide), rarg m' c Cert.ReferenceIdeal.main_arg12 (by decide), rarg m' c Cert.ReferenceIdeal.main_arg13 (by decide)]
  rfl
theorem rh5 : Cert.ReferenceIdeal.Gen.Rv m' c Cert.ReferenceIdeal.main_v364 = (setRow (B := 8) (N := 8192) (C := 2048) 888 (o5 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) (setRow (B := 8) (N := 8192) (C := 2048) 304 (o4 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) (setRow (B := 8) (N := 8192) (C := 2048) 104 (o3 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) (setRow (B := 8) (N := 8192) (C := 2048) 36 (o2 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) (setRow (B := 8) (N := 8192) (C := 2048) 12 (o1 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) ((m' ((c.tc : Thread Cert.ReferenceIdeal.nD Cert.ReferenceIdeal.τ).loc Cert.ReferenceIdeal.main_arg0)))))))) := by
  rw [Cert.ReferenceIdeal.Gen.E_h5, rh4, rout5, setRowF_eq 888#32 888 (by decide) (by decide)]
theorem rout6 : Cert.ReferenceIdeal.Gen.Rv m' c Cert.ReferenceIdeal.main_v435 = o6 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0)) := by
  rw [Cert.ReferenceIdeal.Gen.step6, rh5, rowAt_ne 888 2592 (by decide) (by decide), rowAt_ne 304 2592 (by decide) (by decide), rowAt_ne 104 2592 (by decide) (by decide), rowAt_ne 36 2592 (by decide) (by decide), rowAt_ne 12 2592 (by decide) (by decide), rowAt_same 888 (by decide), rowAt_ne 888 304 (by decide) (by decide), rowAt_same 304 (by decide)]
  simp only [rarg m' c Cert.ReferenceIdeal.main_arg1 (by decide), rarg m' c Cert.ReferenceIdeal.main_arg2 (by decide), rarg m' c Cert.ReferenceIdeal.main_arg3 (by decide), rarg m' c Cert.ReferenceIdeal.main_arg4 (by decide), rarg m' c Cert.ReferenceIdeal.main_arg5 (by decide), rarg m' c Cert.ReferenceIdeal.main_arg6 (by decide), rarg m' c Cert.ReferenceIdeal.main_arg7 (by decide), rarg m' c Cert.ReferenceIdeal.main_arg8 (by decide), rarg m' c Cert.ReferenceIdeal.main_arg9 (by decide), rarg m' c Cert.ReferenceIdeal.main_arg10 (by decide), rarg m' c Cert.ReferenceIdeal.main_arg11 (by decide), rarg m' c Cert.ReferenceIdeal.main_arg12 (by decide), rarg m' c Cert.ReferenceIdeal.main_arg13 (by decide)]
  rfl
theorem rh6 : Cert.ReferenceIdeal.Gen.Rv m' c Cert.ReferenceIdeal.main_v437 = (setRow (B := 8) (N := 8192) (C := 2048) 2592 (o6 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) (setRow (B := 8) (N := 8192) (C := 2048) 888 (o5 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) (setRow (B := 8) (N := 8192) (C := 2048) 304 (o4 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) (setRow (B := 8) (N := 8192) (C := 2048) 104 (o3 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) (setRow (B := 8) (N := 8192) (C := 2048) 36 (o2 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) (setRow (B := 8) (N := 8192) (C := 2048) 12 (o1 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) ((m' ((c.tc : Thread Cert.ReferenceIdeal.nD Cert.ReferenceIdeal.τ).loc Cert.ReferenceIdeal.main_arg0))))))))) := by
  rw [Cert.ReferenceIdeal.Gen.E_h6, rh5, rout6, setRowF_eq 2592#32 2592 (by decide) (by decide)]
theorem rout7 : Cert.ReferenceIdeal.Gen.Rv m' c Cert.ReferenceIdeal.main_v508 = o7 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0)) := by
  rw [Cert.ReferenceIdeal.Gen.step7, rh6, rowAt_ne 2592 7568 (by decide) (by decide), rowAt_ne 888 7568 (by decide) (by decide), rowAt_ne 304 7568 (by decide) (by decide), rowAt_ne 104 7568 (by decide) (by decide), rowAt_ne 36 7568 (by decide) (by decide), rowAt_ne 12 7568 (by decide) (by decide), rowAt_same 2592 (by decide), rowAt_ne 2592 888 (by decide) (by decide), rowAt_same 888 (by decide)]
  simp only [rarg m' c Cert.ReferenceIdeal.main_arg1 (by decide), rarg m' c Cert.ReferenceIdeal.main_arg2 (by decide), rarg m' c Cert.ReferenceIdeal.main_arg3 (by decide), rarg m' c Cert.ReferenceIdeal.main_arg4 (by decide), rarg m' c Cert.ReferenceIdeal.main_arg5 (by decide), rarg m' c Cert.ReferenceIdeal.main_arg6 (by decide), rarg m' c Cert.ReferenceIdeal.main_arg7 (by decide), rarg m' c Cert.ReferenceIdeal.main_arg8 (by decide), rarg m' c Cert.ReferenceIdeal.main_arg9 (by decide), rarg m' c Cert.ReferenceIdeal.main_arg10 (by decide), rarg m' c Cert.ReferenceIdeal.main_arg11 (by decide), rarg m' c Cert.ReferenceIdeal.main_arg12 (by decide), rarg m' c Cert.ReferenceIdeal.main_arg13 (by decide)]
  rfl
theorem rh7 : Cert.ReferenceIdeal.Gen.Rv m' c Cert.ReferenceIdeal.main_v510 = (setRow (B := 8) (N := 8192) (C := 2048) 7568 (o7 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) (setRow (B := 8) (N := 8192) (C := 2048) 2592 (o6 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) (setRow (B := 8) (N := 8192) (C := 2048) 888 (o5 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) (setRow (B := 8) (N := 8192) (C := 2048) 304 (o4 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) (setRow (B := 8) (N := 8192) (C := 2048) 104 (o3 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) (setRow (B := 8) (N := 8192) (C := 2048) 36 (o2 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) (setRow (B := 8) (N := 8192) (C := 2048) 12 (o1 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0))) ((m' ((c.tc : Thread Cert.ReferenceIdeal.nD Cert.ReferenceIdeal.τ).loc Cert.ReferenceIdeal.main_arg0)))))))))) := by
  rw [Cert.ReferenceIdeal.Gen.E_h7, rh6, rout7, setRowF_eq 7568#32 7568 (by decide) (by decide)]

/-- The reference's result array is the specification's. -/
theorem reference_result : Cert.ReferenceIdeal.Gen.Rv m' c Cert.ReferenceIdeal.main_v510 = result (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg0)) := by
  rw [rh7]; rfl

end Reference

end Cert.Bridge

end
-- ==== Proof.lean ====
/-
  The certificate: a kernel that copies x block by block and overwrites seven of its rows with the rows of a
  table computed beforehand on the host, against a reference that computes the same seven rows one after the other
  and writes each into the array as it goes.

  Frames.  The kernel's entry function (at the word level and idealized alike) is a line of host operations that
  write no argument, then one launch whose body only reads its two inputs: every execution terminates and the
  arguments end as they began.  The reference is a line of host operations that write no argument.

  Values.  Nothing about real arithmetic is used: the two programs apply the same operations to the same values
  in the same order, and differ only in where the intermediate rows live.  The kernel's launch leaves x with table
  row k at row r_k; the table's rows are the recurrence's new rows; the reference's array after its seven updates
  is x with the same rows at the same places, because a row cut out of an array sees through replacements of other
  rows.  The two results are one function of the arguments.
-/
import proofs.«134958_j16810501996613_1_alg».proof.Defs
import proofs.«134958_j16810501996613_1_alg».proof.Proof.KBFrame
import proofs.«134958_j16810501996613_1_alg».proof.Proof.Bridge
import proofs.«134958_j16810501996613_1_alg».proof.Proof.Gen.Pre_finite_inputs
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- No operation of the reference writes an argument. -/
theorem frame_ri : Cert.frame_ReferenceIdeal := fun m ρ _ =>
  (θ_run Cert.ReferenceIdeal.defs _ _).mono (fun _ h c => ⟨(h c Cert.ReferenceIdeal.main_arg0).trans (Cert.ReferenceIdeal.Gen.Rv_arg m c Cert.ReferenceIdeal.main_arg0 (by decide)),
    (h c Cert.ReferenceIdeal.main_arg1).trans (Cert.ReferenceIdeal.Gen.Rv_arg m c Cert.ReferenceIdeal.main_arg1 (by decide)),
    (h c Cert.ReferenceIdeal.main_arg2).trans (Cert.ReferenceIdeal.Gen.Rv_arg m c Cert.ReferenceIdeal.main_arg2 (by decide)),
    (h c Cert.ReferenceIdeal.main_arg3).trans (Cert.ReferenceIdeal.Gen.Rv_arg m c Cert.ReferenceIdeal.main_arg3 (by decide)),
    (h c Cert.ReferenceIdeal.main_arg4).trans (Cert.ReferenceIdeal.Gen.Rv_arg m c Cert.ReferenceIdeal.main_arg4 (by decide)),
    (h c Cert.ReferenceIdeal.main_arg5).trans (Cert.ReferenceIdeal.Gen.Rv_arg m c Cert.ReferenceIdeal.main_arg5 (by decide)),
    (h c Cert.ReferenceIdeal.main_arg6).trans (Cert.ReferenceIdeal.Gen.Rv_arg m c Cert.ReferenceIdeal.main_arg6 (by decide)),
    (h c Cert.ReferenceIdeal.main_arg7).trans (Cert.ReferenceIdeal.Gen.Rv_arg m c Cert.ReferenceIdeal.main_arg7 (by decide)),
    (h c Cert.ReferenceIdeal.main_arg8).trans (Cert.ReferenceIdeal.Gen.Rv_arg m c Cert.ReferenceIdeal.main_arg8 (by decide)),
    (h c Cert.ReferenceIdeal.main_arg9).trans (Cert.ReferenceIdeal.Gen.Rv_arg m c Cert.ReferenceIdeal.main_arg9 (by decide)),
    (h c Cert.ReferenceIdeal.main_arg10).trans (Cert.ReferenceIdeal.Gen.Rv_arg m c Cert.ReferenceIdeal.main_arg10 (by decide)),
    (h c Cert.ReferenceIdeal.main_arg11).trans (Cert.ReferenceIdeal.Gen.Rv_arg m c Cert.ReferenceIdeal.main_arg11 (by decide)),
    (h c Cert.ReferenceIdeal.main_arg12).trans (Cert.ReferenceIdeal.Gen.Rv_arg m c Cert.ReferenceIdeal.main_arg12 (by decide)),
    (h c Cert.ReferenceIdeal.main_arg13).trans (Cert.ReferenceIdeal.Gen.Rv_arg m c Cert.ReferenceIdeal.main_arg13 (by decide))⟩)
    (Cert.ReferenceIdeal.Gen.run_ops (F := Ideal) m ρ)

/-- Both programs end with x in which the seven rows of the recurrence stand at their positions. -/
theorem algebraic : Cert.algebraic_KernelIdeal_ReferenceIdeal := by
  intro m ρ m' ρ' _ hagree
  refine ⟨fun c => Cert.KernelIdeal.Gen.finalA (m ((c.tc : Thread Cert.KernelIdeal.nD Cert.KernelIdeal.τ).loc Cert.KernelIdeal.main_arg0)) (Cert.KernelIdeal.Gen.V m c Cert.KernelIdeal.main_v476),
    Cert.KernelIdeal.Gen.run_value (F := Ideal) m ρ, ?_⟩
  refine (θ_run Cert.ReferenceIdeal.defs _ _).mono (fun r h c => ⟨?_, (h c Cert.ReferenceIdeal.main_arg0).trans (Cert.ReferenceIdeal.Gen.Rv_arg m' c Cert.ReferenceIdeal.main_arg0 (by decide)),
    (h c Cert.ReferenceIdeal.main_arg1).trans (Cert.ReferenceIdeal.Gen.Rv_arg m' c Cert.ReferenceIdeal.main_arg1 (by decide)),
    (h c Cert.ReferenceIdeal.main_arg2).trans (Cert.ReferenceIdeal.Gen.Rv_arg m' c Cert.ReferenceIdeal.main_arg2 (by decide)),
    (h c Cert.ReferenceIdeal.main_arg3).trans (Cert.ReferenceIdeal.Gen.Rv_arg m' c Cert.ReferenceIdeal.main_arg3 (by decide)),
    (h c Cert.ReferenceIdeal.main_arg4).trans (Cert.ReferenceIdeal.Gen.Rv_arg m' c Cert.ReferenceIdeal.main_arg4 (by decide)),
    (h c Cert.ReferenceIdeal.main_arg5).trans (Cert.ReferenceIdeal.Gen.Rv_arg m' c Cert.ReferenceIdeal.main_arg5 (by decide)),
    (h c Cert.ReferenceIdeal.main_arg6).trans (Cert.ReferenceIdeal.Gen.Rv_arg m' c Cert.ReferenceIdeal.main_arg6 (by decide)),
    (h c Cert.ReferenceIdeal.main_arg7).trans (Cert.ReferenceIdeal.Gen.Rv_arg m' c Cert.ReferenceIdeal.main_arg7 (by decide)),
    (h c Cert.ReferenceIdeal.main_arg8).trans (Cert.ReferenceIdeal.Gen.Rv_arg m' c Cert.ReferenceIdeal.main_arg8 (by decide)),
    (h c Cert.ReferenceIdeal.main_arg9).trans (Cert.ReferenceIdeal.Gen.Rv_arg m' c Cert.ReferenceIdeal.main_arg9 (by decide)),
    (h c Cert.ReferenceIdeal.main_arg10).trans (Cert.ReferenceIdeal.Gen.Rv_arg m' c Cert.ReferenceIdeal.main_arg10 (by decide)),
    (h c Cert.ReferenceIdeal.main_arg11).trans (Cert.ReferenceIdeal.Gen.Rv_arg m' c Cert.ReferenceIdeal.main_arg11 (by decide)),
    (h c Cert.ReferenceIdeal.main_arg12).trans (Cert.ReferenceIdeal.Gen.Rv_arg m' c Cert.ReferenceIdeal.main_arg12 (by decide)),
    (h c Cert.ReferenceIdeal.main_arg13).trans (Cert.ReferenceIdeal.Gen.Rv_arg m' c Cert.ReferenceIdeal.main_arg13 (by decide))⟩)
    (Cert.ReferenceIdeal.Gen.run_ops (F := Ideal) m' ρ')
  refine (h c Cert.ReferenceIdeal.main_v510).trans ?_
  refine (Cert.Bridge.reference_result m' c).trans ?_
  refine Eq.trans ?_ (Cert.Bridge.kernel_result m c).symm
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
